-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_arg11 : FVec F S4096x64 .f32) (main_v48 : IVec S_ 1) (main_v49 : FVec F S4096x64 .f32) (main_v50 : FVec F S4096x64 .f32) : IVec S_ 1 :=
  let main_v51 : IVec S4096x64 1 := cmpf .olt main_v49 main_v50
  let main_c_19 : IVec S_ 1 := constantI S_ 1 1#1
  let main_v52 : IVec S_ 1 := (fun x v => Host.reduce IntOp.andi x v reducesTo_S4096x64_S_d0_1 h_S_) main_v51 main_c_19
  let main_v53 : IVec S_ 1 := andi main_v48 main_v52
  let main_v54 : FVec F S4096x64 .f32 := Host.absf main_arg11
  let main_cst_20 : FVec F S_ .f32 := constant S_ .f32 0x7F800000#32
  let main_v55 : FVec F S4096x64 .f32 := broadcastInDim S4096x64 ![] bcast_S_S4096x64 main_cst_20
  let main_v56 : IVec S4096x64 1 := cmpf .olt main_v54 main_v55
  let main_c_21 : IVec S_ 1 := constantI S_ 1 1#1
  let main_v57 : IVec S_ 1 := (fun x v => Host.reduce IntOp.andi x v reducesTo_S4096x64_S_d0_1 h_S_) main_v56 main_c_21
  let main_v58 : IVec S_ 1 := andi main_v53 main_v57
  main_v58

def fn_part2 {F : FTy → Type} [FloatOps F] (main_arg7 : FVec F S4096x4096 .f32) (main_arg8 : FVec F S4096x4096 .f32) (main_arg9 : FVec F S4096x64 .f32) (main_arg10 : FVec F S4096x64 .f32) (main_arg11 : FVec F S4096x64 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x64 .f32 := Host.absf main_arg9
  let main_cst_16 : FVec F S_ .f32 := constant S_ .f32 0x7F800000#32
  let main_v45 : FVec F S4096x64 .f32 := broadcastInDim S4096x64 ![] bcast_S_S4096x64 main_cst_16
  let main_v46 : IVec S4096x64 1 := cmpf .olt main_v44 main_v45
  let main_c_17 : IVec S_ 1 := constantI S_ 1 1#1
  let main_v47 : IVec S_ 1 := (fun x v => Host.reduce IntOp.andi x v reducesTo_S4096x64_S_d0_1 h_S_) main_v46 main_c_17
  let main_v48 : IVec S_ 1 := andi main_v43 main_v47
  let main_v49 : FVec F S4096x64 .f32 := Host.absf main_arg10
  let main_cst_18 : FVec F S_ .f32 := constant S_ .f32 0x7F800000#32
  let main_v50 : FVec F S4096x64 .f32 := broadcastInDim S4096x64 ![] bcast_S_S4096x64 main_cst_18
  fn_part3 (F := F) main_arg11 main_v48 main_v49 main_v50

def fn_part1 {F : FTy → Type} [FloatOps F] (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x64 .f32) (main_arg10 : FVec F S4096x64 .f32) (main_arg11 : FVec F S4096x64 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x64 .f32) (main_arg1 : FVec F S4096x64 .f32) (main_arg2 : FVec F S4096x4096 .f32) (main_arg3 : FVec F S4096x4096 .f32) (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x64 .f32) (main_arg10 : FVec F S4096x64 .f32) (main_arg11 : FVec F S4096x64 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_v13 main_v16
-- ==== Kernel.lean ====
abbrev S4096x64 : Shape := ⟨2, ![4096, 64]⟩
abbrev S4096x4096 : Shape := ⟨2, ![4096, 4096]⟩
abbrev S_ : Shape := ⟨0, ![]⟩
abbrev S512x4096 : Shape := ⟨2, ![512, 4096]⟩
abbrev S512x64 : Shape := ⟨2, ![512, 64]⟩
abbrev S1x4096 : Shape := ⟨2, ![1, 4096]⟩
abbrev S512 : Shape := ⟨1, ![512]⟩
abbrev S512x1 : Shape := ⟨2, ![512, 1]⟩
abbrev S4096 : Shape := ⟨1, ![4096]⟩
abbrev S4096x1 : Shape := ⟨2, ![4096, 1]⟩
abbrev S1x4096x64 : Shape := ⟨3, ![1, 4096, 64]⟩
abbrev S4x4096x64 : Shape := ⟨3, ![4, 4096, 64]⟩
abbrev S3x4096x64 : Shape := ⟨3, ![3, 4096, 64]⟩
abbrev S14x4096x64 : Shape := ⟨3, ![14, 4096, 64]⟩

abbrev nBuf : Space → Nat
  | .hbm => 160
  | .vmem => 140
  | .smem => 0
  | _ => 0

abbrev hbmTy0_0 (i : Nat) : BufTy := match i % 128 with
  | 0 => ⟨S4096x64, .f32⟩
  | 1 => ⟨S4096x64, .f32⟩
  | 2 => ⟨S4096x4096, .f32⟩
  | 3 => ⟨S4096x4096, .f32⟩
  | 4 => ⟨S4096x4096, .f32⟩
  | 5 => ⟨S4096x4096, .f32⟩
  | 6 => ⟨S4096x4096, .f32⟩
  | 7 => ⟨S4096x4096, .f32⟩
  | 8 => ⟨S4096x4096, .f32⟩
  | 9 => ⟨S4096x64, .f32⟩
  | 10 => ⟨S4096x64, .f32⟩
  | 11 => ⟨S4096x64, .f32⟩
  | 12 => ⟨S_, .f32⟩
  | 13 => ⟨S4096x64, .f32⟩
  | 14 => ⟨S_, .f32⟩
  | 15 => ⟨S4096x64, .f32⟩
  | 16 => ⟨S4096x64, .f32⟩
  | 17 => ⟨S4096x64, .f32⟩
  | 18 => ⟨S4096x64, .f32⟩
  | 19 => ⟨S4096x64, .f32⟩
  | 20 => ⟨S4096x64, .f32⟩
  | 21 => ⟨S4096x64, .f32⟩
  | 22 => ⟨S4096x64, .f32⟩
  | 23 => ⟨S4096x64, .f32⟩
  | 24 => ⟨S_, .f32⟩
  | 25 => ⟨S4096x64, .f32⟩
  | 26 => ⟨S4096x64, .f32⟩
  | 27 => ⟨S_, .f32⟩
  | 28 => ⟨S4096x64, .f32⟩
  | 29 => ⟨S4096x64, .f32⟩
  | 30 => ⟨S_, .f32⟩
  | 31 => ⟨S4096x64, .f32⟩
  | 32 => ⟨S_, .f32⟩
  | 33 => ⟨S4096x64, .f32⟩
  | 34 => ⟨S4096x64, .f32⟩
  | 35 => ⟨S4096x64, .f32⟩
  | 36 => ⟨S4096x64, .f32⟩
  | 37 => ⟨S4096x64, .f32⟩
  | 38 => ⟨S4096x64, .f32⟩
  | 39 => ⟨S4096x64, .f32⟩
  | 40 => ⟨S4096x64, .f32⟩
  | 41 => ⟨S4096x64, .f32⟩
  | 42 => ⟨S_, .f32⟩
  | 43 => ⟨S4096x64, .f32⟩
  | 44 => ⟨S4096x64, .f32⟩
  | 45 => ⟨S_, .f32⟩
  | 46 => ⟨S4096x64, .f32⟩
  | 47 => ⟨S4096x64, .f32⟩
  | 48 => ⟨S_, .f32⟩
  | 49 => ⟨S4096x64, .f32⟩
  | 50 => ⟨S_, .f32⟩
  | 51 => ⟨S4096x64, .f32⟩
  | 52 => ⟨S4096x64, .f32⟩
  | 53 => ⟨S4096x64, .f32⟩
  | 54 => ⟨S4096x64, .f32⟩
  | 55 => ⟨S4096x64, .f32⟩
  | 56 => ⟨S4096x64, .f32⟩
  | 57 => ⟨S4096x64, .f32⟩
  | 58 => ⟨S4096x64, .f32⟩
  | 59 => ⟨S4096x64, .f32⟩
  | 60 => ⟨S_, .f32⟩
  | 61 => ⟨S4096x64, .f32⟩
  | 62 => ⟨S4096x64, .f32⟩
  | 63 => ⟨S_, .f32⟩
  | 64 => ⟨S4096x64, .f32⟩
  | 65 => ⟨S4096x64, .f32⟩
  | 66 => ⟨S_, .f32⟩
  | 67 => ⟨S4096x64, .f32⟩
  | 68 => ⟨S_, .f32⟩
  | 69 => ⟨S4096x64, .f32⟩
  | 70 => ⟨S4096x64, .f32⟩
  | 71 => ⟨S4096x64, .f32⟩
  | 72 => ⟨S4096x64, .f32⟩
  | 73 => ⟨S4096x64, .f32⟩
  | 74 => ⟨S4096x64, .f32⟩
  | 75 => ⟨S4096x64, .f32⟩
  | 76 => ⟨S4096x64, .f32⟩
  | 77 => ⟨S4096x64, .f32⟩
  | 78 => ⟨S_, .f32⟩
  | 79 => ⟨S4096x64, .f32⟩
  | 80 => ⟨S4096x64, .f32⟩
  | 81 => ⟨S_, .f32⟩
  | 82 => ⟨S4096x64, .f32⟩
  | 83 => ⟨S4096x64, .f32⟩
  | 84 => ⟨S_, .f32⟩
  | 85 => ⟨S4096x64, .f32⟩
  | 86 => ⟨S_, .f32⟩
  | 87 => ⟨S4096x64, .f32⟩
  | 88 => ⟨S4096x64, .f32⟩
  | 89 => ⟨S4096x64, .f32⟩
  | 90 => ⟨S4096x64, .f32⟩
  | 91 => ⟨S4096x64, .f32⟩
  | 92 => ⟨S4096x64, .f32⟩
  | 93 => ⟨S4096x64, .f32⟩
  | 94 => ⟨S4096x64, .f32⟩
  | 95 => ⟨S4096x64, .f32⟩
  | 96 => ⟨S_, .f32⟩
  | 97 => ⟨S4096x64, .f32⟩
  | 98 => ⟨S4096x64, .f32⟩
  | 99 => ⟨S_, .f32⟩
  | 100 => ⟨S4096x64, .f32⟩
  | 101 => ⟨S4096x64, .f32⟩
  | 102 => ⟨S4096x64, .f32⟩
  | 103 => ⟨S_, .f32⟩
  | 104 => ⟨S4096x64, .f32⟩
  | 105 => ⟨S_, .f32⟩
  | 106 => ⟨S4096x64, .f32⟩
  | 107 => ⟨S4096x64, .f32⟩
  | 108 => ⟨S4096x64, .f32⟩
  | 109 => ⟨S4096x64, .f32⟩
  | 110 => ⟨S4096x64, .f32⟩
  | 111 => ⟨S4096x64, .f32⟩
  | 112 => ⟨S4096x64, .f32⟩
  | 113 => ⟨S4096x64, .f32⟩
  | 114 => ⟨S4096x64, .f32⟩
  | 115 => ⟨S_, .f32⟩
  | 116 => ⟨S4096x64, .f32⟩
  | 117 => ⟨S4096x64, .f32⟩
  | 118 => ⟨S_, .f32⟩
  | 119 => ⟨S4096x64, .f32⟩
  | 120 => ⟨S4096x64, .f32⟩
  | 121 => ⟨S4096x64, .f32⟩
  | 122 => ⟨S_, .f32⟩
  | 123 => ⟨S4096x64, .f32⟩
  | 124 => ⟨S_, .f32⟩
  | 125 => ⟨S4096x64, .f32⟩
  | 126 => ⟨S4096x64, .f32⟩
  | 127 => ⟨S4096x64, .f32⟩
  | _ => ⟨S4096x64, .f32⟩

abbrev hbmTy0_1 (i : Nat) : BufTy := match i % 128 with
  | 0 => ⟨S4096x64, .f32⟩
  | 1 => ⟨S4096x64, .f32⟩
  | 2 => ⟨S4096x64, .f32⟩
  | 3 => ⟨S4096x64, .f32⟩
  | 4 => ⟨S4096x64, .f32⟩
  | 5 => ⟨S4096x64, .f32⟩
  | 6 => ⟨S_, .f32⟩
  | 7 => ⟨S4096x64, .f32⟩
  | 8 => ⟨S4096x64, .f32⟩
  | 9 => ⟨S_, .f32⟩
  | 10 => ⟨S4096x64, .f32⟩
  | 11 => ⟨S4096x64, .f32⟩
  | 12 => ⟨S4096x64, .f32⟩
  | 13 => ⟨S1x4096x64, .f32⟩
  | 14 => ⟨S1x4096x64, .f32⟩
  | 15 => ⟨S1x4096x64, .f32⟩
  | 16 => ⟨S1x4096x64, .f32⟩
  | 17 => ⟨S4x4096x64, .f32⟩
  | 18 => ⟨S1x4096x64, .f32⟩
  | 19 => ⟨S1x4096x64, .f32⟩
  | 20 => ⟨S1x4096x64, .f32⟩
  | 21 => ⟨S1x4096x64, .f32⟩
  | 22 => ⟨S4x4096x64, .f32⟩
  | 23 => ⟨S1x4096x64, .f32⟩
  | 24 => ⟨S1x4096x64, .f32⟩
  | 25 => ⟨S1x4096x64, .f32⟩
  | 26 => ⟨S3x4096x64, .f32⟩
  | 27 => ⟨S1x4096x64, .f32⟩
  | 28 => ⟨S1x4096x64, .f32⟩
  | 29 => ⟨S1x4096x64, .f32⟩
  | 30 => ⟨S3x4096x64, .f32⟩
  | 31 => ⟨S14x4096x64, .f32⟩
  | _ => ⟨S4096x64, .f32⟩

abbrev hbmTy (i : Nat) : BufTy := match i / 128 with
  | 0 => hbmTy0_0 i
  | 1 => hbmTy0_1 i
  | _ => ⟨S4096x64, .f32⟩

abbrev vmemTy0_0 (i : Nat) : BufTy := match i % 128 with
  | 0 => ⟨S512x4096, .f32⟩
  | 1 => ⟨S512x4096, .f32⟩
  | 2 => ⟨S512x64, .f32⟩
  | 3 => ⟨S512x64, .f32⟩
  | 4 => ⟨S4096x64, .f32⟩
  | 5 => ⟨S512x64, .f32⟩
  | 6 => ⟨S512x64, .f32⟩
  | 7 => ⟨S4096x64, .f32⟩
  | 8 => ⟨S4096x64, .f32⟩
  | 9 => ⟨S1x4096, .f32⟩
  | 10 => ⟨S512x4096, .f32⟩
  | 11 => ⟨S512x4096, .f32⟩
  | 12 => ⟨S512x64, .f32⟩
  | 13 => ⟨S512x64, .f32⟩
  | 14 => ⟨S4096x64, .f32⟩
  | 15 => ⟨S512x64, .f32⟩
  | 16 => ⟨S512x64, .f32⟩
  | 17 => ⟨S4096x64, .f32⟩
  | 18 => ⟨S4096x64, .f32⟩
  | 19 => ⟨S1x4096, .f32⟩
  | 20 => ⟨S512x4096, .f32⟩
  | 21 => ⟨S512x4096, .f32⟩
  | 22 => ⟨S512x64, .f32⟩
  | 23 => ⟨S512x64, .f32⟩
  | 24 => ⟨S4096x64, .f32⟩
  | 25 => ⟨S512x64, .f32⟩
  | 26 => ⟨S512x64, .f32⟩
  | 27 => ⟨S4096x64, .f32⟩
  | 28 => ⟨S4096x64, .f32⟩
  | 29 => ⟨S1x4096, .f32⟩
  | 30 => ⟨S512x4096, .f32⟩
  | 31 => ⟨S512x4096, .f32⟩
  | 32 => ⟨S512x64, .f32⟩
  | 33 => ⟨S512x64, .f32⟩
  | 34 => ⟨S4096x64, .f32⟩
  | 35 => ⟨S512x64, .f32⟩
  | 36 => ⟨S512x64, .f32⟩
  | 37 => ⟨S4096x64, .f32⟩
  | 38 => ⟨S4096x64, .f32⟩
  | 39 => ⟨S1x4096, .f32⟩
  | 40 => ⟨S512x4096, .f32⟩
  | 41 => ⟨S512x4096, .f32⟩
  | 42 => ⟨S512x64, .f32⟩
  | 43 => ⟨S512x64, .f32⟩
  | 44 => ⟨S4096x64, .f32⟩
  | 45 => ⟨S512x64, .f32⟩
  | 46 => ⟨S512x64, .f32⟩
  | 47 => ⟨S4096x64, .f32⟩
  | 48 => ⟨S4096x64, .f32⟩
  | 49 => ⟨S1x4096, .f32⟩
  | 50 => ⟨S512x4096, .f32⟩
  | 51 => ⟨S512x4096, .f32⟩
  | 52 => ⟨S512x64, .f32⟩
  | 53 => ⟨S512x64, .f32⟩
  | 54 => ⟨S4096x64, .f32⟩
  | 55 => ⟨S512x64, .f32⟩
  | 56 => ⟨S512x64, .f32⟩
  | 57 => ⟨S4096x64, .f32⟩
  | 58 => ⟨S4096x64, .f32⟩
  | 59 => ⟨S1x4096, .f32⟩
  | 60 => ⟨S512x4096, .f32⟩
  | 61 => ⟨S512x4096, .f32⟩
  | 62 => ⟨S512x64, .f32⟩
  | 63 => ⟨S512x64, .f32⟩
  | 64 => ⟨S4096x64, .f32⟩
  | 65 => ⟨S512x64, .f32⟩
  | 66 => ⟨S512x64, .f32⟩
  | 67 => ⟨S4096x64, .f32⟩
  | 68 => ⟨S4096x64, .f32⟩
  | 69 => ⟨S1x4096, .f32⟩
  | 70 => ⟨S512x4096, .f32⟩
  | 71 => ⟨S512x4096, .f32⟩
  | 72 => ⟨S512x64, .f32⟩
  | 73 => ⟨S512x64, .f32⟩
  | 74 => ⟨S4096x64, .f32⟩
  | 75 => ⟨S512x64, .f32⟩
  | 76 => ⟨S512x64, .f32⟩
  | 77 => ⟨S4096x64, .f32⟩
  | 78 => ⟨S4096x64, .f32⟩
  | 79 => ⟨S1x4096, .f32⟩
  | 80 => ⟨S512x4096, .f32⟩
  | 81 => ⟨S512x4096, .f32⟩
  | 82 => ⟨S512x64, .f32⟩
  | 83 => ⟨S512x64, .f32⟩
  | 84 => ⟨S4096x64, .f32⟩
  | 85 => ⟨S512x64, .f32⟩
  | 86 => ⟨S512x64, .f32⟩
  | 87 => ⟨S4096x64, .f32⟩
  | 88 => ⟨S4096x64, .f32⟩
  | 89 => ⟨S1x4096, .f32⟩
  | 90 => ⟨S512x4096, .f32⟩
  | 91 => ⟨S512x4096, .f32⟩
  | 92 => ⟨S512x64, .f32⟩
  | 93 => ⟨S512x64, .f32⟩
  | 94 => ⟨S4096x64, .f32⟩
  | 95 => ⟨S512x64, .f32⟩
  | 96 => ⟨S512x64, .f32⟩
  | 97 => ⟨S4096x64, .f32⟩
  | 98 => ⟨S4096x64, .f32⟩
  | 99 => ⟨S1x4096, .f32⟩
  | 100 => ⟨S512x4096, .f32⟩
  | 101 => ⟨S512x4096, .f32⟩
  | 102 => ⟨S512x64, .f32⟩
  | 103 => ⟨S512x64, .f32⟩
  | 104 => ⟨S4096x64, .f32⟩
  | 105 => ⟨S512x64, .f32⟩
  | 106 => ⟨S512x64, .f32⟩
  | 107 => ⟨S4096x64, .f32⟩
  | 108 => ⟨S4096x64, .f32⟩
  | 109 => ⟨S1x4096, .f32⟩
  | 110 => ⟨S512x4096, .f32⟩
  | 111 => ⟨S512x4096, .f32⟩
  | 112 => ⟨S512x64, .f32⟩
  | 113 => ⟨S512x64, .f32⟩
  | 114 => ⟨S4096x64, .f32⟩
  | 115 => ⟨S512x64, .f32⟩
  | 116 => ⟨S512x64, .f32⟩
  | 117 => ⟨S4096x64, .f32⟩
  | 118 => ⟨S4096x64, .f32⟩
  | 119 => ⟨S1x4096, .f32⟩
  | 120 => ⟨S512x4096, .f32⟩
  | 121 => ⟨S512x4096, .f32⟩
  | 122 => ⟨S512x64, .f32⟩
  | 123 => ⟨S512x64, .f32⟩
  | 124 => ⟨S4096x64, .f32⟩
  | 125 => ⟨S512x64, .f32⟩
  | 126 => ⟨S512x64, .f32⟩
  | 127 => ⟨S4096x64, .f32⟩
  | _ => ⟨S4096x64, .f32⟩

abbrev vmemTy0_1 (i : Nat) : BufTy := match i % 128 with
  | 0 => ⟨S4096x64, .f32⟩
  | 1 => ⟨S1x4096, .f32⟩
  | 2 => ⟨S512x4096, .f32⟩
  | 3 => ⟨S512x4096, .f32⟩
  | 4 => ⟨S512x64, .f32⟩
  | 5 => ⟨S512x64, .f32⟩
  | 6 => ⟨S4096x64, .f32⟩
  | 7 => ⟨S512x64, .f32⟩
  | 8 => ⟨S512x64, .f32⟩
  | 9 => ⟨S4096x64, .f32⟩
  | 10 => ⟨S4096x64, .f32⟩
  | 11 => ⟨S1x4096, .f32⟩
  | _ => ⟨S4096x64, .f32⟩

abbrev vmemTy (i : Nat) : BufTy := match i / 128 with
  | 0 => vmemTy0_0 i
  | 1 => vmemTy0_1 i
  | _ => ⟨S4096x64, .f32⟩

abbrev bufTy : (tb : Table) → Fin (tcTables nBuf tb) → BufTy
  | .hbm, ⟨i, _⟩ => hbmTy i
  | .local _ .vmem, ⟨i, _⟩ => vmemTy i
  | _, _ => ⟨S4096x64, .f32⟩

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 112 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | _ => false

abbrev sig : RefSig :=
  ofTc nBuf bufTy 0 112 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2_0 : Ref sig .tc := ⟨.hbm, 16, rfl⟩
abbrev main_v2_1 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_cst_3 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14_0 : Ref sig .tc := ⟨.hbm, 34, rfl⟩
abbrev main_v14_1 : Ref sig .tc := ⟨.hbm, 35, rfl⟩
abbrev main_v15 : Ref sig .tc := ⟨.hbm, 36, rfl⟩
abbrev main_v16 : Ref sig .tc := ⟨.hbm, 37, rfl⟩
abbrev main_v17_0 : Ref sig .tc := ⟨.hbm, 38, rfl⟩
abbrev main_v17_1 : Ref sig .tc := ⟨.hbm, 39, rfl⟩
abbrev main_v18 : Ref sig .tc := ⟨.hbm, 40, rfl⟩
abbrev main_v19 : Ref sig .tc := ⟨.hbm, 41, rfl⟩
abbrev main_cst_5 : Ref sig .tc := ⟨.hbm, 42, rfl⟩
abbrev main_v20 : Ref sig .tc := ⟨.hbm, 43, rfl⟩
abbrev main_v21 : Ref sig .tc := ⟨.hbm, 44, rfl⟩
abbrev main_cst_6 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_cst_8 : Ref sig .tc := ⟨.hbm, 50, rfl⟩
abbrev main_v25 : Ref sig .tc := ⟨.hbm, 51, rfl⟩
abbrev main_v26_0 : Ref sig .tc := ⟨.hbm, 52, rfl⟩
abbrev main_v26_1 : Ref sig .tc := ⟨.hbm, 53, rfl⟩
abbrev main_v27 : Ref sig .tc := ⟨.hbm, 54, rfl⟩
abbrev main_v28 : Ref sig .tc := ⟨.hbm, 55, rfl⟩
abbrev main_v29_0 : Ref sig .tc := ⟨.hbm, 56, rfl⟩
abbrev main_v29_1 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_v33 : Ref sig .tc := ⟨.hbm, 62, rfl⟩
abbrev main_cst_10 : Ref sig .tc := ⟨.hbm, 63, rfl⟩
abbrev main_v34 : Ref sig .tc := ⟨.hbm, 64, rfl⟩
abbrev main_v35 : Ref sig .tc := ⟨.hbm, 65, rfl⟩
abbrev main_cst_11 : Ref sig .tc := ⟨.hbm, 66, rfl⟩
abbrev main_v36 : Ref sig .tc := ⟨.hbm, 67, rfl⟩
abbrev main_cst_12 : Ref sig .tc := ⟨.hbm, 68, rfl⟩
abbrev main_v37 : Ref sig .tc := ⟨.hbm, 69, rfl⟩
abbrev main_v38_0 : Ref sig .tc := ⟨.hbm, 70, rfl⟩
abbrev main_v38_1 : Ref sig .tc := ⟨.hbm, 71, rfl⟩
abbrev main_v39 : Ref sig .tc := ⟨.hbm, 72, rfl⟩
abbrev main_v40 : Ref sig .tc := ⟨.hbm, 73, rfl⟩
abbrev main_v41_0 : Ref sig .tc := ⟨.hbm, 74, rfl⟩
abbrev main_v41_1 : Ref sig .tc := ⟨.hbm, 75, rfl⟩
abbrev main_v42 : Ref sig .tc := ⟨.hbm, 76, rfl⟩
abbrev main_v43 : Ref sig .tc := ⟨.hbm, 77, rfl⟩
abbrev main_cst_13 : Ref sig .tc := ⟨.hbm, 78, rfl⟩
abbrev main_v44 : Ref sig .tc := ⟨.hbm, 79, rfl⟩
abbrev main_v45 : Ref sig .tc := ⟨.hbm, 80, rfl⟩
abbrev main_cst_14 : Ref sig .tc := ⟨.hbm, 81, rfl⟩
abbrev main_v46 : Ref sig .tc := ⟨.hbm, 82, rfl⟩
abbrev main_v47 : Ref sig .tc := ⟨.hbm, 83, rfl⟩
abbrev main_cst_15 : Ref sig .tc := ⟨.hbm, 84, rfl⟩
abbrev main_v48 : Ref sig .tc := ⟨.hbm, 85, rfl⟩
abbrev main_cst_16 : Ref sig .tc := ⟨.hbm, 86, rfl⟩
abbrev main_v49 : Ref sig .tc := ⟨.hbm, 87, rfl⟩
abbrev main_v50_0 : Ref sig .tc := ⟨.hbm, 88, rfl⟩
abbrev main_v50_1 : Ref sig .tc := ⟨.hbm, 89, rfl⟩
abbrev main_v51 : Ref sig .tc := ⟨.hbm, 90, rfl⟩
abbrev main_v52 : Ref sig .tc := ⟨.hbm, 91, rfl⟩
abbrev main_v53_0 : Ref sig .tc := ⟨.hbm, 92, rfl⟩
abbrev main_v53_1 : Ref sig .tc := ⟨.hbm, 93, rfl⟩
abbrev main_v54 : Ref sig .tc := ⟨.hbm, 94, rfl⟩
abbrev main_v55 : Ref sig .tc := ⟨.hbm, 95, rfl⟩
abbrev main_cst_17 : Ref sig .tc := ⟨.hbm, 96, rfl⟩
abbrev main_v56 : Ref sig .tc := ⟨.hbm, 97, rfl⟩
abbrev main_v57 : Ref sig .tc := ⟨.hbm, 98, rfl⟩
abbrev main_cst_18 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_cst_19 : Ref sig .tc := ⟨.hbm, 103, rfl⟩
abbrev main_v61 : Ref sig .tc := ⟨.hbm, 104, rfl⟩
abbrev main_cst_20 : Ref sig .tc := ⟨.hbm, 105, rfl⟩
abbrev main_v62 : Ref sig .tc := ⟨.hbm, 106, rfl⟩
abbrev main_v63_0 : Ref sig .tc := ⟨.hbm, 107, rfl⟩
abbrev main_v63_1 : Ref sig .tc := ⟨.hbm, 108, rfl⟩
abbrev main_v64 : Ref sig .tc := ⟨.hbm, 109, rfl⟩
abbrev main_v65 : Ref sig .tc := ⟨.hbm, 110, rfl⟩
abbrev main_v66_0 : Ref sig .tc := ⟨.hbm, 111, rfl⟩
abbrev main_v66_1 : Ref sig .tc := ⟨.hbm, 112, rfl⟩
abbrev main_v67 : Ref sig .tc := ⟨.hbm, 113, rfl⟩
abbrev main_v68 : Ref sig .tc := ⟨.hbm, 114, rfl⟩
abbrev main_cst_21 : Ref sig .tc := ⟨.hbm, 115, rfl⟩
abbrev main_v69 : Ref sig .tc := ⟨.hbm, 116, rfl⟩
abbrev main_v70 : Ref sig .tc := ⟨.hbm, 117, rfl⟩
abbrev main_cst_22 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_cst_23 : Ref sig .tc := ⟨.hbm, 122, rfl⟩
abbrev main_v74 : Ref sig .tc := ⟨.hbm, 123, rfl⟩
abbrev main_cst_24 : Ref sig .tc := ⟨.hbm, 124, rfl⟩
abbrev main_v75 : Ref sig .tc := ⟨.hbm, 125, rfl⟩
abbrev main_v76_0 : Ref sig .tc := ⟨.hbm, 126, rfl⟩
abbrev main_v76_1 : Ref sig .tc := ⟨.hbm, 127, rfl⟩
abbrev main_v77 : Ref sig .tc := ⟨.hbm, 128, rfl⟩
abbrev main_v78 : Ref sig .tc := ⟨.hbm, 129, rfl⟩
abbrev main_v79_0 : Ref sig .tc := ⟨.hbm, 130, rfl⟩
abbrev main_v79_1 : Ref sig .tc := ⟨.hbm, 131, rfl⟩
abbrev main_v80 : Ref sig .tc := ⟨.hbm, 132, rfl⟩
abbrev main_v81 : Ref sig .tc := ⟨.hbm, 133, rfl⟩
abbrev main_cst_25 : Ref sig .tc := ⟨.hbm, 134, rfl⟩
abbrev main_v82 : Ref sig .tc := ⟨.hbm, 135, rfl⟩
abbrev main_v83 : Ref sig .tc := ⟨.hbm, 136, rfl⟩
abbrev main_cst_26 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_scratch0 : Ref sig .tc := ⟨.vmem, 18, rfl⟩
abbrev cc1_scratch1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_scratch0 : Ref sig .tc := ⟨.vmem, 28, rfl⟩
abbrev cc2_scratch1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg3_1 : Ref sig .tc := ⟨.vmem, 36, rfl⟩
abbrev cc3_stg4_0 : Ref sig .tc := ⟨.vmem, 37, rfl⟩
abbrev cc3_scratch0 : Ref sig .tc := ⟨.vmem, 38, rfl⟩
abbrev cc3_scratch1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_scratch0 : Ref sig .tc := ⟨.vmem, 48, rfl⟩
abbrev cc4_scratch1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg3_1 : Ref sig .tc := ⟨.vmem, 56, rfl⟩
abbrev cc5_stg4_0 : Ref sig .tc := ⟨.vmem, 57, rfl⟩
abbrev cc5_scratch0 : Ref sig .tc := ⟨.vmem, 58, rfl⟩
abbrev cc5_scratch1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg3_1 : Ref sig .tc := ⟨.vmem, 66, rfl⟩
abbrev cc6_stg4_0 : Ref sig .tc := ⟨.vmem, 67, rfl⟩
abbrev cc6_scratch0 : Ref sig .tc := ⟨.vmem, 68, rfl⟩
abbrev cc6_scratch1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg3_1 : Ref sig .tc := ⟨.vmem, 76, rfl⟩
abbrev cc7_stg4_0 : Ref sig .tc := ⟨.vmem, 77, rfl⟩
abbrev cc7_scratch0 : Ref sig .tc := ⟨.vmem, 78, rfl⟩
abbrev cc7_scratch1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg3_1 : Ref sig .tc := ⟨.vmem, 86, rfl⟩
abbrev cc8_stg4_0 : Ref sig .tc := ⟨.vmem, 87, rfl⟩
abbrev cc8_scratch0 : Ref sig .tc := ⟨.vmem, 88, rfl⟩
abbrev cc8_scratch1 : Ref sig .tc := ⟨.vmem, 89, rfl⟩
abbrev cc9_stg0_0 : Ref sig .tc := ⟨.vmem, 90, rfl⟩
abbrev cc9_stg0_1 : Ref sig .tc := ⟨.vmem, 91, rfl⟩
abbrev cc9_stg1_0 : Ref sig .tc := ⟨.vmem, 92, rfl⟩
abbrev cc9_stg1_1 : Ref sig .tc := ⟨.vmem, 93, rfl⟩
abbrev cc9_stg2_0 : Ref sig .tc := ⟨.vmem, 94, rfl⟩
abbrev cc9_stg3_0 : Ref sig .tc := ⟨.vmem, 95, rfl⟩
abbrev cc9_stg3_1 : Ref sig .tc := ⟨.vmem, 96, rfl⟩
abbrev cc9_stg4_0 : Ref sig .tc := ⟨.vmem, 97, rfl⟩
abbrev cc9_scratch0 : Ref sig .tc := ⟨.vmem, 98, rfl⟩
abbrev cc9_scratch1 : Ref sig .tc := ⟨.vmem, 99, rfl⟩
abbrev cc10_stg0_0 : Ref sig .tc := ⟨.vmem, 100, rfl⟩
abbrev cc10_stg0_1 : Ref sig .tc := ⟨.vmem, 101, rfl⟩
abbrev cc10_stg1_0 : Ref sig .tc := ⟨.vmem, 102, rfl⟩
abbrev cc10_stg1_1 : Ref sig .tc := ⟨.vmem, 103, rfl⟩
abbrev cc10_stg2_0 : Ref sig .tc := ⟨.vmem, 104, rfl⟩
abbrev cc10_stg3_0 : Ref sig .tc := ⟨.vmem, 105, rfl⟩
abbrev cc10_stg3_1 : Ref sig .tc := ⟨.vmem, 106, rfl⟩
abbrev cc10_stg4_0 : Ref sig .tc := ⟨.vmem, 107, rfl⟩
abbrev cc10_scratch0 : Ref sig .tc := ⟨.vmem, 108, rfl⟩
abbrev cc10_scratch1 : Ref sig .tc := ⟨.vmem, 109, rfl⟩
abbrev cc11_stg0_0 : Ref sig .tc := ⟨.vmem, 110, rfl⟩
abbrev cc11_stg0_1 : Ref sig .tc := ⟨.vmem, 111, rfl⟩
abbrev cc11_stg1_0 : Ref sig .tc := ⟨.vmem, 112, rfl⟩
abbrev cc11_stg1_1 : Ref sig .tc := ⟨.vmem, 113, rfl⟩
abbrev cc11_stg2_0 : Ref sig .tc := ⟨.vmem, 114, rfl⟩
abbrev cc11_stg3_0 : Ref sig .tc := ⟨.vmem, 115, rfl⟩
abbrev cc11_stg3_1 : Ref sig .tc := ⟨.vmem, 116, rfl⟩
abbrev cc11_stg4_0 : Ref sig .tc := ⟨.vmem, 117, rfl⟩
abbrev cc11_scratch0 : Ref sig .tc := ⟨.vmem, 118, rfl⟩
abbrev cc11_scratch1 : Ref sig .tc := ⟨.vmem, 119, rfl⟩
abbrev cc12_stg0_0 : Ref sig .tc := ⟨.vmem, 120, rfl⟩
abbrev cc12_stg0_1 : Ref sig .tc := ⟨.vmem, 121, rfl⟩
abbrev cc12_stg1_0 : Ref sig .tc := ⟨.vmem, 122, rfl⟩
abbrev cc12_stg1_1 : Ref sig .tc := ⟨.vmem, 123, rfl⟩
abbrev cc12_stg2_0 : Ref sig .tc := ⟨.vmem, 124, rfl⟩
abbrev cc12_stg3_0 : Ref sig .tc := ⟨.vmem, 125, rfl⟩
abbrev cc12_stg3_1 : Ref sig .tc := ⟨.vmem, 126, rfl⟩
abbrev cc12_stg4_0 : Ref sig .tc := ⟨.vmem, 127, rfl⟩
abbrev cc12_scratch0 : Ref sig .tc := ⟨.vmem, 128, rfl⟩
abbrev cc12_scratch1 : Ref sig .tc := ⟨.vmem, 129, rfl⟩
abbrev cc13_stg0_0 : Ref sig .tc := ⟨.vmem, 130, rfl⟩
abbrev cc13_stg0_1 : Ref sig .tc := ⟨.vmem, 131, rfl⟩
abbrev cc13_stg1_0 : Ref sig .tc := ⟨.vmem, 132, rfl⟩
abbrev cc13_stg1_1 : Ref sig .tc := ⟨.vmem, 133, rfl⟩
abbrev cc13_stg2_0 : Ref sig .tc := ⟨.vmem, 134, rfl⟩
abbrev cc13_stg3_0 : Ref sig .tc := ⟨.vmem, 135, rfl⟩
abbrev cc13_stg3_1 : Ref sig .tc := ⟨.vmem, 136, rfl⟩
abbrev cc13_stg4_0 : Ref sig .tc := ⟨.vmem, 137, rfl⟩
abbrev cc13_scratch0 : Ref sig .tc := ⟨.vmem, 138, rfl⟩
abbrev cc13_scratch1 : Ref sig .tc := ⟨.vmem, 139, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc2_sem4_0 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem3_1 : DmaSem sig := 30
abbrev cc3_sem4_0 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem3_1 : DmaSem sig := 38
abbrev cc4_sem4_0 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem3_0 : DmaSem sig := 45
abbrev cc5_sem3_1 : DmaSem sig := 46
abbrev cc5_sem4_0 : DmaSem sig := 47
abbrev cc6_sem0_0 : DmaSem sig := 48
abbrev cc6_sem0_1 : DmaSem sig := 49
abbrev cc6_sem1_0 : DmaSem sig := 50
abbrev cc6_sem1_1 : DmaSem sig := 51
abbrev cc6_sem2_0 : DmaSem sig := 52
abbrev cc6_sem3_0 : DmaSem sig := 53
abbrev cc6_sem3_1 : DmaSem sig := 54
abbrev cc6_sem4_0 : DmaSem sig := 55
abbrev cc7_sem0_0 : DmaSem sig := 56
abbrev cc7_sem0_1 : DmaSem sig := 57
abbrev cc7_sem1_0 : DmaSem sig := 58
abbrev cc7_sem1_1 : DmaSem sig := 59
abbrev cc7_sem2_0 : DmaSem sig := 60
abbrev cc7_sem3_0 : DmaSem sig := 61
abbrev cc7_sem3_1 : DmaSem sig := 62
abbrev cc7_sem4_0 : DmaSem sig := 63
abbrev cc8_sem0_0 : DmaSem sig := 64
abbrev cc8_sem0_1 : DmaSem sig := 65
abbrev cc8_sem1_0 : DmaSem sig := 66
abbrev cc8_sem1_1 : DmaSem sig := 67
abbrev cc8_sem2_0 : DmaSem sig := 68
abbrev cc8_sem3_0 : DmaSem sig := 69
abbrev cc8_sem3_1 : DmaSem sig := 70
abbrev cc8_sem4_0 : DmaSem sig := 71
abbrev cc9_sem0_0 : DmaSem sig := 72
abbrev cc9_sem0_1 : DmaSem sig := 73
abbrev cc9_sem1_0 : DmaSem sig := 74
abbrev cc9_sem1_1 : DmaSem sig := 75
abbrev cc9_sem2_0 : DmaSem sig := 76
abbrev cc9_sem3_0 : DmaSem sig := 77
abbrev cc9_sem3_1 : DmaSem sig := 78
abbrev cc9_sem4_0 : DmaSem sig := 79
abbrev cc10_sem0_0 : DmaSem sig := 80
abbrev cc10_sem0_1 : DmaSem sig := 81
abbrev cc10_sem1_0 : DmaSem sig := 82
abbrev cc10_sem1_1 : DmaSem sig := 83
abbrev cc10_sem2_0 : DmaSem sig := 84
abbrev cc10_sem3_0 : DmaSem sig := 85
abbrev cc10_sem3_1 : DmaSem sig := 86
abbrev cc10_sem4_0 : DmaSem sig := 87
abbrev cc11_sem0_0 : DmaSem sig := 88
abbrev cc11_sem0_1 : DmaSem sig := 89
abbrev cc11_sem1_0 : DmaSem sig := 90
abbrev cc11_sem1_1 : DmaSem sig := 91
abbrev cc11_sem2_0 : DmaSem sig := 92
abbrev cc11_sem3_0 : DmaSem sig := 93
abbrev cc11_sem3_1 : DmaSem sig := 94
abbrev cc11_sem4_0 : DmaSem sig := 95
abbrev cc12_sem0_0 : DmaSem sig := 96
abbrev cc12_sem0_1 : DmaSem sig := 97
abbrev cc12_sem1_0 : DmaSem sig := 98
abbrev cc12_sem1_1 : DmaSem sig := 99
abbrev cc12_sem2_0 : DmaSem sig := 100
abbrev cc12_sem3_0 : DmaSem sig := 101
abbrev cc12_sem3_1 : DmaSem sig := 102
abbrev cc12_sem4_0 : DmaSem sig := 103
abbrev cc13_sem0_0 : DmaSem sig := 104
abbrev cc13_sem0_1 : DmaSem sig := 105
abbrev cc13_sem1_0 : DmaSem sig := 106
abbrev cc13_sem1_1 : DmaSem sig := 107
abbrev cc13_sem2_0 : DmaSem sig := 108
abbrev cc13_sem3_0 : DmaSem sig := 109
abbrev cc13_sem3_1 : DmaSem sig := 110
abbrev cc13_sem4_0 : DmaSem sig := 111

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_20 : BitVec 32 := 0#32
  let v32 : BitVec 1 := Scalar.cmpi .ne v31 c0_i32_20
  v32

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_20 : BitVec 32 := 0#32
  let v34 : BitVec 1 := Scalar.cmpi .ne v33 c0_i32_20
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S4096x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![8], ![false]⟩

def k2_cond2 (i : grid2.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_20 : BitVec 32 := 0#32
  let v32 : BitVec 1 := Scalar.cmpi .ne v31 c0_i32_20
  v32

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4096x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S4096x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_20 : BitVec 32 := 0#32
  let v34 : BitVec 1 := Scalar.cmpi .ne v33 c0_i32_20
  v34

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S4096x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S4096x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![8], ![false]⟩

def k4_cond2 (i : grid4.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_20 : BitVec 32 := 0#32
  let v32 : BitVec 1 := Scalar.cmpi .ne v31 c0_i32_20
  v32

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S512x4096 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4096x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S4096x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev grid5 : Pipeline.Grid := ⟨1, ![8], ![false]⟩

def k5_cond2 (i : grid5.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_20 : BitVec 32 := 0#32
  let v34 : BitVec 1 := Scalar.cmpi .ne v33 c0_i32_20
  v34

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S512x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S4096x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S4096x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev grid6 : Pipeline.Grid := ⟨1, ![8], ![false]⟩

def k6_cond2 (i : grid6.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_20 : BitVec 32 := 0#32
  let v32 : BitVec 1 := Scalar.cmpi .ne v31 c0_i32_20
  v32

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S512x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S512x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S4096x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S512x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S4096x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev grid7 : Pipeline.Grid := ⟨1, ![8], ![false]⟩

def k7_cond2 (i : grid7.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_20 : BitVec 32 := 0#32
  let v34 : BitVec 1 := Scalar.cmpi .ne v33 c0_i32_20
  v34

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S512x4096 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S4096x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S512x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S4096x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev grid8 : Pipeline.Grid := ⟨1, ![8], ![false]⟩

def k8_cond2 (i : grid8.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_20 : BitVec 32 := 0#32
  let v32 : BitVec 1 := Scalar.cmpi .ne v31 c0_i32_20
  v32

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S512x4096 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S4096x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S512x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 1 → Memref sig .tc .vmem S4096x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev grid9 : Pipeline.Grid := ⟨1, ![8], ![false]⟩

def k9_cond2 (i : grid9.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_20 : BitVec 32 := 0#32
  let v34 : BitVec 1 := Scalar.cmpi .ne v33 c0_i32_20
  v34

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S512x4096 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S512x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S4096x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S512x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 1 → Memref sig .tc .vmem S4096x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev grid10 : Pipeline.Grid := ⟨1, ![8], ![false]⟩

def k10_cond2 (i : grid10.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_20 : BitVec 32 := 0#32
  let v32 : BitVec 1 := Scalar.cmpi .ne v31 c0_i32_20
  v32

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S512x4096 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S512x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S4096x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S512x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S4096x64 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev grid11 : Pipeline.Grid := ⟨1, ![8], ![false]⟩

def k11_cond2 (i : grid11.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_20 : BitVec 32 := 0#32
  let v34 : BitVec 1 := Scalar.cmpi .ne v33 c0_i32_20
  v34

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S512x4096 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S512x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S4096x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S512x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 1 → Memref sig .tc .vmem S4096x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev grid12 : Pipeline.Grid := ⟨1, ![8], ![false]⟩

def k12_cond2 (i : grid12.Coords) : BitVec 1 :=
  let arg0 : BitVec 32 := BitVec.ofNat 32 (i 0).val
  let c7_i32 : BitVec 32 := 7#32
  let v30 : BitVec 1 := Scalar.cmpi .eq arg0 c7_i32
  let v31 : BitVec 32 := Scalar.extui v30
  let c0_i32_20 : BitVec 32 := 0#32
  let v32 : BitVec 1 := Scalar.cmpi .ne v31 c0_i32_20
  v32

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S512x4096 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S512x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S4096x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 2 → Memref sig .tc .vmem S512x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 1 → Memref sig .tc .vmem S4096x64 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev grid13 : Pipeline.Grid := ⟨1, ![8], ![false]⟩

def k13_cond2 (i : grid13.Coords) : BitVec 1 :=
  let arg0 : BitVec 32 := BitVec.ofNat 32 (i 0).val
  let c7_i32 : BitVec 32 := 7#32
  let v32 : BitVec 1 := Scalar.cmpi .eq arg0 c7_i32
  let v33 : BitVec 32 := Scalar.extui v32
  let c0_i32_20 : BitVec 32 := 0#32
  let v34 : BitVec 1 := Scalar.cmpi .ne v33 c0_i32_20
  v34

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S512x4096 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S512x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S4096x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S512x64 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 1 → Memref sig .tc .vmem S4096x64 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

class Facts₀ : Prop where
  bcast_S_S4096x64 : S_.BroadcastsInDim S4096x64 (![] : Fin 0 → Fin S4096x64.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  reduces_S512x4096_S512 : S512x4096.Reduces [1] S512
  shapeCasts_S512_S512x1 : S512.ShapeCasts S512x1
  broadcasts_S512x1_S512x64 : S512x1.Broadcasts S512x64
  reduces_S512x4096_S4096 : S512x4096.Reduces [0] S4096
  shapeCasts_S4096_S1x4096 : S4096.ShapeCasts S1x4096
  transposes_S1x4096_p1_0_S4096x1 : S1x4096.Transposes [1, 0] S4096x1
  broadcasts_S4096x1_S4096x64 : S4096x1.Broadcasts S4096x64
  shapeCasts_S512x64_S512x64 : S512x64.ShapeCasts S512x64
  bcast_S4096x64_S1x4096x64_1_2 : S4096x64.BroadcastsInDim S1x4096x64 (![1, 2] : Fin 2 → Fin S1x4096x64.rank)
  concatenates_S1x4096x64_S1x4096x64_S1x4096x64_S1x4096x64_S4x4096x64_d0 : Shape.Concatenates [S1x4096x64, S1x4096x64, S1x4096x64, S1x4096x64] S4x4096x64 0
  concatenates_S1x4096x64_S1x4096x64_S1x4096x64_S3x4096x64_d0 : Shape.Concatenates [S1x4096x64, S1x4096x64, S1x4096x64] S3x4096x64 0
  concatenates_S4x4096x64_S4x4096x64_S3x4096x64_S3x4096x64_S14x4096x64_d0 : Shape.Concatenates [S4x4096x64, S4x4096x64, S3x4096x64, S3x4096x64] S14x4096x64 0
  dot_S512x4096_S4096x64_S512x64_1_0_0_1_n_n_wf : DotDims.WF S512x4096 S4096x64 S512x64 [1] [0] [0] [1] [] []
  dot_S512x4096_S512x64_S4096x64_0_0_1_1_n_n_wf : DotDims.WF S512x4096 S512x64 S4096x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4096x64.size a
  hwx0_2 : ∀ i : grid0.Coords, EltTy.bits .f32 = 32 ∨ (Rect.block (s := S4096x64) S4096x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S4096x64.size a
  hwx0_3 : ∀ i : grid0.Coords, EltTy.bits .f32 = 32 ∨ (Rect.block (s := S4096x64) S512x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x64.size a ≤ S4096x64.size a
  hwx0_4 : ∀ i : grid0.Coords, EltTy.bits .f32 = 32 ∨ (Rect.block (s := S4096x64) S4096x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S4096x64.size a
  hwx1_1 : ∀ i : grid1.Coords, EltTy.bits .f32 = 32 ∨ (Rect.block (s := S4096x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S4096x64.size a
  hwx1_2 : ∀ i : grid1.Coords, EltTy.bits .f32 = 32 ∨ (Rect.block (s := S4096x64) S4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x64.size a ≤ S4096x64.size a
  hwx1_3 : ∀ i : grid1.Coords, EltTy.bits .f32 = 32 ∨ (Rect.block (s := S4096x64) S512x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x64.size a ≤ S4096x64.size a
  hwx1_4 : ∀ i : grid1.Coords, EltTy.bits .f32 = 32 ∨ (Rect.block (s := S4096x64) S4096x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x4096.size a ≤ S4096x4096.size a
  hwx2_0 : ∀ i : grid2.Coords, EltTy.bits .f32 = 32 ∨ (Rect.block (s := S4096x4096) S512x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x64.size a ≤ S4096x64.size a
  hwx2_1 : ∀ i : grid2.Coords, EltTy.bits .f32 = 32 ∨ (Rect.block (s := S4096x64) S512x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S4096x64.size a
  hwx2_2 : ∀ i : grid2.Coords, EltTy.bits .f32 = 32 ∨ (Rect.block (s := S4096x64) S4096x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x64.size a ≤ S4096x64.size a
  hwx2_3 : ∀ i : grid2.Coords, EltTy.bits .f32 = 32 ∨ (Rect.block (s := S4096x64) S512x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4096x64.size a ≤ S4096x64.size a
  hwx2_4 : ∀ i : grid2.Coords, EltTy.bits .f32 = 32 ∨ (Rect.block (s := S4096x64) S4096x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x4096.size a ≤ S4096x4096.size a
  hwx3_0 : ∀ i : grid3.Coords, EltTy.bits .f32 = 32 ∨ (Rect.block (s := S4096x4096) S512x4096.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x64.size a ≤ S4096x64.size a
  hwx3_1 : ∀ i : grid3.Coords, EltTy.bits .f32 = 32 ∨ (Rect.block (s := S4096x64) S512x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S4096x64.size a
  hwx3_2 : ∀ i : grid3.Coords, EltTy.bits .f32 = 32 ∨ (Rect.block (s := S4096x64) S4096x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S4096x64.size a
  hwx3_3 : ∀ i : grid3.Coords, EltTy.bits .f32 = 32 ∨ (Rect.block (s := S4096x64) S512x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4096x64.size a ≤ S4096x64.size a
  hwx3_4 : ∀ i : grid3.Coords, EltTy.bits .f32 = 32 ∨ (Rect.block (s := S4096x64) S4096x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x4096.size a ≤ S4096x4096.size a
  hwx4_0 : ∀ i : grid4.Coords, EltTy.bits .f32 = 32 ∨ (Rect.block (s := S4096x4096) S512x4096.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x64.size a ≤ S4096x64.size a
  hwx4_1 : ∀ i : grid4.Coords, EltTy.bits .f32 = 32 ∨ (Rect.block (s := S4096x64) S512x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S4096x64.size a
  hwx4_2 : ∀ i : grid4.Coords, EltTy.bits .f32 = 32 ∨ (Rect.block (s := S4096x64) S4096x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x64.size a ≤ S4096x64.size a
  hwx4_3 : ∀ i : grid4.Coords, EltTy.bits .f32 = 32 ∨ (Rect.block (s := S4096x64) S512x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S4096x64.size a ≤ S4096x64.size a
  hwx4_4 : ∀ i : grid4.Coords, EltTy.bits .f32 = 32 ∨ (Rect.block (s := S4096x64) S4096x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x4096.size a ≤ S4096x4096.size a
  hwx5_0 : ∀ i : grid5.Coords, EltTy.bits .f32 = 32 ∨ (Rect.block (s := S4096x4096) S512x4096.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x64.size a ≤ S4096x64.size a
  hwx5_1 : ∀ i : grid5.Coords, EltTy.bits .f32 = 32 ∨ (Rect.block (s := S4096x64) S512x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S4096x64.size a ≤ S4096x64.size a
  hwx5_2 : ∀ i : grid5.Coords, EltTy.bits .f32 = 32 ∨ (Rect.block (s := S4096x64) S4096x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x64.size a ≤ S4096x64.size a
  hwx5_3 : ∀ i : grid5.Coords, EltTy.bits .f32 = 32 ∨ (Rect.block (s := S4096x64) S512x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S4096x64.size a ≤ S4096x64.size a
  hwx5_4 : ∀ i : grid5.Coords, EltTy.bits .f32 = 32 ∨ (Rect.block (s := S4096x64) S4096x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x4096.size a ≤ S4096x4096.size a
  hwx6_0 : ∀ i : grid6.Coords, EltTy.bits .f32 = 32 ∨ (Rect.block (s := S4096x4096) S512x4096.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x64.size a ≤ S4096x64.size a
  hwx6_1 : ∀ i : grid6.Coords, EltTy.bits .f32 = 32 ∨ (Rect.block (s := S4096x64) S512x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S4096x64.size a ≤ S4096x64.size a
  hwx6_2 : ∀ i : grid6.Coords, EltTy.bits .f32 = 32 ∨ (Rect.block (s := S4096x64) S4096x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x64.size a ≤ S4096x64.size a
  hwx6_3 : ∀ i : grid6.Coords, EltTy.bits .f32 = 32 ∨ (Rect.block (s := S4096x64) S512x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S4096x64.size a ≤ S4096x64.size a
  hwx6_4 : ∀ i : grid6.Coords, EltTy.bits .f32 = 32 ∨ (Rect.block (s := S4096x64) S4096x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x4096.size a ≤ S4096x4096.size a
  hwx7_0 : ∀ i : grid7.Coords, EltTy.bits .f32 = 32 ∨ (Rect.block (s := S4096x4096) S512x4096.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x64.size a ≤ S4096x64.size a
  hwx7_1 : ∀ i : grid7.Coords, EltTy.bits .f32 = 32 ∨ (Rect.block (s := S4096x64) S512x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S4096x64.size a ≤ S4096x64.size a
  hwx7_2 : ∀ i : grid7.Coords, EltTy.bits .f32 = 32 ∨ (Rect.block (s := S4096x64) S4096x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x64.size a ≤ S4096x64.size a
  hwx7_3 : ∀ i : grid7.Coords, EltTy.bits .f32 = 32 ∨ (Rect.block (s := S4096x64) S512x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S4096x64.size a ≤ S4096x64.size a
  hwx7_4 : ∀ i : grid7.Coords, EltTy.bits .f32 = 32 ∨ (Rect.block (s := S4096x64) S4096x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x4096.size a ≤ S4096x4096.size a
  hwx8_0 : ∀ i : grid8.Coords, EltTy.bits .f32 = 32 ∨ (Rect.block (s := S4096x4096) S512x4096.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x64.size a ≤ S4096x64.size a
  hwx8_1 : ∀ i : grid8.Coords, EltTy.bits .f32 = 32 ∨ (Rect.block (s := S4096x64) S512x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S4096x64.size a ≤ S4096x64.size a
  hwx8_2 : ∀ i : grid8.Coords, EltTy.bits .f32 = 32 ∨ (Rect.block (s := S4096x64) S4096x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x64.size a ≤ S4096x64.size a
  hwx8_3 : ∀ i : grid8.Coords, EltTy.bits .f32 = 32 ∨ (Rect.block (s := S4096x64) S512x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S4096x64.size a ≤ S4096x64.size a
  hwx8_4 : ∀ i : grid8.Coords, EltTy.bits .f32 = 32 ∨ (Rect.block (s := S4096x64) S4096x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x4096.size a ≤ S4096x4096.size a
  hwx9_0 : ∀ i : grid9.Coords, EltTy.bits .f32 = 32 ∨ (Rect.block (s := S4096x4096) S512x4096.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S512x64.size a ≤ S4096x64.size a
  hwx9_1 : ∀ i : grid9.Coords, EltTy.bits .f32 = 32 ∨ (Rect.block (s := S4096x64) S512x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S4096x64.size a ≤ S4096x64.size a
  hwx9_2 : ∀ i : grid9.Coords, EltTy.bits .f32 = 32 ∨ (Rect.block (s := S4096x64) S4096x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S512x64.size a ≤ S4096x64.size a
  hwx9_3 : ∀ i : grid9.Coords, EltTy.bits .f32 = 32 ∨ (Rect.block (s := S4096x64) S512x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S4096x64.size a ≤ S4096x64.size a
  hwx9_4 : ∀ i : grid9.Coords, EltTy.bits .f32 = 32 ∨ (Rect.block (s := S4096x64) S4096x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S512x4096.size a ≤ S4096x4096.size a
  hwx10_0 : ∀ i : grid10.Coords, EltTy.bits .f32 = 32 ∨ (Rect.block (s := S4096x4096) S512x4096.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S512x64.size a ≤ S4096x64.size a
  hwx10_1 : ∀ i : grid10.Coords, EltTy.bits .f32 = 32 ∨ (Rect.block (s := S4096x64) S512x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S4096x64.size a ≤ S4096x64.size a
  hwx10_2 : ∀ i : grid10.Coords, EltTy.bits .f32 = 32 ∨ (Rect.block (s := S4096x64) S4096x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S512x64.size a ≤ S4096x64.size a
  hwx10_3 : ∀ i : grid10.Coords, EltTy.bits .f32 = 32 ∨ (Rect.block (s := S4096x64) S512x64.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S4096x64.size a ≤ S4096x64.size a
  hwx10_4 : ∀ i : grid10.Coords, EltTy.bits .f32 = 32 ∨ (Rect.block (s := S4096x64) S4096x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x4096.size a ≤ S4096x4096.size a
  hwx11_0 : ∀ i : grid11.Coords, EltTy.bits .f32 = 32 ∨ (Rect.block (s := S4096x4096) S512x4096.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S512x64.size a ≤ S4096x64.size a
  hwx11_1 : ∀ i : grid11.Coords, EltTy.bits .f32 = 32 ∨ (Rect.block (s := S4096x64) S512x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S4096x64.size a ≤ S4096x64.size a
  hwx11_2 : ∀ i : grid11.Coords, EltTy.bits .f32 = 32 ∨ (Rect.block (s := S4096x64) S4096x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S512x64.size a ≤ S4096x64.size a
  hwx11_3 : ∀ i : grid11.Coords, EltTy.bits .f32 = 32 ∨ (Rect.block (s := S4096x64) S512x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S4096x64.size a ≤ S4096x64.size a
  hwx11_4 : ∀ i : grid11.Coords, EltTy.bits .f32 = 32 ∨ (Rect.block (s := S4096x64) S4096x64.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S512x4096.size a ≤ S4096x4096.size a
  hwx12_0 : ∀ i : grid12.Coords, EltTy.bits .f32 = 32 ∨ (Rect.block (s := S4096x4096) S512x4096.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S512x64.size a ≤ S4096x64.size a
  hwx12_1 : ∀ i : grid12.Coords, EltTy.bits .f32 = 32 ∨ (Rect.block (s := S4096x64) S512x64.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S4096x64.size a ≤ S4096x64.size a
  hwx12_2 : ∀ i : grid12.Coords, EltTy.bits .f32 = 32 ∨ (Rect.block (s := S4096x64) S4096x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S512x64.size a ≤ S4096x64.size a
  hwx12_3 : ∀ i : grid12.Coords, EltTy.bits .f32 = 32 ∨ (Rect.block (s := S4096x64) S512x64.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S4096x64.size a ≤ S4096x64.size a
  hwx12_4 : ∀ i : grid12.Coords, EltTy.bits .f32 = 32 ∨ (Rect.block (s := S4096x64) S4096x64.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S512x4096.size a ≤ S4096x4096.size a
  hwx13_0 : ∀ i : grid13.Coords, EltTy.bits .f32 = 32 ∨ (Rect.block (s := S4096x4096) S512x4096.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S512x64.size a ≤ S4096x64.size a
  hwx13_1 : ∀ i : grid13.Coords, EltTy.bits .f32 = 32 ∨ (Rect.block (s := S4096x64) S512x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S4096x64.size a ≤ S4096x64.size a
  hwx13_2 : ∀ i : grid13.Coords, EltTy.bits .f32 = 32 ∨ (Rect.block (s := S4096x64) S4096x64.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S512x64.size a ≤ S4096x64.size a
  hwx13_3 : ∀ i : grid13.Coords, EltTy.bits .f32 = 32 ∨ (Rect.block (s := S4096x64) S512x64.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S4096x64.size a ≤ S4096x64.size a
  hwx13_4 : ∀ i : grid13.Coords, EltTy.bits .f32 = 32 ∨ (Rect.block (s := S4096x64) S4096x64.size (cc13_transform_4 i) (hinb13_4 i)).WholeWords (EltTy.packing .f32)

variable [Facts₀]

def dot_S512x4096_S4096x64_S512x64_1_0_0_1_n_n : DotDims S512x4096 S4096x64 S512x64 where
  lhsContracting := [1]
  rhsContracting := [0]
  lhsNonContracting := [0]
  rhsNonContracting := [1]
  lhsBatch := []
  rhsBatch := []
  wf := dot_S512x4096_S4096x64_S512x64_1_0_0_1_n_n_wf
def dot_S512x4096_S512x64_S4096x64_0_0_1_1_n_n : DotDims S512x4096 S512x64 S4096x64 where
  lhsContracting := [0]
  rhsContracting := [0]
  lhsNonContracting := [1]
  rhsNonContracting := [1]
  lhsBatch := []
  rhsBatch := []
  wf := dot_S512x4096_S512x64_S4096x64_0_0_1_1_n_n_wf

abbrev win0_0 : Pipeline.Window sig grid0 :=
  Pipeline.Window.ofSpec (Memref.whole main_arg2) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S4096x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_0) S512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_1) S4096x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5_0) S512x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_1) S4096x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg3) S512x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S512x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S4096x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14_0) S512x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v14_1) S4096x64.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_arg3) S512x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14_0) S512x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14_1) S4096x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17_0) S512x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v17_1) S4096x64.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_arg4) S512x4096.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S512x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S4096x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v26_0) S512x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v26_1) S4096x64.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_arg4) S512x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v26_0) S512x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v26_1) S4096x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v29_0) S512x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v29_1) S4096x64.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_arg5) S512x4096.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg0) S512x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg1) S4096x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v38_0) S512x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v38_1) S4096x64.size cc6_transform_4 reads6_4 true true 1 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev idle6 : Fin 5 → grid6.Coords → Bool := fun | 0 => fun _ => false | 1 => fun _ => false | 2 => fun _ => false | 3 => fun _ => false | 4 => fun i => !(k6_cond2 i == 1#1) | ⟨_ + 5, h⟩ => absurd h (Nat.not_lt.2 (Nat.le_add_left _ _))

abbrev win7_0 : Pipeline.Window sig grid7 :=
  Pipeline.Window.ofSpec (Memref.whole main_arg5) S512x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v38_0) S512x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v38_1) S4096x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v41_0) S512x64.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v41_1) S4096x64.size cc7_transform_4 reads7_4 true true 1 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev idle7 : Fin 5 → grid7.Coords → Bool := fun | 0 => fun _ => false | 1 => fun _ => false | 2 => fun _ => false | 3 => fun _ => false | 4 => fun i => !(k7_cond2 i == 1#1) | ⟨_ + 5, h⟩ => absurd h (Nat.not_lt.2 (Nat.le_add_left _ _))

abbrev win8_0 : Pipeline.Window sig grid8 :=
  Pipeline.Window.ofSpec (Memref.whole main_arg6) S512x4096.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg0) S512x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg1) S4096x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v50_0) S512x64.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v50_1) S4096x64.size cc8_transform_4 reads8_4 true true 1 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun _ => false | 4 => fun i => !(k8_cond2 i == 1#1) | ⟨_ + 5, h⟩ => absurd h (Nat.not_lt.2 (Nat.le_add_left _ _))

abbrev win9_0 : Pipeline.Window sig grid9 :=
  Pipeline.Window.ofSpec (Memref.whole main_arg6) S512x4096.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v50_0) S512x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v50_1) S4096x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v53_0) S512x64.size cc9_transform_3 reads9_3 true false 2 stage9_3 sem9_3
    hrank9 hreads9_3 hinb9_3 nbuf9_3 (Memref.isWhole_whole _) hwx9_3 hstage9_3

abbrev win9_4 : Pipeline.Window sig grid9 :=
  Pipeline.Window.ofSpec (Memref.whole main_v53_1) S4096x64.size cc9_transform_4 reads9_4 true true 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev idle9 : Fin 5 → grid9.Coords → Bool := fun | 0 => fun _ => false | 1 => fun _ => false | 2 => fun _ => false | 3 => fun _ => false | 4 => fun i => !(k9_cond2 i == 1#1) | ⟨_ + 5, h⟩ => absurd h (Nat.not_lt.2 (Nat.le_add_left _ _))

abbrev win10_0 : Pipeline.Window sig grid10 :=
  Pipeline.Window.ofSpec (Memref.whole main_arg7) S512x4096.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg0) S512x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg1) S4096x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v63_0) S512x64.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v63_1) S4096x64.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun _ => false | 4 => fun i => !(k10_cond2 i == 1#1) | ⟨_ + 5, h⟩ => absurd h (Nat.not_lt.2 (Nat.le_add_left _ _))

abbrev win11_0 : Pipeline.Window sig grid11 :=
  Pipeline.Window.ofSpec (Memref.whole main_arg7) S512x4096.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v63_0) S512x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v63_1) S4096x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v66_0) S512x64.size cc11_transform_3 reads11_3 true false 2 stage11_3 sem11_3
    hrank11 hreads11_3 hinb11_3 nbuf11_3 (Memref.isWhole_whole _) hwx11_3 hstage11_3

abbrev win11_4 : Pipeline.Window sig grid11 :=
  Pipeline.Window.ofSpec (Memref.whole main_v66_1) S4096x64.size cc11_transform_4 reads11_4 true true 1 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev idle11 : Fin 5 → grid11.Coords → Bool := fun | 0 => fun _ => false | 1 => fun _ => false | 2 => fun _ => false | 3 => fun _ => false | 4 => fun i => !(k11_cond2 i == 1#1) | ⟨_ + 5, h⟩ => absurd h (Nat.not_lt.2 (Nat.le_add_left _ _))

abbrev win12_0 : Pipeline.Window sig grid12 :=
  Pipeline.Window.ofSpec (Memref.whole main_arg8) S512x4096.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg0) S512x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_arg1) S4096x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v76_0) S512x64.size cc12_transform_3 reads12_3 true false 2 stage12_3 sem12_3
    hrank12 hreads12_3 hinb12_3 nbuf12_3 (Memref.isWhole_whole _) hwx12_3 hstage12_3

abbrev win12_4 : Pipeline.Window sig grid12 :=
  Pipeline.Window.ofSpec (Memref.whole main_v76_1) S4096x64.size cc12_transform_4 reads12_4 true true 1 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev idle12 : Fin 5 → grid12.Coords → Bool := fun | 0 => fun _ => false | 1 => fun _ => false | 2 => fun _ => false | 3 => fun _ => false | 4 => fun i => !(k12_cond2 i == 1#1) | ⟨_ + 5, h⟩ => absurd h (Nat.not_lt.2 (Nat.le_add_left _ _))

abbrev win13_0 : Pipeline.Window sig grid13 :=
  Pipeline.Window.ofSpec (Memref.whole main_arg8) S512x4096.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v76_0) S512x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v76_1) S4096x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v79_0) S512x64.size cc13_transform_3 reads13_3 true false 2 stage13_3 sem13_3
    hrank13 hreads13_3 hinb13_3 nbuf13_3 (Memref.isWhole_whole _) hwx13_3 hstage13_3

abbrev win13_4 : Pipeline.Window sig grid13 :=
  Pipeline.Window.ofSpec (Memref.whole main_v79_1) S4096x64.size cc13_transform_4 reads13_4 true true 1 stage13_4 sem13_4
    hrank13 hreads13_4 hinb13_4 nbuf13_4 (Memref.isWhole_whole _) hwx13_4 hstage13_4

abbrev win13 : Fin 5 → Pipeline.Window sig grid13 := fun | 0 => win13_0 | 1 => win13_1 | 2 => win13_2 | 3 => win13_3 | 4 => win13_4 | ⟨_ + 5, h⟩ => absurd h (Nat.not_lt.2 (Nat.le_add_left _ _))
abbrev spec13 : Fin 5 → Pipeline.WinSpec sig grid13.rank := fun w => (win13 w).toWinSpec

abbrev idle13 : Fin 5 → grid13.Coords → Bool := fun | 0 => fun _ => false | 1 => fun _ => false | 2 => fun _ => false | 3 => fun _ => false | 4 => fun i => !(k13_cond2 i == 1#1) | ⟨_ + 5, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096x64 : Shape := ⟨3, ![1, 4096, 64]⟩
abbrev S4x4096x64 : Shape := ⟨3, ![4, 4096, 64]⟩
abbrev S3x4096x64 : Shape := ⟨3, ![3, 4096, 64]⟩
abbrev S14x4096x64 : Shape := ⟨3, ![14, 4096, 64]⟩

abbrev nBuf : Space → Nat
  | .hbm => 314
  | .vmem => 0
  | .smem => 0
  | _ => 0

abbrev hbmTy0_0 (i : Nat) : BufTy := match i % 128 with
  | 0 => ⟨S4096x64, .f32⟩
  | 1 => ⟨S4096x64, .f32⟩
  | 2 => ⟨S4096x4096, .f32⟩
  | 3 => ⟨S4096x4096, .f32⟩
  | 4 => ⟨S4096x4096, .f32⟩
  | 5 => ⟨S4096x4096, .f32⟩
  | 6 => ⟨S4096x4096, .f32⟩
  | 7 => ⟨S4096x4096, .f32⟩
  | 8 => ⟨S4096x4096, .f32⟩
  | 9 => ⟨S4096x64, .f32⟩
  | 10 => ⟨S4096x64, .f32⟩
  | 11 => ⟨S4096x64, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x64, .f32⟩
  | 26 => ⟨S_, .f32⟩
  | 27 => ⟨S4096x64, .f32⟩
  | 28 => ⟨S4096x64, .f32⟩
  | 29 => ⟨S4096x64, .f32⟩
  | 30 => ⟨S4096x64, .f32⟩
  | 31 => ⟨S4096x4096, .f32⟩
  | 32 => ⟨S4096x64, .f32⟩
  | 33 => ⟨S4096x64, .f32⟩
  | 34 => ⟨S4096x64, .f32⟩
  | 35 => ⟨S4096x64, .f32⟩
  | 36 => ⟨S4096x64, .f32⟩
  | 37 => ⟨S4096x64, .f32⟩
  | 38 => ⟨S4096x64, .f32⟩
  | 39 => ⟨S4096x64, .f32⟩
  | 40 => ⟨S4096x4096, .f32⟩
  | 41 => ⟨S4096x64, .f32⟩
  | 42 => ⟨S4096x64, .f32⟩
  | 43 => ⟨S4096x64, .f32⟩
  | 44 => ⟨S4096x64, .f32⟩
  | 45 => ⟨S4096x64, .f32⟩
  | 46 => ⟨S_, .f32⟩
  | 47 => ⟨S4096x64, .f32⟩
  | 48 => ⟨S4096x64, .f32⟩
  | 49 => ⟨S_, .f32⟩
  | 50 => ⟨S4096x64, .f32⟩
  | 51 => ⟨S4096x64, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S_, .f32⟩
  | 59 => ⟨S4096, .f32⟩
  | 60 => ⟨S4096x1, .f32⟩
  | 61 => ⟨S_, .f32⟩
  | 62 => ⟨S4096x1, .f32⟩
  | 63 => ⟨S4096x1, .f32⟩
  | 64 => ⟨S_, .f32⟩
  | 65 => ⟨S4096x64, .f32⟩
  | 66 => ⟨S_, .f32⟩
  | 67 => ⟨S4096x64, .f32⟩
  | 68 => ⟨S4096x64, .f32⟩
  | 69 => ⟨S4096x64, .f32⟩
  | 70 => ⟨S4096x64, .f32⟩
  | 71 => ⟨S4096x4096, .f32⟩
  | 72 => ⟨S4096x64, .f32⟩
  | 73 => ⟨S4096x64, .f32⟩
  | 74 => ⟨S4096x64, .f32⟩
  | 75 => ⟨S4096x64, .f32⟩
  | 76 => ⟨S4096x64, .f32⟩
  | 77 => ⟨S4096x64, .f32⟩
  | 78 => ⟨S4096x64, .f32⟩
  | 79 => ⟨S4096x64, .f32⟩
  | 80 => ⟨S4096x4096, .f32⟩
  | 81 => ⟨S4096x64, .f32⟩
  | 82 => ⟨S4096x64, .f32⟩
  | 83 => ⟨S4096x64, .f32⟩
  | 84 => ⟨S4096x64, .f32⟩
  | 85 => ⟨S4096x64, .f32⟩
  | 86 => ⟨S_, .f32⟩
  | 87 => ⟨S4096x64, .f32⟩
  | 88 => ⟨S4096x64, .f32⟩
  | 89 => ⟨S_, .f32⟩
  | 90 => ⟨S4096x64, .f32⟩
  | 91 => ⟨S4096x64, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1, .f32⟩
  | 101 => ⟨S_, .f32⟩
  | 102 => ⟨S4096x1, .f32⟩
  | 103 => ⟨S4096x1, .f32⟩
  | 104 => ⟨S_, .f32⟩
  | 105 => ⟨S4096x64, .f32⟩
  | 106 => ⟨S_, .f32⟩
  | 107 => ⟨S4096x64, .f32⟩
  | 108 => ⟨S4096x64, .f32⟩
  | 109 => ⟨S4096x64, .f32⟩
  | 110 => ⟨S4096x64, .f32⟩
  | 111 => ⟨S4096x4096, .f32⟩
  | 112 => ⟨S4096x64, .f32⟩
  | 113 => ⟨S4096x64, .f32⟩
  | 114 => ⟨S4096x64, .f32⟩
  | 115 => ⟨S4096x64, .f32⟩
  | 116 => ⟨S4096x64, .f32⟩
  | 117 => ⟨S4096x64, .f32⟩
  | 118 => ⟨S4096x64, .f32⟩
  | 119 => ⟨S4096x64, .f32⟩
  | 120 => ⟨S4096x4096, .f32⟩
  | 121 => ⟨S4096x64, .f32⟩
  | 122 => ⟨S4096x64, .f32⟩
  | 123 => ⟨S4096x64, .f32⟩
  | 124 => ⟨S4096x64, .f32⟩
  | 125 => ⟨S4096x64, .f32⟩
  | 126 => ⟨S_, .f32⟩
  | 127 => ⟨S4096x64, .f32⟩
  | _ => ⟨S4096x64, .f32⟩

abbrev hbmTy0_1 (i : Nat) : BufTy := match i % 128 with
  | 0 => ⟨S4096x64, .f32⟩
  | 1 => ⟨S_, .f32⟩
  | 2 => ⟨S4096x64, .f32⟩
  | 3 => ⟨S4096x64, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x64, .f32⟩
  | 18 => ⟨S_, .f32⟩
  | 19 => ⟨S4096x64, .f32⟩
  | 20 => ⟨S4096x64, .f32⟩
  | 21 => ⟨S4096x64, .f32⟩
  | 22 => ⟨S4096x64, .f32⟩
  | 23 => ⟨S4096x4096, .f32⟩
  | 24 => ⟨S4096x64, .f32⟩
  | 25 => ⟨S4096x64, .f32⟩
  | 26 => ⟨S4096x64, .f32⟩
  | 27 => ⟨S4096x64, .f32⟩
  | 28 => ⟨S4096x64, .f32⟩
  | 29 => ⟨S4096x64, .f32⟩
  | 30 => ⟨S4096x64, .f32⟩
  | 31 => ⟨S4096x64, .f32⟩
  | 32 => ⟨S4096x4096, .f32⟩
  | 33 => ⟨S4096x64, .f32⟩
  | 34 => ⟨S4096x64, .f32⟩
  | 35 => ⟨S4096x64, .f32⟩
  | 36 => ⟨S4096x64, .f32⟩
  | 37 => ⟨S4096x64, .f32⟩
  | 38 => ⟨S_, .f32⟩
  | 39 => ⟨S4096x64, .f32⟩
  | 40 => ⟨S4096x64, .f32⟩
  | 41 => ⟨S_, .f32⟩
  | 42 => ⟨S4096x64, .f32⟩
  | 43 => ⟨S4096x64, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096x64, .f32⟩
  | 58 => ⟨S_, .f32⟩
  | 59 => ⟨S4096x64, .f32⟩
  | 60 => ⟨S4096x64, .f32⟩
  | 61 => ⟨S4096x64, .f32⟩
  | 62 => ⟨S4096x64, .f32⟩
  | 63 => ⟨S4096x4096, .f32⟩
  | 64 => ⟨S4096x64, .f32⟩
  | 65 => ⟨S4096x64, .f32⟩
  | 66 => ⟨S4096x64, .f32⟩
  | 67 => ⟨S4096x64, .f32⟩
  | 68 => ⟨S4096x64, .f32⟩
  | 69 => ⟨S4096x64, .f32⟩
  | 70 => ⟨S4096x64, .f32⟩
  | 71 => ⟨S4096x64, .f32⟩
  | 72 => ⟨S4096x4096, .f32⟩
  | 73 => ⟨S4096x64, .f32⟩
  | 74 => ⟨S4096x64, .f32⟩
  | 75 => ⟨S4096x64, .f32⟩
  | 76 => ⟨S4096x64, .f32⟩
  | 77 => ⟨S4096x64, .f32⟩
  | 78 => ⟨S_, .f32⟩
  | 79 => ⟨S4096x64, .f32⟩
  | 80 => ⟨S4096x64, .f32⟩
  | 81 => ⟨S_, .f32⟩
  | 82 => ⟨S4096x64, .f32⟩
  | 83 => ⟨S4096x64, .f32⟩
  | 84 => ⟨S4096x64, .f32⟩
  | 85 => ⟨S_, .f32⟩
  | 86 => ⟨S4096, .f32⟩
  | 87 => ⟨S4096x1, .f32⟩
  | 88 => ⟨S_, .f32⟩
  | 89 => ⟨S4096x1, .f32⟩
  | 90 => ⟨S4096x1, .f32⟩
  | 91 => ⟨S_, .f32⟩
  | 92 => ⟨S4096, .f32⟩
  | 93 => ⟨S4096x1, .f32⟩
  | 94 => ⟨S_, .f32⟩
  | 95 => ⟨S4096x1, .f32⟩
  | 96 => ⟨S4096x1, .f32⟩
  | 97 => ⟨S_, .f32⟩
  | 98 => ⟨S4096x64, .f32⟩
  | 99 => ⟨S_, .f32⟩
  | 100 => ⟨S4096x64, .f32⟩
  | 101 => ⟨S4096x64, .f32⟩
  | 102 => ⟨S4096x64, .f32⟩
  | 103 => ⟨S4096x64, .f32⟩
  | 104 => ⟨S4096x4096, .f32⟩
  | 105 => ⟨S4096x64, .f32⟩
  | 106 => ⟨S4096x64, .f32⟩
  | 107 => ⟨S4096x64, .f32⟩
  | 108 => ⟨S4096x64, .f32⟩
  | 109 => ⟨S4096x64, .f32⟩
  | 110 => ⟨S4096x64, .f32⟩
  | 111 => ⟨S4096x64, .f32⟩
  | 112 => ⟨S4096x64, .f32⟩
  | 113 => ⟨S4096x4096, .f32⟩
  | 114 => ⟨S4096x64, .f32⟩
  | 115 => ⟨S4096x64, .f32⟩
  | 116 => ⟨S4096x64, .f32⟩
  | 117 => ⟨S4096x64, .f32⟩
  | 118 => ⟨S4096x64, .f32⟩
  | 119 => ⟨S_, .f32⟩
  | 120 => ⟨S4096x64, .f32⟩
  | 121 => ⟨S4096x64, .f32⟩
  | 122 => ⟨S_, .f32⟩
  | 123 => ⟨S4096x64, .f32⟩
  | 124 => ⟨S4096x64, .f32⟩
  | 125 => ⟨S4096x64, .f32⟩
  | 126 => ⟨S_, .f32⟩
  | 127 => ⟨S4096, .f32⟩
  | _ => ⟨S4096x64, .f32⟩

abbrev hbmTy0_2 (i : Nat) : BufTy := match i % 128 with
  | 0 => ⟨S4096x1, .f32⟩
  | 1 => ⟨S_, .f32⟩
  | 2 => ⟨S4096x1, .f32⟩
  | 3 => ⟨S4096x1, .f32⟩
  | 4 => ⟨S_, .f32⟩
  | 5 => ⟨S4096, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096x64, .f32⟩
  | 12 => ⟨S_, .f32⟩
  | 13 => ⟨S4096x64, .f32⟩
  | 14 => ⟨S4096x64, .f32⟩
  | 15 => ⟨S4096x64, .f32⟩
  | 16 => ⟨S4096x64, .f32⟩
  | 17 => ⟨S4096x4096, .f32⟩
  | 18 => ⟨S4096x64, .f32⟩
  | 19 => ⟨S4096x64, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S4096x64, .f32⟩
  | 26 => ⟨S4096x4096, .f32⟩
  | 27 => ⟨S4096x64, .f32⟩
  | 28 => ⟨S4096x64, .f32⟩
  | 29 => ⟨S4096x64, .f32⟩
  | 30 => ⟨S4096x64, .f32⟩
  | 31 => ⟨S4096x64, .f32⟩
  | 32 => ⟨S_, .f32⟩
  | 33 => ⟨S4096x64, .f32⟩
  | 34 => ⟨S4096x64, .f32⟩
  | 35 => ⟨S_, .f32⟩
  | 36 => ⟨S4096x64, .f32⟩
  | 37 => ⟨S4096x64, .f32⟩
  | 38 => ⟨S4096x64, .f32⟩
  | 39 => ⟨S1x4096x64, .f32⟩
  | 40 => ⟨S1x4096x64, .f32⟩
  | 41 => ⟨S1x4096x64, .f32⟩
  | 42 => ⟨S1x4096x64, .f32⟩
  | 43 => ⟨S4x4096x64, .f32⟩
  | 44 => ⟨S1x4096x64, .f32⟩
  | 45 => ⟨S1x4096x64, .f32⟩
  | 46 => ⟨S1x4096x64, .f32⟩
  | 47 => ⟨S1x4096x64, .f32⟩
  | 48 => ⟨S4x4096x64, .f32⟩
  | 49 => ⟨S1x4096x64, .f32⟩
  | 50 => ⟨S1x4096x64, .f32⟩
  | 51 => ⟨S1x4096x64, .f32⟩
  | 52 => ⟨S3x4096x64, .f32⟩
  | 53 => ⟨S1x4096x64, .f32⟩
  | 54 => ⟨S1x4096x64, .f32⟩
  | 55 => ⟨S1x4096x64, .f32⟩
  | 56 => ⟨S3x4096x64, .f32⟩
  | 57 => ⟨S14x4096x64, .f32⟩
  | _ => ⟨S4096x64, .f32⟩

abbrev hbmTy (i : Nat) : BufTy := match i / 128 with
  | 0 => hbmTy0_0 i
  | 1 => hbmTy0_1 i
  | 2 => hbmTy0_2 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_cst_4 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_cst_10 : Ref sig .tc := ⟨.hbm, 61, rfl⟩
abbrev main_v38 : Ref sig .tc := ⟨.hbm, 62, rfl⟩
abbrev main_v39 : Ref sig .tc := ⟨.hbm, 63, rfl⟩
abbrev main_cst_11 : Ref sig .tc := ⟨.hbm, 64, rfl⟩
abbrev main_v40 : Ref sig .tc := ⟨.hbm, 65, rfl⟩
abbrev main_cst_12 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_cst_14 : Ref sig .tc := ⟨.hbm, 89, rfl⟩
abbrev main_v62 : Ref sig .tc := ⟨.hbm, 90, rfl⟩
abbrev main_v63 : Ref sig .tc := ⟨.hbm, 91, rfl⟩
abbrev main_cst_15 : Ref sig .tc := ⟨.hbm, 92, rfl⟩
abbrev main_v64 : Ref sig .tc := ⟨.hbm, 93, rfl⟩
abbrev main_v65 : Ref sig .tc := ⟨.hbm, 94, rfl⟩
abbrev main_cst_16 : Ref sig .tc := ⟨.hbm, 95, rfl⟩
abbrev main_v66 : Ref sig .tc := ⟨.hbm, 96, rfl⟩
abbrev main_v67 : Ref sig .tc := ⟨.hbm, 97, rfl⟩
abbrev main_cst_17 : Ref sig .tc := ⟨.hbm, 98, rfl⟩
abbrev main_v68 : Ref sig .tc := ⟨.hbm, 99, rfl⟩
abbrev main_v69 : Ref sig .tc := ⟨.hbm, 100, rfl⟩
abbrev main_cst_18 : Ref sig .tc := ⟨.hbm, 101, rfl⟩
abbrev main_v70 : Ref sig .tc := ⟨.hbm, 102, rfl⟩
abbrev main_v71 : Ref sig .tc := ⟨.hbm, 103, rfl⟩
abbrev main_cst_19 : Ref sig .tc := ⟨.hbm, 104, rfl⟩
abbrev main_v72 : Ref sig .tc := ⟨.hbm, 105, rfl⟩
abbrev main_cst_20 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_21 : Ref sig .tc := ⟨.hbm, 126, rfl⟩
abbrev main_v92 : Ref sig .tc := ⟨.hbm, 127, rfl⟩
abbrev main_v93 : Ref sig .tc := ⟨.hbm, 128, rfl⟩
abbrev main_cst_22 : Ref sig .tc := ⟨.hbm, 129, rfl⟩
abbrev main_v94 : Ref sig .tc := ⟨.hbm, 130, rfl⟩
abbrev main_v95 : Ref sig .tc := ⟨.hbm, 131, rfl⟩
abbrev main_cst_23 : Ref sig .tc := ⟨.hbm, 132, rfl⟩
abbrev main_v96 : Ref sig .tc := ⟨.hbm, 133, rfl⟩
abbrev main_v97 : Ref sig .tc := ⟨.hbm, 134, rfl⟩
abbrev main_cst_24 : Ref sig .tc := ⟨.hbm, 135, rfl⟩
abbrev main_v98 : Ref sig .tc := ⟨.hbm, 136, rfl⟩
abbrev main_v99 : Ref sig .tc := ⟨.hbm, 137, rfl⟩
abbrev main_cst_25 : Ref sig .tc := ⟨.hbm, 138, rfl⟩
abbrev main_v100 : Ref sig .tc := ⟨.hbm, 139, rfl⟩
abbrev main_v101 : Ref sig .tc := ⟨.hbm, 140, rfl⟩
abbrev main_cst_26 : Ref sig .tc := ⟨.hbm, 141, rfl⟩
abbrev main_v102 : Ref sig .tc := ⟨.hbm, 142, rfl⟩
abbrev main_v103 : Ref sig .tc := ⟨.hbm, 143, rfl⟩
abbrev main_cst_27 : Ref sig .tc := ⟨.hbm, 144, rfl⟩
abbrev main_v104 : Ref sig .tc := ⟨.hbm, 145, rfl⟩
abbrev main_cst_28 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_cst_29 : Ref sig .tc := ⟨.hbm, 166, rfl⟩
abbrev main_v124 : Ref sig .tc := ⟨.hbm, 167, rfl⟩
abbrev main_v125 : Ref sig .tc := ⟨.hbm, 168, rfl⟩
abbrev main_cst_30 : Ref sig .tc := ⟨.hbm, 169, rfl⟩
abbrev main_v126 : Ref sig .tc := ⟨.hbm, 170, rfl⟩
abbrev main_v127 : Ref sig .tc := ⟨.hbm, 171, rfl⟩
abbrev main_cst_31 : Ref sig .tc := ⟨.hbm, 172, rfl⟩
abbrev main_v128 : Ref sig .tc := ⟨.hbm, 173, rfl⟩
abbrev main_v129 : Ref sig .tc := ⟨.hbm, 174, rfl⟩
abbrev main_cst_32 : Ref sig .tc := ⟨.hbm, 175, rfl⟩
abbrev main_v130 : Ref sig .tc := ⟨.hbm, 176, rfl⟩
abbrev main_v131 : Ref sig .tc := ⟨.hbm, 177, rfl⟩
abbrev main_cst_33 : Ref sig .tc := ⟨.hbm, 178, rfl⟩
abbrev main_v132 : Ref sig .tc := ⟨.hbm, 179, rfl⟩
abbrev main_v133 : Ref sig .tc := ⟨.hbm, 180, rfl⟩
abbrev main_cst_34 : Ref sig .tc := ⟨.hbm, 181, rfl⟩
abbrev main_v134 : Ref sig .tc := ⟨.hbm, 182, rfl⟩
abbrev main_v135 : Ref sig .tc := ⟨.hbm, 183, rfl⟩
abbrev main_cst_35 : Ref sig .tc := ⟨.hbm, 184, rfl⟩
abbrev main_v136 : Ref sig .tc := ⟨.hbm, 185, rfl⟩
abbrev main_cst_36 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_cst_37 : Ref sig .tc := ⟨.hbm, 206, rfl⟩
abbrev main_v156 : Ref sig .tc := ⟨.hbm, 207, rfl⟩
abbrev main_v157 : Ref sig .tc := ⟨.hbm, 208, rfl⟩
abbrev main_cst_38 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_39 : Ref sig .tc := ⟨.hbm, 213, rfl⟩
abbrev main_v161 : Ref sig .tc := ⟨.hbm, 214, rfl⟩
abbrev main_v162 : Ref sig .tc := ⟨.hbm, 215, rfl⟩
abbrev main_cst_40 : Ref sig .tc := ⟨.hbm, 216, rfl⟩
abbrev main_v163 : Ref sig .tc := ⟨.hbm, 217, rfl⟩
abbrev main_v164 : Ref sig .tc := ⟨.hbm, 218, rfl⟩
abbrev main_cst_41 : Ref sig .tc := ⟨.hbm, 219, rfl⟩
abbrev main_v165 : Ref sig .tc := ⟨.hbm, 220, rfl⟩
abbrev main_v166 : Ref sig .tc := ⟨.hbm, 221, rfl⟩
abbrev main_cst_42 : Ref sig .tc := ⟨.hbm, 222, rfl⟩
abbrev main_v167 : Ref sig .tc := ⟨.hbm, 223, rfl⟩
abbrev main_v168 : Ref sig .tc := ⟨.hbm, 224, rfl⟩
abbrev main_cst_43 : Ref sig .tc := ⟨.hbm, 225, rfl⟩
abbrev main_v169 : Ref sig .tc := ⟨.hbm, 226, rfl⟩
abbrev main_cst_44 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_cst_45 : Ref sig .tc := ⟨.hbm, 247, rfl⟩
abbrev main_v189 : Ref sig .tc := ⟨.hbm, 248, rfl⟩
abbrev main_v190 : Ref sig .tc := ⟨.hbm, 249, rfl⟩
abbrev main_cst_46 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_cst_47 : Ref sig .tc := ⟨.hbm, 254, rfl⟩
abbrev main_v194 : Ref sig .tc := ⟨.hbm, 255, rfl⟩
abbrev main_v195 : Ref sig .tc := ⟨.hbm, 256, rfl⟩
abbrev main_cst_48 : Ref sig .tc := ⟨.hbm, 257, rfl⟩
abbrev main_v196 : Ref sig .tc := ⟨.hbm, 258, rfl⟩
abbrev main_v197 : Ref sig .tc := ⟨.hbm, 259, rfl⟩
abbrev main_cst_49 : Ref sig .tc := ⟨.hbm, 260, rfl⟩
abbrev main_v198 : Ref sig .tc := ⟨.hbm, 261, rfl⟩
abbrev main_v199 : Ref sig .tc := ⟨.hbm, 262, rfl⟩
abbrev main_cst_50 : Ref sig .tc := ⟨.hbm, 263, rfl⟩
abbrev main_v200 : Ref sig .tc := ⟨.hbm, 264, rfl⟩
abbrev main_v201 : Ref sig .tc := ⟨.hbm, 265, rfl⟩
abbrev main_cst_51 : Ref sig .tc := ⟨.hbm, 266, rfl⟩
abbrev main_v202 : Ref sig .tc := ⟨.hbm, 267, rfl⟩
abbrev main_cst_52 : Ref sig .tc := ⟨.hbm, 268, rfl⟩
abbrev main_v203 : Ref sig .tc := ⟨.hbm, 269, rfl⟩
abbrev main_v204 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_v208 : Ref sig .tc := ⟨.hbm, 274, rfl⟩
abbrev main_v209 : Ref sig .tc := ⟨.hbm, 275, rfl⟩
abbrev main_v210 : Ref sig .tc := ⟨.hbm, 276, rfl⟩
abbrev main_v211 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_v217 : Ref sig .tc := ⟨.hbm, 283, rfl⟩
abbrev main_v218 : Ref sig .tc := ⟨.hbm, 284, rfl⟩
abbrev main_v219 : Ref sig .tc := ⟨.hbm, 285, rfl⟩
abbrev main_v220 : Ref sig .tc := ⟨.hbm, 286, rfl⟩
abbrev main_v221 : Ref sig .tc := ⟨.hbm, 287, rfl⟩
abbrev main_cst_53 : Ref sig .tc := ⟨.hbm, 288, rfl⟩
abbrev main_v222 : Ref sig .tc := ⟨.hbm, 289, rfl⟩
abbrev main_v223 : Ref sig .tc := ⟨.hbm, 290, rfl⟩
abbrev main_cst_54 : Ref sig .tc := ⟨.hbm, 291, rfl⟩
abbrev main_v224 : Ref sig .tc := ⟨.hbm, 292, rfl⟩
abbrev main_v225 : Ref sig .tc := ⟨.hbm, 293, rfl⟩
abbrev main_v226 : Ref sig .tc := ⟨.hbm, 294, rfl⟩
abbrev main_v227 : Ref sig .tc := ⟨.hbm, 295, rfl⟩
abbrev main_v228 : Ref sig .tc := ⟨.hbm, 296, rfl⟩
abbrev main_v229 : Ref sig .tc := ⟨.hbm, 297, rfl⟩
abbrev main_v230 : Ref sig .tc := ⟨.hbm, 298, rfl⟩
abbrev main_v231 : Ref sig .tc := ⟨.hbm, 299, rfl⟩
abbrev main_v232 : Ref sig .tc := ⟨.hbm, 300, rfl⟩
abbrev main_v233 : Ref sig .tc := ⟨.hbm, 301, rfl⟩
abbrev main_v234 : Ref sig .tc := ⟨.hbm, 302, rfl⟩
abbrev main_v235 : Ref sig .tc := ⟨.hbm, 303, rfl⟩
abbrev main_v236 : Ref sig .tc := ⟨.hbm, 304, rfl⟩
abbrev main_v237 : Ref sig .tc := ⟨.hbm, 305, rfl⟩
abbrev main_v238 : Ref sig .tc := ⟨.hbm, 306, rfl⟩
abbrev main_v239 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  reducesTo_S4096x4096_S4096_d0 : S4096x4096.ReducesTo [0] S4096
  bcast_S_S4096x64 : S_.BroadcastsInDim S4096x64 (![] : Fin 0 → Fin S4096x64.rank)
  bcast_S4096x1_S4096x64_0_1 : S4096x1.BroadcastsInDim S4096x64 (![0, 1] : Fin 2 → Fin S4096x64.rank)
  transposes_S4096x4096_S4096x4096_1_0 : S4096x4096.Transposes [1, 0] S4096x4096
  bcast_S4096x64_S1x4096x64_1_2 : S4096x64.BroadcastsInDim S1x4096x64 (![1, 2] : Fin 2 → Fin S1x4096x64.rank)
  concatenates_S1x4096x64_S1x4096x64_S1x4096x64_S1x4096x64_S4x4096x64_d0 : Shape.Concatenates [S1x4096x64, S1x4096x64, S1x4096x64, S1x4096x64] S4x4096x64 0
  concatenates_S1x4096x64_S1x4096x64_S1x4096x64_S3x4096x64_d0 : Shape.Concatenates [S1x4096x64, S1x4096x64, S1x4096x64] S3x4096x64 0
  concatenates_S4x4096x64_S4x4096x64_S3x4096x64_S3x4096x64_S14x4096x64_d0 : Shape.Concatenates [S4x4096x64, S4x4096x64, S3x4096x64, S3x4096x64] S14x4096x64 0
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.KI.Common.lean ====
import proofs.«103934_j28484223107660_1_alg».proof.Proof.Gen.KernelIdeal.Launch
import proofs.«103934_j28484223107660_1_alg».proof.Proof.Gen.KernelIdeal.Skeleton
import proofs.«103934_j28484223107660_1_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two conditionals of the layer kernel's body, as functions of the grid point: the first holds at
    the first row block (the accumulators are reset there), the second at the last (the column result is
    normalised and stored there). -/

/-- The body's first conditional: the row-block index is 0. -/
abbrev condFirst (i : grid0.Coords) : Prop :=
  (Scalar.cmpi .ne (Scalar.extui (Scalar.cmpi .eq (BitVec.ofNat 32 (i 0).val) 0#32)) 0#32) = 1#1
/-- The body's second conditional: the row-block index is 7. -/
abbrev condLast (i : grid0.Coords) : Prop := k0_cond2 i = 1#1

theorem condFirst_iff : ∀ t : Fin grid0.N, condFirst (grid0.coords t) ↔ t.val = 0 := by decide +kernel
theorem condLast_iff : ∀ t : Fin grid0.N, condLast (grid0.coords t) ↔ t.val = 7 := by decide +kernel

end Cert.KernelIdeal.Hand

end
-- ==== Proof.KI.RunEA.lean ====
import proofs.«103934_j28484223107660_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at the first row block (the accumulators are reset there; nothing is stored into the column result, whose buffer is handed back untouched): the pieces its stores leave in each buffer it stores into, found by
    running it, with the proof that from whole buffers holding the three input blocks it runs to the
    continuation with those pieces written and the inputs as they were. -/
noncomputable def runEA (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32) :
    Σ' (L4 : List (View.Piece (Elt F) S512x64 .f32)) (LS0 : List (View.Piece (Elt F) S4096x64 .f32)), { LS1 : List (View.Piece (Elt F) S1x4096 .f32) //
      ∀ (xi5 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xi5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__mlgcn_layer_kernel i arg1 harg1 arg2 harg2 arg3 harg3 arg4 harg4 arg5 harg5 arg6 harg6 arg7 harg7) K } := by
  refine ⟨?_, ?_, ?_, fun xi5 E K => ?run⟩
  case run =>
    simp only [cc0__mlgcn_layer_kernel_eq_skeleton]; unfold cc0__mlgcn_layer_kernel_skel
    simp only [k0_part1_eq_skeleton]; unfold k0_part1_skel
    unfold owns
    iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]; · iexists _; iexact H6
    iexists _; iexact H7

end Cert.KernelIdeal.Hand

end
-- ==== Proof.KI.RunEB.lean ====
import proofs.«103934_j28484223107660_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at a middle row block (the accumulators, found at the contents the block before left, are added to; nothing is stored into the column result, whose buffer is handed back untouched): the pieces its stores leave in each buffer it stores into, found by
    running it, with the proof that from whole buffers holding the three input blocks it runs to the
    continuation with those pieces written and the inputs as they were. -/
noncomputable def runEB (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32) :
    Σ' (L4 : List (View.Piece (Elt F) S512x64 .f32)) (LS0 : List (View.Piece (Elt F) S4096x64 .f32)), { LS1 : List (View.Piece (Elt F) S1x4096 .f32) //
      ∀ (xi5 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xi5
            ∗ owns (c : Thread nD τ) arg6 fullShare xs6 ∗ owns (c : Thread nD τ) arg7 fullShare xs7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__mlgcn_layer_kernel i arg1 harg1 arg2 harg2 arg3 harg3 arg4 harg4 arg5 harg5 arg6 harg6 arg7 harg7) K } := by
  refine ⟨?_, ?_, ?_, fun xi5 E K => ?run⟩
  case run =>
    simp only [cc0__mlgcn_layer_kernel_eq_skeleton]; unfold cc0__mlgcn_layer_kernel_skel
    simp only [k0_part1_eq_skeleton]; unfold k0_part1_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]; · iexists _; iexact H6
    iexists _; iexact H7

end Cert.KernelIdeal.Hand

end
-- ==== Proof.KI.RunEC.lean ====
import proofs.«103934_j28484223107660_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at the last row block (the accumulators are added to, and the column result is stored: the accumulated weighted sums over the accumulated column degrees): the pieces its stores leave in each buffer it stores into, found by
    running it, with the proof that from whole buffers holding the three input blocks it runs to the
    continuation with those pieces written and the inputs as they were. -/
noncomputable def runEC (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32) :
    Σ' (L4 : List (View.Piece (Elt F) S512x64 .f32)) (L5 : List (View.Piece (Elt F) S4096x64 .f32)) (LS0 : List (View.Piece (Elt F) S4096x64 .f32)), { LS1 : List (View.Piece (Elt F) S1x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__mlgcn_layer_kernel i arg1 harg1 arg2 harg2 arg3 harg3 arg4 harg4 arg5 harg5 arg6 harg6 arg7 harg7) K } := by
  refine ⟨?_, ?_, ?_, ?_, fun E K => ?run⟩
  case run =>
    simp only [cc0__mlgcn_layer_kernel_eq_skeleton]; unfold cc0__mlgcn_layer_kernel_skel
    simp only [k0_part1_eq_skeleton]; unfold k0_part1_skel
    unfold owns
    iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf1; obtain rfl := harg2.eq_unread hf2; obtain rfl := harg3.eq_unread hf3; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.KernelIdeal.Hand

end
-- ==== Proof.KI.PieceE.lean ====
import proofs.«103934_j28484223107660_1_alg».proof.Proof.KI.RunEA
import proofs.«103934_j28484223107660_1_alg».proof.Proof.KI.RunEB
import proofs.«103934_j28484223107660_1_alg».proof.Proof.KI.RunEC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer access is zero on both axes. -/
theorem off00 : (![0, 0] : Fin 2 → ℕ) = fun _ => 0 := by funext a; fin_cases a <;> rfl

/-- After the body's run (case A) the row result's buffer holds the block's quotients: the last store through the whole buffer decides its contents. -/
theorem pieceEA_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S512x64 .f32) (f : v.ty.Contents (Elt F)) :
    v.read (Elt F) (v.writes (Elt F) f (runEA c i arg1 harg1 arg2 harg2 arg3 harg3 arg4 harg4 arg5 harg5 arg6 harg6 arg7 harg7 hc0 hc1 x1 x2 x3).1) = k0_pay5 x1 x3 := by
  rw [View.read_writes_eq_canon v f _ (View.cover_of_tiledL _ S512x64.size (by sl_kernel_rfl))]
  unfold runEA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case A) the accumulator of weighted sums holds the block's contribution added to what it held: the last store through the whole buffer decides its contents. -/
theorem pieceEA_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S4096x64 .f32) (f : v.ty.Contents (Elt F)) :
    v.read (Elt F) (v.writes (Elt F) f (runEA c i arg1 harg1 arg2 harg2 arg3 harg3 arg4 harg4 arg5 harg5 arg6 harg6 arg7 harg7 hc0 hc1 x1 x2 x3).2.1) = k0_pay6 x1 x2 (k0_pay2 (F := F)) := by
  rw [View.read_writes_eq_canon v f _ (View.cover_of_tiledL _ S4096x64.size (by sl_kernel_rfl))]
  unfold runEA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case A) the accumulator of column degrees holds the block's column sums added to what it held: the last store through the whole buffer decides its contents. -/
theorem pieceEA_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S1x4096 .f32) (f : v.ty.Contents (Elt F)) :
    v.read (Elt F) (v.writes (Elt F) f (runEA c i arg1 harg1 arg2 harg2 arg3 harg3 arg4 harg4 arg5 harg5 arg6 harg6 arg7 harg7 hc0 hc1 x1 x2 x3).2.2.1) = k0_pay7 x1 (k0_pay3 (F := F)) := by
  rw [View.read_writes_eq_canon v f _ (View.cover_of_tiledL _ S1x4096.size (by sl_kernel_rfl))]
  unfold runEA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the row result's buffer holds the block's quotients: the last store through the whole buffer decides its contents. -/
theorem pieceEB_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S512x64 .f32) (f : v.ty.Contents (Elt F)) :
    v.read (Elt F) (v.writes (Elt F) f (runEB c i arg1 harg1 arg2 harg2 arg3 harg3 arg4 harg4 arg5 harg5 arg6 harg6 arg7 harg7 hc0 hc1 x1 x2 x3 xs6 xs7).1) = k0_pay5 x1 x3 := by
  rw [View.read_writes_eq_canon v f _ (View.cover_of_tiledL _ S512x64.size (by sl_kernel_rfl))]
  unfold runEB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the accumulator of weighted sums holds the block's contribution added to what it held: the last store through the whole buffer decides its contents. -/
theorem pieceEB_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runEB c i arg1 harg1 arg2 harg2 arg3 harg3 arg4 harg4 arg5 harg5 arg6 harg6 arg7 harg7 hc0 hc1 x1 x2 x3 xs6 xs7).2.1) = k0_pay6 x1 x2 xs6 := by
  rw [View.read_writes_eq_canon v f _ (View.cover_of_tiledL _ S4096x64.size (by sl_kernel_rfl))]
  unfold runEB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the accumulator of column degrees holds the block's column sums added to what it held: the last store through the whole buffer decides its contents. -/
theorem pieceEB_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S1x4096 .f32) (f : v.ty.Contents (Elt F)) :
    v.read (Elt F) (v.writes (Elt F) f (runEB c i arg1 harg1 arg2 harg2 arg3 harg3 arg4 harg4 arg5 harg5 arg6 harg6 arg7 harg7 hc0 hc1 x1 x2 x3 xs6 xs7).2.2.1) = k0_pay7 x1 xs7 := by
  rw [View.read_writes_eq_canon v f _ (View.cover_of_tiledL _ S1x4096.size (by sl_kernel_rfl))]
  unfold runEB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the row result's buffer holds the block's quotients: the last store through the whole buffer decides its contents. -/
theorem pieceEC_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S512x64 .f32) (f : v.ty.Contents (Elt F)) :
    v.read (Elt F) (v.writes (Elt F) f (runEC c i arg1 harg1 arg2 harg2 arg3 harg3 arg4 harg4 arg5 harg5 arg6 harg6 arg7 harg7 hc0 hc1 x1 x2 x3 xs6 xs7).1) = k0_pay5 x1 x3 := by
  rw [View.read_writes_eq_canon v f _ (View.cover_of_tiledL _ S512x64.size (by sl_kernel_rfl))]
  unfold runEC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the column result's buffer holds the accumulated quotients: the last store through the whole buffer decides its contents. -/
theorem pieceEC_o5 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runEC c i arg1 harg1 arg2 harg2 arg3 harg3 arg4 harg4 arg5 harg5 arg6 harg6 arg7 harg7 hc0 hc1 x1 x2 x3 xs6 xs7).2.1) = k0_pay1 (k0_pay7 x1 xs7) (k0_pay6 x1 x2 xs6) := by
  rw [View.read_writes_eq_canon v f _ (View.cover_of_tiledL _ S4096x64.size (by sl_kernel_rfl))]
  unfold runEC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the accumulator of weighted sums holds the block's contribution added to what it held: the last store through the whole buffer decides its contents. -/
theorem pieceEC_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runEC c i arg1 harg1 arg2 harg2 arg3 harg3 arg4 harg4 arg5 harg5 arg6 harg6 arg7 harg7 hc0 hc1 x1 x2 x3 xs6 xs7).2.2.1) = k0_pay6 x1 x2 xs6 := by
  rw [View.read_writes_eq_canon v f _ (View.cover_of_tiledL _ S4096x64.size (by sl_kernel_rfl))]
  unfold runEC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the accumulator of column degrees holds the block's column sums added to what it held: the last store through the whole buffer decides its contents. -/
theorem pieceEC_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S1x4096 .f32) (f : v.ty.Contents (Elt F)) :
    v.read (Elt F) (v.writes (Elt F) f (runEC c i arg1 harg1 arg2 harg2 arg3 harg3 arg4 harg4 arg5 harg5 arg6 harg6 arg7 harg7 hc0 hc1 x1 x2 x3 xs6 xs7).2.2.2.1) = k0_pay7 x1 xs7 := by
  rw [View.read_writes_eq_canon v f _ (View.cover_of_tiledL _ S1x4096.size (by sl_kernel_rfl))]
  unfold runEC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

end Cert.KernelIdeal.Hand

end
-- ==== Proof.KI.Reg0.lean ====
import proofs.«103934_j28484223107660_1_alg».proof.Proof.KI.RunEA
import proofs.«103934_j28484223107660_1_alg».proof.Proof.KI.RunEB
import proofs.«103934_j28484223107660_1_alg».proof.Proof.KI.RunEC
import proofs.«103934_j28484223107660_1_alg».proof.Proof.KI.PieceE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of the core's buffers when region 0 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every row block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every row block, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every row block, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle, and where the column result is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last row block nothing is stored into the column result's buffer, -/
theorem idleAt0_4 : ∀ t : Fin cfg0.N, ¬condLast (grid0.coords t) → cfg0.idle 4 (grid0.coords t) = true := by decide +kernel
/-- and it is not written back there; -/
theorem noFlush0_4 : ∀ t : Fin cfg0.N, ¬condLast (grid0.coords t) → (cfg0.win 4).flush t = false := by decide +kernel
/-- at the last row block it is stored. -/
theorem liveAt0_4_C : ∀ t : Fin cfg0.N, condLast (grid0.coords t) → cfg0.idle 4 (grid0.coords t) = false := by decide +kernel

/-! ## The staging buffers and the two accumulators -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x64 .f32 := win0_4.stage (cfg0.slots t 4)
abbrev hs0_4 (t : Fin cfg0.N) : (ms0_4 t).IsWhole := hstage0_4 ((cfg0.slots t 4).cast nbuf0_4)
/-- The accumulator of the weighted sums, and the accumulator of the column degrees: whole buffers of the kernel's own. -/
abbrev scM0_0 : Memref sig .tc .vmem S4096x64 .f32 := Memref.whole cc0_scratch0
abbrev scM0_1 : Memref sig .tc .vmem S1x4096 .f32 := Memref.whole cc0_scratch1

/-- What the region is handed besides its windows: the two accumulators at some contents, the other scoped
    buffers unopened, the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## What the accumulators hold after each row block -/

/-- After row block 0: the block's contribution added to zero; after row block `n + 1`: its contribution added to
    what row block `n` left. First the weighted sums, then the column degrees. -/
def accAt0 (c : Dev nD) : (n : ℕ) → n < cfg0.N → Vec F S4096x64 .f32 × Vec F S1x4096 .f32
  | 0, hn => (k0_pay6 (iblk0 V c 0 ⟨0, hn⟩) (iblk0 V c 1 ⟨0, hn⟩) (k0_pay2 (F := F)), k0_pay7 (iblk0 V c 0 ⟨0, hn⟩) (k0_pay3 (F := F)))
  | n + 1, hn => (k0_pay6 (iblk0 V c 0 ⟨n + 1, hn⟩) (iblk0 V c 1 ⟨n + 1, hn⟩) (accAt0 c n (Nat.lt_of_succ_lt hn)).1,
      k0_pay7 (iblk0 V c 0 ⟨n + 1, hn⟩) (accAt0 c n (Nat.lt_of_succ_lt hn)).2)

theorem accAt0_zero (c : Dev nD) (t : Fin cfg0.N) (h0 : t.val = 0) :
    accAt0 V c t.val t.isLt = (k0_pay6 (iblk0 V c 0 t) (iblk0 V c 1 t) (k0_pay2 (F := F)), k0_pay7 (iblk0 V c 0 t) (k0_pay3 (F := F))) := by
  obtain ⟨n, hn⟩ := t
  cases n with
  | zero => rfl
  | succ n => exact absurd h0 (Nat.succ_ne_zero n)

theorem accAt0_pos (c : Dev nD) (t : Fin cfg0.N) (h0 : ¬t.val = 0) :
    accAt0 V c t.val t.isLt = (k0_pay6 (iblk0 V c 0 t) (iblk0 V c 1 t) (accAt0 V c (t.val - 1) (Nat.lt_of_le_of_lt (Nat.sub_le _ _) t.isLt)).1,
      k0_pay7 (iblk0 V c 0 t) (accAt0 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : ¬n = 0) :
    PhiS0 V c n h = iprop(iprop(iprop(owns (c : Thread nD τ) scM0_0 fullShare (accAt0 V c (n - 1) (by omega)).1 ∗ owns (c : Thread nD τ) scM0_1 fullShare (accAt0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- Region 0's proof data on core `c`: the arrays as the region finds them; after the body at row block `t`
    each input's buffer at its block, the row result's at the block's quotients, the column result's at the
    accumulated quotients (consulted at the last row block only, where it is stored); the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (iblk0 V c 0 t) (iblk0 V c 2 t)
    | ⟨4, _⟩ => k0_pay1 (accAt0 V c t.val t.isLt).2 (accAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay5 (iblk0 V c 0 t) (iblk0 V c 2 t) := by dsimp only [dat0]
theorem after0_4 (c : Dev nD) (t : Fin cfg0.N) : (dat0 V c).after 4 t = k0_pay1 (accAt0 V c t.val t.isLt).2 (accAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at row block `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val = 0
  · have h1 : ¬t.val = 7 := by omega
    rw [Dat.leavesExact_idle (dat0 V c) 4 t (idleAt0_4 t (fun h => h1 ((condLast_iff t).mp h))) (noFlush0_4 t (fun h => h1 ((condLast_iff t).mp h)))]
    rw [accAt0_zero V c t h0]
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid0.coords t) _ _ _ _ _ _ _ _ _ _ _ _ _ _ ((condFirst_iff t).mpr h0) (fun h => h1 ((condLast_iff t).mp h)) (iblk0 V c 0 t) (iblk0 V c 1 t) (iblk0 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid0.coords t) _ _ _ _ _ _ _ _ _ _ _ _ _ _ ((condFirst_iff t).mpr h0) (fun h => h1 ((condLast_iff t).mp h)) (iblk0 V c 0 t) (iblk0 V c 1 t) (iblk0 V c 2 t) _ _
          unfold owns; iexists _; isplitr
          swap; · iexact HS1
          ipureintro; exact pieceEA_s1 c (grid0.coords t) _ _ _ _ _ _ _ _ _ _ _ _ _ _ ((condFirst_iff t).mpr h0) (fun h => h1 ((condLast_iff t).mp h)) (iblk0 V c 0 t) (iblk0 V c 1 t) (iblk0 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid0.coords t) _ _ _ _ _ _ _ _ _ _ _ _ _ _ ((condFirst_iff t).mpr h0) (fun h => h1 ((condLast_iff t).mp h)) (iblk0 V c 0 t) (iblk0 V c 1 t) (iblk0 V c 2 t) _ _
    iexists _; iexact H4
  · by_cases h1 : t.val = 7
    · rw [show (dat0 V c).leavesExact 4 t = owns (c : Thread nD τ) (ms0_4 t) fullShare ((dat0 V c).after 4 t) from by
        unfold Dat.leavesExact; rw [liveAt0_4_C t ((condLast_iff t).mpr h1)], after0_4]
      rw [accAt0_pos V c t h0]
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid0.coords t) _ _ _ _ _ _ _ _ _ _ _ _ _ _ (fun h => h0 ((condFirst_iff t).mp h)) ((condLast_iff t).mpr h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid0.coords t) _ _ _ _ _ _ _ _ _ _ _ _ _ _ (fun h => h0 ((condFirst_iff t).mp h)) ((condLast_iff t).mpr h1) (iblk0 V c 0 t) (iblk0 V c 1 t) (iblk0 V c 2 t) _ _ _ _
            unfold owns; iexists _; isplitr
            swap; · iexact HS1
            ipureintro; exact pieceEC_s1 c (grid0.coords t) _ _ _ _ _ _ _ _ _ _ _ _ _ _ (fun h => h0 ((condFirst_iff t).mp h)) ((condLast_iff t).mpr h1) (iblk0 V c 0 t) (iblk0 V c 1 t) (iblk0 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid0.coords t) _ _ _ _ _ _ _ _ _ _ _ _ _ _ (fun h => h0 ((condFirst_iff t).mp h)) ((condLast_iff t).mpr h1) (iblk0 V c 0 t) (iblk0 V c 1 t) (iblk0 V c 2 t) _ _ _ _
      unfold owns; iexists _; isplitr
      swap; · iexact H4
      ipureintro; exact pieceEC_o5 c (grid0.coords t) _ _ _ _ _ _ _ _ _ _ _ _ _ _ (fun h => h0 ((condFirst_iff t).mp h)) ((condLast_iff t).mpr h1) (iblk0 V c 0 t) (iblk0 V c 1 t) (iblk0 V c 2 t) _ _ _ _
    · rw [Dat.leavesExact_idle (dat0 V c) 4 t (idleAt0_4 t (fun h => h1 ((condLast_iff t).mp h))) (noFlush0_4 t (fun h => h1 ((condLast_iff t).mp h)))]
      rw [accAt0_pos V c t h0]
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid0.coords t) _ _ _ _ _ _ _ _ _ _ _ _ _ _ (fun h => h0 ((condFirst_iff t).mp h)) (fun h => h1 ((condLast_iff t).mp h)) (iblk0 V c 0 t) (iblk0 V c 1 t) (iblk0 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid0.coords t) _ _ _ _ _ _ _ _ _ _ _ _ _ _ (fun h => h0 ((condFirst_iff t).mp h)) (fun h => h1 ((condLast_iff t).mp h)) (iblk0 V c 0 t) (iblk0 V c 1 t) (iblk0 V c 2 t) _ _ _ _
            unfold owns; iexists _; isplitr
            swap; · iexact HS1
            ipureintro; exact pieceEB_s1 c (grid0.coords t) _ _ _ _ _ _ _ _ _ _ _ _ _ _ (fun h => h0 ((condFirst_iff t).mp h)) (fun h => h1 ((condLast_iff t).mp h)) (iblk0 V c 0 t) (iblk0 V c 1 t) (iblk0 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid0.coords t) _ _ _ _ _ _ _ _ _ _ _ _ _ _ (fun h => h0 ((condFirst_iff t).mp h)) (fun h => h1 ((condLast_iff t).mp h)) (iblk0 V c 0 t) (iblk0 V c 1 t) (iblk0 V c 2 t) _ _ _ _
      iexists _; iexact H4

/-- The library's body obligation, at every row block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first row block. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last row block the invariant gives back what the launch handed over: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega), PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region0

end Cert.KernelIdeal.Hand

end
-- ==== Proof.KI.RunOA.lean ====
import proofs.«103934_j28484223107660_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at the first row block (the accumulators are reset there; nothing is stored into the column result, whose buffer is handed back untouched): the pieces its stores leave in each buffer it stores into, found by
    running it, with the proof that from whole buffers holding the three input blocks it runs to the
    continuation with those pieces written and the inputs as they were. -/
noncomputable def runOA (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32) :
    Σ' (L4 : List (View.Piece (Elt F) S512x64 .f32)) (LS0 : List (View.Piece (Elt F) S4096x64 .f32)), { LS1 : List (View.Piece (Elt F) S1x4096 .f32) //
      ∀ (xi5 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xi5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__mlgcn_layer_kernel i arg1 harg1 arg2 harg2 arg3 harg3 arg4 harg4 arg5 harg5 arg6 harg6 arg7 harg7) K } := by
  refine ⟨?_, ?_, ?_, fun xi5 E K => ?run⟩
  case run =>
    simp only [cc1__mlgcn_layer_kernel_eq_skeleton]; unfold cc1__mlgcn_layer_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]; · iexists _; iexact H6
    iexists _; iexact H7

end Cert.KernelIdeal.Hand

end
-- ==== Proof.KI.RunOB.lean ====
import proofs.«103934_j28484223107660_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at a middle row block (the accumulators, found at the contents the block before left, are added to; nothing is stored into the column result, whose buffer is handed back untouched): the pieces its stores leave in each buffer it stores into, found by
    running it, with the proof that from whole buffers holding the three input blocks it runs to the
    continuation with those pieces written and the inputs as they were. -/
noncomputable def runOB (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32) :
    Σ' (L4 : List (View.Piece (Elt F) S512x64 .f32)) (LS0 : List (View.Piece (Elt F) S4096x64 .f32)), { LS1 : List (View.Piece (Elt F) S1x4096 .f32) //
      ∀ (xi5 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xi5
            ∗ owns (c : Thread nD τ) arg6 fullShare xs6 ∗ owns (c : Thread nD τ) arg7 fullShare xs7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__mlgcn_layer_kernel i arg1 harg1 arg2 harg2 arg3 harg3 arg4 harg4 arg5 harg5 arg6 harg6 arg7 harg7) K } := by
  refine ⟨?_, ?_, ?_, fun xi5 E K => ?run⟩
  case run =>
    simp only [cc1__mlgcn_layer_kernel_eq_skeleton]; unfold cc1__mlgcn_layer_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]; · iexists _; iexact H6
    iexists _; iexact H7

end Cert.KernelIdeal.Hand

end
-- ==== Proof.KI.RunOC.lean ====
import proofs.«103934_j28484223107660_1_alg».proof.Proof.KI.Common

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at the last row block (the accumulators are added to, and the column result is stored: the accumulated weighted sums over the accumulated column degrees): the pieces its stores leave in each buffer it stores into, found by
    running it, with the proof that from whole buffers holding the three input blocks it runs to the
    continuation with those pieces written and the inputs as they were. -/
noncomputable def runOC (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32) :
    Σ' (L4 : List (View.Piece (Elt F) S512x64 .f32)) (L5 : List (View.Piece (Elt F) S4096x64 .f32)) (LS0 : List (View.Piece (Elt F) S4096x64 .f32)), { LS1 : List (View.Piece (Elt F) S1x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__mlgcn_layer_kernel i arg1 harg1 arg2 harg2 arg3 harg3 arg4 harg4 arg5 harg5 arg6 harg6 arg7 harg7) K } := by
  refine ⟨?_, ?_, ?_, ?_, fun E K => ?run⟩
  case run =>
    simp only [cc1__mlgcn_layer_kernel_eq_skeleton]; unfold cc1__mlgcn_layer_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf1; obtain rfl := harg2.eq_unread hf2; obtain rfl := harg3.eq_unread hf3; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.KernelIdeal.Hand

end
-- ==== Proof.KI.PieceO.lean ====
import proofs.«103934_j28484223107660_1_alg».proof.Proof.KI.RunOA
import proofs.«103934_j28484223107660_1_alg».proof.Proof.KI.RunOB
import proofs.«103934_j28484223107660_1_alg».proof.Proof.KI.RunOC
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer access is zero on both axes. -/
theorem off00 : (![0, 0] : Fin 2 → ℕ) = fun _ => 0 := by funext a; fin_cases a <;> rfl

/-- After the body's run (case A) the row result's buffer holds the block's quotients: the last store through the whole buffer decides its contents. -/
theorem pieceOA_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S512x64 .f32) (f : v.ty.Contents (Elt F)) :
    v.read (Elt F) (v.writes (Elt F) f (runOA c i arg1 harg1 arg2 harg2 arg3 harg3 arg4 harg4 arg5 harg5 arg6 harg6 arg7 harg7 hc0 hc1 x1 x2 x3).1) = k1_pay5 x1 x3 := by
  rw [View.read_writes_eq_canon v f _ (View.cover_of_tiledL _ S512x64.size (by sl_kernel_rfl))]
  unfold runOA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case A) the accumulator of weighted sums holds the block's contribution added to what it held: the last store through the whole buffer decides its contents. -/
theorem pieceOA_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S4096x64 .f32) (f : v.ty.Contents (Elt F)) :
    v.read (Elt F) (v.writes (Elt F) f (runOA c i arg1 harg1 arg2 harg2 arg3 harg3 arg4 harg4 arg5 harg5 arg6 harg6 arg7 harg7 hc0 hc1 x1 x2 x3).2.1) = k1_pay6 x1 x2 (k1_pay2 (F := F)) := by
  rw [View.read_writes_eq_canon v f _ (View.cover_of_tiledL _ S4096x64.size (by sl_kernel_rfl))]
  unfold runOA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case A) the accumulator of column degrees holds the block's column sums added to what it held: the last store through the whole buffer decides its contents. -/
theorem pieceOA_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S1x4096 .f32) (f : v.ty.Contents (Elt F)) :
    v.read (Elt F) (v.writes (Elt F) f (runOA c i arg1 harg1 arg2 harg2 arg3 harg3 arg4 harg4 arg5 harg5 arg6 harg6 arg7 harg7 hc0 hc1 x1 x2 x3).2.2.1) = k1_pay7 x1 (k1_pay3 (F := F)) := by
  rw [View.read_writes_eq_canon v f _ (View.cover_of_tiledL _ S1x4096.size (by sl_kernel_rfl))]
  unfold runOA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the row result's buffer holds the block's quotients: the last store through the whole buffer decides its contents. -/
theorem pieceOB_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S512x64 .f32) (f : v.ty.Contents (Elt F)) :
    v.read (Elt F) (v.writes (Elt F) f (runOB c i arg1 harg1 arg2 harg2 arg3 harg3 arg4 harg4 arg5 harg5 arg6 harg6 arg7 harg7 hc0 hc1 x1 x2 x3 xs6 xs7).1) = k1_pay5 x1 x3 := by
  rw [View.read_writes_eq_canon v f _ (View.cover_of_tiledL _ S512x64.size (by sl_kernel_rfl))]
  unfold runOB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the accumulator of weighted sums holds the block's contribution added to what it held: the last store through the whole buffer decides its contents. -/
theorem pieceOB_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runOB c i arg1 harg1 arg2 harg2 arg3 harg3 arg4 harg4 arg5 harg5 arg6 harg6 arg7 harg7 hc0 hc1 x1 x2 x3 xs6 xs7).2.1) = k1_pay6 x1 x2 xs6 := by
  rw [View.read_writes_eq_canon v f _ (View.cover_of_tiledL _ S4096x64.size (by sl_kernel_rfl))]
  unfold runOB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the accumulator of column degrees holds the block's column sums added to what it held: the last store through the whole buffer decides its contents. -/
theorem pieceOB_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S1x4096 .f32) (f : v.ty.Contents (Elt F)) :
    v.read (Elt F) (v.writes (Elt F) f (runOB c i arg1 harg1 arg2 harg2 arg3 harg3 arg4 harg4 arg5 harg5 arg6 harg6 arg7 harg7 hc0 hc1 x1 x2 x3 xs6 xs7).2.2.1) = k1_pay7 x1 xs7 := by
  rw [View.read_writes_eq_canon v f _ (View.cover_of_tiledL _ S1x4096.size (by sl_kernel_rfl))]
  unfold runOB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the row result's buffer holds the block's quotients: the last store through the whole buffer decides its contents. -/
theorem pieceOC_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S512x64 .f32) (f : v.ty.Contents (Elt F)) :
    v.read (Elt F) (v.writes (Elt F) f (runOC c i arg1 harg1 arg2 harg2 arg3 harg3 arg4 harg4 arg5 harg5 arg6 harg6 arg7 harg7 hc0 hc1 x1 x2 x3 xs6 xs7).1) = k1_pay5 x1 x3 := by
  rw [View.read_writes_eq_canon v f _ (View.cover_of_tiledL _ S512x64.size (by sl_kernel_rfl))]
  unfold runOC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the column result's buffer holds the accumulated quotients: the last store through the whole buffer decides its contents. -/
theorem pieceOC_o5 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runOC c i arg1 harg1 arg2 harg2 arg3 harg3 arg4 harg4 arg5 harg5 arg6 harg6 arg7 harg7 hc0 hc1 x1 x2 x3 xs6 xs7).2.1) = k1_pay1 (k1_pay7 x1 xs7) (k1_pay6 x1 x2 xs6) := by
  rw [View.read_writes_eq_canon v f _ (View.cover_of_tiledL _ S4096x64.size (by sl_kernel_rfl))]
  unfold runOC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the accumulator of weighted sums holds the block's contribution added to what it held: the last store through the whole buffer decides its contents. -/
theorem pieceOC_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runOC c i arg1 harg1 arg2 harg2 arg3 harg3 arg4 harg4 arg5 harg5 arg6 harg6 arg7 harg7 hc0 hc1 x1 x2 x3 xs6 xs7).2.2.1) = k1_pay6 x1 x2 xs6 := by
  rw [View.read_writes_eq_canon v f _ (View.cover_of_tiledL _ S4096x64.size (by sl_kernel_rfl))]
  unfold runOC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the accumulator of column degrees holds the block's column sums added to what it held: the last store through the whole buffer decides its contents. -/
theorem pieceOC_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S1x4096 .f32) (f : v.ty.Contents (Elt F)) :
    v.read (Elt F) (v.writes (Elt F) f (runOC c i arg1 harg1 arg2 harg2 arg3 harg3 arg4 harg4 arg5 harg5 arg6 harg6 arg7 harg7 hc0 hc1 x1 x2 x3 xs6 xs7).2.2.2.1) = k1_pay7 x1 xs7 := by
  rw [View.read_writes_eq_canon v f _ (View.cover_of_tiledL _ S1x4096.size (by sl_kernel_rfl))]
  unfold runOC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

end Cert.KernelIdeal.Hand

end
-- ==== Proof.KI.Reg1.lean ====
import proofs.«103934_j28484223107660_1_alg».proof.Proof.KI.RunOA
import proofs.«103934_j28484223107660_1_alg».proof.Proof.KI.RunOB
import proofs.«103934_j28484223107660_1_alg».proof.Proof.KI.RunOC
import proofs.«103934_j28484223107660_1_alg».proof.Proof.KI.PieceO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/- The contents of the core's buffers when region 1 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every row block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every row block, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every row block, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle, and where the column result is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last row block nothing is stored into the column result's buffer, -/
theorem idleAt1_4 : ∀ t : Fin cfg1.N, ¬condLast (grid1.coords t) → cfg1.idle 4 (grid1.coords t) = true := by decide +kernel
/-- and it is not written back there; -/
theorem noFlush1_4 : ∀ t : Fin cfg1.N, ¬condLast (grid1.coords t) → (cfg1.win 4).flush t = false := by decide +kernel
/-- at the last row block it is stored. -/
theorem liveAt1_4_C : ∀ t : Fin cfg1.N, condLast (grid1.coords t) → cfg1.idle 4 (grid1.coords t) = false := by decide +kernel

/-! ## The staging buffers and the two accumulators -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x64 .f32 := win1_4.stage (cfg1.slots t 4)
abbrev hs1_4 (t : Fin cfg1.N) : (ms1_4 t).IsWhole := hstage1_4 ((cfg1.slots t 4).cast nbuf1_4)
/-- The accumulator of the weighted sums, and the accumulator of the column degrees: whole buffers of the kernel's own. -/
abbrev scM1_0 : Memref sig .tc .vmem S4096x64 .f32 := Memref.whole cc1_scratch0
abbrev scM1_1 : Memref sig .tc .vmem S1x4096 .f32 := Memref.whole cc1_scratch1

/-- What the region is handed besides its windows: the two accumulators at some contents, the other scoped
    buffers unopened, the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## What the accumulators hold after each row block -/

/-- After row block 0: the block's contribution added to zero; after row block `n + 1`: its contribution added to
    what row block `n` left. First the weighted sums, then the column degrees. -/
def accAt1 (c : Dev nD) : (n : ℕ) → n < cfg1.N → Vec F S4096x64 .f32 × Vec F S1x4096 .f32
  | 0, hn => (k1_pay6 (iblk1 V c 0 ⟨0, hn⟩) (iblk1 V c 1 ⟨0, hn⟩) (k1_pay2 (F := F)), k1_pay7 (iblk1 V c 0 ⟨0, hn⟩) (k1_pay3 (F := F)))
  | n + 1, hn => (k1_pay6 (iblk1 V c 0 ⟨n + 1, hn⟩) (iblk1 V c 1 ⟨n + 1, hn⟩) (accAt1 c n (Nat.lt_of_succ_lt hn)).1,
      k1_pay7 (iblk1 V c 0 ⟨n + 1, hn⟩) (accAt1 c n (Nat.lt_of_succ_lt hn)).2)

theorem accAt1_zero (c : Dev nD) (t : Fin cfg1.N) (h0 : t.val = 0) :
    accAt1 V c t.val t.isLt = (k1_pay6 (iblk1 V c 0 t) (iblk1 V c 1 t) (k1_pay2 (F := F)), k1_pay7 (iblk1 V c 0 t) (k1_pay3 (F := F))) := by
  obtain ⟨n, hn⟩ := t
  cases n with
  | zero => rfl
  | succ n => exact absurd h0 (Nat.succ_ne_zero n)

theorem accAt1_pos (c : Dev nD) (t : Fin cfg1.N) (h0 : ¬t.val = 0) :
    accAt1 V c t.val t.isLt = (k1_pay6 (iblk1 V c 0 t) (iblk1 V c 1 t) (accAt1 V c (t.val - 1) (Nat.lt_of_le_of_lt (Nat.sub_le _ _) t.isLt)).1,
      k1_pay7 (iblk1 V c 0 t) (accAt1 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn).1 ∗ owns (c : Thread nD τ) scM1_1 fullShare (accAt1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn).1 ∗ owns (c : Thread nD τ) scM1_1 fullShare (accAt1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : ¬n = 0) :
    PhiS1 V c n h = iprop(iprop(iprop(owns (c : Thread nD τ) scM1_0 fullShare (accAt1 V c (n - 1) (by omega)).1 ∗ owns (c : Thread nD τ) scM1_1 fullShare (accAt1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- Region 1's proof data on core `c`: the arrays as the region finds them; after the body at row block `t`
    each input's buffer at its block, the row result's at the block's quotients, the column result's at the
    accumulated quotients (consulted at the last row block only, where it is stored); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay5 (iblk1 V c 0 t) (iblk1 V c 2 t)
    | ⟨4, _⟩ => k1_pay1 (accAt1 V c t.val t.isLt).2 (accAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay5 (iblk1 V c 0 t) (iblk1 V c 2 t) := by dsimp only [dat1]
theorem after1_4 (c : Dev nD) (t : Fin cfg1.N) : (dat1 V c).after 4 t = k1_pay1 (accAt1 V c t.val t.isLt).2 (accAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at row block `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val = 0
  · have h1 : ¬t.val = 7 := by omega
    rw [Dat.leavesExact_idle (dat1 V c) 4 t (idleAt1_4 t (fun h => h1 ((condLast_iff t).mp h))) (noFlush1_4 t (fun h => h1 ((condLast_iff t).mp h)))]
    rw [accAt1_zero V c t h0]
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid1.coords t) _ _ _ _ _ _ _ _ _ _ _ _ _ _ ((condFirst_iff t).mpr h0) (fun h => h1 ((condLast_iff t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid1.coords t) _ _ _ _ _ _ _ _ _ _ _ _ _ _ ((condFirst_iff t).mpr h0) (fun h => h1 ((condLast_iff t).mp h)) (iblk1 V c 0 t) (iblk1 V c 1 t) (iblk1 V c 2 t) _ _
          unfold owns; iexists _; isplitr
          swap; · iexact HS1
          ipureintro; exact pieceOA_s1 c (grid1.coords t) _ _ _ _ _ _ _ _ _ _ _ _ _ _ ((condFirst_iff t).mpr h0) (fun h => h1 ((condLast_iff t).mp h)) (iblk1 V c 0 t) (iblk1 V c 1 t) (iblk1 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid1.coords t) _ _ _ _ _ _ _ _ _ _ _ _ _ _ ((condFirst_iff t).mpr h0) (fun h => h1 ((condLast_iff t).mp h)) (iblk1 V c 0 t) (iblk1 V c 1 t) (iblk1 V c 2 t) _ _
    iexists _; iexact H4
  · by_cases h1 : t.val = 7
    · rw [show (dat1 V c).leavesExact 4 t = owns (c : Thread nD τ) (ms1_4 t) fullShare ((dat1 V c).after 4 t) from by
        unfold Dat.leavesExact; rw [liveAt1_4_C t ((condLast_iff t).mpr h1)], after1_4]
      rw [accAt1_pos V c t h0]
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid1.coords t) _ _ _ _ _ _ _ _ _ _ _ _ _ _ (fun h => h0 ((condFirst_iff t).mp h)) ((condLast_iff t).mpr h1) (iblk1 V c 0 t) (iblk1 V c 1 t) (iblk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid1.coords t) _ _ _ _ _ _ _ _ _ _ _ _ _ _ (fun h => h0 ((condFirst_iff t).mp h)) ((condLast_iff t).mpr h1) (iblk1 V c 0 t) (iblk1 V c 1 t) (iblk1 V c 2 t) _ _ _ _
            unfold owns; iexists _; isplitr
            swap; · iexact HS1
            ipureintro; exact pieceOC_s1 c (grid1.coords t) _ _ _ _ _ _ _ _ _ _ _ _ _ _ (fun h => h0 ((condFirst_iff t).mp h)) ((condLast_iff t).mpr h1) (iblk1 V c 0 t) (iblk1 V c 1 t) (iblk1 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid1.coords t) _ _ _ _ _ _ _ _ _ _ _ _ _ _ (fun h => h0 ((condFirst_iff t).mp h)) ((condLast_iff t).mpr h1) (iblk1 V c 0 t) (iblk1 V c 1 t) (iblk1 V c 2 t) _ _ _ _
      unfold owns; iexists _; isplitr
      swap; · iexact H4
      ipureintro; exact pieceOC_o5 c (grid1.coords t) _ _ _ _ _ _ _ _ _ _ _ _ _ _ (fun h => h0 ((condFirst_iff t).mp h)) ((condLast_iff t).mpr h1) (iblk1 V c 0 t) (iblk1 V c 1 t) (iblk1 V c 2 t) _ _ _ _
    · rw [Dat.leavesExact_idle (dat1 V c) 4 t (idleAt1_4 t (fun h => h1 ((condLast_iff t).mp h))) (noFlush1_4 t (fun h => h1 ((condLast_iff t).mp h)))]
      rw [accAt1_pos V c t h0]
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid1.coords t) _ _ _ _ _ _ _ _ _ _ _ _ _ _ (fun h => h0 ((condFirst_iff t).mp h)) (fun h => h1 ((condLast_iff t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid1.coords t) _ _ _ _ _ _ _ _ _ _ _ _ _ _ (fun h => h0 ((condFirst_iff t).mp h)) (fun h => h1 ((condLast_iff t).mp h)) (iblk1 V c 0 t) (iblk1 V c 1 t) (iblk1 V c 2 t) _ _ _ _
            unfold owns; iexists _; isplitr
            swap; · iexact HS1
            ipureintro; exact pieceOB_s1 c (grid1.coords t) _ _ _ _ _ _ _ _ _ _ _ _ _ _ (fun h => h0 ((condFirst_iff t).mp h)) (fun h => h1 ((condLast_iff t).mp h)) (iblk1 V c 0 t) (iblk1 V c 1 t) (iblk1 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid1.coords t) _ _ _ _ _ _ _ _ _ _ _ _ _ _ (fun h => h0 ((condFirst_iff t).mp h)) (fun h => h1 ((condLast_iff t).mp h)) (iblk1 V c 0 t) (iblk1 V c 1 t) (iblk1 V c 2 t) _ _ _ _
      iexists _; iexact H4

/-- The library's body obligation, at every row block. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first row block. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last row block the invariant gives back what the launch handed over: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region1

end Cert.KernelIdeal.Hand

end
-- ==== Proof.KI.Reg2.lean ====
import proofs.«103934_j28484223107660_1_alg».proof.Proof.KI.RunEA
import proofs.«103934_j28484223107660_1_alg».proof.Proof.KI.RunEB
import proofs.«103934_j28484223107660_1_alg».proof.Proof.KI.RunEC
import proofs.«103934_j28484223107660_1_alg».proof.Proof.KI.PieceE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 2's kernel function is, as a program, the one the body's runs are stated for (the same text). -/
theorem kernel_eq2 : @cc2__mlgcn_layer_kernel F _ = @cc0__mlgcn_layer_kernel F _ := rfl

section Region2

/- The contents of the core's buffers when region 2 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every row block, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every row block, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every row block, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle, and where the column result is written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last row block nothing is stored into the column result's buffer, -/
theorem idleAt2_4 : ∀ t : Fin cfg2.N, ¬condLast (grid2.coords t) → cfg2.idle 4 (grid2.coords t) = true := by decide +kernel
/-- and it is not written back there; -/
theorem noFlush2_4 : ∀ t : Fin cfg2.N, ¬condLast (grid2.coords t) → (cfg2.win 4).flush t = false := by decide +kernel
/-- at the last row block it is stored. -/
theorem liveAt2_4_C : ∀ t : Fin cfg2.N, condLast (grid2.coords t) → cfg2.idle 4 (grid2.coords t) = false := by decide +kernel

/-! ## The staging buffers and the two accumulators -/

abbrev ms2_0 (t : Fin cfg2.N) : Memref sig .tc .vmem S512x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x64 .f32 := win2_4.stage (cfg2.slots t 4)
abbrev hs2_4 (t : Fin cfg2.N) : (ms2_4 t).IsWhole := hstage2_4 ((cfg2.slots t 4).cast nbuf2_4)
/-- The accumulator of the weighted sums, and the accumulator of the column degrees: whole buffers of the kernel's own. -/
abbrev scM2_0 : Memref sig .tc .vmem S4096x64 .f32 := Memref.whole cc2_scratch0
abbrev scM2_1 : Memref sig .tc .vmem S1x4096 .f32 := Memref.whole cc2_scratch1

/-- What the region is handed besides its windows: the two accumulators at some contents, the other scoped
    buffers unopened, the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## What the accumulators hold after each row block -/

/-- After row block 0: the block's contribution added to zero; after row block `n + 1`: its contribution added to
    what row block `n` left. First the weighted sums, then the column degrees. -/
def accAt2 (c : Dev nD) : (n : ℕ) → n < cfg2.N → Vec F S4096x64 .f32 × Vec F S1x4096 .f32
  | 0, hn => (k0_pay6 (iblk2 V c 0 ⟨0, hn⟩) (iblk2 V c 1 ⟨0, hn⟩) (k0_pay2 (F := F)), k0_pay7 (iblk2 V c 0 ⟨0, hn⟩) (k0_pay3 (F := F)))
  | n + 1, hn => (k0_pay6 (iblk2 V c 0 ⟨n + 1, hn⟩) (iblk2 V c 1 ⟨n + 1, hn⟩) (accAt2 c n (Nat.lt_of_succ_lt hn)).1,
      k0_pay7 (iblk2 V c 0 ⟨n + 1, hn⟩) (accAt2 c n (Nat.lt_of_succ_lt hn)).2)

theorem accAt2_zero (c : Dev nD) (t : Fin cfg2.N) (h0 : t.val = 0) :
    accAt2 V c t.val t.isLt = (k0_pay6 (iblk2 V c 0 t) (iblk2 V c 1 t) (k0_pay2 (F := F)), k0_pay7 (iblk2 V c 0 t) (k0_pay3 (F := F))) := by
  obtain ⟨n, hn⟩ := t
  cases n with
  | zero => rfl
  | succ n => exact absurd h0 (Nat.succ_ne_zero n)

theorem accAt2_pos (c : Dev nD) (t : Fin cfg2.N) (h0 : ¬t.val = 0) :
    accAt2 V c t.val t.isLt = (k0_pay6 (iblk2 V c 0 t) (iblk2 V c 1 t) (accAt2 V c (t.val - 1) (Nat.lt_of_le_of_lt (Nat.sub_le _ _) t.isLt)).1,
      k0_pay7 (iblk2 V c 0 t) (accAt2 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : ¬n = 0) :
    PhiS2 V c n h = iprop(iprop(iprop(owns (c : Thread nD τ) scM2_0 fullShare (accAt2 V c (n - 1) (by omega)).1 ∗ owns (c : Thread nD τ) scM2_1 fullShare (accAt2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- Region 2's proof data on core `c`: the arrays as the region finds them; after the body at row block `t`
    each input's buffer at its block, the row result's at the block's quotients, the column result's at the
    accumulated quotients (consulted at the last row block only, where it is stored); the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k0_pay5 (iblk2 V c 0 t) (iblk2 V c 2 t)
    | ⟨4, _⟩ => k0_pay1 (accAt2 V c t.val t.isLt).2 (accAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k0_pay5 (iblk2 V c 0 t) (iblk2 V c 2 t) := by dsimp only [dat2]
theorem after2_4 (c : Dev nD) (t : Fin cfg2.N) : (dat2 V c).after 4 t = k0_pay1 (accAt2 V c t.val t.isLt).2 (accAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at row block `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [kernel_eq2]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val = 0
  · have h1 : ¬t.val = 7 := by omega
    rw [Dat.leavesExact_idle (dat2 V c) 4 t (idleAt2_4 t (fun h => h1 ((condLast_iff t).mp h))) (noFlush2_4 t (fun h => h1 ((condLast_iff t).mp h)))]
    rw [accAt2_zero V c t h0]
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid2.coords t) _ _ _ _ _ _ _ _ _ _ _ _ _ _ ((condFirst_iff t).mpr h0) (fun h => h1 ((condLast_iff t).mp h)) (iblk2 V c 0 t) (iblk2 V c 1 t) (iblk2 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid2.coords t) _ _ _ _ _ _ _ _ _ _ _ _ _ _ ((condFirst_iff t).mpr h0) (fun h => h1 ((condLast_iff t).mp h)) (iblk2 V c 0 t) (iblk2 V c 1 t) (iblk2 V c 2 t) _ _
          unfold owns; iexists _; isplitr
          swap; · iexact HS1
          ipureintro; exact pieceEA_s1 c (grid2.coords t) _ _ _ _ _ _ _ _ _ _ _ _ _ _ ((condFirst_iff t).mpr h0) (fun h => h1 ((condLast_iff t).mp h)) (iblk2 V c 0 t) (iblk2 V c 1 t) (iblk2 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid2.coords t) _ _ _ _ _ _ _ _ _ _ _ _ _ _ ((condFirst_iff t).mpr h0) (fun h => h1 ((condLast_iff t).mp h)) (iblk2 V c 0 t) (iblk2 V c 1 t) (iblk2 V c 2 t) _ _
    iexists _; iexact H4
  · by_cases h1 : t.val = 7
    · rw [show (dat2 V c).leavesExact 4 t = owns (c : Thread nD τ) (ms2_4 t) fullShare ((dat2 V c).after 4 t) from by
        unfold Dat.leavesExact; rw [liveAt2_4_C t ((condLast_iff t).mpr h1)], after2_4]
      rw [accAt2_pos V c t h0]
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid2.coords t) _ _ _ _ _ _ _ _ _ _ _ _ _ _ (fun h => h0 ((condFirst_iff t).mp h)) ((condLast_iff t).mpr h1) (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid2.coords t) _ _ _ _ _ _ _ _ _ _ _ _ _ _ (fun h => h0 ((condFirst_iff t).mp h)) ((condLast_iff t).mpr h1) (iblk2 V c 0 t) (iblk2 V c 1 t) (iblk2 V c 2 t) _ _ _ _
            unfold owns; iexists _; isplitr
            swap; · iexact HS1
            ipureintro; exact pieceEC_s1 c (grid2.coords t) _ _ _ _ _ _ _ _ _ _ _ _ _ _ (fun h => h0 ((condFirst_iff t).mp h)) ((condLast_iff t).mpr h1) (iblk2 V c 0 t) (iblk2 V c 1 t) (iblk2 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid2.coords t) _ _ _ _ _ _ _ _ _ _ _ _ _ _ (fun h => h0 ((condFirst_iff t).mp h)) ((condLast_iff t).mpr h1) (iblk2 V c 0 t) (iblk2 V c 1 t) (iblk2 V c 2 t) _ _ _ _
      unfold owns; iexists _; isplitr
      swap; · iexact H4
      ipureintro; exact pieceEC_o5 c (grid2.coords t) _ _ _ _ _ _ _ _ _ _ _ _ _ _ (fun h => h0 ((condFirst_iff t).mp h)) ((condLast_iff t).mpr h1) (iblk2 V c 0 t) (iblk2 V c 1 t) (iblk2 V c 2 t) _ _ _ _
    · rw [Dat.leavesExact_idle (dat2 V c) 4 t (idleAt2_4 t (fun h => h1 ((condLast_iff t).mp h))) (noFlush2_4 t (fun h => h1 ((condLast_iff t).mp h)))]
      rw [accAt2_pos V c t h0]
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid2.coords t) _ _ _ _ _ _ _ _ _ _ _ _ _ _ (fun h => h0 ((condFirst_iff t).mp h)) (fun h => h1 ((condLast_iff t).mp h)) (iblk2 V c 0 t) (iblk2 V c 1 t) (iblk2 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid2.coords t) _ _ _ _ _ _ _ _ _ _ _ _ _ _ (fun h => h0 ((condFirst_iff t).mp h)) (fun h => h1 ((condLast_iff t).mp h)) (iblk2 V c 0 t) (iblk2 V c 1 t) (iblk2 V c 2 t) _ _ _ _
            unfold owns; iexists _; isplitr
            swap; · iexact HS1
            ipureintro; exact pieceEB_s1 c (grid2.coords t) _ _ _ _ _ _ _ _ _ _ _ _ _ _ (fun h => h0 ((condFirst_iff t).mp h)) (fun h => h1 ((condLast_iff t).mp h)) (iblk2 V c 0 t) (iblk2 V c 1 t) (iblk2 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid2.coords t) _ _ _ _ _ _ _ _ _ _ _ _ _ _ (fun h => h0 ((condFirst_iff t).mp h)) (fun h => h1 ((condLast_iff t).mp h)) (iblk2 V c 0 t) (iblk2 V c 1 t) (iblk2 V c 2 t) _ _ _ _
      iexists _; iexact H4

/-- The library's body obligation, at every row block. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first row block. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last row block the invariant gives back what the launch handed over: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region2

end Cert.KernelIdeal.Hand

end
-- ==== Proof.KI.Reg3.lean ====
import proofs.«103934_j28484223107660_1_alg».proof.Proof.KI.RunOA
import proofs.«103934_j28484223107660_1_alg».proof.Proof.KI.RunOB
import proofs.«103934_j28484223107660_1_alg».proof.Proof.KI.RunOC
import proofs.«103934_j28484223107660_1_alg».proof.Proof.KI.PieceO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 3's kernel function is, as a program, the one the body's runs are stated for (the same text). -/
theorem kernel_eq3 : @cc3__mlgcn_layer_kernel F _ = @cc1__mlgcn_layer_kernel F _ := rfl

section Region3

/- The contents of the core's buffers when region 3 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every row block, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every row block, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every row block, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle, and where the column result is written back -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Before the last row block nothing is stored into the column result's buffer, -/
theorem idleAt3_4 : ∀ t : Fin cfg3.N, ¬condLast (grid3.coords t) → cfg3.idle 4 (grid3.coords t) = true := by decide +kernel
/-- and it is not written back there; -/
theorem noFlush3_4 : ∀ t : Fin cfg3.N, ¬condLast (grid3.coords t) → (cfg3.win 4).flush t = false := by decide +kernel
/-- at the last row block it is stored. -/
theorem liveAt3_4_C : ∀ t : Fin cfg3.N, condLast (grid3.coords t) → cfg3.idle 4 (grid3.coords t) = false := by decide +kernel

/-! ## The staging buffers and the two accumulators -/

abbrev ms3_0 (t : Fin cfg3.N) : Memref sig .tc .vmem S512x4096 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4096x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S4096x64 .f32 := win3_4.stage (cfg3.slots t 4)
abbrev hs3_4 (t : Fin cfg3.N) : (ms3_4 t).IsWhole := hstage3_4 ((cfg3.slots t 4).cast nbuf3_4)
/-- The accumulator of the weighted sums, and the accumulator of the column degrees: whole buffers of the kernel's own. -/
abbrev scM3_0 : Memref sig .tc .vmem S4096x64 .f32 := Memref.whole cc3_scratch0
abbrev scM3_1 : Memref sig .tc .vmem S1x4096 .f32 := Memref.whole cc3_scratch1

/-- What the region is handed besides its windows: the two accumulators at some contents, the other scoped
    buffers unopened, the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## What the accumulators hold after each row block -/

/-- After row block 0: the block's contribution added to zero; after row block `n + 1`: its contribution added to
    what row block `n` left. First the weighted sums, then the column degrees. -/
def accAt3 (c : Dev nD) : (n : ℕ) → n < cfg3.N → Vec F S4096x64 .f32 × Vec F S1x4096 .f32
  | 0, hn => (k1_pay6 (iblk3 V c 0 ⟨0, hn⟩) (iblk3 V c 1 ⟨0, hn⟩) (k1_pay2 (F := F)), k1_pay7 (iblk3 V c 0 ⟨0, hn⟩) (k1_pay3 (F := F)))
  | n + 1, hn => (k1_pay6 (iblk3 V c 0 ⟨n + 1, hn⟩) (iblk3 V c 1 ⟨n + 1, hn⟩) (accAt3 c n (Nat.lt_of_succ_lt hn)).1,
      k1_pay7 (iblk3 V c 0 ⟨n + 1, hn⟩) (accAt3 c n (Nat.lt_of_succ_lt hn)).2)

theorem accAt3_zero (c : Dev nD) (t : Fin cfg3.N) (h0 : t.val = 0) :
    accAt3 V c t.val t.isLt = (k1_pay6 (iblk3 V c 0 t) (iblk3 V c 1 t) (k1_pay2 (F := F)), k1_pay7 (iblk3 V c 0 t) (k1_pay3 (F := F))) := by
  obtain ⟨n, hn⟩ := t
  cases n with
  | zero => rfl
  | succ n => exact absurd h0 (Nat.succ_ne_zero n)

theorem accAt3_pos (c : Dev nD) (t : Fin cfg3.N) (h0 : ¬t.val = 0) :
    accAt3 V c t.val t.isLt = (k1_pay6 (iblk3 V c 0 t) (iblk3 V c 1 t) (accAt3 V c (t.val - 1) (Nat.lt_of_le_of_lt (Nat.sub_le _ _) t.isLt)).1,
      k1_pay7 (iblk3 V c 0 t) (accAt3 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS3 (c : Dev nD) : (n : ℕ) → n ≤ cfg3.N → sProp 𝕄
  | 0, _ => Pipeline.ΦA spec3 c
  | n + 1, hn => iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : ¬n = 0) :
    PhiS3 V c n h = iprop(iprop(iprop(owns (c : Thread nD τ) scM3_0 fullShare (accAt3 V c (n - 1) (by omega)).1 ∗ owns (c : Thread nD τ) scM3_1 fullShare (accAt3 V c (n - 1) (by omega)).2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

/-- Region 3's proof data on core `c`: the arrays as the region finds them; after the body at row block `t`
    each input's buffer at its block, the row result's at the block's quotients, the column result's at the
    accumulated quotients (consulted at the last row block only, where it is stored); the invariant above;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k1_pay5 (iblk3 V c 0 t) (iblk3 V c 2 t)
    | ⟨4, _⟩ => k1_pay1 (accAt3 V c t.val t.isLt).2 (accAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = k1_pay5 (iblk3 V c 0 t) (iblk3 V c 2 t) := by dsimp only [dat3]
theorem after3_4 (c : Dev nD) (t : Fin cfg3.N) : (dat3 V c).after 4 t = k1_pay1 (accAt3 V c t.val t.isLt).2 (accAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at row block `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [kernel_eq3]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val = 0
  · have h1 : ¬t.val = 7 := by omega
    rw [Dat.leavesExact_idle (dat3 V c) 4 t (idleAt3_4 t (fun h => h1 ((condLast_iff t).mp h))) (noFlush3_4 t (fun h => h1 ((condLast_iff t).mp h)))]
    rw [accAt3_zero V c t h0]
    rw [PhiS3_castSucc V c t, PhiS3_zero V c _ _ h0, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid3.coords t) _ _ _ _ _ _ _ _ _ _ _ _ _ _ ((condFirst_iff t).mpr h0) (fun h => h1 ((condLast_iff t).mp h)) (iblk3 V c 0 t) (iblk3 V c 1 t) (iblk3 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid3.coords t) _ _ _ _ _ _ _ _ _ _ _ _ _ _ ((condFirst_iff t).mpr h0) (fun h => h1 ((condLast_iff t).mp h)) (iblk3 V c 0 t) (iblk3 V c 1 t) (iblk3 V c 2 t) _ _
          unfold owns; iexists _; isplitr
          swap; · iexact HS1
          ipureintro; exact pieceOA_s1 c (grid3.coords t) _ _ _ _ _ _ _ _ _ _ _ _ _ _ ((condFirst_iff t).mpr h0) (fun h => h1 ((condLast_iff t).mp h)) (iblk3 V c 0 t) (iblk3 V c 1 t) (iblk3 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid3.coords t) _ _ _ _ _ _ _ _ _ _ _ _ _ _ ((condFirst_iff t).mpr h0) (fun h => h1 ((condLast_iff t).mp h)) (iblk3 V c 0 t) (iblk3 V c 1 t) (iblk3 V c 2 t) _ _
    iexists _; iexact H4
  · by_cases h1 : t.val = 7
    · rw [show (dat3 V c).leavesExact 4 t = owns (c : Thread nD τ) (ms3_4 t) fullShare ((dat3 V c).after 4 t) from by
        unfold Dat.leavesExact; rw [liveAt3_4_C t ((condLast_iff t).mpr h1)], after3_4]
      rw [accAt3_pos V c t h0]
      rw [PhiS3_castSucc V c t, PhiS3_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid3.coords t) _ _ _ _ _ _ _ _ _ _ _ _ _ _ (fun h => h0 ((condFirst_iff t).mp h)) ((condLast_iff t).mpr h1) (iblk3 V c 0 t) (iblk3 V c 1 t) (iblk3 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid3.coords t) _ _ _ _ _ _ _ _ _ _ _ _ _ _ (fun h => h0 ((condFirst_iff t).mp h)) ((condLast_iff t).mpr h1) (iblk3 V c 0 t) (iblk3 V c 1 t) (iblk3 V c 2 t) _ _ _ _
            unfold owns; iexists _; isplitr
            swap; · iexact HS1
            ipureintro; exact pieceOC_s1 c (grid3.coords t) _ _ _ _ _ _ _ _ _ _ _ _ _ _ (fun h => h0 ((condFirst_iff t).mp h)) ((condLast_iff t).mpr h1) (iblk3 V c 0 t) (iblk3 V c 1 t) (iblk3 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid3.coords t) _ _ _ _ _ _ _ _ _ _ _ _ _ _ (fun h => h0 ((condFirst_iff t).mp h)) ((condLast_iff t).mpr h1) (iblk3 V c 0 t) (iblk3 V c 1 t) (iblk3 V c 2 t) _ _ _ _
      unfold owns; iexists _; isplitr
      swap; · iexact H4
      ipureintro; exact pieceOC_o5 c (grid3.coords t) _ _ _ _ _ _ _ _ _ _ _ _ _ _ (fun h => h0 ((condFirst_iff t).mp h)) ((condLast_iff t).mpr h1) (iblk3 V c 0 t) (iblk3 V c 1 t) (iblk3 V c 2 t) _ _ _ _
    · rw [Dat.leavesExact_idle (dat3 V c) 4 t (idleAt3_4 t (fun h => h1 ((condLast_iff t).mp h))) (noFlush3_4 t (fun h => h1 ((condLast_iff t).mp h)))]
      rw [accAt3_pos V c t h0]
      rw [PhiS3_castSucc V c t, PhiS3_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid3.coords t) _ _ _ _ _ _ _ _ _ _ _ _ _ _ (fun h => h0 ((condFirst_iff t).mp h)) (fun h => h1 ((condLast_iff t).mp h)) (iblk3 V c 0 t) (iblk3 V c 1 t) (iblk3 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid3.coords t) _ _ _ _ _ _ _ _ _ _ _ _ _ _ (fun h => h0 ((condFirst_iff t).mp h)) (fun h => h1 ((condLast_iff t).mp h)) (iblk3 V c 0 t) (iblk3 V c 1 t) (iblk3 V c 2 t) _ _ _ _
            unfold owns; iexists _; isplitr
            swap; · iexact HS1
            ipureintro; exact pieceOB_s1 c (grid3.coords t) _ _ _ _ _ _ _ _ _ _ _ _ _ _ (fun h => h0 ((condFirst_iff t).mp h)) (fun h => h1 ((condLast_iff t).mp h)) (iblk3 V c 0 t) (iblk3 V c 1 t) (iblk3 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid3.coords t) _ _ _ _ _ _ _ _ _ _ _ _ _ _ (fun h => h0 ((condFirst_iff t).mp h)) (fun h => h1 ((condLast_iff t).mp h)) (iblk3 V c 0 t) (iblk3 V c 1 t) (iblk3 V c 2 t) _ _ _ _
      iexists _; iexact H4

/-- The library's body obligation, at every row block. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first row block. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last row block the invariant gives back what the launch handed over: the accumulators' contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega), PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region3

end Cert.KernelIdeal.Hand

end
-- ==== Proof.KI.Reg4.lean ====
import proofs.«103934_j28484223107660_1_alg».proof.Proof.KI.RunEA
import proofs.«103934_j28484223107660_1_alg».proof.Proof.KI.RunEB
import proofs.«103934_j28484223107660_1_alg».proof.Proof.KI.RunEC
import proofs.«103934_j28484223107660_1_alg».proof.Proof.KI.PieceE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 4's kernel function is, as a program, the one the body's runs are stated for (the same text). -/
theorem kernel_eq4 : @cc4__mlgcn_layer_kernel F _ = @cc0__mlgcn_layer_kernel F _ := rfl

section Region4

/- The contents of the core's buffers when region 4 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every row block, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every row block, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every row block, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## Where the windows are idle, and where the column result is written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last row block nothing is stored into the column result's buffer, -/
theorem idleAt4_4 : ∀ t : Fin cfg4.N, ¬condLast (grid4.coords t) → cfg4.idle 4 (grid4.coords t) = true := by decide +kernel
/-- and it is not written back there; -/
theorem noFlush4_4 : ∀ t : Fin cfg4.N, ¬condLast (grid4.coords t) → (cfg4.win 4).flush t = false := by decide +kernel
/-- at the last row block it is stored. -/
theorem liveAt4_4_C : ∀ t : Fin cfg4.N, condLast (grid4.coords t) → cfg4.idle 4 (grid4.coords t) = false := by decide +kernel

/-! ## The staging buffers and the two accumulators -/

abbrev ms4_0 (t : Fin cfg4.N) : Memref sig .tc .vmem S512x4096 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S4096x64 .f32 := win4_4.stage (cfg4.slots t 4)
abbrev hs4_4 (t : Fin cfg4.N) : (ms4_4 t).IsWhole := hstage4_4 ((cfg4.slots t 4).cast nbuf4_4)
/-- The accumulator of the weighted sums, and the accumulator of the column degrees: whole buffers of the kernel's own. -/
abbrev scM4_0 : Memref sig .tc .vmem S4096x64 .f32 := Memref.whole cc4_scratch0
abbrev scM4_1 : Memref sig .tc .vmem S1x4096 .f32 := Memref.whole cc4_scratch1

/-- What the region is handed besides its windows: the two accumulators at some contents, the other scoped
    buffers unopened, the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## What the accumulators hold after each row block -/

/-- After row block 0: the block's contribution added to zero; after row block `n + 1`: its contribution added to
    what row block `n` left. First the weighted sums, then the column degrees. -/
def accAt4 (c : Dev nD) : (n : ℕ) → n < cfg4.N → Vec F S4096x64 .f32 × Vec F S1x4096 .f32
  | 0, hn => (k0_pay6 (iblk4 V c 0 ⟨0, hn⟩) (iblk4 V c 1 ⟨0, hn⟩) (k0_pay2 (F := F)), k0_pay7 (iblk4 V c 0 ⟨0, hn⟩) (k0_pay3 (F := F)))
  | n + 1, hn => (k0_pay6 (iblk4 V c 0 ⟨n + 1, hn⟩) (iblk4 V c 1 ⟨n + 1, hn⟩) (accAt4 c n (Nat.lt_of_succ_lt hn)).1,
      k0_pay7 (iblk4 V c 0 ⟨n + 1, hn⟩) (accAt4 c n (Nat.lt_of_succ_lt hn)).2)

theorem accAt4_zero (c : Dev nD) (t : Fin cfg4.N) (h0 : t.val = 0) :
    accAt4 V c t.val t.isLt = (k0_pay6 (iblk4 V c 0 t) (iblk4 V c 1 t) (k0_pay2 (F := F)), k0_pay7 (iblk4 V c 0 t) (k0_pay3 (F := F))) := by
  obtain ⟨n, hn⟩ := t
  cases n with
  | zero => rfl
  | succ n => exact absurd h0 (Nat.succ_ne_zero n)

theorem accAt4_pos (c : Dev nD) (t : Fin cfg4.N) (h0 : ¬t.val = 0) :
    accAt4 V c t.val t.isLt = (k0_pay6 (iblk4 V c 0 t) (iblk4 V c 1 t) (accAt4 V c (t.val - 1) (Nat.lt_of_le_of_lt (Nat.sub_le _ _) t.isLt)).1,
      k0_pay7 (iblk4 V c 0 t) (accAt4 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn).1 ∗ owns (c : Thread nD τ) scM4_1 fullShare (accAt4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : ¬n = 0) :
    PhiS4 V c n h = iprop(iprop(iprop(owns (c : Thread nD τ) scM4_0 fullShare (accAt4 V c (n - 1) (by omega)).1 ∗ owns (c : Thread nD τ) scM4_1 fullShare (accAt4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- Region 4's proof data on core `c`: the arrays as the region finds them; after the body at row block `t`
    each input's buffer at its block, the row result's at the block's quotients, the column result's at the
    accumulated quotients (consulted at the last row block only, where it is stored); the invariant above;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k0_pay5 (iblk4 V c 0 t) (iblk4 V c 2 t)
    | ⟨4, _⟩ => k0_pay1 (accAt4 V c t.val t.isLt).2 (accAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k0_pay5 (iblk4 V c 0 t) (iblk4 V c 2 t) := by dsimp only [dat4]
theorem after4_4 (c : Dev nD) (t : Fin cfg4.N) : (dat4 V c).after 4 t = k0_pay1 (accAt4 V c t.val t.isLt).2 (accAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body is called with at row block `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [kernel_eq4]
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 8 := lt_of_lt_of_eq t.isLt (show cfg4.N = 8 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h0 : t.val = 0
  · have h1 : ¬t.val = 7 := by omega
    rw [Dat.leavesExact_idle (dat4 V c) 4 t (idleAt4_4 t (fun h => h1 ((condLast_iff t).mp h))) (noFlush4_4 t (fun h => h1 ((condLast_iff t).mp h)))]
    rw [accAt4_zero V c t h0]
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid4.coords t) _ _ _ _ _ _ _ _ _ _ _ _ _ _ ((condFirst_iff t).mpr h0) (fun h => h1 ((condLast_iff t).mp h)) (iblk4 V c 0 t) (iblk4 V c 1 t) (iblk4 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid4.coords t) _ _ _ _ _ _ _ _ _ _ _ _ _ _ ((condFirst_iff t).mpr h0) (fun h => h1 ((condLast_iff t).mp h)) (iblk4 V c 0 t) (iblk4 V c 1 t) (iblk4 V c 2 t) _ _
          unfold owns; iexists _; isplitr
          swap; · iexact HS1
          ipureintro; exact pieceEA_s1 c (grid4.coords t) _ _ _ _ _ _ _ _ _ _ _ _ _ _ ((condFirst_iff t).mpr h0) (fun h => h1 ((condLast_iff t).mp h)) (iblk4 V c 0 t) (iblk4 V c 1 t) (iblk4 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid4.coords t) _ _ _ _ _ _ _ _ _ _ _ _ _ _ ((condFirst_iff t).mpr h0) (fun h => h1 ((condLast_iff t).mp h)) (iblk4 V c 0 t) (iblk4 V c 1 t) (iblk4 V c 2 t) _ _
    iexists _; iexact H4
  · by_cases h1 : t.val = 7
    · rw [show (dat4 V c).leavesExact 4 t = owns (c : Thread nD τ) (ms4_4 t) fullShare ((dat4 V c).after 4 t) from by
        unfold Dat.leavesExact; rw [liveAt4_4_C t ((condLast_iff t).mpr h1)], after4_4]
      rw [accAt4_pos V c t h0]
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid4.coords t) _ _ _ _ _ _ _ _ _ _ _ _ _ _ (fun h => h0 ((condFirst_iff t).mp h)) ((condLast_iff t).mpr h1) (iblk4 V c 0 t) (iblk4 V c 1 t) (iblk4 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid4.coords t) _ _ _ _ _ _ _ _ _ _ _ _ _ _ (fun h => h0 ((condFirst_iff t).mp h)) ((condLast_iff t).mpr h1) (iblk4 V c 0 t) (iblk4 V c 1 t) (iblk4 V c 2 t) _ _ _ _
            unfold owns; iexists _; isplitr
            swap; · iexact HS1
            ipureintro; exact pieceEC_s1 c (grid4.coords t) _ _ _ _ _ _ _ _ _ _ _ _ _ _ (fun h => h0 ((condFirst_iff t).mp h)) ((condLast_iff t).mpr h1) (iblk4 V c 0 t) (iblk4 V c 1 t) (iblk4 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid4.coords t) _ _ _ _ _ _ _ _ _ _ _ _ _ _ (fun h => h0 ((condFirst_iff t).mp h)) ((condLast_iff t).mpr h1) (iblk4 V c 0 t) (iblk4 V c 1 t) (iblk4 V c 2 t) _ _ _ _
      unfold owns; iexists _; isplitr
      swap; · iexact H4
      ipureintro; exact pieceEC_o5 c (grid4.coords t) _ _ _ _ _ _ _ _ _ _ _ _ _ _ (fun h => h0 ((condFirst_iff t).mp h)) ((condLast_iff t).mpr h1) (iblk4 V c 0 t) (iblk4 V c 1 t) (iblk4 V c 2 t) _ _ _ _
    · rw [Dat.leavesExact_idle (dat4 V c) 4 t (idleAt4_4 t (fun h => h1 ((condLast_iff t).mp h))) (noFlush4_4 t (fun h => h1 ((condLast_iff t).mp h)))]
      rw [accAt4_pos V c t h0]
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid4.coords t) _ _ _ _ _ _ _ _ _ _ _ _ _ _ (fun h => h0 ((condFirst_iff t).mp h)) (fun h => h1 ((condLast_iff t).mp h)) (iblk4 V c 0 t) (iblk4 V c 1 t) (iblk4 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid4.coords t) _ _ _ _ _ _ _ _ _ _ _ _ _ _ (fun h => h0 ((condFirst_iff t).mp h)) (fun h => h1 ((condLast_iff t).mp h)) (iblk4 V c 0 t) (iblk4 V c 1 t) (iblk4 V c 2 t) _ _ _ _
            unfold owns; iexists _; isplitr
            swap; · iexact HS1
            ipureintro; exact pieceEB_s1 c (grid4.coords t) _ _ _ _ _ _ _ _ _ _ _ _ _ _ (fun h => h0 ((condFirst_iff t).mp h)) (fun h => h1 ((condLast_iff t).mp h)) (iblk4 V c 0 t) (iblk4 V c 1 t) (iblk4 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid4.coords t) _ _ _ _ _ _ _ _ _ _ _ _ _ _ (fun h => h0 ((condFirst_iff t).mp h)) (fun h => h1 ((condLast_iff t).mp h)) (iblk4 V c 0 t) (iblk4 V c 1 t) (iblk4 V c 2 t) _ _ _ _
      iexists _; iexact H4

/-- The library's body obligation, at every row block. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first row block. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last row block the invariant gives back what the launch handed over: the accumulators' contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 8 := N_4; omega), PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region4

end Cert.KernelIdeal.Hand

end
-- ==== Proof.KI.Reg5.lean ====
import proofs.«103934_j28484223107660_1_alg».proof.Proof.KI.RunOA
import proofs.«103934_j28484223107660_1_alg».proof.Proof.KI.RunOB
import proofs.«103934_j28484223107660_1_alg».proof.Proof.KI.RunOC
import proofs.«103934_j28484223107660_1_alg».proof.Proof.KI.PieceO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 5's kernel function is, as a program, the one the body's runs are stated for (the same text). -/
theorem kernel_eq5 : @cc5__mlgcn_layer_kernel F _ = @cc1__mlgcn_layer_kernel F _ := rfl

section Region5

/- The contents of the core's buffers when region 5 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every row block, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every row block, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every row block, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## Where the windows are idle, and where the column result is written back -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
/-- Before the last row block nothing is stored into the column result's buffer, -/
theorem idleAt5_4 : ∀ t : Fin cfg5.N, ¬condLast (grid5.coords t) → cfg5.idle 4 (grid5.coords t) = true := by decide +kernel
/-- and it is not written back there; -/
theorem noFlush5_4 : ∀ t : Fin cfg5.N, ¬condLast (grid5.coords t) → (cfg5.win 4).flush t = false := by decide +kernel
/-- at the last row block it is stored. -/
theorem liveAt5_4_C : ∀ t : Fin cfg5.N, condLast (grid5.coords t) → cfg5.idle 4 (grid5.coords t) = false := by decide +kernel

/-! ## The staging buffers and the two accumulators -/

abbrev ms5_0 (t : Fin cfg5.N) : Memref sig .tc .vmem S512x4096 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4096x64 .f32 := win5_4.stage (cfg5.slots t 4)
abbrev hs5_4 (t : Fin cfg5.N) : (ms5_4 t).IsWhole := hstage5_4 ((cfg5.slots t 4).cast nbuf5_4)
/-- The accumulator of the weighted sums, and the accumulator of the column degrees: whole buffers of the kernel's own. -/
abbrev scM5_0 : Memref sig .tc .vmem S4096x64 .f32 := Memref.whole cc5_scratch0
abbrev scM5_1 : Memref sig .tc .vmem S1x4096 .f32 := Memref.whole cc5_scratch1

/-- What the region is handed besides its windows: the two accumulators at some contents, the other scoped
    buffers unopened, the generator register at some state. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

/-! ## What the accumulators hold after each row block -/

/-- After row block 0: the block's contribution added to zero; after row block `n + 1`: its contribution added to
    what row block `n` left. First the weighted sums, then the column degrees. -/
def accAt5 (c : Dev nD) : (n : ℕ) → n < cfg5.N → Vec F S4096x64 .f32 × Vec F S1x4096 .f32
  | 0, hn => (k1_pay6 (iblk5 V c 0 ⟨0, hn⟩) (iblk5 V c 1 ⟨0, hn⟩) (k1_pay2 (F := F)), k1_pay7 (iblk5 V c 0 ⟨0, hn⟩) (k1_pay3 (F := F)))
  | n + 1, hn => (k1_pay6 (iblk5 V c 0 ⟨n + 1, hn⟩) (iblk5 V c 1 ⟨n + 1, hn⟩) (accAt5 c n (Nat.lt_of_succ_lt hn)).1,
      k1_pay7 (iblk5 V c 0 ⟨n + 1, hn⟩) (accAt5 c n (Nat.lt_of_succ_lt hn)).2)

theorem accAt5_zero (c : Dev nD) (t : Fin cfg5.N) (h0 : t.val = 0) :
    accAt5 V c t.val t.isLt = (k1_pay6 (iblk5 V c 0 t) (iblk5 V c 1 t) (k1_pay2 (F := F)), k1_pay7 (iblk5 V c 0 t) (k1_pay3 (F := F))) := by
  obtain ⟨n, hn⟩ := t
  cases n with
  | zero => rfl
  | succ n => exact absurd h0 (Nat.succ_ne_zero n)

theorem accAt5_pos (c : Dev nD) (t : Fin cfg5.N) (h0 : ¬t.val = 0) :
    accAt5 V c t.val t.isLt = (k1_pay6 (iblk5 V c 0 t) (iblk5 V c 1 t) (accAt5 V c (t.val - 1) (Nat.lt_of_le_of_lt (Nat.sub_le _ _) t.isLt)).1,
      k1_pay7 (iblk5 V c 0 t) (accAt5 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS5 (c : Dev nD) : (n : ℕ) → n ≤ cfg5.N → sProp 𝕄
  | 0, _ => Pipeline.ΦA spec5 c
  | n + 1, hn => iprop(iprop(iprop(owns (c : Thread nD τ) scM5_0 fullShare (accAt5 V c n hn).1 ∗ owns (c : Thread nD τ) scM5_1 fullShare (accAt5 V c n hn).2)
      ∗ Pipeline.scopedRestBut (Ix := Unit) (Name := ℕ) (U := UR sig nD τ) (Lvl := ℕ) (Val := Elt F) spec5 c [cc5_scratch0, cc5_scratch1]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (accAt5 V c n hn).1 ∗ owns (c : Thread nD τ) scM5_1 fullShare (accAt5 V c n hn).2)
      ∗ Pipeline.scopedRestBut (Ix := Unit) (Name := ℕ) (U := UR sig nD τ) (Lvl := ℕ) (Val := Elt F) spec5 c [cc5_scratch0, cc5_scratch1]) ∗ (∃ r, prngReg c r)) := rfl

theorem PhiS5_pos (c : Dev nD) (n : ℕ) (h : n ≤ cfg5.N) (hz : ¬n = 0) :
    PhiS5 V c n h = iprop(iprop(iprop(owns (c : Thread nD τ) scM5_0 fullShare (accAt5 V c (n - 1) (by omega)).1 ∗ owns (c : Thread nD τ) scM5_1 fullShare (accAt5 V c (n - 1) (by omega)).2)
      ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

/-! ## The pipeline's proof data -/

/-- Region 5's proof data on core `c`: the arrays as the region finds them; after the body at row block `t`
    each input's buffer at its block, the row result's at the block's quotients, the column result's at the
    accumulated quotients (consulted at the last row block only, where it is stored); the invariant above;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k1_pay5 (iblk5 V c 0 t) (iblk5 V c 2 t)
    | ⟨4, _⟩ => k1_pay1 (accAt5 V c t.val t.isLt).2 (accAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = k1_pay5 (iblk5 V c 0 t) (iblk5 V c 2 t) := by dsimp only [dat5]
theorem after5_4 (c : Dev nD) (t : Fin cfg5.N) : (dat5 V c).after 4 t = k1_pay1 (accAt5 V c t.val t.isLt).2 (accAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

/-- What the body is called with at row block `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [kernel_eq5]
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 8 := lt_of_lt_of_eq t.isLt (show cfg5.N = 8 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  by_cases h0 : t.val = 0
  · have h1 : ¬t.val = 7 := by omega
    rw [Dat.leavesExact_idle (dat5 V c) 4 t (idleAt5_4 t (fun h => h1 ((condLast_iff t).mp h))) (noFlush5_4 t (fun h => h1 ((condLast_iff t).mp h)))]
    rw [accAt5_zero V c t h0]
    rw [PhiS5_castSucc V c t, PhiS5_zero V c _ _ h0, PhiA5_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid5.coords t) _ _ _ _ _ _ _ _ _ _ _ _ _ _ ((condFirst_iff t).mpr h0) (fun h => h1 ((condLast_iff t).mp h)) (iblk5 V c 0 t) (iblk5 V c 1 t) (iblk5 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid5.coords t) _ _ _ _ _ _ _ _ _ _ _ _ _ _ ((condFirst_iff t).mpr h0) (fun h => h1 ((condLast_iff t).mp h)) (iblk5 V c 0 t) (iblk5 V c 1 t) (iblk5 V c 2 t) _ _
          unfold owns; iexists _; isplitr
          swap; · iexact HS1
          ipureintro; exact pieceOA_s1 c (grid5.coords t) _ _ _ _ _ _ _ _ _ _ _ _ _ _ ((condFirst_iff t).mpr h0) (fun h => h1 ((condLast_iff t).mp h)) (iblk5 V c 0 t) (iblk5 V c 1 t) (iblk5 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid5.coords t) _ _ _ _ _ _ _ _ _ _ _ _ _ _ ((condFirst_iff t).mpr h0) (fun h => h1 ((condLast_iff t).mp h)) (iblk5 V c 0 t) (iblk5 V c 1 t) (iblk5 V c 2 t) _ _
    iexists _; iexact H4
  · by_cases h1 : t.val = 7
    · rw [show (dat5 V c).leavesExact 4 t = owns (c : Thread nD τ) (ms5_4 t) fullShare ((dat5 V c).after 4 t) from by
        unfold Dat.leavesExact; rw [liveAt5_4_C t ((condLast_iff t).mpr h1)], after5_4]
      rw [accAt5_pos V c t h0]
      rw [PhiS5_castSucc V c t, PhiS5_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid5.coords t) _ _ _ _ _ _ _ _ _ _ _ _ _ _ (fun h => h0 ((condFirst_iff t).mp h)) ((condLast_iff t).mpr h1) (iblk5 V c 0 t) (iblk5 V c 1 t) (iblk5 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid5.coords t) _ _ _ _ _ _ _ _ _ _ _ _ _ _ (fun h => h0 ((condFirst_iff t).mp h)) ((condLast_iff t).mpr h1) (iblk5 V c 0 t) (iblk5 V c 1 t) (iblk5 V c 2 t) _ _ _ _
            unfold owns; iexists _; isplitr
            swap; · iexact HS1
            ipureintro; exact pieceOC_s1 c (grid5.coords t) _ _ _ _ _ _ _ _ _ _ _ _ _ _ (fun h => h0 ((condFirst_iff t).mp h)) ((condLast_iff t).mpr h1) (iblk5 V c 0 t) (iblk5 V c 1 t) (iblk5 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid5.coords t) _ _ _ _ _ _ _ _ _ _ _ _ _ _ (fun h => h0 ((condFirst_iff t).mp h)) ((condLast_iff t).mpr h1) (iblk5 V c 0 t) (iblk5 V c 1 t) (iblk5 V c 2 t) _ _ _ _
      unfold owns; iexists _; isplitr
      swap; · iexact H4
      ipureintro; exact pieceOC_o5 c (grid5.coords t) _ _ _ _ _ _ _ _ _ _ _ _ _ _ (fun h => h0 ((condFirst_iff t).mp h)) ((condLast_iff t).mpr h1) (iblk5 V c 0 t) (iblk5 V c 1 t) (iblk5 V c 2 t) _ _ _ _
    · rw [Dat.leavesExact_idle (dat5 V c) 4 t (idleAt5_4 t (fun h => h1 ((condLast_iff t).mp h))) (noFlush5_4 t (fun h => h1 ((condLast_iff t).mp h)))]
      rw [accAt5_pos V c t h0]
      rw [PhiS5_castSucc V c t, PhiS5_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid5.coords t) _ _ _ _ _ _ _ _ _ _ _ _ _ _ (fun h => h0 ((condFirst_iff t).mp h)) (fun h => h1 ((condLast_iff t).mp h)) (iblk5 V c 0 t) (iblk5 V c 1 t) (iblk5 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid5.coords t) _ _ _ _ _ _ _ _ _ _ _ _ _ _ (fun h => h0 ((condFirst_iff t).mp h)) (fun h => h1 ((condLast_iff t).mp h)) (iblk5 V c 0 t) (iblk5 V c 1 t) (iblk5 V c 2 t) _ _ _ _
            unfold owns; iexists _; isplitr
            swap; · iexact HS1
            ipureintro; exact pieceOB_s1 c (grid5.coords t) _ _ _ _ _ _ _ _ _ _ _ _ _ _ (fun h => h0 ((condFirst_iff t).mp h)) (fun h => h1 ((condLast_iff t).mp h)) (iblk5 V c 0 t) (iblk5 V c 1 t) (iblk5 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid5.coords t) _ _ _ _ _ _ _ _ _ _ _ _ _ _ (fun h => h0 ((condFirst_iff t).mp h)) (fun h => h1 ((condLast_iff t).mp h)) (iblk5 V c 0 t) (iblk5 V c 1 t) (iblk5 V c 2 t) _ _ _ _
      iexists _; iexact H4

/-- The library's body obligation, at every row block. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first row block. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last row block the invariant gives back what the launch handed over: the accumulators' contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 8 := N_5; omega), PhiA5_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region5

end Cert.KernelIdeal.Hand

end
-- ==== Proof.KI.Reg6.lean ====
import proofs.«103934_j28484223107660_1_alg».proof.Proof.KI.RunEA
import proofs.«103934_j28484223107660_1_alg».proof.Proof.KI.RunEB
import proofs.«103934_j28484223107660_1_alg».proof.Proof.KI.RunEC
import proofs.«103934_j28484223107660_1_alg».proof.Proof.KI.PieceE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 6's kernel function is, as a program, the one the body's runs are stated for (the same text). -/
theorem kernel_eq6 : @cc6__mlgcn_layer_kernel F _ = @cc0__mlgcn_layer_kernel F _ := rfl

section Region6

/- The contents of the core's buffers when region 6 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every row block, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every row block, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every row block, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## Where the windows are idle, and where the column result is written back -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Before the last row block nothing is stored into the column result's buffer, -/
theorem idleAt6_4 : ∀ t : Fin cfg6.N, ¬condLast (grid6.coords t) → cfg6.idle 4 (grid6.coords t) = true := by decide +kernel
/-- and it is not written back there; -/
theorem noFlush6_4 : ∀ t : Fin cfg6.N, ¬condLast (grid6.coords t) → (cfg6.win 4).flush t = false := by decide +kernel
/-- at the last row block it is stored. -/
theorem liveAt6_4_C : ∀ t : Fin cfg6.N, condLast (grid6.coords t) → cfg6.idle 4 (grid6.coords t) = false := by decide +kernel

/-! ## The staging buffers and the two accumulators -/

abbrev ms6_0 (t : Fin cfg6.N) : Memref sig .tc .vmem S512x4096 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S4096x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S512x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S4096x64 .f32 := win6_4.stage (cfg6.slots t 4)
abbrev hs6_4 (t : Fin cfg6.N) : (ms6_4 t).IsWhole := hstage6_4 ((cfg6.slots t 4).cast nbuf6_4)
/-- The accumulator of the weighted sums, and the accumulator of the column degrees: whole buffers of the kernel's own. -/
abbrev scM6_0 : Memref sig .tc .vmem S4096x64 .f32 := Memref.whole cc6_scratch0
abbrev scM6_1 : Memref sig .tc .vmem S1x4096 .f32 := Memref.whole cc6_scratch1

/-- What the region is handed besides its windows: the two accumulators at some contents, the other scoped
    buffers unopened, the generator register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## What the accumulators hold after each row block -/

/-- After row block 0: the block's contribution added to zero; after row block `n + 1`: its contribution added to
    what row block `n` left. First the weighted sums, then the column degrees. -/
def accAt6 (c : Dev nD) : (n : ℕ) → n < cfg6.N → Vec F S4096x64 .f32 × Vec F S1x4096 .f32
  | 0, hn => (k0_pay6 (iblk6 V c 0 ⟨0, hn⟩) (iblk6 V c 1 ⟨0, hn⟩) (k0_pay2 (F := F)), k0_pay7 (iblk6 V c 0 ⟨0, hn⟩) (k0_pay3 (F := F)))
  | n + 1, hn => (k0_pay6 (iblk6 V c 0 ⟨n + 1, hn⟩) (iblk6 V c 1 ⟨n + 1, hn⟩) (accAt6 c n (Nat.lt_of_succ_lt hn)).1,
      k0_pay7 (iblk6 V c 0 ⟨n + 1, hn⟩) (accAt6 c n (Nat.lt_of_succ_lt hn)).2)

theorem accAt6_zero (c : Dev nD) (t : Fin cfg6.N) (h0 : t.val = 0) :
    accAt6 V c t.val t.isLt = (k0_pay6 (iblk6 V c 0 t) (iblk6 V c 1 t) (k0_pay2 (F := F)), k0_pay7 (iblk6 V c 0 t) (k0_pay3 (F := F))) := by
  obtain ⟨n, hn⟩ := t
  cases n with
  | zero => rfl
  | succ n => exact absurd h0 (Nat.succ_ne_zero n)

theorem accAt6_pos (c : Dev nD) (t : Fin cfg6.N) (h0 : ¬t.val = 0) :
    accAt6 V c t.val t.isLt = (k0_pay6 (iblk6 V c 0 t) (iblk6 V c 1 t) (accAt6 V c (t.val - 1) (Nat.lt_of_le_of_lt (Nat.sub_le _ _) t.isLt)).1,
      k0_pay7 (iblk6 V c 0 t) (accAt6 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS6 (c : Dev nD) : (n : ℕ) → n ≤ cfg6.N → sProp 𝕄
  | 0, _ => Pipeline.ΦA spec6 c
  | n + 1, hn => iprop(iprop(iprop(owns (c : Thread nD τ) scM6_0 fullShare (accAt6 V c n hn).1 ∗ owns (c : Thread nD τ) scM6_1 fullShare (accAt6 V c n hn).2)
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accAt6 V c n hn).1 ∗ owns (c : Thread nD τ) scM6_1 fullShare (accAt6 V c n hn).2)
      ∗ Pipeline.scopedRestBut (Ix := Unit) (Name := ℕ) (U := UR sig nD τ) (Lvl := ℕ) (Val := Elt F) spec6 c [cc6_scratch0, cc6_scratch1]) ∗ (∃ r, prngReg c r)) := rfl

theorem PhiS6_pos (c : Dev nD) (n : ℕ) (h : n ≤ cfg6.N) (hz : ¬n = 0) :
    PhiS6 V c n h = iprop(iprop(iprop(owns (c : Thread nD τ) scM6_0 fullShare (accAt6 V c (n - 1) (by omega)).1 ∗ owns (c : Thread nD τ) scM6_1 fullShare (accAt6 V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- Region 6's proof data on core `c`: the arrays as the region finds them; after the body at row block `t`
    each input's buffer at its block, the row result's at the block's quotients, the column result's at the
    accumulated quotients (consulted at the last row block only, where it is stored); the invariant above;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k0_pay5 (iblk6 V c 0 t) (iblk6 V c 2 t)
    | ⟨4, _⟩ => k0_pay1 (accAt6 V c t.val t.isLt).2 (accAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = k0_pay5 (iblk6 V c 0 t) (iblk6 V c 2 t) := by dsimp only [dat6]
theorem after6_4 (c : Dev nD) (t : Fin cfg6.N) : (dat6 V c).after 4 t = k0_pay1 (accAt6 V c t.val t.isLt).2 (accAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation -/

/-- What the body is called with at row block `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [kernel_eq6]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 8 := lt_of_lt_of_eq t.isLt (show cfg6.N = 8 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  by_cases h0 : t.val = 0
  · have h1 : ¬t.val = 7 := by omega
    rw [Dat.leavesExact_idle (dat6 V c) 4 t (idleAt6_4 t (fun h => h1 ((condLast_iff t).mp h))) (noFlush6_4 t (fun h => h1 ((condLast_iff t).mp h)))]
    rw [accAt6_zero V c t h0]
    rw [PhiS6_castSucc V c t, PhiS6_zero V c _ _ h0, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid6.coords t) _ _ _ _ _ _ _ _ _ _ _ _ _ _ ((condFirst_iff t).mpr h0) (fun h => h1 ((condLast_iff t).mp h)) (iblk6 V c 0 t) (iblk6 V c 1 t) (iblk6 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid6.coords t) _ _ _ _ _ _ _ _ _ _ _ _ _ _ ((condFirst_iff t).mpr h0) (fun h => h1 ((condLast_iff t).mp h)) (iblk6 V c 0 t) (iblk6 V c 1 t) (iblk6 V c 2 t) _ _
          unfold owns; iexists _; isplitr
          swap; · iexact HS1
          ipureintro; exact pieceEA_s1 c (grid6.coords t) _ _ _ _ _ _ _ _ _ _ _ _ _ _ ((condFirst_iff t).mpr h0) (fun h => h1 ((condLast_iff t).mp h)) (iblk6 V c 0 t) (iblk6 V c 1 t) (iblk6 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid6.coords t) _ _ _ _ _ _ _ _ _ _ _ _ _ _ ((condFirst_iff t).mpr h0) (fun h => h1 ((condLast_iff t).mp h)) (iblk6 V c 0 t) (iblk6 V c 1 t) (iblk6 V c 2 t) _ _
    iexists _; iexact H4
  · by_cases h1 : t.val = 7
    · rw [show (dat6 V c).leavesExact 4 t = owns (c : Thread nD τ) (ms6_4 t) fullShare ((dat6 V c).after 4 t) from by
        unfold Dat.leavesExact; rw [liveAt6_4_C t ((condLast_iff t).mpr h1)], after6_4]
      rw [accAt6_pos V c t h0]
      rw [PhiS6_castSucc V c t, PhiS6_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid6.coords t) _ _ _ _ _ _ _ _ _ _ _ _ _ _ (fun h => h0 ((condFirst_iff t).mp h)) ((condLast_iff t).mpr h1) (iblk6 V c 0 t) (iblk6 V c 1 t) (iblk6 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid6.coords t) _ _ _ _ _ _ _ _ _ _ _ _ _ _ (fun h => h0 ((condFirst_iff t).mp h)) ((condLast_iff t).mpr h1) (iblk6 V c 0 t) (iblk6 V c 1 t) (iblk6 V c 2 t) _ _ _ _
            unfold owns; iexists _; isplitr
            swap; · iexact HS1
            ipureintro; exact pieceEC_s1 c (grid6.coords t) _ _ _ _ _ _ _ _ _ _ _ _ _ _ (fun h => h0 ((condFirst_iff t).mp h)) ((condLast_iff t).mpr h1) (iblk6 V c 0 t) (iblk6 V c 1 t) (iblk6 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid6.coords t) _ _ _ _ _ _ _ _ _ _ _ _ _ _ (fun h => h0 ((condFirst_iff t).mp h)) ((condLast_iff t).mpr h1) (iblk6 V c 0 t) (iblk6 V c 1 t) (iblk6 V c 2 t) _ _ _ _
      unfold owns; iexists _; isplitr
      swap; · iexact H4
      ipureintro; exact pieceEC_o5 c (grid6.coords t) _ _ _ _ _ _ _ _ _ _ _ _ _ _ (fun h => h0 ((condFirst_iff t).mp h)) ((condLast_iff t).mpr h1) (iblk6 V c 0 t) (iblk6 V c 1 t) (iblk6 V c 2 t) _ _ _ _
    · rw [Dat.leavesExact_idle (dat6 V c) 4 t (idleAt6_4 t (fun h => h1 ((condLast_iff t).mp h))) (noFlush6_4 t (fun h => h1 ((condLast_iff t).mp h)))]
      rw [accAt6_pos V c t h0]
      rw [PhiS6_castSucc V c t, PhiS6_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid6.coords t) _ _ _ _ _ _ _ _ _ _ _ _ _ _ (fun h => h0 ((condFirst_iff t).mp h)) (fun h => h1 ((condLast_iff t).mp h)) (iblk6 V c 0 t) (iblk6 V c 1 t) (iblk6 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid6.coords t) _ _ _ _ _ _ _ _ _ _ _ _ _ _ (fun h => h0 ((condFirst_iff t).mp h)) (fun h => h1 ((condLast_iff t).mp h)) (iblk6 V c 0 t) (iblk6 V c 1 t) (iblk6 V c 2 t) _ _ _ _
            unfold owns; iexists _; isplitr
            swap; · iexact HS1
            ipureintro; exact pieceEB_s1 c (grid6.coords t) _ _ _ _ _ _ _ _ _ _ _ _ _ _ (fun h => h0 ((condFirst_iff t).mp h)) (fun h => h1 ((condLast_iff t).mp h)) (iblk6 V c 0 t) (iblk6 V c 1 t) (iblk6 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid6.coords t) _ _ _ _ _ _ _ _ _ _ _ _ _ _ (fun h => h0 ((condFirst_iff t).mp h)) (fun h => h1 ((condLast_iff t).mp h)) (iblk6 V c 0 t) (iblk6 V c 1 t) (iblk6 V c 2 t) _ _ _ _
      iexists _; iexact H4

/-- The library's body obligation, at every row block. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first row block. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last row block the invariant gives back what the launch handed over: the accumulators' contents are forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 8 := N_6; omega), PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region6

end Cert.KernelIdeal.Hand

end
-- ==== Proof.KI.Reg7.lean ====
import proofs.«103934_j28484223107660_1_alg».proof.Proof.KI.RunOA
import proofs.«103934_j28484223107660_1_alg».proof.Proof.KI.RunOB
import proofs.«103934_j28484223107660_1_alg».proof.Proof.KI.RunOC
import proofs.«103934_j28484223107660_1_alg».proof.Proof.KI.PieceO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 7's kernel function is, as a program, the one the body's runs are stated for (the same text). -/
theorem kernel_eq7 : @cc7__mlgcn_layer_kernel F _ = @cc1__mlgcn_layer_kernel F _ := rfl

section Region7

/- The contents of the core's buffers when region 7 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every row block, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every row block, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every row block, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## Where the windows are idle, and where the column result is written back -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
/-- Before the last row block nothing is stored into the column result's buffer, -/
theorem idleAt7_4 : ∀ t : Fin cfg7.N, ¬condLast (grid7.coords t) → cfg7.idle 4 (grid7.coords t) = true := by decide +kernel
/-- and it is not written back there; -/
theorem noFlush7_4 : ∀ t : Fin cfg7.N, ¬condLast (grid7.coords t) → (cfg7.win 4).flush t = false := by decide +kernel
/-- at the last row block it is stored. -/
theorem liveAt7_4_C : ∀ t : Fin cfg7.N, condLast (grid7.coords t) → cfg7.idle 4 (grid7.coords t) = false := by decide +kernel

/-! ## The staging buffers and the two accumulators -/

abbrev ms7_0 (t : Fin cfg7.N) : Memref sig .tc .vmem S512x4096 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S512x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S4096x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S512x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S4096x64 .f32 := win7_4.stage (cfg7.slots t 4)
abbrev hs7_4 (t : Fin cfg7.N) : (ms7_4 t).IsWhole := hstage7_4 ((cfg7.slots t 4).cast nbuf7_4)
/-- The accumulator of the weighted sums, and the accumulator of the column degrees: whole buffers of the kernel's own. -/
abbrev scM7_0 : Memref sig .tc .vmem S4096x64 .f32 := Memref.whole cc7_scratch0
abbrev scM7_1 : Memref sig .tc .vmem S1x4096 .f32 := Memref.whole cc7_scratch1

/-- What the region is handed besides its windows: the two accumulators at some contents, the other scoped
    buffers unopened, the generator register at some state. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## What the accumulators hold after each row block -/

/-- After row block 0: the block's contribution added to zero; after row block `n + 1`: its contribution added to
    what row block `n` left. First the weighted sums, then the column degrees. -/
def accAt7 (c : Dev nD) : (n : ℕ) → n < cfg7.N → Vec F S4096x64 .f32 × Vec F S1x4096 .f32
  | 0, hn => (k1_pay6 (iblk7 V c 0 ⟨0, hn⟩) (iblk7 V c 1 ⟨0, hn⟩) (k1_pay2 (F := F)), k1_pay7 (iblk7 V c 0 ⟨0, hn⟩) (k1_pay3 (F := F)))
  | n + 1, hn => (k1_pay6 (iblk7 V c 0 ⟨n + 1, hn⟩) (iblk7 V c 1 ⟨n + 1, hn⟩) (accAt7 c n (Nat.lt_of_succ_lt hn)).1,
      k1_pay7 (iblk7 V c 0 ⟨n + 1, hn⟩) (accAt7 c n (Nat.lt_of_succ_lt hn)).2)

theorem accAt7_zero (c : Dev nD) (t : Fin cfg7.N) (h0 : t.val = 0) :
    accAt7 V c t.val t.isLt = (k1_pay6 (iblk7 V c 0 t) (iblk7 V c 1 t) (k1_pay2 (F := F)), k1_pay7 (iblk7 V c 0 t) (k1_pay3 (F := F))) := by
  obtain ⟨n, hn⟩ := t
  cases n with
  | zero => rfl
  | succ n => exact absurd h0 (Nat.succ_ne_zero n)

theorem accAt7_pos (c : Dev nD) (t : Fin cfg7.N) (h0 : ¬t.val = 0) :
    accAt7 V c t.val t.isLt = (k1_pay6 (iblk7 V c 0 t) (iblk7 V c 1 t) (accAt7 V c (t.val - 1) (Nat.lt_of_le_of_lt (Nat.sub_le _ _) t.isLt)).1,
      k1_pay7 (iblk7 V c 0 t) (accAt7 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS7 (c : Dev nD) : (n : ℕ) → n ≤ cfg7.N → sProp 𝕄
  | 0, _ => Pipeline.ΦA spec7 c
  | n + 1, hn => iprop(iprop(iprop(owns (c : Thread nD τ) scM7_0 fullShare (accAt7 V c n hn).1 ∗ owns (c : Thread nD τ) scM7_1 fullShare (accAt7 V c n hn).2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (accAt7 V c n hn).1 ∗ owns (c : Thread nD τ) scM7_1 fullShare (accAt7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : ¬n = 0) :
    PhiS7 V c n h = iprop(iprop(iprop(owns (c : Thread nD τ) scM7_0 fullShare (accAt7 V c (n - 1) (by omega)).1 ∗ owns (c : Thread nD τ) scM7_1 fullShare (accAt7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- Region 7's proof data on core `c`: the arrays as the region finds them; after the body at row block `t`
    each input's buffer at its block, the row result's at the block's quotients, the column result's at the
    accumulated quotients (consulted at the last row block only, where it is stored); the invariant above;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k1_pay5 (iblk7 V c 0 t) (iblk7 V c 2 t)
    | ⟨4, _⟩ => k1_pay1 (accAt7 V c t.val t.isLt).2 (accAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = k1_pay5 (iblk7 V c 0 t) (iblk7 V c 2 t) := by dsimp only [dat7]
theorem after7_4 (c : Dev nD) (t : Fin cfg7.N) : (dat7 V c).after 4 t = k1_pay1 (accAt7 V c t.val t.isLt).2 (accAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation -/

/-- What the body is called with at row block `t`, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [kernel_eq7]
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  have hN : t.val < 8 := lt_of_lt_of_eq t.isLt (show cfg7.N = 8 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  by_cases h0 : t.val = 0
  · have h1 : ¬t.val = 7 := by omega
    rw [Dat.leavesExact_idle (dat7 V c) 4 t (idleAt7_4 t (fun h => h1 ((condLast_iff t).mp h))) (noFlush7_4 t (fun h => h1 ((condLast_iff t).mp h)))]
    rw [accAt7_zero V c t h0]
    rw [PhiS7_castSucc V c t, PhiS7_zero V c _ _ h0, PhiA7_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid7.coords t) _ _ _ _ _ _ _ _ _ _ _ _ _ _ ((condFirst_iff t).mpr h0) (fun h => h1 ((condLast_iff t).mp h)) (iblk7 V c 0 t) (iblk7 V c 1 t) (iblk7 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid7.coords t) _ _ _ _ _ _ _ _ _ _ _ _ _ _ ((condFirst_iff t).mpr h0) (fun h => h1 ((condLast_iff t).mp h)) (iblk7 V c 0 t) (iblk7 V c 1 t) (iblk7 V c 2 t) _ _
          unfold owns; iexists _; isplitr
          swap; · iexact HS1
          ipureintro; exact pieceOA_s1 c (grid7.coords t) _ _ _ _ _ _ _ _ _ _ _ _ _ _ ((condFirst_iff t).mpr h0) (fun h => h1 ((condLast_iff t).mp h)) (iblk7 V c 0 t) (iblk7 V c 1 t) (iblk7 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid7.coords t) _ _ _ _ _ _ _ _ _ _ _ _ _ _ ((condFirst_iff t).mpr h0) (fun h => h1 ((condLast_iff t).mp h)) (iblk7 V c 0 t) (iblk7 V c 1 t) (iblk7 V c 2 t) _ _
    iexists _; iexact H4
  · by_cases h1 : t.val = 7
    · rw [show (dat7 V c).leavesExact 4 t = owns (c : Thread nD τ) (ms7_4 t) fullShare ((dat7 V c).after 4 t) from by
        unfold Dat.leavesExact; rw [liveAt7_4_C t ((condLast_iff t).mpr h1)], after7_4]
      rw [accAt7_pos V c t h0]
      rw [PhiS7_castSucc V c t, PhiS7_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid7.coords t) _ _ _ _ _ _ _ _ _ _ _ _ _ _ (fun h => h0 ((condFirst_iff t).mp h)) ((condLast_iff t).mpr h1) (iblk7 V c 0 t) (iblk7 V c 1 t) (iblk7 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid7.coords t) _ _ _ _ _ _ _ _ _ _ _ _ _ _ (fun h => h0 ((condFirst_iff t).mp h)) ((condLast_iff t).mpr h1) (iblk7 V c 0 t) (iblk7 V c 1 t) (iblk7 V c 2 t) _ _ _ _
            unfold owns; iexists _; isplitr
            swap; · iexact HS1
            ipureintro; exact pieceOC_s1 c (grid7.coords t) _ _ _ _ _ _ _ _ _ _ _ _ _ _ (fun h => h0 ((condFirst_iff t).mp h)) ((condLast_iff t).mpr h1) (iblk7 V c 0 t) (iblk7 V c 1 t) (iblk7 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid7.coords t) _ _ _ _ _ _ _ _ _ _ _ _ _ _ (fun h => h0 ((condFirst_iff t).mp h)) ((condLast_iff t).mpr h1) (iblk7 V c 0 t) (iblk7 V c 1 t) (iblk7 V c 2 t) _ _ _ _
      unfold owns; iexists _; isplitr
      swap; · iexact H4
      ipureintro; exact pieceOC_o5 c (grid7.coords t) _ _ _ _ _ _ _ _ _ _ _ _ _ _ (fun h => h0 ((condFirst_iff t).mp h)) ((condLast_iff t).mpr h1) (iblk7 V c 0 t) (iblk7 V c 1 t) (iblk7 V c 2 t) _ _ _ _
    · rw [Dat.leavesExact_idle (dat7 V c) 4 t (idleAt7_4 t (fun h => h1 ((condLast_iff t).mp h))) (noFlush7_4 t (fun h => h1 ((condLast_iff t).mp h)))]
      rw [accAt7_pos V c t h0]
      rw [PhiS7_castSucc V c t, PhiS7_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid7.coords t) _ _ _ _ _ _ _ _ _ _ _ _ _ _ (fun h => h0 ((condFirst_iff t).mp h)) (fun h => h1 ((condLast_iff t).mp h)) (iblk7 V c 0 t) (iblk7 V c 1 t) (iblk7 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid7.coords t) _ _ _ _ _ _ _ _ _ _ _ _ _ _ (fun h => h0 ((condFirst_iff t).mp h)) (fun h => h1 ((condLast_iff t).mp h)) (iblk7 V c 0 t) (iblk7 V c 1 t) (iblk7 V c 2 t) _ _ _ _
            unfold owns; iexists _; isplitr
            swap; · iexact HS1
            ipureintro; exact pieceOB_s1 c (grid7.coords t) _ _ _ _ _ _ _ _ _ _ _ _ _ _ (fun h => h0 ((condFirst_iff t).mp h)) (fun h => h1 ((condLast_iff t).mp h)) (iblk7 V c 0 t) (iblk7 V c 1 t) (iblk7 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid7.coords t) _ _ _ _ _ _ _ _ _ _ _ _ _ _ (fun h => h0 ((condFirst_iff t).mp h)) (fun h => h1 ((condLast_iff t).mp h)) (iblk7 V c 0 t) (iblk7 V c 1 t) (iblk7 V c 2 t) _ _ _ _
      iexists _; iexact H4

/-- The library's body obligation, at every row block. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first row block. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last row block the invariant gives back what the launch handed over: the accumulators' contents are forgotten. -/
theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 8 := N_7; omega), PhiA7_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region7

end Cert.KernelIdeal.Hand

end
-- ==== Proof.KI.Reg8.lean ====
import proofs.«103934_j28484223107660_1_alg».proof.Proof.KI.RunEA
import proofs.«103934_j28484223107660_1_alg».proof.Proof.KI.RunEB
import proofs.«103934_j28484223107660_1_alg».proof.Proof.KI.RunEC
import proofs.«103934_j28484223107660_1_alg».proof.Proof.KI.PieceE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 8's kernel function is, as a program, the one the body's runs are stated for (the same text). -/
theorem kernel_eq8 : @cc8__mlgcn_layer_kernel F _ = @cc0__mlgcn_layer_kernel F _ := rfl

section Region8

/- The contents of the core's buffers when region 8 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every row block, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every row block, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every row block, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## Where the windows are idle, and where the column result is written back -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
/-- Before the last row block nothing is stored into the column result's buffer, -/
theorem idleAt8_4 : ∀ t : Fin cfg8.N, ¬condLast (grid8.coords t) → cfg8.idle 4 (grid8.coords t) = true := by decide +kernel
/-- and it is not written back there; -/
theorem noFlush8_4 : ∀ t : Fin cfg8.N, ¬condLast (grid8.coords t) → (cfg8.win 4).flush t = false := by decide +kernel
/-- at the last row block it is stored. -/
theorem liveAt8_4_C : ∀ t : Fin cfg8.N, condLast (grid8.coords t) → cfg8.idle 4 (grid8.coords t) = false := by decide +kernel

/-! ## The staging buffers and the two accumulators -/

abbrev ms8_0 (t : Fin cfg8.N) : Memref sig .tc .vmem S512x4096 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S512x64 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S4096x64 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S512x64 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S4096x64 .f32 := win8_4.stage (cfg8.slots t 4)
abbrev hs8_4 (t : Fin cfg8.N) : (ms8_4 t).IsWhole := hstage8_4 ((cfg8.slots t 4).cast nbuf8_4)
/-- The accumulator of the weighted sums, and the accumulator of the column degrees: whole buffers of the kernel's own. -/
abbrev scM8_0 : Memref sig .tc .vmem S4096x64 .f32 := Memref.whole cc8_scratch0
abbrev scM8_1 : Memref sig .tc .vmem S1x4096 .f32 := Memref.whole cc8_scratch1

/-- What the region is handed besides its windows: the two accumulators at some contents, the other scoped
    buffers unopened, the generator register at some state. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

/-! ## What the accumulators hold after each row block -/

/-- After row block 0: the block's contribution added to zero; after row block `n + 1`: its contribution added to
    what row block `n` left. First the weighted sums, then the column degrees. -/
def accAt8 (c : Dev nD) : (n : ℕ) → n < cfg8.N → Vec F S4096x64 .f32 × Vec F S1x4096 .f32
  | 0, hn => (k0_pay6 (iblk8 V c 0 ⟨0, hn⟩) (iblk8 V c 1 ⟨0, hn⟩) (k0_pay2 (F := F)), k0_pay7 (iblk8 V c 0 ⟨0, hn⟩) (k0_pay3 (F := F)))
  | n + 1, hn => (k0_pay6 (iblk8 V c 0 ⟨n + 1, hn⟩) (iblk8 V c 1 ⟨n + 1, hn⟩) (accAt8 c n (Nat.lt_of_succ_lt hn)).1,
      k0_pay7 (iblk8 V c 0 ⟨n + 1, hn⟩) (accAt8 c n (Nat.lt_of_succ_lt hn)).2)

theorem accAt8_zero (c : Dev nD) (t : Fin cfg8.N) (h0 : t.val = 0) :
    accAt8 V c t.val t.isLt = (k0_pay6 (iblk8 V c 0 t) (iblk8 V c 1 t) (k0_pay2 (F := F)), k0_pay7 (iblk8 V c 0 t) (k0_pay3 (F := F))) := by
  obtain ⟨n, hn⟩ := t
  cases n with
  | zero => rfl
  | succ n => exact absurd h0 (Nat.succ_ne_zero n)

theorem accAt8_pos (c : Dev nD) (t : Fin cfg8.N) (h0 : ¬t.val = 0) :
    accAt8 V c t.val t.isLt = (k0_pay6 (iblk8 V c 0 t) (iblk8 V c 1 t) (accAt8 V c (t.val - 1) (Nat.lt_of_le_of_lt (Nat.sub_le _ _) t.isLt)).1,
      k0_pay7 (iblk8 V c 0 t) (accAt8 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS8 (c : Dev nD) : (n : ℕ) → n ≤ cfg8.N → sProp 𝕄
  | 0, _ => Pipeline.ΦA spec8 c
  | n + 1, hn => iprop(iprop(iprop(owns (c : Thread nD τ) scM8_0 fullShare (accAt8 V c n hn).1 ∗ owns (c : Thread nD τ) scM8_1 fullShare (accAt8 V c n hn).2)
      ∗ Pipeline.scopedRestBut (Ix := Unit) (Name := ℕ) (U := UR sig nD τ) (Lvl := ℕ) (Val := Elt F) spec8 c [cc8_scratch0, cc8_scratch1]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (accAt8 V c n hn).1 ∗ owns (c : Thread nD τ) scM8_1 fullShare (accAt8 V c n hn).2)
      ∗ Pipeline.scopedRestBut (Ix := Unit) (Name := ℕ) (U := UR sig nD τ) (Lvl := ℕ) (Val := Elt F) spec8 c [cc8_scratch0, cc8_scratch1]) ∗ (∃ r, prngReg c r)) := rfl

theorem PhiS8_pos (c : Dev nD) (n : ℕ) (h : n ≤ cfg8.N) (hz : ¬n = 0) :
    PhiS8 V c n h = iprop(iprop(iprop(owns (c : Thread nD τ) scM8_0 fullShare (accAt8 V c (n - 1) (by omega)).1 ∗ owns (c : Thread nD τ) scM8_1 fullShare (accAt8 V c (n - 1) (by omega)).2)
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-! ## The pipeline's proof data -/

/-- Region 8's proof data on core `c`: the arrays as the region finds them; after the body at row block `t`
    each input's buffer at its block, the row result's at the block's quotients, the column result's at the
    accumulated quotients (consulted at the last row block only, where it is stored); the invariant above;
    nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => k0_pay5 (iblk8 V c 0 t) (iblk8 V c 2 t)
    | ⟨4, _⟩ => k0_pay1 (accAt8 V c t.val t.isLt).2 (accAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = k0_pay5 (iblk8 V c 0 t) (iblk8 V c 2 t) := by dsimp only [dat8]
theorem after8_4 (c : Dev nD) (t : Fin cfg8.N) : (dat8 V c).after 4 t = k0_pay1 (accAt8 V c t.val t.isLt).2 (accAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation -/

/-- What the body is called with at row block `t`, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [kernel_eq8]
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  have hN : t.val < 8 := lt_of_lt_of_eq t.isLt (show cfg8.N = 8 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  by_cases h0 : t.val = 0
  · have h1 : ¬t.val = 7 := by omega
    rw [Dat.leavesExact_idle (dat8 V c) 4 t (idleAt8_4 t (fun h => h1 ((condLast_iff t).mp h))) (noFlush8_4 t (fun h => h1 ((condLast_iff t).mp h)))]
    rw [accAt8_zero V c t h0]
    rw [PhiS8_castSucc V c t, PhiS8_zero V c _ _ h0, PhiA8_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid8.coords t) _ _ _ _ _ _ _ _ _ _ _ _ _ _ ((condFirst_iff t).mpr h0) (fun h => h1 ((condLast_iff t).mp h)) (iblk8 V c 0 t) (iblk8 V c 1 t) (iblk8 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid8.coords t) _ _ _ _ _ _ _ _ _ _ _ _ _ _ ((condFirst_iff t).mpr h0) (fun h => h1 ((condLast_iff t).mp h)) (iblk8 V c 0 t) (iblk8 V c 1 t) (iblk8 V c 2 t) _ _
          unfold owns; iexists _; isplitr
          swap; · iexact HS1
          ipureintro; exact pieceEA_s1 c (grid8.coords t) _ _ _ _ _ _ _ _ _ _ _ _ _ _ ((condFirst_iff t).mpr h0) (fun h => h1 ((condLast_iff t).mp h)) (iblk8 V c 0 t) (iblk8 V c 1 t) (iblk8 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid8.coords t) _ _ _ _ _ _ _ _ _ _ _ _ _ _ ((condFirst_iff t).mpr h0) (fun h => h1 ((condLast_iff t).mp h)) (iblk8 V c 0 t) (iblk8 V c 1 t) (iblk8 V c 2 t) _ _
    iexists _; iexact H4
  · by_cases h1 : t.val = 7
    · rw [show (dat8 V c).leavesExact 4 t = owns (c : Thread nD τ) (ms8_4 t) fullShare ((dat8 V c).after 4 t) from by
        unfold Dat.leavesExact; rw [liveAt8_4_C t ((condLast_iff t).mpr h1)], after8_4]
      rw [accAt8_pos V c t h0]
      rw [PhiS8_castSucc V c t, PhiS8_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid8.coords t) _ _ _ _ _ _ _ _ _ _ _ _ _ _ (fun h => h0 ((condFirst_iff t).mp h)) ((condLast_iff t).mpr h1) (iblk8 V c 0 t) (iblk8 V c 1 t) (iblk8 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid8.coords t) _ _ _ _ _ _ _ _ _ _ _ _ _ _ (fun h => h0 ((condFirst_iff t).mp h)) ((condLast_iff t).mpr h1) (iblk8 V c 0 t) (iblk8 V c 1 t) (iblk8 V c 2 t) _ _ _ _
            unfold owns; iexists _; isplitr
            swap; · iexact HS1
            ipureintro; exact pieceEC_s1 c (grid8.coords t) _ _ _ _ _ _ _ _ _ _ _ _ _ _ (fun h => h0 ((condFirst_iff t).mp h)) ((condLast_iff t).mpr h1) (iblk8 V c 0 t) (iblk8 V c 1 t) (iblk8 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid8.coords t) _ _ _ _ _ _ _ _ _ _ _ _ _ _ (fun h => h0 ((condFirst_iff t).mp h)) ((condLast_iff t).mpr h1) (iblk8 V c 0 t) (iblk8 V c 1 t) (iblk8 V c 2 t) _ _ _ _
      unfold owns; iexists _; isplitr
      swap; · iexact H4
      ipureintro; exact pieceEC_o5 c (grid8.coords t) _ _ _ _ _ _ _ _ _ _ _ _ _ _ (fun h => h0 ((condFirst_iff t).mp h)) ((condLast_iff t).mpr h1) (iblk8 V c 0 t) (iblk8 V c 1 t) (iblk8 V c 2 t) _ _ _ _
    · rw [Dat.leavesExact_idle (dat8 V c) 4 t (idleAt8_4 t (fun h => h1 ((condLast_iff t).mp h))) (noFlush8_4 t (fun h => h1 ((condLast_iff t).mp h)))]
      rw [accAt8_pos V c t h0]
      rw [PhiS8_castSucc V c t, PhiS8_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid8.coords t) _ _ _ _ _ _ _ _ _ _ _ _ _ _ (fun h => h0 ((condFirst_iff t).mp h)) (fun h => h1 ((condLast_iff t).mp h)) (iblk8 V c 0 t) (iblk8 V c 1 t) (iblk8 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid8.coords t) _ _ _ _ _ _ _ _ _ _ _ _ _ _ (fun h => h0 ((condFirst_iff t).mp h)) (fun h => h1 ((condLast_iff t).mp h)) (iblk8 V c 0 t) (iblk8 V c 1 t) (iblk8 V c 2 t) _ _ _ _
            unfold owns; iexists _; isplitr
            swap; · iexact HS1
            ipureintro; exact pieceEB_s1 c (grid8.coords t) _ _ _ _ _ _ _ _ _ _ _ _ _ _ (fun h => h0 ((condFirst_iff t).mp h)) (fun h => h1 ((condLast_iff t).mp h)) (iblk8 V c 0 t) (iblk8 V c 1 t) (iblk8 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid8.coords t) _ _ _ _ _ _ _ _ _ _ _ _ _ _ (fun h => h0 ((condFirst_iff t).mp h)) (fun h => h1 ((condLast_iff t).mp h)) (iblk8 V c 0 t) (iblk8 V c 1 t) (iblk8 V c 2 t) _ _ _ _
      iexists _; iexact H4

/-- The library's body obligation, at every row block. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first row block. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last row block the invariant gives back what the launch handed over: the accumulators' contents are forgotten. -/
theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 8 := N_8; omega), PhiA8_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region8

end Cert.KernelIdeal.Hand

end
-- ==== Proof.KI.Reg9.lean ====
import proofs.«103934_j28484223107660_1_alg».proof.Proof.KI.RunOA
import proofs.«103934_j28484223107660_1_alg».proof.Proof.KI.RunOB
import proofs.«103934_j28484223107660_1_alg».proof.Proof.KI.RunOC
import proofs.«103934_j28484223107660_1_alg».proof.Proof.KI.PieceO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 9's kernel function is, as a program, the one the body's runs are stated for (the same text). -/
theorem kernel_eq9 : @cc9__mlgcn_layer_kernel F _ = @cc1__mlgcn_layer_kernel F _ := rfl

section Region9

/- The contents of the core's buffers when region 9 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every row block, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every row block, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every row block, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## Where the windows are idle, and where the column result is written back -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
/-- Before the last row block nothing is stored into the column result's buffer, -/
theorem idleAt9_4 : ∀ t : Fin cfg9.N, ¬condLast (grid9.coords t) → cfg9.idle 4 (grid9.coords t) = true := by decide +kernel
/-- and it is not written back there; -/
theorem noFlush9_4 : ∀ t : Fin cfg9.N, ¬condLast (grid9.coords t) → (cfg9.win 4).flush t = false := by decide +kernel
/-- at the last row block it is stored. -/
theorem liveAt9_4_C : ∀ t : Fin cfg9.N, condLast (grid9.coords t) → cfg9.idle 4 (grid9.coords t) = false := by decide +kernel

/-! ## The staging buffers and the two accumulators -/

abbrev ms9_0 (t : Fin cfg9.N) : Memref sig .tc .vmem S512x4096 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S512x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S4096x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S512x64 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S4096x64 .f32 := win9_4.stage (cfg9.slots t 4)
abbrev hs9_4 (t : Fin cfg9.N) : (ms9_4 t).IsWhole := hstage9_4 ((cfg9.slots t 4).cast nbuf9_4)
/-- The accumulator of the weighted sums, and the accumulator of the column degrees: whole buffers of the kernel's own. -/
abbrev scM9_0 : Memref sig .tc .vmem S4096x64 .f32 := Memref.whole cc9_scratch0
abbrev scM9_1 : Memref sig .tc .vmem S1x4096 .f32 := Memref.whole cc9_scratch1

/-- What the region is handed besides its windows: the two accumulators at some contents, the other scoped
    buffers unopened, the generator register at some state. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [scM9_0, scM9_1, owns_whole]; try rfl

/-! ## What the accumulators hold after each row block -/

/-- After row block 0: the block's contribution added to zero; after row block `n + 1`: its contribution added to
    what row block `n` left. First the weighted sums, then the column degrees. -/
def accAt9 (c : Dev nD) : (n : ℕ) → n < cfg9.N → Vec F S4096x64 .f32 × Vec F S1x4096 .f32
  | 0, hn => (k1_pay6 (iblk9 V c 0 ⟨0, hn⟩) (iblk9 V c 1 ⟨0, hn⟩) (k1_pay2 (F := F)), k1_pay7 (iblk9 V c 0 ⟨0, hn⟩) (k1_pay3 (F := F)))
  | n + 1, hn => (k1_pay6 (iblk9 V c 0 ⟨n + 1, hn⟩) (iblk9 V c 1 ⟨n + 1, hn⟩) (accAt9 c n (Nat.lt_of_succ_lt hn)).1,
      k1_pay7 (iblk9 V c 0 ⟨n + 1, hn⟩) (accAt9 c n (Nat.lt_of_succ_lt hn)).2)

theorem accAt9_zero (c : Dev nD) (t : Fin cfg9.N) (h0 : t.val = 0) :
    accAt9 V c t.val t.isLt = (k1_pay6 (iblk9 V c 0 t) (iblk9 V c 1 t) (k1_pay2 (F := F)), k1_pay7 (iblk9 V c 0 t) (k1_pay3 (F := F))) := by
  obtain ⟨n, hn⟩ := t
  cases n with
  | zero => rfl
  | succ n => exact absurd h0 (Nat.succ_ne_zero n)

theorem accAt9_pos (c : Dev nD) (t : Fin cfg9.N) (h0 : ¬t.val = 0) :
    accAt9 V c t.val t.isLt = (k1_pay6 (iblk9 V c 0 t) (iblk9 V c 1 t) (accAt9 V c (t.val - 1) (Nat.lt_of_le_of_lt (Nat.sub_le _ _) t.isLt)).1,
      k1_pay7 (iblk9 V c 0 t) (accAt9 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS9 (c : Dev nD) : (n : ℕ) → n ≤ cfg9.N → sProp 𝕄
  | 0, _ => Pipeline.ΦA spec9 c
  | n + 1, hn => iprop(iprop(iprop(owns (c : Thread nD τ) scM9_0 fullShare (accAt9 V c n hn).1 ∗ owns (c : Thread nD τ) scM9_1 fullShare (accAt9 V c n hn).2)
      ∗ Pipeline.scopedRestBut (Ix := Unit) (Name := ℕ) (U := UR sig nD τ) (Lvl := ℕ) (Val := Elt F) spec9 c [cc9_scratch0, cc9_scratch1]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare (accAt9 V c n hn).1 ∗ owns (c : Thread nD τ) scM9_1 fullShare (accAt9 V c n hn).2)
      ∗ Pipeline.scopedRestBut (Ix := Unit) (Name := ℕ) (U := UR sig nD τ) (Lvl := ℕ) (Val := Elt F) spec9 c [cc9_scratch0, cc9_scratch1]) ∗ (∃ r, prngReg c r)) := rfl

theorem PhiS9_pos (c : Dev nD) (n : ℕ) (h : n ≤ cfg9.N) (hz : ¬n = 0) :
    PhiS9 V c n h = iprop(iprop(iprop(owns (c : Thread nD τ) scM9_0 fullShare (accAt9 V c (n - 1) (by omega)).1 ∗ owns (c : Thread nD τ) scM9_1 fullShare (accAt9 V c (n - 1) (by omega)).2)
      ∗ Pipeline.scopedRestBut (Ix := Unit) (Name := ℕ) (U := UR sig nD τ) (Lvl := ℕ) (Val := Elt F) spec9 c [cc9_scratch0, cc9_scratch1]) ∗ (∃ r, prngReg c r)) := by
  cases n with
  | zero => exact absurd rfl hz
  | succ n => rfl

/-! ## The pipeline's proof data -/

/-- Region 9's proof data on core `c`: the arrays as the region finds them; after the body at row block `t`
    each input's buffer at its block, the row result's at the block's quotients, the column result's at the
    accumulated quotients (consulted at the last row block only, where it is stored); the invariant above;
    nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => k1_pay5 (iblk9 V c 0 t) (iblk9 V c 2 t)
    | ⟨4, _⟩ => k1_pay1 (accAt9 V c t.val t.isLt).2 (accAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = k1_pay5 (iblk9 V c 0 t) (iblk9 V c 2 t) := by dsimp only [dat9]
theorem after9_4 (c : Dev nD) (t : Fin cfg9.N) : (dat9 V c).after 4 t = k1_pay1 (accAt9 V c t.val t.isLt).2 (accAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

/-- What the body is called with at row block `t`, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [kernel_eq9]
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  have hN : t.val < 8 := lt_of_lt_of_eq t.isLt (show cfg9.N = 8 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  by_cases h0 : t.val = 0
  · have h1 : ¬t.val = 7 := by omega
    rw [Dat.leavesExact_idle (dat9 V c) 4 t (idleAt9_4 t (fun h => h1 ((condLast_iff t).mp h))) (noFlush9_4 t (fun h => h1 ((condLast_iff t).mp h)))]
    rw [accAt9_zero V c t h0]
    rw [PhiS9_castSucc V c t, PhiS9_zero V c _ _ h0, PhiA9_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid9.coords t) _ _ _ _ _ _ _ _ _ _ _ _ _ _ ((condFirst_iff t).mpr h0) (fun h => h1 ((condLast_iff t).mp h)) (iblk9 V c 0 t) (iblk9 V c 1 t) (iblk9 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid9.coords t) _ _ _ _ _ _ _ _ _ _ _ _ _ _ ((condFirst_iff t).mpr h0) (fun h => h1 ((condLast_iff t).mp h)) (iblk9 V c 0 t) (iblk9 V c 1 t) (iblk9 V c 2 t) _ _
          unfold owns; iexists _; isplitr
          swap; · iexact HS1
          ipureintro; exact pieceOA_s1 c (grid9.coords t) _ _ _ _ _ _ _ _ _ _ _ _ _ _ ((condFirst_iff t).mpr h0) (fun h => h1 ((condLast_iff t).mp h)) (iblk9 V c 0 t) (iblk9 V c 1 t) (iblk9 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid9.coords t) _ _ _ _ _ _ _ _ _ _ _ _ _ _ ((condFirst_iff t).mpr h0) (fun h => h1 ((condLast_iff t).mp h)) (iblk9 V c 0 t) (iblk9 V c 1 t) (iblk9 V c 2 t) _ _
    iexists _; iexact H4
  · by_cases h1 : t.val = 7
    · rw [show (dat9 V c).leavesExact 4 t = owns (c : Thread nD τ) (ms9_4 t) fullShare ((dat9 V c).after 4 t) from by
        unfold Dat.leavesExact; rw [liveAt9_4_C t ((condLast_iff t).mpr h1)], after9_4]
      rw [accAt9_pos V c t h0]
      rw [PhiS9_castSucc V c t, PhiS9_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid9.coords t) _ _ _ _ _ _ _ _ _ _ _ _ _ _ (fun h => h0 ((condFirst_iff t).mp h)) ((condLast_iff t).mpr h1) (iblk9 V c 0 t) (iblk9 V c 1 t) (iblk9 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid9.coords t) _ _ _ _ _ _ _ _ _ _ _ _ _ _ (fun h => h0 ((condFirst_iff t).mp h)) ((condLast_iff t).mpr h1) (iblk9 V c 0 t) (iblk9 V c 1 t) (iblk9 V c 2 t) _ _ _ _
            unfold owns; iexists _; isplitr
            swap; · iexact HS1
            ipureintro; exact pieceOC_s1 c (grid9.coords t) _ _ _ _ _ _ _ _ _ _ _ _ _ _ (fun h => h0 ((condFirst_iff t).mp h)) ((condLast_iff t).mpr h1) (iblk9 V c 0 t) (iblk9 V c 1 t) (iblk9 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid9.coords t) _ _ _ _ _ _ _ _ _ _ _ _ _ _ (fun h => h0 ((condFirst_iff t).mp h)) ((condLast_iff t).mpr h1) (iblk9 V c 0 t) (iblk9 V c 1 t) (iblk9 V c 2 t) _ _ _ _
      unfold owns; iexists _; isplitr
      swap; · iexact H4
      ipureintro; exact pieceOC_o5 c (grid9.coords t) _ _ _ _ _ _ _ _ _ _ _ _ _ _ (fun h => h0 ((condFirst_iff t).mp h)) ((condLast_iff t).mpr h1) (iblk9 V c 0 t) (iblk9 V c 1 t) (iblk9 V c 2 t) _ _ _ _
    · rw [Dat.leavesExact_idle (dat9 V c) 4 t (idleAt9_4 t (fun h => h1 ((condLast_iff t).mp h))) (noFlush9_4 t (fun h => h1 ((condLast_iff t).mp h)))]
      rw [accAt9_pos V c t h0]
      rw [PhiS9_castSucc V c t, PhiS9_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid9.coords t) _ _ _ _ _ _ _ _ _ _ _ _ _ _ (fun h => h0 ((condFirst_iff t).mp h)) (fun h => h1 ((condLast_iff t).mp h)) (iblk9 V c 0 t) (iblk9 V c 1 t) (iblk9 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid9.coords t) _ _ _ _ _ _ _ _ _ _ _ _ _ _ (fun h => h0 ((condFirst_iff t).mp h)) (fun h => h1 ((condLast_iff t).mp h)) (iblk9 V c 0 t) (iblk9 V c 1 t) (iblk9 V c 2 t) _ _ _ _
            unfold owns; iexists _; isplitr
            swap; · iexact HS1
            ipureintro; exact pieceOB_s1 c (grid9.coords t) _ _ _ _ _ _ _ _ _ _ _ _ _ _ (fun h => h0 ((condFirst_iff t).mp h)) (fun h => h1 ((condLast_iff t).mp h)) (iblk9 V c 0 t) (iblk9 V c 1 t) (iblk9 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid9.coords t) _ _ _ _ _ _ _ _ _ _ _ _ _ _ (fun h => h0 ((condFirst_iff t).mp h)) (fun h => h1 ((condLast_iff t).mp h)) (iblk9 V c 0 t) (iblk9 V c 1 t) (iblk9 V c 2 t) _ _ _ _
      iexists _; iexact H4

/-- The library's body obligation, at every row block. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first row block. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last row block the invariant gives back what the launch handed over: the accumulators' contents are forgotten. -/
theorem hout9 (c : Dev nD) : (dat9 V c).Φ (Fin.last cfg9.N) ⊢ Pipeline.ΦA spec9 c := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 8 := N_9; omega), PhiA9_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region9

end Cert.KernelIdeal.Hand

end
-- ==== Proof.KI.Reg10.lean ====
import proofs.«103934_j28484223107660_1_alg».proof.Proof.KI.RunEA
import proofs.«103934_j28484223107660_1_alg».proof.Proof.KI.RunEB
import proofs.«103934_j28484223107660_1_alg».proof.Proof.KI.RunEC
import proofs.«103934_j28484223107660_1_alg».proof.Proof.KI.PieceE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 10's kernel function is, as a program, the one the body's runs are stated for (the same text). -/
theorem kernel_eq10 : @cc10__mlgcn_layer_kernel F _ = @cc0__mlgcn_layer_kernel F _ := rfl

section Region10

/- The contents of the core's buffers when region 10 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every row block, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every row block, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every row block, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## Where the windows are idle, and where the column result is written back -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
/-- Before the last row block nothing is stored into the column result's buffer, -/
theorem idleAt10_4 : ∀ t : Fin cfg10.N, ¬condLast (grid10.coords t) → cfg10.idle 4 (grid10.coords t) = true := by decide +kernel
/-- and it is not written back there; -/
theorem noFlush10_4 : ∀ t : Fin cfg10.N, ¬condLast (grid10.coords t) → (cfg10.win 4).flush t = false := by decide +kernel
/-- at the last row block it is stored. -/
theorem liveAt10_4_C : ∀ t : Fin cfg10.N, condLast (grid10.coords t) → cfg10.idle 4 (grid10.coords t) = false := by decide +kernel

/-! ## The staging buffers and the two accumulators -/

abbrev ms10_0 (t : Fin cfg10.N) : Memref sig .tc .vmem S512x4096 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S512x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S4096x64 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S512x64 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S4096x64 .f32 := win10_4.stage (cfg10.slots t 4)
abbrev hs10_4 (t : Fin cfg10.N) : (ms10_4 t).IsWhole := hstage10_4 ((cfg10.slots t 4).cast nbuf10_4)
/-- The accumulator of the weighted sums, and the accumulator of the column degrees: whole buffers of the kernel's own. -/
abbrev scM10_0 : Memref sig .tc .vmem S4096x64 .f32 := Memref.whole cc10_scratch0
abbrev scM10_1 : Memref sig .tc .vmem S1x4096 .f32 := Memref.whole cc10_scratch1

/-- What the region is handed besides its windows: the two accumulators at some contents, the other scoped
    buffers unopened, the generator register at some state. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

/-! ## What the accumulators hold after each row block -/

/-- After row block 0: the block's contribution added to zero; after row block `n + 1`: its contribution added to
    what row block `n` left. First the weighted sums, then the column degrees. -/
def accAt10 (c : Dev nD) : (n : ℕ) → n < cfg10.N → Vec F S4096x64 .f32 × Vec F S1x4096 .f32
  | 0, hn => (k0_pay6 (iblk10 V c 0 ⟨0, hn⟩) (iblk10 V c 1 ⟨0, hn⟩) (k0_pay2 (F := F)), k0_pay7 (iblk10 V c 0 ⟨0, hn⟩) (k0_pay3 (F := F)))
  | n + 1, hn => (k0_pay6 (iblk10 V c 0 ⟨n + 1, hn⟩) (iblk10 V c 1 ⟨n + 1, hn⟩) (accAt10 c n (Nat.lt_of_succ_lt hn)).1,
      k0_pay7 (iblk10 V c 0 ⟨n + 1, hn⟩) (accAt10 c n (Nat.lt_of_succ_lt hn)).2)

theorem accAt10_zero (c : Dev nD) (t : Fin cfg10.N) (h0 : t.val = 0) :
    accAt10 V c t.val t.isLt = (k0_pay6 (iblk10 V c 0 t) (iblk10 V c 1 t) (k0_pay2 (F := F)), k0_pay7 (iblk10 V c 0 t) (k0_pay3 (F := F))) := by
  obtain ⟨n, hn⟩ := t
  cases n with
  | zero => rfl
  | succ n => exact absurd h0 (Nat.succ_ne_zero n)

theorem accAt10_pos (c : Dev nD) (t : Fin cfg10.N) (h0 : ¬t.val = 0) :
    accAt10 V c t.val t.isLt = (k0_pay6 (iblk10 V c 0 t) (iblk10 V c 1 t) (accAt10 V c (t.val - 1) (Nat.lt_of_le_of_lt (Nat.sub_le _ _) t.isLt)).1,
      k0_pay7 (iblk10 V c 0 t) (accAt10 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS10 (c : Dev nD) : (n : ℕ) → n ≤ cfg10.N → sProp 𝕄
  | 0, _ => Pipeline.ΦA spec10 c
  | n + 1, hn => iprop(iprop(iprop(owns (c : Thread nD τ) scM10_0 fullShare (accAt10 V c n hn).1 ∗ owns (c : Thread nD τ) scM10_1 fullShare (accAt10 V c n hn).2)
      ∗ Pipeline.scopedRestBut (Ix := Unit) (Name := ℕ) (U := UR sig nD τ) (Lvl := ℕ) (Val := Elt F) spec10 c [cc10_scratch0, cc10_scratch1]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(iprop(owns (c : Thread nD τ) scM10_0 fullShare (accAt10 V c n hn).1 ∗ owns (c : Thread nD τ) scM10_1 fullShare (accAt10 V c n hn).2)
      ∗ Pipeline.scopedRestBut (Ix := Unit) (Name := ℕ) (U := UR sig nD τ) (Lvl := ℕ) (Val := Elt F) spec10 c [cc10_scratch0, cc10_scratch1]) ∗ (∃ r, prngReg c r)) := rfl

theorem PhiS10_pos (c : Dev nD) (n : ℕ) (h : n ≤ cfg10.N) (hz : ¬n = 0) :
    PhiS10 V c n h = iprop(iprop(iprop(owns (c : Thread nD τ) scM10_0 fullShare (accAt10 V c (n - 1) (by omega)).1 ∗ owns (c : Thread nD τ) scM10_1 fullShare (accAt10 V c (n - 1) (by omega)).2)
      ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

/-! ## The pipeline's proof data -/

/-- Region 10's proof data on core `c`: the arrays as the region finds them; after the body at row block `t`
    each input's buffer at its block, the row result's at the block's quotients, the column result's at the
    accumulated quotients (consulted at the last row block only, where it is stored); the invariant above;
    nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => k0_pay5 (iblk10 V c 0 t) (iblk10 V c 2 t)
    | ⟨4, _⟩ => k0_pay1 (accAt10 V c t.val t.isLt).2 (accAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = k0_pay5 (iblk10 V c 0 t) (iblk10 V c 2 t) := by dsimp only [dat10]
theorem after10_4 (c : Dev nD) (t : Fin cfg10.N) : (dat10 V c).after 4 t = k0_pay1 (accAt10 V c t.val t.isLt).2 (accAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation -/

/-- What the body is called with at row block `t`, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [kernel_eq10]
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  have hN : t.val < 8 := lt_of_lt_of_eq t.isLt (show cfg10.N = 8 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  rw [show (dat10 V c).leavesExact 3 t = owns (c : Thread nD τ) (ms10_3 t) fullShare ((dat10 V c).after 3 t) from by
    unfold Dat.leavesExact; rw [liveAt10_3 t], after10_3]
  by_cases h0 : t.val = 0
  · have h1 : ¬t.val = 7 := by omega
    rw [Dat.leavesExact_idle (dat10 V c) 4 t (idleAt10_4 t (fun h => h1 ((condLast_iff t).mp h))) (noFlush10_4 t (fun h => h1 ((condLast_iff t).mp h)))]
    rw [accAt10_zero V c t h0]
    rw [PhiS10_castSucc V c t, PhiS10_zero V c _ _ h0, PhiA10_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid10.coords t) _ _ _ _ _ _ _ _ _ _ _ _ _ _ ((condFirst_iff t).mpr h0) (fun h => h1 ((condLast_iff t).mp h)) (iblk10 V c 0 t) (iblk10 V c 1 t) (iblk10 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid10.coords t) _ _ _ _ _ _ _ _ _ _ _ _ _ _ ((condFirst_iff t).mpr h0) (fun h => h1 ((condLast_iff t).mp h)) (iblk10 V c 0 t) (iblk10 V c 1 t) (iblk10 V c 2 t) _ _
          unfold owns; iexists _; isplitr
          swap; · iexact HS1
          ipureintro; exact pieceEA_s1 c (grid10.coords t) _ _ _ _ _ _ _ _ _ _ _ _ _ _ ((condFirst_iff t).mpr h0) (fun h => h1 ((condLast_iff t).mp h)) (iblk10 V c 0 t) (iblk10 V c 1 t) (iblk10 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid10.coords t) _ _ _ _ _ _ _ _ _ _ _ _ _ _ ((condFirst_iff t).mpr h0) (fun h => h1 ((condLast_iff t).mp h)) (iblk10 V c 0 t) (iblk10 V c 1 t) (iblk10 V c 2 t) _ _
    iexists _; iexact H4
  · by_cases h1 : t.val = 7
    · rw [show (dat10 V c).leavesExact 4 t = owns (c : Thread nD τ) (ms10_4 t) fullShare ((dat10 V c).after 4 t) from by
        unfold Dat.leavesExact; rw [liveAt10_4_C t ((condLast_iff t).mpr h1)], after10_4]
      rw [accAt10_pos V c t h0]
      rw [PhiS10_castSucc V c t, PhiS10_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid10.coords t) _ _ _ _ _ _ _ _ _ _ _ _ _ _ (fun h => h0 ((condFirst_iff t).mp h)) ((condLast_iff t).mpr h1) (iblk10 V c 0 t) (iblk10 V c 1 t) (iblk10 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid10.coords t) _ _ _ _ _ _ _ _ _ _ _ _ _ _ (fun h => h0 ((condFirst_iff t).mp h)) ((condLast_iff t).mpr h1) (iblk10 V c 0 t) (iblk10 V c 1 t) (iblk10 V c 2 t) _ _ _ _
            unfold owns; iexists _; isplitr
            swap; · iexact HS1
            ipureintro; exact pieceEC_s1 c (grid10.coords t) _ _ _ _ _ _ _ _ _ _ _ _ _ _ (fun h => h0 ((condFirst_iff t).mp h)) ((condLast_iff t).mpr h1) (iblk10 V c 0 t) (iblk10 V c 1 t) (iblk10 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid10.coords t) _ _ _ _ _ _ _ _ _ _ _ _ _ _ (fun h => h0 ((condFirst_iff t).mp h)) ((condLast_iff t).mpr h1) (iblk10 V c 0 t) (iblk10 V c 1 t) (iblk10 V c 2 t) _ _ _ _
      unfold owns; iexists _; isplitr
      swap; · iexact H4
      ipureintro; exact pieceEC_o5 c (grid10.coords t) _ _ _ _ _ _ _ _ _ _ _ _ _ _ (fun h => h0 ((condFirst_iff t).mp h)) ((condLast_iff t).mpr h1) (iblk10 V c 0 t) (iblk10 V c 1 t) (iblk10 V c 2 t) _ _ _ _
    · rw [Dat.leavesExact_idle (dat10 V c) 4 t (idleAt10_4 t (fun h => h1 ((condLast_iff t).mp h))) (noFlush10_4 t (fun h => h1 ((condLast_iff t).mp h)))]
      rw [accAt10_pos V c t h0]
      rw [PhiS10_castSucc V c t, PhiS10_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid10.coords t) _ _ _ _ _ _ _ _ _ _ _ _ _ _ (fun h => h0 ((condFirst_iff t).mp h)) (fun h => h1 ((condLast_iff t).mp h)) (iblk10 V c 0 t) (iblk10 V c 1 t) (iblk10 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid10.coords t) _ _ _ _ _ _ _ _ _ _ _ _ _ _ (fun h => h0 ((condFirst_iff t).mp h)) (fun h => h1 ((condLast_iff t).mp h)) (iblk10 V c 0 t) (iblk10 V c 1 t) (iblk10 V c 2 t) _ _ _ _
            unfold owns; iexists _; isplitr
            swap; · iexact HS1
            ipureintro; exact pieceEB_s1 c (grid10.coords t) _ _ _ _ _ _ _ _ _ _ _ _ _ _ (fun h => h0 ((condFirst_iff t).mp h)) (fun h => h1 ((condLast_iff t).mp h)) (iblk10 V c 0 t) (iblk10 V c 1 t) (iblk10 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid10.coords t) _ _ _ _ _ _ _ _ _ _ _ _ _ _ (fun h => h0 ((condFirst_iff t).mp h)) (fun h => h1 ((condLast_iff t).mp h)) (iblk10 V c 0 t) (iblk10 V c 1 t) (iblk10 V c 2 t) _ _ _ _
      iexists _; iexact H4

/-- The library's body obligation, at every row block. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first row block. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After the last row block the invariant gives back what the launch handed over: the accumulators' contents are forgotten. -/
theorem hout10 (c : Dev nD) : (dat10 V c).Φ (Fin.last cfg10.N) ⊢ Pipeline.ΦA spec10 c := by
  rw [show (dat10 V c).Φ (Fin.last cfg10.N) = PhiS10 V c (Fin.last cfg10.N).val (Nat.le_of_lt_succ (Fin.last cfg10.N).isLt) from rfl,
    PhiS10_pos V c _ _ (by rw [Fin.val_last]; have : cfg10.N = 8 := N_10; omega), PhiA10_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region10

end Cert.KernelIdeal.Hand

end
-- ==== Proof.KI.Reg11.lean ====
import proofs.«103934_j28484223107660_1_alg».proof.Proof.KI.RunOA
import proofs.«103934_j28484223107660_1_alg».proof.Proof.KI.RunOB
import proofs.«103934_j28484223107660_1_alg».proof.Proof.KI.RunOC
import proofs.«103934_j28484223107660_1_alg».proof.Proof.KI.PieceO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 11's kernel function is, as a program, the one the body's runs are stated for (the same text). -/
theorem kernel_eq11 : @cc11__mlgcn_layer_kernel F _ = @cc1__mlgcn_layer_kernel F _ := rfl

section Region11

/- The contents of the core's buffers when region 11 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every row block, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every row block, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every row block, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## Where the windows are idle, and where the column result is written back -/

theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
theorem liveAt11_3 : ∀ t : Fin cfg11.N, cfg11.idle 3 (grid11.coords t) = false := by decide +kernel
/-- Before the last row block nothing is stored into the column result's buffer, -/
theorem idleAt11_4 : ∀ t : Fin cfg11.N, ¬condLast (grid11.coords t) → cfg11.idle 4 (grid11.coords t) = true := by decide +kernel
/-- and it is not written back there; -/
theorem noFlush11_4 : ∀ t : Fin cfg11.N, ¬condLast (grid11.coords t) → (cfg11.win 4).flush t = false := by decide +kernel
/-- at the last row block it is stored. -/
theorem liveAt11_4_C : ∀ t : Fin cfg11.N, condLast (grid11.coords t) → cfg11.idle 4 (grid11.coords t) = false := by decide +kernel

/-! ## The staging buffers and the two accumulators -/

abbrev ms11_0 (t : Fin cfg11.N) : Memref sig .tc .vmem S512x4096 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S512x64 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S4096x64 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S512x64 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S4096x64 .f32 := win11_4.stage (cfg11.slots t 4)
abbrev hs11_4 (t : Fin cfg11.N) : (ms11_4 t).IsWhole := hstage11_4 ((cfg11.slots t 4).cast nbuf11_4)
/-- The accumulator of the weighted sums, and the accumulator of the column degrees: whole buffers of the kernel's own. -/
abbrev scM11_0 : Memref sig .tc .vmem S4096x64 .f32 := Memref.whole cc11_scratch0
abbrev scM11_1 : Memref sig .tc .vmem S1x4096 .f32 := Memref.whole cc11_scratch1

/-- What the region is handed besides its windows: the two accumulators at some contents, the other scoped
    buffers unopened, the generator register at some state. -/
theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1]) ∗ (∃ r, prngReg c r)) := by
  unfold Pipeline.ΦA; rw [scopedRest11_split]; simp only [scM11_0, scM11_1, owns_whole]; try rfl

/-! ## What the accumulators hold after each row block -/

/-- After row block 0: the block's contribution added to zero; after row block `n + 1`: its contribution added to
    what row block `n` left. First the weighted sums, then the column degrees. -/
def accAt11 (c : Dev nD) : (n : ℕ) → n < cfg11.N → Vec F S4096x64 .f32 × Vec F S1x4096 .f32
  | 0, hn => (k1_pay6 (iblk11 V c 0 ⟨0, hn⟩) (iblk11 V c 1 ⟨0, hn⟩) (k1_pay2 (F := F)), k1_pay7 (iblk11 V c 0 ⟨0, hn⟩) (k1_pay3 (F := F)))
  | n + 1, hn => (k1_pay6 (iblk11 V c 0 ⟨n + 1, hn⟩) (iblk11 V c 1 ⟨n + 1, hn⟩) (accAt11 c n (Nat.lt_of_succ_lt hn)).1,
      k1_pay7 (iblk11 V c 0 ⟨n + 1, hn⟩) (accAt11 c n (Nat.lt_of_succ_lt hn)).2)

theorem accAt11_zero (c : Dev nD) (t : Fin cfg11.N) (h0 : t.val = 0) :
    accAt11 V c t.val t.isLt = (k1_pay6 (iblk11 V c 0 t) (iblk11 V c 1 t) (k1_pay2 (F := F)), k1_pay7 (iblk11 V c 0 t) (k1_pay3 (F := F))) := by
  obtain ⟨n, hn⟩ := t
  cases n with
  | zero => rfl
  | succ n => exact absurd h0 (Nat.succ_ne_zero n)

theorem accAt11_pos (c : Dev nD) (t : Fin cfg11.N) (h0 : ¬t.val = 0) :
    accAt11 V c t.val t.isLt = (k1_pay6 (iblk11 V c 0 t) (iblk11 V c 1 t) (accAt11 V c (t.val - 1) (Nat.lt_of_le_of_lt (Nat.sub_le _ _) t.isLt)).1,
      k1_pay7 (iblk11 V c 0 t) (accAt11 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS11 (c : Dev nD) : (n : ℕ) → n ≤ cfg11.N → sProp 𝕄
  | 0, _ => Pipeline.ΦA spec11 c
  | n + 1, hn => iprop(iprop(iprop(owns (c : Thread nD τ) scM11_0 fullShare (accAt11 V c n hn).1 ∗ owns (c : Thread nD τ) scM11_1 fullShare (accAt11 V c n hn).2)
      ∗ Pipeline.scopedRestBut (Ix := Unit) (Name := ℕ) (U := UR sig nD τ) (Lvl := ℕ) (Val := Elt F) spec11 c [cc11_scratch0, cc11_scratch1]) ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(iprop(owns (c : Thread nD τ) scM11_0 fullShare (accAt11 V c n hn).1 ∗ owns (c : Thread nD τ) scM11_1 fullShare (accAt11 V c n hn).2)
      ∗ Pipeline.scopedRestBut (Ix := Unit) (Name := ℕ) (U := UR sig nD τ) (Lvl := ℕ) (Val := Elt F) spec11 c [cc11_scratch0, cc11_scratch1]) ∗ (∃ r, prngReg c r)) := rfl

theorem PhiS11_pos (c : Dev nD) (n : ℕ) (h : n ≤ cfg11.N) (hz : ¬n = 0) :
    PhiS11 V c n h = iprop(iprop(iprop(owns (c : Thread nD τ) scM11_0 fullShare (accAt11 V c (n - 1) (by omega)).1 ∗ owns (c : Thread nD τ) scM11_1 fullShare (accAt11 V c (n - 1) (by omega)).2)
      ∗ Pipeline.scopedRestBut (Ix := Unit) (Name := ℕ) (U := UR sig nD τ) (Lvl := ℕ) (Val := Elt F) spec11 c [cc11_scratch0, cc11_scratch1]) ∗ (∃ r, prngReg c r)) := by
  cases n with
  | zero => exact absurd rfl hz
  | succ n => rfl

/-! ## The pipeline's proof data -/

/-- Region 11's proof data on core `c`: the arrays as the region finds them; after the body at row block `t`
    each input's buffer at its block, the row result's at the block's quotients, the column result's at the
    accumulated quotients (consulted at the last row block only, where it is stored); the invariant above;
    nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => k1_pay5 (iblk11 V c 0 t) (iblk11 V c 2 t)
    | ⟨4, _⟩ => k1_pay1 (accAt11 V c t.val t.isLt).2 (accAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = k1_pay5 (iblk11 V c 0 t) (iblk11 V c 2 t) := by dsimp only [dat11]
theorem after11_4 (c : Dev nD) (t : Fin cfg11.N) : (dat11 V c).after 4 t = k1_pay1 (accAt11 V c t.val t.isLt).2 (accAt11 V c t.val t.isLt).1 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation -/

/-- What the body is called with at row block `t`, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [kernel_eq11]
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  have hN : t.val < 8 := lt_of_lt_of_eq t.isLt (show cfg11.N = 8 from N_11)
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  rw [show (dat11 V c).leavesExact 3 t = owns (c : Thread nD τ) (ms11_3 t) fullShare ((dat11 V c).after 3 t) from by
    unfold Dat.leavesExact; rw [liveAt11_3 t], after11_3]
  by_cases h0 : t.val = 0
  · have h1 : ¬t.val = 7 := by omega
    rw [Dat.leavesExact_idle (dat11 V c) 4 t (idleAt11_4 t (fun h => h1 ((condLast_iff t).mp h))) (noFlush11_4 t (fun h => h1 ((condLast_iff t).mp h)))]
    rw [accAt11_zero V c t h0]
    rw [PhiS11_castSucc V c t, PhiS11_zero V c _ _ h0, PhiA11_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid11.coords t) _ _ _ _ _ _ _ _ _ _ _ _ _ _ ((condFirst_iff t).mpr h0) (fun h => h1 ((condLast_iff t).mp h)) (iblk11 V c 0 t) (iblk11 V c 1 t) (iblk11 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid11.coords t) _ _ _ _ _ _ _ _ _ _ _ _ _ _ ((condFirst_iff t).mpr h0) (fun h => h1 ((condLast_iff t).mp h)) (iblk11 V c 0 t) (iblk11 V c 1 t) (iblk11 V c 2 t) _ _
          unfold owns; iexists _; isplitr
          swap; · iexact HS1
          ipureintro; exact pieceOA_s1 c (grid11.coords t) _ _ _ _ _ _ _ _ _ _ _ _ _ _ ((condFirst_iff t).mpr h0) (fun h => h1 ((condLast_iff t).mp h)) (iblk11 V c 0 t) (iblk11 V c 1 t) (iblk11 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid11.coords t) _ _ _ _ _ _ _ _ _ _ _ _ _ _ ((condFirst_iff t).mpr h0) (fun h => h1 ((condLast_iff t).mp h)) (iblk11 V c 0 t) (iblk11 V c 1 t) (iblk11 V c 2 t) _ _
    iexists _; iexact H4
  · by_cases h1 : t.val = 7
    · rw [show (dat11 V c).leavesExact 4 t = owns (c : Thread nD τ) (ms11_4 t) fullShare ((dat11 V c).after 4 t) from by
        unfold Dat.leavesExact; rw [liveAt11_4_C t ((condLast_iff t).mpr h1)], after11_4]
      rw [accAt11_pos V c t h0]
      rw [PhiS11_castSucc V c t, PhiS11_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid11.coords t) _ _ _ _ _ _ _ _ _ _ _ _ _ _ (fun h => h0 ((condFirst_iff t).mp h)) ((condLast_iff t).mpr h1) (iblk11 V c 0 t) (iblk11 V c 1 t) (iblk11 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid11.coords t) _ _ _ _ _ _ _ _ _ _ _ _ _ _ (fun h => h0 ((condFirst_iff t).mp h)) ((condLast_iff t).mpr h1) (iblk11 V c 0 t) (iblk11 V c 1 t) (iblk11 V c 2 t) _ _ _ _
            unfold owns; iexists _; isplitr
            swap; · iexact HS1
            ipureintro; exact pieceOC_s1 c (grid11.coords t) _ _ _ _ _ _ _ _ _ _ _ _ _ _ (fun h => h0 ((condFirst_iff t).mp h)) ((condLast_iff t).mpr h1) (iblk11 V c 0 t) (iblk11 V c 1 t) (iblk11 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid11.coords t) _ _ _ _ _ _ _ _ _ _ _ _ _ _ (fun h => h0 ((condFirst_iff t).mp h)) ((condLast_iff t).mpr h1) (iblk11 V c 0 t) (iblk11 V c 1 t) (iblk11 V c 2 t) _ _ _ _
      unfold owns; iexists _; isplitr
      swap; · iexact H4
      ipureintro; exact pieceOC_o5 c (grid11.coords t) _ _ _ _ _ _ _ _ _ _ _ _ _ _ (fun h => h0 ((condFirst_iff t).mp h)) ((condLast_iff t).mpr h1) (iblk11 V c 0 t) (iblk11 V c 1 t) (iblk11 V c 2 t) _ _ _ _
    · rw [Dat.leavesExact_idle (dat11 V c) 4 t (idleAt11_4 t (fun h => h1 ((condLast_iff t).mp h))) (noFlush11_4 t (fun h => h1 ((condLast_iff t).mp h)))]
      rw [accAt11_pos V c t h0]
      rw [PhiS11_castSucc V c t, PhiS11_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid11.coords t) _ _ _ _ _ _ _ _ _ _ _ _ _ _ (fun h => h0 ((condFirst_iff t).mp h)) (fun h => h1 ((condLast_iff t).mp h)) (iblk11 V c 0 t) (iblk11 V c 1 t) (iblk11 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid11.coords t) _ _ _ _ _ _ _ _ _ _ _ _ _ _ (fun h => h0 ((condFirst_iff t).mp h)) (fun h => h1 ((condLast_iff t).mp h)) (iblk11 V c 0 t) (iblk11 V c 1 t) (iblk11 V c 2 t) _ _ _ _
            unfold owns; iexists _; isplitr
            swap; · iexact HS1
            ipureintro; exact pieceOB_s1 c (grid11.coords t) _ _ _ _ _ _ _ _ _ _ _ _ _ _ (fun h => h0 ((condFirst_iff t).mp h)) (fun h => h1 ((condLast_iff t).mp h)) (iblk11 V c 0 t) (iblk11 V c 1 t) (iblk11 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid11.coords t) _ _ _ _ _ _ _ _ _ _ _ _ _ _ (fun h => h0 ((condFirst_iff t).mp h)) (fun h => h1 ((condLast_iff t).mp h)) (iblk11 V c 0 t) (iblk11 V c 1 t) (iblk11 V c 2 t) _ _ _ _
      iexists _; iexact H4

/-- The library's body obligation, at every row block. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first row block. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last row block the invariant gives back what the launch handed over: the accumulators' contents are forgotten. -/
theorem hout11 (c : Dev nD) : (dat11 V c).Φ (Fin.last cfg11.N) ⊢ Pipeline.ΦA spec11 c := by
  rw [show (dat11 V c).Φ (Fin.last cfg11.N) = PhiS11 V c (Fin.last cfg11.N).val (Nat.le_of_lt_succ (Fin.last cfg11.N).isLt) from rfl,
    PhiS11_pos V c _ _ (by rw [Fin.val_last]; have : cfg11.N = 8 := N_11; omega), PhiA11_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region11

end Cert.KernelIdeal.Hand

end
-- ==== Proof.KI.Reg12.lean ====
import proofs.«103934_j28484223107660_1_alg».proof.Proof.KI.RunEA
import proofs.«103934_j28484223107660_1_alg».proof.Proof.KI.RunEB
import proofs.«103934_j28484223107660_1_alg».proof.Proof.KI.RunEC
import proofs.«103934_j28484223107660_1_alg».proof.Proof.KI.PieceE

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 12's kernel function is, as a program, the one the body's runs are stated for (the same text). -/
theorem kernel_eq12 : @cc12__mlgcn_layer_kernel F _ = @cc0__mlgcn_layer_kernel F _ := rfl

section Region12

/- The contents of the core's buffers when region 12 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every row block, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every row block, fetched there or not. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every row block, fetched there or not. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## Where the windows are idle, and where the column result is written back -/

theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel
theorem liveAt12_3 : ∀ t : Fin cfg12.N, cfg12.idle 3 (grid12.coords t) = false := by decide +kernel
/-- Before the last row block nothing is stored into the column result's buffer, -/
theorem idleAt12_4 : ∀ t : Fin cfg12.N, ¬condLast (grid12.coords t) → cfg12.idle 4 (grid12.coords t) = true := by decide +kernel
/-- and it is not written back there; -/
theorem noFlush12_4 : ∀ t : Fin cfg12.N, ¬condLast (grid12.coords t) → (cfg12.win 4).flush t = false := by decide +kernel
/-- at the last row block it is stored. -/
theorem liveAt12_4_C : ∀ t : Fin cfg12.N, condLast (grid12.coords t) → cfg12.idle 4 (grid12.coords t) = false := by decide +kernel

/-! ## The staging buffers and the two accumulators -/

abbrev ms12_0 (t : Fin cfg12.N) : Memref sig .tc .vmem S512x4096 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S512x64 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S4096x64 .f32 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S512x64 .f32 := win12_3.stage (cfg12.slots t 3)
abbrev hs12_3 (t : Fin cfg12.N) : (ms12_3 t).IsWhole := hstage12_3 ((cfg12.slots t 3).cast nbuf12_3)
abbrev ms12_4 (t : Fin cfg12.N) : Memref sig .tc .vmem S4096x64 .f32 := win12_4.stage (cfg12.slots t 4)
abbrev hs12_4 (t : Fin cfg12.N) : (ms12_4 t).IsWhole := hstage12_4 ((cfg12.slots t 4).cast nbuf12_4)
/-- The accumulator of the weighted sums, and the accumulator of the column degrees: whole buffers of the kernel's own. -/
abbrev scM12_0 : Memref sig .tc .vmem S4096x64 .f32 := Memref.whole cc12_scratch0
abbrev scM12_1 : Memref sig .tc .vmem S1x4096 .f32 := Memref.whole cc12_scratch1

/-- What the region is handed besides its windows: the two accumulators at some contents, the other scoped
    buffers unopened, the generator register at some state. -/
theorem PhiA12_eq (c : Dev nD) :
    (Pipeline.ΦA spec12 c : sProp 𝕄)
      = iprop(iprop(iprop((∃ d, owns (c : Thread nD τ) scM12_0 fullShare d) ∗ (∃ d, owns (c : Thread nD τ) scM12_1 fullShare d))
          ∗ Pipeline.scopedRestBut (Ix := Unit) (Name := ℕ) (U := UR sig nD τ) (Lvl := ℕ) (Val := Elt F) spec12 c [cc12_scratch0, cc12_scratch1]) ∗ (∃ r, prngReg c r)) := by
  unfold Pipeline.ΦA; rw [scopedRest12_split]; simp only [scM12_0, scM12_1, owns_whole]; try rfl

/-! ## What the accumulators hold after each row block -/

/-- After row block 0: the block's contribution added to zero; after row block `n + 1`: its contribution added to
    what row block `n` left. First the weighted sums, then the column degrees. -/
def accAt12 (c : Dev nD) : (n : ℕ) → n < cfg12.N → Vec F S4096x64 .f32 × Vec F S1x4096 .f32
  | 0, hn => (k0_pay6 (iblk12 V c 0 ⟨0, hn⟩) (iblk12 V c 1 ⟨0, hn⟩) (k0_pay2 (F := F)), k0_pay7 (iblk12 V c 0 ⟨0, hn⟩) (k0_pay3 (F := F)))
  | n + 1, hn => (k0_pay6 (iblk12 V c 0 ⟨n + 1, hn⟩) (iblk12 V c 1 ⟨n + 1, hn⟩) (accAt12 c n (Nat.lt_of_succ_lt hn)).1,
      k0_pay7 (iblk12 V c 0 ⟨n + 1, hn⟩) (accAt12 c n (Nat.lt_of_succ_lt hn)).2)

theorem accAt12_zero (c : Dev nD) (t : Fin cfg12.N) (h0 : t.val = 0) :
    accAt12 V c t.val t.isLt = (k0_pay6 (iblk12 V c 0 t) (iblk12 V c 1 t) (k0_pay2 (F := F)), k0_pay7 (iblk12 V c 0 t) (k0_pay3 (F := F))) := by
  obtain ⟨n, hn⟩ := t
  cases n with
  | zero => rfl
  | succ n => exact absurd h0 (Nat.succ_ne_zero n)

theorem accAt12_pos (c : Dev nD) (t : Fin cfg12.N) (h0 : ¬t.val = 0) :
    accAt12 V c t.val t.isLt = (k0_pay6 (iblk12 V c 0 t) (iblk12 V c 1 t) (accAt12 V c (t.val - 1) (Nat.lt_of_le_of_lt (Nat.sub_le _ _) t.isLt)).1,
      k0_pay7 (iblk12 V c 0 t) (accAt12 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS12 (c : Dev nD) : (n : ℕ) → n ≤ cfg12.N → sProp 𝕄
  | 0, _ => Pipeline.ΦA spec12 c
  | n + 1, hn => iprop(iprop(iprop(owns (c : Thread nD τ) scM12_0 fullShare (accAt12 V c n hn).1 ∗ owns (c : Thread nD τ) scM12_1 fullShare (accAt12 V c n hn).2)
      ∗ Pipeline.scopedRestBut (Ix := Unit) (Name := ℕ) (U := UR sig nD τ) (Lvl := ℕ) (Val := Elt F) spec12 c [cc12_scratch0, cc12_scratch1]) ∗ (∃ r, prngReg c r))

theorem PhiS12_zero (c : Dev nD) (n : ℕ) (h : n ≤ cfg12.N) (hz : n = 0) : PhiS12 V c n h = Pipeline.ΦA spec12 c := by
  subst hz; rfl

theorem PhiS12_succ (c : Dev nD) (n : ℕ) (hn : n < cfg12.N) :
    PhiS12 V c (n + 1) hn = iprop(iprop(iprop(owns (c : Thread nD τ) scM12_0 fullShare (accAt12 V c n hn).1 ∗ owns (c : Thread nD τ) scM12_1 fullShare (accAt12 V c n hn).2)
      ∗ Pipeline.scopedRestBut (Ix := Unit) (Name := ℕ) (U := UR sig nD τ) (Lvl := ℕ) (Val := Elt F) spec12 c [cc12_scratch0, cc12_scratch1]) ∗ (∃ r, prngReg c r)) := rfl

theorem PhiS12_pos (c : Dev nD) (n : ℕ) (h : n ≤ cfg12.N) (hz : ¬n = 0) :
    PhiS12 V c n h = iprop(iprop(iprop(owns (c : Thread nD τ) scM12_0 fullShare (accAt12 V c (n - 1) (by omega)).1 ∗ owns (c : Thread nD τ) scM12_1 fullShare (accAt12 V c (n - 1) (by omega)).2)
      ∗ Pipeline.scopedRestBut (Ix := Unit) (Name := ℕ) (U := UR sig nD τ) (Lvl := ℕ) (Val := Elt F) spec12 c [cc12_scratch0, cc12_scratch1]) ∗ (∃ r, prngReg c r)) := by
  cases n with
  | zero => exact absurd rfl hz
  | succ n => rfl

/-! ## The pipeline's proof data -/

/-- Region 12's proof data on core `c`: the arrays as the region finds them; after the body at row block `t`
    each input's buffer at its block, the row result's at the block's quotients, the column result's at the
    accumulated quotients (consulted at the last row block only, where it is stored); the invariant above;
    nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => k0_pay5 (iblk12 V c 0 t) (iblk12 V c 2 t)
    | ⟨4, _⟩ => k0_pay1 (accAt12 V c t.val t.isLt).2 (accAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem PhiS12_castSucc (c : Dev nD) (t : Fin cfg12.N) :
    (dat12 V c).Φ t.castSucc = PhiS12 V c t.val (Nat.le_of_lt t.isLt) := by
  dsimp only [dat12]; simp only [Fin.coe_castSucc]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = k0_pay5 (iblk12 V c 0 t) (iblk12 V c 2 t) := by dsimp only [dat12]
theorem after12_4 (c : Dev nD) (t : Fin cfg12.N) : (dat12 V c).after 4 t = k0_pay1 (accAt12 V c t.val t.isLt).2 (accAt12 V c t.val t.isLt).1 := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation -/

/-- What the body is called with at row block `t`, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d))
    ∗ (∃ d, owns (c : Thread nD τ) (ms12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t
    ∗ (dat12 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  rw [kernel_eq12]
  simp only [before12_0, before12_1, before12_2]
  rw [show (dat12 V c).owesAt () t.succ = (dat12 V c).owesAt () t.castSucc from rfl]
  rw [show (dat12 V c).Φ t.succ = PhiS12 V c (t.val + 1) t.isLt from rfl, PhiS12_succ]
  have hN : t.val < 8 := lt_of_lt_of_eq t.isLt (show cfg12.N = 8 from N_12)
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  rw [show (dat12 V c).leavesExact 2 t = owns (c : Thread nD τ) (ms12_2 t) fullShare ((dat12 V c).after 2 t) from by
    unfold Dat.leavesExact; rw [liveAt12_2 t], after12_2]
  rw [show (dat12 V c).leavesExact 3 t = owns (c : Thread nD τ) (ms12_3 t) fullShare ((dat12 V c).after 3 t) from by
    unfold Dat.leavesExact; rw [liveAt12_3 t], after12_3]
  by_cases h0 : t.val = 0
  · have h1 : ¬t.val = 7 := by omega
    rw [Dat.leavesExact_idle (dat12 V c) 4 t (idleAt12_4 t (fun h => h1 ((condLast_iff t).mp h))) (noFlush12_4 t (fun h => h1 ((condLast_iff t).mp h)))]
    rw [accAt12_zero V c t h0]
    rw [PhiS12_castSucc V c t, PhiS12_zero V c _ _ h0, PhiA12_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid12.coords t) _ _ _ _ _ _ _ _ _ _ _ _ _ _ ((condFirst_iff t).mpr h0) (fun h => h1 ((condLast_iff t).mp h)) (iblk12 V c 0 t) (iblk12 V c 1 t) (iblk12 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid12.coords t) _ _ _ _ _ _ _ _ _ _ _ _ _ _ ((condFirst_iff t).mpr h0) (fun h => h1 ((condLast_iff t).mp h)) (iblk12 V c 0 t) (iblk12 V c 1 t) (iblk12 V c 2 t) _ _
          unfold owns; iexists _; isplitr
          swap; · iexact HS1
          ipureintro; exact pieceEA_s1 c (grid12.coords t) _ _ _ _ _ _ _ _ _ _ _ _ _ _ ((condFirst_iff t).mpr h0) (fun h => h1 ((condLast_iff t).mp h)) (iblk12 V c 0 t) (iblk12 V c 1 t) (iblk12 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid12.coords t) _ _ _ _ _ _ _ _ _ _ _ _ _ _ ((condFirst_iff t).mpr h0) (fun h => h1 ((condLast_iff t).mp h)) (iblk12 V c 0 t) (iblk12 V c 1 t) (iblk12 V c 2 t) _ _
    iexists _; iexact H4
  · by_cases h1 : t.val = 7
    · rw [show (dat12 V c).leavesExact 4 t = owns (c : Thread nD τ) (ms12_4 t) fullShare ((dat12 V c).after 4 t) from by
        unfold Dat.leavesExact; rw [liveAt12_4_C t ((condLast_iff t).mpr h1)], after12_4]
      rw [accAt12_pos V c t h0]
      rw [PhiS12_castSucc V c t, PhiS12_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid12.coords t) _ _ _ _ _ _ _ _ _ _ _ _ _ _ (fun h => h0 ((condFirst_iff t).mp h)) ((condLast_iff t).mpr h1) (iblk12 V c 0 t) (iblk12 V c 1 t) (iblk12 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid12.coords t) _ _ _ _ _ _ _ _ _ _ _ _ _ _ (fun h => h0 ((condFirst_iff t).mp h)) ((condLast_iff t).mpr h1) (iblk12 V c 0 t) (iblk12 V c 1 t) (iblk12 V c 2 t) _ _ _ _
            unfold owns; iexists _; isplitr
            swap; · iexact HS1
            ipureintro; exact pieceEC_s1 c (grid12.coords t) _ _ _ _ _ _ _ _ _ _ _ _ _ _ (fun h => h0 ((condFirst_iff t).mp h)) ((condLast_iff t).mpr h1) (iblk12 V c 0 t) (iblk12 V c 1 t) (iblk12 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid12.coords t) _ _ _ _ _ _ _ _ _ _ _ _ _ _ (fun h => h0 ((condFirst_iff t).mp h)) ((condLast_iff t).mpr h1) (iblk12 V c 0 t) (iblk12 V c 1 t) (iblk12 V c 2 t) _ _ _ _
      unfold owns; iexists _; isplitr
      swap; · iexact H4
      ipureintro; exact pieceEC_o5 c (grid12.coords t) _ _ _ _ _ _ _ _ _ _ _ _ _ _ (fun h => h0 ((condFirst_iff t).mp h)) ((condLast_iff t).mpr h1) (iblk12 V c 0 t) (iblk12 V c 1 t) (iblk12 V c 2 t) _ _ _ _
    · rw [Dat.leavesExact_idle (dat12 V c) 4 t (idleAt12_4 t (fun h => h1 ((condLast_iff t).mp h))) (noFlush12_4 t (fun h => h1 ((condLast_iff t).mp h)))]
      rw [accAt12_pos V c t h0]
      rw [PhiS12_castSucc V c t, PhiS12_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid12.coords t) _ _ _ _ _ _ _ _ _ _ _ _ _ _ (fun h => h0 ((condFirst_iff t).mp h)) (fun h => h1 ((condLast_iff t).mp h)) (iblk12 V c 0 t) (iblk12 V c 1 t) (iblk12 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid12.coords t) _ _ _ _ _ _ _ _ _ _ _ _ _ _ (fun h => h0 ((condFirst_iff t).mp h)) (fun h => h1 ((condLast_iff t).mp h)) (iblk12 V c 0 t) (iblk12 V c 1 t) (iblk12 V c 2 t) _ _ _ _
            unfold owns; iexists _; isplitr
            swap; · iexact HS1
            ipureintro; exact pieceEB_s1 c (grid12.coords t) _ _ _ _ _ _ _ _ _ _ _ _ _ _ (fun h => h0 ((condFirst_iff t).mp h)) (fun h => h1 ((condLast_iff t).mp h)) (iblk12 V c 0 t) (iblk12 V c 1 t) (iblk12 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid12.coords t) _ _ _ _ _ _ _ _ _ _ _ _ _ _ (fun h => h0 ((condFirst_iff t).mp h)) (fun h => h1 ((condLast_iff t).mp h)) (iblk12 V c 0 t) (iblk12 V c 1 t) (iblk12 V c 2 t) _ _ _ _
      iexists _; iexact H4

/-- The library's body obligation, at every row block. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first row block. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After the last row block the invariant gives back what the launch handed over: the accumulators' contents are forgotten. -/
theorem hout12 (c : Dev nD) : (dat12 V c).Φ (Fin.last cfg12.N) ⊢ Pipeline.ΦA spec12 c := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 8 := N_12; omega), PhiA12_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region12

end Cert.KernelIdeal.Hand

end
-- ==== Proof.KI.Reg13.lean ====
import proofs.«103934_j28484223107660_1_alg».proof.Proof.KI.RunOA
import proofs.«103934_j28484223107660_1_alg».proof.Proof.KI.RunOB
import proofs.«103934_j28484223107660_1_alg».proof.Proof.KI.RunOC
import proofs.«103934_j28484223107660_1_alg».proof.Proof.KI.PieceO

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 13's kernel function is, as a program, the one the body's runs are stated for (the same text). -/
theorem kernel_eq13 : @cc13__mlgcn_layer_kernel F _ = @cc1__mlgcn_layer_kernel F _ := rfl

section Region13

/- The contents of the core's buffers when region 13 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every row block, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every row block, fetched there or not. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every row block, fetched there or not. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## Where the windows are idle, and where the column result is written back -/

theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
theorem liveAt13_3 : ∀ t : Fin cfg13.N, cfg13.idle 3 (grid13.coords t) = false := by decide +kernel
/-- Before the last row block nothing is stored into the column result's buffer, -/
theorem idleAt13_4 : ∀ t : Fin cfg13.N, ¬condLast (grid13.coords t) → cfg13.idle 4 (grid13.coords t) = true := by decide +kernel
/-- and it is not written back there; -/
theorem noFlush13_4 : ∀ t : Fin cfg13.N, ¬condLast (grid13.coords t) → (cfg13.win 4).flush t = false := by decide +kernel
/-- at the last row block it is stored. -/
theorem liveAt13_4_C : ∀ t : Fin cfg13.N, condLast (grid13.coords t) → cfg13.idle 4 (grid13.coords t) = false := by decide +kernel

/-! ## The staging buffers and the two accumulators -/

abbrev ms13_0 (t : Fin cfg13.N) : Memref sig .tc .vmem S512x4096 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S512x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S4096x64 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S512x64 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S4096x64 .f32 := win13_4.stage (cfg13.slots t 4)
abbrev hs13_4 (t : Fin cfg13.N) : (ms13_4 t).IsWhole := hstage13_4 ((cfg13.slots t 4).cast nbuf13_4)
/-- The accumulator of the weighted sums, and the accumulator of the column degrees: whole buffers of the kernel's own. -/
abbrev scM13_0 : Memref sig .tc .vmem S4096x64 .f32 := Memref.whole cc13_scratch0
abbrev scM13_1 : Memref sig .tc .vmem S1x4096 .f32 := Memref.whole cc13_scratch1

/-- What the region is handed besides its windows: the two accumulators at some contents, the other scoped
    buffers unopened, the generator register at some state. -/
theorem PhiA13_eq (c : Dev nD) :
    (Pipeline.ΦA spec13 c : sProp 𝕄)
      = iprop(iprop(iprop((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1]) ∗ (∃ r, prngReg c r)) := by
  unfold Pipeline.ΦA; rw [scopedRest13_split]; simp only [scM13_0, scM13_1, owns_whole]; try rfl

/-! ## What the accumulators hold after each row block -/

/-- After row block 0: the block's contribution added to zero; after row block `n + 1`: its contribution added to
    what row block `n` left. First the weighted sums, then the column degrees. -/
def accAt13 (c : Dev nD) : (n : ℕ) → n < cfg13.N → Vec F S4096x64 .f32 × Vec F S1x4096 .f32
  | 0, hn => (k1_pay6 (iblk13 V c 0 ⟨0, hn⟩) (iblk13 V c 1 ⟨0, hn⟩) (k1_pay2 (F := F)), k1_pay7 (iblk13 V c 0 ⟨0, hn⟩) (k1_pay3 (F := F)))
  | n + 1, hn => (k1_pay6 (iblk13 V c 0 ⟨n + 1, hn⟩) (iblk13 V c 1 ⟨n + 1, hn⟩) (accAt13 c n (Nat.lt_of_succ_lt hn)).1,
      k1_pay7 (iblk13 V c 0 ⟨n + 1, hn⟩) (accAt13 c n (Nat.lt_of_succ_lt hn)).2)

theorem accAt13_zero (c : Dev nD) (t : Fin cfg13.N) (h0 : t.val = 0) :
    accAt13 V c t.val t.isLt = (k1_pay6 (iblk13 V c 0 t) (iblk13 V c 1 t) (k1_pay2 (F := F)), k1_pay7 (iblk13 V c 0 t) (k1_pay3 (F := F))) := by
  obtain ⟨n, hn⟩ := t
  cases n with
  | zero => rfl
  | succ n => exact absurd h0 (Nat.succ_ne_zero n)

theorem accAt13_pos (c : Dev nD) (t : Fin cfg13.N) (h0 : ¬t.val = 0) :
    accAt13 V c t.val t.isLt = (k1_pay6 (iblk13 V c 0 t) (iblk13 V c 1 t) (accAt13 V c (t.val - 1) (Nat.lt_of_le_of_lt (Nat.sub_le _ _) t.isLt)).1,
      k1_pay7 (iblk13 V c 0 t) (accAt13 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS13 (c : Dev nD) : (n : ℕ) → n ≤ cfg13.N → sProp 𝕄
  | 0, _ => Pipeline.ΦA spec13 c
  | n + 1, hn => iprop(iprop(iprop(owns (c : Thread nD τ) scM13_0 fullShare (accAt13 V c n hn).1 ∗ owns (c : Thread nD τ) scM13_1 fullShare (accAt13 V c n hn).2)
      ∗ Pipeline.scopedRestBut (Ix := Unit) (Name := ℕ) (U := UR sig nD τ) (Lvl := ℕ) (Val := Elt F) spec13 c [cc13_scratch0, cc13_scratch1]) ∗ (∃ r, prngReg c r))

theorem PhiS13_zero (c : Dev nD) (n : ℕ) (h : n ≤ cfg13.N) (hz : n = 0) : PhiS13 V c n h = Pipeline.ΦA spec13 c := by
  subst hz; rfl

theorem PhiS13_succ (c : Dev nD) (n : ℕ) (hn : n < cfg13.N) :
    PhiS13 V c (n + 1) hn = iprop(iprop(iprop(owns (c : Thread nD τ) scM13_0 fullShare (accAt13 V c n hn).1 ∗ owns (c : Thread nD τ) scM13_1 fullShare (accAt13 V c n hn).2)
      ∗ Pipeline.scopedRestBut (Ix := Unit) (Name := ℕ) (U := UR sig nD τ) (Lvl := ℕ) (Val := Elt F) spec13 c [cc13_scratch0, cc13_scratch1]) ∗ (∃ r, prngReg c r)) := rfl

theorem PhiS13_pos (c : Dev nD) (n : ℕ) (h : n ≤ cfg13.N) (hz : ¬n = 0) :
    PhiS13 V c n h = iprop(iprop(iprop(owns (c : Thread nD τ) scM13_0 fullShare (accAt13 V c (n - 1) (by omega)).1 ∗ owns (c : Thread nD τ) scM13_1 fullShare (accAt13 V c (n - 1) (by omega)).2)
      ∗ Pipeline.scopedRestBut (Ix := Unit) (Name := ℕ) (U := UR sig nD τ) (Lvl := ℕ) (Val := Elt F) spec13 c [cc13_scratch0, cc13_scratch1]) ∗ (∃ r, prngReg c r)) := by
  cases n with
  | zero => exact absurd rfl hz
  | succ n => rfl

/-! ## The pipeline's proof data -/

/-- Region 13's proof data on core `c`: the arrays as the region finds them; after the body at row block `t`
    each input's buffer at its block, the row result's at the block's quotients, the column result's at the
    accumulated quotients (consulted at the last row block only, where it is stored); the invariant above;
    nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => k1_pay5 (iblk13 V c 0 t) (iblk13 V c 2 t)
    | ⟨4, _⟩ => k1_pay1 (accAt13 V c t.val t.isLt).2 (accAt13 V c t.val t.isLt).1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem PhiS13_castSucc (c : Dev nD) (t : Fin cfg13.N) :
    (dat13 V c).Φ t.castSucc = PhiS13 V c t.val (Nat.le_of_lt t.isLt) := by
  dsimp only [dat13]; simp only [Fin.coe_castSucc]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = k1_pay5 (iblk13 V c 0 t) (iblk13 V c 2 t) := by dsimp only [dat13]
theorem after13_4 (c : Dev nD) (t : Fin cfg13.N) : (dat13 V c).after 4 t = k1_pay1 (accAt13 V c t.val t.isLt).2 (accAt13 V c t.val t.isLt).1 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation -/

/-- What the body is called with at row block `t`, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  rw [kernel_eq13]
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  have hN : t.val < 8 := lt_of_lt_of_eq t.isLt (show cfg13.N = 8 from N_13)
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [show (dat13 V c).leavesExact 2 t = owns (c : Thread nD τ) (ms13_2 t) fullShare ((dat13 V c).after 2 t) from by
    unfold Dat.leavesExact; rw [liveAt13_2 t], after13_2]
  rw [show (dat13 V c).leavesExact 3 t = owns (c : Thread nD τ) (ms13_3 t) fullShare ((dat13 V c).after 3 t) from by
    unfold Dat.leavesExact; rw [liveAt13_3 t], after13_3]
  by_cases h0 : t.val = 0
  · have h1 : ¬t.val = 7 := by omega
    rw [Dat.leavesExact_idle (dat13 V c) 4 t (idleAt13_4 t (fun h => h1 ((condLast_iff t).mp h))) (noFlush13_4 t (fun h => h1 ((condLast_iff t).mp h)))]
    rw [accAt13_zero V c t h0]
    rw [PhiS13_castSucc V c t, PhiS13_zero V c _ _ h0, PhiA13_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid13.coords t) _ _ _ _ _ _ _ _ _ _ _ _ _ _ ((condFirst_iff t).mpr h0) (fun h => h1 ((condLast_iff t).mp h)) (iblk13 V c 0 t) (iblk13 V c 1 t) (iblk13 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid13.coords t) _ _ _ _ _ _ _ _ _ _ _ _ _ _ ((condFirst_iff t).mpr h0) (fun h => h1 ((condLast_iff t).mp h)) (iblk13 V c 0 t) (iblk13 V c 1 t) (iblk13 V c 2 t) _ _
          unfold owns; iexists _; isplitr
          swap; · iexact HS1
          ipureintro; exact pieceOA_s1 c (grid13.coords t) _ _ _ _ _ _ _ _ _ _ _ _ _ _ ((condFirst_iff t).mpr h0) (fun h => h1 ((condLast_iff t).mp h)) (iblk13 V c 0 t) (iblk13 V c 1 t) (iblk13 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid13.coords t) _ _ _ _ _ _ _ _ _ _ _ _ _ _ ((condFirst_iff t).mpr h0) (fun h => h1 ((condLast_iff t).mp h)) (iblk13 V c 0 t) (iblk13 V c 1 t) (iblk13 V c 2 t) _ _
    iexists _; iexact H4
  · by_cases h1 : t.val = 7
    · rw [show (dat13 V c).leavesExact 4 t = owns (c : Thread nD τ) (ms13_4 t) fullShare ((dat13 V c).after 4 t) from by
        unfold Dat.leavesExact; rw [liveAt13_4_C t ((condLast_iff t).mpr h1)], after13_4]
      rw [accAt13_pos V c t h0]
      rw [PhiS13_castSucc V c t, PhiS13_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid13.coords t) _ _ _ _ _ _ _ _ _ _ _ _ _ _ (fun h => h0 ((condFirst_iff t).mp h)) ((condLast_iff t).mpr h1) (iblk13 V c 0 t) (iblk13 V c 1 t) (iblk13 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid13.coords t) _ _ _ _ _ _ _ _ _ _ _ _ _ _ (fun h => h0 ((condFirst_iff t).mp h)) ((condLast_iff t).mpr h1) (iblk13 V c 0 t) (iblk13 V c 1 t) (iblk13 V c 2 t) _ _ _ _
            unfold owns; iexists _; isplitr
            swap; · iexact HS1
            ipureintro; exact pieceOC_s1 c (grid13.coords t) _ _ _ _ _ _ _ _ _ _ _ _ _ _ (fun h => h0 ((condFirst_iff t).mp h)) ((condLast_iff t).mpr h1) (iblk13 V c 0 t) (iblk13 V c 1 t) (iblk13 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid13.coords t) _ _ _ _ _ _ _ _ _ _ _ _ _ _ (fun h => h0 ((condFirst_iff t).mp h)) ((condLast_iff t).mpr h1) (iblk13 V c 0 t) (iblk13 V c 1 t) (iblk13 V c 2 t) _ _ _ _
      unfold owns; iexists _; isplitr
      swap; · iexact H4
      ipureintro; exact pieceOC_o5 c (grid13.coords t) _ _ _ _ _ _ _ _ _ _ _ _ _ _ (fun h => h0 ((condFirst_iff t).mp h)) ((condLast_iff t).mpr h1) (iblk13 V c 0 t) (iblk13 V c 1 t) (iblk13 V c 2 t) _ _ _ _
    · rw [Dat.leavesExact_idle (dat13 V c) 4 t (idleAt13_4 t (fun h => h1 ((condLast_iff t).mp h))) (noFlush13_4 t (fun h => h1 ((condLast_iff t).mp h)))]
      rw [accAt13_pos V c t h0]
      rw [PhiS13_castSucc V c t, PhiS13_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid13.coords t) _ _ _ _ _ _ _ _ _ _ _ _ _ _ (fun h => h0 ((condFirst_iff t).mp h)) (fun h => h1 ((condLast_iff t).mp h)) (iblk13 V c 0 t) (iblk13 V c 1 t) (iblk13 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid13.coords t) _ _ _ _ _ _ _ _ _ _ _ _ _ _ (fun h => h0 ((condFirst_iff t).mp h)) (fun h => h1 ((condLast_iff t).mp h)) (iblk13 V c 0 t) (iblk13 V c 1 t) (iblk13 V c 2 t) _ _ _ _
            unfold owns; iexists _; isplitr
            swap; · iexact HS1
            ipureintro; exact pieceOB_s1 c (grid13.coords t) _ _ _ _ _ _ _ _ _ _ _ _ _ _ (fun h => h0 ((condFirst_iff t).mp h)) (fun h => h1 ((condLast_iff t).mp h)) (iblk13 V c 0 t) (iblk13 V c 1 t) (iblk13 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid13.coords t) _ _ _ _ _ _ _ _ _ _ _ _ _ _ (fun h => h0 ((condFirst_iff t).mp h)) (fun h => h1 ((condLast_iff t).mp h)) (iblk13 V c 0 t) (iblk13 V c 1 t) (iblk13 V c 2 t) _ _ _ _
      iexists _; iexact H4

/-- The library's body obligation, at every row block. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first row block. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After the last row block the invariant gives back what the launch handed over: the accumulators' contents are forgotten. -/
theorem hout13 (c : Dev nD) : (dat13 V c).Φ (Fin.last cfg13.N) ⊢ Pipeline.ΦA spec13 c := by
  rw [show (dat13 V c).Φ (Fin.last cfg13.N) = PhiS13 V c (Fin.last cfg13.N).val (Nat.le_of_lt_succ (Fin.last cfg13.N).isLt) from rfl,
    PhiS13_pos V c _ _ (by rw [Fin.val_last]; have : cfg13.N = 8 := N_13; omega), PhiA13_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region13

end Cert.KernelIdeal.Hand

end
-- ==== Proof.KI.Chain.lean ====
import proofs.«103934_j28484223107660_1_alg».proof.Proof.KI.Reg0
import proofs.«103934_j28484223107660_1_alg».proof.Proof.KI.Reg1
import proofs.«103934_j28484223107660_1_alg».proof.Proof.KI.Reg2
import proofs.«103934_j28484223107660_1_alg».proof.Proof.KI.Reg3
import proofs.«103934_j28484223107660_1_alg».proof.Proof.KI.Reg4
import proofs.«103934_j28484223107660_1_alg».proof.Proof.KI.Reg5
import proofs.«103934_j28484223107660_1_alg».proof.Proof.KI.Reg6
import proofs.«103934_j28484223107660_1_alg».proof.Proof.KI.Reg7
import proofs.«103934_j28484223107660_1_alg».proof.Proof.KI.Reg8
import proofs.«103934_j28484223107660_1_alg».proof.Proof.KI.Reg9
import proofs.«103934_j28484223107660_1_alg».proof.Proof.KI.Reg10
import proofs.«103934_j28484223107660_1_alg».proof.Proof.KI.Reg11
import proofs.«103934_j28484223107660_1_alg».proof.Proof.KI.Reg12
import proofs.«103934_j28484223107660_1_alg».proof.Proof.KI.Reg13
import proofs.«103934_j28484223107660_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The contents of the core's buffers between the items of the program, item after item: a host line's results
    where it writes them, a region's two results at what its write-backs leave (the library's fold of the flushed
    blocks), every other buffer as it was. -/

variable (m : (ℓ : Loc nD τ sig) → Buf (Elt F) ℓ)

/-- After the first host lines. -/
abbrev W1 (c : Dev nD) : Valuation τ sig (Elt F) := StableHlo.after hostOps0 (fun b => m (c, b))

/-- The buffers as region 0 finds them, read at the core's references. -/
abbrev Vin0 : (c : Dev nD) → (b : Ref sig .tc) → Buf (Elt F) ((c : Thread nD τ).loc b) := fun c b => W1 m c b
/-- Region 0's arrays at what the pipeline leaves, every other buffer as entered. -/
def X2 (c : Dev nD) : Valuation τ sig (Elt F) :=
  Pipeline.withArrays spec0 c (W1 m c) fun w => (dat0 (Vin0 m) c).arrAt w cfg0.N
/-- After region 0: its two results changed. -/
abbrev W2 (c : Dev nD) : Valuation τ sig (Elt F) :=
  Function.update (Function.update (W1 m c) main_v2_0 (X2 m c main_v2_0)) main_v2_1 (X2 m c main_v2_1)
/-- After the host lines that follow region 0. -/
abbrev W3 (c : Dev nD) : Valuation τ sig (Elt F) := StableHlo.after hostOps1 (W2 m c)

/-- The buffers as region 1 finds them, read at the core's references. -/
abbrev Vin1 : (c : Dev nD) → (b : Ref sig .tc) → Buf (Elt F) ((c : Thread nD τ).loc b) := fun c b => W3 m c b
/-- Region 1's arrays at what the pipeline leaves, every other buffer as entered. -/
def X4 (c : Dev nD) : Valuation τ sig (Elt F) :=
  Pipeline.withArrays spec1 c (W3 m c) fun w => (dat1 (Vin1 m) c).arrAt w cfg1.N
/-- After region 1: its two results changed. -/
abbrev W4 (c : Dev nD) : Valuation τ sig (Elt F) :=
  Function.update (Function.update (W3 m c) main_v5_0 (X4 m c main_v5_0)) main_v5_1 (X4 m c main_v5_1)
/-- After the host lines that follow region 1. -/
abbrev W5 (c : Dev nD) : Valuation τ sig (Elt F) := StableHlo.after hostOps2 (W4 m c)

/-- The buffers as region 2 finds them, read at the core's references. -/
abbrev Vin2 : (c : Dev nD) → (b : Ref sig .tc) → Buf (Elt F) ((c : Thread nD τ).loc b) := fun c b => W5 m c b
/-- Region 2's arrays at what the pipeline leaves, every other buffer as entered. -/
def X6 (c : Dev nD) : Valuation τ sig (Elt F) :=
  Pipeline.withArrays spec2 c (W5 m c) fun w => (dat2 (Vin2 m) c).arrAt w cfg2.N
/-- After region 2: its two results changed. -/
abbrev W6 (c : Dev nD) : Valuation τ sig (Elt F) :=
  Function.update (Function.update (W5 m c) main_v14_0 (X6 m c main_v14_0)) main_v14_1 (X6 m c main_v14_1)
/-- After the host lines that follow region 2. -/
abbrev W7 (c : Dev nD) : Valuation τ sig (Elt F) := StableHlo.after hostOps3 (W6 m c)

/-- The buffers as region 3 finds them, read at the core's references. -/
abbrev Vin3 : (c : Dev nD) → (b : Ref sig .tc) → Buf (Elt F) ((c : Thread nD τ).loc b) := fun c b => W7 m c b
/-- Region 3's arrays at what the pipeline leaves, every other buffer as entered. -/
def X8 (c : Dev nD) : Valuation τ sig (Elt F) :=
  Pipeline.withArrays spec3 c (W7 m c) fun w => (dat3 (Vin3 m) c).arrAt w cfg3.N
/-- After region 3: its two results changed. -/
abbrev W8 (c : Dev nD) : Valuation τ sig (Elt F) :=
  Function.update (Function.update (W7 m c) main_v17_0 (X8 m c main_v17_0)) main_v17_1 (X8 m c main_v17_1)
/-- After the host lines that follow region 3. -/
abbrev W9 (c : Dev nD) : Valuation τ sig (Elt F) := StableHlo.after hostOps4 (W8 m c)

/-- The buffers as region 4 finds them, read at the core's references. -/
abbrev Vin4 : (c : Dev nD) → (b : Ref sig .tc) → Buf (Elt F) ((c : Thread nD τ).loc b) := fun c b => W9 m c b
/-- Region 4's arrays at what the pipeline leaves, every other buffer as entered. -/
def X10 (c : Dev nD) : Valuation τ sig (Elt F) :=
  Pipeline.withArrays spec4 c (W9 m c) fun w => (dat4 (Vin4 m) c).arrAt w cfg4.N
/-- After region 4: its two results changed. -/
abbrev W10 (c : Dev nD) : Valuation τ sig (Elt F) :=
  Function.update (Function.update (W9 m c) main_v26_0 (X10 m c main_v26_0)) main_v26_1 (X10 m c main_v26_1)
/-- After the host lines that follow region 4. -/
abbrev W11 (c : Dev nD) : Valuation τ sig (Elt F) := StableHlo.after hostOps5 (W10 m c)

/-- The buffers as region 5 finds them, read at the core's references. -/
abbrev Vin5 : (c : Dev nD) → (b : Ref sig .tc) → Buf (Elt F) ((c : Thread nD τ).loc b) := fun c b => W11 m c b
/-- Region 5's arrays at what the pipeline leaves, every other buffer as entered. -/
def X12 (c : Dev nD) : Valuation τ sig (Elt F) :=
  Pipeline.withArrays spec5 c (W11 m c) fun w => (dat5 (Vin5 m) c).arrAt w cfg5.N
/-- After region 5: its two results changed. -/
abbrev W12 (c : Dev nD) : Valuation τ sig (Elt F) :=
  Function.update (Function.update (W11 m c) main_v29_0 (X12 m c main_v29_0)) main_v29_1 (X12 m c main_v29_1)
/-- After the host lines that follow region 5. -/
abbrev W13 (c : Dev nD) : Valuation τ sig (Elt F) := StableHlo.after hostOps6 (W12 m c)

/-- The buffers as region 6 finds them, read at the core's references. -/
abbrev Vin6 : (c : Dev nD) → (b : Ref sig .tc) → Buf (Elt F) ((c : Thread nD τ).loc b) := fun c b => W13 m c b
/-- Region 6's arrays at what the pipeline leaves, every other buffer as entered. -/
def X14 (c : Dev nD) : Valuation τ sig (Elt F) :=
  Pipeline.withArrays spec6 c (W13 m c) fun w => (dat6 (Vin6 m) c).arrAt w cfg6.N
/-- After region 6: its two results changed. -/
abbrev W14 (c : Dev nD) : Valuation τ sig (Elt F) :=
  Function.update (Function.update (W13 m c) main_v38_0 (X14 m c main_v38_0)) main_v38_1 (X14 m c main_v38_1)
/-- After the host lines that follow region 6. -/
abbrev W15 (c : Dev nD) : Valuation τ sig (Elt F) := StableHlo.after hostOps7 (W14 m c)

/-- The buffers as region 7 finds them, read at the core's references. -/
abbrev Vin7 : (c : Dev nD) → (b : Ref sig .tc) → Buf (Elt F) ((c : Thread nD τ).loc b) := fun c b => W15 m c b
/-- Region 7's arrays at what the pipeline leaves, every other buffer as entered. -/
def X16 (c : Dev nD) : Valuation τ sig (Elt F) :=
  Pipeline.withArrays spec7 c (W15 m c) fun w => (dat7 (Vin7 m) c).arrAt w cfg7.N
/-- After region 7: its two results changed. -/
abbrev W16 (c : Dev nD) : Valuation τ sig (Elt F) :=
  Function.update (Function.update (W15 m c) main_v41_0 (X16 m c main_v41_0)) main_v41_1 (X16 m c main_v41_1)
/-- After the host lines that follow region 7. -/
abbrev W17 (c : Dev nD) : Valuation τ sig (Elt F) := StableHlo.after hostOps8 (W16 m c)

/-- The buffers as region 8 finds them, read at the core's references. -/
abbrev Vin8 : (c : Dev nD) → (b : Ref sig .tc) → Buf (Elt F) ((c : Thread nD τ).loc b) := fun c b => W17 m c b
/-- Region 8's arrays at what the pipeline leaves, every other buffer as entered. -/
def X18 (c : Dev nD) : Valuation τ sig (Elt F) :=
  Pipeline.withArrays spec8 c (W17 m c) fun w => (dat8 (Vin8 m) c).arrAt w cfg8.N
/-- After region 8: its two results changed. -/
abbrev W18 (c : Dev nD) : Valuation τ sig (Elt F) :=
  Function.update (Function.update (W17 m c) main_v50_0 (X18 m c main_v50_0)) main_v50_1 (X18 m c main_v50_1)
/-- After the host lines that follow region 8. -/
abbrev W19 (c : Dev nD) : Valuation τ sig (Elt F) := StableHlo.after hostOps9 (W18 m c)

/-- The buffers as region 9 finds them, read at the core's references. -/
abbrev Vin9 : (c : Dev nD) → (b : Ref sig .tc) → Buf (Elt F) ((c : Thread nD τ).loc b) := fun c b => W19 m c b
/-- Region 9's arrays at what the pipeline leaves, every other buffer as entered. -/
def X20 (c : Dev nD) : Valuation τ sig (Elt F) :=
  Pipeline.withArrays spec9 c (W19 m c) fun w => (dat9 (Vin9 m) c).arrAt w cfg9.N
/-- After region 9: its two results changed. -/
abbrev W20 (c : Dev nD) : Valuation τ sig (Elt F) :=
  Function.update (Function.update (W19 m c) main_v53_0 (X20 m c main_v53_0)) main_v53_1 (X20 m c main_v53_1)
/-- After the host lines that follow region 9. -/
abbrev W21 (c : Dev nD) : Valuation τ sig (Elt F) := StableHlo.after hostOps10 (W20 m c)

/-- The buffers as region 10 finds them, read at the core's references. -/
abbrev Vin10 : (c : Dev nD) → (b : Ref sig .tc) → Buf (Elt F) ((c : Thread nD τ).loc b) := fun c b => W21 m c b
/-- Region 10's arrays at what the pipeline leaves, every other buffer as entered. -/
def X22 (c : Dev nD) : Valuation τ sig (Elt F) :=
  Pipeline.withArrays spec10 c (W21 m c) fun w => (dat10 (Vin10 m) c).arrAt w cfg10.N
/-- After region 10: its two results changed. -/
abbrev W22 (c : Dev nD) : Valuation τ sig (Elt F) :=
  Function.update (Function.update (W21 m c) main_v63_0 (X22 m c main_v63_0)) main_v63_1 (X22 m c main_v63_1)
/-- After the host lines that follow region 10. -/
abbrev W23 (c : Dev nD) : Valuation τ sig (Elt F) := StableHlo.after hostOps11 (W22 m c)

/-- The buffers as region 11 finds them, read at the core's references. -/
abbrev Vin11 : (c : Dev nD) → (b : Ref sig .tc) → Buf (Elt F) ((c : Thread nD τ).loc b) := fun c b => W23 m c b
/-- Region 11's arrays at what the pipeline leaves, every other buffer as entered. -/
def X24 (c : Dev nD) : Valuation τ sig (Elt F) :=
  Pipeline.withArrays spec11 c (W23 m c) fun w => (dat11 (Vin11 m) c).arrAt w cfg11.N
/-- After region 11: its two results changed. -/
abbrev W24 (c : Dev nD) : Valuation τ sig (Elt F) :=
  Function.update (Function.update (W23 m c) main_v66_0 (X24 m c main_v66_0)) main_v66_1 (X24 m c main_v66_1)
/-- After the host lines that follow region 11. -/
abbrev W25 (c : Dev nD) : Valuation τ sig (Elt F) := StableHlo.after hostOps12 (W24 m c)

/-- The buffers as region 12 finds them, read at the core's references. -/
abbrev Vin12 : (c : Dev nD) → (b : Ref sig .tc) → Buf (Elt F) ((c : Thread nD τ).loc b) := fun c b => W25 m c b
/-- Region 12's arrays at what the pipeline leaves, every other buffer as entered. -/
def X26 (c : Dev nD) : Valuation τ sig (Elt F) :=
  Pipeline.withArrays spec12 c (W25 m c) fun w => (dat12 (Vin12 m) c).arrAt w cfg12.N
/-- After region 12: its two results changed. -/
abbrev W26 (c : Dev nD) : Valuation τ sig (Elt F) :=
  Function.update (Function.update (W25 m c) main_v76_0 (X26 m c main_v76_0)) main_v76_1 (X26 m c main_v76_1)
/-- After the host lines that follow region 12. -/
abbrev W27 (c : Dev nD) : Valuation τ sig (Elt F) := StableHlo.after hostOps13 (W26 m c)

/-- The buffers as region 13 finds them, read at the core's references. -/
abbrev Vin13 : (c : Dev nD) → (b : Ref sig .tc) → Buf (Elt F) ((c : Thread nD τ).loc b) := fun c b => W27 m c b
/-- Region 13's arrays at what the pipeline leaves, every other buffer as entered. -/
def X28 (c : Dev nD) : Valuation τ sig (Elt F) :=
  Pipeline.withArrays spec13 c (W27 m c) fun w => (dat13 (Vin13 m) c).arrAt w cfg13.N
/-- After region 13: its two results changed. -/
abbrev W28 (c : Dev nD) : Valuation τ sig (Elt F) :=
  Function.update (Function.update (W27 m c) main_v79_0 (X28 m c main_v79_0)) main_v79_1 (X28 m c main_v79_1)
/-- After the host lines that follow region 13. -/
abbrev W29 (c : Dev nD) : Valuation τ sig (Elt F) := StableHlo.after hostOps14 (W28 m c)

/-- What the regions leave, by item. -/
def outsAll : Outs (F := F) := fun J r c =>
  match J with
  | 2 => X2 m c r
  | 4 => X4 m c r
  | 6 => X6 m c r
  | 8 => X8 m c r
  | 10 => X10 m c r
  | 12 => X12 m c r
  | 14 => X14 m c r
  | 16 => X16 m c r
  | 18 => X18 m c r
  | 20 => X20 m c r
  | 22 => X22 m c r
  | 24 => X24 m c r
  | 26 => X26 m c r
  | 28 => X28 m c r
  | _ => m (c, r)

/-- No variant, no level: no core owes another anything. -/
abbrev 𝒱z : Variants := Variants.none
abbrev Lz : GSem nD τ sig → Finset Unit := fun _ => ∅
abbrev lvz : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)

/-- Every region's proof data, each at its region's entry contents. -/
def pdats : (p : Fin 14) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
  | ⟨7, _⟩ => fun c => dat7 (Vin7 m) c
  | ⟨8, _⟩ => fun c => dat8 (Vin8 m) c
  | ⟨9, _⟩ => fun c => dat9 (Vin9 m) c
  | ⟨10, _⟩ => fun c => dat10 (Vin10 m) c
  | ⟨11, _⟩ => fun c => dat11 (Vin11 m) c
  | ⟨12, _⟩ => fun c => dat12 (Vin12 m) c
  | ⟨13, _⟩ => fun c => dat13 (Vin13 m) c

/-! The contents between items, stated over what the regions leave, are the ones above. -/
theorem VW1 (c : Dev nD) : V1 m c = W1 m c := rfl
theorem VW2 (c : Dev nD) : V2 m (outsAll m) c = W2 m c := by
  show Function.update (Function.update (V1 m c) main_v2_0 (outsAll m 2 main_v2_0 c)) main_v2_1 (outsAll m 2 main_v2_1 c) = _
  rw [VW1 m c]; rfl
theorem VW3 (c : Dev nD) : V3 m (outsAll m) c = W3 m c := congrArg (StableHlo.after hostOps1) (VW2 m c)
theorem VW4 (c : Dev nD) : V4 m (outsAll m) c = W4 m c := by
  show Function.update (Function.update (V3 m (outsAll m) c) main_v5_0 (outsAll m 4 main_v5_0 c)) main_v5_1 (outsAll m 4 main_v5_1 c) = _
  rw [VW3 m c]; rfl
theorem VW5 (c : Dev nD) : V5 m (outsAll m) c = W5 m c := congrArg (StableHlo.after hostOps2) (VW4 m c)
theorem VW6 (c : Dev nD) : V6 m (outsAll m) c = W6 m c := by
  show Function.update (Function.update (V5 m (outsAll m) c) main_v14_0 (outsAll m 6 main_v14_0 c)) main_v14_1 (outsAll m 6 main_v14_1 c) = _
  rw [VW5 m c]; rfl
theorem VW7 (c : Dev nD) : V7 m (outsAll m) c = W7 m c := congrArg (StableHlo.after hostOps3) (VW6 m c)
theorem VW8 (c : Dev nD) : V8 m (outsAll m) c = W8 m c := by
  show Function.update (Function.update (V7 m (outsAll m) c) main_v17_0 (outsAll m 8 main_v17_0 c)) main_v17_1 (outsAll m 8 main_v17_1 c) = _
  rw [VW7 m c]; rfl
theorem VW9 (c : Dev nD) : V9 m (outsAll m) c = W9 m c := congrArg (StableHlo.after hostOps4) (VW8 m c)
theorem VW10 (c : Dev nD) : V10 m (outsAll m) c = W10 m c := by
  show Function.update (Function.update (V9 m (outsAll m) c) main_v26_0 (outsAll m 10 main_v26_0 c)) main_v26_1 (outsAll m 10 main_v26_1 c) = _
  rw [VW9 m c]; rfl
theorem VW11 (c : Dev nD) : V11 m (outsAll m) c = W11 m c := congrArg (StableHlo.after hostOps5) (VW10 m c)
theorem VW12 (c : Dev nD) : V12 m (outsAll m) c = W12 m c := by
  show Function.update (Function.update (V11 m (outsAll m) c) main_v29_0 (outsAll m 12 main_v29_0 c)) main_v29_1 (outsAll m 12 main_v29_1 c) = _
  rw [VW11 m c]; rfl
theorem VW13 (c : Dev nD) : V13 m (outsAll m) c = W13 m c := congrArg (StableHlo.after hostOps6) (VW12 m c)
theorem VW14 (c : Dev nD) : V14 m (outsAll m) c = W14 m c := by
  show Function.update (Function.update (V13 m (outsAll m) c) main_v38_0 (outsAll m 14 main_v38_0 c)) main_v38_1 (outsAll m 14 main_v38_1 c) = _
  rw [VW13 m c]; rfl
theorem VW15 (c : Dev nD) : V15 m (outsAll m) c = W15 m c := congrArg (StableHlo.after hostOps7) (VW14 m c)
theorem VW16 (c : Dev nD) : V16 m (outsAll m) c = W16 m c := by
  show Function.update (Function.update (V15 m (outsAll m) c) main_v41_0 (outsAll m 16 main_v41_0 c)) main_v41_1 (outsAll m 16 main_v41_1 c) = _
  rw [VW15 m c]; rfl
theorem VW17 (c : Dev nD) : V17 m (outsAll m) c = W17 m c := congrArg (StableHlo.after hostOps8) (VW16 m c)
theorem VW18 (c : Dev nD) : V18 m (outsAll m) c = W18 m c := by
  show Function.update (Function.update (V17 m (outsAll m) c) main_v50_0 (outsAll m 18 main_v50_0 c)) main_v50_1 (outsAll m 18 main_v50_1 c) = _
  rw [VW17 m c]; rfl
theorem VW19 (c : Dev nD) : V19 m (outsAll m) c = W19 m c := congrArg (StableHlo.after hostOps9) (VW18 m c)
theorem VW20 (c : Dev nD) : V20 m (outsAll m) c = W20 m c := by
  show Function.update (Function.update (V19 m (outsAll m) c) main_v53_0 (outsAll m 20 main_v53_0 c)) main_v53_1 (outsAll m 20 main_v53_1 c) = _
  rw [VW19 m c]; rfl
theorem VW21 (c : Dev nD) : V21 m (outsAll m) c = W21 m c := congrArg (StableHlo.after hostOps10) (VW20 m c)
theorem VW22 (c : Dev nD) : V22 m (outsAll m) c = W22 m c := by
  show Function.update (Function.update (V21 m (outsAll m) c) main_v63_0 (outsAll m 22 main_v63_0 c)) main_v63_1 (outsAll m 22 main_v63_1 c) = _
  rw [VW21 m c]; rfl
theorem VW23 (c : Dev nD) : V23 m (outsAll m) c = W23 m c := congrArg (StableHlo.after hostOps11) (VW22 m c)
theorem VW24 (c : Dev nD) : V24 m (outsAll m) c = W24 m c := by
  show Function.update (Function.update (V23 m (outsAll m) c) main_v66_0 (outsAll m 24 main_v66_0 c)) main_v66_1 (outsAll m 24 main_v66_1 c) = _
  rw [VW23 m c]; rfl
theorem VW25 (c : Dev nD) : V25 m (outsAll m) c = W25 m c := congrArg (StableHlo.after hostOps12) (VW24 m c)
theorem VW26 (c : Dev nD) : V26 m (outsAll m) c = W26 m c := by
  show Function.update (Function.update (V25 m (outsAll m) c) main_v76_0 (outsAll m 26 main_v76_0 c)) main_v76_1 (outsAll m 26 main_v76_1 c) = _
  rw [VW25 m c]; rfl
theorem VW27 (c : Dev nD) : V27 m (outsAll m) c = W27 m c := congrArg (StableHlo.after hostOps13) (VW26 m c)
theorem VW28 (c : Dev nD) : V28 m (outsAll m) c = W28 m c := by
  show Function.update (Function.update (V27 m (outsAll m) c) main_v79_0 (outsAll m 28 main_v79_0 c)) main_v79_1 (outsAll m 28 main_v79_1 c) = _
  rw [VW27 m c]; rfl
theorem VW29 (c : Dev nD) : V29 m (outsAll m) c = W29 m c := congrArg (StableHlo.after hostOps14) (VW28 m c)

end Cert.KernelIdeal.Hand

end
-- ==== Proof.KI.Seg0.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 0 as a segment of the program: entered with every unscoped buffer at the contents the items before it
    leave, left with its two results at what its write-backs fold to and every other buffer as entered. -/

theorem outsAt0_0 (c : Dev nD) : X2 m c main_v2_0 = (dat0 (Vin0 m) c).arrAt 3 cfg0.N := by
  unfold X2
  exact Pipeline.withArrays_arr spec0 launch0.win.arr_inj c _ _ 3
theorem outsAt0_1 (c : Dev nD) : X2 m c main_v2_1 = (dat0 (Vin0 m) c).arrAt 4 cfg0.N := by
  unfold X2
  exact Pipeline.withArrays_arr spec0 launch0.win.arr_inj c _ _ 4

/-- A buffer that is neither of the region's results is as entered. -/
theorem Wout0_of (c : Dev nD) (b : Ref sig .tc) (h0 : b ≠ main_v2_0) (h1 : b ≠ main_v2_1) : W2 m c b = W1 m c b := by
  show Function.update (Function.update _ _ _) _ _ (Proc.devRef .tc b) = _
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]
theorem Wout0_0 (c : Dev nD) : W2 m c main_v2_0 = X2 m c main_v2_0 := by
  show Function.update (Function.update _ _ _) _ _ (Proc.devRef .tc main_v2_0) = _
  rw [Function.update_of_ne (StableHlo.devRef_ne_of_ne (by decide) : (Proc.devRef .tc main_v2_0 : DevRef τ sig) ≠ Proc.devRef .tc main_v2_1), Function.update_self]
theorem Wout0_1 (c : Dev nD) : W2 m c main_v2_1 = X2 m c main_v2_1 := by
  show Function.update (Function.update _ _ _) _ _ (Proc.devRef .tc main_v2_1) = _
  rw [Function.update_self]

/-- At the region's exit each of its arrays holds what the pipeline leaves, -/
theorem hF0 (c : Dev nD) (w : Fin cfg0.W) :
    (dat0 (Vin0 m) c).arrAt w cfg0.N = (W2 m c) (Proc.devRef .tc (Pipeline.arrRef spec0 w)) := by
  fin_cases w
  · exact ((dat0 (Vin0 m) c).arrAt_in 0 rfl _).trans ((A_eq0 (Vin0 m) c 0).trans (Wout0_of m c _ (by decide) (by decide)).symm)
  · exact ((dat0 (Vin0 m) c).arrAt_in 1 rfl _).trans ((A_eq0 (Vin0 m) c 1).trans (Wout0_of m c _ (by decide) (by decide)).symm)
  · exact ((dat0 (Vin0 m) c).arrAt_in 2 rfl _).trans ((A_eq0 (Vin0 m) c 2).trans (Wout0_of m c _ (by decide) (by decide)).symm)
  · exact ((Wout0_0 m c).trans (outsAt0_0 m c)).symm
  · exact ((Wout0_1 m c).trans (outsAt0_1 m c)).symm

/-- and every other buffer what it held at entry. -/
theorem hrest0 (c : Dev nD) : ∀ b, b ∉ Finset.univ.image (Pipeline.arrRef spec0) →
    (W2 m c) (Proc.devRef .tc b) = Vin0 m c b := fun b hb =>
  Wout0_of m c b (fun e => hb (Finset.mem_image.mpr ⟨3, Finset.mem_univ _, e.symm⟩)) (fun e => hb (Finset.mem_image.mpr ⟨4, Finset.mem_univ _, e.symm⟩))

set_option backward.isDefEq.respectTransparency.types false in
def reg0 : Pipeline.RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => (W2 m c) (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 1 as a segment of the program: entered with every unscoped buffer at the contents the items before it
    leave, left with its two results at what its write-backs fold to and every other buffer as entered. -/

theorem outsAt1_0 (c : Dev nD) : X4 m c main_v5_0 = (dat1 (Vin1 m) c).arrAt 3 cfg1.N := by
  unfold X4
  exact Pipeline.withArrays_arr spec1 launch1.win.arr_inj c _ _ 3
theorem outsAt1_1 (c : Dev nD) : X4 m c main_v5_1 = (dat1 (Vin1 m) c).arrAt 4 cfg1.N := by
  unfold X4
  exact Pipeline.withArrays_arr spec1 launch1.win.arr_inj c _ _ 4

/-- A buffer that is neither of the region's results is as entered. -/
theorem Wout1_of (c : Dev nD) (b : Ref sig .tc) (h0 : b ≠ main_v5_0) (h1 : b ≠ main_v5_1) : W4 m c b = W3 m c b := by
  show Function.update (Function.update _ _ _) _ _ (Proc.devRef .tc b) = _
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
theorem Wout1_0 (c : Dev nD) : W4 m c main_v5_0 = X4 m c main_v5_0 := by
  show Function.update (Function.update _ _ _) _ _ (Proc.devRef .tc main_v5_0) = _
  rw [Function.update_of_ne (StableHlo.devRef_ne_of_ne (by decide) : (Proc.devRef .tc main_v5_0 : DevRef τ sig) ≠ Proc.devRef .tc main_v5_1), Function.update_self]
theorem Wout1_1 (c : Dev nD) : W4 m c main_v5_1 = X4 m c main_v5_1 := by
  show Function.update (Function.update _ _ _) _ _ (Proc.devRef .tc main_v5_1) = _
  rw [Function.update_self]

/-- At the region's exit each of its arrays holds what the pipeline leaves, -/
theorem hF1 (c : Dev nD) (w : Fin cfg1.W) :
    (dat1 (Vin1 m) c).arrAt w cfg1.N = (W4 m c) (Proc.devRef .tc (Pipeline.arrRef spec1 w)) := by
  fin_cases w
  · exact ((dat1 (Vin1 m) c).arrAt_in 0 rfl _).trans ((A_eq1 (Vin1 m) c 0).trans (Wout1_of m c _ (by decide) (by decide)).symm)
  · exact ((dat1 (Vin1 m) c).arrAt_in 1 rfl _).trans ((A_eq1 (Vin1 m) c 1).trans (Wout1_of m c _ (by decide) (by decide)).symm)
  · exact ((dat1 (Vin1 m) c).arrAt_in 2 rfl _).trans ((A_eq1 (Vin1 m) c 2).trans (Wout1_of m c _ (by decide) (by decide)).symm)
  · exact ((Wout1_0 m c).trans (outsAt1_0 m c)).symm
  · exact ((Wout1_1 m c).trans (outsAt1_1 m c)).symm

/-- and every other buffer what it held at entry. -/
theorem hrest1 (c : Dev nD) : ∀ b, b ∉ Finset.univ.image (Pipeline.arrRef spec1) →
    (W4 m c) (Proc.devRef .tc b) = Vin1 m c b := fun b hb =>
  Wout1_of m c b (fun e => hb (Finset.mem_image.mpr ⟨3, Finset.mem_univ _, e.symm⟩)) (fun e => hb (Finset.mem_image.mpr ⟨4, Finset.mem_univ _, e.symm⟩))

set_option backward.isDefEq.respectTransparency.types false in
def reg1 : Pipeline.RegionSeg (pcfgs (F := F)) adm (pdats m) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => (W4 m c) (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 2 as a segment of the program: entered with every unscoped buffer at the contents the items before it
    leave, left with its two results at what its write-backs fold to and every other buffer as entered. -/

theorem outsAt2_0 (c : Dev nD) : X6 m c main_v14_0 = (dat2 (Vin2 m) c).arrAt 3 cfg2.N := by
  unfold X6
  exact Pipeline.withArrays_arr spec2 launch2.win.arr_inj c _ _ 3
theorem outsAt2_1 (c : Dev nD) : X6 m c main_v14_1 = (dat2 (Vin2 m) c).arrAt 4 cfg2.N := by
  unfold X6
  exact Pipeline.withArrays_arr spec2 launch2.win.arr_inj c _ _ 4

/-- A buffer that is neither of the region's results is as entered. -/
theorem Wout2_of (c : Dev nD) (b : Ref sig .tc) (h0 : b ≠ main_v14_0) (h1 : b ≠ main_v14_1) : W6 m c b = W5 m c b := by
  show Function.update (Function.update _ _ _) _ _ (Proc.devRef .tc b) = _
  rw [Function.update_of_ne (StableHlo.devRef_ne_of_ne h1 : (Proc.devRef .tc b : DevRef τ sig) ≠ Proc.devRef .tc main_v14_1),
    Function.update_of_ne (StableHlo.devRef_ne_of_ne h0 : (Proc.devRef .tc b : DevRef τ sig) ≠ Proc.devRef .tc main_v14_0)]
theorem Wout2_0 (c : Dev nD) : W6 m c main_v14_0 = X6 m c main_v14_0 := by
  show Function.update (Function.update _ _ _) _ _ (Proc.devRef .tc main_v14_0) = _
  rw [Function.update_of_ne (StableHlo.devRef_ne_of_ne (by decide) : (Proc.devRef .tc main_v14_0 : DevRef τ sig) ≠ Proc.devRef .tc main_v14_1), Function.update_self]
theorem Wout2_1 (c : Dev nD) : W6 m c main_v14_1 = X6 m c main_v14_1 := by
  show Function.update (Function.update _ _ _) _ _ (Proc.devRef .tc main_v14_1) = _
  rw [Function.update_self]

/-- At the region's exit each of its arrays holds what the pipeline leaves, -/
theorem hF2 (c : Dev nD) (w : Fin cfg2.W) :
    (dat2 (Vin2 m) c).arrAt w cfg2.N = (W6 m c) (Proc.devRef .tc (Pipeline.arrRef spec2 w)) := by
  fin_cases w
  · exact ((dat2 (Vin2 m) c).arrAt_in 0 rfl _).trans ((A_eq2 (Vin2 m) c 0).trans (Wout2_of m c _ (by decide) (by decide)).symm)
  · exact ((dat2 (Vin2 m) c).arrAt_in 1 rfl _).trans ((A_eq2 (Vin2 m) c 1).trans (Wout2_of m c _ (by decide) (by decide)).symm)
  · exact ((dat2 (Vin2 m) c).arrAt_in 2 rfl _).trans ((A_eq2 (Vin2 m) c 2).trans (Wout2_of m c _ (by decide) (by decide)).symm)
  · exact ((Wout2_0 m c).trans (outsAt2_0 m c)).symm
  · exact ((Wout2_1 m c).trans (outsAt2_1 m c)).symm

/-- and every other buffer what it held at entry. -/
theorem hrest2 (c : Dev nD) : ∀ b, b ∉ Finset.univ.image (Pipeline.arrRef spec2) →
    (W6 m c) (Proc.devRef .tc b) = Vin2 m c b := fun b hb =>
  Wout2_of m c b (fun e => hb (Finset.mem_image.mpr ⟨3, Finset.mem_univ _, e.symm⟩)) (fun e => hb (Finset.mem_image.mpr ⟨4, Finset.mem_univ _, e.symm⟩))

set_option backward.isDefEq.respectTransparency.types false in
def reg2 : Pipeline.RegionSeg (pcfgs (F := F)) adm (pdats m) () defs₀ 𝒱z Lz lvz 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ Lz lvz 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (Vin2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (fun b => (W6 m c) (Proc.devRef .tc b)) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 3 as a segment of the program: entered with every unscoped buffer at the contents the items before it
    leave, left with its two results at what its write-backs fold to and every other buffer as entered. -/

theorem outsAt3_0 (c : Dev nD) : X8 m c main_v17_0 = (dat3 (Vin3 m) c).arrAt 3 cfg3.N := by
  unfold X8
  exact Pipeline.withArrays_arr spec3 launch3.win.arr_inj c _ _ 3
theorem outsAt3_1 (c : Dev nD) : X8 m c main_v17_1 = (dat3 (Vin3 m) c).arrAt 4 cfg3.N := by
  unfold X8
  exact Pipeline.withArrays_arr spec3 launch3.win.arr_inj c _ _ 4

/-- A buffer that is neither of the region's results is as entered. -/
theorem Wout3_of (c : Dev nD) (b : Ref sig .tc) (h0 : b ≠ main_v17_0) (h1 : b ≠ main_v17_1) : W8 m c b = W7 m c b := by
  show Function.update (Function.update _ _ _) _ _ (Proc.devRef .tc b) = _
  rw [Function.update_of_ne (StableHlo.devRef_ne_of_ne h1 : (Proc.devRef .tc b : DevRef τ sig) ≠ Proc.devRef .tc main_v17_1),
    Function.update_of_ne (StableHlo.devRef_ne_of_ne h0 : (Proc.devRef .tc b : DevRef τ sig) ≠ Proc.devRef .tc main_v17_0)]
theorem Wout3_0 (c : Dev nD) : W8 m c main_v17_0 = X8 m c main_v17_0 := by
  show Function.update (Function.update _ _ _) _ _ (Proc.devRef .tc main_v17_0) = _
  rw [Function.update_of_ne (StableHlo.devRef_ne_of_ne (by decide) : (Proc.devRef .tc main_v17_0 : DevRef τ sig) ≠ Proc.devRef .tc main_v17_1), Function.update_self]
theorem Wout3_1 (c : Dev nD) : W8 m c main_v17_1 = X8 m c main_v17_1 := by
  show Function.update (Function.update _ _ _) _ _ (Proc.devRef .tc main_v17_1) = _
  rw [Function.update_self]

/-- At the region's exit each of its arrays holds what the pipeline leaves, -/
theorem hF3 (c : Dev nD) (w : Fin cfg3.W) :
    (dat3 (Vin3 m) c).arrAt w cfg3.N = (W8 m c) (Proc.devRef .tc (Pipeline.arrRef spec3 w)) := by
  fin_cases w
  · exact ((dat3 (Vin3 m) c).arrAt_in 0 rfl _).trans ((A_eq3 (Vin3 m) c 0).trans (Wout3_of m c _ (by decide) (by decide)).symm)
  · exact ((dat3 (Vin3 m) c).arrAt_in 1 rfl _).trans ((A_eq3 (Vin3 m) c 1).trans (Wout3_of m c _ (by decide) (by decide)).symm)
  · exact ((dat3 (Vin3 m) c).arrAt_in 2 rfl _).trans ((A_eq3 (Vin3 m) c 2).trans (Wout3_of m c _ (by decide) (by decide)).symm)
  · exact ((Wout3_0 m c).trans (outsAt3_0 m c)).symm
  · exact ((Wout3_1 m c).trans (outsAt3_1 m c)).symm

/-- and every other buffer what it held at entry. -/
theorem hrest3 (c : Dev nD) : ∀ b, b ∉ Finset.univ.image (Pipeline.arrRef spec3) →
    (W8 m c) (Proc.devRef .tc b) = Vin3 m c b := fun b hb =>
  Wout3_of m c b (fun e => hb (Finset.mem_image.mpr ⟨3, Finset.mem_univ _, e.symm⟩)) (fun e => hb (Finset.mem_image.mpr ⟨4, Finset.mem_univ _, e.symm⟩))

set_option backward.isDefEq.respectTransparency.types false in
def reg3 : Pipeline.RegionSeg (pcfgs (F := F)) adm (pdats m) () defs₀ 𝒱z Lz lvz 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ Lz lvz 3 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from hout3 (Vin3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (fun b => (W8 m c) (Proc.devRef .tc b)) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 4 as a segment of the program: entered with every unscoped buffer at the contents the items before it
    leave, left with its two results at what its write-backs fold to and every other buffer as entered. -/

theorem outsAt4_0 (c : Dev nD) : X10 m c main_v26_0 = (dat4 (Vin4 m) c).arrAt 3 cfg4.N := by
  unfold X10
  exact Pipeline.withArrays_arr spec4 launch4.win.arr_inj c _ _ 3
theorem outsAt4_1 (c : Dev nD) : X10 m c main_v26_1 = (dat4 (Vin4 m) c).arrAt 4 cfg4.N := by
  unfold X10
  exact Pipeline.withArrays_arr spec4 launch4.win.arr_inj c _ _ 4

/-- A buffer that is neither of the region's results is as entered. -/
theorem Wout4_of (c : Dev nD) (b : Ref sig .tc) (h0 : b ≠ main_v26_0) (h1 : b ≠ main_v26_1) : W10 m c b = W9 m c b := by
  show Function.update (Function.update _ _ _) _ _ (Proc.devRef .tc b) = _
  rw [Function.update_of_ne (StableHlo.devRef_ne_of_ne h1 : (Proc.devRef .tc b : DevRef τ sig) ≠ Proc.devRef .tc main_v26_1),
    Function.update_of_ne (StableHlo.devRef_ne_of_ne h0 : (Proc.devRef .tc b : DevRef τ sig) ≠ Proc.devRef .tc main_v26_0)]
theorem Wout4_0 (c : Dev nD) : W10 m c main_v26_0 = X10 m c main_v26_0 := by
  show Function.update (Function.update _ _ _) _ _ (Proc.devRef .tc main_v26_0) = _
  rw [Function.update_of_ne (StableHlo.devRef_ne_of_ne (by decide) : (Proc.devRef .tc main_v26_0 : DevRef τ sig) ≠ Proc.devRef .tc main_v26_1), Function.update_self]
theorem Wout4_1 (c : Dev nD) : W10 m c main_v26_1 = X10 m c main_v26_1 := by
  show Function.update (Function.update _ _ _) _ _ (Proc.devRef .tc main_v26_1) = _
  rw [Function.update_self]

/-- At the region's exit each of its arrays holds what the pipeline leaves, -/
theorem hF4 (c : Dev nD) (w : Fin cfg4.W) :
    (dat4 (Vin4 m) c).arrAt w cfg4.N = (W10 m c) (Proc.devRef .tc (Pipeline.arrRef spec4 w)) := by
  fin_cases w
  · exact ((dat4 (Vin4 m) c).arrAt_in 0 rfl _).trans ((A_eq4 (Vin4 m) c 0).trans (Wout4_of m c _ (by decide) (by decide)).symm)
  · exact ((dat4 (Vin4 m) c).arrAt_in 1 rfl _).trans ((A_eq4 (Vin4 m) c 1).trans (Wout4_of m c _ (by decide) (by decide)).symm)
  · exact ((dat4 (Vin4 m) c).arrAt_in 2 rfl _).trans ((A_eq4 (Vin4 m) c 2).trans (Wout4_of m c _ (by decide) (by decide)).symm)
  · exact ((Wout4_0 m c).trans (outsAt4_0 m c)).symm
  · exact ((Wout4_1 m c).trans (outsAt4_1 m c)).symm

/-- and every other buffer what it held at entry. -/
theorem hrest4 (c : Dev nD) : ∀ b, b ∉ Finset.univ.image (Pipeline.arrRef spec4) →
    (W10 m c) (Proc.devRef .tc b) = Vin4 m c b := fun b hb =>
  Wout4_of m c b (fun e => hb (Finset.mem_image.mpr ⟨3, Finset.mem_univ _, e.symm⟩)) (fun e => hb (Finset.mem_image.mpr ⟨4, Finset.mem_univ _, e.symm⟩))

set_option backward.isDefEq.respectTransparency.types false in
def reg4 : Pipeline.RegionSeg (pcfgs (F := F)) adm (pdats m) () defs₀ 𝒱z Lz lvz 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ Lz lvz 4 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (Vin4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (fun b => (W10 m c) (Proc.devRef .tc b)) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg5.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 5 as a segment of the program: entered with every unscoped buffer at the contents the items before it
    leave, left with its two results at what its write-backs fold to and every other buffer as entered. -/

theorem outsAt5_0 (c : Dev nD) : X12 m c main_v29_0 = (dat5 (Vin5 m) c).arrAt 3 cfg5.N := by
  unfold X12
  exact Pipeline.withArrays_arr spec5 launch5.win.arr_inj c _ _ 3
theorem outsAt5_1 (c : Dev nD) : X12 m c main_v29_1 = (dat5 (Vin5 m) c).arrAt 4 cfg5.N := by
  unfold X12
  exact Pipeline.withArrays_arr spec5 launch5.win.arr_inj c _ _ 4

/-- A buffer that is neither of the region's results is as entered. -/
theorem Wout5_of (c : Dev nD) (b : Ref sig .tc) (h0 : b ≠ main_v29_0) (h1 : b ≠ main_v29_1) : W12 m c b = W11 m c b := by
  show Function.update (Function.update _ _ _) _ _ (Proc.devRef .tc b) = _
  rw [Function.update_of_ne (StableHlo.devRef_ne_of_ne h1 : (Proc.devRef .tc b : DevRef τ sig) ≠ Proc.devRef .tc main_v29_1),
    Function.update_of_ne (StableHlo.devRef_ne_of_ne h0 : (Proc.devRef .tc b : DevRef τ sig) ≠ Proc.devRef .tc main_v29_0)]
theorem Wout5_0 (c : Dev nD) : W12 m c main_v29_0 = X12 m c main_v29_0 := by
  show Function.update (Function.update _ _ _) _ _ (Proc.devRef .tc main_v29_0) = _
  rw [Function.update_of_ne (StableHlo.devRef_ne_of_ne (by decide) : (Proc.devRef .tc main_v29_0 : DevRef τ sig) ≠ Proc.devRef .tc main_v29_1), Function.update_self]
theorem Wout5_1 (c : Dev nD) : W12 m c main_v29_1 = X12 m c main_v29_1 := by
  show Function.update (Function.update _ _ _) _ _ (Proc.devRef .tc main_v29_1) = _
  rw [Function.update_self]

/-- At the region's exit each of its arrays holds what the pipeline leaves, -/
theorem hF5 (c : Dev nD) (w : Fin cfg5.W) :
    (dat5 (Vin5 m) c).arrAt w cfg5.N = (W12 m c) (Proc.devRef .tc (Pipeline.arrRef spec5 w)) := by
  fin_cases w
  · exact ((dat5 (Vin5 m) c).arrAt_in 0 rfl _).trans ((A_eq5 (Vin5 m) c 0).trans (Wout5_of m c _ (by decide) (by decide)).symm)
  · exact ((dat5 (Vin5 m) c).arrAt_in 1 rfl _).trans ((A_eq5 (Vin5 m) c 1).trans (Wout5_of m c _ (by decide) (by decide)).symm)
  · exact ((dat5 (Vin5 m) c).arrAt_in 2 rfl _).trans ((A_eq5 (Vin5 m) c 2).trans (Wout5_of m c _ (by decide) (by decide)).symm)
  · exact ((Wout5_0 m c).trans (outsAt5_0 m c)).symm
  · exact ((Wout5_1 m c).trans (outsAt5_1 m c)).symm

/-- and every other buffer what it held at entry. -/
theorem hrest5 (c : Dev nD) : ∀ b, b ∉ Finset.univ.image (Pipeline.arrRef spec5) →
    (W12 m c) (Proc.devRef .tc b) = Vin5 m c b := fun b hb =>
  Wout5_of m c b (fun e => hb (Finset.mem_image.mpr ⟨3, Finset.mem_univ _, e.symm⟩)) (fun e => hb (Finset.mem_image.mpr ⟨4, Finset.mem_univ _, e.symm⟩))

set_option backward.isDefEq.respectTransparency.types false in
def reg5 : Pipeline.RegionSeg (pcfgs (F := F)) adm (pdats m) () defs₀ 𝒱z Lz lvz 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ Lz lvz 5 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (Vin5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from hout5 (Vin5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin5 m c) (fun b => (W12 m c) (Proc.devRef .tc b)) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg6.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 6 as a segment of the program: entered with every unscoped buffer at the contents the items before it
    leave, left with its two results at what its write-backs fold to and every other buffer as entered. -/

theorem outsAt6_0 (c : Dev nD) : X14 m c main_v38_0 = (dat6 (Vin6 m) c).arrAt 3 cfg6.N := by
  unfold X14
  exact Pipeline.withArrays_arr spec6 launch6.win.arr_inj c _ _ 3
theorem outsAt6_1 (c : Dev nD) : X14 m c main_v38_1 = (dat6 (Vin6 m) c).arrAt 4 cfg6.N := by
  unfold X14
  exact Pipeline.withArrays_arr spec6 launch6.win.arr_inj c _ _ 4

/-- A buffer that is neither of the region's results is as entered. -/
theorem Wout6_of (c : Dev nD) (b : Ref sig .tc) (h0 : b ≠ main_v38_0) (h1 : b ≠ main_v38_1) : W14 m c b = W13 m c b := by
  show Function.update (Function.update _ _ _) _ _ (Proc.devRef .tc b) = _
  rw [Function.update_of_ne (StableHlo.devRef_ne_of_ne h1 : (Proc.devRef .tc b : DevRef τ sig) ≠ Proc.devRef .tc main_v38_1),
    Function.update_of_ne (StableHlo.devRef_ne_of_ne h0 : (Proc.devRef .tc b : DevRef τ sig) ≠ Proc.devRef .tc main_v38_0)]
theorem Wout6_0 (c : Dev nD) : W14 m c main_v38_0 = X14 m c main_v38_0 := by
  show Function.update (Function.update _ _ _) _ _ (Proc.devRef .tc main_v38_0) = _
  rw [Function.update_of_ne (StableHlo.devRef_ne_of_ne (by decide) : (Proc.devRef .tc main_v38_0 : DevRef τ sig) ≠ Proc.devRef .tc main_v38_1), Function.update_self]
theorem Wout6_1 (c : Dev nD) : W14 m c main_v38_1 = X14 m c main_v38_1 := by
  show Function.update (Function.update _ _ _) _ _ (Proc.devRef .tc main_v38_1) = _
  rw [Function.update_self]

/-- At the region's exit each of its arrays holds what the pipeline leaves, -/
theorem hF6 (c : Dev nD) (w : Fin cfg6.W) :
    (dat6 (Vin6 m) c).arrAt w cfg6.N = (W14 m c) (Proc.devRef .tc (Pipeline.arrRef spec6 w)) := by
  fin_cases w
  · exact ((dat6 (Vin6 m) c).arrAt_in 0 rfl _).trans ((A_eq6 (Vin6 m) c 0).trans (Wout6_of m c _ (by decide) (by decide)).symm)
  · exact ((dat6 (Vin6 m) c).arrAt_in 1 rfl _).trans ((A_eq6 (Vin6 m) c 1).trans (Wout6_of m c _ (by decide) (by decide)).symm)
  · exact ((dat6 (Vin6 m) c).arrAt_in 2 rfl _).trans ((A_eq6 (Vin6 m) c 2).trans (Wout6_of m c _ (by decide) (by decide)).symm)
  · exact ((Wout6_0 m c).trans (outsAt6_0 m c)).symm
  · exact ((Wout6_1 m c).trans (outsAt6_1 m c)).symm

/-- and every other buffer what it held at entry. -/
theorem hrest6 (c : Dev nD) : ∀ b, b ∉ Finset.univ.image (Pipeline.arrRef spec6) →
    (W14 m c) (Proc.devRef .tc b) = Vin6 m c b := fun b hb =>
  Wout6_of m c b (fun e => hb (Finset.mem_image.mpr ⟨3, Finset.mem_univ _, e.symm⟩)) (fun e => hb (Finset.mem_image.mpr ⟨4, Finset.mem_univ _, e.symm⟩))

set_option backward.isDefEq.respectTransparency.types false in
def reg6 : Pipeline.RegionSeg (pcfgs (F := F)) adm (pdats m) () defs₀ 𝒱z Lz lvz 6 where
  win := launch6.win.to₀
  block_pos := launch6.block_pos
  stage_whole := launch6.stage_whole
  K := PEmpty
  osem k := k.elim
  ho := Pipeline.OwnSemFacts.none _
  hbody c := (body_obligation6 (Vin6 m) c).loose
  hwaits := Pipeline.hwaits_of_owed_zero _ _ _ _ Lz lvz 6 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (Vin6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vin6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from hout6 (Vin6 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vin6 m c) (fun b => (W14 m c) (Proc.devRef .tc b)) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg7.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 7 as a segment of the program: entered with every unscoped buffer at the contents the items before it
    leave, left with its two results at what its write-backs fold to and every other buffer as entered. -/

theorem outsAt7_0 (c : Dev nD) : X16 m c main_v41_0 = (dat7 (Vin7 m) c).arrAt 3 cfg7.N := by
  unfold X16
  exact Pipeline.withArrays_arr spec7 launch7.win.arr_inj c _ _ 3
theorem outsAt7_1 (c : Dev nD) : X16 m c main_v41_1 = (dat7 (Vin7 m) c).arrAt 4 cfg7.N := by
  unfold X16
  exact Pipeline.withArrays_arr spec7 launch7.win.arr_inj c _ _ 4

/-- A buffer that is neither of the region's results is as entered. -/
theorem Wout7_of (c : Dev nD) (b : Ref sig .tc) (h0 : b ≠ main_v41_0) (h1 : b ≠ main_v41_1) : W16 m c b = W15 m c b := by
  show Function.update (Function.update _ _ _) _ _ (Proc.devRef .tc b) = _
  rw [Function.update_of_ne (StableHlo.devRef_ne_of_ne h1 : (Proc.devRef .tc b : DevRef τ sig) ≠ Proc.devRef .tc main_v41_1),
    Function.update_of_ne (StableHlo.devRef_ne_of_ne h0 : (Proc.devRef .tc b : DevRef τ sig) ≠ Proc.devRef .tc main_v41_0)]
theorem Wout7_0 (c : Dev nD) : W16 m c main_v41_0 = X16 m c main_v41_0 := by
  show Function.update (Function.update _ _ _) _ _ (Proc.devRef .tc main_v41_0) = _
  rw [Function.update_of_ne (StableHlo.devRef_ne_of_ne (by decide) : (Proc.devRef .tc main_v41_0 : DevRef τ sig) ≠ Proc.devRef .tc main_v41_1), Function.update_self]
theorem Wout7_1 (c : Dev nD) : W16 m c main_v41_1 = X16 m c main_v41_1 := by
  show Function.update (Function.update _ _ _) _ _ (Proc.devRef .tc main_v41_1) = _
  rw [Function.update_self]

/-- At the region's exit each of its arrays holds what the pipeline leaves, -/
theorem hF7 (c : Dev nD) (w : Fin cfg7.W) :
    (dat7 (Vin7 m) c).arrAt w cfg7.N = (W16 m c) (Proc.devRef .tc (Pipeline.arrRef spec7 w)) := by
  fin_cases w
  · exact ((dat7 (Vin7 m) c).arrAt_in 0 rfl _).trans ((A_eq7 (Vin7 m) c 0).trans (Wout7_of m c _ (by decide) (by decide)).symm)
  · exact ((dat7 (Vin7 m) c).arrAt_in 1 rfl _).trans ((A_eq7 (Vin7 m) c 1).trans (Wout7_of m c _ (by decide) (by decide)).symm)
  · exact ((dat7 (Vin7 m) c).arrAt_in 2 rfl _).trans ((A_eq7 (Vin7 m) c 2).trans (Wout7_of m c _ (by decide) (by decide)).symm)
  · exact ((Wout7_0 m c).trans (outsAt7_0 m c)).symm
  · exact ((Wout7_1 m c).trans (outsAt7_1 m c)).symm

/-- and every other buffer what it held at entry. -/
theorem hrest7 (c : Dev nD) : ∀ b, b ∉ Finset.univ.image (Pipeline.arrRef spec7) →
    (W16 m c) (Proc.devRef .tc b) = Vin7 m c b := fun b hb =>
  Wout7_of m c b (fun e => hb (Finset.mem_image.mpr ⟨3, Finset.mem_univ _, e.symm⟩)) (fun e => hb (Finset.mem_image.mpr ⟨4, Finset.mem_univ _, e.symm⟩))

set_option backward.isDefEq.respectTransparency.types false in
def reg7 : Pipeline.RegionSeg (pcfgs (F := F)) adm (pdats m) () defs₀ 𝒱z Lz lvz 7 where
  win := launch7.win.to₀
  block_pos := launch7.block_pos
  stage_whole := launch7.stage_whole
  K := PEmpty
  osem k := k.elim
  ho := Pipeline.OwnSemFacts.none _
  hbody c := (body_obligation7 (Vin7 m) c).loose
  hwaits := Pipeline.hwaits_of_owed_zero _ _ _ _ Lz lvz 7 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (Vin7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vin7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from hout7 (Vin7 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vin7 m c) (fun b => (W16 m c) (Proc.devRef .tc b)) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg8.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 8 as a segment of the program: entered with every unscoped buffer at the contents the items before it
    leave, left with its two results at what its write-backs fold to and every other buffer as entered. -/

theorem outsAt8_0 (c : Dev nD) : X18 m c main_v50_0 = (dat8 (Vin8 m) c).arrAt 3 cfg8.N := by
  unfold X18
  exact Pipeline.withArrays_arr spec8 launch8.win.arr_inj c _ _ 3
theorem outsAt8_1 (c : Dev nD) : X18 m c main_v50_1 = (dat8 (Vin8 m) c).arrAt 4 cfg8.N := by
  unfold X18
  exact Pipeline.withArrays_arr spec8 launch8.win.arr_inj c _ _ 4

/-- A buffer that is neither of the region's results is as entered. -/
theorem Wout8_of (c : Dev nD) (b : Ref sig .tc) (h0 : b ≠ main_v50_0) (h1 : b ≠ main_v50_1) : W18 m c b = W17 m c b := by
  show Function.update (Function.update _ _ _) _ _ (Proc.devRef .tc b) = _
  rw [Function.update_of_ne (StableHlo.devRef_ne_of_ne h1 : (Proc.devRef .tc b : DevRef τ sig) ≠ Proc.devRef .tc main_v50_1),
    Function.update_of_ne (StableHlo.devRef_ne_of_ne h0 : (Proc.devRef .tc b : DevRef τ sig) ≠ Proc.devRef .tc main_v50_0)]
theorem Wout8_0 (c : Dev nD) : W18 m c main_v50_0 = X18 m c main_v50_0 := by
  show Function.update (Function.update _ _ _) _ _ (Proc.devRef .tc main_v50_0) = _
  rw [Function.update_of_ne (StableHlo.devRef_ne_of_ne (by decide) : (Proc.devRef .tc main_v50_0 : DevRef τ sig) ≠ Proc.devRef .tc main_v50_1), Function.update_self]
theorem Wout8_1 (c : Dev nD) : W18 m c main_v50_1 = X18 m c main_v50_1 := by
  show Function.update (Function.update _ _ _) _ _ (Proc.devRef .tc main_v50_1) = _
  rw [Function.update_self]

/-- At the region's exit each of its arrays holds what the pipeline leaves, -/
theorem hF8 (c : Dev nD) (w : Fin cfg8.W) :
    (dat8 (Vin8 m) c).arrAt w cfg8.N = (W18 m c) (Proc.devRef .tc (Pipeline.arrRef spec8 w)) := by
  fin_cases w
  · exact ((dat8 (Vin8 m) c).arrAt_in 0 rfl _).trans ((A_eq8 (Vin8 m) c 0).trans (Wout8_of m c _ (by decide) (by decide)).symm)
  · exact ((dat8 (Vin8 m) c).arrAt_in 1 rfl _).trans ((A_eq8 (Vin8 m) c 1).trans (Wout8_of m c _ (by decide) (by decide)).symm)
  · exact ((dat8 (Vin8 m) c).arrAt_in 2 rfl _).trans ((A_eq8 (Vin8 m) c 2).trans (Wout8_of m c _ (by decide) (by decide)).symm)
  · exact ((Wout8_0 m c).trans (outsAt8_0 m c)).symm
  · exact ((Wout8_1 m c).trans (outsAt8_1 m c)).symm

/-- and every other buffer what it held at entry. -/
theorem hrest8 (c : Dev nD) : ∀ b, b ∉ Finset.univ.image (Pipeline.arrRef spec8) →
    (W18 m c) (Proc.devRef .tc b) = Vin8 m c b := fun b hb =>
  Wout8_of m c b (fun e => hb (Finset.mem_image.mpr ⟨3, Finset.mem_univ _, e.symm⟩)) (fun e => hb (Finset.mem_image.mpr ⟨4, Finset.mem_univ _, e.symm⟩))

set_option backward.isDefEq.respectTransparency.types false in
def reg8 : Pipeline.RegionSeg (pcfgs (F := F)) adm (pdats m) () defs₀ 𝒱z Lz lvz 8 where
  win := launch8.win.to₀
  block_pos := launch8.block_pos
  stage_whole := launch8.stage_whole
  K := PEmpty
  osem k := k.elim
  ho := Pipeline.OwnSemFacts.none _
  hbody c := (body_obligation8 (Vin8 m) c).loose
  hwaits := Pipeline.hwaits_of_owed_zero _ _ _ _ Lz lvz 8 fun _ _ => rfl
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec8 c (Vin8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vin8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from hout8 (Vin8 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vin8 m c) (fun b => (W18 m c) (Proc.devRef .tc b)) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg9.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 9 as a segment of the program: entered with every unscoped buffer at the contents the items before it
    leave, left with its two results at what its write-backs fold to and every other buffer as entered. -/

theorem outsAt9_0 (c : Dev nD) : X20 m c main_v53_0 = (dat9 (Vin9 m) c).arrAt 3 cfg9.N := by
  unfold X20
  exact Pipeline.withArrays_arr spec9 launch9.win.arr_inj c _ _ 3
theorem outsAt9_1 (c : Dev nD) : X20 m c main_v53_1 = (dat9 (Vin9 m) c).arrAt 4 cfg9.N := by
  unfold X20
  exact Pipeline.withArrays_arr spec9 launch9.win.arr_inj c _ _ 4

/-- A buffer that is neither of the region's results is as entered. -/
theorem Wout9_of (c : Dev nD) (b : Ref sig .tc) (h0 : b ≠ main_v53_0) (h1 : b ≠ main_v53_1) : W20 m c b = W19 m c b := by
  show Function.update (Function.update _ _ _) _ _ (Proc.devRef .tc b) = _
  rw [Function.update_of_ne (StableHlo.devRef_ne_of_ne h1 : (Proc.devRef .tc b : DevRef τ sig) ≠ Proc.devRef .tc main_v53_1),
    Function.update_of_ne (StableHlo.devRef_ne_of_ne h0 : (Proc.devRef .tc b : DevRef τ sig) ≠ Proc.devRef .tc main_v53_0)]
theorem Wout9_0 (c : Dev nD) : W20 m c main_v53_0 = X20 m c main_v53_0 := by
  show Function.update (Function.update _ _ _) _ _ (Proc.devRef .tc main_v53_0) = _
  rw [Function.update_of_ne (StableHlo.devRef_ne_of_ne (by decide) : (Proc.devRef .tc main_v53_0 : DevRef τ sig) ≠ Proc.devRef .tc main_v53_1), Function.update_self]
theorem Wout9_1 (c : Dev nD) : W20 m c main_v53_1 = X20 m c main_v53_1 := by
  show Function.update (Function.update _ _ _) _ _ (Proc.devRef .tc main_v53_1) = _
  rw [Function.update_self]

/-- At the region's exit each of its arrays holds what the pipeline leaves, -/
theorem hF9 (c : Dev nD) (w : Fin cfg9.W) :
    (dat9 (Vin9 m) c).arrAt w cfg9.N = (W20 m c) (Proc.devRef .tc (Pipeline.arrRef spec9 w)) := by
  fin_cases w
  · exact ((dat9 (Vin9 m) c).arrAt_in 0 rfl _).trans ((A_eq9 (Vin9 m) c 0).trans (Wout9_of m c _ (by decide) (by decide)).symm)
  · exact ((dat9 (Vin9 m) c).arrAt_in 1 rfl _).trans ((A_eq9 (Vin9 m) c 1).trans (Wout9_of m c _ (by decide) (by decide)).symm)
  · exact ((dat9 (Vin9 m) c).arrAt_in 2 rfl _).trans ((A_eq9 (Vin9 m) c 2).trans (Wout9_of m c _ (by decide) (by decide)).symm)
  · exact ((Wout9_0 m c).trans (outsAt9_0 m c)).symm
  · exact ((Wout9_1 m c).trans (outsAt9_1 m c)).symm

/-- and every other buffer what it held at entry. -/
theorem hrest9 (c : Dev nD) : ∀ b, b ∉ Finset.univ.image (Pipeline.arrRef spec9) →
    (W20 m c) (Proc.devRef .tc b) = Vin9 m c b := fun b hb =>
  Wout9_of m c b (fun e => hb (Finset.mem_image.mpr ⟨3, Finset.mem_univ _, e.symm⟩)) (fun e => hb (Finset.mem_image.mpr ⟨4, Finset.mem_univ _, e.symm⟩))

set_option backward.isDefEq.respectTransparency.types false in
def reg9 : Pipeline.RegionSeg (pcfgs (F := F)) adm (pdats m) () defs₀ 𝒱z Lz lvz 9 where
  win := launch9.win.to₀
  block_pos := launch9.block_pos
  stage_whole := launch9.stage_whole
  K := PEmpty
  osem k := k.elim
  ho := Pipeline.OwnSemFacts.none _
  hbody c := (body_obligation9 (Vin9 m) c).loose
  hwaits := Pipeline.hwaits_of_owed_zero _ _ _ _ Lz lvz 9 fun _ _ => rfl
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec9 c (Vin9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vin9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from hout9 (Vin9 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vin9 m c) (fun b => (W20 m c) (Proc.devRef .tc b)) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg10.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 10 as a segment of the program: entered with every unscoped buffer at the contents the items before it
    leave, left with its two results at what its write-backs fold to and every other buffer as entered. -/

theorem outsAt10_0 (c : Dev nD) : X22 m c main_v63_0 = (dat10 (Vin10 m) c).arrAt 3 cfg10.N := by
  unfold X22
  exact Pipeline.withArrays_arr spec10 launch10.win.arr_inj c _ _ 3
theorem outsAt10_1 (c : Dev nD) : X22 m c main_v63_1 = (dat10 (Vin10 m) c).arrAt 4 cfg10.N := by
  unfold X22
  exact Pipeline.withArrays_arr spec10 launch10.win.arr_inj c _ _ 4

/-- A buffer that is neither of the region's results is as entered. -/
theorem Wout10_of (c : Dev nD) (b : Ref sig .tc) (h0 : b ≠ main_v63_0) (h1 : b ≠ main_v63_1) : W22 m c b = W21 m c b := by
  show Function.update (Function.update _ _ _) _ _ (Proc.devRef .tc b) = _
  rw [Function.update_of_ne (StableHlo.devRef_ne_of_ne h1 : (Proc.devRef .tc b : DevRef τ sig) ≠ Proc.devRef .tc main_v63_1),
    Function.update_of_ne (StableHlo.devRef_ne_of_ne h0 : (Proc.devRef .tc b : DevRef τ sig) ≠ Proc.devRef .tc main_v63_0)]
theorem Wout10_0 (c : Dev nD) : W22 m c main_v63_0 = X22 m c main_v63_0 := by
  show Function.update (Function.update _ _ _) _ _ (Proc.devRef .tc main_v63_0) = _
  rw [Function.update_of_ne (StableHlo.devRef_ne_of_ne (by decide) : (Proc.devRef .tc main_v63_0 : DevRef τ sig) ≠ Proc.devRef .tc main_v63_1), Function.update_self]
theorem Wout10_1 (c : Dev nD) : W22 m c main_v63_1 = X22 m c main_v63_1 := by
  show Function.update (Function.update _ _ _) _ _ (Proc.devRef .tc main_v63_1) = _
  rw [Function.update_self]

/-- At the region's exit each of its arrays holds what the pipeline leaves, -/
theorem hF10 (c : Dev nD) (w : Fin cfg10.W) :
    (dat10 (Vin10 m) c).arrAt w cfg10.N = (W22 m c) (Proc.devRef .tc (Pipeline.arrRef spec10 w)) := by
  fin_cases w
  · exact ((dat10 (Vin10 m) c).arrAt_in 0 rfl _).trans ((A_eq10 (Vin10 m) c 0).trans (Wout10_of m c _ (by decide) (by decide)).symm)
  · exact ((dat10 (Vin10 m) c).arrAt_in 1 rfl _).trans ((A_eq10 (Vin10 m) c 1).trans (Wout10_of m c _ (by decide) (by decide)).symm)
  · exact ((dat10 (Vin10 m) c).arrAt_in 2 rfl _).trans ((A_eq10 (Vin10 m) c 2).trans (Wout10_of m c _ (by decide) (by decide)).symm)
  · exact ((Wout10_0 m c).trans (outsAt10_0 m c)).symm
  · exact ((Wout10_1 m c).trans (outsAt10_1 m c)).symm

/-- and every other buffer what it held at entry. -/
theorem hrest10 (c : Dev nD) : ∀ b, b ∉ Finset.univ.image (Pipeline.arrRef spec10) →
    (W22 m c) (Proc.devRef .tc b) = Vin10 m c b := fun b hb =>
  Wout10_of m c b (fun e => hb (Finset.mem_image.mpr ⟨3, Finset.mem_univ _, e.symm⟩)) (fun e => hb (Finset.mem_image.mpr ⟨4, Finset.mem_univ _, e.symm⟩))

set_option backward.isDefEq.respectTransparency.types false in
def reg10 : Pipeline.RegionSeg (pcfgs (F := F)) adm (pdats m) () defs₀ 𝒱z Lz lvz 10 where
  win := launch10.win.to₀
  block_pos := launch10.block_pos
  stage_whole := launch10.stage_whole
  K := PEmpty
  osem k := k.elim
  ho := Pipeline.OwnSemFacts.none _
  hbody c := (body_obligation10 (Vin10 m) c).loose
  hwaits := Pipeline.hwaits_of_owed_zero _ _ _ _ Lz lvz 10 fun _ _ => rfl
  pre c := iprop(StableHlo.held (c : Thread nD τ) (Pipeline.ucRefs τ sig) (W21 m c) ∗ Rr c)
  post c := iprop(StableHlo.held (c : Thread nD τ) (Pipeline.ucRefs τ sig) (W22 m c) ∗ Rr c)
  X c := iprop(∃ r, prngReg c r)
  Y c := iprop(∃ r, prngReg c r)
  Z c := Pipeline.unscopedRest (Ix := Unit) (Name := ℕ) (U := UR sig nD τ) (Lvl := ℕ) spec10 c (Vin10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vin10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none]
    refine (show (pdats m 10 c).Φ (Fin.last _) ⊢ Pipeline.ΦA spec10 c from hout10 (Vin10 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vin10 m c) (fun b => (W22 m c) (Proc.devRef .tc b)) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg11.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 11 as a segment of the program: entered with every unscoped buffer at the contents the items before it
    leave, left with its two results at what its write-backs fold to and every other buffer as entered. -/

theorem outsAt11_0 (c : Dev nD) : X24 m c main_v66_0 = (dat11 (Vin11 m) c).arrAt 3 cfg11.N := by
  unfold X24
  exact Pipeline.withArrays_arr spec11 launch11.win.arr_inj c _ _ 3
theorem outsAt11_1 (c : Dev nD) : X24 m c main_v66_1 = (dat11 (Vin11 m) c).arrAt 4 cfg11.N := by
  unfold X24
  exact Pipeline.withArrays_arr spec11 launch11.win.arr_inj c _ _ 4

/-- A buffer that is neither of the region's results is as entered. -/
theorem Wout11_of (c : Dev nD) (b : Ref sig .tc) (h0 : b ≠ main_v66_0) (h1 : b ≠ main_v66_1) : W24 m c b = W23 m c b := by
  show Function.update (Function.update _ _ _) _ _ (Proc.devRef .tc b) = _
  rw [Function.update_of_ne (StableHlo.devRef_ne_of_ne h1 : (Proc.devRef .tc b : DevRef τ sig) ≠ Proc.devRef .tc main_v66_1),
    Function.update_of_ne (StableHlo.devRef_ne_of_ne h0 : (Proc.devRef .tc b : DevRef τ sig) ≠ Proc.devRef .tc main_v66_0)]
theorem Wout11_0 (c : Dev nD) : W24 m c main_v66_0 = X24 m c main_v66_0 := by
  show Function.update (Function.update _ _ _) _ _ (Proc.devRef .tc main_v66_0) = _
  rw [Function.update_of_ne (StableHlo.devRef_ne_of_ne (by decide) : (Proc.devRef .tc main_v66_0 : DevRef τ sig) ≠ Proc.devRef .tc main_v66_1), Function.update_self]
theorem Wout11_1 (c : Dev nD) : W24 m c main_v66_1 = X24 m c main_v66_1 := by
  show Function.update (Function.update _ _ _) _ _ (Proc.devRef .tc main_v66_1) = _
  rw [Function.update_self]

/-- At the region's exit each of its arrays holds what the pipeline leaves, -/
theorem hF11 (c : Dev nD) (w : Fin cfg11.W) :
    (dat11 (Vin11 m) c).arrAt w cfg11.N = (W24 m c) (Proc.devRef .tc (Pipeline.arrRef spec11 w)) := by
  fin_cases w
  · exact ((dat11 (Vin11 m) c).arrAt_in 0 rfl _).trans ((A_eq11 (Vin11 m) c 0).trans (Wout11_of m c _ (by decide) (by decide)).symm)
  · exact ((dat11 (Vin11 m) c).arrAt_in 1 rfl _).trans ((A_eq11 (Vin11 m) c 1).trans (Wout11_of m c _ (by decide) (by decide)).symm)
  · exact ((dat11 (Vin11 m) c).arrAt_in 2 rfl _).trans ((A_eq11 (Vin11 m) c 2).trans (Wout11_of m c _ (by decide) (by decide)).symm)
  · exact ((Wout11_0 m c).trans (outsAt11_0 m c)).symm
  · exact ((Wout11_1 m c).trans (outsAt11_1 m c)).symm

/-- and every other buffer what it held at entry. -/
theorem hrest11 (c : Dev nD) : ∀ b, b ∉ Finset.univ.image (Pipeline.arrRef spec11) →
    (W24 m c) (Proc.devRef .tc b) = Vin11 m c b := fun b hb =>
  Wout11_of m c b (fun e => hb (Finset.mem_image.mpr ⟨3, Finset.mem_univ _, e.symm⟩)) (fun e => hb (Finset.mem_image.mpr ⟨4, Finset.mem_univ _, e.symm⟩))

set_option backward.isDefEq.respectTransparency.types false in
def reg11 : Pipeline.RegionSeg (pcfgs (F := F)) adm (pdats m) () defs₀ 𝒱z Lz lvz 11 where
  win := launch11.win.to₀
  block_pos := launch11.block_pos
  stage_whole := launch11.stage_whole
  K := PEmpty
  osem k := k.elim
  ho := Pipeline.OwnSemFacts.none _
  hbody c := (body_obligation11 (Vin11 m) c).loose
  hwaits := Pipeline.hwaits_of_owed_zero _ _ _ _ Lz lvz 11 fun _ _ => rfl
  pre c := iprop(StableHlo.held (c : Thread nD τ) (Pipeline.ucRefs τ sig) (W23 m c) ∗ Rr c)
  post c := iprop(StableHlo.held (c : Thread nD τ) (Pipeline.ucRefs τ sig) (W24 m c) ∗ Rr c)
  X c := iprop(∃ r, prngReg c r)
  Y c := iprop(∃ r, prngReg c r)
  Z c := Pipeline.unscopedRest (Ix := Unit) (Name := ℕ) (U := UR sig nD τ) (Lvl := ℕ) spec11 c (Vin11 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vin11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none]
    refine (show (pdats m 11 c).Φ (Fin.last _) ⊢ Pipeline.ΦA spec11 c from hout11 (Vin11 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vin11 m c) (fun b => (W24 m c) (Proc.devRef .tc b)) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg12.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 12 as a segment of the program: entered with every unscoped buffer at the contents the items before it
    leave, left with its two results at what its write-backs fold to and every other buffer as entered. -/

theorem outsAt12_0 (c : Dev nD) : X26 m c main_v76_0 = (dat12 (Vin12 m) c).arrAt 3 cfg12.N := by
  unfold X26
  exact Pipeline.withArrays_arr spec12 launch12.win.arr_inj c _ _ 3
theorem outsAt12_1 (c : Dev nD) : X26 m c main_v76_1 = (dat12 (Vin12 m) c).arrAt 4 cfg12.N := by
  unfold X26
  exact Pipeline.withArrays_arr spec12 launch12.win.arr_inj c _ _ 4

/-- A buffer that is neither of the region's results is as entered. -/
theorem Wout12_of (c : Dev nD) (b : Ref sig .tc) (h0 : b ≠ main_v76_0) (h1 : b ≠ main_v76_1) : W26 m c b = W25 m c b := by
  show Function.update (Function.update _ _ _) _ _ (Proc.devRef .tc b) = _
  rw [Function.update_of_ne (StableHlo.devRef_ne_of_ne h1 : (Proc.devRef .tc b : DevRef τ sig) ≠ Proc.devRef .tc main_v76_1),
    Function.update_of_ne (StableHlo.devRef_ne_of_ne h0 : (Proc.devRef .tc b : DevRef τ sig) ≠ Proc.devRef .tc main_v76_0)]
theorem Wout12_0 (c : Dev nD) : W26 m c main_v76_0 = X26 m c main_v76_0 := by
  show Function.update (Function.update _ _ _) _ _ (Proc.devRef .tc main_v76_0) = _
  rw [Function.update_of_ne (StableHlo.devRef_ne_of_ne (by decide) : (Proc.devRef .tc main_v76_0 : DevRef τ sig) ≠ Proc.devRef .tc main_v76_1), Function.update_self]
theorem Wout12_1 (c : Dev nD) : W26 m c main_v76_1 = X26 m c main_v76_1 := by
  show Function.update (Function.update _ _ _) _ _ (Proc.devRef .tc main_v76_1) = _
  rw [Function.update_self]

/-- At the region's exit each of its arrays holds what the pipeline leaves, -/
theorem hF12 (c : Dev nD) (w : Fin cfg12.W) :
    (dat12 (Vin12 m) c).arrAt w cfg12.N = (W26 m c) (Proc.devRef .tc (Pipeline.arrRef spec12 w)) := by
  fin_cases w
  · exact ((dat12 (Vin12 m) c).arrAt_in 0 rfl _).trans ((A_eq12 (Vin12 m) c 0).trans (Wout12_of m c _ (by decide) (by decide)).symm)
  · exact ((dat12 (Vin12 m) c).arrAt_in 1 rfl _).trans ((A_eq12 (Vin12 m) c 1).trans (Wout12_of m c _ (by decide) (by decide)).symm)
  · exact ((dat12 (Vin12 m) c).arrAt_in 2 rfl _).trans ((A_eq12 (Vin12 m) c 2).trans (Wout12_of m c _ (by decide) (by decide)).symm)
  · exact ((Wout12_0 m c).trans (outsAt12_0 m c)).symm
  · exact ((Wout12_1 m c).trans (outsAt12_1 m c)).symm

/-- and every other buffer what it held at entry. -/
theorem hrest12 (c : Dev nD) : ∀ b, b ∉ Finset.univ.image (Pipeline.arrRef spec12) →
    (W26 m c) (Proc.devRef .tc b) = Vin12 m c b := fun b hb =>
  Wout12_of m c b (fun e => hb (Finset.mem_image.mpr ⟨3, Finset.mem_univ _, e.symm⟩)) (fun e => hb (Finset.mem_image.mpr ⟨4, Finset.mem_univ _, e.symm⟩))

set_option backward.isDefEq.respectTransparency.types false in
def reg12 : Pipeline.RegionSeg (pcfgs (F := F)) adm (pdats m) () defs₀ 𝒱z Lz lvz 12 where
  win := launch12.win.to₀
  block_pos := launch12.block_pos
  stage_whole := launch12.stage_whole
  K := PEmpty
  osem k := k.elim
  ho := Pipeline.OwnSemFacts.none _
  hbody c := (body_obligation12 (Vin12 m) c).loose
  hwaits := Pipeline.hwaits_of_owed_zero _ _ _ _ Lz lvz 12 fun _ _ => rfl
  pre c := iprop(StableHlo.held (c : Thread nD τ) (Pipeline.ucRefs τ sig) (W25 m c) ∗ Rr c)
  post c := iprop(StableHlo.held (c : Thread nD τ) (Pipeline.ucRefs τ sig) (W26 m c) ∗ Rr c)
  X c := iprop(∃ r, prngReg c r)
  Y c := iprop(∃ r, prngReg c r)
  Z c := Pipeline.unscopedRest (Ix := Unit) (Name := ℕ) (U := UR sig nD τ) (Lvl := ℕ) spec12 c (Vin12 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vin12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none]
    refine (show (pdats m 12 c).Φ (Fin.last _) ⊢ Pipeline.ΦA spec12 c from hout12 (Vin12 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vin12 m c) (fun b => (W26 m c) (Proc.devRef .tc b)) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg13.lean ====
import proofs.«103934_j28484223107660_1_alg».proof.Proof.KI.Chain

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 13 as a segment of the program: entered with every unscoped buffer at the contents the items before it
    leave, left with its two results at what its write-backs fold to and every other buffer as entered. -/

theorem outsAt13_0 (c : Dev nD) : X28 m c main_v79_0 = (dat13 (Vin13 m) c).arrAt 3 cfg13.N := by
  unfold X28
  exact Pipeline.withArrays_arr spec13 launch13.win.arr_inj c _ _ 3
theorem outsAt13_1 (c : Dev nD) : X28 m c main_v79_1 = (dat13 (Vin13 m) c).arrAt 4 cfg13.N := by
  unfold X28
  exact Pipeline.withArrays_arr spec13 launch13.win.arr_inj c _ _ 4

/-- A buffer that is neither of the region's results is as entered. -/
theorem Wout13_of (c : Dev nD) (b : Ref sig .tc) (h0 : b ≠ main_v79_0) (h1 : b ≠ main_v79_1) : W28 m c b = W27 m c b := by
  show Function.update (Function.update _ _ _) _ _ (Proc.devRef .tc b) = _
  rw [Function.update_of_ne (StableHlo.devRef_ne_of_ne h1 : (Proc.devRef .tc b : DevRef τ sig) ≠ Proc.devRef .tc main_v79_1),
    Function.update_of_ne (StableHlo.devRef_ne_of_ne h0 : (Proc.devRef .tc b : DevRef τ sig) ≠ Proc.devRef .tc main_v79_0)]
theorem Wout13_0 (c : Dev nD) : W28 m c main_v79_0 = X28 m c main_v79_0 := by
  show Function.update (Function.update _ _ _) _ _ (Proc.devRef .tc main_v79_0) = _
  rw [Function.update_of_ne (StableHlo.devRef_ne_of_ne (by decide) : (Proc.devRef .tc main_v79_0 : DevRef τ sig) ≠ Proc.devRef .tc main_v79_1), Function.update_self]
theorem Wout13_1 (c : Dev nD) : W28 m c main_v79_1 = X28 m c main_v79_1 := by
  show Function.update (Function.update _ _ _) _ _ (Proc.devRef .tc main_v79_1) = _
  rw [Function.update_self]

/-- At the region's exit each of its arrays holds what the pipeline leaves, -/
theorem hF13 (c : Dev nD) (w : Fin cfg13.W) :
    (dat13 (Vin13 m) c).arrAt w cfg13.N = (W28 m c) (Proc.devRef .tc (Pipeline.arrRef spec13 w)) := by
  fin_cases w
  · exact ((dat13 (Vin13 m) c).arrAt_in 0 rfl _).trans ((A_eq13 (Vin13 m) c 0).trans (Wout13_of m c _ (by decide) (by decide)).symm)
  · exact ((dat13 (Vin13 m) c).arrAt_in 1 rfl _).trans ((A_eq13 (Vin13 m) c 1).trans (Wout13_of m c _ (by decide) (by decide)).symm)
  · exact ((dat13 (Vin13 m) c).arrAt_in 2 rfl _).trans ((A_eq13 (Vin13 m) c 2).trans (Wout13_of m c _ (by decide) (by decide)).symm)
  · exact ((Wout13_0 m c).trans (outsAt13_0 m c)).symm
  · exact ((Wout13_1 m c).trans (outsAt13_1 m c)).symm

/-- and every other buffer what it held at entry. -/
theorem hrest13 (c : Dev nD) : ∀ b, b ∉ Finset.univ.image (Pipeline.arrRef spec13) →
    (W28 m c) (Proc.devRef .tc b) = Vin13 m c b := fun b hb =>
  Wout13_of m c b (fun e => hb (Finset.mem_image.mpr ⟨3, Finset.mem_univ _, e.symm⟩)) (fun e => hb (Finset.mem_image.mpr ⟨4, Finset.mem_univ _, e.symm⟩))

set_option backward.isDefEq.respectTransparency.types false in
def reg13 : Pipeline.RegionSeg (pcfgs (F := F)) adm (pdats m) () defs₀ 𝒱z Lz lvz 13 where
  win := launch13.win.to₀
  block_pos := launch13.block_pos
  stage_whole := launch13.stage_whole
  K := PEmpty
  osem k := k.elim
  ho := Pipeline.OwnSemFacts.none _
  hbody c := (body_obligation13 (Vin13 m) c).loose
  hwaits := Pipeline.hwaits_of_owed_zero _ _ _ _ Lz lvz 13 fun _ _ => rfl
  pre c := iprop(StableHlo.held (c : Thread nD τ) (Pipeline.ucRefs τ sig) (W27 m c) ∗ Rr c)
  post c := iprop(StableHlo.held (c : Thread nD τ) (Pipeline.ucRefs τ sig) (W28 m c) ∗ Rr c)
  X c := iprop(∃ r, prngReg c r)
  Y c := iprop(∃ r, prngReg c r)
  Z c := Pipeline.unscopedRest (Ix := Unit) (Name := ℕ) (U := UR sig nD τ) (Lvl := ℕ) spec13 c (Vin13 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (Vin13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none]
    refine (show (pdats m 13 c).Φ (Fin.last _) ⊢ Pipeline.ΦA spec13 c from hout13 (Vin13 m) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (Vin13 m c) (fun b => (W28 m c) (Proc.devRef .tc b)) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Frame.lean ====
import proofs.«103934_j28484223107660_1_alg».proof.Proof.KI.Seg0
import proofs.«103934_j28484223107660_1_alg».proof.Proof.KI.Seg1
import proofs.«103934_j28484223107660_1_alg».proof.Proof.KI.Seg2
import proofs.«103934_j28484223107660_1_alg».proof.Proof.KI.Seg3
import proofs.«103934_j28484223107660_1_alg».proof.Proof.KI.Seg4
import proofs.«103934_j28484223107660_1_alg».proof.Proof.KI.Seg5
import proofs.«103934_j28484223107660_1_alg».proof.Proof.KI.Seg6
import proofs.«103934_j28484223107660_1_alg».proof.Proof.KI.Seg7
import proofs.«103934_j28484223107660_1_alg».proof.Proof.KI.Seg8
import proofs.«103934_j28484223107660_1_alg».proof.Proof.KI.Seg9
import proofs.«103934_j28484223107660_1_alg».proof.Proof.KI.Seg10
import proofs.«103934_j28484223107660_1_alg».proof.Proof.KI.Seg11
import proofs.«103934_j28484223107660_1_alg».proof.Proof.KI.Seg12
import proofs.«103934_j28484223107660_1_alg».proof.Proof.KI.Seg13
import proofs.«103934_j28484223107660_1_alg».proof.Proof.KI.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
/-- Every weakly fair execution of the program terminates, faulting nowhere, and every argument array ends holding its
    launch contents: the fourteen regions' records chained through the host lines between them. -/
theorem frameAll : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱z Lz lvz (fun _ _ => rfl) ρ (outsAll m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE14 := fun c => by
      iintro ⟨-, HO⟩
      iexact HO)
    (reg0 m) (fun c => .rfl) (fun c => by rw [VW2 m c]; exact .rfl)
    (reg1 m) (fun c => by rw [VW3 m c]; exact .rfl) (fun c => by rw [VW4 m c]; exact .rfl)
    (reg2 m) (fun c => by rw [VW5 m c]; exact .rfl) (fun c => by rw [VW6 m c]; exact .rfl)
    (reg3 m) (fun c => by rw [VW7 m c]; exact .rfl) (fun c => by rw [VW8 m c]; exact .rfl)
    (reg4 m) (fun c => by rw [VW9 m c]; exact .rfl) (fun c => by rw [VW10 m c]; exact .rfl)
    (reg5 m) (fun c => by rw [VW11 m c]; exact .rfl) (fun c => by rw [VW12 m c]; exact .rfl)
    (reg6 m) (fun c => by rw [VW13 m c]; exact .rfl) (fun c => by rw [VW14 m c]; exact .rfl)
    (reg7 m) (fun c => by rw [VW15 m c]; exact .rfl) (fun c => by rw [VW16 m c]; exact .rfl)
    (reg8 m) (fun c => by rw [VW17 m c]; exact .rfl) (fun c => by rw [VW18 m c]; exact .rfl)
    (reg9 m) (fun c => by rw [VW19 m c]; exact .rfl) (fun c => by rw [VW20 m c]; exact .rfl)
    (reg10 m) (fun c => by rw [VW21 m c]; exact .rfl) (fun c => by rw [VW22 m c]; exact .rfl)
    (reg11 m) (fun c => by rw [VW23 m c]; exact .rfl) (fun c => by rw [VW24 m c]; exact .rfl)
    (reg12 m) (fun c => by rw [VW25 m c]; exact .rfl) (fun c => by rw [VW26 m c]; exact .rfl)
    (reg13 m) (fun c => by rw [VW27 m c]; exact .rfl) (fun c => by rw [VW28 m c]; exact .rfl)

set_option backward.isDefEq.respectTransparency.types false in
set_option maxHeartbeats 4000000 in
/-- The same run, read also at the result buffer: it ends holding what the last host lines make of the regions' results. -/
theorem runAll : θ_run defs (onTc (τ := τ) (main (F := F))) ⟨m, fun _ => 0, ρ⟩ (fun r => ∀ c : Dev nD,
      r.2.mem ((c.tc : Thread nD τ).loc main_v105) = V29 m (outsAll m) c main_v105
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Cert.KernelIdeal.GenP.run_cond m emb₁ () 𝒱z Lz lvz (fun _ _ => rfl) ρ (outsAll m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE14 := fun c => by
      iintro ⟨-, HO⟩
      iexact HO)
    (reg0 m) (fun c => .rfl) (fun c => by rw [VW2 m c]; exact .rfl)
    (reg1 m) (fun c => by rw [VW3 m c]; exact .rfl) (fun c => by rw [VW4 m c]; exact .rfl)
    (reg2 m) (fun c => by rw [VW5 m c]; exact .rfl) (fun c => by rw [VW6 m c]; exact .rfl)
    (reg3 m) (fun c => by rw [VW7 m c]; exact .rfl) (fun c => by rw [VW8 m c]; exact .rfl)
    (reg4 m) (fun c => by rw [VW9 m c]; exact .rfl) (fun c => by rw [VW10 m c]; exact .rfl)
    (reg5 m) (fun c => by rw [VW11 m c]; exact .rfl) (fun c => by rw [VW12 m c]; exact .rfl)
    (reg6 m) (fun c => by rw [VW13 m c]; exact .rfl) (fun c => by rw [VW14 m c]; exact .rfl)
    (reg7 m) (fun c => by rw [VW15 m c]; exact .rfl) (fun c => by rw [VW16 m c]; exact .rfl)
    (reg8 m) (fun c => by rw [VW17 m c]; exact .rfl) (fun c => by rw [VW18 m c]; exact .rfl)
    (reg9 m) (fun c => by rw [VW19 m c]; exact .rfl) (fun c => by rw [VW20 m c]; exact .rfl)
    (reg10 m) (fun c => by rw [VW21 m c]; exact .rfl) (fun c => by rw [VW22 m c]; exact .rfl)
    (reg11 m) (fun c => by rw [VW23 m c]; exact .rfl) (fun c => by rw [VW24 m c]; exact .rfl)
    (reg12 m) (fun c => by rw [VW25 m c]; exact .rfl) (fun c => by rw [VW26 m c]; exact .rfl)
    (reg13 m) (fun c => by rw [VW27 m c]; exact .rfl) (fun c => by rw [VW28 m c]; exact .rfl)

end Cert.KernelIdeal.Hand

end
-- ==== Proof.K.Common.lean ====
import proofs.«103934_j28484223107660_1_alg».proof.Proof.Gen.Kernel.Launch
import proofs.«103934_j28484223107660_1_alg».proof.Proof.Gen.Kernel.Skeleton
import proofs.«103934_j28484223107660_1_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The two conditionals of the layer kernel's body, as functions of the grid point: the first holds at
    the first row block (the accumulators are reset there), the second at the last (the column result is
    normalised and stored there). -/

/-- The body's first conditional: the row-block index is 0. -/
abbrev condFirst (i : grid0.Coords) : Prop :=
  (Scalar.cmpi .ne (Scalar.extui (Scalar.cmpi .eq (BitVec.ofNat 32 (i 0).val) 0#32)) 0#32) = 1#1
/-- The body's second conditional: the row-block index is 7. -/
abbrev condLast (i : grid0.Coords) : Prop := k0_cond2 i = 1#1

theorem condFirst_iff : ∀ t : Fin grid0.N, condFirst (grid0.coords t) ↔ t.val = 0 := by decide +kernel
theorem condLast_iff : ∀ t : Fin grid0.N, condLast (grid0.coords t) ↔ t.val = 7 := by decide +kernel

end Cert.Kernel.Hand

end
-- ==== Proof.K.RunEA.lean ====
import proofs.«103934_j28484223107660_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at the first row block (the accumulators are reset there; nothing is stored into the column result, whose buffer is handed back untouched): the pieces its stores leave in each buffer it stores into, found by
    running it, with the proof that from whole buffers holding the three input blocks it runs to the
    continuation with those pieces written and the inputs as they were. -/
noncomputable def runEA (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32) :
    Σ' (L4 : List (View.Piece (Elt F) S512x64 .f32)) (LS0 : List (View.Piece (Elt F) S4096x64 .f32)), { LS1 : List (View.Piece (Elt F) S1x4096 .f32) //
      ∀ (xi5 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xi5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__mlgcn_layer_kernel i arg1 harg1 arg2 harg2 arg3 harg3 arg4 harg4 arg5 harg5 arg6 harg6 arg7 harg7) K } := by
  refine ⟨?_, ?_, ?_, fun xi5 E K => ?run⟩
  case run =>
    simp only [cc0__mlgcn_layer_kernel_eq_skeleton]; unfold cc0__mlgcn_layer_kernel_skel
    simp only [k0_part1_eq_skeleton]; unfold k0_part1_skel
    unfold owns
    iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]; · iexists _; iexact H6
    iexists _; iexact H7

end Cert.Kernel.Hand

end
-- ==== Proof.K.RunEB.lean ====
import proofs.«103934_j28484223107660_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at a middle row block (the accumulators, found at the contents the block before left, are added to; nothing is stored into the column result, whose buffer is handed back untouched): the pieces its stores leave in each buffer it stores into, found by
    running it, with the proof that from whole buffers holding the three input blocks it runs to the
    continuation with those pieces written and the inputs as they were. -/
noncomputable def runEB (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32) :
    Σ' (L4 : List (View.Piece (Elt F) S512x64 .f32)) (LS0 : List (View.Piece (Elt F) S4096x64 .f32)), { LS1 : List (View.Piece (Elt F) S1x4096 .f32) //
      ∀ (xi5 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xi5
            ∗ owns (c : Thread nD τ) arg6 fullShare xs6 ∗ owns (c : Thread nD τ) arg7 fullShare xs7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__mlgcn_layer_kernel i arg1 harg1 arg2 harg2 arg3 harg3 arg4 harg4 arg5 harg5 arg6 harg6 arg7 harg7) K } := by
  refine ⟨?_, ?_, ?_, fun xi5 E K => ?run⟩
  case run =>
    simp only [cc0__mlgcn_layer_kernel_eq_skeleton]; unfold cc0__mlgcn_layer_kernel_skel
    simp only [k0_part1_eq_skeleton]; unfold k0_part1_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]; · iexists _; iexact H6
    iexists _; iexact H7

end Cert.Kernel.Hand

end
-- ==== Proof.K.RunEC.lean ====
import proofs.«103934_j28484223107660_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at the last row block (the accumulators are added to, and the column result is stored: the accumulated weighted sums over the accumulated column degrees): the pieces its stores leave in each buffer it stores into, found by
    running it, with the proof that from whole buffers holding the three input blocks it runs to the
    continuation with those pieces written and the inputs as they were. -/
noncomputable def runEC (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32) :
    Σ' (L4 : List (View.Piece (Elt F) S512x64 .f32)) (L5 : List (View.Piece (Elt F) S4096x64 .f32)) (LS0 : List (View.Piece (Elt F) S4096x64 .f32)), { LS1 : List (View.Piece (Elt F) S1x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__mlgcn_layer_kernel i arg1 harg1 arg2 harg2 arg3 harg3 arg4 harg4 arg5 harg5 arg6 harg6 arg7 harg7) K } := by
  refine ⟨?_, ?_, ?_, ?_, fun E K => ?run⟩
  case run =>
    simp only [cc0__mlgcn_layer_kernel_eq_skeleton]; unfold cc0__mlgcn_layer_kernel_skel
    simp only [k0_part1_eq_skeleton]; unfold k0_part1_skel
    unfold owns
    iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf1; obtain rfl := harg2.eq_unread hf2; obtain rfl := harg3.eq_unread hf3; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.Kernel.Hand

end
-- ==== Proof.K.PieceE.lean ====
import proofs.«103934_j28484223107660_1_alg».proof.Proof.K.RunEA
import proofs.«103934_j28484223107660_1_alg».proof.Proof.K.RunEB
import proofs.«103934_j28484223107660_1_alg».proof.Proof.K.RunEC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer access is zero on both axes. -/
theorem off00 : (![0, 0] : Fin 2 → ℕ) = fun _ => 0 := by funext a; fin_cases a <;> rfl

/-- After the body's run (case A) the row result's buffer holds the block's quotients: the last store through the whole buffer decides its contents. -/
theorem pieceEA_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S512x64 .f32) (f : v.ty.Contents (Elt F)) :
    v.read (Elt F) (v.writes (Elt F) f (runEA c i arg1 harg1 arg2 harg2 arg3 harg3 arg4 harg4 arg5 harg5 arg6 harg6 arg7 harg7 hc0 hc1 x1 x2 x3).1) = k0_pay5 x1 x3 := by
  rw [View.read_writes_eq_canon v f _ (View.cover_of_tiledL _ S512x64.size (by sl_kernel_rfl))]
  unfold runEA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case A) the accumulator of weighted sums holds the block's contribution added to what it held: the last store through the whole buffer decides its contents. -/
theorem pieceEA_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S4096x64 .f32) (f : v.ty.Contents (Elt F)) :
    v.read (Elt F) (v.writes (Elt F) f (runEA c i arg1 harg1 arg2 harg2 arg3 harg3 arg4 harg4 arg5 harg5 arg6 harg6 arg7 harg7 hc0 hc1 x1 x2 x3).2.1) = k0_pay6 x1 x2 (k0_pay2 (F := F)) := by
  rw [View.read_writes_eq_canon v f _ (View.cover_of_tiledL _ S4096x64.size (by sl_kernel_rfl))]
  unfold runEA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case A) the accumulator of column degrees holds the block's column sums added to what it held: the last store through the whole buffer decides its contents. -/
theorem pieceEA_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S1x4096 .f32) (f : v.ty.Contents (Elt F)) :
    v.read (Elt F) (v.writes (Elt F) f (runEA c i arg1 harg1 arg2 harg2 arg3 harg3 arg4 harg4 arg5 harg5 arg6 harg6 arg7 harg7 hc0 hc1 x1 x2 x3).2.2.1) = k0_pay7 x1 (k0_pay3 (F := F)) := by
  rw [View.read_writes_eq_canon v f _ (View.cover_of_tiledL _ S1x4096.size (by sl_kernel_rfl))]
  unfold runEA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the row result's buffer holds the block's quotients: the last store through the whole buffer decides its contents. -/
theorem pieceEB_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S512x64 .f32) (f : v.ty.Contents (Elt F)) :
    v.read (Elt F) (v.writes (Elt F) f (runEB c i arg1 harg1 arg2 harg2 arg3 harg3 arg4 harg4 arg5 harg5 arg6 harg6 arg7 harg7 hc0 hc1 x1 x2 x3 xs6 xs7).1) = k0_pay5 x1 x3 := by
  rw [View.read_writes_eq_canon v f _ (View.cover_of_tiledL _ S512x64.size (by sl_kernel_rfl))]
  unfold runEB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the accumulator of weighted sums holds the block's contribution added to what it held: the last store through the whole buffer decides its contents. -/
theorem pieceEB_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runEB c i arg1 harg1 arg2 harg2 arg3 harg3 arg4 harg4 arg5 harg5 arg6 harg6 arg7 harg7 hc0 hc1 x1 x2 x3 xs6 xs7).2.1) = k0_pay6 x1 x2 xs6 := by
  rw [View.read_writes_eq_canon v f _ (View.cover_of_tiledL _ S4096x64.size (by sl_kernel_rfl))]
  unfold runEB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the accumulator of column degrees holds the block's column sums added to what it held: the last store through the whole buffer decides its contents. -/
theorem pieceEB_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S1x4096 .f32) (f : v.ty.Contents (Elt F)) :
    v.read (Elt F) (v.writes (Elt F) f (runEB c i arg1 harg1 arg2 harg2 arg3 harg3 arg4 harg4 arg5 harg5 arg6 harg6 arg7 harg7 hc0 hc1 x1 x2 x3 xs6 xs7).2.2.1) = k0_pay7 x1 xs7 := by
  rw [View.read_writes_eq_canon v f _ (View.cover_of_tiledL _ S1x4096.size (by sl_kernel_rfl))]
  unfold runEB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the row result's buffer holds the block's quotients: the last store through the whole buffer decides its contents. -/
theorem pieceEC_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S512x64 .f32) (f : v.ty.Contents (Elt F)) :
    v.read (Elt F) (v.writes (Elt F) f (runEC c i arg1 harg1 arg2 harg2 arg3 harg3 arg4 harg4 arg5 harg5 arg6 harg6 arg7 harg7 hc0 hc1 x1 x2 x3 xs6 xs7).1) = k0_pay5 x1 x3 := by
  rw [View.read_writes_eq_canon v f _ (View.cover_of_tiledL _ S512x64.size (by sl_kernel_rfl))]
  unfold runEC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the column result's buffer holds the accumulated quotients: the last store through the whole buffer decides its contents. -/
theorem pieceEC_o5 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runEC c i arg1 harg1 arg2 harg2 arg3 harg3 arg4 harg4 arg5 harg5 arg6 harg6 arg7 harg7 hc0 hc1 x1 x2 x3 xs6 xs7).2.1) = k0_pay1 (k0_pay7 x1 xs7) (k0_pay6 x1 x2 xs6) := by
  rw [View.read_writes_eq_canon v f _ (View.cover_of_tiledL _ S4096x64.size (by sl_kernel_rfl))]
  unfold runEC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the accumulator of weighted sums holds the block's contribution added to what it held: the last store through the whole buffer decides its contents. -/
theorem pieceEC_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runEC c i arg1 harg1 arg2 harg2 arg3 harg3 arg4 harg4 arg5 harg5 arg6 harg6 arg7 harg7 hc0 hc1 x1 x2 x3 xs6 xs7).2.2.1) = k0_pay6 x1 x2 xs6 := by
  rw [View.read_writes_eq_canon v f _ (View.cover_of_tiledL _ S4096x64.size (by sl_kernel_rfl))]
  unfold runEC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the accumulator of column degrees holds the block's column sums added to what it held: the last store through the whole buffer decides its contents. -/
theorem pieceEC_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S1x4096 .f32) (f : v.ty.Contents (Elt F)) :
    v.read (Elt F) (v.writes (Elt F) f (runEC c i arg1 harg1 arg2 harg2 arg3 harg3 arg4 harg4 arg5 harg5 arg6 harg6 arg7 harg7 hc0 hc1 x1 x2 x3 xs6 xs7).2.2.2.1) = k0_pay7 x1 xs7 := by
  rw [View.read_writes_eq_canon v f _ (View.cover_of_tiledL _ S1x4096.size (by sl_kernel_rfl))]
  unfold runEC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

end Cert.Kernel.Hand

end
-- ==== Proof.K.Reg0.lean ====
import proofs.«103934_j28484223107660_1_alg».proof.Proof.K.RunEA
import proofs.«103934_j28484223107660_1_alg».proof.Proof.K.RunEB
import proofs.«103934_j28484223107660_1_alg».proof.Proof.K.RunEC
import proofs.«103934_j28484223107660_1_alg».proof.Proof.K.PieceE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

/- The contents of the core's buffers when region 0 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every row block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every row block, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every row block, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## Where the windows are idle, and where the column result is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Before the last row block nothing is stored into the column result's buffer, -/
theorem idleAt0_4 : ∀ t : Fin cfg0.N, ¬condLast (grid0.coords t) → cfg0.idle 4 (grid0.coords t) = true := by decide +kernel
/-- and it is not written back there; -/
theorem noFlush0_4 : ∀ t : Fin cfg0.N, ¬condLast (grid0.coords t) → (cfg0.win 4).flush t = false := by decide +kernel
/-- at the last row block it is stored. -/
theorem liveAt0_4_C : ∀ t : Fin cfg0.N, condLast (grid0.coords t) → cfg0.idle 4 (grid0.coords t) = false := by decide +kernel

/-! ## The staging buffers and the two accumulators -/

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x64 .f32 := win0_4.stage (cfg0.slots t 4)
abbrev hs0_4 (t : Fin cfg0.N) : (ms0_4 t).IsWhole := hstage0_4 ((cfg0.slots t 4).cast nbuf0_4)
/-- The accumulator of the weighted sums, and the accumulator of the column degrees: whole buffers of the kernel's own. -/
abbrev scM0_0 : Memref sig .tc .vmem S4096x64 .f32 := Memref.whole cc0_scratch0
abbrev scM0_1 : Memref sig .tc .vmem S1x4096 .f32 := Memref.whole cc0_scratch1

/-- What the region is handed besides its windows: the two accumulators at some contents, the other scoped
    buffers unopened, the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## What the accumulators hold after each row block -/

/-- After row block 0: the block's contribution added to zero; after row block `n + 1`: its contribution added to
    what row block `n` left. First the weighted sums, then the column degrees. -/
def accAt0 (c : Dev nD) : (n : ℕ) → n < cfg0.N → Vec F S4096x64 .f32 × Vec F S1x4096 .f32
  | 0, hn => (k0_pay6 (iblk0 V c 0 ⟨0, hn⟩) (iblk0 V c 1 ⟨0, hn⟩) (k0_pay2 (F := F)), k0_pay7 (iblk0 V c 0 ⟨0, hn⟩) (k0_pay3 (F := F)))
  | n + 1, hn => (k0_pay6 (iblk0 V c 0 ⟨n + 1, hn⟩) (iblk0 V c 1 ⟨n + 1, hn⟩) (accAt0 c n (Nat.lt_of_succ_lt hn)).1,
      k0_pay7 (iblk0 V c 0 ⟨n + 1, hn⟩) (accAt0 c n (Nat.lt_of_succ_lt hn)).2)

theorem accAt0_zero (c : Dev nD) (t : Fin cfg0.N) (h0 : t.val = 0) :
    accAt0 V c t.val t.isLt = (k0_pay6 (iblk0 V c 0 t) (iblk0 V c 1 t) (k0_pay2 (F := F)), k0_pay7 (iblk0 V c 0 t) (k0_pay3 (F := F))) := by
  obtain ⟨n, hn⟩ := t
  cases n with
  | zero => rfl
  | succ n => exact absurd h0 (Nat.succ_ne_zero n)

theorem accAt0_pos (c : Dev nD) (t : Fin cfg0.N) (h0 : ¬t.val = 0) :
    accAt0 V c t.val t.isLt = (k0_pay6 (iblk0 V c 0 t) (iblk0 V c 1 t) (accAt0 V c (t.val - 1) (Nat.lt_of_le_of_lt (Nat.sub_le _ _) t.isLt)).1,
      k0_pay7 (iblk0 V c 0 t) (accAt0 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS0 (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare (accAt0 V c n hn).1 ∗ owns (c : Thread nD τ) scM0_1 fullShare (accAt0 V c n hn).2)
      ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : ¬n = 0) :
    PhiS0 V c n h = iprop(iprop(iprop(owns (c : Thread nD τ) scM0_0 fullShare (accAt0 V c (n - 1) (by omega)).1 ∗ owns (c : Thread nD τ) scM0_1 fullShare (accAt0 V c (n - 1) (by omega)).2)
      ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- Region 0's proof data on core `c`: the arrays as the region finds them; after the body at row block `t`
    each input's buffer at its block, the row result's at the block's quotients, the column result's at the
    accumulated quotients (consulted at the last row block only, where it is stored); the invariant above;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay5 (iblk0 V c 0 t) (iblk0 V c 2 t)
    | ⟨4, _⟩ => k0_pay1 (accAt0 V c t.val t.isLt).2 (accAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay5 (iblk0 V c 0 t) (iblk0 V c 2 t) := by dsimp only [dat0]
theorem after0_4 (c : Dev nD) (t : Fin cfg0.N) : (dat0 V c).after 4 t = k0_pay1 (accAt0 V c t.val t.isLt).2 (accAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at row block `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 8 := lt_of_lt_of_eq t.isLt (show cfg0.N = 8 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  by_cases h0 : t.val = 0
  · have h1 : ¬t.val = 7 := by omega
    rw [Dat.leavesExact_idle (dat0 V c) 4 t (idleAt0_4 t (fun h => h1 ((condLast_iff t).mp h))) (noFlush0_4 t (fun h => h1 ((condLast_iff t).mp h)))]
    rw [accAt0_zero V c t h0]
    rw [PhiS0_castSucc V c t, PhiS0_zero V c _ _ h0, PhiA0_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid0.coords t) _ _ _ _ _ _ _ _ _ _ _ _ _ _ ((condFirst_iff t).mpr h0) (fun h => h1 ((condLast_iff t).mp h)) (iblk0 V c 0 t) (iblk0 V c 1 t) (iblk0 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid0.coords t) _ _ _ _ _ _ _ _ _ _ _ _ _ _ ((condFirst_iff t).mpr h0) (fun h => h1 ((condLast_iff t).mp h)) (iblk0 V c 0 t) (iblk0 V c 1 t) (iblk0 V c 2 t) _ _
          unfold owns; iexists _; isplitr
          swap; · iexact HS1
          ipureintro; exact pieceEA_s1 c (grid0.coords t) _ _ _ _ _ _ _ _ _ _ _ _ _ _ ((condFirst_iff t).mpr h0) (fun h => h1 ((condLast_iff t).mp h)) (iblk0 V c 0 t) (iblk0 V c 1 t) (iblk0 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid0.coords t) _ _ _ _ _ _ _ _ _ _ _ _ _ _ ((condFirst_iff t).mpr h0) (fun h => h1 ((condLast_iff t).mp h)) (iblk0 V c 0 t) (iblk0 V c 1 t) (iblk0 V c 2 t) _ _
    iexists _; iexact H4
  · by_cases h1 : t.val = 7
    · rw [show (dat0 V c).leavesExact 4 t = owns (c : Thread nD τ) (ms0_4 t) fullShare ((dat0 V c).after 4 t) from by
        unfold Dat.leavesExact; rw [liveAt0_4_C t ((condLast_iff t).mpr h1)], after0_4]
      rw [accAt0_pos V c t h0]
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid0.coords t) _ _ _ _ _ _ _ _ _ _ _ _ _ _ (fun h => h0 ((condFirst_iff t).mp h)) ((condLast_iff t).mpr h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid0.coords t) _ _ _ _ _ _ _ _ _ _ _ _ _ _ (fun h => h0 ((condFirst_iff t).mp h)) ((condLast_iff t).mpr h1) (iblk0 V c 0 t) (iblk0 V c 1 t) (iblk0 V c 2 t) _ _ _ _
            unfold owns; iexists _; isplitr
            swap; · iexact HS1
            ipureintro; exact pieceEC_s1 c (grid0.coords t) _ _ _ _ _ _ _ _ _ _ _ _ _ _ (fun h => h0 ((condFirst_iff t).mp h)) ((condLast_iff t).mpr h1) (iblk0 V c 0 t) (iblk0 V c 1 t) (iblk0 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid0.coords t) _ _ _ _ _ _ _ _ _ _ _ _ _ _ (fun h => h0 ((condFirst_iff t).mp h)) ((condLast_iff t).mpr h1) (iblk0 V c 0 t) (iblk0 V c 1 t) (iblk0 V c 2 t) _ _ _ _
      unfold owns; iexists _; isplitr
      swap; · iexact H4
      ipureintro; exact pieceEC_o5 c (grid0.coords t) _ _ _ _ _ _ _ _ _ _ _ _ _ _ (fun h => h0 ((condFirst_iff t).mp h)) ((condLast_iff t).mpr h1) (iblk0 V c 0 t) (iblk0 V c 1 t) (iblk0 V c 2 t) _ _ _ _
    · rw [Dat.leavesExact_idle (dat0 V c) 4 t (idleAt0_4 t (fun h => h1 ((condLast_iff t).mp h))) (noFlush0_4 t (fun h => h1 ((condLast_iff t).mp h)))]
      rw [accAt0_pos V c t h0]
      rw [PhiS0_castSucc V c t, PhiS0_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid0.coords t) _ _ _ _ _ _ _ _ _ _ _ _ _ _ (fun h => h0 ((condFirst_iff t).mp h)) (fun h => h1 ((condLast_iff t).mp h)) (iblk0 V c 0 t) (iblk0 V c 1 t) (iblk0 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid0.coords t) _ _ _ _ _ _ _ _ _ _ _ _ _ _ (fun h => h0 ((condFirst_iff t).mp h)) (fun h => h1 ((condLast_iff t).mp h)) (iblk0 V c 0 t) (iblk0 V c 1 t) (iblk0 V c 2 t) _ _ _ _
            unfold owns; iexists _; isplitr
            swap; · iexact HS1
            ipureintro; exact pieceEB_s1 c (grid0.coords t) _ _ _ _ _ _ _ _ _ _ _ _ _ _ (fun h => h0 ((condFirst_iff t).mp h)) (fun h => h1 ((condLast_iff t).mp h)) (iblk0 V c 0 t) (iblk0 V c 1 t) (iblk0 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid0.coords t) _ _ _ _ _ _ _ _ _ _ _ _ _ _ (fun h => h0 ((condFirst_iff t).mp h)) (fun h => h1 ((condLast_iff t).mp h)) (iblk0 V c 0 t) (iblk0 V c 1 t) (iblk0 V c 2 t) _ _ _ _
      iexists _; iexact H4

/-- The library's body obligation, at every row block. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first row block. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last row block the invariant gives back what the launch handed over: the accumulators' contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 8 := N_0; omega), PhiA0_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region0

end Cert.Kernel.Hand

end
-- ==== Proof.K.RunOA.lean ====
import proofs.«103934_j28484223107660_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at the first row block (the accumulators are reset there; nothing is stored into the column result, whose buffer is handed back untouched): the pieces its stores leave in each buffer it stores into, found by
    running it, with the proof that from whole buffers holding the three input blocks it runs to the
    continuation with those pieces written and the inputs as they were. -/
noncomputable def runOA (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32) :
    Σ' (L4 : List (View.Piece (Elt F) S512x64 .f32)) (LS0 : List (View.Piece (Elt F) S4096x64 .f32)), { LS1 : List (View.Piece (Elt F) S1x4096 .f32) //
      ∀ (xi5 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xi5
            ∗ (∃ d, owns (c : Thread nD τ) arg6 fullShare d) ∗ (∃ d, owns (c : Thread nD τ) arg7 fullShare d)
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__mlgcn_layer_kernel i arg1 harg1 arg2 harg2 arg3 harg3 arg4 harg4 arg5 harg5 arg6 harg6 arg7 harg7) K } := by
  refine ⟨?_, ?_, ?_, fun xi5 E K => ?run⟩
  case run =>
    simp only [cc1__mlgcn_layer_kernel_eq_skeleton]; unfold cc1__mlgcn_layer_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%f5, %hf5, H5⟩, ⟨%d6, %f6, -, H6⟩, ⟨%d7, %f7, -, H7⟩, Hk⟩
    obtain rfl := harg1.eq_unread hf1; obtain rfl := harg2.eq_unread hf2; obtain rfl := harg3.eq_unread hf3; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]; · iexists _; iexact H6
    iexists _; iexact H7

end Cert.Kernel.Hand

end
-- ==== Proof.K.RunOB.lean ====
import proofs.«103934_j28484223107660_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at a middle row block (the accumulators, found at the contents the block before left, are added to; nothing is stored into the column result, whose buffer is handed back untouched): the pieces its stores leave in each buffer it stores into, found by
    running it, with the proof that from whole buffers holding the three input blocks it runs to the
    continuation with those pieces written and the inputs as they were. -/
noncomputable def runOB (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32) :
    Σ' (L4 : List (View.Piece (Elt F) S512x64 .f32)) (LS0 : List (View.Piece (Elt F) S4096x64 .f32)), { LS1 : List (View.Piece (Elt F) S1x4096 .f32) //
      ∀ (xi5 : Vec F S4096x64 .f32) (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ owns (c : Thread nD τ) arg5 fullShare xi5
            ∗ owns (c : Thread nD τ) arg6 fullShare xs6 ∗ owns (c : Thread nD τ) arg7 fullShare xs7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ owns (c : Thread nD τ) arg5 fullShare xi5
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__mlgcn_layer_kernel i arg1 harg1 arg2 harg2 arg3 harg3 arg4 harg4 arg5 harg5 arg6 harg6 arg7 harg7) K } := by
  refine ⟨?_, ?_, ?_, fun xi5 E K => ?run⟩
  case run =>
    simp only [cc1__mlgcn_layer_kernel_eq_skeleton]; unfold cc1__mlgcn_layer_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3; obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]
    · iexists _; isplitr; · ipureintro; exact harg5.read_unread _
      iexact H5
    isplitl [H6]; · iexists _; iexact H6
    iexists _; iexact H7

end Cert.Kernel.Hand

end
-- ==== Proof.K.RunOC.lean ====
import proofs.«103934_j28484223107660_1_alg».proof.Proof.K.Common

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The layer kernel's body at the last row block (the accumulators are added to, and the column result is stored: the accumulated weighted sums over the accumulated column degrees): the pieces its stores leave in each buffer it stores into, found by
    running it, with the proof that from whole buffers holding the three input blocks it runs to the
    continuation with those pieces written and the inputs as they were. -/
noncomputable def runOC (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32) :
    Σ' (L4 : List (View.Piece (Elt F) S512x64 .f32)) (L5 : List (View.Piece (Elt F) S4096x64 .f32)) (LS0 : List (View.Piece (Elt F) S4096x64 .f32)), { LS1 : List (View.Piece (Elt F) S1x4096 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ (∃ d, owns (c : Thread nD τ) arg4 fullShare d) ∗ (∃ d, owns (c : Thread nD τ) arg5 fullShare d)
            ∗ owns (c : Thread nD τ) arg6 fullShare xs6 ∗ owns (c : Thread nD τ) arg7 fullShare xs7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc1__mlgcn_layer_kernel i arg1 harg1 arg2 harg2 arg3 harg3 arg4 harg4 arg5 harg5 arg6 harg6 arg7 harg7) K } := by
  refine ⟨?_, ?_, ?_, ?_, fun E K => ?run⟩
  case run =>
    simp only [cc1__mlgcn_layer_kernel_eq_skeleton]; unfold cc1__mlgcn_layer_kernel_skel
    simp only [k1_part1_eq_skeleton]; unfold k1_part1_skel
    unfold owns
    iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
    obtain rfl := harg1.eq_unread hf1; obtain rfl := harg2.eq_unread hf2; obtain rfl := harg3.eq_unread hf3; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.Kernel.Hand

end
-- ==== Proof.K.PieceO.lean ====
import proofs.«103934_j28484223107660_1_alg».proof.Proof.K.RunOA
import proofs.«103934_j28484223107660_1_alg».proof.Proof.K.RunOB
import proofs.«103934_j28484223107660_1_alg».proof.Proof.K.RunOC
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer access is zero on both axes. -/
theorem off00 : (![0, 0] : Fin 2 → ℕ) = fun _ => 0 := by funext a; fin_cases a <;> rfl

/-- After the body's run (case A) the row result's buffer holds the block's quotients: the last store through the whole buffer decides its contents. -/
theorem pieceOA_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S512x64 .f32) (f : v.ty.Contents (Elt F)) :
    v.read (Elt F) (v.writes (Elt F) f (runOA c i arg1 harg1 arg2 harg2 arg3 harg3 arg4 harg4 arg5 harg5 arg6 harg6 arg7 harg7 hc0 hc1 x1 x2 x3).1) = k1_pay5 x1 x3 := by
  rw [View.read_writes_eq_canon v f _ (View.cover_of_tiledL _ S512x64.size (by sl_kernel_rfl))]
  unfold runOA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case A) the accumulator of weighted sums holds the block's contribution added to what it held: the last store through the whole buffer decides its contents. -/
theorem pieceOA_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S4096x64 .f32) (f : v.ty.Contents (Elt F)) :
    v.read (Elt F) (v.writes (Elt F) f (runOA c i arg1 harg1 arg2 harg2 arg3 harg3 arg4 harg4 arg5 harg5 arg6 harg6 arg7 harg7 hc0 hc1 x1 x2 x3).2.1) = k1_pay6 x1 x2 (k1_pay2 (F := F)) := by
  rw [View.read_writes_eq_canon v f _ (View.cover_of_tiledL _ S4096x64.size (by sl_kernel_rfl))]
  unfold runOA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case A) the accumulator of column degrees holds the block's column sums added to what it held: the last store through the whole buffer decides its contents. -/
theorem pieceOA_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : condFirst i) (hc1 : ¬condLast i)
    (x1 : Vec F S512x4096 .f32) (x2 : Vec F S512x64 .f32) (x3 : Vec F S4096x64 .f32)
    (v : View sig .tc .vmem S1x4096 .f32) (f : v.ty.Contents (Elt F)) :
    v.read (Elt F) (v.writes (Elt F) f (runOA c i arg1 harg1 arg2 harg2 arg3 harg3 arg4 harg4 arg5 harg5 arg6 harg6 arg7 harg7 hc0 hc1 x1 x2 x3).2.2.1) = k1_pay7 x1 (k1_pay3 (F := F)) := by
  rw [View.read_writes_eq_canon v f _ (View.cover_of_tiledL _ S1x4096.size (by sl_kernel_rfl))]
  unfold runOA; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the row result's buffer holds the block's quotients: the last store through the whole buffer decides its contents. -/
theorem pieceOB_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S512x64 .f32) (f : v.ty.Contents (Elt F)) :
    v.read (Elt F) (v.writes (Elt F) f (runOB c i arg1 harg1 arg2 harg2 arg3 harg3 arg4 harg4 arg5 harg5 arg6 harg6 arg7 harg7 hc0 hc1 x1 x2 x3 xs6 xs7).1) = k1_pay5 x1 x3 := by
  rw [View.read_writes_eq_canon v f _ (View.cover_of_tiledL _ S512x64.size (by sl_kernel_rfl))]
  unfold runOB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the accumulator of weighted sums holds the block's contribution added to what it held: the last store through the whole buffer decides its contents. -/
theorem pieceOB_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runOB c i arg1 harg1 arg2 harg2 arg3 harg3 arg4 harg4 arg5 harg5 arg6 harg6 arg7 harg7 hc0 hc1 x1 x2 x3 xs6 xs7).2.1) = k1_pay6 x1 x2 xs6 := by
  rw [View.read_writes_eq_canon v f _ (View.cover_of_tiledL _ S4096x64.size (by sl_kernel_rfl))]
  unfold runOB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case B) the accumulator of column degrees holds the block's column sums added to what it held: the last store through the whole buffer decides its contents. -/
theorem pieceOB_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : ¬condLast i)
    (x1 : Vec F S512x4096 .f32) (x2 : Vec F S512x64 .f32) (x3 : Vec F S4096x64 .f32) (xs6 : Vec F S4096x64 .f32) (xs7 : Vec F S1x4096 .f32)
    (v : View sig .tc .vmem S1x4096 .f32) (f : v.ty.Contents (Elt F)) :
    v.read (Elt F) (v.writes (Elt F) f (runOB c i arg1 harg1 arg2 harg2 arg3 harg3 arg4 harg4 arg5 harg5 arg6 harg6 arg7 harg7 hc0 hc1 x1 x2 x3 xs6 xs7).2.2.1) = k1_pay7 x1 xs7 := by
  rw [View.read_writes_eq_canon v f _ (View.cover_of_tiledL _ S1x4096.size (by sl_kernel_rfl))]
  unfold runOB; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the row result's buffer holds the block's quotients: the last store through the whole buffer decides its contents. -/
theorem pieceOC_o4 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S512x64 .f32) (f : v.ty.Contents (Elt F)) :
    v.read (Elt F) (v.writes (Elt F) f (runOC c i arg1 harg1 arg2 harg2 arg3 harg3 arg4 harg4 arg5 harg5 arg6 harg6 arg7 harg7 hc0 hc1 x1 x2 x3 xs6 xs7).1) = k1_pay5 x1 x3 := by
  rw [View.read_writes_eq_canon v f _ (View.cover_of_tiledL _ S512x64.size (by sl_kernel_rfl))]
  unfold runOC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the column result's buffer holds the accumulated quotients: the last store through the whole buffer decides its contents. -/
theorem pieceOC_o5 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runOC c i arg1 harg1 arg2 harg2 arg3 harg3 arg4 harg4 arg5 harg5 arg6 harg6 arg7 harg7 hc0 hc1 x1 x2 x3 xs6 xs7).2.1) = k1_pay1 (k1_pay7 x1 xs7) (k1_pay6 x1 x2 xs6) := by
  rw [View.read_writes_eq_canon v f _ (View.cover_of_tiledL _ S4096x64.size (by sl_kernel_rfl))]
  unfold runOC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the accumulator of weighted sums holds the block's contribution added to what it held: the last store through the whole buffer decides its contents. -/
theorem pieceOC_s0 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S4096x64 .f32) (f : v.ty.Contents (Elt F)) :
    v.read (Elt F) (v.writes (Elt F) f (runOC c i arg1 harg1 arg2 harg2 arg3 harg3 arg4 harg4 arg5 harg5 arg6 harg6 arg7 harg7 hc0 hc1 x1 x2 x3 xs6 xs7).2.2.1) = k1_pay6 x1 x2 xs6 := by
  rw [View.read_writes_eq_canon v f _ (View.cover_of_tiledL _ S4096x64.size (by sl_kernel_rfl))]
  unfold runOC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

/-- After the body's run (case C) the accumulator of column degrees holds the block's column sums added to what it held: the last store through the whole buffer decides its contents. -/
theorem pieceOC_s1 (c : Dev nD) (i : grid0.Coords) (arg1 : Memref sig .tc .vmem S512x4096 .f32) (harg1 : arg1.IsWhole) (arg2 : Memref sig .tc .vmem S512x64 .f32) (harg2 : arg2.IsWhole) (arg3 : Memref sig .tc .vmem S4096x64 .f32) (harg3 : arg3.IsWhole) (arg4 : Memref sig .tc .vmem S512x64 .f32) (harg4 : arg4.IsWhole) (arg5 : Memref sig .tc .vmem S4096x64 .f32) (harg5 : arg5.IsWhole) (arg6 : Memref sig .tc .vmem S4096x64 .f32) (harg6 : arg6.IsWhole) (arg7 : Memref sig .tc .vmem S1x4096 .f32) (harg7 : arg7.IsWhole) (hc0 : ¬condFirst i) (hc1 : condLast i)
    (x1 : Vec F S512x4096 .f32) (x2 : Vec F S512x64 .f32) (x3 : Vec F S4096x64 .f32) (xs6 : Vec F S4096x64 .f32) (xs7 : Vec F S1x4096 .f32)
    (v : View sig .tc .vmem S1x4096 .f32) (f : v.ty.Contents (Elt F)) :
    v.read (Elt F) (v.writes (Elt F) f (runOC c i arg1 harg1 arg2 harg2 arg3 harg3 arg4 harg4 arg5 harg5 arg6 harg6 arg7 harg7 hc0 hc1 x1 x2 x3 xs6 xs7).2.2.2.1) = k1_pay7 x1 xs7 := by
  rw [View.read_writes_eq_canon v f _ (View.cover_of_tiledL _ S1x4096.size (by sl_kernel_rfl))]
  unfold runOC; dsimp only
  sl_unfold_words
  simp only [View.canon_cons_unit_zero (S := S512x64) off00, View.canon_cons_unit_zero (S := S4096x64) off00, View.canon_cons_unit_zero (S := S1x4096) off00,
    View.canon_unit_zero (S := S512x64) off00, View.canon_unit_zero (S := S4096x64) off00, View.canon_unit_zero (S := S1x4096) off00,
    View.readCov_unit_zero (S := S4096x64) _ off00, View.readCov_unit_zero (S := S1x4096) _ off00, View.readAt_eq_ld, Memref.IsWhole.read_unread,
    View.ld_unit_zero (S := S512x4096) off00, View.ld_unit_zero (S := S512x64) off00, View.ld_unit_zero (S := S4096x64) off00, View.ld_unit_zero (S := S1x4096) off00]

end Cert.Kernel.Hand

end
-- ==== Proof.K.Reg1.lean ====
import proofs.«103934_j28484223107660_1_alg».proof.Proof.K.RunOA
import proofs.«103934_j28484223107660_1_alg».proof.Proof.K.RunOB
import proofs.«103934_j28484223107660_1_alg».proof.Proof.K.RunOC
import proofs.«103934_j28484223107660_1_alg».proof.Proof.K.PieceO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

/- The contents of the core's buffers when region 1 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every row block, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every row block, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every row block, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## Where the windows are idle, and where the column result is written back -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Before the last row block nothing is stored into the column result's buffer, -/
theorem idleAt1_4 : ∀ t : Fin cfg1.N, ¬condLast (grid1.coords t) → cfg1.idle 4 (grid1.coords t) = true := by decide +kernel
/-- and it is not written back there; -/
theorem noFlush1_4 : ∀ t : Fin cfg1.N, ¬condLast (grid1.coords t) → (cfg1.win 4).flush t = false := by decide +kernel
/-- at the last row block it is stored. -/
theorem liveAt1_4_C : ∀ t : Fin cfg1.N, condLast (grid1.coords t) → cfg1.idle 4 (grid1.coords t) = false := by decide +kernel

/-! ## The staging buffers and the two accumulators -/

abbrev ms1_0 (t : Fin cfg1.N) : Memref sig .tc .vmem S512x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x64 .f32 := win1_4.stage (cfg1.slots t 4)
abbrev hs1_4 (t : Fin cfg1.N) : (ms1_4 t).IsWhole := hstage1_4 ((cfg1.slots t 4).cast nbuf1_4)
/-- The accumulator of the weighted sums, and the accumulator of the column degrees: whole buffers of the kernel's own. -/
abbrev scM1_0 : Memref sig .tc .vmem S4096x64 .f32 := Memref.whole cc1_scratch0
abbrev scM1_1 : Memref sig .tc .vmem S1x4096 .f32 := Memref.whole cc1_scratch1

/-- What the region is handed besides its windows: the two accumulators at some contents, the other scoped
    buffers unopened, the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

/-! ## What the accumulators hold after each row block -/

/-- After row block 0: the block's contribution added to zero; after row block `n + 1`: its contribution added to
    what row block `n` left. First the weighted sums, then the column degrees. -/
def accAt1 (c : Dev nD) : (n : ℕ) → n < cfg1.N → Vec F S4096x64 .f32 × Vec F S1x4096 .f32
  | 0, hn => (k1_pay6 (iblk1 V c 0 ⟨0, hn⟩) (iblk1 V c 1 ⟨0, hn⟩) (k1_pay2 (F := F)), k1_pay7 (iblk1 V c 0 ⟨0, hn⟩) (k1_pay3 (F := F)))
  | n + 1, hn => (k1_pay6 (iblk1 V c 0 ⟨n + 1, hn⟩) (iblk1 V c 1 ⟨n + 1, hn⟩) (accAt1 c n (Nat.lt_of_succ_lt hn)).1,
      k1_pay7 (iblk1 V c 0 ⟨n + 1, hn⟩) (accAt1 c n (Nat.lt_of_succ_lt hn)).2)

theorem accAt1_zero (c : Dev nD) (t : Fin cfg1.N) (h0 : t.val = 0) :
    accAt1 V c t.val t.isLt = (k1_pay6 (iblk1 V c 0 t) (iblk1 V c 1 t) (k1_pay2 (F := F)), k1_pay7 (iblk1 V c 0 t) (k1_pay3 (F := F))) := by
  obtain ⟨n, hn⟩ := t
  cases n with
  | zero => rfl
  | succ n => exact absurd h0 (Nat.succ_ne_zero n)

theorem accAt1_pos (c : Dev nD) (t : Fin cfg1.N) (h0 : ¬t.val = 0) :
    accAt1 V c t.val t.isLt = (k1_pay6 (iblk1 V c 0 t) (iblk1 V c 1 t) (accAt1 V c (t.val - 1) (Nat.lt_of_le_of_lt (Nat.sub_le _ _) t.isLt)).1,
      k1_pay7 (iblk1 V c 0 t) (accAt1 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS1 (c : Dev nD) : (n : ℕ) → n ≤ cfg1.N → sProp 𝕄
  | 0, _ => Pipeline.ΦA spec1 c
  | n + 1, hn => iprop(iprop(iprop(owns (c : Thread nD τ) scM1_0 fullShare (accAt1 V c n hn).1 ∗ owns (c : Thread nD τ) scM1_1 fullShare (accAt1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (accAt1 V c n hn).1 ∗ owns (c : Thread nD τ) scM1_1 fullShare (accAt1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : ¬n = 0) :
    PhiS1 V c n h = iprop(iprop(iprop(owns (c : Thread nD τ) scM1_0 fullShare (accAt1 V c (n - 1) (by omega)).1 ∗ owns (c : Thread nD τ) scM1_1 fullShare (accAt1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- Region 1's proof data on core `c`: the arrays as the region finds them; after the body at row block `t`
    each input's buffer at its block, the row result's at the block's quotients, the column result's at the
    accumulated quotients (consulted at the last row block only, where it is stored); the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay5 (iblk1 V c 0 t) (iblk1 V c 2 t)
    | ⟨4, _⟩ => k1_pay1 (accAt1 V c t.val t.isLt).2 (accAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay5 (iblk1 V c 0 t) (iblk1 V c 2 t) := by dsimp only [dat1]
theorem after1_4 (c : Dev nD) (t : Fin cfg1.N) : (dat1 V c).after 4 t = k1_pay1 (accAt1 V c t.val t.isLt).2 (accAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

/-- What the body is called with at row block `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val = 0
  · have h1 : ¬t.val = 7 := by omega
    rw [Dat.leavesExact_idle (dat1 V c) 4 t (idleAt1_4 t (fun h => h1 ((condLast_iff t).mp h))) (noFlush1_4 t (fun h => h1 ((condLast_iff t).mp h)))]
    rw [accAt1_zero V c t h0]
    rw [PhiS1_castSucc V c t, PhiS1_zero V c _ _ h0, PhiA1_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid1.coords t) _ _ _ _ _ _ _ _ _ _ _ _ _ _ ((condFirst_iff t).mpr h0) (fun h => h1 ((condLast_iff t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid1.coords t) _ _ _ _ _ _ _ _ _ _ _ _ _ _ ((condFirst_iff t).mpr h0) (fun h => h1 ((condLast_iff t).mp h)) (iblk1 V c 0 t) (iblk1 V c 1 t) (iblk1 V c 2 t) _ _
          unfold owns; iexists _; isplitr
          swap; · iexact HS1
          ipureintro; exact pieceOA_s1 c (grid1.coords t) _ _ _ _ _ _ _ _ _ _ _ _ _ _ ((condFirst_iff t).mpr h0) (fun h => h1 ((condLast_iff t).mp h)) (iblk1 V c 0 t) (iblk1 V c 1 t) (iblk1 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid1.coords t) _ _ _ _ _ _ _ _ _ _ _ _ _ _ ((condFirst_iff t).mpr h0) (fun h => h1 ((condLast_iff t).mp h)) (iblk1 V c 0 t) (iblk1 V c 1 t) (iblk1 V c 2 t) _ _
    iexists _; iexact H4
  · by_cases h1 : t.val = 7
    · rw [show (dat1 V c).leavesExact 4 t = owns (c : Thread nD τ) (ms1_4 t) fullShare ((dat1 V c).after 4 t) from by
        unfold Dat.leavesExact; rw [liveAt1_4_C t ((condLast_iff t).mpr h1)], after1_4]
      rw [accAt1_pos V c t h0]
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid1.coords t) _ _ _ _ _ _ _ _ _ _ _ _ _ _ (fun h => h0 ((condFirst_iff t).mp h)) ((condLast_iff t).mpr h1) (iblk1 V c 0 t) (iblk1 V c 1 t) (iblk1 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid1.coords t) _ _ _ _ _ _ _ _ _ _ _ _ _ _ (fun h => h0 ((condFirst_iff t).mp h)) ((condLast_iff t).mpr h1) (iblk1 V c 0 t) (iblk1 V c 1 t) (iblk1 V c 2 t) _ _ _ _
            unfold owns; iexists _; isplitr
            swap; · iexact HS1
            ipureintro; exact pieceOC_s1 c (grid1.coords t) _ _ _ _ _ _ _ _ _ _ _ _ _ _ (fun h => h0 ((condFirst_iff t).mp h)) ((condLast_iff t).mpr h1) (iblk1 V c 0 t) (iblk1 V c 1 t) (iblk1 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid1.coords t) _ _ _ _ _ _ _ _ _ _ _ _ _ _ (fun h => h0 ((condFirst_iff t).mp h)) ((condLast_iff t).mpr h1) (iblk1 V c 0 t) (iblk1 V c 1 t) (iblk1 V c 2 t) _ _ _ _
      unfold owns; iexists _; isplitr
      swap; · iexact H4
      ipureintro; exact pieceOC_o5 c (grid1.coords t) _ _ _ _ _ _ _ _ _ _ _ _ _ _ (fun h => h0 ((condFirst_iff t).mp h)) ((condLast_iff t).mpr h1) (iblk1 V c 0 t) (iblk1 V c 1 t) (iblk1 V c 2 t) _ _ _ _
    · rw [Dat.leavesExact_idle (dat1 V c) 4 t (idleAt1_4 t (fun h => h1 ((condLast_iff t).mp h))) (noFlush1_4 t (fun h => h1 ((condLast_iff t).mp h)))]
      rw [accAt1_pos V c t h0]
      rw [PhiS1_castSucc V c t, PhiS1_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid1.coords t) _ _ _ _ _ _ _ _ _ _ _ _ _ _ (fun h => h0 ((condFirst_iff t).mp h)) (fun h => h1 ((condLast_iff t).mp h)) (iblk1 V c 0 t) (iblk1 V c 1 t) (iblk1 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid1.coords t) _ _ _ _ _ _ _ _ _ _ _ _ _ _ (fun h => h0 ((condFirst_iff t).mp h)) (fun h => h1 ((condLast_iff t).mp h)) (iblk1 V c 0 t) (iblk1 V c 1 t) (iblk1 V c 2 t) _ _ _ _
            unfold owns; iexists _; isplitr
            swap; · iexact HS1
            ipureintro; exact pieceOB_s1 c (grid1.coords t) _ _ _ _ _ _ _ _ _ _ _ _ _ _ (fun h => h0 ((condFirst_iff t).mp h)) (fun h => h1 ((condLast_iff t).mp h)) (iblk1 V c 0 t) (iblk1 V c 1 t) (iblk1 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid1.coords t) _ _ _ _ _ _ _ _ _ _ _ _ _ _ (fun h => h0 ((condFirst_iff t).mp h)) (fun h => h1 ((condLast_iff t).mp h)) (iblk1 V c 0 t) (iblk1 V c 1 t) (iblk1 V c 2 t) _ _ _ _
      iexists _; iexact H4

/-- The library's body obligation, at every row block. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first row block. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last row block the invariant gives back what the launch handed over: the accumulators' contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 8 := N_1; omega), PhiA1_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region1

end Cert.Kernel.Hand

end
-- ==== Proof.K.Reg2.lean ====
import proofs.«103934_j28484223107660_1_alg».proof.Proof.K.RunEA
import proofs.«103934_j28484223107660_1_alg».proof.Proof.K.RunEB
import proofs.«103934_j28484223107660_1_alg».proof.Proof.K.RunEC
import proofs.«103934_j28484223107660_1_alg».proof.Proof.K.PieceE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 2's kernel function is, as a program, the one the body's runs are stated for (the same text). -/
theorem kernel_eq2 : @cc2__mlgcn_layer_kernel F _ = @cc0__mlgcn_layer_kernel F _ := rfl

section Region2

/- The contents of the core's buffers when region 2 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every row block, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every row block, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every row block, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## Where the windows are idle, and where the column result is written back -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Before the last row block nothing is stored into the column result's buffer, -/
theorem idleAt2_4 : ∀ t : Fin cfg2.N, ¬condLast (grid2.coords t) → cfg2.idle 4 (grid2.coords t) = true := by decide +kernel
/-- and it is not written back there; -/
theorem noFlush2_4 : ∀ t : Fin cfg2.N, ¬condLast (grid2.coords t) → (cfg2.win 4).flush t = false := by decide +kernel
/-- at the last row block it is stored. -/
theorem liveAt2_4_C : ∀ t : Fin cfg2.N, condLast (grid2.coords t) → cfg2.idle 4 (grid2.coords t) = false := by decide +kernel

/-! ## The staging buffers and the two accumulators -/

abbrev ms2_0 (t : Fin cfg2.N) : Memref sig .tc .vmem S512x4096 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4096x64 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x64 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x64 .f32 := win2_4.stage (cfg2.slots t 4)
abbrev hs2_4 (t : Fin cfg2.N) : (ms2_4 t).IsWhole := hstage2_4 ((cfg2.slots t 4).cast nbuf2_4)
/-- The accumulator of the weighted sums, and the accumulator of the column degrees: whole buffers of the kernel's own. -/
abbrev scM2_0 : Memref sig .tc .vmem S4096x64 .f32 := Memref.whole cc2_scratch0
abbrev scM2_1 : Memref sig .tc .vmem S1x4096 .f32 := Memref.whole cc2_scratch1

/-- What the region is handed besides its windows: the two accumulators at some contents, the other scoped
    buffers unopened, the generator register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## What the accumulators hold after each row block -/

/-- After row block 0: the block's contribution added to zero; after row block `n + 1`: its contribution added to
    what row block `n` left. First the weighted sums, then the column degrees. -/
def accAt2 (c : Dev nD) : (n : ℕ) → n < cfg2.N → Vec F S4096x64 .f32 × Vec F S1x4096 .f32
  | 0, hn => (k0_pay6 (iblk2 V c 0 ⟨0, hn⟩) (iblk2 V c 1 ⟨0, hn⟩) (k0_pay2 (F := F)), k0_pay7 (iblk2 V c 0 ⟨0, hn⟩) (k0_pay3 (F := F)))
  | n + 1, hn => (k0_pay6 (iblk2 V c 0 ⟨n + 1, hn⟩) (iblk2 V c 1 ⟨n + 1, hn⟩) (accAt2 c n (Nat.lt_of_succ_lt hn)).1,
      k0_pay7 (iblk2 V c 0 ⟨n + 1, hn⟩) (accAt2 c n (Nat.lt_of_succ_lt hn)).2)

theorem accAt2_zero (c : Dev nD) (t : Fin cfg2.N) (h0 : t.val = 0) :
    accAt2 V c t.val t.isLt = (k0_pay6 (iblk2 V c 0 t) (iblk2 V c 1 t) (k0_pay2 (F := F)), k0_pay7 (iblk2 V c 0 t) (k0_pay3 (F := F))) := by
  obtain ⟨n, hn⟩ := t
  cases n with
  | zero => rfl
  | succ n => exact absurd h0 (Nat.succ_ne_zero n)

theorem accAt2_pos (c : Dev nD) (t : Fin cfg2.N) (h0 : ¬t.val = 0) :
    accAt2 V c t.val t.isLt = (k0_pay6 (iblk2 V c 0 t) (iblk2 V c 1 t) (accAt2 V c (t.val - 1) (Nat.lt_of_le_of_lt (Nat.sub_le _ _) t.isLt)).1,
      k0_pay7 (iblk2 V c 0 t) (accAt2 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS2 (c : Dev nD) : (n : ℕ) → n ≤ cfg2.N → sProp 𝕄
  | 0, _ => Pipeline.ΦA spec2 c
  | n + 1, hn => iprop(iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (accAt2 V c n hn).1 ∗ owns (c : Thread nD τ) scM2_1 fullShare (accAt2 V c n hn).2)
      ∗ Pipeline.scopedRestBut (Ix := Unit) (Name := ℕ) (U := UR sig nD τ) (Lvl := ℕ) (Val := Elt F) spec2 c [cc2_scratch0, cc2_scratch1]) ∗ (∃ r, prngReg c r)) := rfl

theorem PhiS2_pos (c : Dev nD) (n : ℕ) (h : n ≤ cfg2.N) (hz : ¬n = 0) :
    PhiS2 V c n h = iprop(iprop(iprop(owns (c : Thread nD τ) scM2_0 fullShare (accAt2 V c (n - 1) (by omega)).1 ∗ owns (c : Thread nD τ) scM2_1 fullShare (accAt2 V c (n - 1) (by omega)).2)
      ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- Region 2's proof data on core `c`: the arrays as the region finds them; after the body at row block `t`
    each input's buffer at its block, the row result's at the block's quotients, the column result's at the
    accumulated quotients (consulted at the last row block only, where it is stored); the invariant above;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k0_pay5 (iblk2 V c 0 t) (iblk2 V c 2 t)
    | ⟨4, _⟩ => k0_pay1 (accAt2 V c t.val t.isLt).2 (accAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k0_pay5 (iblk2 V c 0 t) (iblk2 V c 2 t) := by dsimp only [dat2]
theorem after2_4 (c : Dev nD) (t : Fin cfg2.N) : (dat2 V c).after 4 t = k0_pay1 (accAt2 V c t.val t.isLt).2 (accAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at row block `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  rw [kernel_eq2]
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  by_cases h0 : t.val = 0
  · have h1 : ¬t.val = 7 := by omega
    rw [Dat.leavesExact_idle (dat2 V c) 4 t (idleAt2_4 t (fun h => h1 ((condLast_iff t).mp h))) (noFlush2_4 t (fun h => h1 ((condLast_iff t).mp h)))]
    rw [accAt2_zero V c t h0]
    rw [PhiS2_castSucc V c t, PhiS2_zero V c _ _ h0, PhiA2_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid2.coords t) _ _ _ _ _ _ _ _ _ _ _ _ _ _ ((condFirst_iff t).mpr h0) (fun h => h1 ((condLast_iff t).mp h)) (iblk2 V c 0 t) (iblk2 V c 1 t) (iblk2 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid2.coords t) _ _ _ _ _ _ _ _ _ _ _ _ _ _ ((condFirst_iff t).mpr h0) (fun h => h1 ((condLast_iff t).mp h)) (iblk2 V c 0 t) (iblk2 V c 1 t) (iblk2 V c 2 t) _ _
          unfold owns; iexists _; isplitr
          swap; · iexact HS1
          ipureintro; exact pieceEA_s1 c (grid2.coords t) _ _ _ _ _ _ _ _ _ _ _ _ _ _ ((condFirst_iff t).mpr h0) (fun h => h1 ((condLast_iff t).mp h)) (iblk2 V c 0 t) (iblk2 V c 1 t) (iblk2 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid2.coords t) _ _ _ _ _ _ _ _ _ _ _ _ _ _ ((condFirst_iff t).mpr h0) (fun h => h1 ((condLast_iff t).mp h)) (iblk2 V c 0 t) (iblk2 V c 1 t) (iblk2 V c 2 t) _ _
    iexists _; iexact H4
  · by_cases h1 : t.val = 7
    · rw [show (dat2 V c).leavesExact 4 t = owns (c : Thread nD τ) (ms2_4 t) fullShare ((dat2 V c).after 4 t) from by
        unfold Dat.leavesExact; rw [liveAt2_4_C t ((condLast_iff t).mpr h1)], after2_4]
      rw [accAt2_pos V c t h0]
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid2.coords t) _ _ _ _ _ _ _ _ _ _ _ _ _ _ (fun h => h0 ((condFirst_iff t).mp h)) ((condLast_iff t).mpr h1) (iblk2 V c 0 t) (iblk2 V c 1 t) (iblk2 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid2.coords t) _ _ _ _ _ _ _ _ _ _ _ _ _ _ (fun h => h0 ((condFirst_iff t).mp h)) ((condLast_iff t).mpr h1) (iblk2 V c 0 t) (iblk2 V c 1 t) (iblk2 V c 2 t) _ _ _ _
            unfold owns; iexists _; isplitr
            swap; · iexact HS1
            ipureintro; exact pieceEC_s1 c (grid2.coords t) _ _ _ _ _ _ _ _ _ _ _ _ _ _ (fun h => h0 ((condFirst_iff t).mp h)) ((condLast_iff t).mpr h1) (iblk2 V c 0 t) (iblk2 V c 1 t) (iblk2 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid2.coords t) _ _ _ _ _ _ _ _ _ _ _ _ _ _ (fun h => h0 ((condFirst_iff t).mp h)) ((condLast_iff t).mpr h1) (iblk2 V c 0 t) (iblk2 V c 1 t) (iblk2 V c 2 t) _ _ _ _
      unfold owns; iexists _; isplitr
      swap; · iexact H4
      ipureintro; exact pieceEC_o5 c (grid2.coords t) _ _ _ _ _ _ _ _ _ _ _ _ _ _ (fun h => h0 ((condFirst_iff t).mp h)) ((condLast_iff t).mpr h1) (iblk2 V c 0 t) (iblk2 V c 1 t) (iblk2 V c 2 t) _ _ _ _
    · rw [Dat.leavesExact_idle (dat2 V c) 4 t (idleAt2_4 t (fun h => h1 ((condLast_iff t).mp h))) (noFlush2_4 t (fun h => h1 ((condLast_iff t).mp h)))]
      rw [accAt2_pos V c t h0]
      rw [PhiS2_castSucc V c t, PhiS2_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid2.coords t) _ _ _ _ _ _ _ _ _ _ _ _ _ _ (fun h => h0 ((condFirst_iff t).mp h)) (fun h => h1 ((condLast_iff t).mp h)) (iblk2 V c 0 t) (iblk2 V c 1 t) (iblk2 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid2.coords t) _ _ _ _ _ _ _ _ _ _ _ _ _ _ (fun h => h0 ((condFirst_iff t).mp h)) (fun h => h1 ((condLast_iff t).mp h)) (iblk2 V c 0 t) (iblk2 V c 1 t) (iblk2 V c 2 t) _ _ _ _
            unfold owns; iexists _; isplitr
            swap; · iexact HS1
            ipureintro; exact pieceEB_s1 c (grid2.coords t) _ _ _ _ _ _ _ _ _ _ _ _ _ _ (fun h => h0 ((condFirst_iff t).mp h)) (fun h => h1 ((condLast_iff t).mp h)) (iblk2 V c 0 t) (iblk2 V c 1 t) (iblk2 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid2.coords t) _ _ _ _ _ _ _ _ _ _ _ _ _ _ (fun h => h0 ((condFirst_iff t).mp h)) (fun h => h1 ((condLast_iff t).mp h)) (iblk2 V c 0 t) (iblk2 V c 1 t) (iblk2 V c 2 t) _ _ _ _
      iexists _; iexact H4

/-- The library's body obligation, at every row block. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first row block. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last row block the invariant gives back what the launch handed over: the accumulators' contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 8 := N_2; omega), PhiA2_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region2

end Cert.Kernel.Hand

end
-- ==== Proof.K.Reg3.lean ====
import proofs.«103934_j28484223107660_1_alg».proof.Proof.K.RunOA
import proofs.«103934_j28484223107660_1_alg».proof.Proof.K.RunOB
import proofs.«103934_j28484223107660_1_alg».proof.Proof.K.RunOC
import proofs.«103934_j28484223107660_1_alg».proof.Proof.K.PieceO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 3's kernel function is, as a program, the one the body's runs are stated for (the same text). -/
theorem kernel_eq3 : @cc3__mlgcn_layer_kernel F _ = @cc1__mlgcn_layer_kernel F _ := rfl

section Region3

/- The contents of the core's buffers when region 3 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every row block, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every row block, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every row block, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## Where the windows are idle, and where the column result is written back -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Before the last row block nothing is stored into the column result's buffer, -/
theorem idleAt3_4 : ∀ t : Fin cfg3.N, ¬condLast (grid3.coords t) → cfg3.idle 4 (grid3.coords t) = true := by decide +kernel
/-- and it is not written back there; -/
theorem noFlush3_4 : ∀ t : Fin cfg3.N, ¬condLast (grid3.coords t) → (cfg3.win 4).flush t = false := by decide +kernel
/-- at the last row block it is stored. -/
theorem liveAt3_4_C : ∀ t : Fin cfg3.N, condLast (grid3.coords t) → cfg3.idle 4 (grid3.coords t) = false := by decide +kernel

/-! ## The staging buffers and the two accumulators -/

abbrev ms3_0 (t : Fin cfg3.N) : Memref sig .tc .vmem S512x4096 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x64 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4096x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S512x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S4096x64 .f32 := win3_4.stage (cfg3.slots t 4)
abbrev hs3_4 (t : Fin cfg3.N) : (ms3_4 t).IsWhole := hstage3_4 ((cfg3.slots t 4).cast nbuf3_4)
/-- The accumulator of the weighted sums, and the accumulator of the column degrees: whole buffers of the kernel's own. -/
abbrev scM3_0 : Memref sig .tc .vmem S4096x64 .f32 := Memref.whole cc3_scratch0
abbrev scM3_1 : Memref sig .tc .vmem S1x4096 .f32 := Memref.whole cc3_scratch1

/-- What the region is handed besides its windows: the two accumulators at some contents, the other scoped
    buffers unopened, the generator register at some state. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

/-! ## What the accumulators hold after each row block -/

/-- After row block 0: the block's contribution added to zero; after row block `n + 1`: its contribution added to
    what row block `n` left. First the weighted sums, then the column degrees. -/
def accAt3 (c : Dev nD) : (n : ℕ) → n < cfg3.N → Vec F S4096x64 .f32 × Vec F S1x4096 .f32
  | 0, hn => (k1_pay6 (iblk3 V c 0 ⟨0, hn⟩) (iblk3 V c 1 ⟨0, hn⟩) (k1_pay2 (F := F)), k1_pay7 (iblk3 V c 0 ⟨0, hn⟩) (k1_pay3 (F := F)))
  | n + 1, hn => (k1_pay6 (iblk3 V c 0 ⟨n + 1, hn⟩) (iblk3 V c 1 ⟨n + 1, hn⟩) (accAt3 c n (Nat.lt_of_succ_lt hn)).1,
      k1_pay7 (iblk3 V c 0 ⟨n + 1, hn⟩) (accAt3 c n (Nat.lt_of_succ_lt hn)).2)

theorem accAt3_zero (c : Dev nD) (t : Fin cfg3.N) (h0 : t.val = 0) :
    accAt3 V c t.val t.isLt = (k1_pay6 (iblk3 V c 0 t) (iblk3 V c 1 t) (k1_pay2 (F := F)), k1_pay7 (iblk3 V c 0 t) (k1_pay3 (F := F))) := by
  obtain ⟨n, hn⟩ := t
  cases n with
  | zero => rfl
  | succ n => exact absurd h0 (Nat.succ_ne_zero n)

theorem accAt3_pos (c : Dev nD) (t : Fin cfg3.N) (h0 : ¬t.val = 0) :
    accAt3 V c t.val t.isLt = (k1_pay6 (iblk3 V c 0 t) (iblk3 V c 1 t) (accAt3 V c (t.val - 1) (Nat.lt_of_le_of_lt (Nat.sub_le _ _) t.isLt)).1,
      k1_pay7 (iblk3 V c 0 t) (accAt3 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS3 (c : Dev nD) : (n : ℕ) → n ≤ cfg3.N → sProp 𝕄
  | 0, _ => Pipeline.ΦA spec3 c
  | n + 1, hn => iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

theorem PhiS3_succ (c : Dev nD) (n : ℕ) (hn : n < cfg3.N) :
    PhiS3 V c (n + 1) hn = iprop(iprop(iprop(owns (c : Thread nD τ) scM3_0 fullShare (accAt3 V c n hn).1 ∗ owns (c : Thread nD τ) scM3_1 fullShare (accAt3 V c n hn).2)
      ∗ Pipeline.scopedRestBut (Ix := Unit) (Name := ℕ) (U := UR sig nD τ) (Lvl := ℕ) (Val := Elt F) spec3 c [cc3_scratch0, cc3_scratch1]) ∗ (∃ r, prngReg c r)) := rfl

theorem PhiS3_pos (c : Dev nD) (n : ℕ) (h : n ≤ cfg3.N) (hz : ¬n = 0) :
    PhiS3 V c n h = iprop(iprop(iprop(owns (c : Thread nD τ) scM3_0 fullShare (accAt3 V c (n - 1) (by omega)).1 ∗ owns (c : Thread nD τ) scM3_1 fullShare (accAt3 V c (n - 1) (by omega)).2)
      ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

/-- Region 3's proof data on core `c`: the arrays as the region finds them; after the body at row block `t`
    each input's buffer at its block, the row result's at the block's quotients, the column result's at the
    accumulated quotients (consulted at the last row block only, where it is stored); the invariant above;
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k1_pay5 (iblk3 V c 0 t) (iblk3 V c 2 t)
    | ⟨4, _⟩ => k1_pay1 (accAt3 V c t.val t.isLt).2 (accAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = k1_pay5 (iblk3 V c 0 t) (iblk3 V c 2 t) := by dsimp only [dat3]
theorem after3_4 (c : Dev nD) (t : Fin cfg3.N) : (dat3 V c).after 4 t = k1_pay1 (accAt3 V c t.val t.isLt).2 (accAt3 V c t.val t.isLt).1 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation -/

/-- What the body is called with at row block `t`, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  rw [kernel_eq3]
  simp only [before3_0, before3_1, before3_2]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3]
  by_cases h0 : t.val = 0
  · have h1 : ¬t.val = 7 := by omega
    rw [Dat.leavesExact_idle (dat3 V c) 4 t (idleAt3_4 t (fun h => h1 ((condLast_iff t).mp h))) (noFlush3_4 t (fun h => h1 ((condLast_iff t).mp h)))]
    rw [accAt3_zero V c t h0]
    rw [PhiS3_castSucc V c t, PhiS3_zero V c _ _ h0, PhiA3_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid3.coords t) _ _ _ _ _ _ _ _ _ _ _ _ _ _ ((condFirst_iff t).mpr h0) (fun h => h1 ((condLast_iff t).mp h)) (iblk3 V c 0 t) (iblk3 V c 1 t) (iblk3 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid3.coords t) _ _ _ _ _ _ _ _ _ _ _ _ _ _ ((condFirst_iff t).mpr h0) (fun h => h1 ((condLast_iff t).mp h)) (iblk3 V c 0 t) (iblk3 V c 1 t) (iblk3 V c 2 t) _ _
          unfold owns; iexists _; isplitr
          swap; · iexact HS1
          ipureintro; exact pieceOA_s1 c (grid3.coords t) _ _ _ _ _ _ _ _ _ _ _ _ _ _ ((condFirst_iff t).mpr h0) (fun h => h1 ((condLast_iff t).mp h)) (iblk3 V c 0 t) (iblk3 V c 1 t) (iblk3 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid3.coords t) _ _ _ _ _ _ _ _ _ _ _ _ _ _ ((condFirst_iff t).mpr h0) (fun h => h1 ((condLast_iff t).mp h)) (iblk3 V c 0 t) (iblk3 V c 1 t) (iblk3 V c 2 t) _ _
    iexists _; iexact H4
  · by_cases h1 : t.val = 7
    · rw [show (dat3 V c).leavesExact 4 t = owns (c : Thread nD τ) (ms3_4 t) fullShare ((dat3 V c).after 4 t) from by
        unfold Dat.leavesExact; rw [liveAt3_4_C t ((condLast_iff t).mpr h1)], after3_4]
      rw [accAt3_pos V c t h0]
      rw [PhiS3_castSucc V c t, PhiS3_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid3.coords t) _ _ _ _ _ _ _ _ _ _ _ _ _ _ (fun h => h0 ((condFirst_iff t).mp h)) ((condLast_iff t).mpr h1) (iblk3 V c 0 t) (iblk3 V c 1 t) (iblk3 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid3.coords t) _ _ _ _ _ _ _ _ _ _ _ _ _ _ (fun h => h0 ((condFirst_iff t).mp h)) ((condLast_iff t).mpr h1) (iblk3 V c 0 t) (iblk3 V c 1 t) (iblk3 V c 2 t) _ _ _ _
            unfold owns; iexists _; isplitr
            swap; · iexact HS1
            ipureintro; exact pieceOC_s1 c (grid3.coords t) _ _ _ _ _ _ _ _ _ _ _ _ _ _ (fun h => h0 ((condFirst_iff t).mp h)) ((condLast_iff t).mpr h1) (iblk3 V c 0 t) (iblk3 V c 1 t) (iblk3 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid3.coords t) _ _ _ _ _ _ _ _ _ _ _ _ _ _ (fun h => h0 ((condFirst_iff t).mp h)) ((condLast_iff t).mpr h1) (iblk3 V c 0 t) (iblk3 V c 1 t) (iblk3 V c 2 t) _ _ _ _
      unfold owns; iexists _; isplitr
      swap; · iexact H4
      ipureintro; exact pieceOC_o5 c (grid3.coords t) _ _ _ _ _ _ _ _ _ _ _ _ _ _ (fun h => h0 ((condFirst_iff t).mp h)) ((condLast_iff t).mpr h1) (iblk3 V c 0 t) (iblk3 V c 1 t) (iblk3 V c 2 t) _ _ _ _
    · rw [Dat.leavesExact_idle (dat3 V c) 4 t (idleAt3_4 t (fun h => h1 ((condLast_iff t).mp h))) (noFlush3_4 t (fun h => h1 ((condLast_iff t).mp h)))]
      rw [accAt3_pos V c t h0]
      rw [PhiS3_castSucc V c t, PhiS3_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid3.coords t) _ _ _ _ _ _ _ _ _ _ _ _ _ _ (fun h => h0 ((condFirst_iff t).mp h)) (fun h => h1 ((condLast_iff t).mp h)) (iblk3 V c 0 t) (iblk3 V c 1 t) (iblk3 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid3.coords t) _ _ _ _ _ _ _ _ _ _ _ _ _ _ (fun h => h0 ((condFirst_iff t).mp h)) (fun h => h1 ((condLast_iff t).mp h)) (iblk3 V c 0 t) (iblk3 V c 1 t) (iblk3 V c 2 t) _ _ _ _
            unfold owns; iexists _; isplitr
            swap; · iexact HS1
            ipureintro; exact pieceOB_s1 c (grid3.coords t) _ _ _ _ _ _ _ _ _ _ _ _ _ _ (fun h => h0 ((condFirst_iff t).mp h)) (fun h => h1 ((condLast_iff t).mp h)) (iblk3 V c 0 t) (iblk3 V c 1 t) (iblk3 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid3.coords t) _ _ _ _ _ _ _ _ _ _ _ _ _ _ (fun h => h0 ((condFirst_iff t).mp h)) (fun h => h1 ((condLast_iff t).mp h)) (iblk3 V c 0 t) (iblk3 V c 1 t) (iblk3 V c 2 t) _ _ _ _
      iexists _; iexact H4

/-- The library's body obligation, at every row block. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first row block. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After the last row block the invariant gives back what the launch handed over: the accumulators' contents are forgotten. -/
theorem hout3 (c : Dev nD) : (dat3 V c).Φ (Fin.last cfg3.N) ⊢ Pipeline.ΦA spec3 c := by
  rw [show (dat3 V c).Φ (Fin.last cfg3.N) = PhiS3 V c (Fin.last cfg3.N).val (Nat.le_of_lt_succ (Fin.last cfg3.N).isLt) from rfl,
    PhiS3_pos V c _ _ (by rw [Fin.val_last]; have : cfg3.N = 8 := N_3; omega), PhiA3_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region3

end Cert.Kernel.Hand

end
-- ==== Proof.K.Reg4.lean ====
import proofs.«103934_j28484223107660_1_alg».proof.Proof.K.RunEA
import proofs.«103934_j28484223107660_1_alg».proof.Proof.K.RunEB
import proofs.«103934_j28484223107660_1_alg».proof.Proof.K.RunEC
import proofs.«103934_j28484223107660_1_alg».proof.Proof.K.PieceE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 4's kernel function is, as a program, the one the body's runs are stated for (the same text). -/
theorem kernel_eq4 : @cc4__mlgcn_layer_kernel F _ = @cc0__mlgcn_layer_kernel F _ := rfl

section Region4

/- The contents of the core's buffers when region 4 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every row block, fetched there or not. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every row block, fetched there or not. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every row block, fetched there or not. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## Where the windows are idle, and where the column result is written back -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
/-- Before the last row block nothing is stored into the column result's buffer, -/
theorem idleAt4_4 : ∀ t : Fin cfg4.N, ¬condLast (grid4.coords t) → cfg4.idle 4 (grid4.coords t) = true := by decide +kernel
/-- and it is not written back there; -/
theorem noFlush4_4 : ∀ t : Fin cfg4.N, ¬condLast (grid4.coords t) → (cfg4.win 4).flush t = false := by decide +kernel
/-- at the last row block it is stored. -/
theorem liveAt4_4_C : ∀ t : Fin cfg4.N, condLast (grid4.coords t) → cfg4.idle 4 (grid4.coords t) = false := by decide +kernel

/-! ## The staging buffers and the two accumulators -/

abbrev ms4_0 (t : Fin cfg4.N) : Memref sig .tc .vmem S512x4096 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4096x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S512x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S4096x64 .f32 := win4_4.stage (cfg4.slots t 4)
abbrev hs4_4 (t : Fin cfg4.N) : (ms4_4 t).IsWhole := hstage4_4 ((cfg4.slots t 4).cast nbuf4_4)
/-- The accumulator of the weighted sums, and the accumulator of the column degrees: whole buffers of the kernel's own. -/
abbrev scM4_0 : Memref sig .tc .vmem S4096x64 .f32 := Memref.whole cc4_scratch0
abbrev scM4_1 : Memref sig .tc .vmem S1x4096 .f32 := Memref.whole cc4_scratch1

/-- What the region is handed besides its windows: the two accumulators at some contents, the other scoped
    buffers unopened, the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## What the accumulators hold after each row block -/

/-- After row block 0: the block's contribution added to zero; after row block `n + 1`: its contribution added to
    what row block `n` left. First the weighted sums, then the column degrees. -/
def accAt4 (c : Dev nD) : (n : ℕ) → n < cfg4.N → Vec F S4096x64 .f32 × Vec F S1x4096 .f32
  | 0, hn => (k0_pay6 (iblk4 V c 0 ⟨0, hn⟩) (iblk4 V c 1 ⟨0, hn⟩) (k0_pay2 (F := F)), k0_pay7 (iblk4 V c 0 ⟨0, hn⟩) (k0_pay3 (F := F)))
  | n + 1, hn => (k0_pay6 (iblk4 V c 0 ⟨n + 1, hn⟩) (iblk4 V c 1 ⟨n + 1, hn⟩) (accAt4 c n (Nat.lt_of_succ_lt hn)).1,
      k0_pay7 (iblk4 V c 0 ⟨n + 1, hn⟩) (accAt4 c n (Nat.lt_of_succ_lt hn)).2)

theorem accAt4_zero (c : Dev nD) (t : Fin cfg4.N) (h0 : t.val = 0) :
    accAt4 V c t.val t.isLt = (k0_pay6 (iblk4 V c 0 t) (iblk4 V c 1 t) (k0_pay2 (F := F)), k0_pay7 (iblk4 V c 0 t) (k0_pay3 (F := F))) := by
  obtain ⟨n, hn⟩ := t
  cases n with
  | zero => rfl
  | succ n => exact absurd h0 (Nat.succ_ne_zero n)

theorem accAt4_pos (c : Dev nD) (t : Fin cfg4.N) (h0 : ¬t.val = 0) :
    accAt4 V c t.val t.isLt = (k0_pay6 (iblk4 V c 0 t) (iblk4 V c 1 t) (accAt4 V c (t.val - 1) (Nat.lt_of_le_of_lt (Nat.sub_le _ _) t.isLt)).1,
      k0_pay7 (iblk4 V c 0 t) (accAt4 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn).1 ∗ owns (c : Thread nD τ) scM4_1 fullShare (accAt4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn).1 ∗ owns (c : Thread nD τ) scM4_1 fullShare (accAt4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : ¬n = 0) :
    PhiS4 V c n h = iprop(iprop(iprop(owns (c : Thread nD τ) scM4_0 fullShare (accAt4 V c (n - 1) (by omega)).1 ∗ owns (c : Thread nD τ) scM4_1 fullShare (accAt4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- Region 4's proof data on core `c`: the arrays as the region finds them; after the body at row block `t`
    each input's buffer at its block, the row result's at the block's quotients, the column result's at the
    accumulated quotients (consulted at the last row block only, where it is stored); the invariant above;
    nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => k0_pay5 (iblk4 V c 0 t) (iblk4 V c 2 t)
    | ⟨4, _⟩ => k0_pay1 (accAt4 V c t.val t.isLt).2 (accAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = k0_pay5 (iblk4 V c 0 t) (iblk4 V c 2 t) := by dsimp only [dat4]
theorem after4_4 (c : Dev nD) (t : Fin cfg4.N) : (dat4 V c).after 4 t = k0_pay1 (accAt4 V c t.val t.isLt).2 (accAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation -/

/-- What the body is called with at row block `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [kernel_eq4]
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 8 := lt_of_lt_of_eq t.isLt (show cfg4.N = 8 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  by_cases h0 : t.val = 0
  · have h1 : ¬t.val = 7 := by omega
    rw [Dat.leavesExact_idle (dat4 V c) 4 t (idleAt4_4 t (fun h => h1 ((condLast_iff t).mp h))) (noFlush4_4 t (fun h => h1 ((condLast_iff t).mp h)))]
    rw [accAt4_zero V c t h0]
    rw [PhiS4_castSucc V c t, PhiS4_zero V c _ _ h0, PhiA4_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid4.coords t) _ _ _ _ _ _ _ _ _ _ _ _ _ _ ((condFirst_iff t).mpr h0) (fun h => h1 ((condLast_iff t).mp h)) (iblk4 V c 0 t) (iblk4 V c 1 t) (iblk4 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid4.coords t) _ _ _ _ _ _ _ _ _ _ _ _ _ _ ((condFirst_iff t).mpr h0) (fun h => h1 ((condLast_iff t).mp h)) (iblk4 V c 0 t) (iblk4 V c 1 t) (iblk4 V c 2 t) _ _
          unfold owns; iexists _; isplitr
          swap; · iexact HS1
          ipureintro; exact pieceEA_s1 c (grid4.coords t) _ _ _ _ _ _ _ _ _ _ _ _ _ _ ((condFirst_iff t).mpr h0) (fun h => h1 ((condLast_iff t).mp h)) (iblk4 V c 0 t) (iblk4 V c 1 t) (iblk4 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid4.coords t) _ _ _ _ _ _ _ _ _ _ _ _ _ _ ((condFirst_iff t).mpr h0) (fun h => h1 ((condLast_iff t).mp h)) (iblk4 V c 0 t) (iblk4 V c 1 t) (iblk4 V c 2 t) _ _
    iexists _; iexact H4
  · by_cases h1 : t.val = 7
    · rw [show (dat4 V c).leavesExact 4 t = owns (c : Thread nD τ) (ms4_4 t) fullShare ((dat4 V c).after 4 t) from by
        unfold Dat.leavesExact; rw [liveAt4_4_C t ((condLast_iff t).mpr h1)], after4_4]
      rw [accAt4_pos V c t h0]
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid4.coords t) _ _ _ _ _ _ _ _ _ _ _ _ _ _ (fun h => h0 ((condFirst_iff t).mp h)) ((condLast_iff t).mpr h1) (iblk4 V c 0 t) (iblk4 V c 1 t) (iblk4 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid4.coords t) _ _ _ _ _ _ _ _ _ _ _ _ _ _ (fun h => h0 ((condFirst_iff t).mp h)) ((condLast_iff t).mpr h1) (iblk4 V c 0 t) (iblk4 V c 1 t) (iblk4 V c 2 t) _ _ _ _
            unfold owns; iexists _; isplitr
            swap; · iexact HS1
            ipureintro; exact pieceEC_s1 c (grid4.coords t) _ _ _ _ _ _ _ _ _ _ _ _ _ _ (fun h => h0 ((condFirst_iff t).mp h)) ((condLast_iff t).mpr h1) (iblk4 V c 0 t) (iblk4 V c 1 t) (iblk4 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid4.coords t) _ _ _ _ _ _ _ _ _ _ _ _ _ _ (fun h => h0 ((condFirst_iff t).mp h)) ((condLast_iff t).mpr h1) (iblk4 V c 0 t) (iblk4 V c 1 t) (iblk4 V c 2 t) _ _ _ _
      unfold owns; iexists _; isplitr
      swap; · iexact H4
      ipureintro; exact pieceEC_o5 c (grid4.coords t) _ _ _ _ _ _ _ _ _ _ _ _ _ _ (fun h => h0 ((condFirst_iff t).mp h)) ((condLast_iff t).mpr h1) (iblk4 V c 0 t) (iblk4 V c 1 t) (iblk4 V c 2 t) _ _ _ _
    · rw [Dat.leavesExact_idle (dat4 V c) 4 t (idleAt4_4 t (fun h => h1 ((condLast_iff t).mp h))) (noFlush4_4 t (fun h => h1 ((condLast_iff t).mp h)))]
      rw [accAt4_pos V c t h0]
      rw [PhiS4_castSucc V c t, PhiS4_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid4.coords t) _ _ _ _ _ _ _ _ _ _ _ _ _ _ (fun h => h0 ((condFirst_iff t).mp h)) (fun h => h1 ((condLast_iff t).mp h)) (iblk4 V c 0 t) (iblk4 V c 1 t) (iblk4 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid4.coords t) _ _ _ _ _ _ _ _ _ _ _ _ _ _ (fun h => h0 ((condFirst_iff t).mp h)) (fun h => h1 ((condLast_iff t).mp h)) (iblk4 V c 0 t) (iblk4 V c 1 t) (iblk4 V c 2 t) _ _ _ _
            unfold owns; iexists _; isplitr
            swap; · iexact HS1
            ipureintro; exact pieceEB_s1 c (grid4.coords t) _ _ _ _ _ _ _ _ _ _ _ _ _ _ (fun h => h0 ((condFirst_iff t).mp h)) (fun h => h1 ((condLast_iff t).mp h)) (iblk4 V c 0 t) (iblk4 V c 1 t) (iblk4 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid4.coords t) _ _ _ _ _ _ _ _ _ _ _ _ _ _ (fun h => h0 ((condFirst_iff t).mp h)) (fun h => h1 ((condLast_iff t).mp h)) (iblk4 V c 0 t) (iblk4 V c 1 t) (iblk4 V c 2 t) _ _ _ _
      iexists _; iexact H4

/-- The library's body obligation, at every row block. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first row block. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last row block the invariant gives back what the launch handed over: the accumulators' contents are forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 8 := N_4; omega), PhiA4_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region4

end Cert.Kernel.Hand

end
-- ==== Proof.K.Reg5.lean ====
import proofs.«103934_j28484223107660_1_alg».proof.Proof.K.RunOA
import proofs.«103934_j28484223107660_1_alg».proof.Proof.K.RunOB
import proofs.«103934_j28484223107660_1_alg».proof.Proof.K.RunOC
import proofs.«103934_j28484223107660_1_alg».proof.Proof.K.PieceO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 5's kernel function is, as a program, the one the body's runs are stated for (the same text). -/
theorem kernel_eq5 : @cc5__mlgcn_layer_kernel F _ = @cc1__mlgcn_layer_kernel F _ := rfl

section Region5

/- The contents of the core's buffers when region 5 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every row block, fetched there or not. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every row block, fetched there or not. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every row block, fetched there or not. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## Where the windows are idle, and where the column result is written back -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel
/-- Before the last row block nothing is stored into the column result's buffer, -/
theorem idleAt5_4 : ∀ t : Fin cfg5.N, ¬condLast (grid5.coords t) → cfg5.idle 4 (grid5.coords t) = true := by decide +kernel
/-- and it is not written back there; -/
theorem noFlush5_4 : ∀ t : Fin cfg5.N, ¬condLast (grid5.coords t) → (cfg5.win 4).flush t = false := by decide +kernel
/-- at the last row block it is stored. -/
theorem liveAt5_4_C : ∀ t : Fin cfg5.N, condLast (grid5.coords t) → cfg5.idle 4 (grid5.coords t) = false := by decide +kernel

/-! ## The staging buffers and the two accumulators -/

abbrev ms5_0 (t : Fin cfg5.N) : Memref sig .tc .vmem S512x4096 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x64 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x64 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S512x64 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4096x64 .f32 := win5_4.stage (cfg5.slots t 4)
abbrev hs5_4 (t : Fin cfg5.N) : (ms5_4 t).IsWhole := hstage5_4 ((cfg5.slots t 4).cast nbuf5_4)
/-- The accumulator of the weighted sums, and the accumulator of the column degrees: whole buffers of the kernel's own. -/
abbrev scM5_0 : Memref sig .tc .vmem S4096x64 .f32 := Memref.whole cc5_scratch0
abbrev scM5_1 : Memref sig .tc .vmem S1x4096 .f32 := Memref.whole cc5_scratch1

/-- What the region is handed besides its windows: the two accumulators at some contents, the other scoped
    buffers unopened, the generator register at some state. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d))
          ∗ Pipeline.scopedRestBut (Ix := Unit) (Name := ℕ) (U := UR sig nD τ) (Lvl := ℕ) (Val := Elt F) spec5 c [cc5_scratch0, cc5_scratch1]) ∗ (∃ r, prngReg c r)) := by
  unfold Pipeline.ΦA; rw [scopedRest5_split]; simp only [scM5_0, scM5_1, owns_whole]; try rfl

/-! ## What the accumulators hold after each row block -/

/-- After row block 0: the block's contribution added to zero; after row block `n + 1`: its contribution added to
    what row block `n` left. First the weighted sums, then the column degrees. -/
def accAt5 (c : Dev nD) : (n : ℕ) → n < cfg5.N → Vec F S4096x64 .f32 × Vec F S1x4096 .f32
  | 0, hn => (k1_pay6 (iblk5 V c 0 ⟨0, hn⟩) (iblk5 V c 1 ⟨0, hn⟩) (k1_pay2 (F := F)), k1_pay7 (iblk5 V c 0 ⟨0, hn⟩) (k1_pay3 (F := F)))
  | n + 1, hn => (k1_pay6 (iblk5 V c 0 ⟨n + 1, hn⟩) (iblk5 V c 1 ⟨n + 1, hn⟩) (accAt5 c n (Nat.lt_of_succ_lt hn)).1,
      k1_pay7 (iblk5 V c 0 ⟨n + 1, hn⟩) (accAt5 c n (Nat.lt_of_succ_lt hn)).2)

theorem accAt5_zero (c : Dev nD) (t : Fin cfg5.N) (h0 : t.val = 0) :
    accAt5 V c t.val t.isLt = (k1_pay6 (iblk5 V c 0 t) (iblk5 V c 1 t) (k1_pay2 (F := F)), k1_pay7 (iblk5 V c 0 t) (k1_pay3 (F := F))) := by
  obtain ⟨n, hn⟩ := t
  cases n with
  | zero => rfl
  | succ n => exact absurd h0 (Nat.succ_ne_zero n)

theorem accAt5_pos (c : Dev nD) (t : Fin cfg5.N) (h0 : ¬t.val = 0) :
    accAt5 V c t.val t.isLt = (k1_pay6 (iblk5 V c 0 t) (iblk5 V c 1 t) (accAt5 V c (t.val - 1) (Nat.lt_of_le_of_lt (Nat.sub_le _ _) t.isLt)).1,
      k1_pay7 (iblk5 V c 0 t) (accAt5 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS5 (c : Dev nD) : (n : ℕ) → n ≤ cfg5.N → sProp 𝕄
  | 0, _ => Pipeline.ΦA spec5 c
  | n + 1, hn => iprop(iprop(iprop(owns (c : Thread nD τ) scM5_0 fullShare (accAt5 V c n hn).1 ∗ owns (c : Thread nD τ) scM5_1 fullShare (accAt5 V c n hn).2)
      ∗ Pipeline.scopedRestBut (Ix := Unit) (Name := ℕ) (U := UR sig nD τ) (Lvl := ℕ) (Val := Elt F) spec5 c [cc5_scratch0, cc5_scratch1]) ∗ (∃ r, prngReg c r))

theorem PhiS5_zero (c : Dev nD) (n : ℕ) (h : n ≤ cfg5.N) (hz : n = 0) : PhiS5 V c n h = Pipeline.ΦA spec5 c := by
  subst hz; rfl

theorem PhiS5_succ (c : Dev nD) (n : ℕ) (hn : n < cfg5.N) :
    PhiS5 V c (n + 1) hn = iprop(iprop(iprop(owns (c : Thread nD τ) scM5_0 fullShare (accAt5 V c n hn).1 ∗ owns (c : Thread nD τ) scM5_1 fullShare (accAt5 V c n hn).2)
      ∗ Pipeline.scopedRestBut (Ix := Unit) (Name := ℕ) (U := UR sig nD τ) (Lvl := ℕ) (Val := Elt F) spec5 c [cc5_scratch0, cc5_scratch1]) ∗ (∃ r, prngReg c r)) := rfl

theorem PhiS5_pos (c : Dev nD) (n : ℕ) (h : n ≤ cfg5.N) (hz : ¬n = 0) :
    PhiS5 V c n h = iprop(iprop(iprop(owns (c : Thread nD τ) scM5_0 fullShare (accAt5 V c (n - 1) (by omega)).1 ∗ owns (c : Thread nD τ) scM5_1 fullShare (accAt5 V c (n - 1) (by omega)).2)
      ∗ Pipeline.scopedRestBut (Ix := Unit) (Name := ℕ) (U := UR sig nD τ) (Lvl := ℕ) (Val := Elt F) spec5 c [cc5_scratch0, cc5_scratch1]) ∗ (∃ r, prngReg c r)) := by
  cases n with
  | zero => exact absurd rfl hz
  | succ n => rfl

/-! ## The pipeline's proof data -/

/-- Region 5's proof data on core `c`: the arrays as the region finds them; after the body at row block `t`
    each input's buffer at its block, the row result's at the block's quotients, the column result's at the
    accumulated quotients (consulted at the last row block only, where it is stored); the invariant above;
    nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => k1_pay5 (iblk5 V c 0 t) (iblk5 V c 2 t)
    | ⟨4, _⟩ => k1_pay1 (accAt5 V c t.val t.isLt).2 (accAt5 V c t.val t.isLt).1
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]

theorem PhiS5_castSucc (c : Dev nD) (t : Fin cfg5.N) :
    (dat5 V c).Φ t.castSucc = PhiS5 V c t.val (Nat.le_of_lt t.isLt) := by
  dsimp only [dat5]; simp only [Fin.coe_castSucc]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = k1_pay5 (iblk5 V c 0 t) (iblk5 V c 2 t) := by dsimp only [dat5]
theorem after5_4 (c : Dev nD) (t : Fin cfg5.N) : (dat5 V c).after 4 t = k1_pay1 (accAt5 V c t.val t.isLt).2 (accAt5 V c t.val t.isLt).1 := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation -/

/-- What the body is called with at row block `t`, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [kernel_eq5]
  simp only [before5_0, before5_1, before5_2]
  rw [show (dat5 V c).owesAt () t.succ = (dat5 V c).owesAt () t.castSucc from rfl]
  rw [show (dat5 V c).Φ t.succ = PhiS5 V c (t.val + 1) t.isLt from rfl, PhiS5_succ]
  have hN : t.val < 8 := lt_of_lt_of_eq t.isLt (show cfg5.N = 8 from N_5)
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  by_cases h0 : t.val = 0
  · have h1 : ¬t.val = 7 := by omega
    rw [Dat.leavesExact_idle (dat5 V c) 4 t (idleAt5_4 t (fun h => h1 ((condLast_iff t).mp h))) (noFlush5_4 t (fun h => h1 ((condLast_iff t).mp h)))]
    rw [accAt5_zero V c t h0]
    rw [PhiS5_castSucc V c t, PhiS5_zero V c _ _ h0, PhiA5_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid5.coords t) _ _ _ _ _ _ _ _ _ _ _ _ _ _ ((condFirst_iff t).mpr h0) (fun h => h1 ((condLast_iff t).mp h)) (iblk5 V c 0 t) (iblk5 V c 1 t) (iblk5 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid5.coords t) _ _ _ _ _ _ _ _ _ _ _ _ _ _ ((condFirst_iff t).mpr h0) (fun h => h1 ((condLast_iff t).mp h)) (iblk5 V c 0 t) (iblk5 V c 1 t) (iblk5 V c 2 t) _ _
          unfold owns; iexists _; isplitr
          swap; · iexact HS1
          ipureintro; exact pieceOA_s1 c (grid5.coords t) _ _ _ _ _ _ _ _ _ _ _ _ _ _ ((condFirst_iff t).mpr h0) (fun h => h1 ((condLast_iff t).mp h)) (iblk5 V c 0 t) (iblk5 V c 1 t) (iblk5 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid5.coords t) _ _ _ _ _ _ _ _ _ _ _ _ _ _ ((condFirst_iff t).mpr h0) (fun h => h1 ((condLast_iff t).mp h)) (iblk5 V c 0 t) (iblk5 V c 1 t) (iblk5 V c 2 t) _ _
    iexists _; iexact H4
  · by_cases h1 : t.val = 7
    · rw [show (dat5 V c).leavesExact 4 t = owns (c : Thread nD τ) (ms5_4 t) fullShare ((dat5 V c).after 4 t) from by
        unfold Dat.leavesExact; rw [liveAt5_4_C t ((condLast_iff t).mpr h1)], after5_4]
      rw [accAt5_pos V c t h0]
      rw [PhiS5_castSucc V c t, PhiS5_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid5.coords t) _ _ _ _ _ _ _ _ _ _ _ _ _ _ (fun h => h0 ((condFirst_iff t).mp h)) ((condLast_iff t).mpr h1) (iblk5 V c 0 t) (iblk5 V c 1 t) (iblk5 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid5.coords t) _ _ _ _ _ _ _ _ _ _ _ _ _ _ (fun h => h0 ((condFirst_iff t).mp h)) ((condLast_iff t).mpr h1) (iblk5 V c 0 t) (iblk5 V c 1 t) (iblk5 V c 2 t) _ _ _ _
            unfold owns; iexists _; isplitr
            swap; · iexact HS1
            ipureintro; exact pieceOC_s1 c (grid5.coords t) _ _ _ _ _ _ _ _ _ _ _ _ _ _ (fun h => h0 ((condFirst_iff t).mp h)) ((condLast_iff t).mpr h1) (iblk5 V c 0 t) (iblk5 V c 1 t) (iblk5 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid5.coords t) _ _ _ _ _ _ _ _ _ _ _ _ _ _ (fun h => h0 ((condFirst_iff t).mp h)) ((condLast_iff t).mpr h1) (iblk5 V c 0 t) (iblk5 V c 1 t) (iblk5 V c 2 t) _ _ _ _
      unfold owns; iexists _; isplitr
      swap; · iexact H4
      ipureintro; exact pieceOC_o5 c (grid5.coords t) _ _ _ _ _ _ _ _ _ _ _ _ _ _ (fun h => h0 ((condFirst_iff t).mp h)) ((condLast_iff t).mpr h1) (iblk5 V c 0 t) (iblk5 V c 1 t) (iblk5 V c 2 t) _ _ _ _
    · rw [Dat.leavesExact_idle (dat5 V c) 4 t (idleAt5_4 t (fun h => h1 ((condLast_iff t).mp h))) (noFlush5_4 t (fun h => h1 ((condLast_iff t).mp h)))]
      rw [accAt5_pos V c t h0]
      rw [PhiS5_castSucc V c t, PhiS5_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid5.coords t) _ _ _ _ _ _ _ _ _ _ _ _ _ _ (fun h => h0 ((condFirst_iff t).mp h)) (fun h => h1 ((condLast_iff t).mp h)) (iblk5 V c 0 t) (iblk5 V c 1 t) (iblk5 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid5.coords t) _ _ _ _ _ _ _ _ _ _ _ _ _ _ (fun h => h0 ((condFirst_iff t).mp h)) (fun h => h1 ((condLast_iff t).mp h)) (iblk5 V c 0 t) (iblk5 V c 1 t) (iblk5 V c 2 t) _ _ _ _
            unfold owns; iexists _; isplitr
            swap; · iexact HS1
            ipureintro; exact pieceOB_s1 c (grid5.coords t) _ _ _ _ _ _ _ _ _ _ _ _ _ _ (fun h => h0 ((condFirst_iff t).mp h)) (fun h => h1 ((condLast_iff t).mp h)) (iblk5 V c 0 t) (iblk5 V c 1 t) (iblk5 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid5.coords t) _ _ _ _ _ _ _ _ _ _ _ _ _ _ (fun h => h0 ((condFirst_iff t).mp h)) (fun h => h1 ((condLast_iff t).mp h)) (iblk5 V c 0 t) (iblk5 V c 1 t) (iblk5 V c 2 t) _ _ _ _
      iexists _; iexact H4

/-- The library's body obligation, at every row block. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first row block. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After the last row block the invariant gives back what the launch handed over: the accumulators' contents are forgotten. -/
theorem hout5 (c : Dev nD) : (dat5 V c).Φ (Fin.last cfg5.N) ⊢ Pipeline.ΦA spec5 c := by
  rw [show (dat5 V c).Φ (Fin.last cfg5.N) = PhiS5 V c (Fin.last cfg5.N).val (Nat.le_of_lt_succ (Fin.last cfg5.N).isLt) from rfl,
    PhiS5_pos V c _ _ (by rw [Fin.val_last]; have : cfg5.N = 8 := N_5; omega), PhiA5_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region5

end Cert.Kernel.Hand

end
-- ==== Proof.K.Reg6.lean ====
import proofs.«103934_j28484223107660_1_alg».proof.Proof.K.RunEA
import proofs.«103934_j28484223107660_1_alg».proof.Proof.K.RunEB
import proofs.«103934_j28484223107660_1_alg».proof.Proof.K.RunEC
import proofs.«103934_j28484223107660_1_alg».proof.Proof.K.PieceE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 6's kernel function is, as a program, the one the body's runs are stated for (the same text). -/
theorem kernel_eq6 : @cc6__mlgcn_layer_kernel F _ = @cc0__mlgcn_layer_kernel F _ := rfl

section Region6

/- The contents of the core's buffers when region 6 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every row block, fetched there or not. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every row block, fetched there or not. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every row block, fetched there or not. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## Where the windows are idle, and where the column result is written back -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Before the last row block nothing is stored into the column result's buffer, -/
theorem idleAt6_4 : ∀ t : Fin cfg6.N, ¬condLast (grid6.coords t) → cfg6.idle 4 (grid6.coords t) = true := by decide +kernel
/-- and it is not written back there; -/
theorem noFlush6_4 : ∀ t : Fin cfg6.N, ¬condLast (grid6.coords t) → (cfg6.win 4).flush t = false := by decide +kernel
/-- at the last row block it is stored. -/
theorem liveAt6_4_C : ∀ t : Fin cfg6.N, condLast (grid6.coords t) → cfg6.idle 4 (grid6.coords t) = false := by decide +kernel

/-! ## The staging buffers and the two accumulators -/

abbrev ms6_0 (t : Fin cfg6.N) : Memref sig .tc .vmem S512x4096 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x64 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S4096x64 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S512x64 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S4096x64 .f32 := win6_4.stage (cfg6.slots t 4)
abbrev hs6_4 (t : Fin cfg6.N) : (ms6_4 t).IsWhole := hstage6_4 ((cfg6.slots t 4).cast nbuf6_4)
/-- The accumulator of the weighted sums, and the accumulator of the column degrees: whole buffers of the kernel's own. -/
abbrev scM6_0 : Memref sig .tc .vmem S4096x64 .f32 := Memref.whole cc6_scratch0
abbrev scM6_1 : Memref sig .tc .vmem S1x4096 .f32 := Memref.whole cc6_scratch1

/-- What the region is handed besides its windows: the two accumulators at some contents, the other scoped
    buffers unopened, the generator register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := UR sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## What the accumulators hold after each row block -/

/-- After row block 0: the block's contribution added to zero; after row block `n + 1`: its contribution added to
    what row block `n` left. First the weighted sums, then the column degrees. -/
def accAt6 (c : Dev nD) : (n : ℕ) → n < cfg6.N → Vec F S4096x64 .f32 × Vec F S1x4096 .f32
  | 0, hn => (k0_pay6 (iblk6 V c 0 ⟨0, hn⟩) (iblk6 V c 1 ⟨0, hn⟩) (k0_pay2 (F := F)), k0_pay7 (iblk6 V c 0 ⟨0, hn⟩) (k0_pay3 (F := F)))
  | n + 1, hn => (k0_pay6 (iblk6 V c 0 ⟨n + 1, hn⟩) (iblk6 V c 1 ⟨n + 1, hn⟩) (accAt6 c n (Nat.lt_of_succ_lt hn)).1,
      k0_pay7 (iblk6 V c 0 ⟨n + 1, hn⟩) (accAt6 c n (Nat.lt_of_succ_lt hn)).2)

theorem accAt6_zero (c : Dev nD) (t : Fin cfg6.N) (h0 : t.val = 0) :
    accAt6 V c t.val t.isLt = (k0_pay6 (iblk6 V c 0 t) (iblk6 V c 1 t) (k0_pay2 (F := F)), k0_pay7 (iblk6 V c 0 t) (k0_pay3 (F := F))) := by
  obtain ⟨n, hn⟩ := t
  cases n with
  | zero => rfl
  | succ n => exact absurd h0 (Nat.succ_ne_zero n)

theorem accAt6_pos (c : Dev nD) (t : Fin cfg6.N) (h0 : ¬t.val = 0) :
    accAt6 V c t.val t.isLt = (k0_pay6 (iblk6 V c 0 t) (iblk6 V c 1 t) (accAt6 V c (t.val - 1) (Nat.lt_of_le_of_lt (Nat.sub_le _ _) t.isLt)).1,
      k0_pay7 (iblk6 V c 0 t) (accAt6 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS6 (c : Dev nD) : (n : ℕ) → n ≤ cfg6.N → sProp 𝕄
  | 0, _ => Pipeline.ΦA spec6 c
  | n + 1, hn => iprop(iprop(iprop(owns (c : Thread nD τ) scM6_0 fullShare (accAt6 V c n hn).1 ∗ owns (c : Thread nD τ) scM6_1 fullShare (accAt6 V c n hn).2)
      ∗ Pipeline.scopedRestBut (Ix := Unit) (Name := ℕ) (U := UR sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(iprop(owns (c : Thread nD τ) scM6_0 fullShare (accAt6 V c n hn).1 ∗ owns (c : Thread nD τ) scM6_1 fullShare (accAt6 V c n hn).2)
      ∗ Pipeline.scopedRestBut (Ix := Unit) (Name := ℕ) (U := UR sig nD τ) (Lvl := ℕ) (Val := Elt F) spec6 c [cc6_scratch0, cc6_scratch1]) ∗ (∃ r, prngReg c r)) := rfl

theorem PhiS6_pos (c : Dev nD) (n : ℕ) (h : n ≤ cfg6.N) (hz : ¬n = 0) :
    PhiS6 V c n h = iprop(iprop(iprop(owns (c : Thread nD τ) scM6_0 fullShare (accAt6 V c (n - 1) (by omega)).1 ∗ owns (c : Thread nD τ) scM6_1 fullShare (accAt6 V c (n - 1) (by omega)).2)
      ∗ Pipeline.scopedRestBut (Ix := Unit) (Name := ℕ) (U := UR sig nD τ) (Lvl := ℕ) (Val := Elt F) spec6 c [cc6_scratch0, cc6_scratch1]) ∗ (∃ r, prngReg c r)) := by
  cases n with
  | zero => exact absurd rfl hz
  | succ n => rfl

/-! ## The pipeline's proof data -/

/-- Region 6's proof data on core `c`: the arrays as the region finds them; after the body at row block `t`
    each input's buffer at its block, the row result's at the block's quotients, the column result's at the
    accumulated quotients (consulted at the last row block only, where it is stored); the invariant above;
    nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k0_pay5 (iblk6 V c 0 t) (iblk6 V c 2 t)
    | ⟨4, _⟩ => k0_pay1 (accAt6 V c t.val t.isLt).2 (accAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = k0_pay5 (iblk6 V c 0 t) (iblk6 V c 2 t) := by dsimp only [dat6]
theorem after6_4 (c : Dev nD) (t : Fin cfg6.N) : (dat6 V c).after 4 t = k0_pay1 (accAt6 V c t.val t.isLt).2 (accAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation -/

/-- What the body is called with at row block `t`, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [kernel_eq6]
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 8 := lt_of_lt_of_eq t.isLt (show cfg6.N = 8 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  by_cases h0 : t.val = 0
  · have h1 : ¬t.val = 7 := by omega
    rw [Dat.leavesExact_idle (dat6 V c) 4 t (idleAt6_4 t (fun h => h1 ((condLast_iff t).mp h))) (noFlush6_4 t (fun h => h1 ((condLast_iff t).mp h)))]
    rw [accAt6_zero V c t h0]
    rw [PhiS6_castSucc V c t, PhiS6_zero V c _ _ h0, PhiA6_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid6.coords t) _ _ _ _ _ _ _ _ _ _ _ _ _ _ ((condFirst_iff t).mpr h0) (fun h => h1 ((condLast_iff t).mp h)) (iblk6 V c 0 t) (iblk6 V c 1 t) (iblk6 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid6.coords t) _ _ _ _ _ _ _ _ _ _ _ _ _ _ ((condFirst_iff t).mpr h0) (fun h => h1 ((condLast_iff t).mp h)) (iblk6 V c 0 t) (iblk6 V c 1 t) (iblk6 V c 2 t) _ _
          unfold owns; iexists _; isplitr
          swap; · iexact HS1
          ipureintro; exact pieceEA_s1 c (grid6.coords t) _ _ _ _ _ _ _ _ _ _ _ _ _ _ ((condFirst_iff t).mpr h0) (fun h => h1 ((condLast_iff t).mp h)) (iblk6 V c 0 t) (iblk6 V c 1 t) (iblk6 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid6.coords t) _ _ _ _ _ _ _ _ _ _ _ _ _ _ ((condFirst_iff t).mpr h0) (fun h => h1 ((condLast_iff t).mp h)) (iblk6 V c 0 t) (iblk6 V c 1 t) (iblk6 V c 2 t) _ _
    iexists _; iexact H4
  · by_cases h1 : t.val = 7
    · rw [show (dat6 V c).leavesExact 4 t = owns (c : Thread nD τ) (ms6_4 t) fullShare ((dat6 V c).after 4 t) from by
        unfold Dat.leavesExact; rw [liveAt6_4_C t ((condLast_iff t).mpr h1)], after6_4]
      rw [accAt6_pos V c t h0]
      rw [PhiS6_castSucc V c t, PhiS6_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid6.coords t) _ _ _ _ _ _ _ _ _ _ _ _ _ _ (fun h => h0 ((condFirst_iff t).mp h)) ((condLast_iff t).mpr h1) (iblk6 V c 0 t) (iblk6 V c 1 t) (iblk6 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid6.coords t) _ _ _ _ _ _ _ _ _ _ _ _ _ _ (fun h => h0 ((condFirst_iff t).mp h)) ((condLast_iff t).mpr h1) (iblk6 V c 0 t) (iblk6 V c 1 t) (iblk6 V c 2 t) _ _ _ _
            unfold owns; iexists _; isplitr
            swap; · iexact HS1
            ipureintro; exact pieceEC_s1 c (grid6.coords t) _ _ _ _ _ _ _ _ _ _ _ _ _ _ (fun h => h0 ((condFirst_iff t).mp h)) ((condLast_iff t).mpr h1) (iblk6 V c 0 t) (iblk6 V c 1 t) (iblk6 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid6.coords t) _ _ _ _ _ _ _ _ _ _ _ _ _ _ (fun h => h0 ((condFirst_iff t).mp h)) ((condLast_iff t).mpr h1) (iblk6 V c 0 t) (iblk6 V c 1 t) (iblk6 V c 2 t) _ _ _ _
      unfold owns; iexists _; isplitr
      swap; · iexact H4
      ipureintro; exact pieceEC_o5 c (grid6.coords t) _ _ _ _ _ _ _ _ _ _ _ _ _ _ (fun h => h0 ((condFirst_iff t).mp h)) ((condLast_iff t).mpr h1) (iblk6 V c 0 t) (iblk6 V c 1 t) (iblk6 V c 2 t) _ _ _ _
    · rw [Dat.leavesExact_idle (dat6 V c) 4 t (idleAt6_4 t (fun h => h1 ((condLast_iff t).mp h))) (noFlush6_4 t (fun h => h1 ((condLast_iff t).mp h)))]
      rw [accAt6_pos V c t h0]
      rw [PhiS6_castSucc V c t, PhiS6_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid6.coords t) _ _ _ _ _ _ _ _ _ _ _ _ _ _ (fun h => h0 ((condFirst_iff t).mp h)) (fun h => h1 ((condLast_iff t).mp h)) (iblk6 V c 0 t) (iblk6 V c 1 t) (iblk6 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid6.coords t) _ _ _ _ _ _ _ _ _ _ _ _ _ _ (fun h => h0 ((condFirst_iff t).mp h)) (fun h => h1 ((condLast_iff t).mp h)) (iblk6 V c 0 t) (iblk6 V c 1 t) (iblk6 V c 2 t) _ _ _ _
            unfold owns; iexists _; isplitr
            swap; · iexact HS1
            ipureintro; exact pieceEB_s1 c (grid6.coords t) _ _ _ _ _ _ _ _ _ _ _ _ _ _ (fun h => h0 ((condFirst_iff t).mp h)) (fun h => h1 ((condLast_iff t).mp h)) (iblk6 V c 0 t) (iblk6 V c 1 t) (iblk6 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid6.coords t) _ _ _ _ _ _ _ _ _ _ _ _ _ _ (fun h => h0 ((condFirst_iff t).mp h)) (fun h => h1 ((condLast_iff t).mp h)) (iblk6 V c 0 t) (iblk6 V c 1 t) (iblk6 V c 2 t) _ _ _ _
      iexists _; iexact H4

/-- The library's body obligation, at every row block. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first row block. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last row block the invariant gives back what the launch handed over: the accumulators' contents are forgotten. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 8 := N_6; omega), PhiA6_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region6

end Cert.Kernel.Hand

end
-- ==== Proof.K.Reg7.lean ====
import proofs.«103934_j28484223107660_1_alg».proof.Proof.K.RunOA
import proofs.«103934_j28484223107660_1_alg».proof.Proof.K.RunOB
import proofs.«103934_j28484223107660_1_alg».proof.Proof.K.RunOC
import proofs.«103934_j28484223107660_1_alg».proof.Proof.K.PieceO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 7's kernel function is, as a program, the one the body's runs are stated for (the same text). -/
theorem kernel_eq7 : @cc7__mlgcn_layer_kernel F _ = @cc1__mlgcn_layer_kernel F _ := rfl

section Region7

/- The contents of the core's buffers when region 7 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every row block, fetched there or not. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every row block, fetched there or not. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every row block, fetched there or not. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## Where the windows are idle, and where the column result is written back -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
/-- Before the last row block nothing is stored into the column result's buffer, -/
theorem idleAt7_4 : ∀ t : Fin cfg7.N, ¬condLast (grid7.coords t) → cfg7.idle 4 (grid7.coords t) = true := by decide +kernel
/-- and it is not written back there; -/
theorem noFlush7_4 : ∀ t : Fin cfg7.N, ¬condLast (grid7.coords t) → (cfg7.win 4).flush t = false := by decide +kernel
/-- at the last row block it is stored. -/
theorem liveAt7_4_C : ∀ t : Fin cfg7.N, condLast (grid7.coords t) → cfg7.idle 4 (grid7.coords t) = false := by decide +kernel

/-! ## The staging buffers and the two accumulators -/

abbrev ms7_0 (t : Fin cfg7.N) : Memref sig .tc .vmem S512x4096 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S512x64 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S4096x64 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S512x64 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S4096x64 .f32 := win7_4.stage (cfg7.slots t 4)
abbrev hs7_4 (t : Fin cfg7.N) : (ms7_4 t).IsWhole := hstage7_4 ((cfg7.slots t 4).cast nbuf7_4)
/-- The accumulator of the weighted sums, and the accumulator of the column degrees: whole buffers of the kernel's own. -/
abbrev scM7_0 : Memref sig .tc .vmem S4096x64 .f32 := Memref.whole cc7_scratch0
abbrev scM7_1 : Memref sig .tc .vmem S1x4096 .f32 := Memref.whole cc7_scratch1

/-- What the region is handed besides its windows: the two accumulators at some contents, the other scoped
    buffers unopened, the generator register at some state. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

/-! ## What the accumulators hold after each row block -/

/-- After row block 0: the block's contribution added to zero; after row block `n + 1`: its contribution added to
    what row block `n` left. First the weighted sums, then the column degrees. -/
def accAt7 (c : Dev nD) : (n : ℕ) → n < cfg7.N → Vec F S4096x64 .f32 × Vec F S1x4096 .f32
  | 0, hn => (k1_pay6 (iblk7 V c 0 ⟨0, hn⟩) (iblk7 V c 1 ⟨0, hn⟩) (k1_pay2 (F := F)), k1_pay7 (iblk7 V c 0 ⟨0, hn⟩) (k1_pay3 (F := F)))
  | n + 1, hn => (k1_pay6 (iblk7 V c 0 ⟨n + 1, hn⟩) (iblk7 V c 1 ⟨n + 1, hn⟩) (accAt7 c n (Nat.lt_of_succ_lt hn)).1,
      k1_pay7 (iblk7 V c 0 ⟨n + 1, hn⟩) (accAt7 c n (Nat.lt_of_succ_lt hn)).2)

theorem accAt7_zero (c : Dev nD) (t : Fin cfg7.N) (h0 : t.val = 0) :
    accAt7 V c t.val t.isLt = (k1_pay6 (iblk7 V c 0 t) (iblk7 V c 1 t) (k1_pay2 (F := F)), k1_pay7 (iblk7 V c 0 t) (k1_pay3 (F := F))) := by
  obtain ⟨n, hn⟩ := t
  cases n with
  | zero => rfl
  | succ n => exact absurd h0 (Nat.succ_ne_zero n)

theorem accAt7_pos (c : Dev nD) (t : Fin cfg7.N) (h0 : ¬t.val = 0) :
    accAt7 V c t.val t.isLt = (k1_pay6 (iblk7 V c 0 t) (iblk7 V c 1 t) (accAt7 V c (t.val - 1) (Nat.lt_of_le_of_lt (Nat.sub_le _ _) t.isLt)).1,
      k1_pay7 (iblk7 V c 0 t) (accAt7 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS7 (c : Dev nD) : (n : ℕ) → n ≤ cfg7.N → sProp 𝕄
  | 0, _ => Pipeline.ΦA spec7 c
  | n + 1, hn => iprop(iprop(iprop(owns (c : Thread nD τ) scM7_0 fullShare (accAt7 V c n hn).1 ∗ owns (c : Thread nD τ) scM7_1 fullShare (accAt7 V c n hn).2)
      ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (accAt7 V c n hn).1 ∗ owns (c : Thread nD τ) scM7_1 fullShare (accAt7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : ¬n = 0) :
    PhiS7 V c n h = iprop(iprop(iprop(owns (c : Thread nD τ) scM7_0 fullShare (accAt7 V c (n - 1) (by omega)).1 ∗ owns (c : Thread nD τ) scM7_1 fullShare (accAt7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- Region 7's proof data on core `c`: the arrays as the region finds them; after the body at row block `t`
    each input's buffer at its block, the row result's at the block's quotients, the column result's at the
    accumulated quotients (consulted at the last row block only, where it is stored); the invariant above;
    nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => k1_pay5 (iblk7 V c 0 t) (iblk7 V c 2 t)
    | ⟨4, _⟩ => k1_pay1 (accAt7 V c t.val t.isLt).2 (accAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = k1_pay5 (iblk7 V c 0 t) (iblk7 V c 2 t) := by dsimp only [dat7]
theorem after7_4 (c : Dev nD) (t : Fin cfg7.N) : (dat7 V c).after 4 t = k1_pay1 (accAt7 V c t.val t.isLt).2 (accAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation -/

/-- What the body is called with at row block `t`, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [kernel_eq7]
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  have hN : t.val < 8 := lt_of_lt_of_eq t.isLt (show cfg7.N = 8 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  by_cases h0 : t.val = 0
  · have h1 : ¬t.val = 7 := by omega
    rw [Dat.leavesExact_idle (dat7 V c) 4 t (idleAt7_4 t (fun h => h1 ((condLast_iff t).mp h))) (noFlush7_4 t (fun h => h1 ((condLast_iff t).mp h)))]
    rw [accAt7_zero V c t h0]
    rw [PhiS7_castSucc V c t, PhiS7_zero V c _ _ h0, PhiA7_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid7.coords t) _ _ _ _ _ _ _ _ _ _ _ _ _ _ ((condFirst_iff t).mpr h0) (fun h => h1 ((condLast_iff t).mp h)) (iblk7 V c 0 t) (iblk7 V c 1 t) (iblk7 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid7.coords t) _ _ _ _ _ _ _ _ _ _ _ _ _ _ ((condFirst_iff t).mpr h0) (fun h => h1 ((condLast_iff t).mp h)) (iblk7 V c 0 t) (iblk7 V c 1 t) (iblk7 V c 2 t) _ _
          unfold owns; iexists _; isplitr
          swap; · iexact HS1
          ipureintro; exact pieceOA_s1 c (grid7.coords t) _ _ _ _ _ _ _ _ _ _ _ _ _ _ ((condFirst_iff t).mpr h0) (fun h => h1 ((condLast_iff t).mp h)) (iblk7 V c 0 t) (iblk7 V c 1 t) (iblk7 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid7.coords t) _ _ _ _ _ _ _ _ _ _ _ _ _ _ ((condFirst_iff t).mpr h0) (fun h => h1 ((condLast_iff t).mp h)) (iblk7 V c 0 t) (iblk7 V c 1 t) (iblk7 V c 2 t) _ _
    iexists _; iexact H4
  · by_cases h1 : t.val = 7
    · rw [show (dat7 V c).leavesExact 4 t = owns (c : Thread nD τ) (ms7_4 t) fullShare ((dat7 V c).after 4 t) from by
        unfold Dat.leavesExact; rw [liveAt7_4_C t ((condLast_iff t).mpr h1)], after7_4]
      rw [accAt7_pos V c t h0]
      rw [PhiS7_castSucc V c t, PhiS7_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid7.coords t) _ _ _ _ _ _ _ _ _ _ _ _ _ _ (fun h => h0 ((condFirst_iff t).mp h)) ((condLast_iff t).mpr h1) (iblk7 V c 0 t) (iblk7 V c 1 t) (iblk7 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid7.coords t) _ _ _ _ _ _ _ _ _ _ _ _ _ _ (fun h => h0 ((condFirst_iff t).mp h)) ((condLast_iff t).mpr h1) (iblk7 V c 0 t) (iblk7 V c 1 t) (iblk7 V c 2 t) _ _ _ _
            unfold owns; iexists _; isplitr
            swap; · iexact HS1
            ipureintro; exact pieceOC_s1 c (grid7.coords t) _ _ _ _ _ _ _ _ _ _ _ _ _ _ (fun h => h0 ((condFirst_iff t).mp h)) ((condLast_iff t).mpr h1) (iblk7 V c 0 t) (iblk7 V c 1 t) (iblk7 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid7.coords t) _ _ _ _ _ _ _ _ _ _ _ _ _ _ (fun h => h0 ((condFirst_iff t).mp h)) ((condLast_iff t).mpr h1) (iblk7 V c 0 t) (iblk7 V c 1 t) (iblk7 V c 2 t) _ _ _ _
      unfold owns; iexists _; isplitr
      swap; · iexact H4
      ipureintro; exact pieceOC_o5 c (grid7.coords t) _ _ _ _ _ _ _ _ _ _ _ _ _ _ (fun h => h0 ((condFirst_iff t).mp h)) ((condLast_iff t).mpr h1) (iblk7 V c 0 t) (iblk7 V c 1 t) (iblk7 V c 2 t) _ _ _ _
    · rw [Dat.leavesExact_idle (dat7 V c) 4 t (idleAt7_4 t (fun h => h1 ((condLast_iff t).mp h))) (noFlush7_4 t (fun h => h1 ((condLast_iff t).mp h)))]
      rw [accAt7_pos V c t h0]
      rw [PhiS7_castSucc V c t, PhiS7_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid7.coords t) _ _ _ _ _ _ _ _ _ _ _ _ _ _ (fun h => h0 ((condFirst_iff t).mp h)) (fun h => h1 ((condLast_iff t).mp h)) (iblk7 V c 0 t) (iblk7 V c 1 t) (iblk7 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid7.coords t) _ _ _ _ _ _ _ _ _ _ _ _ _ _ (fun h => h0 ((condFirst_iff t).mp h)) (fun h => h1 ((condLast_iff t).mp h)) (iblk7 V c 0 t) (iblk7 V c 1 t) (iblk7 V c 2 t) _ _ _ _
            unfold owns; iexists _; isplitr
            swap; · iexact HS1
            ipureintro; exact pieceOB_s1 c (grid7.coords t) _ _ _ _ _ _ _ _ _ _ _ _ _ _ (fun h => h0 ((condFirst_iff t).mp h)) (fun h => h1 ((condLast_iff t).mp h)) (iblk7 V c 0 t) (iblk7 V c 1 t) (iblk7 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid7.coords t) _ _ _ _ _ _ _ _ _ _ _ _ _ _ (fun h => h0 ((condFirst_iff t).mp h)) (fun h => h1 ((condLast_iff t).mp h)) (iblk7 V c 0 t) (iblk7 V c 1 t) (iblk7 V c 2 t) _ _ _ _
      iexists _; iexact H4

/-- The library's body obligation, at every row block. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first row block. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After the last row block the invariant gives back what the launch handed over: the accumulators' contents are forgotten. -/
theorem hout7 (c : Dev nD) : (dat7 V c).Φ (Fin.last cfg7.N) ⊢ Pipeline.ΦA spec7 c := by
  rw [show (dat7 V c).Φ (Fin.last cfg7.N) = PhiS7 V c (Fin.last cfg7.N).val (Nat.le_of_lt_succ (Fin.last cfg7.N).isLt) from rfl,
    PhiS7_pos V c _ _ (by rw [Fin.val_last]; have : cfg7.N = 8 := N_7; omega), PhiA7_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region7

end Cert.Kernel.Hand

end
-- ==== Proof.K.Reg8.lean ====
import proofs.«103934_j28484223107660_1_alg».proof.Proof.K.RunEA
import proofs.«103934_j28484223107660_1_alg».proof.Proof.K.RunEB
import proofs.«103934_j28484223107660_1_alg».proof.Proof.K.RunEC
import proofs.«103934_j28484223107660_1_alg».proof.Proof.K.PieceE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 8's kernel function is, as a program, the one the body's runs are stated for (the same text). -/
theorem kernel_eq8 : @cc8__mlgcn_layer_kernel F _ = @cc0__mlgcn_layer_kernel F _ := rfl

section Region8

/- The contents of the core's buffers when region 8 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every row block, fetched there or not. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every row block, fetched there or not. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every row block, fetched there or not. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## Where the windows are idle, and where the column result is written back -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
/-- Before the last row block nothing is stored into the column result's buffer, -/
theorem idleAt8_4 : ∀ t : Fin cfg8.N, ¬condLast (grid8.coords t) → cfg8.idle 4 (grid8.coords t) = true := by decide +kernel
/-- and it is not written back there; -/
theorem noFlush8_4 : ∀ t : Fin cfg8.N, ¬condLast (grid8.coords t) → (cfg8.win 4).flush t = false := by decide +kernel
/-- at the last row block it is stored. -/
theorem liveAt8_4_C : ∀ t : Fin cfg8.N, condLast (grid8.coords t) → cfg8.idle 4 (grid8.coords t) = false := by decide +kernel

/-! ## The staging buffers and the two accumulators -/

abbrev ms8_0 (t : Fin cfg8.N) : Memref sig .tc .vmem S512x4096 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S512x64 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S4096x64 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S512x64 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S4096x64 .f32 := win8_4.stage (cfg8.slots t 4)
abbrev hs8_4 (t : Fin cfg8.N) : (ms8_4 t).IsWhole := hstage8_4 ((cfg8.slots t 4).cast nbuf8_4)
/-- The accumulator of the weighted sums, and the accumulator of the column degrees: whole buffers of the kernel's own. -/
abbrev scM8_0 : Memref sig .tc .vmem S4096x64 .f32 := Memref.whole cc8_scratch0
abbrev scM8_1 : Memref sig .tc .vmem S1x4096 .f32 := Memref.whole cc8_scratch1

/-- What the region is handed besides its windows: the two accumulators at some contents, the other scoped
    buffers unopened, the generator register at some state. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
          ∗ Pipeline.scopedRestBut (Ix := Unit) (Name := ℕ) (U := UR sig nD τ) (Lvl := ℕ) (Val := Elt F) spec8 c [cc8_scratch0, cc8_scratch1]) ∗ (∃ r, prngReg c r)) := by
  unfold Pipeline.ΦA; rw [scopedRest8_split]; simp only [scM8_0, scM8_1, owns_whole]; try rfl

/-! ## What the accumulators hold after each row block -/

/-- After row block 0: the block's contribution added to zero; after row block `n + 1`: its contribution added to
    what row block `n` left. First the weighted sums, then the column degrees. -/
def accAt8 (c : Dev nD) : (n : ℕ) → n < cfg8.N → Vec F S4096x64 .f32 × Vec F S1x4096 .f32
  | 0, hn => (k0_pay6 (iblk8 V c 0 ⟨0, hn⟩) (iblk8 V c 1 ⟨0, hn⟩) (k0_pay2 (F := F)), k0_pay7 (iblk8 V c 0 ⟨0, hn⟩) (k0_pay3 (F := F)))
  | n + 1, hn => (k0_pay6 (iblk8 V c 0 ⟨n + 1, hn⟩) (iblk8 V c 1 ⟨n + 1, hn⟩) (accAt8 c n (Nat.lt_of_succ_lt hn)).1,
      k0_pay7 (iblk8 V c 0 ⟨n + 1, hn⟩) (accAt8 c n (Nat.lt_of_succ_lt hn)).2)

theorem accAt8_zero (c : Dev nD) (t : Fin cfg8.N) (h0 : t.val = 0) :
    accAt8 V c t.val t.isLt = (k0_pay6 (iblk8 V c 0 t) (iblk8 V c 1 t) (k0_pay2 (F := F)), k0_pay7 (iblk8 V c 0 t) (k0_pay3 (F := F))) := by
  obtain ⟨n, hn⟩ := t
  cases n with
  | zero => rfl
  | succ n => exact absurd h0 (Nat.succ_ne_zero n)

theorem accAt8_pos (c : Dev nD) (t : Fin cfg8.N) (h0 : ¬t.val = 0) :
    accAt8 V c t.val t.isLt = (k0_pay6 (iblk8 V c 0 t) (iblk8 V c 1 t) (accAt8 V c (t.val - 1) (Nat.lt_of_le_of_lt (Nat.sub_le _ _) t.isLt)).1,
      k0_pay7 (iblk8 V c 0 t) (accAt8 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS8 (c : Dev nD) : (n : ℕ) → n ≤ cfg8.N → sProp 𝕄
  | 0, _ => Pipeline.ΦA spec8 c
  | n + 1, hn => iprop(iprop(iprop(owns (c : Thread nD τ) scM8_0 fullShare (accAt8 V c n hn).1 ∗ owns (c : Thread nD τ) scM8_1 fullShare (accAt8 V c n hn).2)
      ∗ Pipeline.scopedRestBut (Ix := Unit) (Name := ℕ) (U := UR sig nD τ) (Lvl := ℕ) (Val := Elt F) spec8 c [cc8_scratch0, cc8_scratch1]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(iprop(owns (c : Thread nD τ) scM8_0 fullShare (accAt8 V c n hn).1 ∗ owns (c : Thread nD τ) scM8_1 fullShare (accAt8 V c n hn).2)
      ∗ Pipeline.scopedRestBut (Ix := Unit) (Name := ℕ) (U := UR sig nD τ) (Lvl := ℕ) (Val := Elt F) spec8 c [cc8_scratch0, cc8_scratch1]) ∗ (∃ r, prngReg c r)) := rfl

theorem PhiS8_pos (c : Dev nD) (n : ℕ) (h : n ≤ cfg8.N) (hz : ¬n = 0) :
    PhiS8 V c n h = iprop(iprop(iprop(owns (c : Thread nD τ) scM8_0 fullShare (accAt8 V c (n - 1) (by omega)).1 ∗ owns (c : Thread nD τ) scM8_1 fullShare (accAt8 V c (n - 1) (by omega)).2)
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-! ## The pipeline's proof data -/

/-- Region 8's proof data on core `c`: the arrays as the region finds them; after the body at row block `t`
    each input's buffer at its block, the row result's at the block's quotients, the column result's at the
    accumulated quotients (consulted at the last row block only, where it is stored); the invariant above;
    nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => k0_pay5 (iblk8 V c 0 t) (iblk8 V c 2 t)
    | ⟨4, _⟩ => k0_pay1 (accAt8 V c t.val t.isLt).2 (accAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = k0_pay5 (iblk8 V c 0 t) (iblk8 V c 2 t) := by dsimp only [dat8]
theorem after8_4 (c : Dev nD) (t : Fin cfg8.N) : (dat8 V c).after 4 t = k0_pay1 (accAt8 V c t.val t.isLt).2 (accAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation -/

/-- What the body is called with at row block `t`, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [kernel_eq8]
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  have hN : t.val < 8 := lt_of_lt_of_eq t.isLt (show cfg8.N = 8 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  rw [show (dat8 V c).leavesExact 3 t = owns (c : Thread nD τ) (ms8_3 t) fullShare ((dat8 V c).after 3 t) from by
    unfold Dat.leavesExact; rw [liveAt8_3 t], after8_3]
  by_cases h0 : t.val = 0
  · have h1 : ¬t.val = 7 := by omega
    rw [Dat.leavesExact_idle (dat8 V c) 4 t (idleAt8_4 t (fun h => h1 ((condLast_iff t).mp h))) (noFlush8_4 t (fun h => h1 ((condLast_iff t).mp h)))]
    rw [accAt8_zero V c t h0]
    rw [PhiS8_castSucc V c t, PhiS8_zero V c _ _ h0, PhiA8_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid8.coords t) _ _ _ _ _ _ _ _ _ _ _ _ _ _ ((condFirst_iff t).mpr h0) (fun h => h1 ((condLast_iff t).mp h)) (iblk8 V c 0 t) (iblk8 V c 1 t) (iblk8 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid8.coords t) _ _ _ _ _ _ _ _ _ _ _ _ _ _ ((condFirst_iff t).mpr h0) (fun h => h1 ((condLast_iff t).mp h)) (iblk8 V c 0 t) (iblk8 V c 1 t) (iblk8 V c 2 t) _ _
          unfold owns; iexists _; isplitr
          swap; · iexact HS1
          ipureintro; exact pieceEA_s1 c (grid8.coords t) _ _ _ _ _ _ _ _ _ _ _ _ _ _ ((condFirst_iff t).mpr h0) (fun h => h1 ((condLast_iff t).mp h)) (iblk8 V c 0 t) (iblk8 V c 1 t) (iblk8 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid8.coords t) _ _ _ _ _ _ _ _ _ _ _ _ _ _ ((condFirst_iff t).mpr h0) (fun h => h1 ((condLast_iff t).mp h)) (iblk8 V c 0 t) (iblk8 V c 1 t) (iblk8 V c 2 t) _ _
    iexists _; iexact H4
  · by_cases h1 : t.val = 7
    · rw [show (dat8 V c).leavesExact 4 t = owns (c : Thread nD τ) (ms8_4 t) fullShare ((dat8 V c).after 4 t) from by
        unfold Dat.leavesExact; rw [liveAt8_4_C t ((condLast_iff t).mpr h1)], after8_4]
      rw [accAt8_pos V c t h0]
      rw [PhiS8_castSucc V c t, PhiS8_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid8.coords t) _ _ _ _ _ _ _ _ _ _ _ _ _ _ (fun h => h0 ((condFirst_iff t).mp h)) ((condLast_iff t).mpr h1) (iblk8 V c 0 t) (iblk8 V c 1 t) (iblk8 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid8.coords t) _ _ _ _ _ _ _ _ _ _ _ _ _ _ (fun h => h0 ((condFirst_iff t).mp h)) ((condLast_iff t).mpr h1) (iblk8 V c 0 t) (iblk8 V c 1 t) (iblk8 V c 2 t) _ _ _ _
            unfold owns; iexists _; isplitr
            swap; · iexact HS1
            ipureintro; exact pieceEC_s1 c (grid8.coords t) _ _ _ _ _ _ _ _ _ _ _ _ _ _ (fun h => h0 ((condFirst_iff t).mp h)) ((condLast_iff t).mpr h1) (iblk8 V c 0 t) (iblk8 V c 1 t) (iblk8 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid8.coords t) _ _ _ _ _ _ _ _ _ _ _ _ _ _ (fun h => h0 ((condFirst_iff t).mp h)) ((condLast_iff t).mpr h1) (iblk8 V c 0 t) (iblk8 V c 1 t) (iblk8 V c 2 t) _ _ _ _
      unfold owns; iexists _; isplitr
      swap; · iexact H4
      ipureintro; exact pieceEC_o5 c (grid8.coords t) _ _ _ _ _ _ _ _ _ _ _ _ _ _ (fun h => h0 ((condFirst_iff t).mp h)) ((condLast_iff t).mpr h1) (iblk8 V c 0 t) (iblk8 V c 1 t) (iblk8 V c 2 t) _ _ _ _
    · rw [Dat.leavesExact_idle (dat8 V c) 4 t (idleAt8_4 t (fun h => h1 ((condLast_iff t).mp h))) (noFlush8_4 t (fun h => h1 ((condLast_iff t).mp h)))]
      rw [accAt8_pos V c t h0]
      rw [PhiS8_castSucc V c t, PhiS8_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid8.coords t) _ _ _ _ _ _ _ _ _ _ _ _ _ _ (fun h => h0 ((condFirst_iff t).mp h)) (fun h => h1 ((condLast_iff t).mp h)) (iblk8 V c 0 t) (iblk8 V c 1 t) (iblk8 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid8.coords t) _ _ _ _ _ _ _ _ _ _ _ _ _ _ (fun h => h0 ((condFirst_iff t).mp h)) (fun h => h1 ((condLast_iff t).mp h)) (iblk8 V c 0 t) (iblk8 V c 1 t) (iblk8 V c 2 t) _ _ _ _
            unfold owns; iexists _; isplitr
            swap; · iexact HS1
            ipureintro; exact pieceEB_s1 c (grid8.coords t) _ _ _ _ _ _ _ _ _ _ _ _ _ _ (fun h => h0 ((condFirst_iff t).mp h)) (fun h => h1 ((condLast_iff t).mp h)) (iblk8 V c 0 t) (iblk8 V c 1 t) (iblk8 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid8.coords t) _ _ _ _ _ _ _ _ _ _ _ _ _ _ (fun h => h0 ((condFirst_iff t).mp h)) (fun h => h1 ((condLast_iff t).mp h)) (iblk8 V c 0 t) (iblk8 V c 1 t) (iblk8 V c 2 t) _ _ _ _
      iexists _; iexact H4

/-- The library's body obligation, at every row block. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first row block. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After the last row block the invariant gives back what the launch handed over: the accumulators' contents are forgotten. -/
theorem hout8 (c : Dev nD) : (dat8 V c).Φ (Fin.last cfg8.N) ⊢ Pipeline.ΦA spec8 c := by
  rw [show (dat8 V c).Φ (Fin.last cfg8.N) = PhiS8 V c (Fin.last cfg8.N).val (Nat.le_of_lt_succ (Fin.last cfg8.N).isLt) from rfl,
    PhiS8_pos V c _ _ (by rw [Fin.val_last]; have : cfg8.N = 8 := N_8; omega), PhiA8_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region8

end Cert.Kernel.Hand

end
-- ==== Proof.K.Reg9.lean ====
import proofs.«103934_j28484223107660_1_alg».proof.Proof.K.RunOA
import proofs.«103934_j28484223107660_1_alg».proof.Proof.K.RunOB
import proofs.«103934_j28484223107660_1_alg».proof.Proof.K.RunOC
import proofs.«103934_j28484223107660_1_alg».proof.Proof.K.PieceO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 9's kernel function is, as a program, the one the body's runs are stated for (the same text). -/
theorem kernel_eq9 : @cc9__mlgcn_layer_kernel F _ = @cc1__mlgcn_layer_kernel F _ := rfl

section Region9

/- The contents of the core's buffers when region 9 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0's current staging buffer holds its block at every row block, fetched there or not. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1's current staging buffer holds its block at every row block, fetched there or not. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2's current staging buffer holds its block at every row block, fetched there or not. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## Where the windows are idle, and where the column result is written back -/

theorem liveAt9_0 : ∀ t : Fin cfg9.N, cfg9.idle 0 (grid9.coords t) = false := by decide +kernel
theorem liveAt9_1 : ∀ t : Fin cfg9.N, cfg9.idle 1 (grid9.coords t) = false := by decide +kernel
theorem liveAt9_2 : ∀ t : Fin cfg9.N, cfg9.idle 2 (grid9.coords t) = false := by decide +kernel
theorem liveAt9_3 : ∀ t : Fin cfg9.N, cfg9.idle 3 (grid9.coords t) = false := by decide +kernel
/-- Before the last row block nothing is stored into the column result's buffer, -/
theorem idleAt9_4 : ∀ t : Fin cfg9.N, ¬condLast (grid9.coords t) → cfg9.idle 4 (grid9.coords t) = true := by decide +kernel
/-- and it is not written back there; -/
theorem noFlush9_4 : ∀ t : Fin cfg9.N, ¬condLast (grid9.coords t) → (cfg9.win 4).flush t = false := by decide +kernel
/-- at the last row block it is stored. -/
theorem liveAt9_4_C : ∀ t : Fin cfg9.N, condLast (grid9.coords t) → cfg9.idle 4 (grid9.coords t) = false := by decide +kernel

/-! ## The staging buffers and the two accumulators -/

abbrev ms9_0 (t : Fin cfg9.N) : Memref sig .tc .vmem S512x4096 .f32 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem S512x64 .f32 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem S4096x64 .f32 := win9_2.stage (cfg9.slots t 2)
abbrev hs9_2 (t : Fin cfg9.N) : (ms9_2 t).IsWhole := hstage9_2 ((cfg9.slots t 2).cast nbuf9_2)
abbrev ms9_3 (t : Fin cfg9.N) : Memref sig .tc .vmem S512x64 .f32 := win9_3.stage (cfg9.slots t 3)
abbrev hs9_3 (t : Fin cfg9.N) : (ms9_3 t).IsWhole := hstage9_3 ((cfg9.slots t 3).cast nbuf9_3)
abbrev ms9_4 (t : Fin cfg9.N) : Memref sig .tc .vmem S4096x64 .f32 := win9_4.stage (cfg9.slots t 4)
abbrev hs9_4 (t : Fin cfg9.N) : (ms9_4 t).IsWhole := hstage9_4 ((cfg9.slots t 4).cast nbuf9_4)
/-- The accumulator of the weighted sums, and the accumulator of the column degrees: whole buffers of the kernel's own. -/
abbrev scM9_0 : Memref sig .tc .vmem S4096x64 .f32 := Memref.whole cc9_scratch0
abbrev scM9_1 : Memref sig .tc .vmem S1x4096 .f32 := Memref.whole cc9_scratch1

/-- What the region is handed besides its windows: the two accumulators at some contents, the other scoped
    buffers unopened, the generator register at some state. -/
theorem PhiA9_eq (c : Dev nD) :
    (Pipeline.ΦA spec9 c : sProp 𝕄)
      = iprop(iprop(iprop((∃ d, owns (c : Thread nD τ) scM9_0 fullShare d) ∗ (∃ d, owns (c : Thread nD τ) scM9_1 fullShare d))
          ∗ Pipeline.scopedRestBut (Ix := Unit) (Name := ℕ) (U := UR sig nD τ) (Lvl := ℕ) (Val := Elt F) spec9 c [cc9_scratch0, cc9_scratch1]) ∗ (∃ r, prngReg c r)) := by
  unfold Pipeline.ΦA; rw [scopedRest9_split]; simp only [scM9_0, scM9_1, owns_whole]; try rfl

/-! ## What the accumulators hold after each row block -/

/-- After row block 0: the block's contribution added to zero; after row block `n + 1`: its contribution added to
    what row block `n` left. First the weighted sums, then the column degrees. -/
def accAt9 (c : Dev nD) : (n : ℕ) → n < cfg9.N → Vec F S4096x64 .f32 × Vec F S1x4096 .f32
  | 0, hn => (k1_pay6 (iblk9 V c 0 ⟨0, hn⟩) (iblk9 V c 1 ⟨0, hn⟩) (k1_pay2 (F := F)), k1_pay7 (iblk9 V c 0 ⟨0, hn⟩) (k1_pay3 (F := F)))
  | n + 1, hn => (k1_pay6 (iblk9 V c 0 ⟨n + 1, hn⟩) (iblk9 V c 1 ⟨n + 1, hn⟩) (accAt9 c n (Nat.lt_of_succ_lt hn)).1,
      k1_pay7 (iblk9 V c 0 ⟨n + 1, hn⟩) (accAt9 c n (Nat.lt_of_succ_lt hn)).2)

theorem accAt9_zero (c : Dev nD) (t : Fin cfg9.N) (h0 : t.val = 0) :
    accAt9 V c t.val t.isLt = (k1_pay6 (iblk9 V c 0 t) (iblk9 V c 1 t) (k1_pay2 (F := F)), k1_pay7 (iblk9 V c 0 t) (k1_pay3 (F := F))) := by
  obtain ⟨n, hn⟩ := t
  cases n with
  | zero => rfl
  | succ n => exact absurd h0 (Nat.succ_ne_zero n)

theorem accAt9_pos (c : Dev nD) (t : Fin cfg9.N) (h0 : ¬t.val = 0) :
    accAt9 V c t.val t.isLt = (k1_pay6 (iblk9 V c 0 t) (iblk9 V c 1 t) (accAt9 V c (t.val - 1) (Nat.lt_of_le_of_lt (Nat.sub_le _ _) t.isLt)).1,
      k1_pay7 (iblk9 V c 0 t) (accAt9 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS9 (c : Dev nD) : (n : ℕ) → n ≤ cfg9.N → sProp 𝕄
  | 0, _ => Pipeline.ΦA spec9 c
  | n + 1, hn => iprop(iprop(iprop(owns (c : Thread nD τ) scM9_0 fullShare (accAt9 V c n hn).1 ∗ owns (c : Thread nD τ) scM9_1 fullShare (accAt9 V c n hn).2)
      ∗ Pipeline.scopedRestBut (Ix := Unit) (Name := ℕ) (U := UR sig nD τ) (Lvl := ℕ) (Val := Elt F) spec9 c [cc9_scratch0, cc9_scratch1]) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare (accAt9 V c n hn).1 ∗ owns (c : Thread nD τ) scM9_1 fullShare (accAt9 V c n hn).2)
      ∗ Pipeline.scopedRestBut (Ix := Unit) (Name := ℕ) (U := UR sig nD τ) (Lvl := ℕ) (Val := Elt F) spec9 c [cc9_scratch0, cc9_scratch1]) ∗ (∃ r, prngReg c r)) := rfl

theorem PhiS9_pos (c : Dev nD) (n : ℕ) (h : n ≤ cfg9.N) (hz : ¬n = 0) :
    PhiS9 V c n h = iprop(iprop(iprop(owns (c : Thread nD τ) scM9_0 fullShare (accAt9 V c (n - 1) (by omega)).1 ∗ owns (c : Thread nD τ) scM9_1 fullShare (accAt9 V c (n - 1) (by omega)).2)
      ∗ Pipeline.scopedRestBut (Ix := Unit) (Name := ℕ) (U := UR sig nD τ) (Lvl := ℕ) (Val := Elt F) spec9 c [cc9_scratch0, cc9_scratch1]) ∗ (∃ r, prngReg c r)) := by
  cases n with
  | zero => exact absurd rfl hz
  | succ n => rfl

/-! ## The pipeline's proof data -/

/-- Region 9's proof data on core `c`: the arrays as the region finds them; after the body at row block `t`
    each input's buffer at its block, the row result's at the block's quotients, the column result's at the
    accumulated quotients (consulted at the last row block only, where it is stored); the invariant above;
    nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => k1_pay5 (iblk9 V c 0 t) (iblk9 V c 2 t)
    | ⟨4, _⟩ => k1_pay1 (accAt9 V c t.val t.isLt).2 (accAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = k1_pay5 (iblk9 V c 0 t) (iblk9 V c 2 t) := by dsimp only [dat9]
theorem after9_4 (c : Dev nD) (t : Fin cfg9.N) : (dat9 V c).after 4 t = k1_pay1 (accAt9 V c t.val t.isLt).2 (accAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation -/

/-- What the body is called with at row block `t`, -/
def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d))
    ∗ (∃ d, owns (c : Thread nD τ) (ms9_3 t) fullShare ((dat9 V c).before 3 t d))
    ∗ (∃ d, owns (c : Thread nD τ) (ms9_4 t) fullShare ((dat9 V c).before 4 t d)))

/-- and what it returns. -/
def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t
    ∗ (dat9 V c).leavesExact 3 t
    ∗ (dat9 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  rw [kernel_eq9]
  simp only [before9_0, before9_1, before9_2]
  rw [show (dat9 V c).owesAt () t.succ = (dat9 V c).owesAt () t.castSucc from rfl]
  rw [show (dat9 V c).Φ t.succ = PhiS9 V c (t.val + 1) t.isLt from rfl, PhiS9_succ]
  have hN : t.val < 8 := lt_of_lt_of_eq t.isLt (show cfg9.N = 8 from N_9)
  rw [show (dat9 V c).leavesExact 0 t = owns (c : Thread nD τ) (ms9_0 t) fullShare ((dat9 V c).after 0 t) from by
    unfold Dat.leavesExact; rw [liveAt9_0 t], after9_0]
  rw [show (dat9 V c).leavesExact 1 t = owns (c : Thread nD τ) (ms9_1 t) fullShare ((dat9 V c).after 1 t) from by
    unfold Dat.leavesExact; rw [liveAt9_1 t], after9_1]
  rw [show (dat9 V c).leavesExact 2 t = owns (c : Thread nD τ) (ms9_2 t) fullShare ((dat9 V c).after 2 t) from by
    unfold Dat.leavesExact; rw [liveAt9_2 t], after9_2]
  rw [show (dat9 V c).leavesExact 3 t = owns (c : Thread nD τ) (ms9_3 t) fullShare ((dat9 V c).after 3 t) from by
    unfold Dat.leavesExact; rw [liveAt9_3 t], after9_3]
  by_cases h0 : t.val = 0
  · have h1 : ¬t.val = 7 := by omega
    rw [Dat.leavesExact_idle (dat9 V c) 4 t (idleAt9_4 t (fun h => h1 ((condLast_iff t).mp h))) (noFlush9_4 t (fun h => h1 ((condLast_iff t).mp h)))]
    rw [accAt9_zero V c t h0]
    rw [PhiS9_castSucc V c t, PhiS9_zero V c _ _ h0, PhiA9_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid9.coords t) _ _ _ _ _ _ _ _ _ _ _ _ _ _ ((condFirst_iff t).mpr h0) (fun h => h1 ((condLast_iff t).mp h)) (iblk9 V c 0 t) (iblk9 V c 1 t) (iblk9 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid9.coords t) _ _ _ _ _ _ _ _ _ _ _ _ _ _ ((condFirst_iff t).mpr h0) (fun h => h1 ((condLast_iff t).mp h)) (iblk9 V c 0 t) (iblk9 V c 1 t) (iblk9 V c 2 t) _ _
          unfold owns; iexists _; isplitr
          swap; · iexact HS1
          ipureintro; exact pieceOA_s1 c (grid9.coords t) _ _ _ _ _ _ _ _ _ _ _ _ _ _ ((condFirst_iff t).mpr h0) (fun h => h1 ((condLast_iff t).mp h)) (iblk9 V c 0 t) (iblk9 V c 1 t) (iblk9 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid9.coords t) _ _ _ _ _ _ _ _ _ _ _ _ _ _ ((condFirst_iff t).mpr h0) (fun h => h1 ((condLast_iff t).mp h)) (iblk9 V c 0 t) (iblk9 V c 1 t) (iblk9 V c 2 t) _ _
    iexists _; iexact H4
  · by_cases h1 : t.val = 7
    · rw [show (dat9 V c).leavesExact 4 t = owns (c : Thread nD τ) (ms9_4 t) fullShare ((dat9 V c).after 4 t) from by
        unfold Dat.leavesExact; rw [liveAt9_4_C t ((condLast_iff t).mpr h1)], after9_4]
      rw [accAt9_pos V c t h0]
      rw [PhiS9_castSucc V c t, PhiS9_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid9.coords t) _ _ _ _ _ _ _ _ _ _ _ _ _ _ (fun h => h0 ((condFirst_iff t).mp h)) ((condLast_iff t).mpr h1) (iblk9 V c 0 t) (iblk9 V c 1 t) (iblk9 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid9.coords t) _ _ _ _ _ _ _ _ _ _ _ _ _ _ (fun h => h0 ((condFirst_iff t).mp h)) ((condLast_iff t).mpr h1) (iblk9 V c 0 t) (iblk9 V c 1 t) (iblk9 V c 2 t) _ _ _ _
            unfold owns; iexists _; isplitr
            swap; · iexact HS1
            ipureintro; exact pieceOC_s1 c (grid9.coords t) _ _ _ _ _ _ _ _ _ _ _ _ _ _ (fun h => h0 ((condFirst_iff t).mp h)) ((condLast_iff t).mpr h1) (iblk9 V c 0 t) (iblk9 V c 1 t) (iblk9 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid9.coords t) _ _ _ _ _ _ _ _ _ _ _ _ _ _ (fun h => h0 ((condFirst_iff t).mp h)) ((condLast_iff t).mpr h1) (iblk9 V c 0 t) (iblk9 V c 1 t) (iblk9 V c 2 t) _ _ _ _
      unfold owns; iexists _; isplitr
      swap; · iexact H4
      ipureintro; exact pieceOC_o5 c (grid9.coords t) _ _ _ _ _ _ _ _ _ _ _ _ _ _ (fun h => h0 ((condFirst_iff t).mp h)) ((condLast_iff t).mpr h1) (iblk9 V c 0 t) (iblk9 V c 1 t) (iblk9 V c 2 t) _ _ _ _
    · rw [Dat.leavesExact_idle (dat9 V c) 4 t (idleAt9_4 t (fun h => h1 ((condLast_iff t).mp h))) (noFlush9_4 t (fun h => h1 ((condLast_iff t).mp h)))]
      rw [accAt9_pos V c t h0]
      rw [PhiS9_castSucc V c t, PhiS9_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid9.coords t) _ _ _ _ _ _ _ _ _ _ _ _ _ _ (fun h => h0 ((condFirst_iff t).mp h)) (fun h => h1 ((condLast_iff t).mp h)) (iblk9 V c 0 t) (iblk9 V c 1 t) (iblk9 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid9.coords t) _ _ _ _ _ _ _ _ _ _ _ _ _ _ (fun h => h0 ((condFirst_iff t).mp h)) (fun h => h1 ((condLast_iff t).mp h)) (iblk9 V c 0 t) (iblk9 V c 1 t) (iblk9 V c 2 t) _ _ _ _
            unfold owns; iexists _; isplitr
            swap; · iexact HS1
            ipureintro; exact pieceOB_s1 c (grid9.coords t) _ _ _ _ _ _ _ _ _ _ _ _ _ _ (fun h => h0 ((condFirst_iff t).mp h)) (fun h => h1 ((condLast_iff t).mp h)) (iblk9 V c 0 t) (iblk9 V c 1 t) (iblk9 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid9.coords t) _ _ _ _ _ _ _ _ _ _ _ _ _ _ (fun h => h0 ((condFirst_iff t).mp h)) (fun h => h1 ((condLast_iff t).mp h)) (iblk9 V c 0 t) (iblk9 V c 1 t) (iblk9 V c 2 t) _ _ _ _
      iexists _; iexact H4

/-- The library's body obligation, at every row block. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first row block. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After the last row block the invariant gives back what the launch handed over: the accumulators' contents are forgotten. -/
theorem hout9 (c : Dev nD) : (dat9 V c).Φ (Fin.last cfg9.N) ⊢ Pipeline.ΦA spec9 c := by
  rw [show (dat9 V c).Φ (Fin.last cfg9.N) = PhiS9 V c (Fin.last cfg9.N).val (Nat.le_of_lt_succ (Fin.last cfg9.N).isLt) from rfl,
    PhiS9_pos V c _ _ (by rw [Fin.val_last]; have : cfg9.N = 8 := N_9; omega), PhiA9_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region9

end Cert.Kernel.Hand

end
-- ==== Proof.K.Reg10.lean ====
import proofs.«103934_j28484223107660_1_alg».proof.Proof.K.RunEA
import proofs.«103934_j28484223107660_1_alg».proof.Proof.K.RunEB
import proofs.«103934_j28484223107660_1_alg».proof.Proof.K.RunEC
import proofs.«103934_j28484223107660_1_alg».proof.Proof.K.PieceE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 10's kernel function is, as a program, the one the body's runs are stated for (the same text). -/
theorem kernel_eq10 : @cc10__mlgcn_layer_kernel F _ = @cc0__mlgcn_layer_kernel F _ := rfl

section Region10

/- The contents of the core's buffers when region 10 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every row block, fetched there or not. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every row block, fetched there or not. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every row block, fetched there or not. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-! ## Where the windows are idle, and where the column result is written back -/

theorem liveAt10_0 : ∀ t : Fin cfg10.N, cfg10.idle 0 (grid10.coords t) = false := by decide +kernel
theorem liveAt10_1 : ∀ t : Fin cfg10.N, cfg10.idle 1 (grid10.coords t) = false := by decide +kernel
theorem liveAt10_2 : ∀ t : Fin cfg10.N, cfg10.idle 2 (grid10.coords t) = false := by decide +kernel
theorem liveAt10_3 : ∀ t : Fin cfg10.N, cfg10.idle 3 (grid10.coords t) = false := by decide +kernel
/-- Before the last row block nothing is stored into the column result's buffer, -/
theorem idleAt10_4 : ∀ t : Fin cfg10.N, ¬condLast (grid10.coords t) → cfg10.idle 4 (grid10.coords t) = true := by decide +kernel
/-- and it is not written back there; -/
theorem noFlush10_4 : ∀ t : Fin cfg10.N, ¬condLast (grid10.coords t) → (cfg10.win 4).flush t = false := by decide +kernel
/-- at the last row block it is stored. -/
theorem liveAt10_4_C : ∀ t : Fin cfg10.N, condLast (grid10.coords t) → cfg10.idle 4 (grid10.coords t) = false := by decide +kernel

/-! ## The staging buffers and the two accumulators -/

abbrev ms10_0 (t : Fin cfg10.N) : Memref sig .tc .vmem S512x4096 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S512x64 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S4096x64 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S512x64 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S4096x64 .f32 := win10_4.stage (cfg10.slots t 4)
abbrev hs10_4 (t : Fin cfg10.N) : (ms10_4 t).IsWhole := hstage10_4 ((cfg10.slots t 4).cast nbuf10_4)
/-- The accumulator of the weighted sums, and the accumulator of the column degrees: whole buffers of the kernel's own. -/
abbrev scM10_0 : Memref sig .tc .vmem S4096x64 .f32 := Memref.whole cc10_scratch0
abbrev scM10_1 : Memref sig .tc .vmem S1x4096 .f32 := Memref.whole cc10_scratch1

/-- What the region is handed besides its windows: the two accumulators at some contents, the other scoped
    buffers unopened, the generator register at some state. -/
theorem PhiA10_eq (c : Dev nD) :
    (Pipeline.ΦA spec10 c : sProp 𝕄)
      = iprop(iprop(iprop((∃ d, owns (c : Thread nD τ) scM10_0 fullShare d) ∗ (∃ d, owns (c : Thread nD τ) scM10_1 fullShare d))
          ∗ Pipeline.scopedRestBut (Ix := Unit) (Name := ℕ) (U := UR sig nD τ) (Lvl := ℕ) (Val := Elt F) spec10 c [cc10_scratch0, cc10_scratch1]) ∗ (∃ r, prngReg c r)) := by
  unfold Pipeline.ΦA; rw [scopedRest10_split]; simp only [scM10_0, scM10_1, owns_whole]; try rfl

/-! ## What the accumulators hold after each row block -/

/-- After row block 0: the block's contribution added to zero; after row block `n + 1`: its contribution added to
    what row block `n` left. First the weighted sums, then the column degrees. -/
def accAt10 (c : Dev nD) : (n : ℕ) → n < cfg10.N → Vec F S4096x64 .f32 × Vec F S1x4096 .f32
  | 0, hn => (k0_pay6 (iblk10 V c 0 ⟨0, hn⟩) (iblk10 V c 1 ⟨0, hn⟩) (k0_pay2 (F := F)), k0_pay7 (iblk10 V c 0 ⟨0, hn⟩) (k0_pay3 (F := F)))
  | n + 1, hn => (k0_pay6 (iblk10 V c 0 ⟨n + 1, hn⟩) (iblk10 V c 1 ⟨n + 1, hn⟩) (accAt10 c n (Nat.lt_of_succ_lt hn)).1,
      k0_pay7 (iblk10 V c 0 ⟨n + 1, hn⟩) (accAt10 c n (Nat.lt_of_succ_lt hn)).2)

theorem accAt10_zero (c : Dev nD) (t : Fin cfg10.N) (h0 : t.val = 0) :
    accAt10 V c t.val t.isLt = (k0_pay6 (iblk10 V c 0 t) (iblk10 V c 1 t) (k0_pay2 (F := F)), k0_pay7 (iblk10 V c 0 t) (k0_pay3 (F := F))) := by
  obtain ⟨n, hn⟩ := t
  cases n with
  | zero => rfl
  | succ n => exact absurd h0 (Nat.succ_ne_zero n)

theorem accAt10_pos (c : Dev nD) (t : Fin cfg10.N) (h0 : ¬t.val = 0) :
    accAt10 V c t.val t.isLt = (k0_pay6 (iblk10 V c 0 t) (iblk10 V c 1 t) (accAt10 V c (t.val - 1) (Nat.lt_of_le_of_lt (Nat.sub_le _ _) t.isLt)).1,
      k0_pay7 (iblk10 V c 0 t) (accAt10 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS10 (c : Dev nD) : (n : ℕ) → n ≤ cfg10.N → sProp 𝕄
  | 0, _ => Pipeline.ΦA spec10 c
  | n + 1, hn => iprop(iprop(iprop(owns (c : Thread nD τ) scM10_0 fullShare (accAt10 V c n hn).1 ∗ owns (c : Thread nD τ) scM10_1 fullShare (accAt10 V c n hn).2)
      ∗ Pipeline.scopedRestBut (Ix := Unit) (Name := ℕ) (U := UR sig nD τ) (Lvl := ℕ) (Val := Elt F) spec10 c [cc10_scratch0, cc10_scratch1]) ∗ (∃ r, prngReg c r))

theorem PhiS10_zero (c : Dev nD) (n : ℕ) (h : n ≤ cfg10.N) (hz : n = 0) : PhiS10 V c n h = Pipeline.ΦA spec10 c := by
  subst hz; rfl

theorem PhiS10_succ (c : Dev nD) (n : ℕ) (hn : n < cfg10.N) :
    PhiS10 V c (n + 1) hn = iprop(iprop(iprop(owns (c : Thread nD τ) scM10_0 fullShare (accAt10 V c n hn).1 ∗ owns (c : Thread nD τ) scM10_1 fullShare (accAt10 V c n hn).2)
      ∗ Pipeline.scopedRestBut (Ix := Unit) (Name := ℕ) (U := UR sig nD τ) (Lvl := ℕ) (Val := Elt F) spec10 c [cc10_scratch0, cc10_scratch1]) ∗ (∃ r, prngReg c r)) := rfl

theorem PhiS10_pos (c : Dev nD) (n : ℕ) (h : n ≤ cfg10.N) (hz : ¬n = 0) :
    PhiS10 V c n h = iprop(iprop(iprop(owns (c : Thread nD τ) scM10_0 fullShare (accAt10 V c (n - 1) (by omega)).1 ∗ owns (c : Thread nD τ) scM10_1 fullShare (accAt10 V c (n - 1) (by omega)).2)
      ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

/-! ## The pipeline's proof data -/

/-- Region 10's proof data on core `c`: the arrays as the region finds them; after the body at row block `t`
    each input's buffer at its block, the row result's at the block's quotients, the column result's at the
    accumulated quotients (consulted at the last row block only, where it is stored); the invariant above;
    nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => k0_pay5 (iblk10 V c 0 t) (iblk10 V c 2 t)
    | ⟨4, _⟩ => k0_pay1 (accAt10 V c t.val t.isLt).2 (accAt10 V c t.val t.isLt).1
  Φ t := PhiS10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem PhiS10_castSucc (c : Dev nD) (t : Fin cfg10.N) :
    (dat10 V c).Φ t.castSucc = PhiS10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = k0_pay5 (iblk10 V c 0 t) (iblk10 V c 2 t) := by dsimp only [dat10]
theorem after10_4 (c : Dev nD) (t : Fin cfg10.N) : (dat10 V c).after 4 t = k0_pay1 (accAt10 V c t.val t.isLt).2 (accAt10 V c t.val t.isLt).1 := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d

/-! ## The body obligation -/

/-- What the body is called with at row block `t`, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  rw [kernel_eq10]
  simp only [before10_0, before10_1, before10_2]
  rw [show (dat10 V c).owesAt () t.succ = (dat10 V c).owesAt () t.castSucc from rfl]
  rw [show (dat10 V c).Φ t.succ = PhiS10 V c (t.val + 1) t.isLt from rfl, PhiS10_succ]
  have hN : t.val < 8 := lt_of_lt_of_eq t.isLt (show cfg10.N = 8 from N_10)
  rw [show (dat10 V c).leavesExact 0 t = owns (c : Thread nD τ) (ms10_0 t) fullShare ((dat10 V c).after 0 t) from by
    unfold Dat.leavesExact; rw [liveAt10_0 t], after10_0]
  rw [show (dat10 V c).leavesExact 1 t = owns (c : Thread nD τ) (ms10_1 t) fullShare ((dat10 V c).after 1 t) from by
    unfold Dat.leavesExact; rw [liveAt10_1 t], after10_1]
  rw [show (dat10 V c).leavesExact 2 t = owns (c : Thread nD τ) (ms10_2 t) fullShare ((dat10 V c).after 2 t) from by
    unfold Dat.leavesExact; rw [liveAt10_2 t], after10_2]
  rw [show (dat10 V c).leavesExact 3 t = owns (c : Thread nD τ) (ms10_3 t) fullShare ((dat10 V c).after 3 t) from by
    unfold Dat.leavesExact; rw [liveAt10_3 t], after10_3]
  by_cases h0 : t.val = 0
  · have h1 : ¬t.val = 7 := by omega
    rw [Dat.leavesExact_idle (dat10 V c) 4 t (idleAt10_4 t (fun h => h1 ((condLast_iff t).mp h))) (noFlush10_4 t (fun h => h1 ((condLast_iff t).mp h)))]
    rw [accAt10_zero V c t h0]
    rw [PhiS10_castSucc V c t, PhiS10_zero V c _ _ h0, PhiA10_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid10.coords t) _ _ _ _ _ _ _ _ _ _ _ _ _ _ ((condFirst_iff t).mpr h0) (fun h => h1 ((condLast_iff t).mp h)) (iblk10 V c 0 t) (iblk10 V c 1 t) (iblk10 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid10.coords t) _ _ _ _ _ _ _ _ _ _ _ _ _ _ ((condFirst_iff t).mpr h0) (fun h => h1 ((condLast_iff t).mp h)) (iblk10 V c 0 t) (iblk10 V c 1 t) (iblk10 V c 2 t) _ _
          unfold owns; iexists _; isplitr
          swap; · iexact HS1
          ipureintro; exact pieceEA_s1 c (grid10.coords t) _ _ _ _ _ _ _ _ _ _ _ _ _ _ ((condFirst_iff t).mpr h0) (fun h => h1 ((condLast_iff t).mp h)) (iblk10 V c 0 t) (iblk10 V c 1 t) (iblk10 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid10.coords t) _ _ _ _ _ _ _ _ _ _ _ _ _ _ ((condFirst_iff t).mpr h0) (fun h => h1 ((condLast_iff t).mp h)) (iblk10 V c 0 t) (iblk10 V c 1 t) (iblk10 V c 2 t) _ _
    iexists _; iexact H4
  · by_cases h1 : t.val = 7
    · rw [show (dat10 V c).leavesExact 4 t = owns (c : Thread nD τ) (ms10_4 t) fullShare ((dat10 V c).after 4 t) from by
        unfold Dat.leavesExact; rw [liveAt10_4_C t ((condLast_iff t).mpr h1)], after10_4]
      rw [accAt10_pos V c t h0]
      rw [PhiS10_castSucc V c t, PhiS10_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid10.coords t) _ _ _ _ _ _ _ _ _ _ _ _ _ _ (fun h => h0 ((condFirst_iff t).mp h)) ((condLast_iff t).mpr h1) (iblk10 V c 0 t) (iblk10 V c 1 t) (iblk10 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid10.coords t) _ _ _ _ _ _ _ _ _ _ _ _ _ _ (fun h => h0 ((condFirst_iff t).mp h)) ((condLast_iff t).mpr h1) (iblk10 V c 0 t) (iblk10 V c 1 t) (iblk10 V c 2 t) _ _ _ _
            unfold owns; iexists _; isplitr
            swap; · iexact HS1
            ipureintro; exact pieceEC_s1 c (grid10.coords t) _ _ _ _ _ _ _ _ _ _ _ _ _ _ (fun h => h0 ((condFirst_iff t).mp h)) ((condLast_iff t).mpr h1) (iblk10 V c 0 t) (iblk10 V c 1 t) (iblk10 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid10.coords t) _ _ _ _ _ _ _ _ _ _ _ _ _ _ (fun h => h0 ((condFirst_iff t).mp h)) ((condLast_iff t).mpr h1) (iblk10 V c 0 t) (iblk10 V c 1 t) (iblk10 V c 2 t) _ _ _ _
      unfold owns; iexists _; isplitr
      swap; · iexact H4
      ipureintro; exact pieceEC_o5 c (grid10.coords t) _ _ _ _ _ _ _ _ _ _ _ _ _ _ (fun h => h0 ((condFirst_iff t).mp h)) ((condLast_iff t).mpr h1) (iblk10 V c 0 t) (iblk10 V c 1 t) (iblk10 V c 2 t) _ _ _ _
    · rw [Dat.leavesExact_idle (dat10 V c) 4 t (idleAt10_4 t (fun h => h1 ((condLast_iff t).mp h))) (noFlush10_4 t (fun h => h1 ((condLast_iff t).mp h)))]
      rw [accAt10_pos V c t h0]
      rw [PhiS10_castSucc V c t, PhiS10_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid10.coords t) _ _ _ _ _ _ _ _ _ _ _ _ _ _ (fun h => h0 ((condFirst_iff t).mp h)) (fun h => h1 ((condLast_iff t).mp h)) (iblk10 V c 0 t) (iblk10 V c 1 t) (iblk10 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid10.coords t) _ _ _ _ _ _ _ _ _ _ _ _ _ _ (fun h => h0 ((condFirst_iff t).mp h)) (fun h => h1 ((condLast_iff t).mp h)) (iblk10 V c 0 t) (iblk10 V c 1 t) (iblk10 V c 2 t) _ _ _ _
            unfold owns; iexists _; isplitr
            swap; · iexact HS1
            ipureintro; exact pieceEB_s1 c (grid10.coords t) _ _ _ _ _ _ _ _ _ _ _ _ _ _ (fun h => h0 ((condFirst_iff t).mp h)) (fun h => h1 ((condLast_iff t).mp h)) (iblk10 V c 0 t) (iblk10 V c 1 t) (iblk10 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid10.coords t) _ _ _ _ _ _ _ _ _ _ _ _ _ _ (fun h => h0 ((condFirst_iff t).mp h)) (fun h => h1 ((condLast_iff t).mp h)) (iblk10 V c 0 t) (iblk10 V c 1 t) (iblk10 V c 2 t) _ _ _ _
      iexists _; iexact H4

/-- The library's body obligation, at every row block. -/
theorem body_obligation10 (c : Dev nD) : BodyObligation (dat10 (F := F) V c) (defs₀ (F := F)) Variants.none () Set.univ := fun t => by
  rw [bigSep_W10, bigSep_W10]
  exact sound_body10 V c t

/-- What the launch hands the region is the invariant before the first row block. -/
theorem hin10 (c : Dev nD) : Pipeline.ΦA spec10 c ⊢ (dat10 V c).Φ 0 := by
  rw [show (dat10 V c).Φ 0 = PhiS10 V c 0 (Nat.zero_le _) from rfl, PhiS10_zero V c 0 _ rfl]
  try exact Idealize.SL.BI.Entails.refl _

/-- After the last row block the invariant gives back what the launch handed over: the accumulators' contents are forgotten. -/
theorem hout10 (c : Dev nD) : (dat10 V c).Φ (Fin.last cfg10.N) ⊢ Pipeline.ΦA spec10 c := by
  rw [show (dat10 V c).Φ (Fin.last cfg10.N) = PhiS10 V c (Fin.last cfg10.N).val (Nat.le_of_lt_succ (Fin.last cfg10.N).isLt) from rfl,
    PhiS10_pos V c _ _ (by rw [Fin.val_last]; have : cfg10.N = 8 := N_10; omega), PhiA10_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region10

end Cert.Kernel.Hand

end
-- ==== Proof.K.Reg11.lean ====
import proofs.«103934_j28484223107660_1_alg».proof.Proof.K.RunOA
import proofs.«103934_j28484223107660_1_alg».proof.Proof.K.RunOB
import proofs.«103934_j28484223107660_1_alg».proof.Proof.K.RunOC
import proofs.«103934_j28484223107660_1_alg».proof.Proof.K.PieceO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 11's kernel function is, as a program, the one the body's runs are stated for (the same text). -/
theorem kernel_eq11 : @cc11__mlgcn_layer_kernel F _ = @cc1__mlgcn_layer_kernel F _ := rfl

section Region11

/- The contents of the core's buffers when region 11 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every row block, fetched there or not. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every row block, fetched there or not. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every row block, fetched there or not. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-! ## Where the windows are idle, and where the column result is written back -/

theorem liveAt11_0 : ∀ t : Fin cfg11.N, cfg11.idle 0 (grid11.coords t) = false := by decide +kernel
theorem liveAt11_1 : ∀ t : Fin cfg11.N, cfg11.idle 1 (grid11.coords t) = false := by decide +kernel
theorem liveAt11_2 : ∀ t : Fin cfg11.N, cfg11.idle 2 (grid11.coords t) = false := by decide +kernel
theorem liveAt11_3 : ∀ t : Fin cfg11.N, cfg11.idle 3 (grid11.coords t) = false := by decide +kernel
/-- Before the last row block nothing is stored into the column result's buffer, -/
theorem idleAt11_4 : ∀ t : Fin cfg11.N, ¬condLast (grid11.coords t) → cfg11.idle 4 (grid11.coords t) = true := by decide +kernel
/-- and it is not written back there; -/
theorem noFlush11_4 : ∀ t : Fin cfg11.N, ¬condLast (grid11.coords t) → (cfg11.win 4).flush t = false := by decide +kernel
/-- at the last row block it is stored. -/
theorem liveAt11_4_C : ∀ t : Fin cfg11.N, condLast (grid11.coords t) → cfg11.idle 4 (grid11.coords t) = false := by decide +kernel

/-! ## The staging buffers and the two accumulators -/

abbrev ms11_0 (t : Fin cfg11.N) : Memref sig .tc .vmem S512x4096 .f32 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S512x64 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S4096x64 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S512x64 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S4096x64 .f32 := win11_4.stage (cfg11.slots t 4)
abbrev hs11_4 (t : Fin cfg11.N) : (ms11_4 t).IsWhole := hstage11_4 ((cfg11.slots t 4).cast nbuf11_4)
/-- The accumulator of the weighted sums, and the accumulator of the column degrees: whole buffers of the kernel's own. -/
abbrev scM11_0 : Memref sig .tc .vmem S4096x64 .f32 := Memref.whole cc11_scratch0
abbrev scM11_1 : Memref sig .tc .vmem S1x4096 .f32 := Memref.whole cc11_scratch1

/-- What the region is handed besides its windows: the two accumulators at some contents, the other scoped
    buffers unopened, the generator register at some state. -/
theorem PhiA11_eq (c : Dev nD) :
    (Pipeline.ΦA spec11 c : sProp 𝕄)
      = iprop(iprop(iprop((∃ d, owns (c : Thread nD τ) scM11_0 fullShare d) ∗ (∃ d, owns (c : Thread nD τ) scM11_1 fullShare d))
          ∗ Pipeline.scopedRestBut (Ix := Unit) (Name := ℕ) (U := UR sig nD τ) (Lvl := ℕ) (Val := Elt F) spec11 c [cc11_scratch0, cc11_scratch1]) ∗ (∃ r, prngReg c r)) := by
  unfold Pipeline.ΦA; rw [scopedRest11_split]; simp only [scM11_0, scM11_1, owns_whole]; try rfl

/-! ## What the accumulators hold after each row block -/

/-- After row block 0: the block's contribution added to zero; after row block `n + 1`: its contribution added to
    what row block `n` left. First the weighted sums, then the column degrees. -/
def accAt11 (c : Dev nD) : (n : ℕ) → n < cfg11.N → Vec F S4096x64 .f32 × Vec F S1x4096 .f32
  | 0, hn => (k1_pay6 (iblk11 V c 0 ⟨0, hn⟩) (iblk11 V c 1 ⟨0, hn⟩) (k1_pay2 (F := F)), k1_pay7 (iblk11 V c 0 ⟨0, hn⟩) (k1_pay3 (F := F)))
  | n + 1, hn => (k1_pay6 (iblk11 V c 0 ⟨n + 1, hn⟩) (iblk11 V c 1 ⟨n + 1, hn⟩) (accAt11 c n (Nat.lt_of_succ_lt hn)).1,
      k1_pay7 (iblk11 V c 0 ⟨n + 1, hn⟩) (accAt11 c n (Nat.lt_of_succ_lt hn)).2)

theorem accAt11_zero (c : Dev nD) (t : Fin cfg11.N) (h0 : t.val = 0) :
    accAt11 V c t.val t.isLt = (k1_pay6 (iblk11 V c 0 t) (iblk11 V c 1 t) (k1_pay2 (F := F)), k1_pay7 (iblk11 V c 0 t) (k1_pay3 (F := F))) := by
  obtain ⟨n, hn⟩ := t
  cases n with
  | zero => rfl
  | succ n => exact absurd h0 (Nat.succ_ne_zero n)

theorem accAt11_pos (c : Dev nD) (t : Fin cfg11.N) (h0 : ¬t.val = 0) :
    accAt11 V c t.val t.isLt = (k1_pay6 (iblk11 V c 0 t) (iblk11 V c 1 t) (accAt11 V c (t.val - 1) (Nat.lt_of_le_of_lt (Nat.sub_le _ _) t.isLt)).1,
      k1_pay7 (iblk11 V c 0 t) (accAt11 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS11 (c : Dev nD) : (n : ℕ) → n ≤ cfg11.N → sProp 𝕄
  | 0, _ => Pipeline.ΦA spec11 c
  | n + 1, hn => iprop(iprop(iprop(owns (c : Thread nD τ) scM11_0 fullShare (accAt11 V c n hn).1 ∗ owns (c : Thread nD τ) scM11_1 fullShare (accAt11 V c n hn).2)
      ∗ Pipeline.scopedRestBut (Ix := Unit) (Name := ℕ) (U := UR sig nD τ) (Lvl := ℕ) (Val := Elt F) spec11 c [cc11_scratch0, cc11_scratch1]) ∗ (∃ r, prngReg c r))

theorem PhiS11_zero (c : Dev nD) (n : ℕ) (h : n ≤ cfg11.N) (hz : n = 0) : PhiS11 V c n h = Pipeline.ΦA spec11 c := by
  subst hz; rfl

theorem PhiS11_succ (c : Dev nD) (n : ℕ) (hn : n < cfg11.N) :
    PhiS11 V c (n + 1) hn = iprop(iprop(iprop(owns (c : Thread nD τ) scM11_0 fullShare (accAt11 V c n hn).1 ∗ owns (c : Thread nD τ) scM11_1 fullShare (accAt11 V c n hn).2)
      ∗ Pipeline.scopedRestBut (Ix := Unit) (Name := ℕ) (U := UR sig nD τ) (Lvl := ℕ) (Val := Elt F) spec11 c [cc11_scratch0, cc11_scratch1]) ∗ (∃ r, prngReg c r)) := rfl

theorem PhiS11_pos (c : Dev nD) (n : ℕ) (h : n ≤ cfg11.N) (hz : ¬n = 0) :
    PhiS11 V c n h = iprop(iprop(iprop(owns (c : Thread nD τ) scM11_0 fullShare (accAt11 V c (n - 1) (by omega)).1 ∗ owns (c : Thread nD τ) scM11_1 fullShare (accAt11 V c (n - 1) (by omega)).2)
      ∗ Pipeline.scopedRestBut (Ix := Unit) (Name := ℕ) (U := UR sig nD τ) (Lvl := ℕ) (Val := Elt F) spec11 c [cc11_scratch0, cc11_scratch1]) ∗ (∃ r, prngReg c r)) := by
  cases n with
  | zero => exact absurd rfl hz
  | succ n => rfl

/-! ## The pipeline's proof data -/

/-- Region 11's proof data on core `c`: the arrays as the region finds them; after the body at row block `t`
    each input's buffer at its block, the row result's at the block's quotients, the column result's at the
    accumulated quotients (consulted at the last row block only, where it is stored); the invariant above;
    nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => k1_pay5 (iblk11 V c 0 t) (iblk11 V c 2 t)
    | ⟨4, _⟩ => k1_pay1 (accAt11 V c t.val t.isLt).2 (accAt11 V c t.val t.isLt).1
  Φ t := PhiS11 V c t.val (Nat.le_of_lt_succ t.isLt)
  q _ := fullShare
  owed _ := 0

theorem A_eq11 (c : Dev nD) (w : Fin cfg11.W) : (dat11 V c).A w = V c (Pipeline.arrRef spec11 w) := by
  dsimp only [dat11]

theorem PhiS11_castSucc (c : Dev nD) (t : Fin cfg11.N) :
    (dat11 V c).Φ t.castSucc = PhiS11 V c t.val (Nat.le_of_lt t.isLt) := by
  dsimp only [dat11]; simp only [Fin.coe_castSucc]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = k1_pay5 (iblk11 V c 0 t) (iblk11 V c 2 t) := by dsimp only [dat11]
theorem after11_4 (c : Dev nD) (t : Fin cfg11.N) : (dat11 V c).after 4 t = k1_pay1 (accAt11 V c t.val t.isLt).2 (accAt11 V c t.val t.isLt).1 := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d

/-! ## The body obligation -/

/-- What the body is called with at row block `t`, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ (dat11 V c).leavesExact 0 t
    ∗ (dat11 V c).leavesExact 1 t
    ∗ (dat11 V c).leavesExact 2 t
    ∗ (dat11 V c).leavesExact 3 t
    ∗ (dat11 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  rw [kernel_eq11]
  simp only [before11_0, before11_1, before11_2]
  rw [show (dat11 V c).owesAt () t.succ = (dat11 V c).owesAt () t.castSucc from rfl]
  rw [show (dat11 V c).Φ t.succ = PhiS11 V c (t.val + 1) t.isLt from rfl, PhiS11_succ]
  have hN : t.val < 8 := lt_of_lt_of_eq t.isLt (show cfg11.N = 8 from N_11)
  rw [show (dat11 V c).leavesExact 0 t = owns (c : Thread nD τ) (ms11_0 t) fullShare ((dat11 V c).after 0 t) from by
    unfold Dat.leavesExact; rw [liveAt11_0 t], after11_0]
  rw [show (dat11 V c).leavesExact 1 t = owns (c : Thread nD τ) (ms11_1 t) fullShare ((dat11 V c).after 1 t) from by
    unfold Dat.leavesExact; rw [liveAt11_1 t], after11_1]
  rw [show (dat11 V c).leavesExact 2 t = owns (c : Thread nD τ) (ms11_2 t) fullShare ((dat11 V c).after 2 t) from by
    unfold Dat.leavesExact; rw [liveAt11_2 t], after11_2]
  rw [show (dat11 V c).leavesExact 3 t = owns (c : Thread nD τ) (ms11_3 t) fullShare ((dat11 V c).after 3 t) from by
    unfold Dat.leavesExact; rw [liveAt11_3 t], after11_3]
  by_cases h0 : t.val = 0
  · have h1 : ¬t.val = 7 := by omega
    rw [Dat.leavesExact_idle (dat11 V c) 4 t (idleAt11_4 t (fun h => h1 ((condLast_iff t).mp h))) (noFlush11_4 t (fun h => h1 ((condLast_iff t).mp h)))]
    rw [accAt11_zero V c t h0]
    rw [PhiS11_castSucc V c t, PhiS11_zero V c _ _ h0, PhiA11_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid11.coords t) _ _ _ _ _ _ _ _ _ _ _ _ _ _ ((condFirst_iff t).mpr h0) (fun h => h1 ((condLast_iff t).mp h)) (iblk11 V c 0 t) (iblk11 V c 1 t) (iblk11 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid11.coords t) _ _ _ _ _ _ _ _ _ _ _ _ _ _ ((condFirst_iff t).mpr h0) (fun h => h1 ((condLast_iff t).mp h)) (iblk11 V c 0 t) (iblk11 V c 1 t) (iblk11 V c 2 t) _ _
          unfold owns; iexists _; isplitr
          swap; · iexact HS1
          ipureintro; exact pieceOA_s1 c (grid11.coords t) _ _ _ _ _ _ _ _ _ _ _ _ _ _ ((condFirst_iff t).mpr h0) (fun h => h1 ((condLast_iff t).mp h)) (iblk11 V c 0 t) (iblk11 V c 1 t) (iblk11 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid11.coords t) _ _ _ _ _ _ _ _ _ _ _ _ _ _ ((condFirst_iff t).mpr h0) (fun h => h1 ((condLast_iff t).mp h)) (iblk11 V c 0 t) (iblk11 V c 1 t) (iblk11 V c 2 t) _ _
    iexists _; iexact H4
  · by_cases h1 : t.val = 7
    · rw [show (dat11 V c).leavesExact 4 t = owns (c : Thread nD τ) (ms11_4 t) fullShare ((dat11 V c).after 4 t) from by
        unfold Dat.leavesExact; rw [liveAt11_4_C t ((condLast_iff t).mpr h1)], after11_4]
      rw [accAt11_pos V c t h0]
      rw [PhiS11_castSucc V c t, PhiS11_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid11.coords t) _ _ _ _ _ _ _ _ _ _ _ _ _ _ (fun h => h0 ((condFirst_iff t).mp h)) ((condLast_iff t).mpr h1) (iblk11 V c 0 t) (iblk11 V c 1 t) (iblk11 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid11.coords t) _ _ _ _ _ _ _ _ _ _ _ _ _ _ (fun h => h0 ((condFirst_iff t).mp h)) ((condLast_iff t).mpr h1) (iblk11 V c 0 t) (iblk11 V c 1 t) (iblk11 V c 2 t) _ _ _ _
            unfold owns; iexists _; isplitr
            swap; · iexact HS1
            ipureintro; exact pieceOC_s1 c (grid11.coords t) _ _ _ _ _ _ _ _ _ _ _ _ _ _ (fun h => h0 ((condFirst_iff t).mp h)) ((condLast_iff t).mpr h1) (iblk11 V c 0 t) (iblk11 V c 1 t) (iblk11 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid11.coords t) _ _ _ _ _ _ _ _ _ _ _ _ _ _ (fun h => h0 ((condFirst_iff t).mp h)) ((condLast_iff t).mpr h1) (iblk11 V c 0 t) (iblk11 V c 1 t) (iblk11 V c 2 t) _ _ _ _
      unfold owns; iexists _; isplitr
      swap; · iexact H4
      ipureintro; exact pieceOC_o5 c (grid11.coords t) _ _ _ _ _ _ _ _ _ _ _ _ _ _ (fun h => h0 ((condFirst_iff t).mp h)) ((condLast_iff t).mpr h1) (iblk11 V c 0 t) (iblk11 V c 1 t) (iblk11 V c 2 t) _ _ _ _
    · rw [Dat.leavesExact_idle (dat11 V c) 4 t (idleAt11_4 t (fun h => h1 ((condLast_iff t).mp h))) (noFlush11_4 t (fun h => h1 ((condLast_iff t).mp h)))]
      rw [accAt11_pos V c t h0]
      rw [PhiS11_castSucc V c t, PhiS11_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid11.coords t) _ _ _ _ _ _ _ _ _ _ _ _ _ _ (fun h => h0 ((condFirst_iff t).mp h)) (fun h => h1 ((condLast_iff t).mp h)) (iblk11 V c 0 t) (iblk11 V c 1 t) (iblk11 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid11.coords t) _ _ _ _ _ _ _ _ _ _ _ _ _ _ (fun h => h0 ((condFirst_iff t).mp h)) (fun h => h1 ((condLast_iff t).mp h)) (iblk11 V c 0 t) (iblk11 V c 1 t) (iblk11 V c 2 t) _ _ _ _
            unfold owns; iexists _; isplitr
            swap; · iexact HS1
            ipureintro; exact pieceOB_s1 c (grid11.coords t) _ _ _ _ _ _ _ _ _ _ _ _ _ _ (fun h => h0 ((condFirst_iff t).mp h)) (fun h => h1 ((condLast_iff t).mp h)) (iblk11 V c 0 t) (iblk11 V c 1 t) (iblk11 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid11.coords t) _ _ _ _ _ _ _ _ _ _ _ _ _ _ (fun h => h0 ((condFirst_iff t).mp h)) (fun h => h1 ((condLast_iff t).mp h)) (iblk11 V c 0 t) (iblk11 V c 1 t) (iblk11 V c 2 t) _ _ _ _
      iexists _; iexact H4

/-- The library's body obligation, at every row block. -/
theorem body_obligation11 (c : Dev nD) : BodyObligation (dat11 (F := F) V c) (defs₀ (F := F)) Variants.none () Set.univ := fun t => by
  rw [bigSep_W11, bigSep_W11]
  exact sound_body11 V c t

/-- What the launch hands the region is the invariant before the first row block. -/
theorem hin11 (c : Dev nD) : Pipeline.ΦA spec11 c ⊢ (dat11 V c).Φ 0 := by
  rw [show (dat11 V c).Φ 0 = PhiS11 V c 0 (Nat.zero_le _) from rfl, PhiS11_zero V c 0 _ rfl]
  try exact Idealize.SL.BI.Entails.refl _

/-- After the last row block the invariant gives back what the launch handed over: the accumulators' contents are forgotten. -/
theorem hout11 (c : Dev nD) : (dat11 V c).Φ (Fin.last cfg11.N) ⊢ Pipeline.ΦA spec11 c := by
  rw [show (dat11 V c).Φ (Fin.last cfg11.N) = PhiS11 V c (Fin.last cfg11.N).val (Nat.le_of_lt_succ (Fin.last cfg11.N).isLt) from rfl,
    PhiS11_pos V c _ _ (by rw [Fin.val_last]; have : cfg11.N = 8 := N_11; omega), PhiA11_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region11

end Cert.Kernel.Hand

end
-- ==== Proof.K.Reg12.lean ====
import proofs.«103934_j28484223107660_1_alg».proof.Proof.K.RunEA
import proofs.«103934_j28484223107660_1_alg».proof.Proof.K.RunEB
import proofs.«103934_j28484223107660_1_alg».proof.Proof.K.RunEC
import proofs.«103934_j28484223107660_1_alg».proof.Proof.K.PieceE

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 12's kernel function is, as a program, the one the body's runs are stated for (the same text). -/
theorem kernel_eq12 : @cc12__mlgcn_layer_kernel F _ = @cc0__mlgcn_layer_kernel F _ := rfl

section Region12

/- The contents of the core's buffers when region 12 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every row block, fetched there or not. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every row block, fetched there or not. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every row block, fetched there or not. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-! ## Where the windows are idle, and where the column result is written back -/

theorem liveAt12_0 : ∀ t : Fin cfg12.N, cfg12.idle 0 (grid12.coords t) = false := by decide +kernel
theorem liveAt12_1 : ∀ t : Fin cfg12.N, cfg12.idle 1 (grid12.coords t) = false := by decide +kernel
theorem liveAt12_2 : ∀ t : Fin cfg12.N, cfg12.idle 2 (grid12.coords t) = false := by decide +kernel
theorem liveAt12_3 : ∀ t : Fin cfg12.N, cfg12.idle 3 (grid12.coords t) = false := by decide +kernel
/-- Before the last row block nothing is stored into the column result's buffer, -/
theorem idleAt12_4 : ∀ t : Fin cfg12.N, ¬condLast (grid12.coords t) → cfg12.idle 4 (grid12.coords t) = true := by decide +kernel
/-- and it is not written back there; -/
theorem noFlush12_4 : ∀ t : Fin cfg12.N, ¬condLast (grid12.coords t) → (cfg12.win 4).flush t = false := by decide +kernel
/-- at the last row block it is stored. -/
theorem liveAt12_4_C : ∀ t : Fin cfg12.N, condLast (grid12.coords t) → cfg12.idle 4 (grid12.coords t) = false := by decide +kernel

/-! ## The staging buffers and the two accumulators -/

abbrev ms12_0 (t : Fin cfg12.N) : Memref sig .tc .vmem S512x4096 .f32 := win12_0.stage (cfg12.slots t 0)
abbrev hs12_0 (t : Fin cfg12.N) : (ms12_0 t).IsWhole := hstage12_0 ((cfg12.slots t 0).cast nbuf12_0)
abbrev ms12_1 (t : Fin cfg12.N) : Memref sig .tc .vmem S512x64 .f32 := win12_1.stage (cfg12.slots t 1)
abbrev hs12_1 (t : Fin cfg12.N) : (ms12_1 t).IsWhole := hstage12_1 ((cfg12.slots t 1).cast nbuf12_1)
abbrev ms12_2 (t : Fin cfg12.N) : Memref sig .tc .vmem S4096x64 .f32 := win12_2.stage (cfg12.slots t 2)
abbrev hs12_2 (t : Fin cfg12.N) : (ms12_2 t).IsWhole := hstage12_2 ((cfg12.slots t 2).cast nbuf12_2)
abbrev ms12_3 (t : Fin cfg12.N) : Memref sig .tc .vmem S512x64 .f32 := win12_3.stage (cfg12.slots t 3)
abbrev hs12_3 (t : Fin cfg12.N) : (ms12_3 t).IsWhole := hstage12_3 ((cfg12.slots t 3).cast nbuf12_3)
abbrev ms12_4 (t : Fin cfg12.N) : Memref sig .tc .vmem S4096x64 .f32 := win12_4.stage (cfg12.slots t 4)
abbrev hs12_4 (t : Fin cfg12.N) : (ms12_4 t).IsWhole := hstage12_4 ((cfg12.slots t 4).cast nbuf12_4)
/-- The accumulator of the weighted sums, and the accumulator of the column degrees: whole buffers of the kernel's own. -/
abbrev scM12_0 : Memref sig .tc .vmem S4096x64 .f32 := Memref.whole cc12_scratch0
abbrev scM12_1 : Memref sig .tc .vmem S1x4096 .f32 := Memref.whole cc12_scratch1

/-- What the region is handed besides its windows: the two accumulators at some contents, the other scoped
    buffers unopened, the generator register at some state. -/
theorem PhiA12_eq (c : Dev nD) :
    (Pipeline.ΦA spec12 c : sProp 𝕄)
      = iprop(iprop(iprop((∃ d, owns (c : Thread nD τ) scM12_0 fullShare d) ∗ (∃ d, owns (c : Thread nD τ) scM12_1 fullShare d))
          ∗ Pipeline.scopedRestBut (Ix := Unit) (Name := ℕ) (U := UR sig nD τ) (Lvl := ℕ) (Val := Elt F) spec12 c [cc12_scratch0, cc12_scratch1]) ∗ (∃ r, prngReg c r)) := by
  unfold Pipeline.ΦA; rw [scopedRest12_split]; simp only [scM12_0, scM12_1, owns_whole]; try rfl

/-! ## What the accumulators hold after each row block -/

/-- After row block 0: the block's contribution added to zero; after row block `n + 1`: its contribution added to
    what row block `n` left. First the weighted sums, then the column degrees. -/
def accAt12 (c : Dev nD) : (n : ℕ) → n < cfg12.N → Vec F S4096x64 .f32 × Vec F S1x4096 .f32
  | 0, hn => (k0_pay6 (iblk12 V c 0 ⟨0, hn⟩) (iblk12 V c 1 ⟨0, hn⟩) (k0_pay2 (F := F)), k0_pay7 (iblk12 V c 0 ⟨0, hn⟩) (k0_pay3 (F := F)))
  | n + 1, hn => (k0_pay6 (iblk12 V c 0 ⟨n + 1, hn⟩) (iblk12 V c 1 ⟨n + 1, hn⟩) (accAt12 c n (Nat.lt_of_succ_lt hn)).1,
      k0_pay7 (iblk12 V c 0 ⟨n + 1, hn⟩) (accAt12 c n (Nat.lt_of_succ_lt hn)).2)

theorem accAt12_zero (c : Dev nD) (t : Fin cfg12.N) (h0 : t.val = 0) :
    accAt12 V c t.val t.isLt = (k0_pay6 (iblk12 V c 0 t) (iblk12 V c 1 t) (k0_pay2 (F := F)), k0_pay7 (iblk12 V c 0 t) (k0_pay3 (F := F))) := by
  obtain ⟨n, hn⟩ := t
  cases n with
  | zero => rfl
  | succ n => exact absurd h0 (Nat.succ_ne_zero n)

theorem accAt12_pos (c : Dev nD) (t : Fin cfg12.N) (h0 : ¬t.val = 0) :
    accAt12 V c t.val t.isLt = (k0_pay6 (iblk12 V c 0 t) (iblk12 V c 1 t) (accAt12 V c (t.val - 1) (Nat.lt_of_le_of_lt (Nat.sub_le _ _) t.isLt)).1,
      k0_pay7 (iblk12 V c 0 t) (accAt12 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS12 (c : Dev nD) : (n : ℕ) → n ≤ cfg12.N → sProp 𝕄
  | 0, _ => Pipeline.ΦA spec12 c
  | n + 1, hn => iprop(iprop(iprop(owns (c : Thread nD τ) scM12_0 fullShare (accAt12 V c n hn).1 ∗ owns (c : Thread nD τ) scM12_1 fullShare (accAt12 V c n hn).2)
      ∗ Pipeline.scopedRestBut (Ix := Unit) (Name := ℕ) (U := UR sig nD τ) (Lvl := ℕ) (Val := Elt F) spec12 c [cc12_scratch0, cc12_scratch1]) ∗ (∃ r, prngReg c r))

theorem PhiS12_zero (c : Dev nD) (n : ℕ) (h : n ≤ cfg12.N) (hz : n = 0) : PhiS12 V c n h = Pipeline.ΦA spec12 c := by
  subst hz; rfl

theorem PhiS12_succ (c : Dev nD) (n : ℕ) (hn : n < cfg12.N) :
    PhiS12 V c (n + 1) hn = iprop(iprop(iprop(owns (c : Thread nD τ) scM12_0 fullShare (accAt12 V c n hn).1 ∗ owns (c : Thread nD τ) scM12_1 fullShare (accAt12 V c n hn).2)
      ∗ Pipeline.scopedRestBut (Ix := Unit) (Name := ℕ) (U := UR sig nD τ) (Lvl := ℕ) (Val := Elt F) spec12 c [cc12_scratch0, cc12_scratch1]) ∗ (∃ r, prngReg c r)) := rfl

theorem PhiS12_pos (c : Dev nD) (n : ℕ) (h : n ≤ cfg12.N) (hz : ¬n = 0) :
    PhiS12 V c n h = iprop(iprop(iprop(owns (c : Thread nD τ) scM12_0 fullShare (accAt12 V c (n - 1) (by omega)).1 ∗ owns (c : Thread nD τ) scM12_1 fullShare (accAt12 V c (n - 1) (by omega)).2)
      ∗ Pipeline.scopedRestBut (Ix := Unit) (Name := ℕ) (U := UR sig nD τ) (Lvl := ℕ) (Val := Elt F) spec12 c [cc12_scratch0, cc12_scratch1]) ∗ (∃ r, prngReg c r)) := by
  cases n with
  | zero => exact absurd rfl hz
  | succ n => rfl

/-! ## The pipeline's proof data -/

/-- Region 12's proof data on core `c`: the arrays as the region finds them; after the body at row block `t`
    each input's buffer at its block, the row result's at the block's quotients, the column result's at the
    accumulated quotients (consulted at the last row block only, where it is stored); the invariant above;
    nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => k0_pay5 (iblk12 V c 0 t) (iblk12 V c 2 t)
    | ⟨4, _⟩ => k0_pay1 (accAt12 V c t.val t.isLt).2 (accAt12 V c t.val t.isLt).1
  Φ t := PhiS12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem PhiS12_castSucc (c : Dev nD) (t : Fin cfg12.N) :
    (dat12 V c).Φ t.castSucc = PhiS12 V c t.val (Nat.le_of_lt t.isLt) := by
  dsimp only [dat12]; simp only [Fin.coe_castSucc]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = k0_pay5 (iblk12 V c 0 t) (iblk12 V c 2 t) := by dsimp only [dat12]
theorem after12_4 (c : Dev nD) (t : Fin cfg12.N) : (dat12 V c).after 4 t = k0_pay1 (accAt12 V c t.val t.isLt).2 (accAt12 V c t.val t.isLt).1 := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d

/-! ## The body obligation -/

/-- What the body is called with at row block `t`, -/
def bodyPre12 (c : Dev nD) (t : Fin cfg12.N) : sProp 𝕄 :=
  iprop((dat12 V c).Φ t.castSucc ∗ (dat12 V c).owesAt () t.castSucc
    ∗ (∃ d, owns (c : Thread nD τ) (ms12_0 t) fullShare ((dat12 V c).before 0 t d))
    ∗ (∃ d, owns (c : Thread nD τ) (ms12_1 t) fullShare ((dat12 V c).before 1 t d))
    ∗ (∃ d, owns (c : Thread nD τ) (ms12_2 t) fullShare ((dat12 V c).before 2 t d))
    ∗ (∃ d, owns (c : Thread nD τ) (ms12_3 t) fullShare ((dat12 V c).before 3 t d))
    ∗ (∃ d, owns (c : Thread nD τ) (ms12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t
    ∗ (dat12 V c).leavesExact 3 t
    ∗ (dat12 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  rw [kernel_eq12]
  simp only [before12_0, before12_1, before12_2]
  rw [show (dat12 V c).owesAt () t.succ = (dat12 V c).owesAt () t.castSucc from rfl]
  rw [show (dat12 V c).Φ t.succ = PhiS12 V c (t.val + 1) t.isLt from rfl, PhiS12_succ]
  have hN : t.val < 8 := lt_of_lt_of_eq t.isLt (show cfg12.N = 8 from N_12)
  rw [show (dat12 V c).leavesExact 0 t = owns (c : Thread nD τ) (ms12_0 t) fullShare ((dat12 V c).after 0 t) from by
    unfold Dat.leavesExact; rw [liveAt12_0 t], after12_0]
  rw [show (dat12 V c).leavesExact 1 t = owns (c : Thread nD τ) (ms12_1 t) fullShare ((dat12 V c).after 1 t) from by
    unfold Dat.leavesExact; rw [liveAt12_1 t], after12_1]
  rw [show (dat12 V c).leavesExact 2 t = owns (c : Thread nD τ) (ms12_2 t) fullShare ((dat12 V c).after 2 t) from by
    unfold Dat.leavesExact; rw [liveAt12_2 t], after12_2]
  rw [show (dat12 V c).leavesExact 3 t = owns (c : Thread nD τ) (ms12_3 t) fullShare ((dat12 V c).after 3 t) from by
    unfold Dat.leavesExact; rw [liveAt12_3 t], after12_3]
  by_cases h0 : t.val = 0
  · have h1 : ¬t.val = 7 := by omega
    rw [Dat.leavesExact_idle (dat12 V c) 4 t (idleAt12_4 t (fun h => h1 ((condLast_iff t).mp h))) (noFlush12_4 t (fun h => h1 ((condLast_iff t).mp h)))]
    rw [accAt12_zero V c t h0]
    rw [PhiS12_castSucc V c t, PhiS12_zero V c _ _ h0, PhiA12_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runEA c (grid12.coords t) _ _ _ _ _ _ _ _ _ _ _ _ _ _ ((condFirst_iff t).mpr h0) (fun h => h1 ((condLast_iff t).mp h)) (iblk12 V c 0 t) (iblk12 V c 1 t) (iblk12 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceEA_s0 c (grid12.coords t) _ _ _ _ _ _ _ _ _ _ _ _ _ _ ((condFirst_iff t).mpr h0) (fun h => h1 ((condLast_iff t).mp h)) (iblk12 V c 0 t) (iblk12 V c 1 t) (iblk12 V c 2 t) _ _
          unfold owns; iexists _; isplitr
          swap; · iexact HS1
          ipureintro; exact pieceEA_s1 c (grid12.coords t) _ _ _ _ _ _ _ _ _ _ _ _ _ _ ((condFirst_iff t).mpr h0) (fun h => h1 ((condLast_iff t).mp h)) (iblk12 V c 0 t) (iblk12 V c 1 t) (iblk12 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceEA_o4 c (grid12.coords t) _ _ _ _ _ _ _ _ _ _ _ _ _ _ ((condFirst_iff t).mpr h0) (fun h => h1 ((condLast_iff t).mp h)) (iblk12 V c 0 t) (iblk12 V c 1 t) (iblk12 V c 2 t) _ _
    iexists _; iexact H4
  · by_cases h1 : t.val = 7
    · rw [show (dat12 V c).leavesExact 4 t = owns (c : Thread nD τ) (ms12_4 t) fullShare ((dat12 V c).after 4 t) from by
        unfold Dat.leavesExact; rw [liveAt12_4_C t ((condLast_iff t).mpr h1)], after12_4]
      rw [accAt12_pos V c t h0]
      rw [PhiS12_castSucc V c t, PhiS12_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEC c (grid12.coords t) _ _ _ _ _ _ _ _ _ _ _ _ _ _ (fun h => h0 ((condFirst_iff t).mp h)) ((condLast_iff t).mpr h1) (iblk12 V c 0 t) (iblk12 V c 1 t) (iblk12 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEC_s0 c (grid12.coords t) _ _ _ _ _ _ _ _ _ _ _ _ _ _ (fun h => h0 ((condFirst_iff t).mp h)) ((condLast_iff t).mpr h1) (iblk12 V c 0 t) (iblk12 V c 1 t) (iblk12 V c 2 t) _ _ _ _
            unfold owns; iexists _; isplitr
            swap; · iexact HS1
            ipureintro; exact pieceEC_s1 c (grid12.coords t) _ _ _ _ _ _ _ _ _ _ _ _ _ _ (fun h => h0 ((condFirst_iff t).mp h)) ((condLast_iff t).mpr h1) (iblk12 V c 0 t) (iblk12 V c 1 t) (iblk12 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEC_o4 c (grid12.coords t) _ _ _ _ _ _ _ _ _ _ _ _ _ _ (fun h => h0 ((condFirst_iff t).mp h)) ((condLast_iff t).mpr h1) (iblk12 V c 0 t) (iblk12 V c 1 t) (iblk12 V c 2 t) _ _ _ _
      unfold owns; iexists _; isplitr
      swap; · iexact H4
      ipureintro; exact pieceEC_o5 c (grid12.coords t) _ _ _ _ _ _ _ _ _ _ _ _ _ _ (fun h => h0 ((condFirst_iff t).mp h)) ((condLast_iff t).mpr h1) (iblk12 V c 0 t) (iblk12 V c 1 t) (iblk12 V c 2 t) _ _ _ _
    · rw [Dat.leavesExact_idle (dat12 V c) 4 t (idleAt12_4 t (fun h => h1 ((condLast_iff t).mp h))) (noFlush12_4 t (fun h => h1 ((condLast_iff t).mp h)))]
      rw [accAt12_pos V c t h0]
      rw [PhiS12_castSucc V c t, PhiS12_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runEB c (grid12.coords t) _ _ _ _ _ _ _ _ _ _ _ _ _ _ (fun h => h0 ((condFirst_iff t).mp h)) (fun h => h1 ((condLast_iff t).mp h)) (iblk12 V c 0 t) (iblk12 V c 1 t) (iblk12 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceEB_s0 c (grid12.coords t) _ _ _ _ _ _ _ _ _ _ _ _ _ _ (fun h => h0 ((condFirst_iff t).mp h)) (fun h => h1 ((condLast_iff t).mp h)) (iblk12 V c 0 t) (iblk12 V c 1 t) (iblk12 V c 2 t) _ _ _ _
            unfold owns; iexists _; isplitr
            swap; · iexact HS1
            ipureintro; exact pieceEB_s1 c (grid12.coords t) _ _ _ _ _ _ _ _ _ _ _ _ _ _ (fun h => h0 ((condFirst_iff t).mp h)) (fun h => h1 ((condLast_iff t).mp h)) (iblk12 V c 0 t) (iblk12 V c 1 t) (iblk12 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceEB_o4 c (grid12.coords t) _ _ _ _ _ _ _ _ _ _ _ _ _ _ (fun h => h0 ((condFirst_iff t).mp h)) (fun h => h1 ((condLast_iff t).mp h)) (iblk12 V c 0 t) (iblk12 V c 1 t) (iblk12 V c 2 t) _ _ _ _
      iexists _; iexact H4

/-- The library's body obligation, at every row block. -/
theorem body_obligation12 (c : Dev nD) : BodyObligation (dat12 (F := F) V c) (defs₀ (F := F)) Variants.none () Set.univ := fun t => by
  rw [bigSep_W12, bigSep_W12]
  exact sound_body12 V c t

/-- What the launch hands the region is the invariant before the first row block. -/
theorem hin12 (c : Dev nD) : Pipeline.ΦA spec12 c ⊢ (dat12 V c).Φ 0 := by
  rw [show (dat12 V c).Φ 0 = PhiS12 V c 0 (Nat.zero_le _) from rfl, PhiS12_zero V c 0 _ rfl]
  try exact Idealize.SL.BI.Entails.refl _

/-- After the last row block the invariant gives back what the launch handed over: the accumulators' contents are forgotten. -/
theorem hout12 (c : Dev nD) : (dat12 V c).Φ (Fin.last cfg12.N) ⊢ Pipeline.ΦA spec12 c := by
  rw [show (dat12 V c).Φ (Fin.last cfg12.N) = PhiS12 V c (Fin.last cfg12.N).val (Nat.le_of_lt_succ (Fin.last cfg12.N).isLt) from rfl,
    PhiS12_pos V c _ _ (by rw [Fin.val_last]; have : cfg12.N = 8 := N_12; omega), PhiA12_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region12

end Cert.Kernel.Hand

end
-- ==== Proof.K.Reg13.lean ====
import proofs.«103934_j28484223107660_1_alg».proof.Proof.K.RunOA
import proofs.«103934_j28484223107660_1_alg».proof.Proof.K.RunOB
import proofs.«103934_j28484223107660_1_alg».proof.Proof.K.RunOC
import proofs.«103934_j28484223107660_1_alg».proof.Proof.K.PieceO

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Region 13's kernel function is, as a program, the one the body's runs are stated for (the same text). -/
theorem kernel_eq13 : @cc13__mlgcn_layer_kernel F _ = @cc1__mlgcn_layer_kernel F _ := rfl

section Region13

/- The contents of the core's buffers when region 13 is entered: the parameter everything below is stated at. -/
variable (V : (c : Dev nD) → (b : Ref sig .tc) → Buf (Elt F) ((c : Thread nD τ).loc b))

/-! ## The windows' blocks -/

/-- Window `w`'s block at row block `t`, read off its array as the region finds it. -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every row block, fetched there or not. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every row block, fetched there or not. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every row block, fetched there or not. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-! ## Where the windows are idle, and where the column result is written back -/

theorem liveAt13_0 : ∀ t : Fin cfg13.N, cfg13.idle 0 (grid13.coords t) = false := by decide +kernel
theorem liveAt13_1 : ∀ t : Fin cfg13.N, cfg13.idle 1 (grid13.coords t) = false := by decide +kernel
theorem liveAt13_2 : ∀ t : Fin cfg13.N, cfg13.idle 2 (grid13.coords t) = false := by decide +kernel
theorem liveAt13_3 : ∀ t : Fin cfg13.N, cfg13.idle 3 (grid13.coords t) = false := by decide +kernel
/-- Before the last row block nothing is stored into the column result's buffer, -/
theorem idleAt13_4 : ∀ t : Fin cfg13.N, ¬condLast (grid13.coords t) → cfg13.idle 4 (grid13.coords t) = true := by decide +kernel
/-- and it is not written back there; -/
theorem noFlush13_4 : ∀ t : Fin cfg13.N, ¬condLast (grid13.coords t) → (cfg13.win 4).flush t = false := by decide +kernel
/-- at the last row block it is stored. -/
theorem liveAt13_4_C : ∀ t : Fin cfg13.N, condLast (grid13.coords t) → cfg13.idle 4 (grid13.coords t) = false := by decide +kernel

/-! ## The staging buffers and the two accumulators -/

abbrev ms13_0 (t : Fin cfg13.N) : Memref sig .tc .vmem S512x4096 .f32 := win13_0.stage (cfg13.slots t 0)
abbrev hs13_0 (t : Fin cfg13.N) : (ms13_0 t).IsWhole := hstage13_0 ((cfg13.slots t 0).cast nbuf13_0)
abbrev ms13_1 (t : Fin cfg13.N) : Memref sig .tc .vmem S512x64 .f32 := win13_1.stage (cfg13.slots t 1)
abbrev hs13_1 (t : Fin cfg13.N) : (ms13_1 t).IsWhole := hstage13_1 ((cfg13.slots t 1).cast nbuf13_1)
abbrev ms13_2 (t : Fin cfg13.N) : Memref sig .tc .vmem S4096x64 .f32 := win13_2.stage (cfg13.slots t 2)
abbrev hs13_2 (t : Fin cfg13.N) : (ms13_2 t).IsWhole := hstage13_2 ((cfg13.slots t 2).cast nbuf13_2)
abbrev ms13_3 (t : Fin cfg13.N) : Memref sig .tc .vmem S512x64 .f32 := win13_3.stage (cfg13.slots t 3)
abbrev hs13_3 (t : Fin cfg13.N) : (ms13_3 t).IsWhole := hstage13_3 ((cfg13.slots t 3).cast nbuf13_3)
abbrev ms13_4 (t : Fin cfg13.N) : Memref sig .tc .vmem S4096x64 .f32 := win13_4.stage (cfg13.slots t 4)
abbrev hs13_4 (t : Fin cfg13.N) : (ms13_4 t).IsWhole := hstage13_4 ((cfg13.slots t 4).cast nbuf13_4)
/-- The accumulator of the weighted sums, and the accumulator of the column degrees: whole buffers of the kernel's own. -/
abbrev scM13_0 : Memref sig .tc .vmem S4096x64 .f32 := Memref.whole cc13_scratch0
abbrev scM13_1 : Memref sig .tc .vmem S1x4096 .f32 := Memref.whole cc13_scratch1

/-- What the region is handed besides its windows: the two accumulators at some contents, the other scoped
    buffers unopened, the generator register at some state. -/
theorem PhiA13_eq (c : Dev nD) :
    (Pipeline.ΦA spec13 c : sProp 𝕄)
      = iprop(iprop(iprop((∃ d, owns (c : Thread nD τ) scM13_0 fullShare d) ∗ (∃ d, owns (c : Thread nD τ) scM13_1 fullShare d))
          ∗ Pipeline.scopedRestBut (Ix := Unit) (Name := ℕ) (U := UR sig nD τ) (Lvl := ℕ) (Val := Elt F) spec13 c [cc13_scratch0, cc13_scratch1]) ∗ (∃ r, prngReg c r)) := by
  unfold Pipeline.ΦA; rw [scopedRest13_split]; simp only [scM13_0, scM13_1, owns_whole]; try rfl

/-! ## What the accumulators hold after each row block -/

/-- After row block 0: the block's contribution added to zero; after row block `n + 1`: its contribution added to
    what row block `n` left. First the weighted sums, then the column degrees. -/
def accAt13 (c : Dev nD) : (n : ℕ) → n < cfg13.N → Vec F S4096x64 .f32 × Vec F S1x4096 .f32
  | 0, hn => (k1_pay6 (iblk13 V c 0 ⟨0, hn⟩) (iblk13 V c 1 ⟨0, hn⟩) (k1_pay2 (F := F)), k1_pay7 (iblk13 V c 0 ⟨0, hn⟩) (k1_pay3 (F := F)))
  | n + 1, hn => (k1_pay6 (iblk13 V c 0 ⟨n + 1, hn⟩) (iblk13 V c 1 ⟨n + 1, hn⟩) (accAt13 c n (Nat.lt_of_succ_lt hn)).1,
      k1_pay7 (iblk13 V c 0 ⟨n + 1, hn⟩) (accAt13 c n (Nat.lt_of_succ_lt hn)).2)

theorem accAt13_zero (c : Dev nD) (t : Fin cfg13.N) (h0 : t.val = 0) :
    accAt13 V c t.val t.isLt = (k1_pay6 (iblk13 V c 0 t) (iblk13 V c 1 t) (k1_pay2 (F := F)), k1_pay7 (iblk13 V c 0 t) (k1_pay3 (F := F))) := by
  obtain ⟨n, hn⟩ := t
  cases n with
  | zero => rfl
  | succ n => exact absurd h0 (Nat.succ_ne_zero n)

theorem accAt13_pos (c : Dev nD) (t : Fin cfg13.N) (h0 : ¬t.val = 0) :
    accAt13 V c t.val t.isLt = (k1_pay6 (iblk13 V c 0 t) (iblk13 V c 1 t) (accAt13 V c (t.val - 1) (Nat.lt_of_le_of_lt (Nat.sub_le _ _) t.isLt)).1,
      k1_pay7 (iblk13 V c 0 t) (accAt13 V c (t.val - 1) (Nat.lt_of_le_of_lt (Nat.sub_le _ _) t.isLt)).2) := by
  obtain ⟨n, hn⟩ := t
  cases n with
  | zero => exact absurd rfl h0
  | succ n => rfl

/-- The region's invariant before row block `n`: at first what the launch hands it; afterwards the two
    accumulators at what the row block before left. -/
def PhiS13 (c : Dev nD) : (n : ℕ) → n ≤ cfg13.N → sProp 𝕄
  | 0, _ => Pipeline.ΦA spec13 c
  | n + 1, hn => iprop(iprop(iprop(owns (c : Thread nD τ) scM13_0 fullShare (accAt13 V c n hn).1 ∗ owns (c : Thread nD τ) scM13_1 fullShare (accAt13 V c n hn).2)
      ∗ Pipeline.scopedRestBut (Ix := Unit) (Name := ℕ) (U := UR sig nD τ) (Lvl := ℕ) (Val := Elt F) spec13 c [cc13_scratch0, cc13_scratch1]) ∗ (∃ r, prngReg c r))

theorem PhiS13_zero (c : Dev nD) (n : ℕ) (h : n ≤ cfg13.N) (hz : n = 0) : PhiS13 V c n h = Pipeline.ΦA spec13 c := by
  subst hz; rfl

theorem PhiS13_succ (c : Dev nD) (n : ℕ) (hn : n < cfg13.N) :
    PhiS13 V c (n + 1) hn = iprop(iprop(iprop(owns (c : Thread nD τ) scM13_0 fullShare (accAt13 V c n hn).1 ∗ owns (c : Thread nD τ) scM13_1 fullShare (accAt13 V c n hn).2)
      ∗ Pipeline.scopedRestBut (Ix := Unit) (Name := ℕ) (U := UR sig nD τ) (Lvl := ℕ) (Val := Elt F) spec13 c [cc13_scratch0, cc13_scratch1]) ∗ (∃ r, prngReg c r)) := rfl

theorem PhiS13_pos (c : Dev nD) (n : ℕ) (h : n ≤ cfg13.N) (hz : ¬n = 0) :
    PhiS13 V c n h = iprop(iprop(iprop(owns (c : Thread nD τ) scM13_0 fullShare (accAt13 V c (n - 1) (by omega)).1 ∗ owns (c : Thread nD τ) scM13_1 fullShare (accAt13 V c (n - 1) (by omega)).2)
      ∗ Pipeline.scopedRestBut (Ix := Unit) (Name := ℕ) (U := UR sig nD τ) (Lvl := ℕ) (Val := Elt F) spec13 c [cc13_scratch0, cc13_scratch1]) ∗ (∃ r, prngReg c r)) := by
  cases n with
  | zero => exact absurd rfl hz
  | succ n => rfl

/-! ## The pipeline's proof data -/

/-- Region 13's proof data on core `c`: the arrays as the region finds them; after the body at row block `t`
    each input's buffer at its block, the row result's at the block's quotients, the column result's at the
    accumulated quotients (consulted at the last row block only, where it is stored); the invariant above;
    nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => k1_pay5 (iblk13 V c 0 t) (iblk13 V c 2 t)
    | ⟨4, _⟩ => k1_pay1 (accAt13 V c t.val t.isLt).2 (accAt13 V c t.val t.isLt).1
  Φ t := PhiS13 V c t.val (Nat.le_of_lt_succ t.isLt)
  q _ := fullShare
  owed _ := 0

theorem A_eq13 (c : Dev nD) (w : Fin cfg13.W) : (dat13 V c).A w = V c (Pipeline.arrRef spec13 w) := by
  dsimp only [dat13]

theorem PhiS13_castSucc (c : Dev nD) (t : Fin cfg13.N) :
    (dat13 V c).Φ t.castSucc = PhiS13 V c t.val (Nat.le_of_lt t.isLt) := by
  dsimp only [dat13]; simp only [Fin.coe_castSucc]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = k1_pay5 (iblk13 V c 0 t) (iblk13 V c 2 t) := by dsimp only [dat13]
theorem after13_4 (c : Dev nD) (t : Fin cfg13.N) : (dat13 V c).after 4 t = k1_pay1 (accAt13 V c t.val t.isLt).2 (accAt13 V c t.val t.isLt).1 := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d

/-! ## The body obligation -/

/-- What the body is called with at row block `t`, -/
def bodyPre13 (c : Dev nD) (t : Fin cfg13.N) : sProp 𝕄 :=
  iprop((dat13 V c).Φ t.castSucc ∗ (dat13 V c).owesAt () t.castSucc
    ∗ (∃ d, owns (c : Thread nD τ) (ms13_0 t) fullShare ((dat13 V c).before 0 t d))
    ∗ (∃ d, owns (c : Thread nD τ) (ms13_1 t) fullShare ((dat13 V c).before 1 t d))
    ∗ (∃ d, owns (c : Thread nD τ) (ms13_2 t) fullShare ((dat13 V c).before 2 t d))
    ∗ (∃ d, owns (c : Thread nD τ) (ms13_3 t) fullShare ((dat13 V c).before 3 t d))
    ∗ (∃ d, owns (c : Thread nD τ) (ms13_4 t) fullShare ((dat13 V c).before 4 t d)))

/-- and what it returns. -/
def bodyPost13 (c : Dev nD) (t : Fin cfg13.N) : sProp 𝕄 :=
  iprop((dat13 V c).Φ t.succ ∗ (dat13 V c).owesAt () t.succ
    ∗ (dat13 V c).leavesExact 0 t
    ∗ (dat13 V c).leavesExact 1 t
    ∗ (dat13 V c).leavesExact 2 t
    ∗ (dat13 V c).leavesExact 3 t
    ∗ (dat13 V c).leavesExact 4 t)

set_option maxHeartbeats 8000000 in
/-- The body at any row block: the inputs' buffers hold their blocks; the row block's position says which of the
    three runs applies; the invariant hands the body the accumulators at what the row block before left (at anything
    at the first) and takes them back at this row block's contents; nothing is owed throughout. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  rw [kernel_eq13]
  simp only [before13_0, before13_1, before13_2]
  rw [show (dat13 V c).owesAt () t.succ = (dat13 V c).owesAt () t.castSucc from rfl]
  rw [show (dat13 V c).Φ t.succ = PhiS13 V c (t.val + 1) t.isLt from rfl, PhiS13_succ]
  have hN : t.val < 8 := lt_of_lt_of_eq t.isLt (show cfg13.N = 8 from N_13)
  rw [show (dat13 V c).leavesExact 0 t = owns (c : Thread nD τ) (ms13_0 t) fullShare ((dat13 V c).after 0 t) from by
    unfold Dat.leavesExact; rw [liveAt13_0 t], after13_0]
  rw [show (dat13 V c).leavesExact 1 t = owns (c : Thread nD τ) (ms13_1 t) fullShare ((dat13 V c).after 1 t) from by
    unfold Dat.leavesExact; rw [liveAt13_1 t], after13_1]
  rw [show (dat13 V c).leavesExact 2 t = owns (c : Thread nD τ) (ms13_2 t) fullShare ((dat13 V c).after 2 t) from by
    unfold Dat.leavesExact; rw [liveAt13_2 t], after13_2]
  rw [show (dat13 V c).leavesExact 3 t = owns (c : Thread nD τ) (ms13_3 t) fullShare ((dat13 V c).after 3 t) from by
    unfold Dat.leavesExact; rw [liveAt13_3 t], after13_3]
  by_cases h0 : t.val = 0
  · have h1 : ¬t.val = 7 := by omega
    rw [Dat.leavesExact_idle (dat13 V c) 4 t (idleAt13_4 t (fun h => h1 ((condLast_iff t).mp h))) (noFlush13_4 t (fun h => h1 ((condLast_iff t).mp h)))]
    rw [accAt13_zero V c t h0]
    rw [PhiS13_castSucc V c t, PhiS13_zero V c _ _ h0, PhiA13_eq]
    iintro ⟨⟨⟨⟨HS0, HS1⟩, Hrest⟩, Hg⟩, Ho, ⟨%d0, H0⟩, ⟨%d1, H1⟩, ⟨%d2, H2⟩, ⟨%d3, H3⟩, ⟨%d4, H4⟩⟩
    iapply ((runOA c (grid13.coords t) _ _ _ _ _ _ _ _ _ _ _ _ _ _ ((condFirst_iff t).mpr h0) (fun h => h1 ((condLast_iff t).mp h)) (iblk13 V c 0 t) (iblk13 V c 1 t) (iblk13 V c 2 t)).2.2.2 _ Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    iintro ⟨H0, H1, H2, ⟨%e3, H3⟩, H4, ⟨%es0, HS0⟩, ⟨%es1, HS1⟩⟩
    isplitl [HS0 HS1 Hrest Hg]
    · isplitl [HS0 HS1 Hrest]
      · isplitl [HS0 HS1]
        · isplitl [HS0]
          · unfold owns; iexists _; isplitr
            swap; · iexact HS0
            ipureintro; exact pieceOA_s0 c (grid13.coords t) _ _ _ _ _ _ _ _ _ _ _ _ _ _ ((condFirst_iff t).mpr h0) (fun h => h1 ((condLast_iff t).mp h)) (iblk13 V c 0 t) (iblk13 V c 1 t) (iblk13 V c 2 t) _ _
          unfold owns; iexists _; isplitr
          swap; · iexact HS1
          ipureintro; exact pieceOA_s1 c (grid13.coords t) _ _ _ _ _ _ _ _ _ _ _ _ _ _ ((condFirst_iff t).mpr h0) (fun h => h1 ((condLast_iff t).mp h)) (iblk13 V c 0 t) (iblk13 V c 1 t) (iblk13 V c 2 t) _ _
        iexact Hrest
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact pieceOA_o4 c (grid13.coords t) _ _ _ _ _ _ _ _ _ _ _ _ _ _ ((condFirst_iff t).mpr h0) (fun h => h1 ((condLast_iff t).mp h)) (iblk13 V c 0 t) (iblk13 V c 1 t) (iblk13 V c 2 t) _ _
    iexists _; iexact H4
  · by_cases h1 : t.val = 7
    · rw [show (dat13 V c).leavesExact 4 t = owns (c : Thread nD τ) (ms13_4 t) fullShare ((dat13 V c).after 4 t) from by
        unfold Dat.leavesExact; rw [liveAt13_4_C t ((condLast_iff t).mpr h1)], after13_4]
      rw [accAt13_pos V c t h0]
      rw [PhiS13_castSucc V c t, PhiS13_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOC c (grid13.coords t) _ _ _ _ _ _ _ _ _ _ _ _ _ _ (fun h => h0 ((condFirst_iff t).mp h)) ((condLast_iff t).mpr h1) (iblk13 V c 0 t) (iblk13 V c 1 t) (iblk13 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOC_s0 c (grid13.coords t) _ _ _ _ _ _ _ _ _ _ _ _ _ _ (fun h => h0 ((condFirst_iff t).mp h)) ((condLast_iff t).mpr h1) (iblk13 V c 0 t) (iblk13 V c 1 t) (iblk13 V c 2 t) _ _ _ _
            unfold owns; iexists _; isplitr
            swap; · iexact HS1
            ipureintro; exact pieceOC_s1 c (grid13.coords t) _ _ _ _ _ _ _ _ _ _ _ _ _ _ (fun h => h0 ((condFirst_iff t).mp h)) ((condLast_iff t).mpr h1) (iblk13 V c 0 t) (iblk13 V c 1 t) (iblk13 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOC_o4 c (grid13.coords t) _ _ _ _ _ _ _ _ _ _ _ _ _ _ (fun h => h0 ((condFirst_iff t).mp h)) ((condLast_iff t).mpr h1) (iblk13 V c 0 t) (iblk13 V c 1 t) (iblk13 V c 2 t) _ _ _ _
      unfold owns; iexists _; isplitr
      swap; · iexact H4
      ipureintro; exact pieceOC_o5 c (grid13.coords t) _ _ _ _ _ _ _ _ _ _ _ _ _ _ (fun h => h0 ((condFirst_iff t).mp h)) ((condLast_iff t).mpr h1) (iblk13 V c 0 t) (iblk13 V c 1 t) (iblk13 V c 2 t) _ _ _ _
    · rw [Dat.leavesExact_idle (dat13 V c) 4 t (idleAt13_4 t (fun h => h1 ((condLast_iff t).mp h))) (noFlush13_4 t (fun h => h1 ((condLast_iff t).mp h)))]
      rw [accAt13_pos V c t h0]
      rw [PhiS13_castSucc V c t, PhiS13_pos V c _ _ h0]
      iintro ⟨⟨⟨⟨HS0, HS1⟩, Hrest⟩, Hg⟩, Ho, ⟨%d0, H0⟩, ⟨%d1, H1⟩, ⟨%d2, H2⟩, ⟨%d3, H3⟩, ⟨%d4, H4⟩⟩
      iapply ((runOB c (grid13.coords t) _ _ _ _ _ _ _ _ _ _ _ _ _ _ (fun h => h0 ((condFirst_iff t).mp h)) (fun h => h1 ((condLast_iff t).mp h)) (iblk13 V c 0 t) (iblk13 V c 1 t) (iblk13 V c 2 t) _ _).2.2.2 _ Set.univ _)
      isplitl [H0]; · iexact H0
      isplitl [H1]; · iexact H1
      isplitl [H2]; · iexact H2
      isplitl [H3]; · iexists _; iexact H3
      isplitl [H4]; · iexact H4
      isplitl [HS0]; · iexact HS0
      isplitl [HS1]; · iexact HS1
      iintro ⟨H0, H1, H2, ⟨%e3, H3⟩, H4, ⟨%es0, HS0⟩, ⟨%es1, HS1⟩⟩
      isplitl [HS0 HS1 Hrest Hg]
      · isplitl [HS0 HS1 Hrest]
        · isplitl [HS0 HS1]
          · isplitl [HS0]
            · unfold owns; iexists _; isplitr
              swap; · iexact HS0
              ipureintro; exact pieceOB_s0 c (grid13.coords t) _ _ _ _ _ _ _ _ _ _ _ _ _ _ (fun h => h0 ((condFirst_iff t).mp h)) (fun h => h1 ((condLast_iff t).mp h)) (iblk13 V c 0 t) (iblk13 V c 1 t) (iblk13 V c 2 t) _ _ _ _
            unfold owns; iexists _; isplitr
            swap; · iexact HS1
            ipureintro; exact pieceOB_s1 c (grid13.coords t) _ _ _ _ _ _ _ _ _ _ _ _ _ _ (fun h => h0 ((condFirst_iff t).mp h)) (fun h => h1 ((condLast_iff t).mp h)) (iblk13 V c 0 t) (iblk13 V c 1 t) (iblk13 V c 2 t) _ _ _ _
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact pieceOB_o4 c (grid13.coords t) _ _ _ _ _ _ _ _ _ _ _ _ _ _ (fun h => h0 ((condFirst_iff t).mp h)) (fun h => h1 ((condLast_iff t).mp h)) (iblk13 V c 0 t) (iblk13 V c 1 t) (iblk13 V c 2 t) _ _ _ _
      iexists _; iexact H4

/-- The library's body obligation, at every row block. -/
theorem body_obligation13 (c : Dev nD) : BodyObligation (dat13 (F := F) V c) (defs₀ (F := F)) Variants.none () Set.univ := fun t => by
  rw [bigSep_W13, bigSep_W13]
  exact sound_body13 V c t

/-- What the launch hands the region is the invariant before the first row block. -/
theorem hin13 (c : Dev nD) : Pipeline.ΦA spec13 c ⊢ (dat13 V c).Φ 0 := by
  rw [show (dat13 V c).Φ 0 = PhiS13 V c 0 (Nat.zero_le _) from rfl, PhiS13_zero V c 0 _ rfl]
  try exact Idealize.SL.BI.Entails.refl _

/-- After the last row block the invariant gives back what the launch handed over: the accumulators' contents are forgotten. -/
theorem hout13 (c : Dev nD) : (dat13 V c).Φ (Fin.last cfg13.N) ⊢ Pipeline.ΦA spec13 c := by
  rw [show (dat13 V c).Φ (Fin.last cfg13.N) = PhiS13 V c (Fin.last cfg13.N).val (Nat.le_of_lt_succ (Fin.last cfg13.N).isLt) from rfl,
    PhiS13_pos V c _ _ (by rw [Fin.val_last]; have : cfg13.N = 8 := N_13; omega), PhiA13_eq]
  iintro ⟨⟨⟨HS0, HS1⟩, Hrest⟩, Hg⟩
  isplitl [HS0 HS1 Hrest]
  · isplitl [HS0 HS1]
    · isplitl [HS0]
      · iexists _; iexact HS0
      iexists _; iexact HS1
    iexact Hrest
  iexact Hg

end Region13

end Cert.Kernel.Hand

end
-- ==== Proof.K.Chain.lean ====
import proofs.«103934_j28484223107660_1_alg».proof.Proof.K.Reg0
import proofs.«103934_j28484223107660_1_alg».proof.Proof.K.Reg1
import proofs.«103934_j28484223107660_1_alg».proof.Proof.K.Reg2
import proofs.«103934_j28484223107660_1_alg».proof.Proof.K.Reg3
import proofs.«103934_j28484223107660_1_alg».proof.Proof.K.Reg4
import proofs.«103934_j28484223107660_1_alg».proof.Proof.K.Reg5
import proofs.«103934_j28484223107660_1_alg».proof.Proof.K.Reg6
import proofs.«103934_j28484223107660_1_alg».proof.Proof.K.Reg7
import proofs.«103934_j28484223107660_1_alg».proof.Proof.K.Reg8
import proofs.«103934_j28484223107660_1_alg».proof.Proof.K.Reg9
import proofs.«103934_j28484223107660_1_alg».proof.Proof.K.Reg10
import proofs.«103934_j28484223107660_1_alg».proof.Proof.K.Reg11
import proofs.«103934_j28484223107660_1_alg».proof.Proof.K.Reg12
import proofs.«103934_j28484223107660_1_alg».proof.Proof.K.Reg13
import proofs.«103934_j28484223107660_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The contents of the core's buffers between the items of the program, item after item: a host line's results
    where it writes them, a region's two results at what its write-backs leave (the library's fold of the flushed
    blocks), every other buffer as it was. -/

variable (m : (ℓ : Loc nD τ sig) → Buf (Elt F) ℓ)

/-- After the first host lines. -/
abbrev W1 (c : Dev nD) : Valuation τ sig (Elt F) := StableHlo.after hostOps0 (fun b => m (c, b))

/-- The buffers as region 0 finds them, read at the core's references. -/
abbrev Vin0 : (c : Dev nD) → (b : Ref sig .tc) → Buf (Elt F) ((c : Thread nD τ).loc b) := fun c b => W1 m c b
/-- Region 0's arrays at what the pipeline leaves, every other buffer as entered. -/
def X2 (c : Dev nD) : Valuation τ sig (Elt F) :=
  Pipeline.withArrays spec0 c (W1 m c) fun w => (dat0 (Vin0 m) c).arrAt w cfg0.N
/-- After region 0: its two results changed. -/
abbrev W2 (c : Dev nD) : Valuation τ sig (Elt F) :=
  Function.update (Function.update (W1 m c) main_v2_0 (X2 m c main_v2_0)) main_v2_1 (X2 m c main_v2_1)
/-- After the host lines that follow region 0. -/
abbrev W3 (c : Dev nD) : Valuation τ sig (Elt F) := StableHlo.after hostOps1 (W2 m c)

/-- The buffers as region 1 finds them, read at the core's references. -/
abbrev Vin1 : (c : Dev nD) → (b : Ref sig .tc) → Buf (Elt F) ((c : Thread nD τ).loc b) := fun c b => W3 m c b
/-- Region 1's arrays at what the pipeline leaves, every other buffer as entered. -/
def X4 (c : Dev nD) : Valuation τ sig (Elt F) :=
  Pipeline.withArrays spec1 c (W3 m c) fun w => (dat1 (Vin1 m) c).arrAt w cfg1.N
/-- After region 1: its two results changed. -/
abbrev W4 (c : Dev nD) : Valuation τ sig (Elt F) :=
  Function.update (Function.update (W3 m c) main_v5_0 (X4 m c main_v5_0)) main_v5_1 (X4 m c main_v5_1)
/-- After the host lines that follow region 1. -/
abbrev W5 (c : Dev nD) : Valuation τ sig (Elt F) := StableHlo.after hostOps2 (W4 m c)

/-- The buffers as region 2 finds them, read at the core's references. -/
abbrev Vin2 : (c : Dev nD) → (b : Ref sig .tc) → Buf (Elt F) ((c : Thread nD τ).loc b) := fun c b => W5 m c b
/-- Region 2's arrays at what the pipeline leaves, every other buffer as entered. -/
def X6 (c : Dev nD) : Valuation τ sig (Elt F) :=
  Pipeline.withArrays spec2 c (W5 m c) fun w => (dat2 (Vin2 m) c).arrAt w cfg2.N
/-- After region 2: its two results changed. -/
abbrev W6 (c : Dev nD) : Valuation τ sig (Elt F) :=
  Function.update (Function.update (W5 m c) main_v14_0 (X6 m c main_v14_0)) main_v14_1 (X6 m c main_v14_1)
/-- After the host lines that follow region 2. -/
abbrev W7 (c : Dev nD) : Valuation τ sig (Elt F) := StableHlo.after hostOps3 (W6 m c)

/-- The buffers as region 3 finds them, read at the core's references. -/
abbrev Vin3 : (c : Dev nD) → (b : Ref sig .tc) → Buf (Elt F) ((c : Thread nD τ).loc b) := fun c b => W7 m c b
/-- Region 3's arrays at what the pipeline leaves, every other buffer as entered. -/
def X8 (c : Dev nD) : Valuation τ sig (Elt F) :=
  Pipeline.withArrays spec3 c (W7 m c) fun w => (dat3 (Vin3 m) c).arrAt w cfg3.N
/-- After region 3: its two results changed. -/
abbrev W8 (c : Dev nD) : Valuation τ sig (Elt F) :=
  Function.update (Function.update (W7 m c) main_v17_0 (X8 m c main_v17_0)) main_v17_1 (X8 m c main_v17_1)
/-- After the host lines that follow region 3. -/
abbrev W9 (c : Dev nD) : Valuation τ sig (Elt F) := StableHlo.after hostOps4 (W8 m c)

/-- The buffers as region 4 finds them, read at the core's references. -/
abbrev Vin4 : (c : Dev nD) → (b : Ref sig .tc) → Buf (Elt F) ((c : Thread nD τ).loc b) := fun c b => W9 m c b
/-- Region 4's arrays at what the pipeline leaves, every other buffer as entered. -/
def X10 (c : Dev nD) : Valuation τ sig (Elt F) :=
  Pipeline.withArrays spec4 c (W9 m c) fun w => (dat4 (Vin4 m) c).arrAt w cfg4.N
/-- After region 4: its two results changed. -/
abbrev W10 (c : Dev nD) : Valuation τ sig (Elt F) :=
  Function.update (Function.update (W9 m c) main_v26_0 (X10 m c main_v26_0)) main_v26_1 (X10 m c main_v26_1)
/-- After the host lines that follow region 4. -/
abbrev W11 (c : Dev nD) : Valuation τ sig (Elt F) := StableHlo.after hostOps5 (W10 m c)

/-- The buffers as region 5 finds them, read at the core's references. -/
abbrev Vin5 : (c : Dev nD) → (b : Ref sig .tc) → Buf (Elt F) ((c : Thread nD τ).loc b) := fun c b => W11 m c b
/-- Region 5's arrays at what the pipeline leaves, every other buffer as entered. -/
def X12 (c : Dev nD) : Valuation τ sig (Elt F) :=
  Pipeline.withArrays spec5 c (W11 m c) fun w => (dat5 (Vin5 m) c).arrAt w cfg5.N
/-- After region 5: its two results changed. -/
abbrev W12 (c : Dev nD) : Valuation τ sig (Elt F) :=
  Function.update (Function.update (W11 m c) main_v29_0 (X12 m c main_v29_0)) main_v29_1 (X12 m c main_v29_1)
/-- After the host lines that follow region 5. -/
abbrev W13 (c : Dev nD) : Valuation τ sig (Elt F) := StableHlo.after hostOps6 (W12 m c)

/-- The buffers as region 6 finds them, read at the core's references. -/
abbrev Vin6 : (c : Dev nD) → (b : Ref sig .tc) → Buf (Elt F) ((c : Thread nD τ).loc b) := fun c b => W13 m c b
/-- Region 6's arrays at what the pipeline leaves, every other buffer as entered. -/
def X14 (c : Dev nD) : Valuation τ sig (Elt F) :=
  Pipeline.withArrays spec6 c (W13 m c) fun w => (dat6 (Vin6 m) c).arrAt w cfg6.N
/-- After region 6: its two results changed. -/
abbrev W14 (c : Dev nD) : Valuation τ sig (Elt F) :=
  Function.update (Function.update (W13 m c) main_v38_0 (X14 m c main_v38_0)) main_v38_1 (X14 m c main_v38_1)
/-- After the host lines that follow region 6. -/
abbrev W15 (c : Dev nD) : Valuation τ sig (Elt F) := StableHlo.after hostOps7 (W14 m c)

/-- The buffers as region 7 finds them, read at the core's references. -/
abbrev Vin7 : (c : Dev nD) → (b : Ref sig .tc) → Buf (Elt F) ((c : Thread nD τ).loc b) := fun c b => W15 m c b
/-- Region 7's arrays at what the pipeline leaves, every other buffer as entered. -/
def X16 (c : Dev nD) : Valuation τ sig (Elt F) :=
  Pipeline.withArrays spec7 c (W15 m c) fun w => (dat7 (Vin7 m) c).arrAt w cfg7.N
/-- After region 7: its two results changed. -/
abbrev W16 (c : Dev nD) : Valuation τ sig (Elt F) :=
  Function.update (Function.update (W15 m c) main_v41_0 (X16 m c main_v41_0)) main_v41_1 (X16 m c main_v41_1)
/-- After the host lines that follow region 7. -/
abbrev W17 (c : Dev nD) : Valuation τ sig (Elt F) := StableHlo.after hostOps8 (W16 m c)

/-- The buffers as region 8 finds them, read at the core's references. -/
abbrev Vin8 : (c : Dev nD) → (b : Ref sig .tc) → Buf (Elt F) ((c : Thread nD τ).loc b) := fun c b => W17 m c b
/-- Region 8's arrays at what the pipeline leaves, every other buffer as entered. -/
def X18 (c : Dev nD) : Valuation τ sig (Elt F) :=
  Pipeline.withArrays spec8 c (W17 m c) fun w => (dat8 (Vin8 m) c).arrAt w cfg8.N
/-- After region 8: its two results changed. -/
abbrev W18 (c : Dev nD) : Valuation τ sig (Elt F) :=
  Function.update (Function.update (W17 m c) main_v50_0 (X18 m c main_v50_0)) main_v50_1 (X18 m c main_v50_1)
/-- After the host lines that follow region 8. -/
abbrev W19 (c : Dev nD) : Valuation τ sig (Elt F) := StableHlo.after hostOps9 (W18 m c)

/-- The buffers as region 9 finds them, read at the core's references. -/
abbrev Vin9 : (c : Dev nD) → (b : Ref sig .tc) → Buf (Elt F) ((c : Thread nD τ).loc b) := fun c b => W19 m c b
/-- Region 9's arrays at what the pipeline leaves, every other buffer as entered. -/
def X20 (c : Dev nD) : Valuation τ sig (Elt F) :=
  Pipeline.withArrays spec9 c (W19 m c) fun w => (dat9 (Vin9 m) c).arrAt w cfg9.N
/-- After region 9: its two results changed. -/
abbrev W20 (c : Dev nD) : Valuation τ sig (Elt F) :=
  Function.update (Function.update (W19 m c) main_v53_0 (X20 m c main_v53_0)) main_v53_1 (X20 m c main_v53_1)
/-- After the host lines that follow region 9. -/
abbrev W21 (c : Dev nD) : Valuation τ sig (Elt F) := StableHlo.after hostOps10 (W20 m c)

/-- The buffers as region 10 finds them, read at the core's references. -/
abbrev Vin10 : (c : Dev nD) → (b : Ref sig .tc) → Buf (Elt F) ((c : Thread nD τ).loc b) := fun c b => W21 m c b
/-- Region 10's arrays at what the pipeline leaves, every other buffer as entered. -/
def X22 (c : Dev nD) : Valuation τ sig (Elt F) :=
  Pipeline.withArrays spec10 c (W21 m c) fun w => (dat10 (Vin10 m) c).arrAt w cfg10.N
/-- After region 10: its two results changed. -/
abbrev W22 (c : Dev nD) : Valuation τ sig (Elt F) :=
  Function.update (Function.update (W21 m c) main_v63_0 (X22 m c main_v63_0)) main_v63_1 (X22 m c main_v63_1)
/-- After the host lines that follow region 10. -/
abbrev W23 (c : Dev nD) : Valuation τ sig (Elt F) := StableHlo.after hostOps11 (W22 m c)

/-- The buffers as region 11 finds them, read at the core's references. -/
abbrev Vin11 : (c : Dev nD) → (b : Ref sig .tc) → Buf (Elt F) ((c : Thread nD τ).loc b) := fun c b => W23 m c b
/-- Region 11's arrays at what the pipeline leaves, every other buffer as entered. -/
def X24 (c : Dev nD) : Valuation τ sig (Elt F) :=
  Pipeline.withArrays spec11 c (W23 m c) fun w => (dat11 (Vin11 m) c).arrAt w cfg11.N
/-- After region 11: its two results changed. -/
abbrev W24 (c : Dev nD) : Valuation τ sig (Elt F) :=
  Function.update (Function.update (W23 m c) main_v66_0 (X24 m c main_v66_0)) main_v66_1 (X24 m c main_v66_1)
/-- After the host lines that follow region 11. -/
abbrev W25 (c : Dev nD) : Valuation τ sig (Elt F) := StableHlo.after hostOps12 (W24 m c)

/-- The buffers as region 12 finds them, read at the core's references. -/
abbrev Vin12 : (c : Dev nD) → (b : Ref sig .tc) → Buf (Elt F) ((c : Thread nD τ).loc b) := fun c b => W25 m c b
/-- Region 12's arrays at what the pipeline leaves, every other buffer as entered. -/
def X26 (c : Dev nD) : Valuation τ sig (Elt F) :=
  Pipeline.withArrays spec12 c (W25 m c) fun w => (dat12 (Vin12 m) c).arrAt w cfg12.N
/-- After region 12: its two results changed. -/
abbrev W26 (c : Dev nD) : Valuation τ sig (Elt F) :=
  Function.update (Function.update (W25 m c) main_v76_0 (X26 m c main_v76_0)) main_v76_1 (X26 m c main_v76_1)
/-- After the host lines that follow region 12. -/
abbrev W27 (c : Dev nD) : Valuation τ sig (Elt F) := StableHlo.after hostOps13 (W26 m c)

/-- The buffers as region 13 finds them, read at the core's references. -/
abbrev Vin13 : (c : Dev nD) → (b : Ref sig .tc) → Buf (Elt F) ((c : Thread nD τ).loc b) := fun c b => W27 m c b
/-- Region 13's arrays at what the pipeline leaves, every other buffer as entered. -/
def X28 (c : Dev nD) : Valuation τ sig (Elt F) :=
  Pipeline.withArrays spec13 c (W27 m c) fun w => (dat13 (Vin13 m) c).arrAt w cfg13.N
/-- After region 13: its two results changed. -/
abbrev W28 (c : Dev nD) : Valuation τ sig (Elt F) :=
  Function.update (Function.update (W27 m c) main_v79_0 (X28 m c main_v79_0)) main_v79_1 (X28 m c main_v79_1)
/-- After the host lines that follow region 13. -/
abbrev W29 (c : Dev nD) : Valuation τ sig (Elt F) := StableHlo.after hostOps14 (W28 m c)

/-- What the regions leave, by item. -/
def outsAll : Outs (F := F) := fun J r c =>
  match J with
  | 2 => X2 m c r
  | 4 => X4 m c r
  | 6 => X6 m c r
  | 8 => X8 m c r
  | 10 => X10 m c r
  | 12 => X12 m c r
  | 14 => X14 m c r
  | 16 => X16 m c r
  | 18 => X18 m c r
  | 20 => X20 m c r
  | 22 => X22 m c r
  | 24 => X24 m c r
  | 26 => X26 m c r
  | 28 => X28 m c r
  | _ => m (c, r)

/-- No variant, no level: no core owes another anything. -/
abbrev 𝒱z : Variants := Variants.none
abbrev Lz : GSem nD τ sig → Finset Unit := fun _ => ∅
abbrev lvz : GSem nD τ sig → Unit → ℕ := fun _ _ => 0
/-- What rides beside the buffers through every item: the core's generator register at some state and its dues, none. -/
abbrev Rr (c : Dev nD) : sProp 𝕄 := iprop((∃ r, prngReg c r) ∗ ∃ W, owes (c : Thread nD τ) (0 : CellTallies nD τ sig Unit) W)

/-- Every region's proof data, each at its region's entry contents. -/
def pdats : (p : Fin 14) → (c : Dev nD) → Dat τ (Elt F) Unit ℕ (UR sig nD τ) ℕ (cfgs p) c
  | ⟨0, _⟩ => fun c => dat0 (Vin0 m) c
  | ⟨1, _⟩ => fun c => dat1 (Vin1 m) c
  | ⟨2, _⟩ => fun c => dat2 (Vin2 m) c
  | ⟨3, _⟩ => fun c => dat3 (Vin3 m) c
  | ⟨4, _⟩ => fun c => dat4 (Vin4 m) c
  | ⟨5, _⟩ => fun c => dat5 (Vin5 m) c
  | ⟨6, _⟩ => fun c => dat6 (Vin6 m) c
  | ⟨7, _⟩ => fun c => dat7 (Vin7 m) c
  | ⟨8, _⟩ => fun c => dat8 (Vin8 m) c
  | ⟨9, _⟩ => fun c => dat9 (Vin9 m) c
  | ⟨10, _⟩ => fun c => dat10 (Vin10 m) c
  | ⟨11, _⟩ => fun c => dat11 (Vin11 m) c
  | ⟨12, _⟩ => fun c => dat12 (Vin12 m) c
  | ⟨13, _⟩ => fun c => dat13 (Vin13 m) c

/-! The contents between items, stated over what the regions leave, are the ones above. -/
theorem VW1 (c : Dev nD) : V1 m c = W1 m c := rfl
theorem VW2 (c : Dev nD) : V2 m (outsAll m) c = W2 m c := by
  show Function.update (Function.update (V1 m c) main_v2_0 (outsAll m 2 main_v2_0 c)) main_v2_1 (outsAll m 2 main_v2_1 c) = _
  rw [VW1 m c]; rfl
theorem VW3 (c : Dev nD) : V3 m (outsAll m) c = W3 m c := congrArg (StableHlo.after hostOps1) (VW2 m c)
theorem VW4 (c : Dev nD) : V4 m (outsAll m) c = W4 m c := by
  show Function.update (Function.update (V3 m (outsAll m) c) main_v5_0 (outsAll m 4 main_v5_0 c)) main_v5_1 (outsAll m 4 main_v5_1 c) = _
  rw [VW3 m c]; rfl
theorem VW5 (c : Dev nD) : V5 m (outsAll m) c = W5 m c := congrArg (StableHlo.after hostOps2) (VW4 m c)
theorem VW6 (c : Dev nD) : V6 m (outsAll m) c = W6 m c := by
  show Function.update (Function.update (V5 m (outsAll m) c) main_v14_0 (outsAll m 6 main_v14_0 c)) main_v14_1 (outsAll m 6 main_v14_1 c) = _
  rw [VW5 m c]; rfl
theorem VW7 (c : Dev nD) : V7 m (outsAll m) c = W7 m c := congrArg (StableHlo.after hostOps3) (VW6 m c)
theorem VW8 (c : Dev nD) : V8 m (outsAll m) c = W8 m c := by
  show Function.update (Function.update (V7 m (outsAll m) c) main_v17_0 (outsAll m 8 main_v17_0 c)) main_v17_1 (outsAll m 8 main_v17_1 c) = _
  rw [VW7 m c]; rfl
theorem VW9 (c : Dev nD) : V9 m (outsAll m) c = W9 m c := congrArg (StableHlo.after hostOps4) (VW8 m c)
theorem VW10 (c : Dev nD) : V10 m (outsAll m) c = W10 m c := by
  show Function.update (Function.update (V9 m (outsAll m) c) main_v26_0 (outsAll m 10 main_v26_0 c)) main_v26_1 (outsAll m 10 main_v26_1 c) = _
  rw [VW9 m c]; rfl
theorem VW11 (c : Dev nD) : V11 m (outsAll m) c = W11 m c := congrArg (StableHlo.after hostOps5) (VW10 m c)
theorem VW12 (c : Dev nD) : V12 m (outsAll m) c = W12 m c := by
  show Function.update (Function.update (V11 m (outsAll m) c) main_v29_0 (outsAll m 12 main_v29_0 c)) main_v29_1 (outsAll m 12 main_v29_1 c) = _
  rw [VW11 m c]; rfl
theorem VW13 (c : Dev nD) : V13 m (outsAll m) c = W13 m c := congrArg (StableHlo.after hostOps6) (VW12 m c)
theorem VW14 (c : Dev nD) : V14 m (outsAll m) c = W14 m c := by
  show Function.update (Function.update (V13 m (outsAll m) c) main_v38_0 (outsAll m 14 main_v38_0 c)) main_v38_1 (outsAll m 14 main_v38_1 c) = _
  rw [VW13 m c]; rfl
theorem VW15 (c : Dev nD) : V15 m (outsAll m) c = W15 m c := congrArg (StableHlo.after hostOps7) (VW14 m c)
theorem VW16 (c : Dev nD) : V16 m (outsAll m) c = W16 m c := by
  show Function.update (Function.update (V15 m (outsAll m) c) main_v41_0 (outsAll m 16 main_v41_0 c)) main_v41_1 (outsAll m 16 main_v41_1 c) = _
  rw [VW15 m c]; rfl
theorem VW17 (c : Dev nD) : V17 m (outsAll m) c = W17 m c := congrArg (StableHlo.after hostOps8) (VW16 m c)
theorem VW18 (c : Dev nD) : V18 m (outsAll m) c = W18 m c := by
  show Function.update (Function.update (V17 m (outsAll m) c) main_v50_0 (outsAll m 18 main_v50_0 c)) main_v50_1 (outsAll m 18 main_v50_1 c) = _
  rw [VW17 m c]; rfl
theorem VW19 (c : Dev nD) : V19 m (outsAll m) c = W19 m c := congrArg (StableHlo.after hostOps9) (VW18 m c)
theorem VW20 (c : Dev nD) : V20 m (outsAll m) c = W20 m c := by
  show Function.update (Function.update (V19 m (outsAll m) c) main_v53_0 (outsAll m 20 main_v53_0 c)) main_v53_1 (outsAll m 20 main_v53_1 c) = _
  rw [VW19 m c]; rfl
theorem VW21 (c : Dev nD) : V21 m (outsAll m) c = W21 m c := congrArg (StableHlo.after hostOps10) (VW20 m c)
theorem VW22 (c : Dev nD) : V22 m (outsAll m) c = W22 m c := by
  show Function.update (Function.update (V21 m (outsAll m) c) main_v63_0 (outsAll m 22 main_v63_0 c)) main_v63_1 (outsAll m 22 main_v63_1 c) = _
  rw [VW21 m c]; rfl
theorem VW23 (c : Dev nD) : V23 m (outsAll m) c = W23 m c := congrArg (StableHlo.after hostOps11) (VW22 m c)
theorem VW24 (c : Dev nD) : V24 m (outsAll m) c = W24 m c := by
  show Function.update (Function.update (V23 m (outsAll m) c) main_v66_0 (outsAll m 24 main_v66_0 c)) main_v66_1 (outsAll m 24 main_v66_1 c) = _
  rw [VW23 m c]; rfl
theorem VW25 (c : Dev nD) : V25 m (outsAll m) c = W25 m c := congrArg (StableHlo.after hostOps12) (VW24 m c)
theorem VW26 (c : Dev nD) : V26 m (outsAll m) c = W26 m c := by
  show Function.update (Function.update (V25 m (outsAll m) c) main_v76_0 (outsAll m 26 main_v76_0 c)) main_v76_1 (outsAll m 26 main_v76_1 c) = _
  rw [VW25 m c]; rfl
theorem VW27 (c : Dev nD) : V27 m (outsAll m) c = W27 m c := congrArg (StableHlo.after hostOps13) (VW26 m c)
theorem VW28 (c : Dev nD) : V28 m (outsAll m) c = W28 m c := by
  show Function.update (Function.update (V27 m (outsAll m) c) main_v79_0 (outsAll m 28 main_v79_0 c)) main_v79_1 (outsAll m 28 main_v79_1 c) = _
  rw [VW27 m c]; rfl
theorem VW29 (c : Dev nD) : V29 m (outsAll m) c = W29 m c := congrArg (StableHlo.after hostOps14) (VW28 m c)

end Cert.Kernel.Hand

end
-- ==== Proof.K.Seg0.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 0 as a segment of the program: entered with every unscoped buffer at the contents the items before it
    leave, left with its two results at what its write-backs fold to and every other buffer as entered. -/

theorem outsAt0_0 (c : Dev nD) : X2 m c main_v2_0 = (dat0 (Vin0 m) c).arrAt 3 cfg0.N := by
  unfold X2
  exact Pipeline.withArrays_arr spec0 launch0.win.arr_inj c _ _ 3
theorem outsAt0_1 (c : Dev nD) : X2 m c main_v2_1 = (dat0 (Vin0 m) c).arrAt 4 cfg0.N := by
  unfold X2
  exact Pipeline.withArrays_arr spec0 launch0.win.arr_inj c _ _ 4

/-- A buffer that is neither of the region's results is as entered. -/
theorem Wout0_of (c : Dev nD) (b : Ref sig .tc) (h0 : b ≠ main_v2_0) (h1 : b ≠ main_v2_1) : W2 m c b = W1 m c b := by
  show Function.update (Function.update _ _ _) _ _ (Proc.devRef .tc b) = _
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]
theorem Wout0_0 (c : Dev nD) : W2 m c main_v2_0 = X2 m c main_v2_0 := by
  show Function.update (Function.update _ _ _) _ _ (Proc.devRef .tc main_v2_0) = _
  rw [Function.update_of_ne (StableHlo.devRef_ne_of_ne (by decide) : (Proc.devRef .tc main_v2_0 : DevRef τ sig) ≠ Proc.devRef .tc main_v2_1), Function.update_self]
theorem Wout0_1 (c : Dev nD) : W2 m c main_v2_1 = X2 m c main_v2_1 := by
  show Function.update (Function.update _ _ _) _ _ (Proc.devRef .tc main_v2_1) = _
  rw [Function.update_self]

/-- At the region's exit each of its arrays holds what the pipeline leaves, -/
theorem hF0 (c : Dev nD) (w : Fin cfg0.W) :
    (dat0 (Vin0 m) c).arrAt w cfg0.N = (W2 m c) (Proc.devRef .tc (Pipeline.arrRef spec0 w)) := by
  fin_cases w
  · exact ((dat0 (Vin0 m) c).arrAt_in 0 rfl _).trans ((A_eq0 (Vin0 m) c 0).trans (Wout0_of m c _ (by decide) (by decide)).symm)
  · exact ((dat0 (Vin0 m) c).arrAt_in 1 rfl _).trans ((A_eq0 (Vin0 m) c 1).trans (Wout0_of m c _ (by decide) (by decide)).symm)
  · exact ((dat0 (Vin0 m) c).arrAt_in 2 rfl _).trans ((A_eq0 (Vin0 m) c 2).trans (Wout0_of m c _ (by decide) (by decide)).symm)
  · exact ((Wout0_0 m c).trans (outsAt0_0 m c)).symm
  · exact ((Wout0_1 m c).trans (outsAt0_1 m c)).symm

/-- and every other buffer what it held at entry. -/
theorem hrest0 (c : Dev nD) : ∀ b, b ∉ Finset.univ.image (Pipeline.arrRef spec0) →
    (W2 m c) (Proc.devRef .tc b) = Vin0 m c b := fun b hb =>
  Wout0_of m c b (fun e => hb (Finset.mem_image.mpr ⟨3, Finset.mem_univ _, e.symm⟩)) (fun e => hb (Finset.mem_image.mpr ⟨4, Finset.mem_univ _, e.symm⟩))

set_option backward.isDefEq.respectTransparency.types false in
def reg0 : Pipeline.RegionSeg (pcfgs (F := F)) adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (Vin0 m) c).loose
  hwaits := Pipeline.hwaits_of_owed_zero _ _ _ _ Lz lvz 0 fun _ _ => rfl
  pre c := iprop(StableHlo.held (c : Thread nD τ) (Pipeline.ucRefs τ sig) (W1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (Vin0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from hout0 (Vin0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin0 m c) (fun b => (W2 m c) (Proc.devRef .tc b)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 1 as a segment of the program: entered with every unscoped buffer at the contents the items before it
    leave, left with its two results at what its write-backs fold to and every other buffer as entered. -/

theorem outsAt1_0 (c : Dev nD) : X4 m c main_v5_0 = (dat1 (Vin1 m) c).arrAt 3 cfg1.N := by
  unfold X4
  exact Pipeline.withArrays_arr spec1 launch1.win.arr_inj c _ _ 3
theorem outsAt1_1 (c : Dev nD) : X4 m c main_v5_1 = (dat1 (Vin1 m) c).arrAt 4 cfg1.N := by
  unfold X4
  exact Pipeline.withArrays_arr spec1 launch1.win.arr_inj c _ _ 4

/-- A buffer that is neither of the region's results is as entered. -/
theorem Wout1_of (c : Dev nD) (b : Ref sig .tc) (h0 : b ≠ main_v5_0) (h1 : b ≠ main_v5_1) : W4 m c b = W3 m c b := by
  show Function.update (Function.update _ _ _) _ _ (Proc.devRef .tc b) = _
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
theorem Wout1_0 (c : Dev nD) : W4 m c main_v5_0 = X4 m c main_v5_0 := by
  show Function.update (Function.update _ _ _) _ _ (Proc.devRef .tc main_v5_0) = _
  rw [Function.update_of_ne (StableHlo.devRef_ne_of_ne (by decide) : (Proc.devRef .tc main_v5_0 : DevRef τ sig) ≠ Proc.devRef .tc main_v5_1), Function.update_self]
theorem Wout1_1 (c : Dev nD) : W4 m c main_v5_1 = X4 m c main_v5_1 := by
  show Function.update (Function.update _ _ _) _ _ (Proc.devRef .tc main_v5_1) = _
  rw [Function.update_self]

/-- At the region's exit each of its arrays holds what the pipeline leaves, -/
theorem hF1 (c : Dev nD) (w : Fin cfg1.W) :
    (dat1 (Vin1 m) c).arrAt w cfg1.N = (W4 m c) (Proc.devRef .tc (Pipeline.arrRef spec1 w)) := by
  fin_cases w
  · exact ((dat1 (Vin1 m) c).arrAt_in 0 rfl _).trans ((A_eq1 (Vin1 m) c 0).trans (Wout1_of m c _ (by decide) (by decide)).symm)
  · exact ((dat1 (Vin1 m) c).arrAt_in 1 rfl _).trans ((A_eq1 (Vin1 m) c 1).trans (Wout1_of m c _ (by decide) (by decide)).symm)
  · exact ((dat1 (Vin1 m) c).arrAt_in 2 rfl _).trans ((A_eq1 (Vin1 m) c 2).trans (Wout1_of m c _ (by decide) (by decide)).symm)
  · exact ((Wout1_0 m c).trans (outsAt1_0 m c)).symm
  · exact ((Wout1_1 m c).trans (outsAt1_1 m c)).symm

/-- and every other buffer what it held at entry. -/
theorem hrest1 (c : Dev nD) : ∀ b, b ∉ Finset.univ.image (Pipeline.arrRef spec1) →
    (W4 m c) (Proc.devRef .tc b) = Vin1 m c b := fun b hb =>
  Wout1_of m c b (fun e => hb (Finset.mem_image.mpr ⟨3, Finset.mem_univ _, e.symm⟩)) (fun e => hb (Finset.mem_image.mpr ⟨4, Finset.mem_univ _, e.symm⟩))

set_option backward.isDefEq.respectTransparency.types false in
def reg1 : Pipeline.RegionSeg (pcfgs (F := F)) adm (pdats m) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (Vin1 m) c).loose
  hwaits := Pipeline.hwaits_of_owed_zero _ _ _ _ Lz lvz 1 fun _ _ => rfl
  pre c := iprop(StableHlo.held (c : Thread nD τ) (Pipeline.ucRefs τ sig) (W3 m c) ∗ Rr c)
  post c := iprop(StableHlo.held (c : Thread nD τ) (Pipeline.ucRefs τ sig) (W4 m c) ∗ Rr c)
  X c := iprop(∃ r, prngReg c r)
  Y c := iprop(∃ r, prngReg c r)
  Z c := Pipeline.unscopedRest (Ix := Unit) (Name := ℕ) (U := UR sig nD τ) (Lvl := ℕ) spec1 c (Vin1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vin1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from hout1 (Vin1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vin1 m c) (fun b => (W4 m c) (Proc.devRef .tc b)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 2 as a segment of the program: entered with every unscoped buffer at the contents the items before it
    leave, left with its two results at what its write-backs fold to and every other buffer as entered. -/

theorem outsAt2_0 (c : Dev nD) : X6 m c main_v14_0 = (dat2 (Vin2 m) c).arrAt 3 cfg2.N := by
  unfold X6
  exact Pipeline.withArrays_arr spec2 launch2.win.arr_inj c _ _ 3
theorem outsAt2_1 (c : Dev nD) : X6 m c main_v14_1 = (dat2 (Vin2 m) c).arrAt 4 cfg2.N := by
  unfold X6
  exact Pipeline.withArrays_arr spec2 launch2.win.arr_inj c _ _ 4

/-- A buffer that is neither of the region's results is as entered. -/
theorem Wout2_of (c : Dev nD) (b : Ref sig .tc) (h0 : b ≠ main_v14_0) (h1 : b ≠ main_v14_1) : W6 m c b = W5 m c b := by
  show Function.update (Function.update _ _ _) _ _ (Proc.devRef .tc b) = _
  rw [Function.update_of_ne (StableHlo.devRef_ne_of_ne h1 : (Proc.devRef .tc b : DevRef τ sig) ≠ Proc.devRef .tc main_v14_1),
    Function.update_of_ne (StableHlo.devRef_ne_of_ne h0 : (Proc.devRef .tc b : DevRef τ sig) ≠ Proc.devRef .tc main_v14_0)]
theorem Wout2_0 (c : Dev nD) : W6 m c main_v14_0 = X6 m c main_v14_0 := by
  show Function.update (Function.update _ _ _) _ _ (Proc.devRef .tc main_v14_0) = _
  rw [Function.update_of_ne (StableHlo.devRef_ne_of_ne (by decide) : (Proc.devRef .tc main_v14_0 : DevRef τ sig) ≠ Proc.devRef .tc main_v14_1), Function.update_self]
theorem Wout2_1 (c : Dev nD) : W6 m c main_v14_1 = X6 m c main_v14_1 := by
  show Function.update (Function.update _ _ _) _ _ (Proc.devRef .tc main_v14_1) = _
  rw [Function.update_self]

/-- At the region's exit each of its arrays holds what the pipeline leaves, -/
theorem hF2 (c : Dev nD) (w : Fin cfg2.W) :
    (dat2 (Vin2 m) c).arrAt w cfg2.N = (W6 m c) (Proc.devRef .tc (Pipeline.arrRef spec2 w)) := by
  fin_cases w
  · exact ((dat2 (Vin2 m) c).arrAt_in 0 rfl _).trans ((A_eq2 (Vin2 m) c 0).trans (Wout2_of m c _ (by decide) (by decide)).symm)
  · exact ((dat2 (Vin2 m) c).arrAt_in 1 rfl _).trans ((A_eq2 (Vin2 m) c 1).trans (Wout2_of m c _ (by decide) (by decide)).symm)
  · exact ((dat2 (Vin2 m) c).arrAt_in 2 rfl _).trans ((A_eq2 (Vin2 m) c 2).trans (Wout2_of m c _ (by decide) (by decide)).symm)
  · exact ((Wout2_0 m c).trans (outsAt2_0 m c)).symm
  · exact ((Wout2_1 m c).trans (outsAt2_1 m c)).symm

/-- and every other buffer what it held at entry. -/
theorem hrest2 (c : Dev nD) : ∀ b, b ∉ Finset.univ.image (Pipeline.arrRef spec2) →
    (W6 m c) (Proc.devRef .tc b) = Vin2 m c b := fun b hb =>
  Wout2_of m c b (fun e => hb (Finset.mem_image.mpr ⟨3, Finset.mem_univ _, e.symm⟩)) (fun e => hb (Finset.mem_image.mpr ⟨4, Finset.mem_univ _, e.symm⟩))

set_option backward.isDefEq.respectTransparency.types false in
def reg2 : Pipeline.RegionSeg (pcfgs (F := F)) adm (pdats m) () defs₀ 𝒱z Lz lvz 2 where
  win := launch2.win.to₀
  block_pos := launch2.block_pos
  stage_whole := launch2.stage_whole
  K := PEmpty
  osem k := k.elim
  ho := Pipeline.OwnSemFacts.none _
  hbody c := (body_obligation2 (Vin2 m) c).loose
  hwaits := Pipeline.hwaits_of_owed_zero _ _ _ _ Lz lvz 2 fun _ _ => rfl
  pre c := iprop(StableHlo.held (c : Thread nD τ) (Pipeline.ucRefs τ sig) (W5 m c) ∗ Rr c)
  post c := iprop(StableHlo.held (c : Thread nD τ) (Pipeline.ucRefs τ sig) (W6 m c) ∗ Rr c)
  X c := iprop(∃ r, prngReg c r)
  Y c := iprop(∃ r, prngReg c r)
  Z c := Pipeline.unscopedRest (Ix := Unit) (Name := ℕ) (U := UR sig nD τ) (Lvl := ℕ) spec2 c (Vin2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vin2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ Pipeline.ΦA spec2 c from hout2 (Vin2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vin2 m c) (fun b => (W6 m c) (Proc.devRef .tc b)) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 3 as a segment of the program: entered with every unscoped buffer at the contents the items before it
    leave, left with its two results at what its write-backs fold to and every other buffer as entered. -/

theorem outsAt3_0 (c : Dev nD) : X8 m c main_v17_0 = (dat3 (Vin3 m) c).arrAt 3 cfg3.N := by
  unfold X8
  exact Pipeline.withArrays_arr spec3 launch3.win.arr_inj c _ _ 3
theorem outsAt3_1 (c : Dev nD) : X8 m c main_v17_1 = (dat3 (Vin3 m) c).arrAt 4 cfg3.N := by
  unfold X8
  exact Pipeline.withArrays_arr spec3 launch3.win.arr_inj c _ _ 4

/-- A buffer that is neither of the region's results is as entered. -/
theorem Wout3_of (c : Dev nD) (b : Ref sig .tc) (h0 : b ≠ main_v17_0) (h1 : b ≠ main_v17_1) : W8 m c b = W7 m c b := by
  show Function.update (Function.update _ _ _) _ _ (Proc.devRef .tc b) = _
  rw [Function.update_of_ne (StableHlo.devRef_ne_of_ne h1 : (Proc.devRef .tc b : DevRef τ sig) ≠ Proc.devRef .tc main_v17_1),
    Function.update_of_ne (StableHlo.devRef_ne_of_ne h0 : (Proc.devRef .tc b : DevRef τ sig) ≠ Proc.devRef .tc main_v17_0)]
theorem Wout3_0 (c : Dev nD) : W8 m c main_v17_0 = X8 m c main_v17_0 := by
  show Function.update (Function.update _ _ _) _ _ (Proc.devRef .tc main_v17_0) = _
  rw [Function.update_of_ne (StableHlo.devRef_ne_of_ne (by decide) : (Proc.devRef .tc main_v17_0 : DevRef τ sig) ≠ Proc.devRef .tc main_v17_1), Function.update_self]
theorem Wout3_1 (c : Dev nD) : W8 m c main_v17_1 = X8 m c main_v17_1 := by
  show Function.update (Function.update _ _ _) _ _ (Proc.devRef .tc main_v17_1) = _
  rw [Function.update_self]

/-- At the region's exit each of its arrays holds what the pipeline leaves, -/
theorem hF3 (c : Dev nD) (w : Fin cfg3.W) :
    (dat3 (Vin3 m) c).arrAt w cfg3.N = (W8 m c) (Proc.devRef .tc (Pipeline.arrRef spec3 w)) := by
  fin_cases w
  · exact ((dat3 (Vin3 m) c).arrAt_in 0 rfl _).trans ((A_eq3 (Vin3 m) c 0).trans (Wout3_of m c _ (by decide) (by decide)).symm)
  · exact ((dat3 (Vin3 m) c).arrAt_in 1 rfl _).trans ((A_eq3 (Vin3 m) c 1).trans (Wout3_of m c _ (by decide) (by decide)).symm)
  · exact ((dat3 (Vin3 m) c).arrAt_in 2 rfl _).trans ((A_eq3 (Vin3 m) c 2).trans (Wout3_of m c _ (by decide) (by decide)).symm)
  · exact ((Wout3_0 m c).trans (outsAt3_0 m c)).symm
  · exact ((Wout3_1 m c).trans (outsAt3_1 m c)).symm

/-- and every other buffer what it held at entry. -/
theorem hrest3 (c : Dev nD) : ∀ b, b ∉ Finset.univ.image (Pipeline.arrRef spec3) →
    (W8 m c) (Proc.devRef .tc b) = Vin3 m c b := fun b hb =>
  Wout3_of m c b (fun e => hb (Finset.mem_image.mpr ⟨3, Finset.mem_univ _, e.symm⟩)) (fun e => hb (Finset.mem_image.mpr ⟨4, Finset.mem_univ _, e.symm⟩))

set_option backward.isDefEq.respectTransparency.types false in
def reg3 : Pipeline.RegionSeg (pcfgs (F := F)) adm (pdats m) () defs₀ 𝒱z Lz lvz 3 where
  win := launch3.win.to₀
  block_pos := launch3.block_pos
  stage_whole := launch3.stage_whole
  K := PEmpty
  osem k := k.elim
  ho := Pipeline.OwnSemFacts.none _
  hbody c := (body_obligation3 (Vin3 m) c).loose
  hwaits := Pipeline.hwaits_of_owed_zero _ _ _ _ Lz lvz 3 fun _ _ => rfl
  pre c := iprop(StableHlo.held (c : Thread nD τ) (Pipeline.ucRefs τ sig) (W7 m c) ∗ Rr c)
  post c := iprop(StableHlo.held (c : Thread nD τ) (Pipeline.ucRefs τ sig) (W8 m c) ∗ Rr c)
  X c := iprop(∃ r, prngReg c r)
  Y c := iprop(∃ r, prngReg c r)
  Z c := Pipeline.unscopedRest (Ix := Unit) (Name := ℕ) (U := UR sig nD τ) (Lvl := ℕ) spec3 c (Vin3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vin3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none]
    refine (show (pdats m 3 c).Φ (Fin.last _) ⊢ Pipeline.ΦA spec3 c from hout3 (Vin3 m) c).trans ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vin3 m c) (fun b => (W8 m c) (Proc.devRef .tc b)) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 4 as a segment of the program: entered with every unscoped buffer at the contents the items before it
    leave, left with its two results at what its write-backs fold to and every other buffer as entered. -/

theorem outsAt4_0 (c : Dev nD) : X10 m c main_v26_0 = (dat4 (Vin4 m) c).arrAt 3 cfg4.N := by
  unfold X10
  exact Pipeline.withArrays_arr spec4 launch4.win.arr_inj c _ _ 3
theorem outsAt4_1 (c : Dev nD) : X10 m c main_v26_1 = (dat4 (Vin4 m) c).arrAt 4 cfg4.N := by
  unfold X10
  exact Pipeline.withArrays_arr spec4 launch4.win.arr_inj c _ _ 4

/-- A buffer that is neither of the region's results is as entered. -/
theorem Wout4_of (c : Dev nD) (b : Ref sig .tc) (h0 : b ≠ main_v26_0) (h1 : b ≠ main_v26_1) : W10 m c b = W9 m c b := by
  show Function.update (Function.update _ _ _) _ _ (Proc.devRef .tc b) = _
  rw [Function.update_of_ne (StableHlo.devRef_ne_of_ne h1 : (Proc.devRef .tc b : DevRef τ sig) ≠ Proc.devRef .tc main_v26_1),
    Function.update_of_ne (StableHlo.devRef_ne_of_ne h0 : (Proc.devRef .tc b : DevRef τ sig) ≠ Proc.devRef .tc main_v26_0)]
theorem Wout4_0 (c : Dev nD) : W10 m c main_v26_0 = X10 m c main_v26_0 := by
  show Function.update (Function.update _ _ _) _ _ (Proc.devRef .tc main_v26_0) = _
  rw [Function.update_of_ne (StableHlo.devRef_ne_of_ne (by decide) : (Proc.devRef .tc main_v26_0 : DevRef τ sig) ≠ Proc.devRef .tc main_v26_1), Function.update_self]
theorem Wout4_1 (c : Dev nD) : W10 m c main_v26_1 = X10 m c main_v26_1 := by
  show Function.update (Function.update _ _ _) _ _ (Proc.devRef .tc main_v26_1) = _
  rw [Function.update_self]

/-- At the region's exit each of its arrays holds what the pipeline leaves, -/
theorem hF4 (c : Dev nD) (w : Fin cfg4.W) :
    (dat4 (Vin4 m) c).arrAt w cfg4.N = (W10 m c) (Proc.devRef .tc (Pipeline.arrRef spec4 w)) := by
  fin_cases w
  · exact ((dat4 (Vin4 m) c).arrAt_in 0 rfl _).trans ((A_eq4 (Vin4 m) c 0).trans (Wout4_of m c _ (by decide) (by decide)).symm)
  · exact ((dat4 (Vin4 m) c).arrAt_in 1 rfl _).trans ((A_eq4 (Vin4 m) c 1).trans (Wout4_of m c _ (by decide) (by decide)).symm)
  · exact ((dat4 (Vin4 m) c).arrAt_in 2 rfl _).trans ((A_eq4 (Vin4 m) c 2).trans (Wout4_of m c _ (by decide) (by decide)).symm)
  · exact ((Wout4_0 m c).trans (outsAt4_0 m c)).symm
  · exact ((Wout4_1 m c).trans (outsAt4_1 m c)).symm

/-- and every other buffer what it held at entry. -/
theorem hrest4 (c : Dev nD) : ∀ b, b ∉ Finset.univ.image (Pipeline.arrRef spec4) →
    (W10 m c) (Proc.devRef .tc b) = Vin4 m c b := fun b hb =>
  Wout4_of m c b (fun e => hb (Finset.mem_image.mpr ⟨3, Finset.mem_univ _, e.symm⟩)) (fun e => hb (Finset.mem_image.mpr ⟨4, Finset.mem_univ _, e.symm⟩))

set_option backward.isDefEq.respectTransparency.types false in
def reg4 : Pipeline.RegionSeg (pcfgs (F := F)) adm (pdats m) () defs₀ 𝒱z Lz lvz 4 where
  win := launch4.win.to₀
  block_pos := launch4.block_pos
  stage_whole := launch4.stage_whole
  K := PEmpty
  osem k := k.elim
  ho := Pipeline.OwnSemFacts.none _
  hbody c := (body_obligation4 (Vin4 m) c).loose
  hwaits := Pipeline.hwaits_of_owed_zero _ _ _ _ Lz lvz 4 fun _ _ => rfl
  pre c := iprop(StableHlo.held (c : Thread nD τ) (Pipeline.ucRefs τ sig) (W9 m c) ∗ Rr c)
  post c := iprop(StableHlo.held (c : Thread nD τ) (Pipeline.ucRefs τ sig) (W10 m c) ∗ Rr c)
  X c := iprop(∃ r, prngReg c r)
  Y c := iprop(∃ r, prngReg c r)
  Z c := Pipeline.unscopedRest (Ix := Unit) (Name := ℕ) (U := UR sig nD τ) (Lvl := ℕ) spec4 c (Vin4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vin4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine (show (pdats m 4 c).Φ (Fin.last _) ⊢ Pipeline.ΦA spec4 c from hout4 (Vin4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vin4 m c) (fun b => (W10 m c) (Proc.devRef .tc b)) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg5.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 5 as a segment of the program: entered with every unscoped buffer at the contents the items before it
    leave, left with its two results at what its write-backs fold to and every other buffer as entered. -/

theorem outsAt5_0 (c : Dev nD) : X12 m c main_v29_0 = (dat5 (Vin5 m) c).arrAt 3 cfg5.N := by
  unfold X12
  exact Pipeline.withArrays_arr spec5 launch5.win.arr_inj c _ _ 3
theorem outsAt5_1 (c : Dev nD) : X12 m c main_v29_1 = (dat5 (Vin5 m) c).arrAt 4 cfg5.N := by
  unfold X12
  exact Pipeline.withArrays_arr spec5 launch5.win.arr_inj c _ _ 4

/-- A buffer that is neither of the region's results is as entered. -/
theorem Wout5_of (c : Dev nD) (b : Ref sig .tc) (h0 : b ≠ main_v29_0) (h1 : b ≠ main_v29_1) : W12 m c b = W11 m c b := by
  show Function.update (Function.update _ _ _) _ _ (Proc.devRef .tc b) = _
  rw [Function.update_of_ne (StableHlo.devRef_ne_of_ne h1 : (Proc.devRef .tc b : DevRef τ sig) ≠ Proc.devRef .tc main_v29_1),
    Function.update_of_ne (StableHlo.devRef_ne_of_ne h0 : (Proc.devRef .tc b : DevRef τ sig) ≠ Proc.devRef .tc main_v29_0)]
theorem Wout5_0 (c : Dev nD) : W12 m c main_v29_0 = X12 m c main_v29_0 := by
  show Function.update (Function.update _ _ _) _ _ (Proc.devRef .tc main_v29_0) = _
  rw [Function.update_of_ne (StableHlo.devRef_ne_of_ne (by decide) : (Proc.devRef .tc main_v29_0 : DevRef τ sig) ≠ Proc.devRef .tc main_v29_1), Function.update_self]
theorem Wout5_1 (c : Dev nD) : W12 m c main_v29_1 = X12 m c main_v29_1 := by
  show Function.update (Function.update _ _ _) _ _ (Proc.devRef .tc main_v29_1) = _
  rw [Function.update_self]

/-- At the region's exit each of its arrays holds what the pipeline leaves, -/
theorem hF5 (c : Dev nD) (w : Fin cfg5.W) :
    (dat5 (Vin5 m) c).arrAt w cfg5.N = (W12 m c) (Proc.devRef .tc (Pipeline.arrRef spec5 w)) := by
  fin_cases w
  · exact ((dat5 (Vin5 m) c).arrAt_in 0 rfl _).trans ((A_eq5 (Vin5 m) c 0).trans (Wout5_of m c _ (by decide) (by decide)).symm)
  · exact ((dat5 (Vin5 m) c).arrAt_in 1 rfl _).trans ((A_eq5 (Vin5 m) c 1).trans (Wout5_of m c _ (by decide) (by decide)).symm)
  · exact ((dat5 (Vin5 m) c).arrAt_in 2 rfl _).trans ((A_eq5 (Vin5 m) c 2).trans (Wout5_of m c _ (by decide) (by decide)).symm)
  · exact ((Wout5_0 m c).trans (outsAt5_0 m c)).symm
  · exact ((Wout5_1 m c).trans (outsAt5_1 m c)).symm

/-- and every other buffer what it held at entry. -/
theorem hrest5 (c : Dev nD) : ∀ b, b ∉ Finset.univ.image (Pipeline.arrRef spec5) →
    (W12 m c) (Proc.devRef .tc b) = Vin5 m c b := fun b hb =>
  Wout5_of m c b (fun e => hb (Finset.mem_image.mpr ⟨3, Finset.mem_univ _, e.symm⟩)) (fun e => hb (Finset.mem_image.mpr ⟨4, Finset.mem_univ _, e.symm⟩))

set_option backward.isDefEq.respectTransparency.types false in
def reg5 : Pipeline.RegionSeg (pcfgs (F := F)) adm (pdats m) () defs₀ 𝒱z Lz lvz 5 where
  win := launch5.win.to₀
  block_pos := launch5.block_pos
  stage_whole := launch5.stage_whole
  K := PEmpty
  osem k := k.elim
  ho := Pipeline.OwnSemFacts.none _
  hbody c := (body_obligation5 (Vin5 m) c).loose
  hwaits := Pipeline.hwaits_of_owed_zero _ _ _ _ Lz lvz 5 fun _ _ => rfl
  pre c := iprop(StableHlo.held (c : Thread nD τ) (Pipeline.ucRefs τ sig) (W11 m c) ∗ Rr c)
  post c := iprop(StableHlo.held (c : Thread nD τ) (Pipeline.ucRefs τ sig) (W12 m c) ∗ Rr c)
  X c := iprop(∃ r, prngReg c r)
  Y c := iprop(∃ r, prngReg c r)
  Z c := Pipeline.unscopedRest (Ix := Unit) (Name := ℕ) (U := UR sig nD τ) (Lvl := ℕ) spec5 c (Vin5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vin5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none]
    refine (show (pdats m 5 c).Φ (Fin.last _) ⊢ Pipeline.ΦA spec5 c from hout5 (Vin5 m) c).trans ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vin5 m c) (fun b => (W12 m c) (Proc.devRef .tc b)) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg6.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 6 as a segment of the program: entered with every unscoped buffer at the contents the items before it
    leave, left with its two results at what its write-backs fold to and every other buffer as entered. -/

theorem outsAt6_0 (c : Dev nD) : X14 m c main_v38_0 = (dat6 (Vin6 m) c).arrAt 3 cfg6.N := by
  unfold X14
  exact Pipeline.withArrays_arr spec6 launch6.win.arr_inj c _ _ 3
theorem outsAt6_1 (c : Dev nD) : X14 m c main_v38_1 = (dat6 (Vin6 m) c).arrAt 4 cfg6.N := by
  unfold X14
  exact Pipeline.withArrays_arr spec6 launch6.win.arr_inj c _ _ 4

/-- A buffer that is neither of the region's results is as entered. -/
theorem Wout6_of (c : Dev nD) (b : Ref sig .tc) (h0 : b ≠ main_v38_0) (h1 : b ≠ main_v38_1) : W14 m c b = W13 m c b := by
  show Function.update (Function.update _ _ _) _ _ (Proc.devRef .tc b) = _
  rw [Function.update_of_ne (StableHlo.devRef_ne_of_ne h1 : (Proc.devRef .tc b : DevRef τ sig) ≠ Proc.devRef .tc main_v38_1),
    Function.update_of_ne (StableHlo.devRef_ne_of_ne h0 : (Proc.devRef .tc b : DevRef τ sig) ≠ Proc.devRef .tc main_v38_0)]
theorem Wout6_0 (c : Dev nD) : W14 m c main_v38_0 = X14 m c main_v38_0 := by
  show Function.update (Function.update _ _ _) _ _ (Proc.devRef .tc main_v38_0) = _
  rw [Function.update_of_ne (StableHlo.devRef_ne_of_ne (by decide) : (Proc.devRef .tc main_v38_0 : DevRef τ sig) ≠ Proc.devRef .tc main_v38_1), Function.update_self]
theorem Wout6_1 (c : Dev nD) : W14 m c main_v38_1 = X14 m c main_v38_1 := by
  show Function.update (Function.update _ _ _) _ _ (Proc.devRef .tc main_v38_1) = _
  rw [Function.update_self]

/-- At the region's exit each of its arrays holds what the pipeline leaves, -/
theorem hF6 (c : Dev nD) (w : Fin cfg6.W) :
    (dat6 (Vin6 m) c).arrAt w cfg6.N = (W14 m c) (Proc.devRef .tc (Pipeline.arrRef spec6 w)) := by
  fin_cases w
  · exact ((dat6 (Vin6 m) c).arrAt_in 0 rfl _).trans ((A_eq6 (Vin6 m) c 0).trans (Wout6_of m c _ (by decide) (by decide)).symm)
  · exact ((dat6 (Vin6 m) c).arrAt_in 1 rfl _).trans ((A_eq6 (Vin6 m) c 1).trans (Wout6_of m c _ (by decide) (by decide)).symm)
  · exact ((dat6 (Vin6 m) c).arrAt_in 2 rfl _).trans ((A_eq6 (Vin6 m) c 2).trans (Wout6_of m c _ (by decide) (by decide)).symm)
  · exact ((Wout6_0 m c).trans (outsAt6_0 m c)).symm
  · exact ((Wout6_1 m c).trans (outsAt6_1 m c)).symm

/-- and every other buffer what it held at entry. -/
theorem hrest6 (c : Dev nD) : ∀ b, b ∉ Finset.univ.image (Pipeline.arrRef spec6) →
    (W14 m c) (Proc.devRef .tc b) = Vin6 m c b := fun b hb =>
  Wout6_of m c b (fun e => hb (Finset.mem_image.mpr ⟨3, Finset.mem_univ _, e.symm⟩)) (fun e => hb (Finset.mem_image.mpr ⟨4, Finset.mem_univ _, e.symm⟩))

set_option backward.isDefEq.respectTransparency.types false in
def reg6 : Pipeline.RegionSeg (pcfgs (F := F)) adm (pdats m) () defs₀ 𝒱z Lz lvz 6 where
  win := launch6.win.to₀
  block_pos := launch6.block_pos
  stage_whole := launch6.stage_whole
  K := PEmpty
  osem k := k.elim
  ho := Pipeline.OwnSemFacts.none _
  hbody c := (body_obligation6 (Vin6 m) c).loose
  hwaits := Pipeline.hwaits_of_owed_zero _ _ _ _ Lz lvz 6 fun _ _ => rfl
  pre c := iprop(StableHlo.held (c : Thread nD τ) (Pipeline.ucRefs τ sig) (W13 m c) ∗ Rr c)
  post c := iprop(StableHlo.held (c : Thread nD τ) (Pipeline.ucRefs τ sig) (W14 m c) ∗ Rr c)
  X c := iprop(∃ r, prngReg c r)
  Y c := iprop(∃ r, prngReg c r)
  Z c := Pipeline.unscopedRest (Ix := Unit) (Name := ℕ) (U := UR sig nD τ) (Lvl := ℕ) spec6 c (Vin6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (Vin6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none]
    refine (show (pdats m 6 c).Φ (Fin.last _) ⊢ Pipeline.ΦA spec6 c from hout6 (Vin6 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (Vin6 m c) (fun b => (W14 m c) (Proc.devRef .tc b)) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg7.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 7 as a segment of the program: entered with every unscoped buffer at the contents the items before it
    leave, left with its two results at what its write-backs fold to and every other buffer as entered. -/

theorem outsAt7_0 (c : Dev nD) : X16 m c main_v41_0 = (dat7 (Vin7 m) c).arrAt 3 cfg7.N := by
  unfold X16
  exact Pipeline.withArrays_arr spec7 launch7.win.arr_inj c _ _ 3
theorem outsAt7_1 (c : Dev nD) : X16 m c main_v41_1 = (dat7 (Vin7 m) c).arrAt 4 cfg7.N := by
  unfold X16
  exact Pipeline.withArrays_arr spec7 launch7.win.arr_inj c _ _ 4

/-- A buffer that is neither of the region's results is as entered. -/
theorem Wout7_of (c : Dev nD) (b : Ref sig .tc) (h0 : b ≠ main_v41_0) (h1 : b ≠ main_v41_1) : W16 m c b = W15 m c b := by
  show Function.update (Function.update _ _ _) _ _ (Proc.devRef .tc b) = _
  rw [Function.update_of_ne (StableHlo.devRef_ne_of_ne h1 : (Proc.devRef .tc b : DevRef τ sig) ≠ Proc.devRef .tc main_v41_1),
    Function.update_of_ne (StableHlo.devRef_ne_of_ne h0 : (Proc.devRef .tc b : DevRef τ sig) ≠ Proc.devRef .tc main_v41_0)]
theorem Wout7_0 (c : Dev nD) : W16 m c main_v41_0 = X16 m c main_v41_0 := by
  show Function.update (Function.update _ _ _) _ _ (Proc.devRef .tc main_v41_0) = _
  rw [Function.update_of_ne (StableHlo.devRef_ne_of_ne (by decide) : (Proc.devRef .tc main_v41_0 : DevRef τ sig) ≠ Proc.devRef .tc main_v41_1), Function.update_self]
theorem Wout7_1 (c : Dev nD) : W16 m c main_v41_1 = X16 m c main_v41_1 := by
  show Function.update (Function.update _ _ _) _ _ (Proc.devRef .tc main_v41_1) = _
  rw [Function.update_self]

/-- At the region's exit each of its arrays holds what the pipeline leaves, -/
theorem hF7 (c : Dev nD) (w : Fin cfg7.W) :
    (dat7 (Vin7 m) c).arrAt w cfg7.N = (W16 m c) (Proc.devRef .tc (Pipeline.arrRef spec7 w)) := by
  fin_cases w
  · exact ((dat7 (Vin7 m) c).arrAt_in 0 rfl _).trans ((A_eq7 (Vin7 m) c 0).trans (Wout7_of m c _ (by decide) (by decide)).symm)
  · exact ((dat7 (Vin7 m) c).arrAt_in 1 rfl _).trans ((A_eq7 (Vin7 m) c 1).trans (Wout7_of m c _ (by decide) (by decide)).symm)
  · exact ((dat7 (Vin7 m) c).arrAt_in 2 rfl _).trans ((A_eq7 (Vin7 m) c 2).trans (Wout7_of m c _ (by decide) (by decide)).symm)
  · exact ((Wout7_0 m c).trans (outsAt7_0 m c)).symm
  · exact ((Wout7_1 m c).trans (outsAt7_1 m c)).symm

/-- and every other buffer what it held at entry. -/
theorem hrest7 (c : Dev nD) : ∀ b, b ∉ Finset.univ.image (Pipeline.arrRef spec7) →
    (W16 m c) (Proc.devRef .tc b) = Vin7 m c b := fun b hb =>
  Wout7_of m c b (fun e => hb (Finset.mem_image.mpr ⟨3, Finset.mem_univ _, e.symm⟩)) (fun e => hb (Finset.mem_image.mpr ⟨4, Finset.mem_univ _, e.symm⟩))

set_option backward.isDefEq.respectTransparency.types false in
def reg7 : Pipeline.RegionSeg (pcfgs (F := F)) adm (pdats m) () defs₀ 𝒱z Lz lvz 7 where
  win := launch7.win.to₀
  block_pos := launch7.block_pos
  stage_whole := launch7.stage_whole
  K := PEmpty
  osem k := k.elim
  ho := Pipeline.OwnSemFacts.none _
  hbody c := (body_obligation7 (Vin7 m) c).loose
  hwaits := Pipeline.hwaits_of_owed_zero _ _ _ _ Lz lvz 7 fun _ _ => rfl
  pre c := iprop(StableHlo.held (c : Thread nD τ) (Pipeline.ucRefs τ sig) (W15 m c) ∗ Rr c)
  post c := iprop(StableHlo.held (c : Thread nD τ) (Pipeline.ucRefs τ sig) (W16 m c) ∗ Rr c)
  X c := iprop(∃ r, prngReg c r)
  Y c := iprop(∃ r, prngReg c r)
  Z c := Pipeline.unscopedRest (Ix := Unit) (Name := ℕ) (U := UR sig nD τ) (Lvl := ℕ) spec7 c (Vin7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (Vin7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none]
    refine (show (pdats m 7 c).Φ (Fin.last _) ⊢ Pipeline.ΦA spec7 c from hout7 (Vin7 m) c).trans ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (Vin7 m c) (fun b => (W16 m c) (Proc.devRef .tc b)) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg8.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 8 as a segment of the program: entered with every unscoped buffer at the contents the items before it
    leave, left with its two results at what its write-backs fold to and every other buffer as entered. -/

theorem outsAt8_0 (c : Dev nD) : X18 m c main_v50_0 = (dat8 (Vin8 m) c).arrAt 3 cfg8.N := by
  unfold X18
  exact Pipeline.withArrays_arr spec8 launch8.win.arr_inj c _ _ 3
theorem outsAt8_1 (c : Dev nD) : X18 m c main_v50_1 = (dat8 (Vin8 m) c).arrAt 4 cfg8.N := by
  unfold X18
  exact Pipeline.withArrays_arr spec8 launch8.win.arr_inj c _ _ 4

/-- A buffer that is neither of the region's results is as entered. -/
theorem Wout8_of (c : Dev nD) (b : Ref sig .tc) (h0 : b ≠ main_v50_0) (h1 : b ≠ main_v50_1) : W18 m c b = W17 m c b := by
  show Function.update (Function.update _ _ _) _ _ (Proc.devRef .tc b) = _
  rw [Function.update_of_ne (StableHlo.devRef_ne_of_ne h1 : (Proc.devRef .tc b : DevRef τ sig) ≠ Proc.devRef .tc main_v50_1),
    Function.update_of_ne (StableHlo.devRef_ne_of_ne h0 : (Proc.devRef .tc b : DevRef τ sig) ≠ Proc.devRef .tc main_v50_0)]
theorem Wout8_0 (c : Dev nD) : W18 m c main_v50_0 = X18 m c main_v50_0 := by
  show Function.update (Function.update _ _ _) _ _ (Proc.devRef .tc main_v50_0) = _
  rw [Function.update_of_ne (StableHlo.devRef_ne_of_ne (by decide) : (Proc.devRef .tc main_v50_0 : DevRef τ sig) ≠ Proc.devRef .tc main_v50_1), Function.update_self]
theorem Wout8_1 (c : Dev nD) : W18 m c main_v50_1 = X18 m c main_v50_1 := by
  show Function.update (Function.update _ _ _) _ _ (Proc.devRef .tc main_v50_1) = _
  rw [Function.update_self]

/-- At the region's exit each of its arrays holds what the pipeline leaves, -/
theorem hF8 (c : Dev nD) (w : Fin cfg8.W) :
    (dat8 (Vin8 m) c).arrAt w cfg8.N = (W18 m c) (Proc.devRef .tc (Pipeline.arrRef spec8 w)) := by
  fin_cases w
  · exact ((dat8 (Vin8 m) c).arrAt_in 0 rfl _).trans ((A_eq8 (Vin8 m) c 0).trans (Wout8_of m c _ (by decide) (by decide)).symm)
  · exact ((dat8 (Vin8 m) c).arrAt_in 1 rfl _).trans ((A_eq8 (Vin8 m) c 1).trans (Wout8_of m c _ (by decide) (by decide)).symm)
  · exact ((dat8 (Vin8 m) c).arrAt_in 2 rfl _).trans ((A_eq8 (Vin8 m) c 2).trans (Wout8_of m c _ (by decide) (by decide)).symm)
  · exact ((Wout8_0 m c).trans (outsAt8_0 m c)).symm
  · exact ((Wout8_1 m c).trans (outsAt8_1 m c)).symm

/-- and every other buffer what it held at entry. -/
theorem hrest8 (c : Dev nD) : ∀ b, b ∉ Finset.univ.image (Pipeline.arrRef spec8) →
    (W18 m c) (Proc.devRef .tc b) = Vin8 m c b := fun b hb =>
  Wout8_of m c b (fun e => hb (Finset.mem_image.mpr ⟨3, Finset.mem_univ _, e.symm⟩)) (fun e => hb (Finset.mem_image.mpr ⟨4, Finset.mem_univ _, e.symm⟩))

set_option backward.isDefEq.respectTransparency.types false in
def reg8 : Pipeline.RegionSeg (pcfgs (F := F)) adm (pdats m) () defs₀ 𝒱z Lz lvz 8 where
  win := launch8.win.to₀
  block_pos := launch8.block_pos
  stage_whole := launch8.stage_whole
  K := PEmpty
  osem k := k.elim
  ho := Pipeline.OwnSemFacts.none _
  hbody c := (body_obligation8 (Vin8 m) c).loose
  hwaits := Pipeline.hwaits_of_owed_zero _ _ _ _ Lz lvz 8 fun _ _ => rfl
  pre c := iprop(StableHlo.held (c : Thread nD τ) (Pipeline.ucRefs τ sig) (W17 m c) ∗ Rr c)
  post c := iprop(StableHlo.held (c : Thread nD τ) (Pipeline.ucRefs τ sig) (W18 m c) ∗ Rr c)
  X c := iprop(∃ r, prngReg c r)
  Y c := iprop(∃ r, prngReg c r)
  Z c := Pipeline.unscopedRest (Ix := Unit) (Name := ℕ) (U := UR sig nD τ) (Lvl := ℕ) spec8 c (Vin8 m c)
  hentry c := by
    rw [Pipeline.ownSems0_none]
    have hsplit := Pipeline.arrays_of_unscopedBufs (p := 8) (pcfgs (F := F)) adm (pdats m) launch8.win launch8.arr_whole c
      ((pdats m 8 c).share_full fun _ => rfl) (Vin8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none]
    refine (show (pdats m 8 c).Φ (Fin.last _) ⊢ Pipeline.ΦA spec8 c from hout8 (Vin8 m) c).trans ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (Vin8 m c) (fun b => (W18 m c) (Proc.devRef .tc b)) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg9.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 9 as a segment of the program: entered with every unscoped buffer at the contents the items before it
    leave, left with its two results at what its write-backs fold to and every other buffer as entered. -/

theorem outsAt9_0 (c : Dev nD) : X20 m c main_v53_0 = (dat9 (Vin9 m) c).arrAt 3 cfg9.N := by
  unfold X20
  exact Pipeline.withArrays_arr spec9 launch9.win.arr_inj c _ _ 3
theorem outsAt9_1 (c : Dev nD) : X20 m c main_v53_1 = (dat9 (Vin9 m) c).arrAt 4 cfg9.N := by
  unfold X20
  exact Pipeline.withArrays_arr spec9 launch9.win.arr_inj c _ _ 4

/-- A buffer that is neither of the region's results is as entered. -/
theorem Wout9_of (c : Dev nD) (b : Ref sig .tc) (h0 : b ≠ main_v53_0) (h1 : b ≠ main_v53_1) : W20 m c b = W19 m c b := by
  show Function.update (Function.update _ _ _) _ _ (Proc.devRef .tc b) = _
  rw [Function.update_of_ne (StableHlo.devRef_ne_of_ne h1 : (Proc.devRef .tc b : DevRef τ sig) ≠ Proc.devRef .tc main_v53_1),
    Function.update_of_ne (StableHlo.devRef_ne_of_ne h0 : (Proc.devRef .tc b : DevRef τ sig) ≠ Proc.devRef .tc main_v53_0)]
theorem Wout9_0 (c : Dev nD) : W20 m c main_v53_0 = X20 m c main_v53_0 := by
  show Function.update (Function.update _ _ _) _ _ (Proc.devRef .tc main_v53_0) = _
  rw [Function.update_of_ne (StableHlo.devRef_ne_of_ne (by decide) : (Proc.devRef .tc main_v53_0 : DevRef τ sig) ≠ Proc.devRef .tc main_v53_1), Function.update_self]
theorem Wout9_1 (c : Dev nD) : W20 m c main_v53_1 = X20 m c main_v53_1 := by
  show Function.update (Function.update _ _ _) _ _ (Proc.devRef .tc main_v53_1) = _
  rw [Function.update_self]

/-- At the region's exit each of its arrays holds what the pipeline leaves, -/
theorem hF9 (c : Dev nD) (w : Fin cfg9.W) :
    (dat9 (Vin9 m) c).arrAt w cfg9.N = (W20 m c) (Proc.devRef .tc (Pipeline.arrRef spec9 w)) := by
  fin_cases w
  · exact ((dat9 (Vin9 m) c).arrAt_in 0 rfl _).trans ((A_eq9 (Vin9 m) c 0).trans (Wout9_of m c _ (by decide) (by decide)).symm)
  · exact ((dat9 (Vin9 m) c).arrAt_in 1 rfl _).trans ((A_eq9 (Vin9 m) c 1).trans (Wout9_of m c _ (by decide) (by decide)).symm)
  · exact ((dat9 (Vin9 m) c).arrAt_in 2 rfl _).trans ((A_eq9 (Vin9 m) c 2).trans (Wout9_of m c _ (by decide) (by decide)).symm)
  · exact ((Wout9_0 m c).trans (outsAt9_0 m c)).symm
  · exact ((Wout9_1 m c).trans (outsAt9_1 m c)).symm

/-- and every other buffer what it held at entry. -/
theorem hrest9 (c : Dev nD) : ∀ b, b ∉ Finset.univ.image (Pipeline.arrRef spec9) →
    (W20 m c) (Proc.devRef .tc b) = Vin9 m c b := fun b hb =>
  Wout9_of m c b (fun e => hb (Finset.mem_image.mpr ⟨3, Finset.mem_univ _, e.symm⟩)) (fun e => hb (Finset.mem_image.mpr ⟨4, Finset.mem_univ _, e.symm⟩))

set_option backward.isDefEq.respectTransparency.types false in
def reg9 : Pipeline.RegionSeg (pcfgs (F := F)) adm (pdats m) () defs₀ 𝒱z Lz lvz 9 where
  win := launch9.win.to₀
  block_pos := launch9.block_pos
  stage_whole := launch9.stage_whole
  K := PEmpty
  osem k := k.elim
  ho := Pipeline.OwnSemFacts.none _
  hbody c := (body_obligation9 (Vin9 m) c).loose
  hwaits := Pipeline.hwaits_of_owed_zero _ _ _ _ Lz lvz 9 fun _ _ => rfl
  pre c := iprop(StableHlo.held (c : Thread nD τ) (Pipeline.ucRefs τ sig) (W19 m c) ∗ Rr c)
  post c := iprop(StableHlo.held (c : Thread nD τ) (Pipeline.ucRefs τ sig) (W20 m c) ∗ Rr c)
  X c := iprop(∃ r, prngReg c r)
  Y c := iprop(∃ r, prngReg c r)
  Z c := Pipeline.unscopedRest (Ix := Unit) (Name := ℕ) (U := UR sig nD τ) (Lvl := ℕ) spec9 c (Vin9 m c)
  hentry c := by
    rw [Pipeline.ownSems0_none]
    have hsplit := Pipeline.arrays_of_unscopedBufs (p := 9) (pcfgs (F := F)) adm (pdats m) launch9.win launch9.arr_whole c
      ((pdats m 9 c).share_full fun _ => rfl) (Vin9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none]
    refine (show (pdats m 9 c).Φ (Fin.last _) ⊢ Pipeline.ΦA spec9 c from hout9 (Vin9 m) c).trans ?_
    unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (Vin9 m c) (fun b => (W20 m c) (Proc.devRef .tc b)) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg10.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 10 as a segment of the program: entered with every unscoped buffer at the contents the items before it
    leave, left with its two results at what its write-backs fold to and every other buffer as entered. -/

theorem outsAt10_0 (c : Dev nD) : X22 m c main_v63_0 = (dat10 (Vin10 m) c).arrAt 3 cfg10.N := by
  unfold X22
  exact Pipeline.withArrays_arr spec10 launch10.win.arr_inj c _ _ 3
theorem outsAt10_1 (c : Dev nD) : X22 m c main_v63_1 = (dat10 (Vin10 m) c).arrAt 4 cfg10.N := by
  unfold X22
  exact Pipeline.withArrays_arr spec10 launch10.win.arr_inj c _ _ 4

/-- A buffer that is neither of the region's results is as entered. -/
theorem Wout10_of (c : Dev nD) (b : Ref sig .tc) (h0 : b ≠ main_v63_0) (h1 : b ≠ main_v63_1) : W22 m c b = W21 m c b := by
  show Function.update (Function.update _ _ _) _ _ (Proc.devRef .tc b) = _
  rw [Function.update_of_ne (StableHlo.devRef_ne_of_ne h1 : (Proc.devRef .tc b : DevRef τ sig) ≠ Proc.devRef .tc main_v63_1),
    Function.update_of_ne (StableHlo.devRef_ne_of_ne h0 : (Proc.devRef .tc b : DevRef τ sig) ≠ Proc.devRef .tc main_v63_0)]
theorem Wout10_0 (c : Dev nD) : W22 m c main_v63_0 = X22 m c main_v63_0 := by
  show Function.update (Function.update _ _ _) _ _ (Proc.devRef .tc main_v63_0) = _
  rw [Function.update_of_ne (StableHlo.devRef_ne_of_ne (by decide) : (Proc.devRef .tc main_v63_0 : DevRef τ sig) ≠ Proc.devRef .tc main_v63_1), Function.update_self]
theorem Wout10_1 (c : Dev nD) : W22 m c main_v63_1 = X22 m c main_v63_1 := by
  show Function.update (Function.update _ _ _) _ _ (Proc.devRef .tc main_v63_1) = _
  rw [Function.update_self]

/-- At the region's exit each of its arrays holds what the pipeline leaves, -/
theorem hF10 (c : Dev nD) (w : Fin cfg10.W) :
    (dat10 (Vin10 m) c).arrAt w cfg10.N = (W22 m c) (Proc.devRef .tc (Pipeline.arrRef spec10 w)) := by
  fin_cases w
  · exact ((dat10 (Vin10 m) c).arrAt_in 0 rfl _).trans ((A_eq10 (Vin10 m) c 0).trans (Wout10_of m c _ (by decide) (by decide)).symm)
  · exact ((dat10 (Vin10 m) c).arrAt_in 1 rfl _).trans ((A_eq10 (Vin10 m) c 1).trans (Wout10_of m c _ (by decide) (by decide)).symm)
  · exact ((dat10 (Vin10 m) c).arrAt_in 2 rfl _).trans ((A_eq10 (Vin10 m) c 2).trans (Wout10_of m c _ (by decide) (by decide)).symm)
  · exact ((Wout10_0 m c).trans (outsAt10_0 m c)).symm
  · exact ((Wout10_1 m c).trans (outsAt10_1 m c)).symm

/-- and every other buffer what it held at entry. -/
theorem hrest10 (c : Dev nD) : ∀ b, b ∉ Finset.univ.image (Pipeline.arrRef spec10) →
    (W22 m c) (Proc.devRef .tc b) = Vin10 m c b := fun b hb =>
  Wout10_of m c b (fun e => hb (Finset.mem_image.mpr ⟨3, Finset.mem_univ _, e.symm⟩)) (fun e => hb (Finset.mem_image.mpr ⟨4, Finset.mem_univ _, e.symm⟩))

set_option backward.isDefEq.respectTransparency.types false in
def reg10 : Pipeline.RegionSeg (pcfgs (F := F)) adm (pdats m) () defs₀ 𝒱z Lz lvz 10 where
  win := launch10.win.to₀
  block_pos := launch10.block_pos
  stage_whole := launch10.stage_whole
  K := PEmpty
  osem k := k.elim
  ho := Pipeline.OwnSemFacts.none _
  hbody c := (body_obligation10 (Vin10 m) c).loose
  hwaits := Pipeline.hwaits_of_owed_zero _ _ _ _ Lz lvz 10 fun _ _ => rfl
  pre c := iprop(StableHlo.held (c : Thread nD τ) (Pipeline.ucRefs τ sig) (W21 m c) ∗ Rr c)
  post c := iprop(StableHlo.held (c : Thread nD τ) (Pipeline.ucRefs τ sig) (W22 m c) ∗ Rr c)
  X c := iprop(∃ r, prngReg c r)
  Y c := iprop(∃ r, prngReg c r)
  Z c := Pipeline.unscopedRest (Ix := Unit) (Name := ℕ) (U := UR sig nD τ) (Lvl := ℕ) spec10 c (Vin10 m c)
  hentry c := by
    rw [Pipeline.ownSems0_none]
    have hsplit := Pipeline.arrays_of_unscopedBufs (p := 10) (pcfgs (F := F)) adm (pdats m) launch10.win launch10.arr_whole c
      ((pdats m 10 c).share_full fun _ => rfl) (Vin10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none]
    refine (show (pdats m 10 c).Φ (Fin.last _) ⊢ Pipeline.ΦA spec10 c from hout10 (Vin10 m) c).trans ?_
    unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (Vin10 m c) (fun b => (W22 m c) (Proc.devRef .tc b)) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg11.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 11 as a segment of the program: entered with every unscoped buffer at the contents the items before it
    leave, left with its two results at what its write-backs fold to and every other buffer as entered. -/

theorem outsAt11_0 (c : Dev nD) : X24 m c main_v66_0 = (dat11 (Vin11 m) c).arrAt 3 cfg11.N := by
  unfold X24
  exact Pipeline.withArrays_arr spec11 launch11.win.arr_inj c _ _ 3
theorem outsAt11_1 (c : Dev nD) : X24 m c main_v66_1 = (dat11 (Vin11 m) c).arrAt 4 cfg11.N := by
  unfold X24
  exact Pipeline.withArrays_arr spec11 launch11.win.arr_inj c _ _ 4

/-- A buffer that is neither of the region's results is as entered. -/
theorem Wout11_of (c : Dev nD) (b : Ref sig .tc) (h0 : b ≠ main_v66_0) (h1 : b ≠ main_v66_1) : W24 m c b = W23 m c b := by
  show Function.update (Function.update _ _ _) _ _ (Proc.devRef .tc b) = _
  rw [Function.update_of_ne (StableHlo.devRef_ne_of_ne h1 : (Proc.devRef .tc b : DevRef τ sig) ≠ Proc.devRef .tc main_v66_1),
    Function.update_of_ne (StableHlo.devRef_ne_of_ne h0 : (Proc.devRef .tc b : DevRef τ sig) ≠ Proc.devRef .tc main_v66_0)]
theorem Wout11_0 (c : Dev nD) : W24 m c main_v66_0 = X24 m c main_v66_0 := by
  show Function.update (Function.update _ _ _) _ _ (Proc.devRef .tc main_v66_0) = _
  rw [Function.update_of_ne (StableHlo.devRef_ne_of_ne (by decide) : (Proc.devRef .tc main_v66_0 : DevRef τ sig) ≠ Proc.devRef .tc main_v66_1), Function.update_self]
theorem Wout11_1 (c : Dev nD) : W24 m c main_v66_1 = X24 m c main_v66_1 := by
  show Function.update (Function.update _ _ _) _ _ (Proc.devRef .tc main_v66_1) = _
  rw [Function.update_self]

/-- At the region's exit each of its arrays holds what the pipeline leaves, -/
theorem hF11 (c : Dev nD) (w : Fin cfg11.W) :
    (dat11 (Vin11 m) c).arrAt w cfg11.N = (W24 m c) (Proc.devRef .tc (Pipeline.arrRef spec11 w)) := by
  fin_cases w
  · exact ((dat11 (Vin11 m) c).arrAt_in 0 rfl _).trans ((A_eq11 (Vin11 m) c 0).trans (Wout11_of m c _ (by decide) (by decide)).symm)
  · exact ((dat11 (Vin11 m) c).arrAt_in 1 rfl _).trans ((A_eq11 (Vin11 m) c 1).trans (Wout11_of m c _ (by decide) (by decide)).symm)
  · exact ((dat11 (Vin11 m) c).arrAt_in 2 rfl _).trans ((A_eq11 (Vin11 m) c 2).trans (Wout11_of m c _ (by decide) (by decide)).symm)
  · exact ((Wout11_0 m c).trans (outsAt11_0 m c)).symm
  · exact ((Wout11_1 m c).trans (outsAt11_1 m c)).symm

/-- and every other buffer what it held at entry. -/
theorem hrest11 (c : Dev nD) : ∀ b, b ∉ Finset.univ.image (Pipeline.arrRef spec11) →
    (W24 m c) (Proc.devRef .tc b) = Vin11 m c b := fun b hb =>
  Wout11_of m c b (fun e => hb (Finset.mem_image.mpr ⟨3, Finset.mem_univ _, e.symm⟩)) (fun e => hb (Finset.mem_image.mpr ⟨4, Finset.mem_univ _, e.symm⟩))

set_option backward.isDefEq.respectTransparency.types false in
def reg11 : Pipeline.RegionSeg (pcfgs (F := F)) adm (pdats m) () defs₀ 𝒱z Lz lvz 11 where
  win := launch11.win.to₀
  block_pos := launch11.block_pos
  stage_whole := launch11.stage_whole
  K := PEmpty
  osem k := k.elim
  ho := Pipeline.OwnSemFacts.none _
  hbody c := (body_obligation11 (Vin11 m) c).loose
  hwaits := Pipeline.hwaits_of_owed_zero _ _ _ _ Lz lvz 11 fun _ _ => rfl
  pre c := iprop(StableHlo.held (c : Thread nD τ) (Pipeline.ucRefs τ sig) (W23 m c) ∗ Rr c)
  post c := iprop(StableHlo.held (c : Thread nD τ) (Pipeline.ucRefs τ sig) (W24 m c) ∗ Rr c)
  X c := iprop(∃ r, prngReg c r)
  Y c := iprop(∃ r, prngReg c r)
  Z c := Pipeline.unscopedRest (Ix := Unit) (Name := ℕ) (U := UR sig nD τ) (Lvl := ℕ) spec11 c (Vin11 m c)
  hentry c := by
    rw [Pipeline.ownSems0_none]
    have hsplit := Pipeline.arrays_of_unscopedBufs (p := 11) (pcfgs (F := F)) adm (pdats m) launch11.win launch11.arr_whole c
      ((pdats m 11 c).share_full fun _ => rfl) (Vin11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none]
    refine (show (pdats m 11 c).Φ (Fin.last _) ⊢ Pipeline.ΦA spec11 c from hout11 (Vin11 m) c).trans ?_
    unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (Vin11 m c) (fun b => (W24 m c) (Proc.devRef .tc b)) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg12.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 12 as a segment of the program: entered with every unscoped buffer at the contents the items before it
    leave, left with its two results at what its write-backs fold to and every other buffer as entered. -/

theorem outsAt12_0 (c : Dev nD) : X26 m c main_v76_0 = (dat12 (Vin12 m) c).arrAt 3 cfg12.N := by
  unfold X26
  exact Pipeline.withArrays_arr spec12 launch12.win.arr_inj c _ _ 3
theorem outsAt12_1 (c : Dev nD) : X26 m c main_v76_1 = (dat12 (Vin12 m) c).arrAt 4 cfg12.N := by
  unfold X26
  exact Pipeline.withArrays_arr spec12 launch12.win.arr_inj c _ _ 4

/-- A buffer that is neither of the region's results is as entered. -/
theorem Wout12_of (c : Dev nD) (b : Ref sig .tc) (h0 : b ≠ main_v76_0) (h1 : b ≠ main_v76_1) : W26 m c b = W25 m c b := by
  show Function.update (Function.update _ _ _) _ _ (Proc.devRef .tc b) = _
  rw [Function.update_of_ne (StableHlo.devRef_ne_of_ne h1 : (Proc.devRef .tc b : DevRef τ sig) ≠ Proc.devRef .tc main_v76_1),
    Function.update_of_ne (StableHlo.devRef_ne_of_ne h0 : (Proc.devRef .tc b : DevRef τ sig) ≠ Proc.devRef .tc main_v76_0)]
theorem Wout12_0 (c : Dev nD) : W26 m c main_v76_0 = X26 m c main_v76_0 := by
  show Function.update (Function.update _ _ _) _ _ (Proc.devRef .tc main_v76_0) = _
  rw [Function.update_of_ne (StableHlo.devRef_ne_of_ne (by decide) : (Proc.devRef .tc main_v76_0 : DevRef τ sig) ≠ Proc.devRef .tc main_v76_1), Function.update_self]
theorem Wout12_1 (c : Dev nD) : W26 m c main_v76_1 = X26 m c main_v76_1 := by
  show Function.update (Function.update _ _ _) _ _ (Proc.devRef .tc main_v76_1) = _
  rw [Function.update_self]

/-- At the region's exit each of its arrays holds what the pipeline leaves, -/
theorem hF12 (c : Dev nD) (w : Fin cfg12.W) :
    (dat12 (Vin12 m) c).arrAt w cfg12.N = (W26 m c) (Proc.devRef .tc (Pipeline.arrRef spec12 w)) := by
  fin_cases w
  · exact ((dat12 (Vin12 m) c).arrAt_in 0 rfl _).trans ((A_eq12 (Vin12 m) c 0).trans (Wout12_of m c _ (by decide) (by decide)).symm)
  · exact ((dat12 (Vin12 m) c).arrAt_in 1 rfl _).trans ((A_eq12 (Vin12 m) c 1).trans (Wout12_of m c _ (by decide) (by decide)).symm)
  · exact ((dat12 (Vin12 m) c).arrAt_in 2 rfl _).trans ((A_eq12 (Vin12 m) c 2).trans (Wout12_of m c _ (by decide) (by decide)).symm)
  · exact ((Wout12_0 m c).trans (outsAt12_0 m c)).symm
  · exact ((Wout12_1 m c).trans (outsAt12_1 m c)).symm

/-- and every other buffer what it held at entry. -/
theorem hrest12 (c : Dev nD) : ∀ b, b ∉ Finset.univ.image (Pipeline.arrRef spec12) →
    (W26 m c) (Proc.devRef .tc b) = Vin12 m c b := fun b hb =>
  Wout12_of m c b (fun e => hb (Finset.mem_image.mpr ⟨3, Finset.mem_univ _, e.symm⟩)) (fun e => hb (Finset.mem_image.mpr ⟨4, Finset.mem_univ _, e.symm⟩))

set_option backward.isDefEq.respectTransparency.types false in
def reg12 : Pipeline.RegionSeg (pcfgs (F := F)) adm (pdats m) () defs₀ 𝒱z Lz lvz 12 where
  win := launch12.win.to₀
  block_pos := launch12.block_pos
  stage_whole := launch12.stage_whole
  K := PEmpty
  osem k := k.elim
  ho := Pipeline.OwnSemFacts.none _
  hbody c := (body_obligation12 (Vin12 m) c).loose
  hwaits := Pipeline.hwaits_of_owed_zero _ _ _ _ Lz lvz 12 fun _ _ => rfl
  pre c := iprop(StableHlo.held (c : Thread nD τ) (Pipeline.ucRefs τ sig) (W25 m c) ∗ Rr c)
  post c := iprop(StableHlo.held (c : Thread nD τ) (Pipeline.ucRefs τ sig) (W26 m c) ∗ Rr c)
  X c := iprop(∃ r, prngReg c r)
  Y c := iprop(∃ r, prngReg c r)
  Z c := Pipeline.unscopedRest (Ix := Unit) (Name := ℕ) (U := UR sig nD τ) (Lvl := ℕ) spec12 c (Vin12 m c)
  hentry c := by
    rw [Pipeline.ownSems0_none]
    have hsplit := Pipeline.arrays_of_unscopedBufs (p := 12) (pcfgs (F := F)) adm (pdats m) launch12.win launch12.arr_whole c
      ((pdats m 12 c).share_full fun _ => rfl) (Vin12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none]
    refine (show (pdats m 12 c).Φ (Fin.last _) ⊢ Pipeline.ΦA spec12 c from hout12 (Vin12 m) c).trans ?_
    unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (Vin12 m c) (fun b => (W26 m c) (Proc.devRef .tc b)) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg13.lean ====
import proofs.«103934_j28484223107660_1_alg».proof.Proof.K.Chain

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! Region 13 as a segment of the program: entered with every unscoped buffer at the contents the items before it
    leave, left with its two results at what its write-backs fold to and every other buffer as entered. -/

theorem outsAt13_0 (c : Dev nD) : X28 m c main_v79_0 = (dat13 (Vin13 m) c).arrAt 3 cfg13.N := by
  unfold X28
  exact Pipeline.withArrays_arr spec13 launch13.win.arr_inj c _ _ 3
theorem outsAt13_1 (c : Dev nD) : X28 m c main_v79_1 = (dat13 (Vin13 m) c).arrAt 4 cfg13.N := by
  unfold X28
  exact Pipeline.withArrays_arr spec13 launch13.win.arr_inj c _ _ 4

/-- A buffer that is neither of the region's results is as entered. -/
theorem Wout13_of (c : Dev nD) (b : Ref sig .tc) (h0 : b ≠ main_v79_0) (h1 : b ≠ main_v79_1) : W28 m c b = W27 m c b := by
  show Function.update (Function.update _ _ _) _ _ (Proc.devRef .tc b) = _
  rw [Function.update_of_ne (StableHlo.devRef_ne_of_ne h1 : (Proc.devRef .tc b : DevRef τ sig) ≠ Proc.devRef .tc main_v79_1),
    Function.update_of_ne (StableHlo.devRef_ne_of_ne h0 : (Proc.devRef .tc b : DevRef τ sig) ≠ Proc.devRef .tc main_v79_0)]
theorem Wout13_0 (c : Dev nD) : W28 m c main_v79_0 = X28 m c main_v79_0 := by
  show Function.update (Function.update _ _ _) _ _ (Proc.devRef .tc main_v79_0) = _
  rw [Function.update_of_ne (StableHlo.devRef_ne_of_ne (by decide) : (Proc.devRef .tc main_v79_0 : DevRef τ sig) ≠ Proc.devRef .tc main_v79_1), Function.update_self]
theorem Wout13_1 (c : Dev nD) : W28 m c main_v79_1 = X28 m c main_v79_1 := by
  show Function.update (Function.update _ _ _) _ _ (Proc.devRef .tc main_v79_1) = _
  rw [Function.update_self]

/-- At the region's exit each of its arrays holds what the pipeline leaves, -/
theorem hF13 (c : Dev nD) (w : Fin cfg13.W) :
    (dat13 (Vin13 m) c).arrAt w cfg13.N = (W28 m c) (Proc.devRef .tc (Pipeline.arrRef spec13 w)) := by
  fin_cases w
  · exact ((dat13 (Vin13 m) c).arrAt_in 0 rfl _).trans ((A_eq13 (Vin13 m) c 0).trans (Wout13_of m c _ (by decide) (by decide)).symm)
  · exact ((dat13 (Vin13 m) c).arrAt_in 1 rfl _).trans ((A_eq13 (Vin13 m) c 1).trans (Wout13_of m c _ (by decide) (by decide)).symm)
  · exact ((dat13 (Vin13 m) c).arrAt_in 2 rfl _).trans ((A_eq13 (Vin13 m) c 2).trans (Wout13_of m c _ (by decide) (by decide)).symm)
  · exact ((Wout13_0 m c).trans (outsAt13_0 m c)).symm
  · exact ((Wout13_1 m c).trans (outsAt13_1 m c)).symm

/-- and every other buffer what it held at entry. -/
theorem hrest13 (c : Dev nD) : ∀ b, b ∉ Finset.univ.image (Pipeline.arrRef spec13) →
    (W28 m c) (Proc.devRef .tc b) = Vin13 m c b := fun b hb =>
  Wout13_of m c b (fun e => hb (Finset.mem_image.mpr ⟨3, Finset.mem_univ _, e.symm⟩)) (fun e => hb (Finset.mem_image.mpr ⟨4, Finset.mem_univ _, e.symm⟩))

set_option backward.isDefEq.respectTransparency.types false in
def reg13 : Pipeline.RegionSeg (pcfgs (F := F)) adm (pdats m) () defs₀ 𝒱z Lz lvz 13 where
  win := launch13.win.to₀
  block_pos := launch13.block_pos
  stage_whole := launch13.stage_whole
  K := PEmpty
  osem k := k.elim
  ho := Pipeline.OwnSemFacts.none _
  hbody c := (body_obligation13 (Vin13 m) c).loose
  hwaits := Pipeline.hwaits_of_owed_zero _ _ _ _ Lz lvz 13 fun _ _ => rfl
  pre c := iprop(StableHlo.held (c : Thread nD τ) (Pipeline.ucRefs τ sig) (W27 m c) ∗ Rr c)
  post c := iprop(StableHlo.held (c : Thread nD τ) (Pipeline.ucRefs τ sig) (W28 m c) ∗ Rr c)
  X c := iprop(∃ r, prngReg c r)
  Y c := iprop(∃ r, prngReg c r)
  Z c := Pipeline.unscopedRest (Ix := Unit) (Name := ℕ) (U := UR sig nD τ) (Lvl := ℕ) spec13 c (Vin13 m c)
  hentry c := by
    rw [Pipeline.ownSems0_none]
    have hsplit := Pipeline.arrays_of_unscopedBufs (p := 13) (pcfgs (F := F)) adm (pdats m) launch13.win launch13.arr_whole c
      ((pdats m 13 c).share_full fun _ => rfl) (Vin13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = Pipeline.ΦA spec13 c from rfl]; unfold Pipeline.ΦA
    iintro ⟨Hp, -, Hr⟩
    isplitl [Hr]; · iexact Hr
    iexact Hp
  hout c := by
    rw [Pipeline.ownSems0_none]
    refine (show (pdats m 13 c).Φ (Fin.last _) ⊢ Pipeline.ΦA spec13 c from hout13 (Vin13 m) c).trans ?_
    unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (Vin13 m c) (fun b => (W28 m c) (Proc.devRef .tc b)) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Frame.lean ====
import proofs.«103934_j28484223107660_1_alg».proof.Proof.K.Seg0
import proofs.«103934_j28484223107660_1_alg».proof.Proof.K.Seg1
import proofs.«103934_j28484223107660_1_alg».proof.Proof.K.Seg2
import proofs.«103934_j28484223107660_1_alg».proof.Proof.K.Seg3
import proofs.«103934_j28484223107660_1_alg».proof.Proof.K.Seg4
import proofs.«103934_j28484223107660_1_alg».proof.Proof.K.Seg5
import proofs.«103934_j28484223107660_1_alg».proof.Proof.K.Seg6
import proofs.«103934_j28484223107660_1_alg».proof.Proof.K.Seg7
import proofs.«103934_j28484223107660_1_alg».proof.Proof.K.Seg8
import proofs.«103934_j28484223107660_1_alg».proof.Proof.K.Seg9
import proofs.«103934_j28484223107660_1_alg».proof.Proof.K.Seg10
import proofs.«103934_j28484223107660_1_alg».proof.Proof.K.Seg11
import proofs.«103934_j28484223107660_1_alg».proof.Proof.K.Seg12
import proofs.«103934_j28484223107660_1_alg».proof.Proof.K.Seg13

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 4000000 in
/-- Every weakly fair execution of the program terminates, faulting nowhere, and every argument array ends holding its
    launch contents: the fourteen regions' records chained through the host lines between them. -/
theorem frameAll : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_cond m emb₁ () 𝒱z Lz lvz (fun _ _ => rfl) ρ (outsAll m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE14 := fun c => by
      iintro ⟨-, HO⟩
      iexact HO)
    (reg0 m) (fun c => .rfl) (fun c => by rw [VW2 m c]; exact .rfl)
    (reg1 m) (fun c => by rw [VW3 m c]; exact .rfl) (fun c => by rw [VW4 m c]; exact .rfl)
    (reg2 m) (fun c => by rw [VW5 m c]; exact .rfl) (fun c => by rw [VW6 m c]; exact .rfl)
    (reg3 m) (fun c => by rw [VW7 m c]; exact .rfl) (fun c => by rw [VW8 m c]; exact .rfl)
    (reg4 m) (fun c => by rw [VW9 m c]; exact .rfl) (fun c => by rw [VW10 m c]; exact .rfl)
    (reg5 m) (fun c => by rw [VW11 m c]; exact .rfl) (fun c => by rw [VW12 m c]; exact .rfl)
    (reg6 m) (fun c => by rw [VW13 m c]; exact .rfl) (fun c => by rw [VW14 m c]; exact .rfl)
    (reg7 m) (fun c => by rw [VW15 m c]; exact .rfl) (fun c => by rw [VW16 m c]; exact .rfl)
    (reg8 m) (fun c => by rw [VW17 m c]; exact .rfl) (fun c => by rw [VW18 m c]; exact .rfl)
    (reg9 m) (fun c => by rw [VW19 m c]; exact .rfl) (fun c => by rw [VW20 m c]; exact .rfl)
    (reg10 m) (fun c => by rw [VW21 m c]; exact .rfl) (fun c => by rw [VW22 m c]; exact .rfl)
    (reg11 m) (fun c => by rw [VW23 m c]; exact .rfl) (fun c => by rw [VW24 m c]; exact .rfl)
    (reg12 m) (fun c => by rw [VW25 m c]; exact .rfl) (fun c => by rw [VW26 m c]; exact .rfl)
    (reg13 m) (fun c => by rw [VW27 m c]; exact .rfl) (fun c => by rw [VW28 m c]; exact .rfl)

end Cert.Kernel.Hand

end
-- ==== Proof.Spec.lean ====
import Idealize.ShloMosaic.PureOps.Ideal
import Idealize.ShloMosaic.PureOps.Ideal.Laws
import Idealize.ShloMosaic.Lib.ValueIdx

/-! One propagation layer of the degree-normalised message passing, over the extended reals, entry by entry.
    For an interaction matrix `R` (users × items), user features `u` and item features `it`:
    a user's new feature is the `R`-weighted sum of the item features divided by the user's degree
    (its row sum of `R`, plus a small constant); an item's new feature is the `R`-weighted sum of the
    user features divided by the item's degree (its column sum, plus the same constant). -/

noncomputable section

namespace Cert.Spec

open Idealize.ShloMosaic

/-- The small constant added to every degree: the binary32 word nearest 1e-8, read exactly. -/
abbrev eps : EReal := Ideal.ofBits .f32 0x322BCC77#32

/-- A user's new feature: the weighted sum of item features over the user's degree. -/
def uNew (R : Fin 4096 → Fin 4096 → EReal) (it : Fin 4096 → Fin 64 → EReal) (r : Fin 4096) (d : Fin 64) : EReal :=
  Ideal.div (∑ k : Fin 4096, R r k * it k d) ((∑ k : Fin 4096, R r k) + eps)

/-- An item's new feature: the weighted sum of user features over the item's degree. -/
def iNew (R : Fin 4096 → Fin 4096 → EReal) (u : Fin 4096 → Fin 64 → EReal) (c : Fin 4096) (d : Fin 64) : EReal :=
  Ideal.div (∑ r : Fin 4096, R r c * u r d) ((∑ r : Fin 4096, R r c) + eps)

/-- A two-axis array read by its two coordinates. -/
abbrev cur {n0 n1 : Nat} (A : (⟨2, ![n0, n1]⟩ : Shape).Idx → EReal) (a : Fin n0) (b : Fin n1) : EReal := A (ValueIdx.ix2 a b)

end Cert.Spec

end
-- ==== Proof.KI.PayLib.lean ====
import proofs.«103934_j28484223107660_1_alg».proof.Proof.Gen.KernelIdeal.Skeleton
import proofs.«103934_j28484223107660_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! The layout operations and the two contractions of one propagation step, each read at an index over the
    extended reals: a vector cast to a column, a column broadcast along its rows, a row turned into a column,
    the sums along either axis of the 512 × 4096 block, and the two matrix products (one contracting the block's
    columns against the item features' rows, one contracting the block's rows against the user features' rows). -/

noncomputable section

namespace Cert.KernelIdeal.Hand

open Cert.KernelIdeal Cert.KernelIdeal.Gen Idealize.ShloMosaic Idealize.ShloMosaic.ValueIdx

section Layout
variable {α : Type}

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The sums along one axis of the block -/

/-- The sum along the columns of the block, at row `p`. -/
theorem rowSum_apply (x1 : FVec Ideal S512x4096 .f32) (h : S512x4096.Reduces [1] S512) (hφ : FKind.Formats .f32)
    (hacc : (0x00000000#32 : BitVec 32) = FKind.add.neutral .f32 hφ) (p : Fin 512) :
    multiReduction (F := Ideal) .add [1] S512 x1 0x00000000#32 h hφ hacc (ix1 p) = ∑ k : Fin 4096, x1 (ix2 p k) := by
  refine (Ideal.multiReduction_add_single x1 0x00000000#32 h hφ hacc (ix1 p)).trans ?_
  refine Finset.sum_congr rfl fun k _ => congrArg x1 ?_
  funext ax
  match ax with
  | ⟨0, _⟩ => rfl
  | ⟨1, _⟩ => rfl

/-- The sum along the rows of the block, at column `c`. -/
theorem colSum_apply (x1 : FVec Ideal S512x4096 .f32) (h : S512x4096.Reduces [0] S4096) (hφ : FKind.Formats .f32)
    (hacc : (0x00000000#32 : BitVec 32) = FKind.add.neutral .f32 hφ) (c : Fin 4096) :
    multiReduction (F := Ideal) .add [0] S4096 x1 0x00000000#32 h hφ hacc (ix1 c) = ∑ p : Fin 512, x1 (ix2 p c) := by
  refine (Ideal.multiReduction_add_single x1 0x00000000#32 h hφ hacc (ix1 c)).trans ?_
  refine Finset.sum_congr rfl fun k _ => congrArg x1 ?_
  funext ax
  match ax with
  | ⟨0, _⟩ => rfl
  | ⟨1, _⟩ => rfl

/-! ## The two matrix products -/

/-- The dimension numbers of the product of the block with the item features: columns against rows. -/
abbrev D1 : DotDims S512x4096 S4096x64 S512x64 := dot_S512x4096_S4096x64_S512x64_1_0_0_1_n_n
/-- The dimension numbers of the product of the block, transposed, with the user features: rows against rows. -/
abbrev D2 : DotDims S512x4096 S512x64 S4096x64 := dot_S512x4096_S512x64_S4096x64_0_0_1_1_n_n

theorem D1_lhs (p : Fin 512) (d : Fin 64) (k : Fin 4096) :
    D1.lhsIdx (ix2 p d) ((contrEquiv1 D1 4096 rfl rfl).symm k) = ix2 p k := by
  funext ax
  match ax with
  | ⟨0, _⟩ => exact Fin.ext (by simp [DotDims.lhsIdx, D1, dot_S512x4096_S4096x64_S512x64_1_0_0_1_n_n]; rfl)
  | ⟨1, _⟩ =>
    exact Fin.ext ((D1.lhsIdx_val_of_single (cl := ⟨1, by decide⟩) rfl _ _).trans (contrEquiv1_symm_val D1 4096 rfl rfl k))

theorem D1_rhs (p : Fin 512) (d : Fin 64) (k : Fin 4096) :
    D1.rhsIdx (ix2 p d) ((contrEquiv1 D1 4096 rfl rfl).symm k) = ix2 k d := by
  funext ax
  match ax with
  | ⟨0, _⟩ =>
    exact Fin.ext ((D1.rhsIdx_val_of_single (cr := ⟨0, by decide⟩) rfl _ _).trans (contrEquiv1_symm_val D1 4096 rfl rfl k))
  | ⟨1, _⟩ => exact Fin.ext (by simp [DotDims.rhsIdx, D1, dot_S512x4096_S4096x64_S512x64_1_0_0_1_n_n]; rfl)

/-- The block times the item features, into a zero accumulator, at `(p, d)`. -/
theorem mm1_apply (lhs : FVec Ideal S512x4096 .bf16) (rhs : FVec Ideal S4096x64 .bf16) (p : Fin 512) (d : Fin 64) :
    matmul (F := Ideal) D1 none lhs rhs (constant S512x64 .f32 0x00000000#32) (ix2 p d)
      = ∑ k : Fin 4096, lhs (ix2 p k) * rhs (ix2 k d) := by
  refine (Ideal.matmul_constant_zero_apply D1 none lhs rhs (ix2 p d)).trans ?_
  refine (Equiv.sum_comp (contrEquiv1 D1 4096 rfl rfl).symm _).symm.trans ?_
  refine Finset.sum_congr rfl fun k _ => ?_
  rw [D1_lhs, D1_rhs]

theorem D2_lhs (c : Fin 4096) (d : Fin 64) (k : Fin 512) :
    D2.lhsIdx (ix2 c d) ((contrEquiv1 D2 512 rfl rfl).symm k) = ix2 k c := by
  funext ax
  match ax with
  | ⟨0, _⟩ =>
    exact Fin.ext ((D2.lhsIdx_val_of_single (cl := ⟨0, by decide⟩) rfl _ _).trans (contrEquiv1_symm_val D2 512 rfl rfl k))
  | ⟨1, _⟩ => exact Fin.ext (by simp [DotDims.lhsIdx, D2, dot_S512x4096_S512x64_S4096x64_0_0_1_1_n_n]; rfl)

theorem D2_rhs (c : Fin 4096) (d : Fin 64) (k : Fin 512) :
    D2.rhsIdx (ix2 c d) ((contrEquiv1 D2 512 rfl rfl).symm k) = ix2 k d := by
  funext ax
  match ax with
  | ⟨0, _⟩ =>
    exact Fin.ext ((D2.rhsIdx_val_of_single (cr := ⟨0, by decide⟩) rfl _ _).trans (contrEquiv1_symm_val D2 512 rfl rfl k))
  | ⟨1, _⟩ => exact Fin.ext (by simp [DotDims.rhsIdx, D2, dot_S512x4096_S512x64_S4096x64_0_0_1_1_n_n]; rfl)

/-- The block, rows contracted, times the user features, into a zero accumulator, at `(c, d)`. -/
theorem mm2_apply (lhs : FVec Ideal S512x4096 .bf16) (rhs : FVec Ideal S512x64 .bf16) (c : Fin 4096) (d : Fin 64) :
    matmul (F := Ideal) D2 none lhs rhs (constant S4096x64 .f32 0x00000000#32) (ix2 c d)
      = ∑ k : Fin 512, lhs (ix2 k c) * rhs (ix2 k d) := by
  refine (Ideal.matmul_constant_zero_apply D2 none lhs rhs (ix2 c d)).trans ?_
  refine (Equiv.sum_comp (contrEquiv1 D2 512 rfl rfl).symm _).symm.trans ?_
  refine Finset.sum_congr rfl fun k _ => ?_
  rw [D2_lhs, D2_rhs]

end Cert.KernelIdeal.Hand

end
-- ==== Proof.KI.PayE.lean ====
import proofs.«103934_j28484223107660_1_alg».proof.Proof.KI.PayLib

/-! The arithmetic of one grid step of the even-numbered propagation layers, read entry by entry over the
    extended reals: the users' new features of the step's 512 rows, the two running sums over the rows seen so far
    (the weighted user features and the degrees of the items), their zero start, and the final quotient. -/

noncomputable section

namespace Cert.KernelIdeal.Hand

open Cert.KernelIdeal Cert.KernelIdeal.Gen Idealize.ShloMosaic Idealize.ShloMosaic.ValueIdx

/-- The step's new user features: the block's weighted sum of the item features over the row's degree. -/
theorem pay5_apply (x1 : FVec Ideal S512x4096 .f32) (x3 : FVec Ideal S4096x64 .f32) (p : Fin 512) (d : Fin 64) :
    k0_pay5 (F := Ideal) x1 x3 (ix2 p d)
      = Ideal.div (∑ k : Fin 4096, x1 (ix2 p k) * x3 (ix2 k d)) ((∑ k : Fin 4096, x1 (ix2 p k)) + Cert.Spec.eps) := by
  unfold k0_pay5 k0_pay4
  show Ideal.div _ _ = _
  refine congrArg₂ Ideal.div ?_ ?_
  · exact mm1_apply _ _ p d
  · refine (broadcastTo_a1_ab_apply _ _ p d).trans ?_
    show _ + _ = _
    refine congrArg₂ (· + ·) ?_ rfl
    refine (shapeCast_a_a1_apply _ _ p 0).trans ?_
    exact rowSum_apply x1 _ _ _ p

/-- The running weighted sum of user features after the step: the sum so far plus the block's rows' share. -/
theorem pay6_apply (x1 : FVec Ideal S512x4096 .f32) (x2 : FVec Ideal S512x64 .f32) (s6 : FVec Ideal S4096x64 .f32)
    (c : Fin 4096) (d : Fin 64) :
    k0_pay6 (F := Ideal) x1 x2 s6 (ix2 c d) = s6 (ix2 c d) + ∑ p : Fin 512, x1 (ix2 p c) * x2 (ix2 p d) := by
  unfold k0_pay6 k0_pay4
  rw [shapeCast_self]
  show _ + _ = _
  refine congrArg₂ (· + ·) rfl ?_
  exact mm2_apply _ _ c d

/-- The running degree of each item after the step: the sum so far plus the block's column sum. -/
theorem pay7_apply (x1 : FVec Ideal S512x4096 .f32) (s7 : FVec Ideal S1x4096 .f32) (c : Fin 4096) :
    k0_pay7 (F := Ideal) x1 s7 (ix2 (0 : Fin 1) c) = s7 (ix2 0 c) + ∑ p : Fin 512, x1 (ix2 p c) := by
  unfold k0_pay7
  rw [shapeCast_self]
  show _ + _ = _
  refine congrArg₂ (· + ·) rfl ?_
  refine (shapeCast_a_1a_apply _ _ 0 c).trans ?_
  exact colSum_apply x1 _ _ _ c

/-- The items' new features: the finished weighted sum over the finished degree. -/
theorem pay1_apply (v33 : FVec Ideal S1x4096 .f32) (v37 : FVec Ideal S4096x64 .f32) (c : Fin 4096) (d : Fin 64) :
    k0_pay1 (F := Ideal) v33 v37 (ix2 c d) = Ideal.div (v37 (ix2 c d)) (v33 (ix2 (0 : Fin 1) c) + Cert.Spec.eps) := by
  unfold k0_pay1
  show Ideal.div _ _ = _
  refine congrArg₂ Ideal.div rfl ?_
  refine (broadcastTo_a1_ab_apply _ _ c d).trans ?_
  show _ + _ = _
  refine congrArg₂ (· + ·) ?_ rfl
  exact transpose_ix2_apply v33 _ c 0

/-- The running weighted sum starts at zero. -/
theorem pay2_apply (c : Fin 4096) (d : Fin 64) : k0_pay2 (F := Ideal) (ix2 c d) = 0 := by
  unfold k0_pay2
  rw [shapeCast_self]
  exact Ideal.ofBits_zero_f32

/-- The running degree starts at zero. -/
theorem pay3_apply (c : Fin 4096) : k0_pay3 (F := Ideal) (ix2 (0 : Fin 1) c) = 0 := by
  unfold k0_pay3
  rw [shapeCast_self]
  exact Ideal.ofBits_zero_f32

end Cert.KernelIdeal.Hand

end
-- ==== Proof.KI.PayO.lean ====
import proofs.«103934_j28484223107660_1_alg».proof.Proof.KI.PayLib

/-! The arithmetic of one grid step of the odd-numbered propagation layers, read entry by entry over the
    extended reals: the users' new features of the step's 512 rows, the two running sums over the rows seen so far
    (the weighted user features and the degrees of the items), their zero start, and the final quotient. -/

noncomputable section

namespace Cert.KernelIdeal.Hand

open Cert.KernelIdeal Cert.KernelIdeal.Gen Idealize.ShloMosaic Idealize.ShloMosaic.ValueIdx

/-- The step's new user features: the block's weighted sum of the item features over the row's degree. -/
theorem pay5o_apply (x1 : FVec Ideal S512x4096 .f32) (x3 : FVec Ideal S4096x64 .f32) (p : Fin 512) (d : Fin 64) :
    k1_pay5 (F := Ideal) x1 x3 (ix2 p d)
      = Ideal.div (∑ k : Fin 4096, x1 (ix2 p k) * x3 (ix2 k d)) ((∑ k : Fin 4096, x1 (ix2 p k)) + Cert.Spec.eps) := by
  unfold k1_pay5 k1_pay4
  rw [shapeCast_self]
  show Ideal.div _ _ = _
  refine congrArg₂ Ideal.div ?_ ?_
  · exact mm1_apply _ _ p d
  · refine (broadcastTo_a1_ab_apply _ _ p d).trans ?_
    show _ + _ = _
    refine congrArg₂ (· + ·) ?_ rfl
    refine (shapeCast_a_a1_apply _ _ p 0).trans ?_
    exact rowSum_apply x1 _ _ _ p

/-- The running weighted sum of user features after the step: the sum so far plus the block's rows' share. -/
theorem pay6o_apply (x1 : FVec Ideal S512x4096 .f32) (x2 : FVec Ideal S512x64 .f32) (s6 : FVec Ideal S4096x64 .f32)
    (c : Fin 4096) (d : Fin 64) :
    k1_pay6 (F := Ideal) x1 x2 s6 (ix2 c d) = s6 (ix2 c d) + ∑ p : Fin 512, x1 (ix2 p c) * x2 (ix2 p d) := by
  unfold k1_pay6 k1_pay4
  rw [shapeCast_self, shapeCast_self]
  show _ + _ = _
  refine congrArg₂ (· + ·) rfl ?_
  exact mm2_apply _ _ c d

/-- The running degree of each item after the step: the sum so far plus the block's column sum. -/
theorem pay7o_apply (x1 : FVec Ideal S512x4096 .f32) (s7 : FVec Ideal S1x4096 .f32) (c : Fin 4096) :
    k1_pay7 (F := Ideal) x1 s7 (ix2 (0 : Fin 1) c) = s7 (ix2 0 c) + ∑ p : Fin 512, x1 (ix2 p c) := by
  unfold k1_pay7
  rw [shapeCast_self]
  show _ + _ = _
  refine congrArg₂ (· + ·) rfl ?_
  refine (shapeCast_a_1a_apply _ _ 0 c).trans ?_
  exact colSum_apply x1 _ _ _ c

/-- The items' new features: the finished weighted sum over the finished degree. -/
theorem pay1o_apply (v33 : FVec Ideal S1x4096 .f32) (v37 : FVec Ideal S4096x64 .f32) (c : Fin 4096) (d : Fin 64) :
    k1_pay1 (F := Ideal) v33 v37 (ix2 c d) = Ideal.div (v37 (ix2 c d)) (v33 (ix2 (0 : Fin 1) c) + Cert.Spec.eps) := by
  unfold k1_pay1
  show Ideal.div _ _ = _
  refine congrArg₂ Ideal.div rfl ?_
  refine (broadcastTo_a1_ab_apply _ _ c d).trans ?_
  show _ + _ = _
  refine congrArg₂ (· + ·) ?_ rfl
  exact transpose_ix2_apply v33 _ c 0

/-- The running weighted sum starts at zero. -/
theorem pay2o_apply (c : Fin 4096) (d : Fin 64) : k1_pay2 (F := Ideal) (ix2 c d) = 0 := by
  unfold k1_pay2
  rw [shapeCast_self]
  exact Ideal.ofBits_zero_f32

/-- The running degree starts at zero. -/
theorem pay3o_apply (c : Fin 4096) : k1_pay3 (F := Ideal) (ix2 (0 : Fin 1) c) = 0 := by
  unfold k1_pay3
  rw [shapeCast_self]
  exact Ideal.ofBits_zero_f32

end Cert.KernelIdeal.Hand

end
-- ==== Proof.LibBlockSum.lean ====
/-
  A sum over the rows of an array, taken block by block.

  When `N = m * n` rows are cut into `m` consecutive blocks of `n` rows, row `n * t + r` being row `r` of
  block `t`, the sum of a function over all rows is the sum over the blocks of each block's own sum. This
  uses only commutativity and associativity of the addition, so it holds in any commutative monoid — in
  particular over the extended reals, where no finiteness is asked.

  A running total that starts at `z + b 0` and adds `b (k + 1)` at step `k + 1` is `z` plus the sum of
  the `b`s met so far.
-/
import Mathlib.Algebra.BigOperators.Fin

namespace Cert.BlockSum

open scoped BigOperators

/-- Rows `g t r` with `(g t r).val = n * t + r` enumerate `Fin N`, `N = m * n`, block by block: the sum over
    all rows is the double sum over blocks and rows inside a block. -/
theorem sum_blocks {M : Type*} [AddCommMonoid M] {N m n : ℕ} (hN : m * n = N) (g : Fin m → Fin n → Fin N)
    (hg : ∀ t r, (g t r).val = n * t.val + r.val) (f : Fin N → M) :
    ∑ i, f i = ∑ t : Fin m, ∑ r : Fin n, f (g t r) := by
  subst hN
  rw [← Equiv.sum_comp finProdFinEquiv f, Fintype.sum_prod_type]
  refine Finset.sum_congr rfl fun t _ => Finset.sum_congr rfl fun r _ => ?_
  refine congrArg f (Fin.ext ?_)
  rw [hg]
  show r.val + n * t.val = n * t.val + r.val
  omega

/-- A running total `a` that starts at `z + b 0` and adds `b (k + 1)` at step `k + 1`, for the steps below
    `K`, is `z` plus the sum of `b` over the steps so far. -/
theorem running_total {M : Type*} [AddCommMonoid M] (K : ℕ) (z : M) (a b : ℕ → M) (h0 : a 0 = z + b 0)
    (hs : ∀ k, k + 1 < K → a (k + 1) = a k + b (k + 1)) :
    ∀ k, k < K → a k = z + ∑ t ∈ Finset.range (k + 1), b t
  | 0, _ => by rw [h0, Finset.sum_range_one]
  | k + 1, hk => by
    rw [hs k hk, running_total K z a b h0 hs k (Nat.lt_of_succ_lt hk), Finset.sum_range_succ _ (k + 1), add_assoc]

end Cert.BlockSum
-- ==== Proof.KI.Accum.lean ====
import proofs.«103934_j28484223107660_1_alg».proof.Proof.LibBlockSum

/-! The sum over 4096 rows met as a running total over 8 consecutive blocks of 512 rows: a total that starts at
    zero plus the first block's sum and adds each later block's sum is, after the last block, the sum over all
    rows. Only commutativity and associativity of the addition are used, so the statements are over any
    commutative monoid, the extended reals among them. -/

namespace Cert.KernelIdeal.Hand

open scoped BigOperators

/-- Row `p` of block `t`: row `512 t + p` of the whole array. -/
def blkRow (t : Fin 8) (p : Fin 512) : Fin 4096 := ⟨512 * t.val + p.val, by have := t.isLt; have := p.isLt; omega⟩

theorem blkRow_val (t : Fin 8) (p : Fin 512) : (blkRow t p).val = 512 * t.val + p.val := rfl

section
variable {M : Type*} [AddCommMonoid M]

/-- The sum of `f` over the rows of block `t`. -/
def blkSum (f : Fin 4096 → M) (t : Fin 8) : M := ∑ p : Fin 512, f (blkRow t p)

/-- The sum over all rows is the sum over the blocks of the blocks' sums. -/
theorem sum_blkSum (f : Fin 4096 → M) : ∑ t : Fin 8, blkSum f t = ∑ k : Fin 4096, f k :=
  (Cert.BlockSum.sum_blocks (rfl : 8 * 512 = 4096) blkRow blkRow_val f).symm

/-- The running total: zero plus the first block's sum, then the previous total plus the next block's sum. -/
def acc (f : Fin 4096 → M) : (n : ℕ) → n < 8 → M
  | 0, _ => 0 + blkSum f 0
  | n + 1, h => acc f n (Nat.lt_of_succ_lt h) + blkSum f ⟨n + 1, h⟩

theorem acc_zero (f : Fin 4096 → M) (h : 0 < 8) : acc f 0 h = 0 + blkSum f 0 := rfl
theorem acc_succ (f : Fin 4096 → M) (n : ℕ) (h : n + 1 < 8) :
    acc f (n + 1) h = acc f n (Nat.lt_of_succ_lt h) + blkSum f ⟨n + 1, h⟩ := rfl

/-- The blocks' sums as a sequence over the naturals, zero past the last block. -/
def blkSeq (f : Fin 4096 → M) (t : ℕ) : M := if h : t < 8 then blkSum f ⟨t, h⟩ else 0

theorem blkSeq_of_lt (f : Fin 4096 → M) (t : ℕ) (h : t < 8) : blkSeq f t = blkSum f ⟨t, h⟩ := dif_pos h

/-- Any sequence that obeys the running total's two equations is, after the last block, the sum over all rows. -/
theorem total_of_steps (f : Fin 4096 → M) (a : ℕ → M) (h0 : a 0 = 0 + blkSum f 0)
    (hs : ∀ n (h : n + 1 < 8), a (n + 1) = a n + blkSum f ⟨n + 1, h⟩) : a 7 = ∑ k : Fin 4096, f k := by
  have hb0 : a 0 = 0 + blkSeq f 0 := h0
  have hbs : ∀ k, k + 1 < 8 → a (k + 1) = a k + blkSeq f (k + 1) :=
    fun k hk => by rw [hs k hk, blkSeq_of_lt f (k + 1) hk]
  rw [Cert.BlockSum.running_total 8 0 a (blkSeq f) hb0 hbs 7 (by decide), zero_add, ← sum_blkSum f, Finset.sum_range]
  exact Finset.sum_congr rfl fun t _ => blkSeq_of_lt f t.val t.isLt

/-- After the last block the running total is the sum over all rows. -/
theorem acc_last (f : Fin 4096 → M) (h : 7 < 8) : acc f 7 h = ∑ k : Fin 4096, f k := by
  have key := total_of_steps f (fun n => if h : n < 8 then acc f n h else 0) rfl
    (fun n h => by
      show (if h' : n + 1 < 8 then acc f (n + 1) h' else 0) = (if h' : n < 8 then acc f n h' else 0) + _
      rw [dif_pos h, dif_pos (Nat.lt_of_succ_lt h)]; rfl)
  exact key

end

end Cert.KernelIdeal.Hand
-- ==== Proof.KI.Step.lean ====
import proofs.«103934_j28484223107660_1_alg».proof.Proof.KI.PayE
import proofs.«103934_j28484223107660_1_alg».proof.Proof.KI.PayO
import proofs.«103934_j28484223107660_1_alg».proof.Proof.KI.Accum

/-! One grid step's arithmetic against the whole arrays: when the step's blocks are rows `512 t …` of the interaction
    matrix `R` and of the user features `u`, and the item features `it` whole, the step's new user rows are the
    layer's rows of that block, each running sum grows by the block's share of the whole sum, and once the running
    sums are the whole sums the final quotient is the layer's item entry. -/

noncomputable section

namespace Cert.KernelIdeal.Hand

open Cert.KernelIdeal Cert.KernelIdeal.Gen Idealize.ShloMosaic Idealize.ShloMosaic.ValueIdx

variable (R : FVec Ideal S4096x4096 .f32) (u it : FVec Ideal S4096x64 .f32)

/-- The terms of an item's weighted sum of user features, row by row. -/
abbrev wTerm (c' : Fin 4096) (d : Fin 64) : Fin 4096 → EReal := fun r => R (ix2 r c') * u (ix2 r d)
/-- The terms of an item's degree, row by row. -/
abbrev dTerm (c' : Fin 4096) : Fin 4096 → EReal := fun r => R (ix2 r c')

/-- A step's new user rows are the user layer's rows of its block. -/
theorem rows5 (t : Fin 8) (b0 : FVec Ideal S512x4096 .f32) (b2 : FVec Ideal S4096x64 .f32)
    (h0 : ∀ p k, b0 (ix2 p k) = R (ix2 (blkRow t p) k)) (h2 : ∀ k d, b2 (ix2 k d) = it (ix2 k d)) (p : Fin 512) (d : Fin 64) :
    k0_pay5 (F := Ideal) b0 b2 (ix2 p d) = Cert.Spec.uNew (Cert.Spec.cur R) (Cert.Spec.cur it) (blkRow t p) d := by
  rw [pay5_apply]
  unfold Cert.Spec.uNew
  refine congrArg₂ Ideal.div (Finset.sum_congr rfl fun k _ => ?_) (congrArg₂ (· + ·) (Finset.sum_congr rfl fun k _ => ?_) rfl)
  · rw [h0, h2]
  · rw [h0]

theorem rows5o (t : Fin 8) (b0 : FVec Ideal S512x4096 .f32) (b2 : FVec Ideal S4096x64 .f32)
    (h0 : ∀ p k, b0 (ix2 p k) = R (ix2 (blkRow t p) k)) (h2 : ∀ k d, b2 (ix2 k d) = it (ix2 k d)) (p : Fin 512) (d : Fin 64) :
    k1_pay5 (F := Ideal) b0 b2 (ix2 p d) = Cert.Spec.uNew (Cert.Spec.cur R) (Cert.Spec.cur it) (blkRow t p) d := by
  rw [pay5o_apply]
  unfold Cert.Spec.uNew
  refine congrArg₂ Ideal.div (Finset.sum_congr rfl fun k _ => ?_) (congrArg₂ (· + ·) (Finset.sum_congr rfl fun k _ => ?_) rfl)
  · rw [h0, h2]
  · rw [h0]

/-- A step adds its block's share to the running weighted sum. -/
theorem step6 (t : Fin 8) (b0 : FVec Ideal S512x4096 .f32) (b1 : FVec Ideal S512x64 .f32)
    (h0 : ∀ p k, b0 (ix2 p k) = R (ix2 (blkRow t p) k)) (h1 : ∀ p d, b1 (ix2 p d) = u (ix2 (blkRow t p) d))
    (s6 : FVec Ideal S4096x64 .f32) (c' : Fin 4096) (d : Fin 64) :
    k0_pay6 (F := Ideal) b0 b1 s6 (ix2 c' d) = s6 (ix2 c' d) + blkSum (wTerm R u c' d) t := by
  rw [pay6_apply]
  refine congrArg₂ (· + ·) rfl (Finset.sum_congr rfl fun p _ => ?_)
  rw [h0, h1]

theorem step6o (t : Fin 8) (b0 : FVec Ideal S512x4096 .f32) (b1 : FVec Ideal S512x64 .f32)
    (h0 : ∀ p k, b0 (ix2 p k) = R (ix2 (blkRow t p) k)) (h1 : ∀ p d, b1 (ix2 p d) = u (ix2 (blkRow t p) d))
    (s6 : FVec Ideal S4096x64 .f32) (c' : Fin 4096) (d : Fin 64) :
    k1_pay6 (F := Ideal) b0 b1 s6 (ix2 c' d) = s6 (ix2 c' d) + blkSum (wTerm R u c' d) t := by
  rw [pay6o_apply]
  refine congrArg₂ (· + ·) rfl (Finset.sum_congr rfl fun p _ => ?_)
  rw [h0, h1]

/-- A step adds its block's column sums to the running degrees. -/
theorem step7 (t : Fin 8) (b0 : FVec Ideal S512x4096 .f32)
    (h0 : ∀ p k, b0 (ix2 p k) = R (ix2 (blkRow t p) k)) (s7 : FVec Ideal S1x4096 .f32) (c' : Fin 4096) :
    k0_pay7 (F := Ideal) b0 s7 (ix2 (0 : Fin 1) c') = s7 (ix2 0 c') + blkSum (dTerm R c') t := by
  rw [pay7_apply]
  refine congrArg₂ (· + ·) rfl (Finset.sum_congr rfl fun p _ => ?_)
  rw [h0]

theorem step7o (t : Fin 8) (b0 : FVec Ideal S512x4096 .f32)
    (h0 : ∀ p k, b0 (ix2 p k) = R (ix2 (blkRow t p) k)) (s7 : FVec Ideal S1x4096 .f32) (c' : Fin 4096) :
    k1_pay7 (F := Ideal) b0 s7 (ix2 (0 : Fin 1) c') = s7 (ix2 0 c') + blkSum (dTerm R c') t := by
  rw [pay7o_apply]
  refine congrArg₂ (· + ·) rfl (Finset.sum_congr rfl fun p _ => ?_)
  rw [h0]

/-- Once the running sums are the whole sums, the final quotient is the item layer's entry. -/
theorem final1 (a7 : FVec Ideal S1x4096 .f32) (a6 : FVec Ideal S4096x64 .f32)
    (h6 : ∀ c' d, a6 (ix2 c' d) = ∑ r : Fin 4096, wTerm R u c' d r) (h7 : ∀ c', a7 (ix2 (0 : Fin 1) c') = ∑ r : Fin 4096, dTerm R c' r)
    (c' : Fin 4096) (d : Fin 64) :
    k0_pay1 (F := Ideal) a7 a6 (ix2 c' d) = Cert.Spec.iNew (Cert.Spec.cur R) (Cert.Spec.cur u) c' d := by
  rw [pay1_apply, h6, h7]
  rfl

theorem final1o (a7 : FVec Ideal S1x4096 .f32) (a6 : FVec Ideal S4096x64 .f32)
    (h6 : ∀ c' d, a6 (ix2 c' d) = ∑ r : Fin 4096, wTerm R u c' d r) (h7 : ∀ c', a7 (ix2 (0 : Fin 1) c') = ∑ r : Fin 4096, dTerm R c' r)
    (c' : Fin 4096) (d : Fin 64) :
    k1_pay1 (F := Ideal) a7 a6 (ix2 c' d) = Cert.Spec.iNew (Cert.Spec.cur R) (Cert.Spec.cur u) c' d := by
  rw [pay1o_apply, h6, h7]
  rfl

end Cert.KernelIdeal.Hand

end
-- ==== Proof.KI.Blk0.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb0 (t : Fin cfg0.N) : Fin 8 := ⟨t.val, lt_of_lt_of_eq t.isLt (show cfg0.N = 8 from N_0)⟩

/-- The block indices of the five windows at each row block. -/
theorem idx0_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

section
variable (c : Dev nD)

/-- The matrix's block at row block `t`, at `(p, k)`, is the matrix at row `512 t + p`, column `k`. -/
theorem blk0_0_apply (X : Buf (Elt F) ((c : Thread nD τ).loc (Pipeline.arrRef spec0 0))) (t : Fin cfg0.N) (p : Fin 512) (k : Fin 4096) :
    (((cfg0.win 0).blk t).view.read (Elt F) X : Vec F S512x4096 .f32) (ix2 p k)
      = (X : S4096x4096.Idx → F .f32) (ix2 (blkRow (rb0 t) p) k) := by
  obtain ⟨e00, e01, -⟩ := idx0_facts t
  rw [View.read_apply]
  show X _ = X _
  congr 1
  funext a; apply Fin.ext
  match a with
  | ⟨0, _⟩ => show win0_0.index t (0 : Fin 2) * 512 + 1 * p.val = 512 * t.val + p.val; rw [e00]; omega
  | ⟨1, _⟩ => show win0_0.index t (1 : Fin 2) * 4096 + 1 * k.val = k.val; rw [e01]; omega

/-- The user features' block at row block `t`, at `(p, d)`, is the user features at row `512 t + p`. -/
theorem blk0_1_apply (X : Buf (Elt F) ((c : Thread nD τ).loc (Pipeline.arrRef spec0 1))) (t : Fin cfg0.N) (p : Fin 512) (d : Fin 64) :
    (((cfg0.win 1).blk t).view.read (Elt F) X : Vec F S512x64 .f32) (ix2 p d)
      = (X : S4096x64.Idx → F .f32) (ix2 (blkRow (rb0 t) p) d) := by
  obtain ⟨-, -, e10, e11, -⟩ := idx0_facts t
  rw [View.read_apply]
  show X _ = X _
  congr 1
  funext a; apply Fin.ext
  match a with
  | ⟨0, _⟩ => show win0_1.index t (0 : Fin 2) * 512 + 1 * p.val = 512 * t.val + p.val; rw [e10]; omega
  | ⟨1, _⟩ => show win0_1.index t (1 : Fin 2) * 64 + 1 * d.val = d.val; rw [e11]; omega

/-- The item features' block is the item features, whole, at every row block. -/
theorem blk0_2_apply (X : Buf (Elt F) ((c : Thread nD τ).loc (Pipeline.arrRef spec0 2))) (t : Fin cfg0.N) (k : Fin 4096) (d : Fin 64) :
    (((cfg0.win 2).blk t).view.read (Elt F) X : Vec F S4096x64 .f32) (ix2 k d)
      = (X : S4096x64.Idx → F .f32) (ix2 k d) := by
  obtain ⟨-, -, -, -, e20, e21, -⟩ := idx0_facts t
  rw [View.read_apply]
  show X _ = X _
  congr 1
  funext a; apply Fin.ext
  match a with
  | ⟨0, _⟩ => show win0_2.index t (0 : Fin 2) * 4096 + 1 * k.val = k.val; rw [e20]; omega
  | ⟨1, _⟩ => show win0_2.index t (1 : Fin 2) * 64 + 1 * d.val = d.val; rw [e21]; omega

end

/-- The block of new user rows at row block `t` sits at rows `512 t …` of its array. -/
theorem emb0_3 (t : Fin cfg0.N) (p : Fin 512) (d : Fin 64) :
    (((cfg0.win 3).blk t).view.emb (ix2 p d) : S4096x64.Idx) = ix2 (blkRow (rb0 t) p) d := by
  obtain ⟨-, -, -, -, -, -, e30, e31, -⟩ := idx0_facts t
  funext a; apply Fin.ext
  match a with
  | ⟨0, _⟩ => show win0_3.index t (0 : Fin 2) * 512 + 1 * p.val = 512 * t.val + p.val; rw [e30]; omega
  | ⟨1, _⟩ => show win0_3.index t (1 : Fin 2) * 64 + 1 * d.val = d.val; rw [e31]; omega

/-- The item result's block is its whole array. -/
theorem emb0_4 (t : Fin cfg0.N) (k : Fin 4096) (d : Fin 64) :
    (((cfg0.win 4).blk t).view.emb (ix2 k d) : S4096x64.Idx) = ix2 k d := by
  obtain ⟨-, -, -, -, -, -, -, -, e40, e41⟩ := idx0_facts t
  funext a; apply Fin.ext
  match a with
  | ⟨0, _⟩ => show win0_4.index t (0 : Fin 2) * 4096 + 1 * k.val = k.val; rw [e40]; omega
  | ⟨1, _⟩ => show win0_4.index t (1 : Fin 2) * 64 + 1 * d.val = d.val; rw [e41]; omega

/-- An index of the user result is in row block `t`'s block when each coordinate is in the block's range. -/
theorem mem_blk0_3 (t : Fin cfg0.N) (i : S4096x64.Idx) :
    i ∈ ((cfg0.win 3).blk t).view.set ↔ ∀ a : Fin 2, win0_3.index t a * S512x64.size a ≤ (i a).val ∧ (i a).val < win0_3.index t a * S512x64.size a + S512x64.size a := by
  show i ∈ ((View.whole main_v2_0).slice (win0_3.rect t)).set ↔ _
  rw [View.set_slice_whole, Rect.mem_set_unit]
  exact Iff.rfl

theorem mem_blk0_4 (t : Fin cfg0.N) (i : S4096x64.Idx) :
    i ∈ ((cfg0.win 4).blk t).view.set ↔ ∀ a : Fin 2, win0_4.index t a * S4096x64.size a ≤ (i a).val ∧ (i a).val < win0_4.index t a * S4096x64.size a + S4096x64.size a := by
  show i ∈ ((View.whole main_v2_1).slice (win0_4.rect t)).set ↔ _
  rw [View.set_slice_whole, Rect.mem_set_unit]
  exact Iff.rfl

/-- Every row of the user result is written back by the row block it lies in. -/
theorem cover0_3 (i : S4096x64.Idx) : ∃ t : Fin cfg0.N, (cfg0.win 3).flush t = true ∧ i ∈ ((cfg0.win 3).blk t).view.set := by
  have hi0 : (i 0).val < 4096 := (i 0).isLt
  have hi1 : (i 1).val < 64 := (i 1).isLt
  have hN : cfg0.N = 8 := N_0
  have ht : (i 0).val / 512 < cfg0.N := by omega
  obtain ⟨-, -, -, -, -, -, e30, e31, -⟩ := idx0_facts ⟨(i 0).val / 512, ht⟩
  refine ⟨⟨(i 0).val / 512, ht⟩, flush0_3 _, ?_⟩
  rw [mem_blk0_3]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win0_3.index ⟨(i 0).val / 512, ht⟩ (1 : Fin 2) * 64 ≤ (i 1).val ∧ (i 1).val < win0_3.index ⟨(i 0).val / 512, ht⟩ (1 : Fin 2) * 64 + 64
    rw [e31]; omega

/-- Every entry of the item result is written back by the last row block. -/
theorem cover0_4 (i : S4096x64.Idx) : ∃ t : Fin cfg0.N, (cfg0.win 4).flush t = true ∧ i ∈ ((cfg0.win 4).blk t).view.set := by
  have hi0 : (i 0).val < 4096 := (i 0).isLt
  have hi1 : (i 1).val < 64 := (i 1).isLt
  obtain ⟨-, -, -, -, -, -, -, -, e40, e41⟩ := idx0_facts t0_7
  refine ⟨t0_7, (flush0_4 t0_7).mpr rfl, ?_⟩
  rw [mem_blk0_4]
  intro a
  match a with
  | ⟨0, _⟩ =>
    show win0_4.index t0_7 (0 : Fin 2) * 4096 ≤ (i 0).val ∧ (i 0).val < win0_4.index t0_7 (0 : Fin 2) * 4096 + 4096
    rw [e40]; omega
  | ⟨1, _⟩ =>
    show win0_4.index t0_7 (1 : Fin 2) * 64 ≤ (i 1).val ∧ (i 1).val < win0_4.index t0_7 (1 : Fin 2) * 64 + 64
    rw [e41]; omega

end Cert.KernelIdeal.Hand

end
-- ==== Proof.Ref.Layers.lean ====
import proofs.«103934_j28484223107660_1_alg».proof.Proof.Gen.ReferenceIdeal
import proofs.«103934_j28484223107660_1_alg».proof.Proof.Spec
import Idealize.ShloMosaic.Lib.ValueIdx
import Idealize.ShloMosaic.Lib.ValueLayout
import Idealize.ShloMosaic.Lib.Pipeline.Value
import Idealize.ShloMosaic.PureOps.Ideal.Laws

/-! The reference's propagation layers as functions of the arrays they read, and each layer read at an
    index over the extended reals: the weighted sum over the degree, entry by entry. -/

noncomputable section

namespace Cert.RefSide

open Cert.ReferenceIdeal Cert.ReferenceIdeal.Gen Idealize.ShloMosaic Idealize.ShloMosaic.ValueIdx

variable {F : FTy → Type} [FloatOps F]

/-- The user degrees: the row sums of the interaction matrix, plus the small constant, as a column. -/
def degU (R : FVec F S4096x4096 .f32) : FVec F S4096x1 .f32 :=
  addf (broadcastInDim S4096x1 ![0] bcast_S4096_S4096x1_0 (Host.reduceAdd R (constant S_ .f32 0x00000000#32) reducesTo_S4096x4096_S4096_d1 h_S_)) (broadcastInDim S4096x1 ![] bcast_S_S4096x1 (constant S_ .f32 0x322BCC77#32))

/-- The item degrees: the column sums of the interaction matrix, plus the small constant, as a column. -/
def degI (R : FVec F S4096x4096 .f32) : FVec F S4096x1 .f32 :=
  addf (broadcastInDim S4096x1 ![0] bcast_S4096_S4096x1_0 (Host.reduceAdd R (constant S_ .f32 0x00000000#32) reducesTo_S4096x4096_S4096_d0 h_S_)) (broadcastInDim S4096x1 ![] bcast_S_S4096x1 (constant S_ .f32 0x322BCC77#32))

/-- The user layer: the matrix times the item features, over the user degrees. -/
def layerU (R : FVec F S4096x4096 .f32) (it : FVec F S4096x64 .f32) : FVec F S4096x64 .f32 :=
  Host.divf (Host.dotGeneral dot_S4096x4096_S4096x64_S4096x64_1_0_0_1_n_n none R it) (broadcastInDim S4096x64 ![0, 1] bcast_S4096x1_S4096x64_0_1 (degU R))

/-- The item layer: the transposed matrix times the user features, over the item degrees. -/
def layerI (R : FVec F S4096x4096 .f32) (u : FVec F S4096x64 .f32) : FVec F S4096x64 .f32 :=
  Host.divf (Host.dotGeneral dot_S4096x4096_S4096x64_S4096x64_1_0_0_1_n_n none (transpose S4096x4096 [1, 0] R transposes_S4096x4096_S4096x4096_1_0) u) (broadcastInDim S4096x64 ![0, 1] bcast_S4096x1_S4096x64_0_1 (degI R))

/-- The mean of two layers as the reference takes it: zero plus the first plus the second, over two. -/
def mean2 (a b : FVec F S4096x64 .f32) : FVec F S4096x64 .f32 :=
  Host.divf (addf (addf (broadcastInDim S4096x64 ![] bcast_S_S4096x64 (constant S_ .f32 0x00000000#32)) a) b) (broadcastInDim S4096x64 ![] bcast_S_S4096x64 (constant S_ .f32 0x40000000#32))

/-! ## The layers read at an index, over the extended reals -/

theorem reduces_rows : S4096x4096.Reduces [1] S4096 := by decide
theorem reduces_cols : S4096x4096.Reduces [0] S4096 := by decide

/-- A user's degree is the row sum plus the small constant. -/
theorem degU_apply (R : FVec Ideal S4096x4096 .f32) (r : Fin 4096) (c : Fin 1) :
    degU (F := Ideal) R (ix2 r c) = (∑ k : Fin 4096, R (ix2 r k)) + Cert.Spec.eps := by
  unfold degU
  refine (addf_apply _ _ _).trans ?_
  refine congrArg₂ (· + ·) ?_ rfl
  refine (broadcastInDim_apply _ _ _ (ix2 r c) (ix1 r) (fun a => match a with | ⟨0, _⟩ => rfl)).trans ?_
  refine (Ideal.hostReduceAdd_single reducesTo_S4096x4096_S4096_d1 reduces_rows R _ (ix1 r)).trans ?_
  have h0 : constant (F := Ideal) S_ .f32 0x00000000#32 (Shape.Idx.first h_S_) = (0 : EReal) := Ideal.ofBits_zero_f32
  rw [h0, zero_add]
  exact Finset.sum_congr rfl fun k _ => congrArg R (funext fun a => match a with | ⟨0, _⟩ => rfl | ⟨1, _⟩ => rfl)

/-- An item's degree is the column sum plus the small constant. -/
theorem degI_apply (R : FVec Ideal S4096x4096 .f32) (c : Fin 4096) (z : Fin 1) :
    degI (F := Ideal) R (ix2 c z) = (∑ k : Fin 4096, R (ix2 k c)) + Cert.Spec.eps := by
  unfold degI
  refine (addf_apply _ _ _).trans ?_
  refine congrArg₂ (· + ·) ?_ rfl
  refine (broadcastInDim_apply _ _ _ (ix2 c z) (ix1 c) (fun a => match a with | ⟨0, _⟩ => rfl)).trans ?_
  refine (Ideal.hostReduceAdd_single reducesTo_S4096x4096_S4096_d0 reduces_cols R _ (ix1 c)).trans ?_
  have h0 : constant (F := Ideal) S_ .f32 0x00000000#32 (Shape.Idx.first h_S_) = (0 : EReal) := Ideal.ofBits_zero_f32
  rw [h0, zero_add]
  exact Finset.sum_congr rfl fun k _ => congrArg R (funext fun a => match a with | ⟨0, _⟩ => rfl | ⟨1, _⟩ => rfl)

/-- The matrix product's one contracted axis has extent 4096. -/
theorem dot_contr_rank : (dot_S4096x4096_S4096x64_S4096x64_1_0_0_1_n_n).contr.rank = 1 := rfl

/-- The user layer at (r, d): the weighted sum of item features over the user's degree. -/
theorem layerU_apply (R : FVec Ideal S4096x4096 .f32) (it : FVec Ideal S4096x64 .f32) (r : Fin 4096) (d : Fin 64) :
    layerU (F := Ideal) R it (ix2 r d) = Cert.Spec.uNew (Cert.Spec.cur R) (Cert.Spec.cur it) r d := by
  unfold layerU Cert.Spec.uNew
  refine congrArg₂ Ideal.div ?_ ?_
  · refine (Ideal.dotGeneral_apply _ none .single R it (ix2 r d)).trans ?_
    refine ((contrEquiv1 dot_S4096x4096_S4096x64_S4096x64_1_0_0_1_n_n 4096 dot_contr_rank rfl).symm.sum_comp _).symm.trans ?_
    refine Finset.sum_congr rfl fun k _ => ?_
    refine congrArg₂ (· * ·) (congrArg R ?_) (congrArg it ?_)
    · funext a
      match a with
      | ⟨0, _⟩ => exact Fin.ext rfl
      | ⟨1, _⟩ => exact Fin.ext ((DotDims.lhsIdx_val_of_single _ rfl _ _).trans (contrEquiv1_symm_val _ 4096 dot_contr_rank rfl k))
    · funext a
      match a with
      | ⟨0, _⟩ => exact Fin.ext ((DotDims.rhsIdx_val_of_single _ rfl _ _).trans (contrEquiv1_symm_val _ 4096 dot_contr_rank rfl k))
      | ⟨1, _⟩ => exact Fin.ext rfl
  · exact (broadcastInDim_apply _ _ _ (ix2 r d) (ix2 r (0 : Fin 1)) (fun a => match a with | ⟨0, _⟩ => rfl | ⟨1, _⟩ => rfl)).trans (degU_apply R r 0)

/-- The item layer at (c, d): the weighted sum of user features over the item's degree. -/
theorem layerI_apply (R : FVec Ideal S4096x4096 .f32) (u : FVec Ideal S4096x64 .f32) (c : Fin 4096) (d : Fin 64) :
    layerI (F := Ideal) R u (ix2 c d) = Cert.Spec.iNew (Cert.Spec.cur R) (Cert.Spec.cur u) c d := by
  unfold layerI Cert.Spec.iNew
  refine congrArg₂ Ideal.div ?_ ?_
  · refine (Ideal.dotGeneral_apply _ none .single _ u (ix2 c d)).trans ?_
    refine ((contrEquiv1 dot_S4096x4096_S4096x64_S4096x64_1_0_0_1_n_n 4096 dot_contr_rank rfl).symm.sum_comp _).symm.trans ?_
    refine Finset.sum_congr rfl fun k _ => ?_
    refine congrArg₂ (· * ·) ?_ (congrArg u ?_)
    · refine Eq.trans (congrArg _ ?_) (transpose_ix2_apply R transposes_S4096x4096_S4096x4096_1_0 c k)
      funext a
      match a with
      | ⟨0, _⟩ => exact Fin.ext rfl
      | ⟨1, _⟩ => exact Fin.ext ((DotDims.lhsIdx_val_of_single _ rfl _ _).trans (contrEquiv1_symm_val _ 4096 dot_contr_rank rfl k))
    · funext a
      match a with
      | ⟨0, _⟩ => exact Fin.ext ((DotDims.rhsIdx_val_of_single _ rfl _ _).trans (contrEquiv1_symm_val _ 4096 dot_contr_rank rfl k))
      | ⟨1, _⟩ => exact Fin.ext rfl
  · exact (broadcastInDim_apply _ _ _ (ix2 c d) (ix2 c (0 : Fin 1)) (fun a => match a with | ⟨0, _⟩ => rfl | ⟨1, _⟩ => rfl)).trans (degI_apply R c 0)

end Cert.RefSide

end
-- ==== Proof.KI.Val0.lean ====
import proofs.«103934_j28484223107660_1_alg».proof.Proof.KI.Reg0
import proofs.«103934_j28484223107660_1_alg».proof.Proof.KI.Step
import proofs.«103934_j28484223107660_1_alg».proof.Proof.KI.Blk0
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region0

variable (V : (c : Dev nD) → (b : Ref sig .tc) → Buf (Elt Ideal) ((c : Thread nD τ).loc b))

/-- The interaction matrix, the user features and the item features as the launch finds them. -/
abbrev R0 (c : Dev nD) : FVec Ideal S4096x4096 .f32 := V c (Pipeline.arrRef spec0 0)
abbrev u0 (c : Dev nD) : FVec Ideal S4096x64 .f32 := V c (Pipeline.arrRef spec0 1)
abbrev it0 (c : Dev nD) : FVec Ideal S4096x64 .f32 := V c (Pipeline.arrRef spec0 2)

/-- The blocks the body reads at row block `t` are the arrays' rows `512 t …`, and the item features whole. -/
theorem iblk0_0_apply (c : Dev nD) (t : Fin cfg0.N) (p : Fin 512) (k : Fin 4096) :
    (iblk0 V c 0 t : Vec Ideal S512x4096 .f32) (ix2 p k) = R0 V c (ix2 (blkRow (rb0 t) p) k) :=
  blk0_0_apply c (V c (Pipeline.arrRef spec0 0)) t p k
theorem iblk0_1_apply (c : Dev nD) (t : Fin cfg0.N) (p : Fin 512) (d : Fin 64) :
    (iblk0 V c 1 t : Vec Ideal S512x64 .f32) (ix2 p d) = u0 V c (ix2 (blkRow (rb0 t) p) d) :=
  blk0_1_apply c (V c (Pipeline.arrRef spec0 1)) t p d
theorem iblk0_2_apply (c : Dev nD) (t : Fin cfg0.N) (k : Fin 4096) (d : Fin 64) :
    (iblk0 V c 2 t : Vec Ideal S4096x64 .f32) (ix2 k d) = it0 V c (ix2 k d) :=
  blk0_2_apply c (V c (Pipeline.arrRef spec0 2)) t k d

/-! ## The user result -/

/-- What row block `t` writes back of the user result is its block of the user layer. -/
theorem flushed0_3_eq (c : Dev nD) (t : Fin cfg0.N) :
    (dat0 (F := Ideal) V c).flushed 3 t
      = ((cfg0.win 3).blk t).view.read (Elt Ideal) (Cert.RefSide.layerU (F := Ideal) (R0 V c) (it0 V c)) := by
  show (cfg0.win 3).cut (grid0.coords t) ((dat0 V c).after 3 t) = _
  rw [after0_3]
  funext j
  obtain ⟨p, d, rfl⟩ : ∃ (p : Fin 512) (d : Fin 64), j = ix2 p d := ⟨j 0, j 1, eq_ix2 j⟩
  rw [View.read_apply]
  show k0_pay5 (F := Ideal) (iblk0 V c 0 t) (iblk0 V c 2 t) (ix2 p d)
    = Cert.RefSide.layerU (F := Ideal) (R0 V c) (it0 V c) (((cfg0.win 3).blk t).view.emb (ix2 p d))
  rw [emb0_3 t p d, Cert.RefSide.layerU_apply]
  exact rows5 (R0 V c) (it0 V c) (rb0 t) _ _ (iblk0_0_apply V c t) (iblk0_2_apply V c t) p d

/-- The user result after the launch is the user layer. -/
theorem val0_u (c : Dev nD) :
    (dat0 (F := Ideal) V c).arrAt 3 cfg0.N = Cert.RefSide.layerU (F := Ideal) (V c (Pipeline.arrRef spec0 0)) (V c (Pipeline.arrRef spec0 2)) :=
  (dat0 (F := Ideal) V c).arrAt_eq_of_cover 3 (Cert.RefSide.layerU (F := Ideal) (R0 V c) (it0 V c))
    (fun t _ => flushed0_3_eq V c t) cover0_3

/-! ## The item result -/

/-- After row block `n` the two accumulators hold the running totals of the whole sums' terms. -/
theorem accAt0_apply (c : Dev nD) : ∀ (n : ℕ) (hn : n < cfg0.N) (c' : Fin 4096) (d : Fin 64),
    (accAt0 (F := Ideal) V c n hn).1 (ix2 c' d) = acc (wTerm (R0 V c) (u0 V c) c' d) n (lt_of_lt_of_eq hn (show cfg0.N = 8 from N_0))
    ∧ (accAt0 (F := Ideal) V c n hn).2 (ix2 (0 : Fin 1) c') = acc (dTerm (R0 V c) c') n (lt_of_lt_of_eq hn (show cfg0.N = 8 from N_0))
  | 0, hn, c', d => by
    constructor
    · show k0_pay6 (F := Ideal) (iblk0 V c 0 ⟨0, hn⟩) (iblk0 V c 1 ⟨0, hn⟩) (k0_pay2 (F := Ideal)) (ix2 c' d) = _
      rw [step6 (R0 V c) (u0 V c) (rb0 ⟨0, hn⟩) _ _ (iblk0_0_apply V c ⟨0, hn⟩) (iblk0_1_apply V c ⟨0, hn⟩), pay2_apply]
      rfl
    · show k0_pay7 (F := Ideal) (iblk0 V c 0 ⟨0, hn⟩) (k0_pay3 (F := Ideal)) (ix2 (0 : Fin 1) c') = _
      rw [step7 (R0 V c) (rb0 ⟨0, hn⟩) _ (iblk0_0_apply V c ⟨0, hn⟩), pay3_apply]
      rfl
  | n + 1, hn, c', d => by
    constructor
    · show k0_pay6 (F := Ideal) (iblk0 V c 0 ⟨n + 1, hn⟩) (iblk0 V c 1 ⟨n + 1, hn⟩) (accAt0 V c n (Nat.lt_of_succ_lt hn)).1 (ix2 c' d) = _
      rw [step6 (R0 V c) (u0 V c) (rb0 ⟨n + 1, hn⟩) _ _ (iblk0_0_apply V c ⟨n + 1, hn⟩) (iblk0_1_apply V c ⟨n + 1, hn⟩),
        (accAt0_apply c n (Nat.lt_of_succ_lt hn) c' d).1]
      rfl
    · show k0_pay7 (F := Ideal) (iblk0 V c 0 ⟨n + 1, hn⟩) (accAt0 V c n (Nat.lt_of_succ_lt hn)).2 (ix2 (0 : Fin 1) c') = _
      rw [step7 (R0 V c) (rb0 ⟨n + 1, hn⟩) _ (iblk0_0_apply V c ⟨n + 1, hn⟩),
        (accAt0_apply c n (Nat.lt_of_succ_lt hn) c' d).2]
      rfl

/-- What the last row block writes back of the item result is the item layer. -/
theorem flushed0_4_eq (c : Dev nD) (t : Fin cfg0.N) (hf : (cfg0.win 4).flush t = true) :
    (dat0 (F := Ideal) V c).flushed 4 t
      = ((cfg0.win 4).blk t).view.read (Elt Ideal) (Cert.RefSide.layerI (F := Ideal) (R0 V c) (u0 V c)) := by
  have hN : cfg0.N = 8 := N_0
  have h7 : t.val = 7 := by have := (flush0_4 t).mp hf; have := t.isLt; omega
  show (cfg0.win 4).cut (grid0.coords t) ((dat0 V c).after 4 t) = _
  rw [after0_4]
  funext j
  obtain ⟨c', d, rfl⟩ : ∃ (c' : Fin 4096) (d : Fin 64), j = ix2 c' d := ⟨j 0, j 1, eq_ix2 j⟩
  rw [View.read_apply]
  show k0_pay1 (F := Ideal) (accAt0 V c t.val t.isLt).2 (accAt0 V c t.val t.isLt).1 (ix2 c' d)
    = Cert.RefSide.layerI (F := Ideal) (R0 V c) (u0 V c) (((cfg0.win 4).blk t).view.emb (ix2 c' d))
  rw [emb0_4 t c' d, Cert.RefSide.layerI_apply]
  obtain ⟨n, hn⟩ := t
  obtain rfl : n = 7 := h7
  refine final1 (R0 V c) (u0 V c) _ _ (fun c' d => ?_) (fun c' => ?_) c' d
  · exact ((accAt0_apply V c 7 hn c' d).1).trans (acc_last _ _)
  · exact ((accAt0_apply V c 7 hn c' (0 : Fin 64)).2).trans (acc_last _ _)

/-- The item result after the launch is the item layer. -/
theorem val0_i (c : Dev nD) :
    (dat0 (F := Ideal) V c).arrAt 4 cfg0.N = Cert.RefSide.layerI (F := Ideal) (V c (Pipeline.arrRef spec0 0)) (V c (Pipeline.arrRef spec0 1)) :=
  (dat0 (F := Ideal) V c).arrAt_eq_of_cover 4 (Cert.RefSide.layerI (F := Ideal) (R0 V c) (u0 V c))
    (flushed0_4_eq V c) cover0_4

end Region0

end Cert.KernelIdeal.Hand

end
-- ==== Proof.KI.Blk1.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb1 (t : Fin cfg1.N) : Fin 8 := ⟨t.val, lt_of_lt_of_eq t.isLt (show cfg1.N = 8 from N_1)⟩

/-- The block indices of the five windows at each row block. -/
theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

section
variable (c : Dev nD)

/-- The matrix's block at row block `t`, at `(p, k)`, is the matrix at row `512 t + p`, column `k`. -/
theorem blk1_0_apply (X : Buf (Elt F) ((c : Thread nD τ).loc (Pipeline.arrRef spec1 0))) (t : Fin cfg1.N) (p : Fin 512) (k : Fin 4096) :
    (((cfg1.win 0).blk t).view.read (Elt F) X : Vec F S512x4096 .f32) (ix2 p k)
      = (X : S4096x4096.Idx → F .f32) (ix2 (blkRow (rb1 t) p) k) := by
  obtain ⟨e00, e01, -⟩ := idx1_facts t
  rw [View.read_apply]
  show X _ = X _
  congr 1
  funext a; apply Fin.ext
  match a with
  | ⟨0, _⟩ => show win1_0.index t (0 : Fin 2) * 512 + 1 * p.val = 512 * t.val + p.val; rw [e00]; omega
  | ⟨1, _⟩ => show win1_0.index t (1 : Fin 2) * 4096 + 1 * k.val = k.val; rw [e01]; omega

/-- The user features' block at row block `t`, at `(p, d)`, is the user features at row `512 t + p`. -/
theorem blk1_1_apply (X : Buf (Elt F) ((c : Thread nD τ).loc (Pipeline.arrRef spec1 1))) (t : Fin cfg1.N) (p : Fin 512) (d : Fin 64) :
    (((cfg1.win 1).blk t).view.read (Elt F) X : Vec F S512x64 .f32) (ix2 p d)
      = (X : S4096x64.Idx → F .f32) (ix2 (blkRow (rb1 t) p) d) := by
  obtain ⟨-, -, e10, e11, -⟩ := idx1_facts t
  rw [View.read_apply]
  show X _ = X _
  congr 1
  funext a; apply Fin.ext
  match a with
  | ⟨0, _⟩ => show win1_1.index t (0 : Fin 2) * 512 + 1 * p.val = 512 * t.val + p.val; rw [e10]; omega
  | ⟨1, _⟩ => show win1_1.index t (1 : Fin 2) * 64 + 1 * d.val = d.val; rw [e11]; omega

/-- The item features' block is the item features, whole, at every row block. -/
theorem blk1_2_apply (X : Buf (Elt F) ((c : Thread nD τ).loc (Pipeline.arrRef spec1 2))) (t : Fin cfg1.N) (k : Fin 4096) (d : Fin 64) :
    (((cfg1.win 2).blk t).view.read (Elt F) X : Vec F S4096x64 .f32) (ix2 k d)
      = (X : S4096x64.Idx → F .f32) (ix2 k d) := by
  obtain ⟨-, -, -, -, e20, e21, -⟩ := idx1_facts t
  rw [View.read_apply]
  show X _ = X _
  congr 1
  funext a; apply Fin.ext
  match a with
  | ⟨0, _⟩ => show win1_2.index t (0 : Fin 2) * 4096 + 1 * k.val = k.val; rw [e20]; omega
  | ⟨1, _⟩ => show win1_2.index t (1 : Fin 2) * 64 + 1 * d.val = d.val; rw [e21]; omega

end

/-- The block of new user rows at row block `t` sits at rows `512 t …` of its array. -/
theorem emb1_3 (t : Fin cfg1.N) (p : Fin 512) (d : Fin 64) :
    (((cfg1.win 3).blk t).view.emb (ix2 p d) : S4096x64.Idx) = ix2 (blkRow (rb1 t) p) d := by
  obtain ⟨-, -, -, -, -, -, e30, e31, -⟩ := idx1_facts t
  funext a; apply Fin.ext
  match a with
  | ⟨0, _⟩ => show win1_3.index t (0 : Fin 2) * 512 + 1 * p.val = 512 * t.val + p.val; rw [e30]; omega
  | ⟨1, _⟩ => show win1_3.index t (1 : Fin 2) * 64 + 1 * d.val = d.val; rw [e31]; omega

/-- The item result's block is its whole array. -/
theorem emb1_4 (t : Fin cfg1.N) (k : Fin 4096) (d : Fin 64) :
    (((cfg1.win 4).blk t).view.emb (ix2 k d) : S4096x64.Idx) = ix2 k d := by
  obtain ⟨-, -, -, -, -, -, -, -, e40, e41⟩ := idx1_facts t
  funext a; apply Fin.ext
  match a with
  | ⟨0, _⟩ => show win1_4.index t (0 : Fin 2) * 4096 + 1 * k.val = k.val; rw [e40]; omega
  | ⟨1, _⟩ => show win1_4.index t (1 : Fin 2) * 64 + 1 * d.val = d.val; rw [e41]; omega

/-- An index of the user result is in row block `t`'s block when each coordinate is in the block's range. -/
theorem mem_blk1_3 (t : Fin cfg1.N) (i : S4096x64.Idx) :
    i ∈ ((cfg1.win 3).blk t).view.set ↔ ∀ a : Fin 2, win1_3.index t a * S512x64.size a ≤ (i a).val ∧ (i a).val < win1_3.index t a * S512x64.size a + S512x64.size a := by
  show i ∈ ((View.whole main_v5_0).slice (win1_3.rect t)).set ↔ _
  rw [View.set_slice_whole, Rect.mem_set_unit]
  exact Iff.rfl

theorem mem_blk1_4 (t : Fin cfg1.N) (i : S4096x64.Idx) :
    i ∈ ((cfg1.win 4).blk t).view.set ↔ ∀ a : Fin 2, win1_4.index t a * S4096x64.size a ≤ (i a).val ∧ (i a).val < win1_4.index t a * S4096x64.size a + S4096x64.size a := by
  show i ∈ ((View.whole main_v5_1).slice (win1_4.rect t)).set ↔ _
  rw [View.set_slice_whole, Rect.mem_set_unit]
  exact Iff.rfl

/-- Every row of the user result is written back by the row block it lies in. -/
theorem cover1_3 (i : S4096x64.Idx) : ∃ t : Fin cfg1.N, (cfg1.win 3).flush t = true ∧ i ∈ ((cfg1.win 3).blk t).view.set := by
  have hi0 : (i 0).val < 4096 := (i 0).isLt
  have hi1 : (i 1).val < 64 := (i 1).isLt
  have hN : cfg1.N = 8 := N_1
  have ht : (i 0).val / 512 < cfg1.N := by omega
  obtain ⟨-, -, -, -, -, -, e30, e31, -⟩ := idx1_facts ⟨(i 0).val / 512, ht⟩
  refine ⟨⟨(i 0).val / 512, ht⟩, flush1_3 _, ?_⟩
  rw [mem_blk1_3]
  intro a
  match a with
  | ⟨0, _⟩ =>
    show win1_3.index ⟨(i 0).val / 512, ht⟩ (0 : Fin 2) * 512 ≤ (i 0).val ∧ (i 0).val < win1_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win1_3.index ⟨(i 0).val / 512, ht⟩ (1 : Fin 2) * 64 ≤ (i 1).val ∧ (i 1).val < win1_3.index ⟨(i 0).val / 512, ht⟩ (1 : Fin 2) * 64 + 64
    rw [e31]; omega

/-- Every entry of the item result is written back by the last row block. -/
theorem cover1_4 (i : S4096x64.Idx) : ∃ t : Fin cfg1.N, (cfg1.win 4).flush t = true ∧ i ∈ ((cfg1.win 4).blk t).view.set := by
  have hi0 : (i 0).val < 4096 := (i 0).isLt
  have hi1 : (i 1).val < 64 := (i 1).isLt
  obtain ⟨-, -, -, -, -, -, -, -, e40, e41⟩ := idx1_facts t1_7
  refine ⟨t1_7, (flush1_4 t1_7).mpr rfl, ?_⟩
  rw [mem_blk1_4]
  intro a
  match a with
  | ⟨0, _⟩ =>
    show win1_4.index t1_7 (0 : Fin 2) * 4096 ≤ (i 0).val ∧ (i 0).val < win1_4.index t1_7 (0 : Fin 2) * 4096 + 4096
    rw [e40]; omega
  | ⟨1, _⟩ =>
    show win1_4.index t1_7 (1 : Fin 2) * 64 ≤ (i 1).val ∧ (i 1).val < win1_4.index t1_7 (1 : Fin 2) * 64 + 64
    rw [e41]; omega

end Cert.KernelIdeal.Hand

end
-- ==== Proof.KI.Val1.lean ====
import proofs.«103934_j28484223107660_1_alg».proof.Proof.KI.Reg1
import proofs.«103934_j28484223107660_1_alg».proof.Proof.KI.Step
import proofs.«103934_j28484223107660_1_alg».proof.Proof.KI.Blk1
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region1

variable (V : (c : Dev nD) → (b : Ref sig .tc) → Buf (Elt Ideal) ((c : Thread nD τ).loc b))

/-- The interaction matrix, the user features and the item features as the launch finds them. -/
abbrev R1 (c : Dev nD) : FVec Ideal S4096x4096 .f32 := V c (Pipeline.arrRef spec1 0)
abbrev u1 (c : Dev nD) : FVec Ideal S4096x64 .f32 := V c (Pipeline.arrRef spec1 1)
abbrev it1 (c : Dev nD) : FVec Ideal S4096x64 .f32 := V c (Pipeline.arrRef spec1 2)

/-- The blocks the body reads at row block `t` are the arrays' rows `512 t …`, and the item features whole. -/
theorem iblk1_0_apply (c : Dev nD) (t : Fin cfg1.N) (p : Fin 512) (k : Fin 4096) :
    (iblk1 V c 0 t : Vec Ideal S512x4096 .f32) (ix2 p k) = R1 V c (ix2 (blkRow (rb1 t) p) k) :=
  blk1_0_apply c (V c (Pipeline.arrRef spec1 0)) t p k
theorem iblk1_1_apply (c : Dev nD) (t : Fin cfg1.N) (p : Fin 512) (d : Fin 64) :
    (iblk1 V c 1 t : Vec Ideal S512x64 .f32) (ix2 p d) = u1 V c (ix2 (blkRow (rb1 t) p) d) :=
  blk1_1_apply c (V c (Pipeline.arrRef spec1 1)) t p d
theorem iblk1_2_apply (c : Dev nD) (t : Fin cfg1.N) (k : Fin 4096) (d : Fin 64) :
    (iblk1 V c 2 t : Vec Ideal S4096x64 .f32) (ix2 k d) = it1 V c (ix2 k d) :=
  blk1_2_apply c (V c (Pipeline.arrRef spec1 2)) t k d

/-! ## The user result -/

/-- What row block `t` writes back of the user result is its block of the user layer. -/
theorem flushed1_3_eq (c : Dev nD) (t : Fin cfg1.N) :
    (dat1 (F := Ideal) V c).flushed 3 t
      = ((cfg1.win 3).blk t).view.read (Elt Ideal) (Cert.RefSide.layerU (F := Ideal) (R1 V c) (it1 V c)) := by
  show (cfg1.win 3).cut (grid1.coords t) ((dat1 V c).after 3 t) = _
  rw [after1_3]
  funext j
  obtain ⟨p, d, rfl⟩ : ∃ (p : Fin 512) (d : Fin 64), j = ix2 p d := ⟨j 0, j 1, eq_ix2 j⟩
  rw [View.read_apply]
  show k1_pay5 (F := Ideal) (iblk1 V c 0 t) (iblk1 V c 2 t) (ix2 p d)
    = Cert.RefSide.layerU (F := Ideal) (R1 V c) (it1 V c) (((cfg1.win 3).blk t).view.emb (ix2 p d))
  rw [emb1_3 t p d, Cert.RefSide.layerU_apply]
  exact rows5o (R1 V c) (it1 V c) (rb1 t) _ _ (iblk1_0_apply V c t) (iblk1_2_apply V c t) p d

/-- The user result after the launch is the user layer. -/
theorem val1_u (c : Dev nD) :
    (dat1 (F := Ideal) V c).arrAt 3 cfg1.N = Cert.RefSide.layerU (F := Ideal) (V c (Pipeline.arrRef spec1 0)) (V c (Pipeline.arrRef spec1 2)) :=
  (dat1 (F := Ideal) V c).arrAt_eq_of_cover 3 (Cert.RefSide.layerU (F := Ideal) (R1 V c) (it1 V c))
    (fun t _ => flushed1_3_eq V c t) cover1_3

/-! ## The item result -/

/-- After row block `n` the two accumulators hold the running totals of the whole sums' terms. -/
theorem accAt1_apply (c : Dev nD) : ∀ (n : ℕ) (hn : n < cfg1.N) (c' : Fin 4096) (d : Fin 64),
    (accAt1 (F := Ideal) V c n hn).1 (ix2 c' d) = acc (wTerm (R1 V c) (u1 V c) c' d) n (lt_of_lt_of_eq hn (show cfg1.N = 8 from N_1))
    ∧ (accAt1 (F := Ideal) V c n hn).2 (ix2 (0 : Fin 1) c') = acc (dTerm (R1 V c) c') n (lt_of_lt_of_eq hn (show cfg1.N = 8 from N_1))
  | 0, hn, c', d => by
    constructor
    · show k1_pay6 (F := Ideal) (iblk1 V c 0 ⟨0, hn⟩) (iblk1 V c 1 ⟨0, hn⟩) (k1_pay2 (F := Ideal)) (ix2 c' d) = _
      rw [step6o (R1 V c) (u1 V c) (rb1 ⟨0, hn⟩) _ _ (iblk1_0_apply V c ⟨0, hn⟩) (iblk1_1_apply V c ⟨0, hn⟩), pay2o_apply]
      rfl
    · show k1_pay7 (F := Ideal) (iblk1 V c 0 ⟨0, hn⟩) (k1_pay3 (F := Ideal)) (ix2 (0 : Fin 1) c') = _
      rw [step7o (R1 V c) (rb1 ⟨0, hn⟩) _ (iblk1_0_apply V c ⟨0, hn⟩), pay3o_apply]
      rfl
  | n + 1, hn, c', d => by
    constructor
    · show k1_pay6 (F := Ideal) (iblk1 V c 0 ⟨n + 1, hn⟩) (iblk1 V c 1 ⟨n + 1, hn⟩) (accAt1 V c n (Nat.lt_of_succ_lt hn)).1 (ix2 c' d) = _
      rw [step6o (R1 V c) (u1 V c) (rb1 ⟨n + 1, hn⟩) _ _ (iblk1_0_apply V c ⟨n + 1, hn⟩) (iblk1_1_apply V c ⟨n + 1, hn⟩),
        (accAt1_apply c n (Nat.lt_of_succ_lt hn) c' d).1]
      rfl
    · show k1_pay7 (F := Ideal) (iblk1 V c 0 ⟨n + 1, hn⟩) (accAt1 V c n (Nat.lt_of_succ_lt hn)).2 (ix2 (0 : Fin 1) c') = _
      rw [step7o (R1 V c) (rb1 ⟨n + 1, hn⟩) _ (iblk1_0_apply V c ⟨n + 1, hn⟩),
        (accAt1_apply c n (Nat.lt_of_succ_lt hn) c' d).2]
      rfl

/-- What the last row block writes back of the item result is the item layer. -/
theorem flushed1_4_eq (c : Dev nD) (t : Fin cfg1.N) (hf : (cfg1.win 4).flush t = true) :
    (dat1 (F := Ideal) V c).flushed 4 t
      = ((cfg1.win 4).blk t).view.read (Elt Ideal) (Cert.RefSide.layerI (F := Ideal) (R1 V c) (u1 V c)) := by
  have hN : cfg1.N = 8 := N_1
  have h7 : t.val = 7 := by have := (flush1_4 t).mp hf; have := t.isLt; omega
  show (cfg1.win 4).cut (grid1.coords t) ((dat1 V c).after 4 t) = _
  rw [after1_4]
  funext j
  obtain ⟨c', d, rfl⟩ : ∃ (c' : Fin 4096) (d : Fin 64), j = ix2 c' d := ⟨j 0, j 1, eq_ix2 j⟩
  rw [View.read_apply]
  show k1_pay1 (F := Ideal) (accAt1 V c t.val t.isLt).2 (accAt1 V c t.val t.isLt).1 (ix2 c' d)
    = Cert.RefSide.layerI (F := Ideal) (R1 V c) (u1 V c) (((cfg1.win 4).blk t).view.emb (ix2 c' d))
  rw [emb1_4 t c' d, Cert.RefSide.layerI_apply]
  obtain ⟨n, hn⟩ := t
  obtain rfl : n = 7 := h7
  refine final1o (R1 V c) (u1 V c) _ _ (fun c' d => ?_) (fun c' => ?_) c' d
  · exact ((accAt1_apply V c 7 hn c' d).1).trans (acc_last _ _)
  · exact ((accAt1_apply V c 7 hn c' (0 : Fin 64)).2).trans (acc_last _ _)

/-- The item result after the launch is the item layer. -/
theorem val1_i (c : Dev nD) :
    (dat1 (F := Ideal) V c).arrAt 4 cfg1.N = Cert.RefSide.layerI (F := Ideal) (V c (Pipeline.arrRef spec1 0)) (V c (Pipeline.arrRef spec1 1)) :=
  (dat1 (F := Ideal) V c).arrAt_eq_of_cover 4 (Cert.RefSide.layerI (F := Ideal) (R1 V c) (u1 V c))
    (flushed1_4_eq V c) cover1_4

end Region1

end Cert.KernelIdeal.Hand

end
-- ==== Proof.KI.Blk2.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb2 (t : Fin cfg2.N) : Fin 8 := ⟨t.val, lt_of_lt_of_eq t.isLt (show cfg2.N = 8 from N_2)⟩

/-- The block indices of the five windows at each row block. -/
theorem idx2_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

section
variable (c : Dev nD)

/-- The matrix's block at row block `t`, at `(p, k)`, is the matrix at row `512 t + p`, column `k`. -/
theorem blk2_0_apply (X : Buf (Elt F) ((c : Thread nD τ).loc (Pipeline.arrRef spec2 0))) (t : Fin cfg2.N) (p : Fin 512) (k : Fin 4096) :
    (((cfg2.win 0).blk t).view.read (Elt F) X : Vec F S512x4096 .f32) (ix2 p k)
      = (X : S4096x4096.Idx → F .f32) (ix2 (blkRow (rb2 t) p) k) := by
  obtain ⟨e00, e01, -⟩ := idx2_facts t
  rw [View.read_apply]
  show X _ = X _
  congr 1
  funext a; apply Fin.ext
  match a with
  | ⟨0, _⟩ => show win2_0.index t (0 : Fin 2) * 512 + 1 * p.val = 512 * t.val + p.val; rw [e00]; omega
  | ⟨1, _⟩ => show win2_0.index t (1 : Fin 2) * 4096 + 1 * k.val = k.val; rw [e01]; omega

/-- The user features' block at row block `t`, at `(p, d)`, is the user features at row `512 t + p`. -/
theorem blk2_1_apply (X : Buf (Elt F) ((c : Thread nD τ).loc (Pipeline.arrRef spec2 1))) (t : Fin cfg2.N) (p : Fin 512) (d : Fin 64) :
    (((cfg2.win 1).blk t).view.read (Elt F) X : Vec F S512x64 .f32) (ix2 p d)
      = (X : S4096x64.Idx → F .f32) (ix2 (blkRow (rb2 t) p) d) := by
  obtain ⟨-, -, e10, e11, -⟩ := idx2_facts t
  rw [View.read_apply]
  show X _ = X _
  congr 1
  funext a; apply Fin.ext
  match a with
  | ⟨0, _⟩ => show win2_1.index t (0 : Fin 2) * 512 + 1 * p.val = 512 * t.val + p.val; rw [e10]; omega
  | ⟨1, _⟩ => show win2_1.index t (1 : Fin 2) * 64 + 1 * d.val = d.val; rw [e11]; omega

/-- The item features' block is the item features, whole, at every row block. -/
theorem blk2_2_apply (X : Buf (Elt F) ((c : Thread nD τ).loc (Pipeline.arrRef spec2 2))) (t : Fin cfg2.N) (k : Fin 4096) (d : Fin 64) :
    (((cfg2.win 2).blk t).view.read (Elt F) X : Vec F S4096x64 .f32) (ix2 k d)
      = (X : S4096x64.Idx → F .f32) (ix2 k d) := by
  obtain ⟨-, -, -, -, e20, e21, -⟩ := idx2_facts t
  rw [View.read_apply]
  show X _ = X _
  congr 1
  funext a; apply Fin.ext
  match a with
  | ⟨0, _⟩ => show win2_2.index t (0 : Fin 2) * 4096 + 1 * k.val = k.val; rw [e20]; omega
  | ⟨1, _⟩ => show win2_2.index t (1 : Fin 2) * 64 + 1 * d.val = d.val; rw [e21]; omega

end

/-- The block of new user rows at row block `t` sits at rows `512 t …` of its array. -/
theorem emb2_3 (t : Fin cfg2.N) (p : Fin 512) (d : Fin 64) :
    (((cfg2.win 3).blk t).view.emb (ix2 p d) : S4096x64.Idx) = ix2 (blkRow (rb2 t) p) d := by
  obtain ⟨-, -, -, -, -, -, e30, e31, -⟩ := idx2_facts t
  funext a; apply Fin.ext
  match a with
  | ⟨0, _⟩ => show win2_3.index t (0 : Fin 2) * 512 + 1 * p.val = 512 * t.val + p.val; rw [e30]; omega
  | ⟨1, _⟩ => show win2_3.index t (1 : Fin 2) * 64 + 1 * d.val = d.val; rw [e31]; omega

/-- The item result's block is its whole array. -/
theorem emb2_4 (t : Fin cfg2.N) (k : Fin 4096) (d : Fin 64) :
    (((cfg2.win 4).blk t).view.emb (ix2 k d) : S4096x64.Idx) = ix2 k d := by
  obtain ⟨-, -, -, -, -, -, -, -, e40, e41⟩ := idx2_facts t
  funext a; apply Fin.ext
  match a with
  | ⟨0, _⟩ => show win2_4.index t (0 : Fin 2) * 4096 + 1 * k.val = k.val; rw [e40]; omega
  | ⟨1, _⟩ => show win2_4.index t (1 : Fin 2) * 64 + 1 * d.val = d.val; rw [e41]; omega

/-- An index of the user result is in row block `t`'s block when each coordinate is in the block's range. -/
theorem mem_blk2_3 (t : Fin cfg2.N) (i : S4096x64.Idx) :
    i ∈ ((cfg2.win 3).blk t).view.set ↔ ∀ a : Fin 2, win2_3.index t a * S512x64.size a ≤ (i a).val ∧ (i a).val < win2_3.index t a * S512x64.size a + S512x64.size a := by
  show i ∈ ((View.whole main_v14_0).slice (win2_3.rect t)).set ↔ _
  rw [View.set_slice_whole, Rect.mem_set_unit]
  exact Iff.rfl

theorem mem_blk2_4 (t : Fin cfg2.N) (i : S4096x64.Idx) :
    i ∈ ((cfg2.win 4).blk t).view.set ↔ ∀ a : Fin 2, win2_4.index t a * S4096x64.size a ≤ (i a).val ∧ (i a).val < win2_4.index t a * S4096x64.size a + S4096x64.size a := by
  show i ∈ ((View.whole main_v14_1).slice (win2_4.rect t)).set ↔ _
  rw [View.set_slice_whole, Rect.mem_set_unit]
  exact Iff.rfl

/-- Every row of the user result is written back by the row block it lies in. -/
theorem cover2_3 (i : S4096x64.Idx) : ∃ t : Fin cfg2.N, (cfg2.win 3).flush t = true ∧ i ∈ ((cfg2.win 3).blk t).view.set := by
  have hi0 : (i 0).val < 4096 := (i 0).isLt
  have hi1 : (i 1).val < 64 := (i 1).isLt
  have hN : cfg2.N = 8 := N_2
  have ht : (i 0).val / 512 < cfg2.N := by omega
  obtain ⟨-, -, -, -, -, -, e30, e31, -⟩ := idx2_facts ⟨(i 0).val / 512, ht⟩
  refine ⟨⟨(i 0).val / 512, ht⟩, flush2_3 _, ?_⟩
  rw [mem_blk2_3]
  intro a
  match a with
  | ⟨0, _⟩ =>
    show win2_3.index ⟨(i 0).val / 512, ht⟩ (0 : Fin 2) * 512 ≤ (i 0).val ∧ (i 0).val < win2_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win2_3.index ⟨(i 0).val / 512, ht⟩ (1 : Fin 2) * 64 ≤ (i 1).val ∧ (i 1).val < win2_3.index ⟨(i 0).val / 512, ht⟩ (1 : Fin 2) * 64 + 64
    rw [e31]; omega

/-- Every entry of the item result is written back by the last row block. -/
theorem cover2_4 (i : S4096x64.Idx) : ∃ t : Fin cfg2.N, (cfg2.win 4).flush t = true ∧ i ∈ ((cfg2.win 4).blk t).view.set := by
  have hi0 : (i 0).val < 4096 := (i 0).isLt
  have hi1 : (i 1).val < 64 := (i 1).isLt
  obtain ⟨-, -, -, -, -, -, -, -, e40, e41⟩ := idx2_facts t2_7
  refine ⟨t2_7, (flush2_4 t2_7).mpr rfl, ?_⟩
  rw [mem_blk2_4]
  intro a
  match a with
  | ⟨0, _⟩ =>
    show win2_4.index t2_7 (0 : Fin 2) * 4096 ≤ (i 0).val ∧ (i 0).val < win2_4.index t2_7 (0 : Fin 2) * 4096 + 4096
    rw [e40]; omega
  | ⟨1, _⟩ =>
    show win2_4.index t2_7 (1 : Fin 2) * 64 ≤ (i 1).val ∧ (i 1).val < win2_4.index t2_7 (1 : Fin 2) * 64 + 64
    rw [e41]; omega

end Cert.KernelIdeal.Hand

end
-- ==== Proof.KI.Val2.lean ====
import proofs.«103934_j28484223107660_1_alg».proof.Proof.KI.Reg2
import proofs.«103934_j28484223107660_1_alg».proof.Proof.KI.Step
import proofs.«103934_j28484223107660_1_alg».proof.Proof.KI.Blk2
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region2

variable (V : (c : Dev nD) → (b : Ref sig .tc) → Buf (Elt Ideal) ((c : Thread nD τ).loc b))

/-- The interaction matrix, the user features and the item features as the launch finds them. -/
abbrev R2 (c : Dev nD) : FVec Ideal S4096x4096 .f32 := V c (Pipeline.arrRef spec2 0)
abbrev u2 (c : Dev nD) : FVec Ideal S4096x64 .f32 := V c (Pipeline.arrRef spec2 1)
abbrev it2 (c : Dev nD) : FVec Ideal S4096x64 .f32 := V c (Pipeline.arrRef spec2 2)

/-- The blocks the body reads at row block `t` are the arrays' rows `512 t …`, and the item features whole. -/
theorem iblk2_0_apply (c : Dev nD) (t : Fin cfg2.N) (p : Fin 512) (k : Fin 4096) :
    (iblk2 V c 0 t : Vec Ideal S512x4096 .f32) (ix2 p k) = R2 V c (ix2 (blkRow (rb2 t) p) k) :=
  blk2_0_apply c (V c (Pipeline.arrRef spec2 0)) t p k
theorem iblk2_1_apply (c : Dev nD) (t : Fin cfg2.N) (p : Fin 512) (d : Fin 64) :
    (iblk2 V c 1 t : Vec Ideal S512x64 .f32) (ix2 p d) = u2 V c (ix2 (blkRow (rb2 t) p) d) :=
  blk2_1_apply c (V c (Pipeline.arrRef spec2 1)) t p d
theorem iblk2_2_apply (c : Dev nD) (t : Fin cfg2.N) (k : Fin 4096) (d : Fin 64) :
    (iblk2 V c 2 t : Vec Ideal S4096x64 .f32) (ix2 k d) = it2 V c (ix2 k d) :=
  blk2_2_apply c (V c (Pipeline.arrRef spec2 2)) t k d

/-! ## The user result -/

/-- What row block `t` writes back of the user result is its block of the user layer. -/
theorem flushed2_3_eq (c : Dev nD) (t : Fin cfg2.N) :
    (dat2 (F := Ideal) V c).flushed 3 t
      = ((cfg2.win 3).blk t).view.read (Elt Ideal) (Cert.RefSide.layerU (F := Ideal) (R2 V c) (it2 V c)) := by
  show (cfg2.win 3).cut (grid2.coords t) ((dat2 V c).after 3 t) = _
  rw [after2_3]
  funext j
  obtain ⟨p, d, rfl⟩ : ∃ (p : Fin 512) (d : Fin 64), j = ix2 p d := ⟨j 0, j 1, eq_ix2 j⟩
  rw [View.read_apply]
  show k0_pay5 (F := Ideal) (iblk2 V c 0 t) (iblk2 V c 2 t) (ix2 p d)
    = Cert.RefSide.layerU (F := Ideal) (R2 V c) (it2 V c) (((cfg2.win 3).blk t).view.emb (ix2 p d))
  rw [emb2_3 t p d, Cert.RefSide.layerU_apply]
  exact rows5 (R2 V c) (it2 V c) (rb2 t) _ _ (iblk2_0_apply V c t) (iblk2_2_apply V c t) p d

/-- The user result after the launch is the user layer. -/
theorem val2_u (c : Dev nD) :
    (dat2 (F := Ideal) V c).arrAt 3 cfg2.N = Cert.RefSide.layerU (F := Ideal) (V c (Pipeline.arrRef spec2 0)) (V c (Pipeline.arrRef spec2 2)) :=
  (dat2 (F := Ideal) V c).arrAt_eq_of_cover 3 (Cert.RefSide.layerU (F := Ideal) (R2 V c) (it2 V c))
    (fun t _ => flushed2_3_eq V c t) cover2_3

/-! ## The item result -/

/-- After row block `n` the two accumulators hold the running totals of the whole sums' terms. -/
theorem accAt2_apply (c : Dev nD) : ∀ (n : ℕ) (hn : n < cfg2.N) (c' : Fin 4096) (d : Fin 64),
    (accAt2 (F := Ideal) V c n hn).1 (ix2 c' d) = acc (wTerm (R2 V c) (u2 V c) c' d) n (lt_of_lt_of_eq hn (show cfg2.N = 8 from N_2))
    ∧ (accAt2 (F := Ideal) V c n hn).2 (ix2 (0 : Fin 1) c') = acc (dTerm (R2 V c) c') n (lt_of_lt_of_eq hn (show cfg2.N = 8 from N_2))
  | 0, hn, c', d => by
    constructor
    · show k0_pay6 (F := Ideal) (iblk2 V c 0 ⟨0, hn⟩) (iblk2 V c 1 ⟨0, hn⟩) (k0_pay2 (F := Ideal)) (ix2 c' d) = _
      rw [step6 (R2 V c) (u2 V c) (rb2 ⟨0, hn⟩) _ _ (iblk2_0_apply V c ⟨0, hn⟩) (iblk2_1_apply V c ⟨0, hn⟩), pay2_apply]
      rfl
    · show k0_pay7 (F := Ideal) (iblk2 V c 0 ⟨0, hn⟩) (k0_pay3 (F := Ideal)) (ix2 (0 : Fin 1) c') = _
      rw [step7 (R2 V c) (rb2 ⟨0, hn⟩) _ (iblk2_0_apply V c ⟨0, hn⟩), pay3_apply]
      rfl
  | n + 1, hn, c', d => by
    constructor
    · show k0_pay6 (F := Ideal) (iblk2 V c 0 ⟨n + 1, hn⟩) (iblk2 V c 1 ⟨n + 1, hn⟩) (accAt2 V c n (Nat.lt_of_succ_lt hn)).1 (ix2 c' d) = _
      rw [step6 (R2 V c) (u2 V c) (rb2 ⟨n + 1, hn⟩) _ _ (iblk2_0_apply V c ⟨n + 1, hn⟩) (iblk2_1_apply V c ⟨n + 1, hn⟩),
        (accAt2_apply c n (Nat.lt_of_succ_lt hn) c' d).1]
      rfl
    · show k0_pay7 (F := Ideal) (iblk2 V c 0 ⟨n + 1, hn⟩) (accAt2 V c n (Nat.lt_of_succ_lt hn)).2 (ix2 (0 : Fin 1) c') = _
      rw [step7 (R2 V c) (rb2 ⟨n + 1, hn⟩) _ (iblk2_0_apply V c ⟨n + 1, hn⟩),
        (accAt2_apply c n (Nat.lt_of_succ_lt hn) c' d).2]
      rfl

/-- What the last row block writes back of the item result is the item layer. -/
theorem flushed2_4_eq (c : Dev nD) (t : Fin cfg2.N) (hf : (cfg2.win 4).flush t = true) :
    (dat2 (F := Ideal) V c).flushed 4 t
      = ((cfg2.win 4).blk t).view.read (Elt Ideal) (Cert.RefSide.layerI (F := Ideal) (R2 V c) (u2 V c)) := by
  have hN : cfg2.N = 8 := N_2
  have h7 : t.val = 7 := by have := (flush2_4 t).mp hf; have := t.isLt; omega
  show (cfg2.win 4).cut (grid2.coords t) ((dat2 V c).after 4 t) = _
  rw [after2_4]
  funext j
  obtain ⟨c', d, rfl⟩ : ∃ (c' : Fin 4096) (d : Fin 64), j = ix2 c' d := ⟨j 0, j 1, eq_ix2 j⟩
  rw [View.read_apply]
  show k0_pay1 (F := Ideal) (accAt2 V c t.val t.isLt).2 (accAt2 V c t.val t.isLt).1 (ix2 c' d)
    = Cert.RefSide.layerI (F := Ideal) (R2 V c) (u2 V c) (((cfg2.win 4).blk t).view.emb (ix2 c' d))
  rw [emb2_4 t c' d, Cert.RefSide.layerI_apply]
  obtain ⟨n, hn⟩ := t
  obtain rfl : n = 7 := h7
  refine final1 (R2 V c) (u2 V c) _ _ (fun c' d => ?_) (fun c' => ?_) c' d
  · exact ((accAt2_apply V c 7 hn c' d).1).trans (acc_last _ _)
  · exact ((accAt2_apply V c 7 hn c' (0 : Fin 64)).2).trans (acc_last _ _)

/-- The item result after the launch is the item layer. -/
theorem val2_i (c : Dev nD) :
    (dat2 (F := Ideal) V c).arrAt 4 cfg2.N = Cert.RefSide.layerI (F := Ideal) (V c (Pipeline.arrRef spec2 0)) (V c (Pipeline.arrRef spec2 1)) :=
  (dat2 (F := Ideal) V c).arrAt_eq_of_cover 4 (Cert.RefSide.layerI (F := Ideal) (R2 V c) (u2 V c))
    (flushed2_4_eq V c) cover2_4

end Region2

end Cert.KernelIdeal.Hand

end
-- ==== Proof.KI.Blk3.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb3 (t : Fin cfg3.N) : Fin 8 := ⟨t.val, lt_of_lt_of_eq t.isLt (show cfg3.N = 8 from N_3)⟩

/-- The block indices of the five windows at each row block. -/
theorem idx3_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0 :=
  (by decide +kernel : ∀ t : Fin grid3.N, _)

section
variable (c : Dev nD)

/-- The matrix's block at row block `t`, at `(p, k)`, is the matrix at row `512 t + p`, column `k`. -/
theorem blk3_0_apply (X : Buf (Elt F) ((c : Thread nD τ).loc (Pipeline.arrRef spec3 0))) (t : Fin cfg3.N) (p : Fin 512) (k : Fin 4096) :
    (((cfg3.win 0).blk t).view.read (Elt F) X : Vec F S512x4096 .f32) (ix2 p k)
      = (X : S4096x4096.Idx → F .f32) (ix2 (blkRow (rb3 t) p) k) := by
  obtain ⟨e00, e01, -⟩ := idx3_facts t
  rw [View.read_apply]
  show X _ = X _
  congr 1
  funext a; apply Fin.ext
  match a with
  | ⟨0, _⟩ => show win3_0.index t (0 : Fin 2) * 512 + 1 * p.val = 512 * t.val + p.val; rw [e00]; omega
  | ⟨1, _⟩ => show win3_0.index t (1 : Fin 2) * 4096 + 1 * k.val = k.val; rw [e01]; omega

/-- The user features' block at row block `t`, at `(p, d)`, is the user features at row `512 t + p`. -/
theorem blk3_1_apply (X : Buf (Elt F) ((c : Thread nD τ).loc (Pipeline.arrRef spec3 1))) (t : Fin cfg3.N) (p : Fin 512) (d : Fin 64) :
    (((cfg3.win 1).blk t).view.read (Elt F) X : Vec F S512x64 .f32) (ix2 p d)
      = (X : S4096x64.Idx → F .f32) (ix2 (blkRow (rb3 t) p) d) := by
  obtain ⟨-, -, e10, e11, -⟩ := idx3_facts t
  rw [View.read_apply]
  show X _ = X _
  congr 1
  funext a; apply Fin.ext
  match a with
  | ⟨0, _⟩ => show win3_1.index t (0 : Fin 2) * 512 + 1 * p.val = 512 * t.val + p.val; rw [e10]; omega
  | ⟨1, _⟩ => show win3_1.index t (1 : Fin 2) * 64 + 1 * d.val = d.val; rw [e11]; omega

/-- The item features' block is the item features, whole, at every row block. -/
theorem blk3_2_apply (X : Buf (Elt F) ((c : Thread nD τ).loc (Pipeline.arrRef spec3 2))) (t : Fin cfg3.N) (k : Fin 4096) (d : Fin 64) :
    (((cfg3.win 2).blk t).view.read (Elt F) X : Vec F S4096x64 .f32) (ix2 k d)
      = (X : S4096x64.Idx → F .f32) (ix2 k d) := by
  obtain ⟨-, -, -, -, e20, e21, -⟩ := idx3_facts t
  rw [View.read_apply]
  show X _ = X _
  congr 1
  funext a; apply Fin.ext
  match a with
  | ⟨0, _⟩ => show win3_2.index t (0 : Fin 2) * 4096 + 1 * k.val = k.val; rw [e20]; omega
  | ⟨1, _⟩ => show win3_2.index t (1 : Fin 2) * 64 + 1 * d.val = d.val; rw [e21]; omega

end

/-- The block of new user rows at row block `t` sits at rows `512 t …` of its array. -/
theorem emb3_3 (t : Fin cfg3.N) (p : Fin 512) (d : Fin 64) :
    (((cfg3.win 3).blk t).view.emb (ix2 p d) : S4096x64.Idx) = ix2 (blkRow (rb3 t) p) d := by
  obtain ⟨-, -, -, -, -, -, e30, e31, -⟩ := idx3_facts t
  funext a; apply Fin.ext
  match a with
  | ⟨0, _⟩ => show win3_3.index t (0 : Fin 2) * 512 + 1 * p.val = 512 * t.val + p.val; rw [e30]; omega
  | ⟨1, _⟩ => show win3_3.index t (1 : Fin 2) * 64 + 1 * d.val = d.val; rw [e31]; omega

/-- The item result's block is its whole array. -/
theorem emb3_4 (t : Fin cfg3.N) (k : Fin 4096) (d : Fin 64) :
    (((cfg3.win 4).blk t).view.emb (ix2 k d) : S4096x64.Idx) = ix2 k d := by
  obtain ⟨-, -, -, -, -, -, -, -, e40, e41⟩ := idx3_facts t
  funext a; apply Fin.ext
  match a with
  | ⟨0, _⟩ => show win3_4.index t (0 : Fin 2) * 4096 + 1 * k.val = k.val; rw [e40]; omega
  | ⟨1, _⟩ => show win3_4.index t (1 : Fin 2) * 64 + 1 * d.val = d.val; rw [e41]; omega

/-- An index of the user result is in row block `t`'s block when each coordinate is in the block's range. -/
theorem mem_blk3_3 (t : Fin cfg3.N) (i : S4096x64.Idx) :
    i ∈ ((cfg3.win 3).blk t).view.set ↔ ∀ a : Fin 2, win3_3.index t a * S512x64.size a ≤ (i a).val ∧ (i a).val < win3_3.index t a * S512x64.size a + S512x64.size a := by
  show i ∈ ((View.whole main_v17_0).slice (win3_3.rect t)).set ↔ _
  rw [View.set_slice_whole, Rect.mem_set_unit]
  exact Iff.rfl

theorem mem_blk3_4 (t : Fin cfg3.N) (i : S4096x64.Idx) :
    i ∈ ((cfg3.win 4).blk t).view.set ↔ ∀ a : Fin 2, win3_4.index t a * S4096x64.size a ≤ (i a).val ∧ (i a).val < win3_4.index t a * S4096x64.size a + S4096x64.size a := by
  show i ∈ ((View.whole main_v17_1).slice (win3_4.rect t)).set ↔ _
  rw [View.set_slice_whole, Rect.mem_set_unit]
  exact Iff.rfl

/-- Every row of the user result is written back by the row block it lies in. -/
theorem cover3_3 (i : S4096x64.Idx) : ∃ t : Fin cfg3.N, (cfg3.win 3).flush t = true ∧ i ∈ ((cfg3.win 3).blk t).view.set := by
  have hi0 : (i 0).val < 4096 := (i 0).isLt
  have hi1 : (i 1).val < 64 := (i 1).isLt
  have hN : cfg3.N = 8 := N_3
  have ht : (i 0).val / 512 < cfg3.N := by omega
  obtain ⟨-, -, -, -, -, -, e30, e31, -⟩ := idx3_facts ⟨(i 0).val / 512, ht⟩
  refine ⟨⟨(i 0).val / 512, ht⟩, flush3_3 _, ?_⟩
  rw [mem_blk3_3]
  intro a
  match a with
  | ⟨0, _⟩ =>
    show win3_3.index ⟨(i 0).val / 512, ht⟩ (0 : Fin 2) * 512 ≤ (i 0).val ∧ (i 0).val < win3_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win3_3.index ⟨(i 0).val / 512, ht⟩ (1 : Fin 2) * 64 ≤ (i 1).val ∧ (i 1).val < win3_3.index ⟨(i 0).val / 512, ht⟩ (1 : Fin 2) * 64 + 64
    rw [e31]; omega

/-- Every entry of the item result is written back by the last row block. -/
theorem cover3_4 (i : S4096x64.Idx) : ∃ t : Fin cfg3.N, (cfg3.win 4).flush t = true ∧ i ∈ ((cfg3.win 4).blk t).view.set := by
  have hi0 : (i 0).val < 4096 := (i 0).isLt
  have hi1 : (i 1).val < 64 := (i 1).isLt
  obtain ⟨-, -, -, -, -, -, -, -, e40, e41⟩ := idx3_facts t3_7
  refine ⟨t3_7, (flush3_4 t3_7).mpr rfl, ?_⟩
  rw [mem_blk3_4]
  intro a
  match a with
  | ⟨0, _⟩ =>
    show win3_4.index t3_7 (0 : Fin 2) * 4096 ≤ (i 0).val ∧ (i 0).val < win3_4.index t3_7 (0 : Fin 2) * 4096 + 4096
    rw [e40]; omega
  | ⟨1, _⟩ =>
    show win3_4.index t3_7 (1 : Fin 2) * 64 ≤ (i 1).val ∧ (i 1).val < win3_4.index t3_7 (1 : Fin 2) * 64 + 64
    rw [e41]; omega

end Cert.KernelIdeal.Hand

end
-- ==== Proof.KI.Val3.lean ====
import proofs.«103934_j28484223107660_1_alg».proof.Proof.KI.Reg3
import proofs.«103934_j28484223107660_1_alg».proof.Proof.KI.Step
import proofs.«103934_j28484223107660_1_alg».proof.Proof.KI.Blk3
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region3

variable (V : (c : Dev nD) → (b : Ref sig .tc) → Buf (Elt Ideal) ((c : Thread nD τ).loc b))

/-- The interaction matrix, the user features and the item features as the launch finds them. -/
abbrev R3 (c : Dev nD) : FVec Ideal S4096x4096 .f32 := V c (Pipeline.arrRef spec3 0)
abbrev u3 (c : Dev nD) : FVec Ideal S4096x64 .f32 := V c (Pipeline.arrRef spec3 1)
abbrev it3 (c : Dev nD) : FVec Ideal S4096x64 .f32 := V c (Pipeline.arrRef spec3 2)

/-- The blocks the body reads at row block `t` are the arrays' rows `512 t …`, and the item features whole. -/
theorem iblk3_0_apply (c : Dev nD) (t : Fin cfg3.N) (p : Fin 512) (k : Fin 4096) :
    (iblk3 V c 0 t : Vec Ideal S512x4096 .f32) (ix2 p k) = R3 V c (ix2 (blkRow (rb3 t) p) k) :=
  blk3_0_apply c (V c (Pipeline.arrRef spec3 0)) t p k
theorem iblk3_1_apply (c : Dev nD) (t : Fin cfg3.N) (p : Fin 512) (d : Fin 64) :
    (iblk3 V c 1 t : Vec Ideal S512x64 .f32) (ix2 p d) = u3 V c (ix2 (blkRow (rb3 t) p) d) :=
  blk3_1_apply c (V c (Pipeline.arrRef spec3 1)) t p d
theorem iblk3_2_apply (c : Dev nD) (t : Fin cfg3.N) (k : Fin 4096) (d : Fin 64) :
    (iblk3 V c 2 t : Vec Ideal S4096x64 .f32) (ix2 k d) = it3 V c (ix2 k d) :=
  blk3_2_apply c (V c (Pipeline.arrRef spec3 2)) t k d

/-! ## The user result -/

/-- What row block `t` writes back of the user result is its block of the user layer. -/
theorem flushed3_3_eq (c : Dev nD) (t : Fin cfg3.N) :
    (dat3 (F := Ideal) V c).flushed 3 t
      = ((cfg3.win 3).blk t).view.read (Elt Ideal) (Cert.RefSide.layerU (F := Ideal) (R3 V c) (it3 V c)) := by
  show (cfg3.win 3).cut (grid3.coords t) ((dat3 V c).after 3 t) = _
  rw [after3_3]
  funext j
  obtain ⟨p, d, rfl⟩ : ∃ (p : Fin 512) (d : Fin 64), j = ix2 p d := ⟨j 0, j 1, eq_ix2 j⟩
  rw [View.read_apply]
  show k1_pay5 (F := Ideal) (iblk3 V c 0 t) (iblk3 V c 2 t) (ix2 p d)
    = Cert.RefSide.layerU (F := Ideal) (R3 V c) (it3 V c) (((cfg3.win 3).blk t).view.emb (ix2 p d))
  rw [emb3_3 t p d, Cert.RefSide.layerU_apply]
  exact rows5o (R3 V c) (it3 V c) (rb3 t) _ _ (iblk3_0_apply V c t) (iblk3_2_apply V c t) p d

/-- The user result after the launch is the user layer. -/
theorem val3_u (c : Dev nD) :
    (dat3 (F := Ideal) V c).arrAt 3 cfg3.N = Cert.RefSide.layerU (F := Ideal) (V c (Pipeline.arrRef spec3 0)) (V c (Pipeline.arrRef spec3 2)) :=
  (dat3 (F := Ideal) V c).arrAt_eq_of_cover 3 (Cert.RefSide.layerU (F := Ideal) (R3 V c) (it3 V c))
    (fun t _ => flushed3_3_eq V c t) cover3_3

/-! ## The item result -/

/-- After row block `n` the two accumulators hold the running totals of the whole sums' terms. -/
theorem accAt3_apply (c : Dev nD) : ∀ (n : ℕ) (hn : n < cfg3.N) (c' : Fin 4096) (d : Fin 64),
    (accAt3 (F := Ideal) V c n hn).1 (ix2 c' d) = acc (wTerm (R3 V c) (u3 V c) c' d) n (lt_of_lt_of_eq hn (show cfg3.N = 8 from N_3))
    ∧ (accAt3 (F := Ideal) V c n hn).2 (ix2 (0 : Fin 1) c') = acc (dTerm (R3 V c) c') n (lt_of_lt_of_eq hn (show cfg3.N = 8 from N_3))
  | 0, hn, c', d => by
    constructor
    · show k1_pay6 (F := Ideal) (iblk3 V c 0 ⟨0, hn⟩) (iblk3 V c 1 ⟨0, hn⟩) (k1_pay2 (F := Ideal)) (ix2 c' d) = _
      rw [step6o (R3 V c) (u3 V c) (rb3 ⟨0, hn⟩) _ _ (iblk3_0_apply V c ⟨0, hn⟩) (iblk3_1_apply V c ⟨0, hn⟩), pay2o_apply]
      rfl
    · show k1_pay7 (F := Ideal) (iblk3 V c 0 ⟨0, hn⟩) (k1_pay3 (F := Ideal)) (ix2 (0 : Fin 1) c') = _
      rw [step7o (R3 V c) (rb3 ⟨0, hn⟩) _ (iblk3_0_apply V c ⟨0, hn⟩), pay3o_apply]
      rfl
  | n + 1, hn, c', d => by
    constructor
    · show k1_pay6 (F := Ideal) (iblk3 V c 0 ⟨n + 1, hn⟩) (iblk3 V c 1 ⟨n + 1, hn⟩) (accAt3 V c n (Nat.lt_of_succ_lt hn)).1 (ix2 c' d) = _
      rw [step6o (R3 V c) (u3 V c) (rb3 ⟨n + 1, hn⟩) _ _ (iblk3_0_apply V c ⟨n + 1, hn⟩) (iblk3_1_apply V c ⟨n + 1, hn⟩),
        (accAt3_apply c n (Nat.lt_of_succ_lt hn) c' d).1]
      rfl
    · show k1_pay7 (F := Ideal) (iblk3 V c 0 ⟨n + 1, hn⟩) (accAt3 V c n (Nat.lt_of_succ_lt hn)).2 (ix2 (0 : Fin 1) c') = _
      rw [step7o (R3 V c) (rb3 ⟨n + 1, hn⟩) _ (iblk3_0_apply V c ⟨n + 1, hn⟩),
        (accAt3_apply c n (Nat.lt_of_succ_lt hn) c' d).2]
      rfl

/-- What the last row block writes back of the item result is the item layer. -/
theorem flushed3_4_eq (c : Dev nD) (t : Fin cfg3.N) (hf : (cfg3.win 4).flush t = true) :
    (dat3 (F := Ideal) V c).flushed 4 t
      = ((cfg3.win 4).blk t).view.read (Elt Ideal) (Cert.RefSide.layerI (F := Ideal) (R3 V c) (u3 V c)) := by
  have hN : cfg3.N = 8 := N_3
  have h7 : t.val = 7 := by have := (flush3_4 t).mp hf; have := t.isLt; omega
  show (cfg3.win 4).cut (grid3.coords t) ((dat3 V c).after 4 t) = _
  rw [after3_4]
  funext j
  obtain ⟨c', d, rfl⟩ : ∃ (c' : Fin 4096) (d : Fin 64), j = ix2 c' d := ⟨j 0, j 1, eq_ix2 j⟩
  rw [View.read_apply]
  show k1_pay1 (F := Ideal) (accAt3 V c t.val t.isLt).2 (accAt3 V c t.val t.isLt).1 (ix2 c' d)
    = Cert.RefSide.layerI (F := Ideal) (R3 V c) (u3 V c) (((cfg3.win 4).blk t).view.emb (ix2 c' d))
  rw [emb3_4 t c' d, Cert.RefSide.layerI_apply]
  obtain ⟨n, hn⟩ := t
  obtain rfl : n = 7 := h7
  refine final1o (R3 V c) (u3 V c) _ _ (fun c' d => ?_) (fun c' => ?_) c' d
  · exact ((accAt3_apply V c 7 hn c' d).1).trans (acc_last _ _)
  · exact ((accAt3_apply V c 7 hn c' (0 : Fin 64)).2).trans (acc_last _ _)

/-- The item result after the launch is the item layer. -/
theorem val3_i (c : Dev nD) :
    (dat3 (F := Ideal) V c).arrAt 4 cfg3.N = Cert.RefSide.layerI (F := Ideal) (V c (Pipeline.arrRef spec3 0)) (V c (Pipeline.arrRef spec3 1)) :=
  (dat3 (F := Ideal) V c).arrAt_eq_of_cover 4 (Cert.RefSide.layerI (F := Ideal) (R3 V c) (u3 V c))
    (flushed3_4_eq V c) cover3_4

end Region3

end Cert.KernelIdeal.Hand

end
-- ==== Proof.KI.Blk4.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb4 (t : Fin cfg4.N) : Fin 8 := ⟨t.val, lt_of_lt_of_eq t.isLt (show cfg4.N = 8 from N_4)⟩

/-- The block indices of the five windows at each row block. -/
theorem idx4_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0 :=
  (by decide +kernel : ∀ t : Fin grid4.N, _)

section
variable (c : Dev nD)

/-- The matrix's block at row block `t`, at `(p, k)`, is the matrix at row `512 t + p`, column `k`. -/
theorem blk4_0_apply (X : Buf (Elt F) ((c : Thread nD τ).loc (Pipeline.arrRef spec4 0))) (t : Fin cfg4.N) (p : Fin 512) (k : Fin 4096) :
    (((cfg4.win 0).blk t).view.read (Elt F) X : Vec F S512x4096 .f32) (ix2 p k)
      = (X : S4096x4096.Idx → F .f32) (ix2 (blkRow (rb4 t) p) k) := by
  obtain ⟨e00, e01, -⟩ := idx4_facts t
  rw [View.read_apply]
  show X _ = X _
  congr 1
  funext a; apply Fin.ext
  match a with
  | ⟨0, _⟩ => show win4_0.index t (0 : Fin 2) * 512 + 1 * p.val = 512 * t.val + p.val; rw [e00]; omega
  | ⟨1, _⟩ => show win4_0.index t (1 : Fin 2) * 4096 + 1 * k.val = k.val; rw [e01]; omega

/-- The user features' block at row block `t`, at `(p, d)`, is the user features at row `512 t + p`. -/
theorem blk4_1_apply (X : Buf (Elt F) ((c : Thread nD τ).loc (Pipeline.arrRef spec4 1))) (t : Fin cfg4.N) (p : Fin 512) (d : Fin 64) :
    (((cfg4.win 1).blk t).view.read (Elt F) X : Vec F S512x64 .f32) (ix2 p d)
      = (X : S4096x64.Idx → F .f32) (ix2 (blkRow (rb4 t) p) d) := by
  obtain ⟨-, -, e10, e11, -⟩ := idx4_facts t
  rw [View.read_apply]
  show X _ = X _
  congr 1
  funext a; apply Fin.ext
  match a with
  | ⟨0, _⟩ => show win4_1.index t (0 : Fin 2) * 512 + 1 * p.val = 512 * t.val + p.val; rw [e10]; omega
  | ⟨1, _⟩ => show win4_1.index t (1 : Fin 2) * 64 + 1 * d.val = d.val; rw [e11]; omega

/-- The item features' block is the item features, whole, at every row block. -/
theorem blk4_2_apply (X : Buf (Elt F) ((c : Thread nD τ).loc (Pipeline.arrRef spec4 2))) (t : Fin cfg4.N) (k : Fin 4096) (d : Fin 64) :
    (((cfg4.win 2).blk t).view.read (Elt F) X : Vec F S4096x64 .f32) (ix2 k d)
      = (X : S4096x64.Idx → F .f32) (ix2 k d) := by
  obtain ⟨-, -, -, -, e20, e21, -⟩ := idx4_facts t
  rw [View.read_apply]
  show X _ = X _
  congr 1
  funext a; apply Fin.ext
  match a with
  | ⟨0, _⟩ => show win4_2.index t (0 : Fin 2) * 4096 + 1 * k.val = k.val; rw [e20]; omega
  | ⟨1, _⟩ => show win4_2.index t (1 : Fin 2) * 64 + 1 * d.val = d.val; rw [e21]; omega

end

/-- The block of new user rows at row block `t` sits at rows `512 t …` of its array. -/
theorem emb4_3 (t : Fin cfg4.N) (p : Fin 512) (d : Fin 64) :
    (((cfg4.win 3).blk t).view.emb (ix2 p d) : S4096x64.Idx) = ix2 (blkRow (rb4 t) p) d := by
  obtain ⟨-, -, -, -, -, -, e30, e31, -⟩ := idx4_facts t
  funext a; apply Fin.ext
  match a with
  | ⟨0, _⟩ => show win4_3.index t (0 : Fin 2) * 512 + 1 * p.val = 512 * t.val + p.val; rw [e30]; omega
  | ⟨1, _⟩ => show win4_3.index t (1 : Fin 2) * 64 + 1 * d.val = d.val; rw [e31]; omega

/-- The item result's block is its whole array. -/
theorem emb4_4 (t : Fin cfg4.N) (k : Fin 4096) (d : Fin 64) :
    (((cfg4.win 4).blk t).view.emb (ix2 k d) : S4096x64.Idx) = ix2 k d := by
  obtain ⟨-, -, -, -, -, -, -, -, e40, e41⟩ := idx4_facts t
  funext a; apply Fin.ext
  match a with
  | ⟨0, _⟩ => show win4_4.index t (0 : Fin 2) * 4096 + 1 * k.val = k.val; rw [e40]; omega
  | ⟨1, _⟩ => show win4_4.index t (1 : Fin 2) * 64 + 1 * d.val = d.val; rw [e41]; omega

/-- An index of the user result is in row block `t`'s block when each coordinate is in the block's range. -/
theorem mem_blk4_3 (t : Fin cfg4.N) (i : S4096x64.Idx) :
    i ∈ ((cfg4.win 3).blk t).view.set ↔ ∀ a : Fin 2, win4_3.index t a * S512x64.size a ≤ (i a).val ∧ (i a).val < win4_3.index t a * S512x64.size a + S512x64.size a := by
  show i ∈ ((View.whole main_v26_0).slice (win4_3.rect t)).set ↔ _
  rw [View.set_slice_whole, Rect.mem_set_unit]
  exact Iff.rfl

theorem mem_blk4_4 (t : Fin cfg4.N) (i : S4096x64.Idx) :
    i ∈ ((cfg4.win 4).blk t).view.set ↔ ∀ a : Fin 2, win4_4.index t a * S4096x64.size a ≤ (i a).val ∧ (i a).val < win4_4.index t a * S4096x64.size a + S4096x64.size a := by
  show i ∈ ((View.whole main_v26_1).slice (win4_4.rect t)).set ↔ _
  rw [View.set_slice_whole, Rect.mem_set_unit]
  exact Iff.rfl

/-- Every row of the user result is written back by the row block it lies in. -/
theorem cover4_3 (i : S4096x64.Idx) : ∃ t : Fin cfg4.N, (cfg4.win 3).flush t = true ∧ i ∈ ((cfg4.win 3).blk t).view.set := by
  have hi0 : (i 0).val < 4096 := (i 0).isLt
  have hi1 : (i 1).val < 64 := (i 1).isLt
  have hN : cfg4.N = 8 := N_4
  have ht : (i 0).val / 512 < cfg4.N := by omega
  obtain ⟨-, -, -, -, -, -, e30, e31, -⟩ := idx4_facts ⟨(i 0).val / 512, ht⟩
  refine ⟨⟨(i 0).val / 512, ht⟩, flush4_3 _, ?_⟩
  rw [mem_blk4_3]
  intro a
  match a with
  | ⟨0, _⟩ =>
    show win4_3.index ⟨(i 0).val / 512, ht⟩ (0 : Fin 2) * 512 ≤ (i 0).val ∧ (i 0).val < win4_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win4_3.index ⟨(i 0).val / 512, ht⟩ (1 : Fin 2) * 64 ≤ (i 1).val ∧ (i 1).val < win4_3.index ⟨(i 0).val / 512, ht⟩ (1 : Fin 2) * 64 + 64
    rw [e31]; omega

/-- Every entry of the item result is written back by the last row block. -/
theorem cover4_4 (i : S4096x64.Idx) : ∃ t : Fin cfg4.N, (cfg4.win 4).flush t = true ∧ i ∈ ((cfg4.win 4).blk t).view.set := by
  have hi0 : (i 0).val < 4096 := (i 0).isLt
  have hi1 : (i 1).val < 64 := (i 1).isLt
  obtain ⟨-, -, -, -, -, -, -, -, e40, e41⟩ := idx4_facts t4_7
  refine ⟨t4_7, (flush4_4 t4_7).mpr rfl, ?_⟩
  rw [mem_blk4_4]
  intro a
  match a with
  | ⟨0, _⟩ =>
    show win4_4.index t4_7 (0 : Fin 2) * 4096 ≤ (i 0).val ∧ (i 0).val < win4_4.index t4_7 (0 : Fin 2) * 4096 + 4096
    rw [e40]; omega
  | ⟨1, _⟩ =>
    show win4_4.index t4_7 (1 : Fin 2) * 64 ≤ (i 1).val ∧ (i 1).val < win4_4.index t4_7 (1 : Fin 2) * 64 + 64
    rw [e41]; omega

end Cert.KernelIdeal.Hand

end
-- ==== Proof.KI.Val4.lean ====
import proofs.«103934_j28484223107660_1_alg».proof.Proof.KI.Reg4
import proofs.«103934_j28484223107660_1_alg».proof.Proof.KI.Step
import proofs.«103934_j28484223107660_1_alg».proof.Proof.KI.Blk4
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region4

variable (V : (c : Dev nD) → (b : Ref sig .tc) → Buf (Elt Ideal) ((c : Thread nD τ).loc b))

/-- The interaction matrix, the user features and the item features as the launch finds them. -/
abbrev R4 (c : Dev nD) : FVec Ideal S4096x4096 .f32 := V c (Pipeline.arrRef spec4 0)
abbrev u4 (c : Dev nD) : FVec Ideal S4096x64 .f32 := V c (Pipeline.arrRef spec4 1)
abbrev it4 (c : Dev nD) : FVec Ideal S4096x64 .f32 := V c (Pipeline.arrRef spec4 2)

/-- The blocks the body reads at row block `t` are the arrays' rows `512 t …`, and the item features whole. -/
theorem iblk4_0_apply (c : Dev nD) (t : Fin cfg4.N) (p : Fin 512) (k : Fin 4096) :
    (iblk4 V c 0 t : Vec Ideal S512x4096 .f32) (ix2 p k) = R4 V c (ix2 (blkRow (rb4 t) p) k) :=
  blk4_0_apply c (V c (Pipeline.arrRef spec4 0)) t p k
theorem iblk4_1_apply (c : Dev nD) (t : Fin cfg4.N) (p : Fin 512) (d : Fin 64) :
    (iblk4 V c 1 t : Vec Ideal S512x64 .f32) (ix2 p d) = u4 V c (ix2 (blkRow (rb4 t) p) d) :=
  blk4_1_apply c (V c (Pipeline.arrRef spec4 1)) t p d
theorem iblk4_2_apply (c : Dev nD) (t : Fin cfg4.N) (k : Fin 4096) (d : Fin 64) :
    (iblk4 V c 2 t : Vec Ideal S4096x64 .f32) (ix2 k d) = it4 V c (ix2 k d) :=
  blk4_2_apply c (V c (Pipeline.arrRef spec4 2)) t k d

/-! ## The user result -/

/-- What row block `t` writes back of the user result is its block of the user layer. -/
theorem flushed4_3_eq (c : Dev nD) (t : Fin cfg4.N) :
    (dat4 (F := Ideal) V c).flushed 3 t
      = ((cfg4.win 3).blk t).view.read (Elt Ideal) (Cert.RefSide.layerU (F := Ideal) (R4 V c) (it4 V c)) := by
  show (cfg4.win 3).cut (grid4.coords t) ((dat4 V c).after 3 t) = _
  rw [after4_3]
  funext j
  obtain ⟨p, d, rfl⟩ : ∃ (p : Fin 512) (d : Fin 64), j = ix2 p d := ⟨j 0, j 1, eq_ix2 j⟩
  rw [View.read_apply]
  show k0_pay5 (F := Ideal) (iblk4 V c 0 t) (iblk4 V c 2 t) (ix2 p d)
    = Cert.RefSide.layerU (F := Ideal) (R4 V c) (it4 V c) (((cfg4.win 3).blk t).view.emb (ix2 p d))
  rw [emb4_3 t p d, Cert.RefSide.layerU_apply]
  exact rows5 (R4 V c) (it4 V c) (rb4 t) _ _ (iblk4_0_apply V c t) (iblk4_2_apply V c t) p d

/-- The user result after the launch is the user layer. -/
theorem val4_u (c : Dev nD) :
    (dat4 (F := Ideal) V c).arrAt 3 cfg4.N = Cert.RefSide.layerU (F := Ideal) (V c (Pipeline.arrRef spec4 0)) (V c (Pipeline.arrRef spec4 2)) :=
  (dat4 (F := Ideal) V c).arrAt_eq_of_cover 3 (Cert.RefSide.layerU (F := Ideal) (R4 V c) (it4 V c))
    (fun t _ => flushed4_3_eq V c t) cover4_3

/-! ## The item result -/

/-- After row block `n` the two accumulators hold the running totals of the whole sums' terms. -/
theorem accAt4_apply (c : Dev nD) : ∀ (n : ℕ) (hn : n < cfg4.N) (c' : Fin 4096) (d : Fin 64),
    (accAt4 (F := Ideal) V c n hn).1 (ix2 c' d) = acc (wTerm (R4 V c) (u4 V c) c' d) n (lt_of_lt_of_eq hn (show cfg4.N = 8 from N_4))
    ∧ (accAt4 (F := Ideal) V c n hn).2 (ix2 (0 : Fin 1) c') = acc (dTerm (R4 V c) c') n (lt_of_lt_of_eq hn (show cfg4.N = 8 from N_4))
  | 0, hn, c', d => by
    constructor
    · show k0_pay6 (F := Ideal) (iblk4 V c 0 ⟨0, hn⟩) (iblk4 V c 1 ⟨0, hn⟩) (k0_pay2 (F := Ideal)) (ix2 c' d) = _
      rw [step6 (R4 V c) (u4 V c) (rb4 ⟨0, hn⟩) _ _ (iblk4_0_apply V c ⟨0, hn⟩) (iblk4_1_apply V c ⟨0, hn⟩), pay2_apply]
      rfl
    · show k0_pay7 (F := Ideal) (iblk4 V c 0 ⟨0, hn⟩) (k0_pay3 (F := Ideal)) (ix2 (0 : Fin 1) c') = _
      rw [step7 (R4 V c) (rb4 ⟨0, hn⟩) _ (iblk4_0_apply V c ⟨0, hn⟩), pay3_apply]
      rfl
  | n + 1, hn, c', d => by
    constructor
    · show k0_pay6 (F := Ideal) (iblk4 V c 0 ⟨n + 1, hn⟩) (iblk4 V c 1 ⟨n + 1, hn⟩) (accAt4 V c n (Nat.lt_of_succ_lt hn)).1 (ix2 c' d) = _
      rw [step6 (R4 V c) (u4 V c) (rb4 ⟨n + 1, hn⟩) _ _ (iblk4_0_apply V c ⟨n + 1, hn⟩) (iblk4_1_apply V c ⟨n + 1, hn⟩),
        (accAt4_apply c n (Nat.lt_of_succ_lt hn) c' d).1]
      rfl
    · show k0_pay7 (F := Ideal) (iblk4 V c 0 ⟨n + 1, hn⟩) (accAt4 V c n (Nat.lt_of_succ_lt hn)).2 (ix2 (0 : Fin 1) c') = _
      rw [step7 (R4 V c) (rb4 ⟨n + 1, hn⟩) _ (iblk4_0_apply V c ⟨n + 1, hn⟩),
        (accAt4_apply c n (Nat.lt_of_succ_lt hn) c' d).2]
      rfl

/-- What the last row block writes back of the item result is the item layer. -/
theorem flushed4_4_eq (c : Dev nD) (t : Fin cfg4.N) (hf : (cfg4.win 4).flush t = true) :
    (dat4 (F := Ideal) V c).flushed 4 t
      = ((cfg4.win 4).blk t).view.read (Elt Ideal) (Cert.RefSide.layerI (F := Ideal) (R4 V c) (u4 V c)) := by
  have hN : cfg4.N = 8 := N_4
  have h7 : t.val = 7 := by have := (flush4_4 t).mp hf; have := t.isLt; omega
  show (cfg4.win 4).cut (grid4.coords t) ((dat4 V c).after 4 t) = _
  rw [after4_4]
  funext j
  obtain ⟨c', d, rfl⟩ : ∃ (c' : Fin 4096) (d : Fin 64), j = ix2 c' d := ⟨j 0, j 1, eq_ix2 j⟩
  rw [View.read_apply]
  show k0_pay1 (F := Ideal) (accAt4 V c t.val t.isLt).2 (accAt4 V c t.val t.isLt).1 (ix2 c' d)
    = Cert.RefSide.layerI (F := Ideal) (R4 V c) (u4 V c) (((cfg4.win 4).blk t).view.emb (ix2 c' d))
  rw [emb4_4 t c' d, Cert.RefSide.layerI_apply]
  obtain ⟨n, hn⟩ := t
  obtain rfl : n = 7 := h7
  refine final1 (R4 V c) (u4 V c) _ _ (fun c' d => ?_) (fun c' => ?_) c' d
  · exact ((accAt4_apply V c 7 hn c' d).1).trans (acc_last _ _)
  · exact ((accAt4_apply V c 7 hn c' (0 : Fin 64)).2).trans (acc_last _ _)

/-- The item result after the launch is the item layer. -/
theorem val4_i (c : Dev nD) :
    (dat4 (F := Ideal) V c).arrAt 4 cfg4.N = Cert.RefSide.layerI (F := Ideal) (V c (Pipeline.arrRef spec4 0)) (V c (Pipeline.arrRef spec4 1)) :=
  (dat4 (F := Ideal) V c).arrAt_eq_of_cover 4 (Cert.RefSide.layerI (F := Ideal) (R4 V c) (u4 V c))
    (flushed4_4_eq V c) cover4_4

end Region4

end Cert.KernelIdeal.Hand

end
-- ==== Proof.KI.Blk5.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb5 (t : Fin cfg5.N) : Fin 8 := ⟨t.val, lt_of_lt_of_eq t.isLt (show cfg5.N = 8 from N_5)⟩

/-- The block indices of the five windows at each row block. -/
theorem idx5_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0 :=
  (by decide +kernel : ∀ t : Fin grid5.N, _)

section
variable (c : Dev nD)

/-- The matrix's block at row block `t`, at `(p, k)`, is the matrix at row `512 t + p`, column `k`. -/
theorem blk5_0_apply (X : Buf (Elt F) ((c : Thread nD τ).loc (Pipeline.arrRef spec5 0))) (t : Fin cfg5.N) (p : Fin 512) (k : Fin 4096) :
    (((cfg5.win 0).blk t).view.read (Elt F) X : Vec F S512x4096 .f32) (ix2 p k)
      = (X : S4096x4096.Idx → F .f32) (ix2 (blkRow (rb5 t) p) k) := by
  obtain ⟨e00, e01, -⟩ := idx5_facts t
  rw [View.read_apply]
  show X _ = X _
  congr 1
  funext a; apply Fin.ext
  match a with
  | ⟨0, _⟩ => show win5_0.index t (0 : Fin 2) * 512 + 1 * p.val = 512 * t.val + p.val; rw [e00]; omega
  | ⟨1, _⟩ => show win5_0.index t (1 : Fin 2) * 4096 + 1 * k.val = k.val; rw [e01]; omega

/-- The user features' block at row block `t`, at `(p, d)`, is the user features at row `512 t + p`. -/
theorem blk5_1_apply (X : Buf (Elt F) ((c : Thread nD τ).loc (Pipeline.arrRef spec5 1))) (t : Fin cfg5.N) (p : Fin 512) (d : Fin 64) :
    (((cfg5.win 1).blk t).view.read (Elt F) X : Vec F S512x64 .f32) (ix2 p d)
      = (X : S4096x64.Idx → F .f32) (ix2 (blkRow (rb5 t) p) d) := by
  obtain ⟨-, -, e10, e11, -⟩ := idx5_facts t
  rw [View.read_apply]
  show X _ = X _
  congr 1
  funext a; apply Fin.ext
  match a with
  | ⟨0, _⟩ => show win5_1.index t (0 : Fin 2) * 512 + 1 * p.val = 512 * t.val + p.val; rw [e10]; omega
  | ⟨1, _⟩ => show win5_1.index t (1 : Fin 2) * 64 + 1 * d.val = d.val; rw [e11]; omega

/-- The item features' block is the item features, whole, at every row block. -/
theorem blk5_2_apply (X : Buf (Elt F) ((c : Thread nD τ).loc (Pipeline.arrRef spec5 2))) (t : Fin cfg5.N) (k : Fin 4096) (d : Fin 64) :
    (((cfg5.win 2).blk t).view.read (Elt F) X : Vec F S4096x64 .f32) (ix2 k d)
      = (X : S4096x64.Idx → F .f32) (ix2 k d) := by
  obtain ⟨-, -, -, -, e20, e21, -⟩ := idx5_facts t
  rw [View.read_apply]
  show X _ = X _
  congr 1
  funext a; apply Fin.ext
  match a with
  | ⟨0, _⟩ => show win5_2.index t (0 : Fin 2) * 4096 + 1 * k.val = k.val; rw [e20]; omega
  | ⟨1, _⟩ => show win5_2.index t (1 : Fin 2) * 64 + 1 * d.val = d.val; rw [e21]; omega

end

/-- The block of new user rows at row block `t` sits at rows `512 t …` of its array. -/
theorem emb5_3 (t : Fin cfg5.N) (p : Fin 512) (d : Fin 64) :
    (((cfg5.win 3).blk t).view.emb (ix2 p d) : S4096x64.Idx) = ix2 (blkRow (rb5 t) p) d := by
  obtain ⟨-, -, -, -, -, -, e30, e31, -⟩ := idx5_facts t
  funext a; apply Fin.ext
  match a with
  | ⟨0, _⟩ => show win5_3.index t (0 : Fin 2) * 512 + 1 * p.val = 512 * t.val + p.val; rw [e30]; omega
  | ⟨1, _⟩ => show win5_3.index t (1 : Fin 2) * 64 + 1 * d.val = d.val; rw [e31]; omega

/-- The item result's block is its whole array. -/
theorem emb5_4 (t : Fin cfg5.N) (k : Fin 4096) (d : Fin 64) :
    (((cfg5.win 4).blk t).view.emb (ix2 k d) : S4096x64.Idx) = ix2 k d := by
  obtain ⟨-, -, -, -, -, -, -, -, e40, e41⟩ := idx5_facts t
  funext a; apply Fin.ext
  match a with
  | ⟨0, _⟩ => show win5_4.index t (0 : Fin 2) * 4096 + 1 * k.val = k.val; rw [e40]; omega
  | ⟨1, _⟩ => show win5_4.index t (1 : Fin 2) * 64 + 1 * d.val = d.val; rw [e41]; omega

/-- An index of the user result is in row block `t`'s block when each coordinate is in the block's range. -/
theorem mem_blk5_3 (t : Fin cfg5.N) (i : S4096x64.Idx) :
    i ∈ ((cfg5.win 3).blk t).view.set ↔ ∀ a : Fin 2, win5_3.index t a * S512x64.size a ≤ (i a).val ∧ (i a).val < win5_3.index t a * S512x64.size a + S512x64.size a := by
  show i ∈ ((View.whole main_v29_0).slice (win5_3.rect t)).set ↔ _
  rw [View.set_slice_whole, Rect.mem_set_unit]
  exact Iff.rfl

theorem mem_blk5_4 (t : Fin cfg5.N) (i : S4096x64.Idx) :
    i ∈ ((cfg5.win 4).blk t).view.set ↔ ∀ a : Fin 2, win5_4.index t a * S4096x64.size a ≤ (i a).val ∧ (i a).val < win5_4.index t a * S4096x64.size a + S4096x64.size a := by
  show i ∈ ((View.whole main_v29_1).slice (win5_4.rect t)).set ↔ _
  rw [View.set_slice_whole, Rect.mem_set_unit]
  exact Iff.rfl

/-- Every row of the user result is written back by the row block it lies in. -/
theorem cover5_3 (i : S4096x64.Idx) : ∃ t : Fin cfg5.N, (cfg5.win 3).flush t = true ∧ i ∈ ((cfg5.win 3).blk t).view.set := by
  have hi0 : (i 0).val < 4096 := (i 0).isLt
  have hi1 : (i 1).val < 64 := (i 1).isLt
  have hN : cfg5.N = 8 := N_5
  have ht : (i 0).val / 512 < cfg5.N := by omega
  obtain ⟨-, -, -, -, -, -, e30, e31, -⟩ := idx5_facts ⟨(i 0).val / 512, ht⟩
  refine ⟨⟨(i 0).val / 512, ht⟩, flush5_3 _, ?_⟩
  rw [mem_blk5_3]
  intro a
  match a with
  | ⟨0, _⟩ =>
    show win5_3.index ⟨(i 0).val / 512, ht⟩ (0 : Fin 2) * 512 ≤ (i 0).val ∧ (i 0).val < win5_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win5_3.index ⟨(i 0).val / 512, ht⟩ (1 : Fin 2) * 64 ≤ (i 1).val ∧ (i 1).val < win5_3.index ⟨(i 0).val / 512, ht⟩ (1 : Fin 2) * 64 + 64
    rw [e31]; omega

/-- Every entry of the item result is written back by the last row block. -/
theorem cover5_4 (i : S4096x64.Idx) : ∃ t : Fin cfg5.N, (cfg5.win 4).flush t = true ∧ i ∈ ((cfg5.win 4).blk t).view.set := by
  have hi0 : (i 0).val < 4096 := (i 0).isLt
  have hi1 : (i 1).val < 64 := (i 1).isLt
  obtain ⟨-, -, -, -, -, -, -, -, e40, e41⟩ := idx5_facts t5_7
  refine ⟨t5_7, (flush5_4 t5_7).mpr rfl, ?_⟩
  rw [mem_blk5_4]
  intro a
  match a with
  | ⟨0, _⟩ =>
    show win5_4.index t5_7 (0 : Fin 2) * 4096 ≤ (i 0).val ∧ (i 0).val < win5_4.index t5_7 (0 : Fin 2) * 4096 + 4096
    rw [e40]; omega
  | ⟨1, _⟩ =>
    show win5_4.index t5_7 (1 : Fin 2) * 64 ≤ (i 1).val ∧ (i 1).val < win5_4.index t5_7 (1 : Fin 2) * 64 + 64
    rw [e41]; omega

end Cert.KernelIdeal.Hand

end
-- ==== Proof.KI.Val5.lean ====
import proofs.«103934_j28484223107660_1_alg».proof.Proof.KI.Reg5
import proofs.«103934_j28484223107660_1_alg».proof.Proof.KI.Step
import proofs.«103934_j28484223107660_1_alg».proof.Proof.KI.Blk5
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region5

variable (V : (c : Dev nD) → (b : Ref sig .tc) → Buf (Elt Ideal) ((c : Thread nD τ).loc b))

/-- The interaction matrix, the user features and the item features as the launch finds them. -/
abbrev R5 (c : Dev nD) : FVec Ideal S4096x4096 .f32 := V c (Pipeline.arrRef spec5 0)
abbrev u5 (c : Dev nD) : FVec Ideal S4096x64 .f32 := V c (Pipeline.arrRef spec5 1)
abbrev it5 (c : Dev nD) : FVec Ideal S4096x64 .f32 := V c (Pipeline.arrRef spec5 2)

/-- The blocks the body reads at row block `t` are the arrays' rows `512 t …`, and the item features whole. -/
theorem iblk5_0_apply (c : Dev nD) (t : Fin cfg5.N) (p : Fin 512) (k : Fin 4096) :
    (iblk5 V c 0 t : Vec Ideal S512x4096 .f32) (ix2 p k) = R5 V c (ix2 (blkRow (rb5 t) p) k) :=
  blk5_0_apply c (V c (Pipeline.arrRef spec5 0)) t p k
theorem iblk5_1_apply (c : Dev nD) (t : Fin cfg5.N) (p : Fin 512) (d : Fin 64) :
    (iblk5 V c 1 t : Vec Ideal S512x64 .f32) (ix2 p d) = u5 V c (ix2 (blkRow (rb5 t) p) d) :=
  blk5_1_apply c (V c (Pipeline.arrRef spec5 1)) t p d
theorem iblk5_2_apply (c : Dev nD) (t : Fin cfg5.N) (k : Fin 4096) (d : Fin 64) :
    (iblk5 V c 2 t : Vec Ideal S4096x64 .f32) (ix2 k d) = it5 V c (ix2 k d) :=
  blk5_2_apply c (V c (Pipeline.arrRef spec5 2)) t k d

/-! ## The user result -/

/-- What row block `t` writes back of the user result is its block of the user layer. -/
theorem flushed5_3_eq (c : Dev nD) (t : Fin cfg5.N) :
    (dat5 (F := Ideal) V c).flushed 3 t
      = ((cfg5.win 3).blk t).view.read (Elt Ideal) (Cert.RefSide.layerU (F := Ideal) (R5 V c) (it5 V c)) := by
  show (cfg5.win 3).cut (grid5.coords t) ((dat5 V c).after 3 t) = _
  rw [after5_3]
  funext j
  obtain ⟨p, d, rfl⟩ : ∃ (p : Fin 512) (d : Fin 64), j = ix2 p d := ⟨j 0, j 1, eq_ix2 j⟩
  rw [View.read_apply]
  show k1_pay5 (F := Ideal) (iblk5 V c 0 t) (iblk5 V c 2 t) (ix2 p d)
    = Cert.RefSide.layerU (F := Ideal) (R5 V c) (it5 V c) (((cfg5.win 3).blk t).view.emb (ix2 p d))
  rw [emb5_3 t p d, Cert.RefSide.layerU_apply]
  exact rows5o (R5 V c) (it5 V c) (rb5 t) _ _ (iblk5_0_apply V c t) (iblk5_2_apply V c t) p d

/-- The user result after the launch is the user layer. -/
theorem val5_u (c : Dev nD) :
    (dat5 (F := Ideal) V c).arrAt 3 cfg5.N = Cert.RefSide.layerU (F := Ideal) (V c (Pipeline.arrRef spec5 0)) (V c (Pipeline.arrRef spec5 2)) :=
  (dat5 (F := Ideal) V c).arrAt_eq_of_cover 3 (Cert.RefSide.layerU (F := Ideal) (R5 V c) (it5 V c))
    (fun t _ => flushed5_3_eq V c t) cover5_3

/-! ## The item result -/

/-- After row block `n` the two accumulators hold the running totals of the whole sums' terms. -/
theorem accAt5_apply (c : Dev nD) : ∀ (n : ℕ) (hn : n < cfg5.N) (c' : Fin 4096) (d : Fin 64),
    (accAt5 (F := Ideal) V c n hn).1 (ix2 c' d) = acc (wTerm (R5 V c) (u5 V c) c' d) n (lt_of_lt_of_eq hn (show cfg5.N = 8 from N_5))
    ∧ (accAt5 (F := Ideal) V c n hn).2 (ix2 (0 : Fin 1) c') = acc (dTerm (R5 V c) c') n (lt_of_lt_of_eq hn (show cfg5.N = 8 from N_5))
  | 0, hn, c', d => by
    constructor
    · show k1_pay6 (F := Ideal) (iblk5 V c 0 ⟨0, hn⟩) (iblk5 V c 1 ⟨0, hn⟩) (k1_pay2 (F := Ideal)) (ix2 c' d) = _
      rw [step6o (R5 V c) (u5 V c) (rb5 ⟨0, hn⟩) _ _ (iblk5_0_apply V c ⟨0, hn⟩) (iblk5_1_apply V c ⟨0, hn⟩), pay2o_apply]
      rfl
    · show k1_pay7 (F := Ideal) (iblk5 V c 0 ⟨0, hn⟩) (k1_pay3 (F := Ideal)) (ix2 (0 : Fin 1) c') = _
      rw [step7o (R5 V c) (rb5 ⟨0, hn⟩) _ (iblk5_0_apply V c ⟨0, hn⟩), pay3o_apply]
      rfl
  | n + 1, hn, c', d => by
    constructor
    · show k1_pay6 (F := Ideal) (iblk5 V c 0 ⟨n + 1, hn⟩) (iblk5 V c 1 ⟨n + 1, hn⟩) (accAt5 V c n (Nat.lt_of_succ_lt hn)).1 (ix2 c' d) = _
      rw [step6o (R5 V c) (u5 V c) (rb5 ⟨n + 1, hn⟩) _ _ (iblk5_0_apply V c ⟨n + 1, hn⟩) (iblk5_1_apply V c ⟨n + 1, hn⟩),
        (accAt5_apply c n (Nat.lt_of_succ_lt hn) c' d).1]
      rfl
    · show k1_pay7 (F := Ideal) (iblk5 V c 0 ⟨n + 1, hn⟩) (accAt5 V c n (Nat.lt_of_succ_lt hn)).2 (ix2 (0 : Fin 1) c') = _
      rw [step7o (R5 V c) (rb5 ⟨n + 1, hn⟩) _ (iblk5_0_apply V c ⟨n + 1, hn⟩),
        (accAt5_apply c n (Nat.lt_of_succ_lt hn) c' d).2]
      rfl

/-- What the last row block writes back of the item result is the item layer. -/
theorem flushed5_4_eq (c : Dev nD) (t : Fin cfg5.N) (hf : (cfg5.win 4).flush t = true) :
    (dat5 (F := Ideal) V c).flushed 4 t
      = ((cfg5.win 4).blk t).view.read (Elt Ideal) (Cert.RefSide.layerI (F := Ideal) (R5 V c) (u5 V c)) := by
  have hN : cfg5.N = 8 := N_5
  have h7 : t.val = 7 := by have := (flush5_4 t).mp hf; have := t.isLt; omega
  show (cfg5.win 4).cut (grid5.coords t) ((dat5 V c).after 4 t) = _
  rw [after5_4]
  funext j
  obtain ⟨c', d, rfl⟩ : ∃ (c' : Fin 4096) (d : Fin 64), j = ix2 c' d := ⟨j 0, j 1, eq_ix2 j⟩
  rw [View.read_apply]
  show k1_pay1 (F := Ideal) (accAt5 V c t.val t.isLt).2 (accAt5 V c t.val t.isLt).1 (ix2 c' d)
    = Cert.RefSide.layerI (F := Ideal) (R5 V c) (u5 V c) (((cfg5.win 4).blk t).view.emb (ix2 c' d))
  rw [emb5_4 t c' d, Cert.RefSide.layerI_apply]
  obtain ⟨n, hn⟩ := t
  obtain rfl : n = 7 := h7
  refine final1o (R5 V c) (u5 V c) _ _ (fun c' d => ?_) (fun c' => ?_) c' d
  · exact ((accAt5_apply V c 7 hn c' d).1).trans (acc_last _ _)
  · exact ((accAt5_apply V c 7 hn c' (0 : Fin 64)).2).trans (acc_last _ _)

/-- The item result after the launch is the item layer. -/
theorem val5_i (c : Dev nD) :
    (dat5 (F := Ideal) V c).arrAt 4 cfg5.N = Cert.RefSide.layerI (F := Ideal) (V c (Pipeline.arrRef spec5 0)) (V c (Pipeline.arrRef spec5 1)) :=
  (dat5 (F := Ideal) V c).arrAt_eq_of_cover 4 (Cert.RefSide.layerI (F := Ideal) (R5 V c) (u5 V c))
    (flushed5_4_eq V c) cover5_4

end Region5

end Cert.KernelIdeal.Hand

end
-- ==== Proof.KI.Blk6.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb6 (t : Fin cfg6.N) : Fin 8 := ⟨t.val, lt_of_lt_of_eq t.isLt (show cfg6.N = 8 from N_6)⟩

/-- The block indices of the five windows at each row block. -/
theorem idx6_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0 :=
  (by decide +kernel : ∀ t : Fin grid6.N, _)

section
variable (c : Dev nD)

/-- The matrix's block at row block `t`, at `(p, k)`, is the matrix at row `512 t + p`, column `k`. -/
theorem blk6_0_apply (X : Buf (Elt F) ((c : Thread nD τ).loc (Pipeline.arrRef spec6 0))) (t : Fin cfg6.N) (p : Fin 512) (k : Fin 4096) :
    (((cfg6.win 0).blk t).view.read (Elt F) X : Vec F S512x4096 .f32) (ix2 p k)
      = (X : S4096x4096.Idx → F .f32) (ix2 (blkRow (rb6 t) p) k) := by
  obtain ⟨e00, e01, -⟩ := idx6_facts t
  rw [View.read_apply]
  show X _ = X _
  congr 1
  funext a; apply Fin.ext
  match a with
  | ⟨0, _⟩ => show win6_0.index t (0 : Fin 2) * 512 + 1 * p.val = 512 * t.val + p.val; rw [e00]; omega
  | ⟨1, _⟩ => show win6_0.index t (1 : Fin 2) * 4096 + 1 * k.val = k.val; rw [e01]; omega

/-- The user features' block at row block `t`, at `(p, d)`, is the user features at row `512 t + p`. -/
theorem blk6_1_apply (X : Buf (Elt F) ((c : Thread nD τ).loc (Pipeline.arrRef spec6 1))) (t : Fin cfg6.N) (p : Fin 512) (d : Fin 64) :
    (((cfg6.win 1).blk t).view.read (Elt F) X : Vec F S512x64 .f32) (ix2 p d)
      = (X : S4096x64.Idx → F .f32) (ix2 (blkRow (rb6 t) p) d) := by
  obtain ⟨-, -, e10, e11, -⟩ := idx6_facts t
  rw [View.read_apply]
  show X _ = X _
  congr 1
  funext a; apply Fin.ext
  match a with
  | ⟨0, _⟩ => show win6_1.index t (0 : Fin 2) * 512 + 1 * p.val = 512 * t.val + p.val; rw [e10]; omega
  | ⟨1, _⟩ => show win6_1.index t (1 : Fin 2) * 64 + 1 * d.val = d.val; rw [e11]; omega

/-- The item features' block is the item features, whole, at every row block. -/
theorem blk6_2_apply (X : Buf (Elt F) ((c : Thread nD τ).loc (Pipeline.arrRef spec6 2))) (t : Fin cfg6.N) (k : Fin 4096) (d : Fin 64) :
    (((cfg6.win 2).blk t).view.read (Elt F) X : Vec F S4096x64 .f32) (ix2 k d)
      = (X : S4096x64.Idx → F .f32) (ix2 k d) := by
  obtain ⟨-, -, -, -, e20, e21, -⟩ := idx6_facts t
  rw [View.read_apply]
  show X _ = X _
  congr 1
  funext a; apply Fin.ext
  match a with
  | ⟨0, _⟩ => show win6_2.index t (0 : Fin 2) * 4096 + 1 * k.val = k.val; rw [e20]; omega
  | ⟨1, _⟩ => show win6_2.index t (1 : Fin 2) * 64 + 1 * d.val = d.val; rw [e21]; omega

end

/-- The block of new user rows at row block `t` sits at rows `512 t …` of its array. -/
theorem emb6_3 (t : Fin cfg6.N) (p : Fin 512) (d : Fin 64) :
    (((cfg6.win 3).blk t).view.emb (ix2 p d) : S4096x64.Idx) = ix2 (blkRow (rb6 t) p) d := by
  obtain ⟨-, -, -, -, -, -, e30, e31, -⟩ := idx6_facts t
  funext a; apply Fin.ext
  match a with
  | ⟨0, _⟩ => show win6_3.index t (0 : Fin 2) * 512 + 1 * p.val = 512 * t.val + p.val; rw [e30]; omega
  | ⟨1, _⟩ => show win6_3.index t (1 : Fin 2) * 64 + 1 * d.val = d.val; rw [e31]; omega

/-- The item result's block is its whole array. -/
theorem emb6_4 (t : Fin cfg6.N) (k : Fin 4096) (d : Fin 64) :
    (((cfg6.win 4).blk t).view.emb (ix2 k d) : S4096x64.Idx) = ix2 k d := by
  obtain ⟨-, -, -, -, -, -, -, -, e40, e41⟩ := idx6_facts t
  funext a; apply Fin.ext
  match a with
  | ⟨0, _⟩ => show win6_4.index t (0 : Fin 2) * 4096 + 1 * k.val = k.val; rw [e40]; omega
  | ⟨1, _⟩ => show win6_4.index t (1 : Fin 2) * 64 + 1 * d.val = d.val; rw [e41]; omega

/-- An index of the user result is in row block `t`'s block when each coordinate is in the block's range. -/
theorem mem_blk6_3 (t : Fin cfg6.N) (i : S4096x64.Idx) :
    i ∈ ((cfg6.win 3).blk t).view.set ↔ ∀ a : Fin 2, win6_3.index t a * S512x64.size a ≤ (i a).val ∧ (i a).val < win6_3.index t a * S512x64.size a + S512x64.size a := by
  show i ∈ ((View.whole main_v38_0).slice (win6_3.rect t)).set ↔ _
  rw [View.set_slice_whole, Rect.mem_set_unit]
  exact Iff.rfl

theorem mem_blk6_4 (t : Fin cfg6.N) (i : S4096x64.Idx) :
    i ∈ ((cfg6.win 4).blk t).view.set ↔ ∀ a : Fin 2, win6_4.index t a * S4096x64.size a ≤ (i a).val ∧ (i a).val < win6_4.index t a * S4096x64.size a + S4096x64.size a := by
  show i ∈ ((View.whole main_v38_1).slice (win6_4.rect t)).set ↔ _
  rw [View.set_slice_whole, Rect.mem_set_unit]
  exact Iff.rfl

/-- Every row of the user result is written back by the row block it lies in. -/
theorem cover6_3 (i : S4096x64.Idx) : ∃ t : Fin cfg6.N, (cfg6.win 3).flush t = true ∧ i ∈ ((cfg6.win 3).blk t).view.set := by
  have hi0 : (i 0).val < 4096 := (i 0).isLt
  have hi1 : (i 1).val < 64 := (i 1).isLt
  have hN : cfg6.N = 8 := N_6
  have ht : (i 0).val / 512 < cfg6.N := by omega
  obtain ⟨-, -, -, -, -, -, e30, e31, -⟩ := idx6_facts ⟨(i 0).val / 512, ht⟩
  refine ⟨⟨(i 0).val / 512, ht⟩, flush6_3 _, ?_⟩
  rw [mem_blk6_3]
  intro a
  match a with
  | ⟨0, _⟩ =>
    show win6_3.index ⟨(i 0).val / 512, ht⟩ (0 : Fin 2) * 512 ≤ (i 0).val ∧ (i 0).val < win6_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win6_3.index ⟨(i 0).val / 512, ht⟩ (1 : Fin 2) * 64 ≤ (i 1).val ∧ (i 1).val < win6_3.index ⟨(i 0).val / 512, ht⟩ (1 : Fin 2) * 64 + 64
    rw [e31]; omega

/-- Every entry of the item result is written back by the last row block. -/
theorem cover6_4 (i : S4096x64.Idx) : ∃ t : Fin cfg6.N, (cfg6.win 4).flush t = true ∧ i ∈ ((cfg6.win 4).blk t).view.set := by
  have hi0 : (i 0).val < 4096 := (i 0).isLt
  have hi1 : (i 1).val < 64 := (i 1).isLt
  obtain ⟨-, -, -, -, -, -, -, -, e40, e41⟩ := idx6_facts t6_7
  refine ⟨t6_7, (flush6_4 t6_7).mpr rfl, ?_⟩
  rw [mem_blk6_4]
  intro a
  match a with
  | ⟨0, _⟩ =>
    show win6_4.index t6_7 (0 : Fin 2) * 4096 ≤ (i 0).val ∧ (i 0).val < win6_4.index t6_7 (0 : Fin 2) * 4096 + 4096
    rw [e40]; omega
  | ⟨1, _⟩ =>
    show win6_4.index t6_7 (1 : Fin 2) * 64 ≤ (i 1).val ∧ (i 1).val < win6_4.index t6_7 (1 : Fin 2) * 64 + 64
    rw [e41]; omega

end Cert.KernelIdeal.Hand

end
-- ==== Proof.KI.Val6.lean ====
import proofs.«103934_j28484223107660_1_alg».proof.Proof.KI.Reg6
import proofs.«103934_j28484223107660_1_alg».proof.Proof.KI.Step
import proofs.«103934_j28484223107660_1_alg».proof.Proof.KI.Blk6
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region6

variable (V : (c : Dev nD) → (b : Ref sig .tc) → Buf (Elt Ideal) ((c : Thread nD τ).loc b))

/-- The interaction matrix, the user features and the item features as the launch finds them. -/
abbrev R6 (c : Dev nD) : FVec Ideal S4096x4096 .f32 := V c (Pipeline.arrRef spec6 0)
abbrev u6 (c : Dev nD) : FVec Ideal S4096x64 .f32 := V c (Pipeline.arrRef spec6 1)
abbrev it6 (c : Dev nD) : FVec Ideal S4096x64 .f32 := V c (Pipeline.arrRef spec6 2)

/-- The blocks the body reads at row block `t` are the arrays' rows `512 t …`, and the item features whole. -/
theorem iblk6_0_apply (c : Dev nD) (t : Fin cfg6.N) (p : Fin 512) (k : Fin 4096) :
    (iblk6 V c 0 t : Vec Ideal S512x4096 .f32) (ix2 p k) = R6 V c (ix2 (blkRow (rb6 t) p) k) :=
  blk6_0_apply c (V c (Pipeline.arrRef spec6 0)) t p k
theorem iblk6_1_apply (c : Dev nD) (t : Fin cfg6.N) (p : Fin 512) (d : Fin 64) :
    (iblk6 V c 1 t : Vec Ideal S512x64 .f32) (ix2 p d) = u6 V c (ix2 (blkRow (rb6 t) p) d) :=
  blk6_1_apply c (V c (Pipeline.arrRef spec6 1)) t p d
theorem iblk6_2_apply (c : Dev nD) (t : Fin cfg6.N) (k : Fin 4096) (d : Fin 64) :
    (iblk6 V c 2 t : Vec Ideal S4096x64 .f32) (ix2 k d) = it6 V c (ix2 k d) :=
  blk6_2_apply c (V c (Pipeline.arrRef spec6 2)) t k d

/-! ## The user result -/

/-- What row block `t` writes back of the user result is its block of the user layer. -/
theorem flushed6_3_eq (c : Dev nD) (t : Fin cfg6.N) :
    (dat6 (F := Ideal) V c).flushed 3 t
      = ((cfg6.win 3).blk t).view.read (Elt Ideal) (Cert.RefSide.layerU (F := Ideal) (R6 V c) (it6 V c)) := by
  show (cfg6.win 3).cut (grid6.coords t) ((dat6 V c).after 3 t) = _
  rw [after6_3]
  funext j
  obtain ⟨p, d, rfl⟩ : ∃ (p : Fin 512) (d : Fin 64), j = ix2 p d := ⟨j 0, j 1, eq_ix2 j⟩
  rw [View.read_apply]
  show k0_pay5 (F := Ideal) (iblk6 V c 0 t) (iblk6 V c 2 t) (ix2 p d)
    = Cert.RefSide.layerU (F := Ideal) (R6 V c) (it6 V c) (((cfg6.win 3).blk t).view.emb (ix2 p d))
  rw [emb6_3 t p d, Cert.RefSide.layerU_apply]
  exact rows5 (R6 V c) (it6 V c) (rb6 t) _ _ (iblk6_0_apply V c t) (iblk6_2_apply V c t) p d

/-- The user result after the launch is the user layer. -/
theorem val6_u (c : Dev nD) :
    (dat6 (F := Ideal) V c).arrAt 3 cfg6.N = Cert.RefSide.layerU (F := Ideal) (V c (Pipeline.arrRef spec6 0)) (V c (Pipeline.arrRef spec6 2)) :=
  (dat6 (F := Ideal) V c).arrAt_eq_of_cover 3 (Cert.RefSide.layerU (F := Ideal) (R6 V c) (it6 V c))
    (fun t _ => flushed6_3_eq V c t) cover6_3

/-! ## The item result -/

/-- After row block `n` the two accumulators hold the running totals of the whole sums' terms. -/
theorem accAt6_apply (c : Dev nD) : ∀ (n : ℕ) (hn : n < cfg6.N) (c' : Fin 4096) (d : Fin 64),
    (accAt6 (F := Ideal) V c n hn).1 (ix2 c' d) = acc (wTerm (R6 V c) (u6 V c) c' d) n (lt_of_lt_of_eq hn (show cfg6.N = 8 from N_6))
    ∧ (accAt6 (F := Ideal) V c n hn).2 (ix2 (0 : Fin 1) c') = acc (dTerm (R6 V c) c') n (lt_of_lt_of_eq hn (show cfg6.N = 8 from N_6))
  | 0, hn, c', d => by
    constructor
    · show k0_pay6 (F := Ideal) (iblk6 V c 0 ⟨0, hn⟩) (iblk6 V c 1 ⟨0, hn⟩) (k0_pay2 (F := Ideal)) (ix2 c' d) = _
      rw [step6 (R6 V c) (u6 V c) (rb6 ⟨0, hn⟩) _ _ (iblk6_0_apply V c ⟨0, hn⟩) (iblk6_1_apply V c ⟨0, hn⟩), pay2_apply]
      rfl
    · show k0_pay7 (F := Ideal) (iblk6 V c 0 ⟨0, hn⟩) (k0_pay3 (F := Ideal)) (ix2 (0 : Fin 1) c') = _
      rw [step7 (R6 V c) (rb6 ⟨0, hn⟩) _ (iblk6_0_apply V c ⟨0, hn⟩), pay3_apply]
      rfl
  | n + 1, hn, c', d => by
    constructor
    · show k0_pay6 (F := Ideal) (iblk6 V c 0 ⟨n + 1, hn⟩) (iblk6 V c 1 ⟨n + 1, hn⟩) (accAt6 V c n (Nat.lt_of_succ_lt hn)).1 (ix2 c' d) = _
      rw [step6 (R6 V c) (u6 V c) (rb6 ⟨n + 1, hn⟩) _ _ (iblk6_0_apply V c ⟨n + 1, hn⟩) (iblk6_1_apply V c ⟨n + 1, hn⟩),
        (accAt6_apply c n (Nat.lt_of_succ_lt hn) c' d).1]
      rfl
    · show k0_pay7 (F := Ideal) (iblk6 V c 0 ⟨n + 1, hn⟩) (accAt6 V c n (Nat.lt_of_succ_lt hn)).2 (ix2 (0 : Fin 1) c') = _
      rw [step7 (R6 V c) (rb6 ⟨n + 1, hn⟩) _ (iblk6_0_apply V c ⟨n + 1, hn⟩),
        (accAt6_apply c n (Nat.lt_of_succ_lt hn) c' d).2]
      rfl

/-- What the last row block writes back of the item result is the item layer. -/
theorem flushed6_4_eq (c : Dev nD) (t : Fin cfg6.N) (hf : (cfg6.win 4).flush t = true) :
    (dat6 (F := Ideal) V c).flushed 4 t
      = ((cfg6.win 4).blk t).view.read (Elt Ideal) (Cert.RefSide.layerI (F := Ideal) (R6 V c) (u6 V c)) := by
  have hN : cfg6.N = 8 := N_6
  have h7 : t.val = 7 := by have := (flush6_4 t).mp hf; have := t.isLt; omega
  show (cfg6.win 4).cut (grid6.coords t) ((dat6 V c).after 4 t) = _
  rw [after6_4]
  funext j
  obtain ⟨c', d, rfl⟩ : ∃ (c' : Fin 4096) (d : Fin 64), j = ix2 c' d := ⟨j 0, j 1, eq_ix2 j⟩
  rw [View.read_apply]
  show k0_pay1 (F := Ideal) (accAt6 V c t.val t.isLt).2 (accAt6 V c t.val t.isLt).1 (ix2 c' d)
    = Cert.RefSide.layerI (F := Ideal) (R6 V c) (u6 V c) (((cfg6.win 4).blk t).view.emb (ix2 c' d))
  rw [emb6_4 t c' d, Cert.RefSide.layerI_apply]
  obtain ⟨n, hn⟩ := t
  obtain rfl : n = 7 := h7
  refine final1 (R6 V c) (u6 V c) _ _ (fun c' d => ?_) (fun c' => ?_) c' d
  · exact ((accAt6_apply V c 7 hn c' d).1).trans (acc_last _ _)
  · exact ((accAt6_apply V c 7 hn c' (0 : Fin 64)).2).trans (acc_last _ _)

/-- The item result after the launch is the item layer. -/
theorem val6_i (c : Dev nD) :
    (dat6 (F := Ideal) V c).arrAt 4 cfg6.N = Cert.RefSide.layerI (F := Ideal) (V c (Pipeline.arrRef spec6 0)) (V c (Pipeline.arrRef spec6 1)) :=
  (dat6 (F := Ideal) V c).arrAt_eq_of_cover 4 (Cert.RefSide.layerI (F := Ideal) (R6 V c) (u6 V c))
    (flushed6_4_eq V c) cover6_4

end Region6

end Cert.KernelIdeal.Hand

end
-- ==== Proof.KI.Blk7.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb7 (t : Fin cfg7.N) : Fin 8 := ⟨t.val, lt_of_lt_of_eq t.isLt (show cfg7.N = 8 from N_7)⟩

/-- The block indices of the five windows at each row block. -/
theorem idx7_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0 :=
  (by decide +kernel : ∀ t : Fin grid7.N, _)

section
variable (c : Dev nD)

/-- The matrix's block at row block `t`, at `(p, k)`, is the matrix at row `512 t + p`, column `k`. -/
theorem blk7_0_apply (X : Buf (Elt F) ((c : Thread nD τ).loc (Pipeline.arrRef spec7 0))) (t : Fin cfg7.N) (p : Fin 512) (k : Fin 4096) :
    (((cfg7.win 0).blk t).view.read (Elt F) X : Vec F S512x4096 .f32) (ix2 p k)
      = (X : S4096x4096.Idx → F .f32) (ix2 (blkRow (rb7 t) p) k) := by
  obtain ⟨e00, e01, -⟩ := idx7_facts t
  rw [View.read_apply]
  show X _ = X _
  congr 1
  funext a; apply Fin.ext
  match a with
  | ⟨0, _⟩ => show win7_0.index t (0 : Fin 2) * 512 + 1 * p.val = 512 * t.val + p.val; rw [e00]; omega
  | ⟨1, _⟩ => show win7_0.index t (1 : Fin 2) * 4096 + 1 * k.val = k.val; rw [e01]; omega

/-- The user features' block at row block `t`, at `(p, d)`, is the user features at row `512 t + p`. -/
theorem blk7_1_apply (X : Buf (Elt F) ((c : Thread nD τ).loc (Pipeline.arrRef spec7 1))) (t : Fin cfg7.N) (p : Fin 512) (d : Fin 64) :
    (((cfg7.win 1).blk t).view.read (Elt F) X : Vec F S512x64 .f32) (ix2 p d)
      = (X : S4096x64.Idx → F .f32) (ix2 (blkRow (rb7 t) p) d) := by
  obtain ⟨-, -, e10, e11, -⟩ := idx7_facts t
  rw [View.read_apply]
  show X _ = X _
  congr 1
  funext a; apply Fin.ext
  match a with
  | ⟨0, _⟩ => show win7_1.index t (0 : Fin 2) * 512 + 1 * p.val = 512 * t.val + p.val; rw [e10]; omega
  | ⟨1, _⟩ => show win7_1.index t (1 : Fin 2) * 64 + 1 * d.val = d.val; rw [e11]; omega

/-- The item features' block is the item features, whole, at every row block. -/
theorem blk7_2_apply (X : Buf (Elt F) ((c : Thread nD τ).loc (Pipeline.arrRef spec7 2))) (t : Fin cfg7.N) (k : Fin 4096) (d : Fin 64) :
    (((cfg7.win 2).blk t).view.read (Elt F) X : Vec F S4096x64 .f32) (ix2 k d)
      = (X : S4096x64.Idx → F .f32) (ix2 k d) := by
  obtain ⟨-, -, -, -, e20, e21, -⟩ := idx7_facts t
  rw [View.read_apply]
  show X _ = X _
  congr 1
  funext a; apply Fin.ext
  match a with
  | ⟨0, _⟩ => show win7_2.index t (0 : Fin 2) * 4096 + 1 * k.val = k.val; rw [e20]; omega
  | ⟨1, _⟩ => show win7_2.index t (1 : Fin 2) * 64 + 1 * d.val = d.val; rw [e21]; omega

end

/-- The block of new user rows at row block `t` sits at rows `512 t …` of its array. -/
theorem emb7_3 (t : Fin cfg7.N) (p : Fin 512) (d : Fin 64) :
    (((cfg7.win 3).blk t).view.emb (ix2 p d) : S4096x64.Idx) = ix2 (blkRow (rb7 t) p) d := by
  obtain ⟨-, -, -, -, -, -, e30, e31, -⟩ := idx7_facts t
  funext a; apply Fin.ext
  match a with
  | ⟨0, _⟩ => show win7_3.index t (0 : Fin 2) * 512 + 1 * p.val = 512 * t.val + p.val; rw [e30]; omega
  | ⟨1, _⟩ => show win7_3.index t (1 : Fin 2) * 64 + 1 * d.val = d.val; rw [e31]; omega

/-- The item result's block is its whole array. -/
theorem emb7_4 (t : Fin cfg7.N) (k : Fin 4096) (d : Fin 64) :
    (((cfg7.win 4).blk t).view.emb (ix2 k d) : S4096x64.Idx) = ix2 k d := by
  obtain ⟨-, -, -, -, -, -, -, -, e40, e41⟩ := idx7_facts t
  funext a; apply Fin.ext
  match a with
  | ⟨0, _⟩ => show win7_4.index t (0 : Fin 2) * 4096 + 1 * k.val = k.val; rw [e40]; omega
  | ⟨1, _⟩ => show win7_4.index t (1 : Fin 2) * 64 + 1 * d.val = d.val; rw [e41]; omega

/-- An index of the user result is in row block `t`'s block when each coordinate is in the block's range. -/
theorem mem_blk7_3 (t : Fin cfg7.N) (i : S4096x64.Idx) :
    i ∈ ((cfg7.win 3).blk t).view.set ↔ ∀ a : Fin 2, win7_3.index t a * S512x64.size a ≤ (i a).val ∧ (i a).val < win7_3.index t a * S512x64.size a + S512x64.size a := by
  show i ∈ ((View.whole main_v41_0).slice (win7_3.rect t)).set ↔ _
  rw [View.set_slice_whole, Rect.mem_set_unit]
  exact Iff.rfl

theorem mem_blk7_4 (t : Fin cfg7.N) (i : S4096x64.Idx) :
    i ∈ ((cfg7.win 4).blk t).view.set ↔ ∀ a : Fin 2, win7_4.index t a * S4096x64.size a ≤ (i a).val ∧ (i a).val < win7_4.index t a * S4096x64.size a + S4096x64.size a := by
  show i ∈ ((View.whole main_v41_1).slice (win7_4.rect t)).set ↔ _
  rw [View.set_slice_whole, Rect.mem_set_unit]
  exact Iff.rfl

/-- Every row of the user result is written back by the row block it lies in. -/
theorem cover7_3 (i : S4096x64.Idx) : ∃ t : Fin cfg7.N, (cfg7.win 3).flush t = true ∧ i ∈ ((cfg7.win 3).blk t).view.set := by
  have hi0 : (i 0).val < 4096 := (i 0).isLt
  have hi1 : (i 1).val < 64 := (i 1).isLt
  have hN : cfg7.N = 8 := N_7
  have ht : (i 0).val / 512 < cfg7.N := by omega
  obtain ⟨-, -, -, -, -, -, e30, e31, -⟩ := idx7_facts ⟨(i 0).val / 512, ht⟩
  refine ⟨⟨(i 0).val / 512, ht⟩, flush7_3 _, ?_⟩
  rw [mem_blk7_3]
  intro a
  match a with
  | ⟨0, _⟩ =>
    show win7_3.index ⟨(i 0).val / 512, ht⟩ (0 : Fin 2) * 512 ≤ (i 0).val ∧ (i 0).val < win7_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win7_3.index ⟨(i 0).val / 512, ht⟩ (1 : Fin 2) * 64 ≤ (i 1).val ∧ (i 1).val < win7_3.index ⟨(i 0).val / 512, ht⟩ (1 : Fin 2) * 64 + 64
    rw [e31]; omega

/-- Every entry of the item result is written back by the last row block. -/
theorem cover7_4 (i : S4096x64.Idx) : ∃ t : Fin cfg7.N, (cfg7.win 4).flush t = true ∧ i ∈ ((cfg7.win 4).blk t).view.set := by
  have hi0 : (i 0).val < 4096 := (i 0).isLt
  have hi1 : (i 1).val < 64 := (i 1).isLt
  obtain ⟨-, -, -, -, -, -, -, -, e40, e41⟩ := idx7_facts t7_7
  refine ⟨t7_7, (flush7_4 t7_7).mpr rfl, ?_⟩
  rw [mem_blk7_4]
  intro a
  match a with
  | ⟨0, _⟩ =>
    show win7_4.index t7_7 (0 : Fin 2) * 4096 ≤ (i 0).val ∧ (i 0).val < win7_4.index t7_7 (0 : Fin 2) * 4096 + 4096
    rw [e40]; omega
  | ⟨1, _⟩ =>
    show win7_4.index t7_7 (1 : Fin 2) * 64 ≤ (i 1).val ∧ (i 1).val < win7_4.index t7_7 (1 : Fin 2) * 64 + 64
    rw [e41]; omega

end Cert.KernelIdeal.Hand

end
-- ==== Proof.KI.Val7.lean ====
import proofs.«103934_j28484223107660_1_alg».proof.Proof.KI.Reg7
import proofs.«103934_j28484223107660_1_alg».proof.Proof.KI.Step
import proofs.«103934_j28484223107660_1_alg».proof.Proof.KI.Blk7
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region7

variable (V : (c : Dev nD) → (b : Ref sig .tc) → Buf (Elt Ideal) ((c : Thread nD τ).loc b))

/-- The interaction matrix, the user features and the item features as the launch finds them. -/
abbrev R7 (c : Dev nD) : FVec Ideal S4096x4096 .f32 := V c (Pipeline.arrRef spec7 0)
abbrev u7 (c : Dev nD) : FVec Ideal S4096x64 .f32 := V c (Pipeline.arrRef spec7 1)
abbrev it7 (c : Dev nD) : FVec Ideal S4096x64 .f32 := V c (Pipeline.arrRef spec7 2)

/-- The blocks the body reads at row block `t` are the arrays' rows `512 t …`, and the item features whole. -/
theorem iblk7_0_apply (c : Dev nD) (t : Fin cfg7.N) (p : Fin 512) (k : Fin 4096) :
    (iblk7 V c 0 t : Vec Ideal S512x4096 .f32) (ix2 p k) = R7 V c (ix2 (blkRow (rb7 t) p) k) :=
  blk7_0_apply c (V c (Pipeline.arrRef spec7 0)) t p k
theorem iblk7_1_apply (c : Dev nD) (t : Fin cfg7.N) (p : Fin 512) (d : Fin 64) :
    (iblk7 V c 1 t : Vec Ideal S512x64 .f32) (ix2 p d) = u7 V c (ix2 (blkRow (rb7 t) p) d) :=
  blk7_1_apply c (V c (Pipeline.arrRef spec7 1)) t p d
theorem iblk7_2_apply (c : Dev nD) (t : Fin cfg7.N) (k : Fin 4096) (d : Fin 64) :
    (iblk7 V c 2 t : Vec Ideal S4096x64 .f32) (ix2 k d) = it7 V c (ix2 k d) :=
  blk7_2_apply c (V c (Pipeline.arrRef spec7 2)) t k d

/-! ## The user result -/

/-- What row block `t` writes back of the user result is its block of the user layer. -/
theorem flushed7_3_eq (c : Dev nD) (t : Fin cfg7.N) :
    (dat7 (F := Ideal) V c).flushed 3 t
      = ((cfg7.win 3).blk t).view.read (Elt Ideal) (Cert.RefSide.layerU (F := Ideal) (R7 V c) (it7 V c)) := by
  show (cfg7.win 3).cut (grid7.coords t) ((dat7 V c).after 3 t) = _
  rw [after7_3]
  funext j
  obtain ⟨p, d, rfl⟩ : ∃ (p : Fin 512) (d : Fin 64), j = ix2 p d := ⟨j 0, j 1, eq_ix2 j⟩
  rw [View.read_apply]
  show k1_pay5 (F := Ideal) (iblk7 V c 0 t) (iblk7 V c 2 t) (ix2 p d)
    = Cert.RefSide.layerU (F := Ideal) (R7 V c) (it7 V c) (((cfg7.win 3).blk t).view.emb (ix2 p d))
  rw [emb7_3 t p d, Cert.RefSide.layerU_apply]
  exact rows5o (R7 V c) (it7 V c) (rb7 t) _ _ (iblk7_0_apply V c t) (iblk7_2_apply V c t) p d

/-- The user result after the launch is the user layer. -/
theorem val7_u (c : Dev nD) :
    (dat7 (F := Ideal) V c).arrAt 3 cfg7.N = Cert.RefSide.layerU (F := Ideal) (V c (Pipeline.arrRef spec7 0)) (V c (Pipeline.arrRef spec7 2)) :=
  (dat7 (F := Ideal) V c).arrAt_eq_of_cover 3 (Cert.RefSide.layerU (F := Ideal) (R7 V c) (it7 V c))
    (fun t _ => flushed7_3_eq V c t) cover7_3

/-! ## The item result -/

/-- After row block `n` the two accumulators hold the running totals of the whole sums' terms. -/
theorem accAt7_apply (c : Dev nD) : ∀ (n : ℕ) (hn : n < cfg7.N) (c' : Fin 4096) (d : Fin 64),
    (accAt7 (F := Ideal) V c n hn).1 (ix2 c' d) = acc (wTerm (R7 V c) (u7 V c) c' d) n (lt_of_lt_of_eq hn (show cfg7.N = 8 from N_7))
    ∧ (accAt7 (F := Ideal) V c n hn).2 (ix2 (0 : Fin 1) c') = acc (dTerm (R7 V c) c') n (lt_of_lt_of_eq hn (show cfg7.N = 8 from N_7))
  | 0, hn, c', d => by
    constructor
    · show k1_pay6 (F := Ideal) (iblk7 V c 0 ⟨0, hn⟩) (iblk7 V c 1 ⟨0, hn⟩) (k1_pay2 (F := Ideal)) (ix2 c' d) = _
      rw [step6o (R7 V c) (u7 V c) (rb7 ⟨0, hn⟩) _ _ (iblk7_0_apply V c ⟨0, hn⟩) (iblk7_1_apply V c ⟨0, hn⟩), pay2o_apply]
      rfl
    · show k1_pay7 (F := Ideal) (iblk7 V c 0 ⟨0, hn⟩) (k1_pay3 (F := Ideal)) (ix2 (0 : Fin 1) c') = _
      rw [step7o (R7 V c) (rb7 ⟨0, hn⟩) _ (iblk7_0_apply V c ⟨0, hn⟩), pay3o_apply]
      rfl
  | n + 1, hn, c', d => by
    constructor
    · show k1_pay6 (F := Ideal) (iblk7 V c 0 ⟨n + 1, hn⟩) (iblk7 V c 1 ⟨n + 1, hn⟩) (accAt7 V c n (Nat.lt_of_succ_lt hn)).1 (ix2 c' d) = _
      rw [step6o (R7 V c) (u7 V c) (rb7 ⟨n + 1, hn⟩) _ _ (iblk7_0_apply V c ⟨n + 1, hn⟩) (iblk7_1_apply V c ⟨n + 1, hn⟩),
        (accAt7_apply c n (Nat.lt_of_succ_lt hn) c' d).1]
      rfl
    · show k1_pay7 (F := Ideal) (iblk7 V c 0 ⟨n + 1, hn⟩) (accAt7 V c n (Nat.lt_of_succ_lt hn)).2 (ix2 (0 : Fin 1) c') = _
      rw [step7o (R7 V c) (rb7 ⟨n + 1, hn⟩) _ (iblk7_0_apply V c ⟨n + 1, hn⟩),
        (accAt7_apply c n (Nat.lt_of_succ_lt hn) c' d).2]
      rfl

/-- What the last row block writes back of the item result is the item layer. -/
theorem flushed7_4_eq (c : Dev nD) (t : Fin cfg7.N) (hf : (cfg7.win 4).flush t = true) :
    (dat7 (F := Ideal) V c).flushed 4 t
      = ((cfg7.win 4).blk t).view.read (Elt Ideal) (Cert.RefSide.layerI (F := Ideal) (R7 V c) (u7 V c)) := by
  have hN : cfg7.N = 8 := N_7
  have h7 : t.val = 7 := by have := (flush7_4 t).mp hf; have := t.isLt; omega
  show (cfg7.win 4).cut (grid7.coords t) ((dat7 V c).after 4 t) = _
  rw [after7_4]
  funext j
  obtain ⟨c', d, rfl⟩ : ∃ (c' : Fin 4096) (d : Fin 64), j = ix2 c' d := ⟨j 0, j 1, eq_ix2 j⟩
  rw [View.read_apply]
  show k1_pay1 (F := Ideal) (accAt7 V c t.val t.isLt).2 (accAt7 V c t.val t.isLt).1 (ix2 c' d)
    = Cert.RefSide.layerI (F := Ideal) (R7 V c) (u7 V c) (((cfg7.win 4).blk t).view.emb (ix2 c' d))
  rw [emb7_4 t c' d, Cert.RefSide.layerI_apply]
  obtain ⟨n, hn⟩ := t
  obtain rfl : n = 7 := h7
  refine final1o (R7 V c) (u7 V c) _ _ (fun c' d => ?_) (fun c' => ?_) c' d
  · exact ((accAt7_apply V c 7 hn c' d).1).trans (acc_last _ _)
  · exact ((accAt7_apply V c 7 hn c' (0 : Fin 64)).2).trans (acc_last _ _)

/-- The item result after the launch is the item layer. -/
theorem val7_i (c : Dev nD) :
    (dat7 (F := Ideal) V c).arrAt 4 cfg7.N = Cert.RefSide.layerI (F := Ideal) (V c (Pipeline.arrRef spec7 0)) (V c (Pipeline.arrRef spec7 1)) :=
  (dat7 (F := Ideal) V c).arrAt_eq_of_cover 4 (Cert.RefSide.layerI (F := Ideal) (R7 V c) (u7 V c))
    (flushed7_4_eq V c) cover7_4

end Region7

end Cert.KernelIdeal.Hand

end
-- ==== Proof.KI.Blk8.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb8 (t : Fin cfg8.N) : Fin 8 := ⟨t.val, lt_of_lt_of_eq t.isLt (show cfg8.N = 8 from N_8)⟩

/-- The block indices of the five windows at each row block. -/
theorem idx8_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0 :=
  (by decide +kernel : ∀ t : Fin grid8.N, _)

section
variable (c : Dev nD)

/-- The matrix's block at row block `t`, at `(p, k)`, is the matrix at row `512 t + p`, column `k`. -/
theorem blk8_0_apply (X : Buf (Elt F) ((c : Thread nD τ).loc (Pipeline.arrRef spec8 0))) (t : Fin cfg8.N) (p : Fin 512) (k : Fin 4096) :
    (((cfg8.win 0).blk t).view.read (Elt F) X : Vec F S512x4096 .f32) (ix2 p k)
      = (X : S4096x4096.Idx → F .f32) (ix2 (blkRow (rb8 t) p) k) := by
  obtain ⟨e00, e01, -⟩ := idx8_facts t
  rw [View.read_apply]
  show X _ = X _
  congr 1
  funext a; apply Fin.ext
  match a with
  | ⟨0, _⟩ => show win8_0.index t (0 : Fin 2) * 512 + 1 * p.val = 512 * t.val + p.val; rw [e00]; omega
  | ⟨1, _⟩ => show win8_0.index t (1 : Fin 2) * 4096 + 1 * k.val = k.val; rw [e01]; omega

/-- The user features' block at row block `t`, at `(p, d)`, is the user features at row `512 t + p`. -/
theorem blk8_1_apply (X : Buf (Elt F) ((c : Thread nD τ).loc (Pipeline.arrRef spec8 1))) (t : Fin cfg8.N) (p : Fin 512) (d : Fin 64) :
    (((cfg8.win 1).blk t).view.read (Elt F) X : Vec F S512x64 .f32) (ix2 p d)
      = (X : S4096x64.Idx → F .f32) (ix2 (blkRow (rb8 t) p) d) := by
  obtain ⟨-, -, e10, e11, -⟩ := idx8_facts t
  rw [View.read_apply]
  show X _ = X _
  congr 1
  funext a; apply Fin.ext
  match a with
  | ⟨0, _⟩ => show win8_1.index t (0 : Fin 2) * 512 + 1 * p.val = 512 * t.val + p.val; rw [e10]; omega
  | ⟨1, _⟩ => show win8_1.index t (1 : Fin 2) * 64 + 1 * d.val = d.val; rw [e11]; omega

/-- The item features' block is the item features, whole, at every row block. -/
theorem blk8_2_apply (X : Buf (Elt F) ((c : Thread nD τ).loc (Pipeline.arrRef spec8 2))) (t : Fin cfg8.N) (k : Fin 4096) (d : Fin 64) :
    (((cfg8.win 2).blk t).view.read (Elt F) X : Vec F S4096x64 .f32) (ix2 k d)
      = (X : S4096x64.Idx → F .f32) (ix2 k d) := by
  obtain ⟨-, -, -, -, e20, e21, -⟩ := idx8_facts t
  rw [View.read_apply]
  show X _ = X _
  congr 1
  funext a; apply Fin.ext
  match a with
  | ⟨0, _⟩ => show win8_2.index t (0 : Fin 2) * 4096 + 1 * k.val = k.val; rw [e20]; omega
  | ⟨1, _⟩ => show win8_2.index t (1 : Fin 2) * 64 + 1 * d.val = d.val; rw [e21]; omega

end

/-- The block of new user rows at row block `t` sits at rows `512 t …` of its array. -/
theorem emb8_3 (t : Fin cfg8.N) (p : Fin 512) (d : Fin 64) :
    (((cfg8.win 3).blk t).view.emb (ix2 p d) : S4096x64.Idx) = ix2 (blkRow (rb8 t) p) d := by
  obtain ⟨-, -, -, -, -, -, e30, e31, -⟩ := idx8_facts t
  funext a; apply Fin.ext
  match a with
  | ⟨0, _⟩ => show win8_3.index t (0 : Fin 2) * 512 + 1 * p.val = 512 * t.val + p.val; rw [e30]; omega
  | ⟨1, _⟩ => show win8_3.index t (1 : Fin 2) * 64 + 1 * d.val = d.val; rw [e31]; omega

/-- The item result's block is its whole array. -/
theorem emb8_4 (t : Fin cfg8.N) (k : Fin 4096) (d : Fin 64) :
    (((cfg8.win 4).blk t).view.emb (ix2 k d) : S4096x64.Idx) = ix2 k d := by
  obtain ⟨-, -, -, -, -, -, -, -, e40, e41⟩ := idx8_facts t
  funext a; apply Fin.ext
  match a with
  | ⟨0, _⟩ => show win8_4.index t (0 : Fin 2) * 4096 + 1 * k.val = k.val; rw [e40]; omega
  | ⟨1, _⟩ => show win8_4.index t (1 : Fin 2) * 64 + 1 * d.val = d.val; rw [e41]; omega

/-- An index of the user result is in row block `t`'s block when each coordinate is in the block's range. -/
theorem mem_blk8_3 (t : Fin cfg8.N) (i : S4096x64.Idx) :
    i ∈ ((cfg8.win 3).blk t).view.set ↔ ∀ a : Fin 2, win8_3.index t a * S512x64.size a ≤ (i a).val ∧ (i a).val < win8_3.index t a * S512x64.size a + S512x64.size a := by
  show i ∈ ((View.whole main_v50_0).slice (win8_3.rect t)).set ↔ _
  rw [View.set_slice_whole, Rect.mem_set_unit]
  exact Iff.rfl

theorem mem_blk8_4 (t : Fin cfg8.N) (i : S4096x64.Idx) :
    i ∈ ((cfg8.win 4).blk t).view.set ↔ ∀ a : Fin 2, win8_4.index t a * S4096x64.size a ≤ (i a).val ∧ (i a).val < win8_4.index t a * S4096x64.size a + S4096x64.size a := by
  show i ∈ ((View.whole main_v50_1).slice (win8_4.rect t)).set ↔ _
  rw [View.set_slice_whole, Rect.mem_set_unit]
  exact Iff.rfl

/-- Every row of the user result is written back by the row block it lies in. -/
theorem cover8_3 (i : S4096x64.Idx) : ∃ t : Fin cfg8.N, (cfg8.win 3).flush t = true ∧ i ∈ ((cfg8.win 3).blk t).view.set := by
  have hi0 : (i 0).val < 4096 := (i 0).isLt
  have hi1 : (i 1).val < 64 := (i 1).isLt
  have hN : cfg8.N = 8 := N_8
  have ht : (i 0).val / 512 < cfg8.N := by omega
  obtain ⟨-, -, -, -, -, -, e30, e31, -⟩ := idx8_facts ⟨(i 0).val / 512, ht⟩
  refine ⟨⟨(i 0).val / 512, ht⟩, flush8_3 _, ?_⟩
  rw [mem_blk8_3]
  intro a
  match a with
  | ⟨0, _⟩ =>
    show win8_3.index ⟨(i 0).val / 512, ht⟩ (0 : Fin 2) * 512 ≤ (i 0).val ∧ (i 0).val < win8_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win8_3.index ⟨(i 0).val / 512, ht⟩ (1 : Fin 2) * 64 ≤ (i 1).val ∧ (i 1).val < win8_3.index ⟨(i 0).val / 512, ht⟩ (1 : Fin 2) * 64 + 64
    rw [e31]; omega

/-- Every entry of the item result is written back by the last row block. -/
theorem cover8_4 (i : S4096x64.Idx) : ∃ t : Fin cfg8.N, (cfg8.win 4).flush t = true ∧ i ∈ ((cfg8.win 4).blk t).view.set := by
  have hi0 : (i 0).val < 4096 := (i 0).isLt
  have hi1 : (i 1).val < 64 := (i 1).isLt
  obtain ⟨-, -, -, -, -, -, -, -, e40, e41⟩ := idx8_facts t8_7
  refine ⟨t8_7, (flush8_4 t8_7).mpr rfl, ?_⟩
  rw [mem_blk8_4]
  intro a
  match a with
  | ⟨0, _⟩ =>
    show win8_4.index t8_7 (0 : Fin 2) * 4096 ≤ (i 0).val ∧ (i 0).val < win8_4.index t8_7 (0 : Fin 2) * 4096 + 4096
    rw [e40]; omega
  | ⟨1, _⟩ =>
    show win8_4.index t8_7 (1 : Fin 2) * 64 ≤ (i 1).val ∧ (i 1).val < win8_4.index t8_7 (1 : Fin 2) * 64 + 64
    rw [e41]; omega

end Cert.KernelIdeal.Hand

end
-- ==== Proof.KI.Val8.lean ====
import proofs.«103934_j28484223107660_1_alg».proof.Proof.KI.Reg8
import proofs.«103934_j28484223107660_1_alg».proof.Proof.KI.Step
import proofs.«103934_j28484223107660_1_alg».proof.Proof.KI.Blk8
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region8

variable (V : (c : Dev nD) → (b : Ref sig .tc) → Buf (Elt Ideal) ((c : Thread nD τ).loc b))

/-- The interaction matrix, the user features and the item features as the launch finds them. -/
abbrev R8 (c : Dev nD) : FVec Ideal S4096x4096 .f32 := V c (Pipeline.arrRef spec8 0)
abbrev u8 (c : Dev nD) : FVec Ideal S4096x64 .f32 := V c (Pipeline.arrRef spec8 1)
abbrev it8 (c : Dev nD) : FVec Ideal S4096x64 .f32 := V c (Pipeline.arrRef spec8 2)

/-- The blocks the body reads at row block `t` are the arrays' rows `512 t …`, and the item features whole. -/
theorem iblk8_0_apply (c : Dev nD) (t : Fin cfg8.N) (p : Fin 512) (k : Fin 4096) :
    (iblk8 V c 0 t : Vec Ideal S512x4096 .f32) (ix2 p k) = R8 V c (ix2 (blkRow (rb8 t) p) k) :=
  blk8_0_apply c (V c (Pipeline.arrRef spec8 0)) t p k
theorem iblk8_1_apply (c : Dev nD) (t : Fin cfg8.N) (p : Fin 512) (d : Fin 64) :
    (iblk8 V c 1 t : Vec Ideal S512x64 .f32) (ix2 p d) = u8 V c (ix2 (blkRow (rb8 t) p) d) :=
  blk8_1_apply c (V c (Pipeline.arrRef spec8 1)) t p d
theorem iblk8_2_apply (c : Dev nD) (t : Fin cfg8.N) (k : Fin 4096) (d : Fin 64) :
    (iblk8 V c 2 t : Vec Ideal S4096x64 .f32) (ix2 k d) = it8 V c (ix2 k d) :=
  blk8_2_apply c (V c (Pipeline.arrRef spec8 2)) t k d

/-! ## The user result -/

/-- What row block `t` writes back of the user result is its block of the user layer. -/
theorem flushed8_3_eq (c : Dev nD) (t : Fin cfg8.N) :
    (dat8 (F := Ideal) V c).flushed 3 t
      = ((cfg8.win 3).blk t).view.read (Elt Ideal) (Cert.RefSide.layerU (F := Ideal) (R8 V c) (it8 V c)) := by
  show (cfg8.win 3).cut (grid8.coords t) ((dat8 V c).after 3 t) = _
  rw [after8_3]
  funext j
  obtain ⟨p, d, rfl⟩ : ∃ (p : Fin 512) (d : Fin 64), j = ix2 p d := ⟨j 0, j 1, eq_ix2 j⟩
  rw [View.read_apply]
  show k0_pay5 (F := Ideal) (iblk8 V c 0 t) (iblk8 V c 2 t) (ix2 p d)
    = Cert.RefSide.layerU (F := Ideal) (R8 V c) (it8 V c) (((cfg8.win 3).blk t).view.emb (ix2 p d))
  rw [emb8_3 t p d, Cert.RefSide.layerU_apply]
  exact rows5 (R8 V c) (it8 V c) (rb8 t) _ _ (iblk8_0_apply V c t) (iblk8_2_apply V c t) p d

/-- The user result after the launch is the user layer. -/
theorem val8_u (c : Dev nD) :
    (dat8 (F := Ideal) V c).arrAt 3 cfg8.N = Cert.RefSide.layerU (F := Ideal) (V c (Pipeline.arrRef spec8 0)) (V c (Pipeline.arrRef spec8 2)) :=
  (dat8 (F := Ideal) V c).arrAt_eq_of_cover 3 (Cert.RefSide.layerU (F := Ideal) (R8 V c) (it8 V c))
    (fun t _ => flushed8_3_eq V c t) cover8_3

/-! ## The item result -/

/-- After row block `n` the two accumulators hold the running totals of the whole sums' terms. -/
theorem accAt8_apply (c : Dev nD) : ∀ (n : ℕ) (hn : n < cfg8.N) (c' : Fin 4096) (d : Fin 64),
    (accAt8 (F := Ideal) V c n hn).1 (ix2 c' d) = acc (wTerm (R8 V c) (u8 V c) c' d) n (lt_of_lt_of_eq hn (show cfg8.N = 8 from N_8))
    ∧ (accAt8 (F := Ideal) V c n hn).2 (ix2 (0 : Fin 1) c') = acc (dTerm (R8 V c) c') n (lt_of_lt_of_eq hn (show cfg8.N = 8 from N_8))
  | 0, hn, c', d => by
    constructor
    · show k0_pay6 (F := Ideal) (iblk8 V c 0 ⟨0, hn⟩) (iblk8 V c 1 ⟨0, hn⟩) (k0_pay2 (F := Ideal)) (ix2 c' d) = _
      rw [step6 (R8 V c) (u8 V c) (rb8 ⟨0, hn⟩) _ _ (iblk8_0_apply V c ⟨0, hn⟩) (iblk8_1_apply V c ⟨0, hn⟩), pay2_apply]
      rfl
    · show k0_pay7 (F := Ideal) (iblk8 V c 0 ⟨0, hn⟩) (k0_pay3 (F := Ideal)) (ix2 (0 : Fin 1) c') = _
      rw [step7 (R8 V c) (rb8 ⟨0, hn⟩) _ (iblk8_0_apply V c ⟨0, hn⟩), pay3_apply]
      rfl
  | n + 1, hn, c', d => by
    constructor
    · show k0_pay6 (F := Ideal) (iblk8 V c 0 ⟨n + 1, hn⟩) (iblk8 V c 1 ⟨n + 1, hn⟩) (accAt8 V c n (Nat.lt_of_succ_lt hn)).1 (ix2 c' d) = _
      rw [step6 (R8 V c) (u8 V c) (rb8 ⟨n + 1, hn⟩) _ _ (iblk8_0_apply V c ⟨n + 1, hn⟩) (iblk8_1_apply V c ⟨n + 1, hn⟩),
        (accAt8_apply c n (Nat.lt_of_succ_lt hn) c' d).1]
      rfl
    · show k0_pay7 (F := Ideal) (iblk8 V c 0 ⟨n + 1, hn⟩) (accAt8 V c n (Nat.lt_of_succ_lt hn)).2 (ix2 (0 : Fin 1) c') = _
      rw [step7 (R8 V c) (rb8 ⟨n + 1, hn⟩) _ (iblk8_0_apply V c ⟨n + 1, hn⟩),
        (accAt8_apply c n (Nat.lt_of_succ_lt hn) c' d).2]
      rfl

/-- What the last row block writes back of the item result is the item layer. -/
theorem flushed8_4_eq (c : Dev nD) (t : Fin cfg8.N) (hf : (cfg8.win 4).flush t = true) :
    (dat8 (F := Ideal) V c).flushed 4 t
      = ((cfg8.win 4).blk t).view.read (Elt Ideal) (Cert.RefSide.layerI (F := Ideal) (R8 V c) (u8 V c)) := by
  have hN : cfg8.N = 8 := N_8
  have h7 : t.val = 7 := by have := (flush8_4 t).mp hf; have := t.isLt; omega
  show (cfg8.win 4).cut (grid8.coords t) ((dat8 V c).after 4 t) = _
  rw [after8_4]
  funext j
  obtain ⟨c', d, rfl⟩ : ∃ (c' : Fin 4096) (d : Fin 64), j = ix2 c' d := ⟨j 0, j 1, eq_ix2 j⟩
  rw [View.read_apply]
  show k0_pay1 (F := Ideal) (accAt8 V c t.val t.isLt).2 (accAt8 V c t.val t.isLt).1 (ix2 c' d)
    = Cert.RefSide.layerI (F := Ideal) (R8 V c) (u8 V c) (((cfg8.win 4).blk t).view.emb (ix2 c' d))
  rw [emb8_4 t c' d, Cert.RefSide.layerI_apply]
  obtain ⟨n, hn⟩ := t
  obtain rfl : n = 7 := h7
  refine final1 (R8 V c) (u8 V c) _ _ (fun c' d => ?_) (fun c' => ?_) c' d
  · exact ((accAt8_apply V c 7 hn c' d).1).trans (acc_last _ _)
  · exact ((accAt8_apply V c 7 hn c' (0 : Fin 64)).2).trans (acc_last _ _)

/-- The item result after the launch is the item layer. -/
theorem val8_i (c : Dev nD) :
    (dat8 (F := Ideal) V c).arrAt 4 cfg8.N = Cert.RefSide.layerI (F := Ideal) (V c (Pipeline.arrRef spec8 0)) (V c (Pipeline.arrRef spec8 1)) :=
  (dat8 (F := Ideal) V c).arrAt_eq_of_cover 4 (Cert.RefSide.layerI (F := Ideal) (R8 V c) (u8 V c))
    (flushed8_4_eq V c) cover8_4

end Region8

end Cert.KernelIdeal.Hand

end
-- ==== Proof.KI.Blk9.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb9 (t : Fin cfg9.N) : Fin 8 := ⟨t.val, lt_of_lt_of_eq t.isLt (show cfg9.N = 8 from N_9)⟩

/-- The block indices of the five windows at each row block. -/
theorem idx9_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = 0 ∧ win9_4.index t (1 : Fin 2) = 0 :=
  (by decide +kernel : ∀ t : Fin grid9.N, _)

section
variable (c : Dev nD)

/-- The matrix's block at row block `t`, at `(p, k)`, is the matrix at row `512 t + p`, column `k`. -/
theorem blk9_0_apply (X : Buf (Elt F) ((c : Thread nD τ).loc (Pipeline.arrRef spec9 0))) (t : Fin cfg9.N) (p : Fin 512) (k : Fin 4096) :
    (((cfg9.win 0).blk t).view.read (Elt F) X : Vec F S512x4096 .f32) (ix2 p k)
      = (X : S4096x4096.Idx → F .f32) (ix2 (blkRow (rb9 t) p) k) := by
  obtain ⟨e00, e01, -⟩ := idx9_facts t
  rw [View.read_apply]
  show X _ = X _
  congr 1
  funext a; apply Fin.ext
  match a with
  | ⟨0, _⟩ => show win9_0.index t (0 : Fin 2) * 512 + 1 * p.val = 512 * t.val + p.val; rw [e00]; omega
  | ⟨1, _⟩ => show win9_0.index t (1 : Fin 2) * 4096 + 1 * k.val = k.val; rw [e01]; omega

/-- The user features' block at row block `t`, at `(p, d)`, is the user features at row `512 t + p`. -/
theorem blk9_1_apply (X : Buf (Elt F) ((c : Thread nD τ).loc (Pipeline.arrRef spec9 1))) (t : Fin cfg9.N) (p : Fin 512) (d : Fin 64) :
    (((cfg9.win 1).blk t).view.read (Elt F) X : Vec F S512x64 .f32) (ix2 p d)
      = (X : S4096x64.Idx → F .f32) (ix2 (blkRow (rb9 t) p) d) := by
  obtain ⟨-, -, e10, e11, -⟩ := idx9_facts t
  rw [View.read_apply]
  show X _ = X _
  congr 1
  funext a; apply Fin.ext
  match a with
  | ⟨0, _⟩ => show win9_1.index t (0 : Fin 2) * 512 + 1 * p.val = 512 * t.val + p.val; rw [e10]; omega
  | ⟨1, _⟩ => show win9_1.index t (1 : Fin 2) * 64 + 1 * d.val = d.val; rw [e11]; omega

/-- The item features' block is the item features, whole, at every row block. -/
theorem blk9_2_apply (X : Buf (Elt F) ((c : Thread nD τ).loc (Pipeline.arrRef spec9 2))) (t : Fin cfg9.N) (k : Fin 4096) (d : Fin 64) :
    (((cfg9.win 2).blk t).view.read (Elt F) X : Vec F S4096x64 .f32) (ix2 k d)
      = (X : S4096x64.Idx → F .f32) (ix2 k d) := by
  obtain ⟨-, -, -, -, e20, e21, -⟩ := idx9_facts t
  rw [View.read_apply]
  show X _ = X _
  congr 1
  funext a; apply Fin.ext
  match a with
  | ⟨0, _⟩ => show win9_2.index t (0 : Fin 2) * 4096 + 1 * k.val = k.val; rw [e20]; omega
  | ⟨1, _⟩ => show win9_2.index t (1 : Fin 2) * 64 + 1 * d.val = d.val; rw [e21]; omega

end

/-- The block of new user rows at row block `t` sits at rows `512 t …` of its array. -/
theorem emb9_3 (t : Fin cfg9.N) (p : Fin 512) (d : Fin 64) :
    (((cfg9.win 3).blk t).view.emb (ix2 p d) : S4096x64.Idx) = ix2 (blkRow (rb9 t) p) d := by
  obtain ⟨-, -, -, -, -, -, e30, e31, -⟩ := idx9_facts t
  funext a; apply Fin.ext
  match a with
  | ⟨0, _⟩ => show win9_3.index t (0 : Fin 2) * 512 + 1 * p.val = 512 * t.val + p.val; rw [e30]; omega
  | ⟨1, _⟩ => show win9_3.index t (1 : Fin 2) * 64 + 1 * d.val = d.val; rw [e31]; omega

/-- The item result's block is its whole array. -/
theorem emb9_4 (t : Fin cfg9.N) (k : Fin 4096) (d : Fin 64) :
    (((cfg9.win 4).blk t).view.emb (ix2 k d) : S4096x64.Idx) = ix2 k d := by
  obtain ⟨-, -, -, -, -, -, -, -, e40, e41⟩ := idx9_facts t
  funext a; apply Fin.ext
  match a with
  | ⟨0, _⟩ => show win9_4.index t (0 : Fin 2) * 4096 + 1 * k.val = k.val; rw [e40]; omega
  | ⟨1, _⟩ => show win9_4.index t (1 : Fin 2) * 64 + 1 * d.val = d.val; rw [e41]; omega

/-- An index of the user result is in row block `t`'s block when each coordinate is in the block's range. -/
theorem mem_blk9_3 (t : Fin cfg9.N) (i : S4096x64.Idx) :
    i ∈ ((cfg9.win 3).blk t).view.set ↔ ∀ a : Fin 2, win9_3.index t a * S512x64.size a ≤ (i a).val ∧ (i a).val < win9_3.index t a * S512x64.size a + S512x64.size a := by
  show i ∈ ((View.whole main_v53_0).slice (win9_3.rect t)).set ↔ _
  rw [View.set_slice_whole, Rect.mem_set_unit]
  exact Iff.rfl

theorem mem_blk9_4 (t : Fin cfg9.N) (i : S4096x64.Idx) :
    i ∈ ((cfg9.win 4).blk t).view.set ↔ ∀ a : Fin 2, win9_4.index t a * S4096x64.size a ≤ (i a).val ∧ (i a).val < win9_4.index t a * S4096x64.size a + S4096x64.size a := by
  show i ∈ ((View.whole main_v53_1).slice (win9_4.rect t)).set ↔ _
  rw [View.set_slice_whole, Rect.mem_set_unit]
  exact Iff.rfl

/-- Every row of the user result is written back by the row block it lies in. -/
theorem cover9_3 (i : S4096x64.Idx) : ∃ t : Fin cfg9.N, (cfg9.win 3).flush t = true ∧ i ∈ ((cfg9.win 3).blk t).view.set := by
  have hi0 : (i 0).val < 4096 := (i 0).isLt
  have hi1 : (i 1).val < 64 := (i 1).isLt
  have hN : cfg9.N = 8 := N_9
  have ht : (i 0).val / 512 < cfg9.N := by omega
  obtain ⟨-, -, -, -, -, -, e30, e31, -⟩ := idx9_facts ⟨(i 0).val / 512, ht⟩
  refine ⟨⟨(i 0).val / 512, ht⟩, flush9_3 _, ?_⟩
  rw [mem_blk9_3]
  intro a
  match a with
  | ⟨0, _⟩ =>
    show win9_3.index ⟨(i 0).val / 512, ht⟩ (0 : Fin 2) * 512 ≤ (i 0).val ∧ (i 0).val < win9_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win9_3.index ⟨(i 0).val / 512, ht⟩ (1 : Fin 2) * 64 ≤ (i 1).val ∧ (i 1).val < win9_3.index ⟨(i 0).val / 512, ht⟩ (1 : Fin 2) * 64 + 64
    rw [e31]; omega

/-- Every entry of the item result is written back by the last row block. -/
theorem cover9_4 (i : S4096x64.Idx) : ∃ t : Fin cfg9.N, (cfg9.win 4).flush t = true ∧ i ∈ ((cfg9.win 4).blk t).view.set := by
  have hi0 : (i 0).val < 4096 := (i 0).isLt
  have hi1 : (i 1).val < 64 := (i 1).isLt
  obtain ⟨-, -, -, -, -, -, -, -, e40, e41⟩ := idx9_facts t9_7
  refine ⟨t9_7, (flush9_4 t9_7).mpr rfl, ?_⟩
  rw [mem_blk9_4]
  intro a
  match a with
  | ⟨0, _⟩ =>
    show win9_4.index t9_7 (0 : Fin 2) * 4096 ≤ (i 0).val ∧ (i 0).val < win9_4.index t9_7 (0 : Fin 2) * 4096 + 4096
    rw [e40]; omega
  | ⟨1, _⟩ =>
    show win9_4.index t9_7 (1 : Fin 2) * 64 ≤ (i 1).val ∧ (i 1).val < win9_4.index t9_7 (1 : Fin 2) * 64 + 64
    rw [e41]; omega

end Cert.KernelIdeal.Hand

end
-- ==== Proof.KI.Val9.lean ====
import proofs.«103934_j28484223107660_1_alg».proof.Proof.KI.Reg9
import proofs.«103934_j28484223107660_1_alg».proof.Proof.KI.Step
import proofs.«103934_j28484223107660_1_alg».proof.Proof.KI.Blk9
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region9

variable (V : (c : Dev nD) → (b : Ref sig .tc) → Buf (Elt Ideal) ((c : Thread nD τ).loc b))

/-- The interaction matrix, the user features and the item features as the launch finds them. -/
abbrev R9 (c : Dev nD) : FVec Ideal S4096x4096 .f32 := V c (Pipeline.arrRef spec9 0)
abbrev u9 (c : Dev nD) : FVec Ideal S4096x64 .f32 := V c (Pipeline.arrRef spec9 1)
abbrev it9 (c : Dev nD) : FVec Ideal S4096x64 .f32 := V c (Pipeline.arrRef spec9 2)

/-- The blocks the body reads at row block `t` are the arrays' rows `512 t …`, and the item features whole. -/
theorem iblk9_0_apply (c : Dev nD) (t : Fin cfg9.N) (p : Fin 512) (k : Fin 4096) :
    (iblk9 V c 0 t : Vec Ideal S512x4096 .f32) (ix2 p k) = R9 V c (ix2 (blkRow (rb9 t) p) k) :=
  blk9_0_apply c (V c (Pipeline.arrRef spec9 0)) t p k
theorem iblk9_1_apply (c : Dev nD) (t : Fin cfg9.N) (p : Fin 512) (d : Fin 64) :
    (iblk9 V c 1 t : Vec Ideal S512x64 .f32) (ix2 p d) = u9 V c (ix2 (blkRow (rb9 t) p) d) :=
  blk9_1_apply c (V c (Pipeline.arrRef spec9 1)) t p d
theorem iblk9_2_apply (c : Dev nD) (t : Fin cfg9.N) (k : Fin 4096) (d : Fin 64) :
    (iblk9 V c 2 t : Vec Ideal S4096x64 .f32) (ix2 k d) = it9 V c (ix2 k d) :=
  blk9_2_apply c (V c (Pipeline.arrRef spec9 2)) t k d

/-! ## The user result -/

/-- What row block `t` writes back of the user result is its block of the user layer. -/
theorem flushed9_3_eq (c : Dev nD) (t : Fin cfg9.N) :
    (dat9 (F := Ideal) V c).flushed 3 t
      = ((cfg9.win 3).blk t).view.read (Elt Ideal) (Cert.RefSide.layerU (F := Ideal) (R9 V c) (it9 V c)) := by
  show (cfg9.win 3).cut (grid9.coords t) ((dat9 V c).after 3 t) = _
  rw [after9_3]
  funext j
  obtain ⟨p, d, rfl⟩ : ∃ (p : Fin 512) (d : Fin 64), j = ix2 p d := ⟨j 0, j 1, eq_ix2 j⟩
  rw [View.read_apply]
  show k1_pay5 (F := Ideal) (iblk9 V c 0 t) (iblk9 V c 2 t) (ix2 p d)
    = Cert.RefSide.layerU (F := Ideal) (R9 V c) (it9 V c) (((cfg9.win 3).blk t).view.emb (ix2 p d))
  rw [emb9_3 t p d, Cert.RefSide.layerU_apply]
  exact rows5o (R9 V c) (it9 V c) (rb9 t) _ _ (iblk9_0_apply V c t) (iblk9_2_apply V c t) p d

/-- The user result after the launch is the user layer. -/
theorem val9_u (c : Dev nD) :
    (dat9 (F := Ideal) V c).arrAt 3 cfg9.N = Cert.RefSide.layerU (F := Ideal) (V c (Pipeline.arrRef spec9 0)) (V c (Pipeline.arrRef spec9 2)) :=
  (dat9 (F := Ideal) V c).arrAt_eq_of_cover 3 (Cert.RefSide.layerU (F := Ideal) (R9 V c) (it9 V c))
    (fun t _ => flushed9_3_eq V c t) cover9_3

/-! ## The item result -/

/-- After row block `n` the two accumulators hold the running totals of the whole sums' terms. -/
theorem accAt9_apply (c : Dev nD) : ∀ (n : ℕ) (hn : n < cfg9.N) (c' : Fin 4096) (d : Fin 64),
    (accAt9 (F := Ideal) V c n hn).1 (ix2 c' d) = acc (wTerm (R9 V c) (u9 V c) c' d) n (lt_of_lt_of_eq hn (show cfg9.N = 8 from N_9))
    ∧ (accAt9 (F := Ideal) V c n hn).2 (ix2 (0 : Fin 1) c') = acc (dTerm (R9 V c) c') n (lt_of_lt_of_eq hn (show cfg9.N = 8 from N_9))
  | 0, hn, c', d => by
    constructor
    · show k1_pay6 (F := Ideal) (iblk9 V c 0 ⟨0, hn⟩) (iblk9 V c 1 ⟨0, hn⟩) (k1_pay2 (F := Ideal)) (ix2 c' d) = _
      rw [step6o (R9 V c) (u9 V c) (rb9 ⟨0, hn⟩) _ _ (iblk9_0_apply V c ⟨0, hn⟩) (iblk9_1_apply V c ⟨0, hn⟩), pay2o_apply]
      rfl
    · show k1_pay7 (F := Ideal) (iblk9 V c 0 ⟨0, hn⟩) (k1_pay3 (F := Ideal)) (ix2 (0 : Fin 1) c') = _
      rw [step7o (R9 V c) (rb9 ⟨0, hn⟩) _ (iblk9_0_apply V c ⟨0, hn⟩), pay3o_apply]
      rfl
  | n + 1, hn, c', d => by
    constructor
    · show k1_pay6 (F := Ideal) (iblk9 V c 0 ⟨n + 1, hn⟩) (iblk9 V c 1 ⟨n + 1, hn⟩) (accAt9 V c n (Nat.lt_of_succ_lt hn)).1 (ix2 c' d) = _
      rw [step6o (R9 V c) (u9 V c) (rb9 ⟨n + 1, hn⟩) _ _ (iblk9_0_apply V c ⟨n + 1, hn⟩) (iblk9_1_apply V c ⟨n + 1, hn⟩),
        (accAt9_apply c n (Nat.lt_of_succ_lt hn) c' d).1]
      rfl
    · show k1_pay7 (F := Ideal) (iblk9 V c 0 ⟨n + 1, hn⟩) (accAt9 V c n (Nat.lt_of_succ_lt hn)).2 (ix2 (0 : Fin 1) c') = _
      rw [step7o (R9 V c) (rb9 ⟨n + 1, hn⟩) _ (iblk9_0_apply V c ⟨n + 1, hn⟩),
        (accAt9_apply c n (Nat.lt_of_succ_lt hn) c' d).2]
      rfl

/-- What the last row block writes back of the item result is the item layer. -/
theorem flushed9_4_eq (c : Dev nD) (t : Fin cfg9.N) (hf : (cfg9.win 4).flush t = true) :
    (dat9 (F := Ideal) V c).flushed 4 t
      = ((cfg9.win 4).blk t).view.read (Elt Ideal) (Cert.RefSide.layerI (F := Ideal) (R9 V c) (u9 V c)) := by
  have hN : cfg9.N = 8 := N_9
  have h7 : t.val = 7 := by have := (flush9_4 t).mp hf; have := t.isLt; omega
  show (cfg9.win 4).cut (grid9.coords t) ((dat9 V c).after 4 t) = _
  rw [after9_4]
  funext j
  obtain ⟨c', d, rfl⟩ : ∃ (c' : Fin 4096) (d : Fin 64), j = ix2 c' d := ⟨j 0, j 1, eq_ix2 j⟩
  rw [View.read_apply]
  show k1_pay1 (F := Ideal) (accAt9 V c t.val t.isLt).2 (accAt9 V c t.val t.isLt).1 (ix2 c' d)
    = Cert.RefSide.layerI (F := Ideal) (R9 V c) (u9 V c) (((cfg9.win 4).blk t).view.emb (ix2 c' d))
  rw [emb9_4 t c' d, Cert.RefSide.layerI_apply]
  obtain ⟨n, hn⟩ := t
  obtain rfl : n = 7 := h7
  refine final1o (R9 V c) (u9 V c) _ _ (fun c' d => ?_) (fun c' => ?_) c' d
  · exact ((accAt9_apply V c 7 hn c' d).1).trans (acc_last _ _)
  · exact ((accAt9_apply V c 7 hn c' (0 : Fin 64)).2).trans (acc_last _ _)

/-- The item result after the launch is the item layer. -/
theorem val9_i (c : Dev nD) :
    (dat9 (F := Ideal) V c).arrAt 4 cfg9.N = Cert.RefSide.layerI (F := Ideal) (V c (Pipeline.arrRef spec9 0)) (V c (Pipeline.arrRef spec9 1)) :=
  (dat9 (F := Ideal) V c).arrAt_eq_of_cover 4 (Cert.RefSide.layerI (F := Ideal) (R9 V c) (u9 V c))
    (flushed9_4_eq V c) cover9_4

end Region9

end Cert.KernelIdeal.Hand

end
-- ==== Proof.KI.Blk10.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb10 (t : Fin cfg10.N) : Fin 8 := ⟨t.val, lt_of_lt_of_eq t.isLt (show cfg10.N = 8 from N_10)⟩

/-- The block indices of the five windows at each row block. -/
theorem idx10_facts : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0
    ∧ win10_4.index t (0 : Fin 2) = 0 ∧ win10_4.index t (1 : Fin 2) = 0 :=
  (by decide +kernel : ∀ t : Fin grid10.N, _)

section
variable (c : Dev nD)

/-- The matrix's block at row block `t`, at `(p, k)`, is the matrix at row `512 t + p`, column `k`. -/
theorem blk10_0_apply (X : Buf (Elt F) ((c : Thread nD τ).loc (Pipeline.arrRef spec10 0))) (t : Fin cfg10.N) (p : Fin 512) (k : Fin 4096) :
    (((cfg10.win 0).blk t).view.read (Elt F) X : Vec F S512x4096 .f32) (ix2 p k)
      = (X : S4096x4096.Idx → F .f32) (ix2 (blkRow (rb10 t) p) k) := by
  obtain ⟨e00, e01, -⟩ := idx10_facts t
  rw [View.read_apply]
  show X _ = X _
  congr 1
  funext a; apply Fin.ext
  match a with
  | ⟨0, _⟩ => show win10_0.index t (0 : Fin 2) * 512 + 1 * p.val = 512 * t.val + p.val; rw [e00]; omega
  | ⟨1, _⟩ => show win10_0.index t (1 : Fin 2) * 4096 + 1 * k.val = k.val; rw [e01]; omega

/-- The user features' block at row block `t`, at `(p, d)`, is the user features at row `512 t + p`. -/
theorem blk10_1_apply (X : Buf (Elt F) ((c : Thread nD τ).loc (Pipeline.arrRef spec10 1))) (t : Fin cfg10.N) (p : Fin 512) (d : Fin 64) :
    (((cfg10.win 1).blk t).view.read (Elt F) X : Vec F S512x64 .f32) (ix2 p d)
      = (X : S4096x64.Idx → F .f32) (ix2 (blkRow (rb10 t) p) d) := by
  obtain ⟨-, -, e10, e11, -⟩ := idx10_facts t
  rw [View.read_apply]
  show X _ = X _
  congr 1
  funext a; apply Fin.ext
  match a with
  | ⟨0, _⟩ => show win10_1.index t (0 : Fin 2) * 512 + 1 * p.val = 512 * t.val + p.val; rw [e10]; omega
  | ⟨1, _⟩ => show win10_1.index t (1 : Fin 2) * 64 + 1 * d.val = d.val; rw [e11]; omega

/-- The item features' block is the item features, whole, at every row block. -/
theorem blk10_2_apply (X : Buf (Elt F) ((c : Thread nD τ).loc (Pipeline.arrRef spec10 2))) (t : Fin cfg10.N) (k : Fin 4096) (d : Fin 64) :
    (((cfg10.win 2).blk t).view.read (Elt F) X : Vec F S4096x64 .f32) (ix2 k d)
      = (X : S4096x64.Idx → F .f32) (ix2 k d) := by
  obtain ⟨-, -, -, -, e20, e21, -⟩ := idx10_facts t
  rw [View.read_apply]
  show X _ = X _
  congr 1
  funext a; apply Fin.ext
  match a with
  | ⟨0, _⟩ => show win10_2.index t (0 : Fin 2) * 4096 + 1 * k.val = k.val; rw [e20]; omega
  | ⟨1, _⟩ => show win10_2.index t (1 : Fin 2) * 64 + 1 * d.val = d.val; rw [e21]; omega

end

/-- The block of new user rows at row block `t` sits at rows `512 t …` of its array. -/
theorem emb10_3 (t : Fin cfg10.N) (p : Fin 512) (d : Fin 64) :
    (((cfg10.win 3).blk t).view.emb (ix2 p d) : S4096x64.Idx) = ix2 (blkRow (rb10 t) p) d := by
  obtain ⟨-, -, -, -, -, -, e30, e31, -⟩ := idx10_facts t
  funext a; apply Fin.ext
  match a with
  | ⟨0, _⟩ => show win10_3.index t (0 : Fin 2) * 512 + 1 * p.val = 512 * t.val + p.val; rw [e30]; omega
  | ⟨1, _⟩ => show win10_3.index t (1 : Fin 2) * 64 + 1 * d.val = d.val; rw [e31]; omega

/-- The item result's block is its whole array. -/
theorem emb10_4 (t : Fin cfg10.N) (k : Fin 4096) (d : Fin 64) :
    (((cfg10.win 4).blk t).view.emb (ix2 k d) : S4096x64.Idx) = ix2 k d := by
  obtain ⟨-, -, -, -, -, -, -, -, e40, e41⟩ := idx10_facts t
  funext a; apply Fin.ext
  match a with
  | ⟨0, _⟩ => show win10_4.index t (0 : Fin 2) * 4096 + 1 * k.val = k.val; rw [e40]; omega
  | ⟨1, _⟩ => show win10_4.index t (1 : Fin 2) * 64 + 1 * d.val = d.val; rw [e41]; omega

/-- An index of the user result is in row block `t`'s block when each coordinate is in the block's range. -/
theorem mem_blk10_3 (t : Fin cfg10.N) (i : S4096x64.Idx) :
    i ∈ ((cfg10.win 3).blk t).view.set ↔ ∀ a : Fin 2, win10_3.index t a * S512x64.size a ≤ (i a).val ∧ (i a).val < win10_3.index t a * S512x64.size a + S512x64.size a := by
  show i ∈ ((View.whole main_v63_0).slice (win10_3.rect t)).set ↔ _
  rw [View.set_slice_whole, Rect.mem_set_unit]
  exact Iff.rfl

theorem mem_blk10_4 (t : Fin cfg10.N) (i : S4096x64.Idx) :
    i ∈ ((cfg10.win 4).blk t).view.set ↔ ∀ a : Fin 2, win10_4.index t a * S4096x64.size a ≤ (i a).val ∧ (i a).val < win10_4.index t a * S4096x64.size a + S4096x64.size a := by
  show i ∈ ((View.whole main_v63_1).slice (win10_4.rect t)).set ↔ _
  rw [View.set_slice_whole, Rect.mem_set_unit]
  exact Iff.rfl

/-- Every row of the user result is written back by the row block it lies in. -/
theorem cover10_3 (i : S4096x64.Idx) : ∃ t : Fin cfg10.N, (cfg10.win 3).flush t = true ∧ i ∈ ((cfg10.win 3).blk t).view.set := by
  have hi0 : (i 0).val < 4096 := (i 0).isLt
  have hi1 : (i 1).val < 64 := (i 1).isLt
  have hN : cfg10.N = 8 := N_10
  have ht : (i 0).val / 512 < cfg10.N := by omega
  obtain ⟨-, -, -, -, -, -, e30, e31, -⟩ := idx10_facts ⟨(i 0).val / 512, ht⟩
  refine ⟨⟨(i 0).val / 512, ht⟩, flush10_3 _, ?_⟩
  rw [mem_blk10_3]
  intro a
  match a with
  | ⟨0, _⟩ =>
    show win10_3.index ⟨(i 0).val / 512, ht⟩ (0 : Fin 2) * 512 ≤ (i 0).val ∧ (i 0).val < win10_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win10_3.index ⟨(i 0).val / 512, ht⟩ (1 : Fin 2) * 64 ≤ (i 1).val ∧ (i 1).val < win10_3.index ⟨(i 0).val / 512, ht⟩ (1 : Fin 2) * 64 + 64
    rw [e31]; omega

/-- Every entry of the item result is written back by the last row block. -/
theorem cover10_4 (i : S4096x64.Idx) : ∃ t : Fin cfg10.N, (cfg10.win 4).flush t = true ∧ i ∈ ((cfg10.win 4).blk t).view.set := by
  have hi0 : (i 0).val < 4096 := (i 0).isLt
  have hi1 : (i 1).val < 64 := (i 1).isLt
  obtain ⟨-, -, -, -, -, -, -, -, e40, e41⟩ := idx10_facts t10_7
  refine ⟨t10_7, (flush10_4 t10_7).mpr rfl, ?_⟩
  rw [mem_blk10_4]
  intro a
  match a with
  | ⟨0, _⟩ =>
    show win10_4.index t10_7 (0 : Fin 2) * 4096 ≤ (i 0).val ∧ (i 0).val < win10_4.index t10_7 (0 : Fin 2) * 4096 + 4096
    rw [e40]; omega
  | ⟨1, _⟩ =>
    show win10_4.index t10_7 (1 : Fin 2) * 64 ≤ (i 1).val ∧ (i 1).val < win10_4.index t10_7 (1 : Fin 2) * 64 + 64
    rw [e41]; omega

end Cert.KernelIdeal.Hand

end
-- ==== Proof.KI.Val10.lean ====
import proofs.«103934_j28484223107660_1_alg».proof.Proof.KI.Reg10
import proofs.«103934_j28484223107660_1_alg».proof.Proof.KI.Step
import proofs.«103934_j28484223107660_1_alg».proof.Proof.KI.Blk10
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region10

variable (V : (c : Dev nD) → (b : Ref sig .tc) → Buf (Elt Ideal) ((c : Thread nD τ).loc b))

/-- The interaction matrix, the user features and the item features as the launch finds them. -/
abbrev R10 (c : Dev nD) : FVec Ideal S4096x4096 .f32 := V c (Pipeline.arrRef spec10 0)
abbrev u10 (c : Dev nD) : FVec Ideal S4096x64 .f32 := V c (Pipeline.arrRef spec10 1)
abbrev it10 (c : Dev nD) : FVec Ideal S4096x64 .f32 := V c (Pipeline.arrRef spec10 2)

/-- The blocks the body reads at row block `t` are the arrays' rows `512 t …`, and the item features whole. -/
theorem iblk10_0_apply (c : Dev nD) (t : Fin cfg10.N) (p : Fin 512) (k : Fin 4096) :
    (iblk10 V c 0 t : Vec Ideal S512x4096 .f32) (ix2 p k) = R10 V c (ix2 (blkRow (rb10 t) p) k) :=
  blk10_0_apply c (V c (Pipeline.arrRef spec10 0)) t p k
theorem iblk10_1_apply (c : Dev nD) (t : Fin cfg10.N) (p : Fin 512) (d : Fin 64) :
    (iblk10 V c 1 t : Vec Ideal S512x64 .f32) (ix2 p d) = u10 V c (ix2 (blkRow (rb10 t) p) d) :=
  blk10_1_apply c (V c (Pipeline.arrRef spec10 1)) t p d
theorem iblk10_2_apply (c : Dev nD) (t : Fin cfg10.N) (k : Fin 4096) (d : Fin 64) :
    (iblk10 V c 2 t : Vec Ideal S4096x64 .f32) (ix2 k d) = it10 V c (ix2 k d) :=
  blk10_2_apply c (V c (Pipeline.arrRef spec10 2)) t k d

/-! ## The user result -/

/-- What row block `t` writes back of the user result is its block of the user layer. -/
theorem flushed10_3_eq (c : Dev nD) (t : Fin cfg10.N) :
    (dat10 (F := Ideal) V c).flushed 3 t
      = ((cfg10.win 3).blk t).view.read (Elt Ideal) (Cert.RefSide.layerU (F := Ideal) (R10 V c) (it10 V c)) := by
  show (cfg10.win 3).cut (grid10.coords t) ((dat10 V c).after 3 t) = _
  rw [after10_3]
  funext j
  obtain ⟨p, d, rfl⟩ : ∃ (p : Fin 512) (d : Fin 64), j = ix2 p d := ⟨j 0, j 1, eq_ix2 j⟩
  rw [View.read_apply]
  show k0_pay5 (F := Ideal) (iblk10 V c 0 t) (iblk10 V c 2 t) (ix2 p d)
    = Cert.RefSide.layerU (F := Ideal) (R10 V c) (it10 V c) (((cfg10.win 3).blk t).view.emb (ix2 p d))
  rw [emb10_3 t p d, Cert.RefSide.layerU_apply]
  exact rows5 (R10 V c) (it10 V c) (rb10 t) _ _ (iblk10_0_apply V c t) (iblk10_2_apply V c t) p d

/-- The user result after the launch is the user layer. -/
theorem val10_u (c : Dev nD) :
    (dat10 (F := Ideal) V c).arrAt 3 cfg10.N = Cert.RefSide.layerU (F := Ideal) (V c (Pipeline.arrRef spec10 0)) (V c (Pipeline.arrRef spec10 2)) :=
  (dat10 (F := Ideal) V c).arrAt_eq_of_cover 3 (Cert.RefSide.layerU (F := Ideal) (R10 V c) (it10 V c))
    (fun t _ => flushed10_3_eq V c t) cover10_3

/-! ## The item result -/

/-- After row block `n` the two accumulators hold the running totals of the whole sums' terms. -/
theorem accAt10_apply (c : Dev nD) : ∀ (n : ℕ) (hn : n < cfg10.N) (c' : Fin 4096) (d : Fin 64),
    (accAt10 (F := Ideal) V c n hn).1 (ix2 c' d) = acc (wTerm (R10 V c) (u10 V c) c' d) n (lt_of_lt_of_eq hn (show cfg10.N = 8 from N_10))
    ∧ (accAt10 (F := Ideal) V c n hn).2 (ix2 (0 : Fin 1) c') = acc (dTerm (R10 V c) c') n (lt_of_lt_of_eq hn (show cfg10.N = 8 from N_10))
  | 0, hn, c', d => by
    constructor
    · show k0_pay6 (F := Ideal) (iblk10 V c 0 ⟨0, hn⟩) (iblk10 V c 1 ⟨0, hn⟩) (k0_pay2 (F := Ideal)) (ix2 c' d) = _
      rw [step6 (R10 V c) (u10 V c) (rb10 ⟨0, hn⟩) _ _ (iblk10_0_apply V c ⟨0, hn⟩) (iblk10_1_apply V c ⟨0, hn⟩), pay2_apply]
      rfl
    · show k0_pay7 (F := Ideal) (iblk10 V c 0 ⟨0, hn⟩) (k0_pay3 (F := Ideal)) (ix2 (0 : Fin 1) c') = _
      rw [step7 (R10 V c) (rb10 ⟨0, hn⟩) _ (iblk10_0_apply V c ⟨0, hn⟩), pay3_apply]
      rfl
  | n + 1, hn, c', d => by
    constructor
    · show k0_pay6 (F := Ideal) (iblk10 V c 0 ⟨n + 1, hn⟩) (iblk10 V c 1 ⟨n + 1, hn⟩) (accAt10 V c n (Nat.lt_of_succ_lt hn)).1 (ix2 c' d) = _
      rw [step6 (R10 V c) (u10 V c) (rb10 ⟨n + 1, hn⟩) _ _ (iblk10_0_apply V c ⟨n + 1, hn⟩) (iblk10_1_apply V c ⟨n + 1, hn⟩),
        (accAt10_apply c n (Nat.lt_of_succ_lt hn) c' d).1]
      rfl
    · show k0_pay7 (F := Ideal) (iblk10 V c 0 ⟨n + 1, hn⟩) (accAt10 V c n (Nat.lt_of_succ_lt hn)).2 (ix2 (0 : Fin 1) c') = _
      rw [step7 (R10 V c) (rb10 ⟨n + 1, hn⟩) _ (iblk10_0_apply V c ⟨n + 1, hn⟩),
        (accAt10_apply c n (Nat.lt_of_succ_lt hn) c' d).2]
      rfl

/-- What the last row block writes back of the item result is the item layer. -/
theorem flushed10_4_eq (c : Dev nD) (t : Fin cfg10.N) (hf : (cfg10.win 4).flush t = true) :
    (dat10 (F := Ideal) V c).flushed 4 t
      = ((cfg10.win 4).blk t).view.read (Elt Ideal) (Cert.RefSide.layerI (F := Ideal) (R10 V c) (u10 V c)) := by
  have hN : cfg10.N = 8 := N_10
  have h7 : t.val = 7 := by have := (flush10_4 t).mp hf; have := t.isLt; omega
  show (cfg10.win 4).cut (grid10.coords t) ((dat10 V c).after 4 t) = _
  rw [after10_4]
  funext j
  obtain ⟨c', d, rfl⟩ : ∃ (c' : Fin 4096) (d : Fin 64), j = ix2 c' d := ⟨j 0, j 1, eq_ix2 j⟩
  rw [View.read_apply]
  show k0_pay1 (F := Ideal) (accAt10 V c t.val t.isLt).2 (accAt10 V c t.val t.isLt).1 (ix2 c' d)
    = Cert.RefSide.layerI (F := Ideal) (R10 V c) (u10 V c) (((cfg10.win 4).blk t).view.emb (ix2 c' d))
  rw [emb10_4 t c' d, Cert.RefSide.layerI_apply]
  obtain ⟨n, hn⟩ := t
  obtain rfl : n = 7 := h7
  refine final1 (R10 V c) (u10 V c) _ _ (fun c' d => ?_) (fun c' => ?_) c' d
  · exact ((accAt10_apply V c 7 hn c' d).1).trans (acc_last _ _)
  · exact ((accAt10_apply V c 7 hn c' (0 : Fin 64)).2).trans (acc_last _ _)

/-- The item result after the launch is the item layer. -/
theorem val10_i (c : Dev nD) :
    (dat10 (F := Ideal) V c).arrAt 4 cfg10.N = Cert.RefSide.layerI (F := Ideal) (V c (Pipeline.arrRef spec10 0)) (V c (Pipeline.arrRef spec10 1)) :=
  (dat10 (F := Ideal) V c).arrAt_eq_of_cover 4 (Cert.RefSide.layerI (F := Ideal) (R10 V c) (u10 V c))
    (flushed10_4_eq V c) cover10_4

end Region10

end Cert.KernelIdeal.Hand

end
-- ==== Proof.KI.Blk11.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb11 (t : Fin cfg11.N) : Fin 8 := ⟨t.val, lt_of_lt_of_eq t.isLt (show cfg11.N = 8 from N_11)⟩

/-- The block indices of the five windows at each row block. -/
theorem idx11_facts : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = 0 ∧ win11_4.index t (1 : Fin 2) = 0 :=
  (by decide +kernel : ∀ t : Fin grid11.N, _)

section
variable (c : Dev nD)

/-- The matrix's block at row block `t`, at `(p, k)`, is the matrix at row `512 t + p`, column `k`. -/
theorem blk11_0_apply (X : Buf (Elt F) ((c : Thread nD τ).loc (Pipeline.arrRef spec11 0))) (t : Fin cfg11.N) (p : Fin 512) (k : Fin 4096) :
    (((cfg11.win 0).blk t).view.read (Elt F) X : Vec F S512x4096 .f32) (ix2 p k)
      = (X : S4096x4096.Idx → F .f32) (ix2 (blkRow (rb11 t) p) k) := by
  obtain ⟨e00, e01, -⟩ := idx11_facts t
  rw [View.read_apply]
  show X _ = X _
  congr 1
  funext a; apply Fin.ext
  match a with
  | ⟨0, _⟩ => show win11_0.index t (0 : Fin 2) * 512 + 1 * p.val = 512 * t.val + p.val; rw [e00]; omega
  | ⟨1, _⟩ => show win11_0.index t (1 : Fin 2) * 4096 + 1 * k.val = k.val; rw [e01]; omega

/-- The user features' block at row block `t`, at `(p, d)`, is the user features at row `512 t + p`. -/
theorem blk11_1_apply (X : Buf (Elt F) ((c : Thread nD τ).loc (Pipeline.arrRef spec11 1))) (t : Fin cfg11.N) (p : Fin 512) (d : Fin 64) :
    (((cfg11.win 1).blk t).view.read (Elt F) X : Vec F S512x64 .f32) (ix2 p d)
      = (X : S4096x64.Idx → F .f32) (ix2 (blkRow (rb11 t) p) d) := by
  obtain ⟨-, -, e10, e11, -⟩ := idx11_facts t
  rw [View.read_apply]
  show X _ = X _
  congr 1
  funext a; apply Fin.ext
  match a with
  | ⟨0, _⟩ => show win11_1.index t (0 : Fin 2) * 512 + 1 * p.val = 512 * t.val + p.val; rw [e10]; omega
  | ⟨1, _⟩ => show win11_1.index t (1 : Fin 2) * 64 + 1 * d.val = d.val; rw [e11]; omega

/-- The item features' block is the item features, whole, at every row block. -/
theorem blk11_2_apply (X : Buf (Elt F) ((c : Thread nD τ).loc (Pipeline.arrRef spec11 2))) (t : Fin cfg11.N) (k : Fin 4096) (d : Fin 64) :
    (((cfg11.win 2).blk t).view.read (Elt F) X : Vec F S4096x64 .f32) (ix2 k d)
      = (X : S4096x64.Idx → F .f32) (ix2 k d) := by
  obtain ⟨-, -, -, -, e20, e21, -⟩ := idx11_facts t
  rw [View.read_apply]
  show X _ = X _
  congr 1
  funext a; apply Fin.ext
  match a with
  | ⟨0, _⟩ => show win11_2.index t (0 : Fin 2) * 4096 + 1 * k.val = k.val; rw [e20]; omega
  | ⟨1, _⟩ => show win11_2.index t (1 : Fin 2) * 64 + 1 * d.val = d.val; rw [e21]; omega

end

/-- The block of new user rows at row block `t` sits at rows `512 t …` of its array. -/
theorem emb11_3 (t : Fin cfg11.N) (p : Fin 512) (d : Fin 64) :
    (((cfg11.win 3).blk t).view.emb (ix2 p d) : S4096x64.Idx) = ix2 (blkRow (rb11 t) p) d := by
  obtain ⟨-, -, -, -, -, -, e30, e31, -⟩ := idx11_facts t
  funext a; apply Fin.ext
  match a with
  | ⟨0, _⟩ => show win11_3.index t (0 : Fin 2) * 512 + 1 * p.val = 512 * t.val + p.val; rw [e30]; omega
  | ⟨1, _⟩ => show win11_3.index t (1 : Fin 2) * 64 + 1 * d.val = d.val; rw [e31]; omega

/-- The item result's block is its whole array. -/
theorem emb11_4 (t : Fin cfg11.N) (k : Fin 4096) (d : Fin 64) :
    (((cfg11.win 4).blk t).view.emb (ix2 k d) : S4096x64.Idx) = ix2 k d := by
  obtain ⟨-, -, -, -, -, -, -, -, e40, e41⟩ := idx11_facts t
  funext a; apply Fin.ext
  match a with
  | ⟨0, _⟩ => show win11_4.index t (0 : Fin 2) * 4096 + 1 * k.val = k.val; rw [e40]; omega
  | ⟨1, _⟩ => show win11_4.index t (1 : Fin 2) * 64 + 1 * d.val = d.val; rw [e41]; omega

/-- An index of the user result is in row block `t`'s block when each coordinate is in the block's range. -/
theorem mem_blk11_3 (t : Fin cfg11.N) (i : S4096x64.Idx) :
    i ∈ ((cfg11.win 3).blk t).view.set ↔ ∀ a : Fin 2, win11_3.index t a * S512x64.size a ≤ (i a).val ∧ (i a).val < win11_3.index t a * S512x64.size a + S512x64.size a := by
  show i ∈ ((View.whole main_v66_0).slice (win11_3.rect t)).set ↔ _
  rw [View.set_slice_whole, Rect.mem_set_unit]
  exact Iff.rfl

theorem mem_blk11_4 (t : Fin cfg11.N) (i : S4096x64.Idx) :
    i ∈ ((cfg11.win 4).blk t).view.set ↔ ∀ a : Fin 2, win11_4.index t a * S4096x64.size a ≤ (i a).val ∧ (i a).val < win11_4.index t a * S4096x64.size a + S4096x64.size a := by
  show i ∈ ((View.whole main_v66_1).slice (win11_4.rect t)).set ↔ _
  rw [View.set_slice_whole, Rect.mem_set_unit]
  exact Iff.rfl

/-- Every row of the user result is written back by the row block it lies in. -/
theorem cover11_3 (i : S4096x64.Idx) : ∃ t : Fin cfg11.N, (cfg11.win 3).flush t = true ∧ i ∈ ((cfg11.win 3).blk t).view.set := by
  have hi0 : (i 0).val < 4096 := (i 0).isLt
  have hi1 : (i 1).val < 64 := (i 1).isLt
  have hN : cfg11.N = 8 := N_11
  have ht : (i 0).val / 512 < cfg11.N := by omega
  obtain ⟨-, -, -, -, -, -, e30, e31, -⟩ := idx11_facts ⟨(i 0).val / 512, ht⟩
  refine ⟨⟨(i 0).val / 512, ht⟩, flush11_3 _, ?_⟩
  rw [mem_blk11_3]
  intro a
  match a with
  | ⟨0, _⟩ =>
    show win11_3.index ⟨(i 0).val / 512, ht⟩ (0 : Fin 2) * 512 ≤ (i 0).val ∧ (i 0).val < win11_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win11_3.index ⟨(i 0).val / 512, ht⟩ (1 : Fin 2) * 64 ≤ (i 1).val ∧ (i 1).val < win11_3.index ⟨(i 0).val / 512, ht⟩ (1 : Fin 2) * 64 + 64
    rw [e31]; omega

/-- Every entry of the item result is written back by the last row block. -/
theorem cover11_4 (i : S4096x64.Idx) : ∃ t : Fin cfg11.N, (cfg11.win 4).flush t = true ∧ i ∈ ((cfg11.win 4).blk t).view.set := by
  have hi0 : (i 0).val < 4096 := (i 0).isLt
  have hi1 : (i 1).val < 64 := (i 1).isLt
  obtain ⟨-, -, -, -, -, -, -, -, e40, e41⟩ := idx11_facts t11_7
  refine ⟨t11_7, (flush11_4 t11_7).mpr rfl, ?_⟩
  rw [mem_blk11_4]
  intro a
  match a with
  | ⟨0, _⟩ =>
    show win11_4.index t11_7 (0 : Fin 2) * 4096 ≤ (i 0).val ∧ (i 0).val < win11_4.index t11_7 (0 : Fin 2) * 4096 + 4096
    rw [e40]; omega
  | ⟨1, _⟩ =>
    show win11_4.index t11_7 (1 : Fin 2) * 64 ≤ (i 1).val ∧ (i 1).val < win11_4.index t11_7 (1 : Fin 2) * 64 + 64
    rw [e41]; omega

end Cert.KernelIdeal.Hand

end
-- ==== Proof.KI.Val11.lean ====
import proofs.«103934_j28484223107660_1_alg».proof.Proof.KI.Reg11
import proofs.«103934_j28484223107660_1_alg».proof.Proof.KI.Step
import proofs.«103934_j28484223107660_1_alg».proof.Proof.KI.Blk11
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region11

variable (V : (c : Dev nD) → (b : Ref sig .tc) → Buf (Elt Ideal) ((c : Thread nD τ).loc b))

/-- The interaction matrix, the user features and the item features as the launch finds them. -/
abbrev R11 (c : Dev nD) : FVec Ideal S4096x4096 .f32 := V c (Pipeline.arrRef spec11 0)
abbrev u11 (c : Dev nD) : FVec Ideal S4096x64 .f32 := V c (Pipeline.arrRef spec11 1)
abbrev it11 (c : Dev nD) : FVec Ideal S4096x64 .f32 := V c (Pipeline.arrRef spec11 2)

/-- The blocks the body reads at row block `t` are the arrays' rows `512 t …`, and the item features whole. -/
theorem iblk11_0_apply (c : Dev nD) (t : Fin cfg11.N) (p : Fin 512) (k : Fin 4096) :
    (iblk11 V c 0 t : Vec Ideal S512x4096 .f32) (ix2 p k) = R11 V c (ix2 (blkRow (rb11 t) p) k) :=
  blk11_0_apply c (V c (Pipeline.arrRef spec11 0)) t p k
theorem iblk11_1_apply (c : Dev nD) (t : Fin cfg11.N) (p : Fin 512) (d : Fin 64) :
    (iblk11 V c 1 t : Vec Ideal S512x64 .f32) (ix2 p d) = u11 V c (ix2 (blkRow (rb11 t) p) d) :=
  blk11_1_apply c (V c (Pipeline.arrRef spec11 1)) t p d
theorem iblk11_2_apply (c : Dev nD) (t : Fin cfg11.N) (k : Fin 4096) (d : Fin 64) :
    (iblk11 V c 2 t : Vec Ideal S4096x64 .f32) (ix2 k d) = it11 V c (ix2 k d) :=
  blk11_2_apply c (V c (Pipeline.arrRef spec11 2)) t k d

/-! ## The user result -/

/-- What row block `t` writes back of the user result is its block of the user layer. -/
theorem flushed11_3_eq (c : Dev nD) (t : Fin cfg11.N) :
    (dat11 (F := Ideal) V c).flushed 3 t
      = ((cfg11.win 3).blk t).view.read (Elt Ideal) (Cert.RefSide.layerU (F := Ideal) (R11 V c) (it11 V c)) := by
  show (cfg11.win 3).cut (grid11.coords t) ((dat11 V c).after 3 t) = _
  rw [after11_3]
  funext j
  obtain ⟨p, d, rfl⟩ : ∃ (p : Fin 512) (d : Fin 64), j = ix2 p d := ⟨j 0, j 1, eq_ix2 j⟩
  rw [View.read_apply]
  show k1_pay5 (F := Ideal) (iblk11 V c 0 t) (iblk11 V c 2 t) (ix2 p d)
    = Cert.RefSide.layerU (F := Ideal) (R11 V c) (it11 V c) (((cfg11.win 3).blk t).view.emb (ix2 p d))
  rw [emb11_3 t p d, Cert.RefSide.layerU_apply]
  exact rows5o (R11 V c) (it11 V c) (rb11 t) _ _ (iblk11_0_apply V c t) (iblk11_2_apply V c t) p d

/-- The user result after the launch is the user layer. -/
theorem val11_u (c : Dev nD) :
    (dat11 (F := Ideal) V c).arrAt 3 cfg11.N = Cert.RefSide.layerU (F := Ideal) (V c (Pipeline.arrRef spec11 0)) (V c (Pipeline.arrRef spec11 2)) :=
  (dat11 (F := Ideal) V c).arrAt_eq_of_cover 3 (Cert.RefSide.layerU (F := Ideal) (R11 V c) (it11 V c))
    (fun t _ => flushed11_3_eq V c t) cover11_3

/-! ## The item result -/

/-- After row block `n` the two accumulators hold the running totals of the whole sums' terms. -/
theorem accAt11_apply (c : Dev nD) : ∀ (n : ℕ) (hn : n < cfg11.N) (c' : Fin 4096) (d : Fin 64),
    (accAt11 (F := Ideal) V c n hn).1 (ix2 c' d) = acc (wTerm (R11 V c) (u11 V c) c' d) n (lt_of_lt_of_eq hn (show cfg11.N = 8 from N_11))
    ∧ (accAt11 (F := Ideal) V c n hn).2 (ix2 (0 : Fin 1) c') = acc (dTerm (R11 V c) c') n (lt_of_lt_of_eq hn (show cfg11.N = 8 from N_11))
  | 0, hn, c', d => by
    constructor
    · show k1_pay6 (F := Ideal) (iblk11 V c 0 ⟨0, hn⟩) (iblk11 V c 1 ⟨0, hn⟩) (k1_pay2 (F := Ideal)) (ix2 c' d) = _
      rw [step6o (R11 V c) (u11 V c) (rb11 ⟨0, hn⟩) _ _ (iblk11_0_apply V c ⟨0, hn⟩) (iblk11_1_apply V c ⟨0, hn⟩), pay2o_apply]
      rfl
    · show k1_pay7 (F := Ideal) (iblk11 V c 0 ⟨0, hn⟩) (k1_pay3 (F := Ideal)) (ix2 (0 : Fin 1) c') = _
      rw [step7o (R11 V c) (rb11 ⟨0, hn⟩) _ (iblk11_0_apply V c ⟨0, hn⟩), pay3o_apply]
      rfl
  | n + 1, hn, c', d => by
    constructor
    · show k1_pay6 (F := Ideal) (iblk11 V c 0 ⟨n + 1, hn⟩) (iblk11 V c 1 ⟨n + 1, hn⟩) (accAt11 V c n (Nat.lt_of_succ_lt hn)).1 (ix2 c' d) = _
      rw [step6o (R11 V c) (u11 V c) (rb11 ⟨n + 1, hn⟩) _ _ (iblk11_0_apply V c ⟨n + 1, hn⟩) (iblk11_1_apply V c ⟨n + 1, hn⟩),
        (accAt11_apply c n (Nat.lt_of_succ_lt hn) c' d).1]
      rfl
    · show k1_pay7 (F := Ideal) (iblk11 V c 0 ⟨n + 1, hn⟩) (accAt11 V c n (Nat.lt_of_succ_lt hn)).2 (ix2 (0 : Fin 1) c') = _
      rw [step7o (R11 V c) (rb11 ⟨n + 1, hn⟩) _ (iblk11_0_apply V c ⟨n + 1, hn⟩),
        (accAt11_apply c n (Nat.lt_of_succ_lt hn) c' d).2]
      rfl

/-- What the last row block writes back of the item result is the item layer. -/
theorem flushed11_4_eq (c : Dev nD) (t : Fin cfg11.N) (hf : (cfg11.win 4).flush t = true) :
    (dat11 (F := Ideal) V c).flushed 4 t
      = ((cfg11.win 4).blk t).view.read (Elt Ideal) (Cert.RefSide.layerI (F := Ideal) (R11 V c) (u11 V c)) := by
  have hN : cfg11.N = 8 := N_11
  have h7 : t.val = 7 := by have := (flush11_4 t).mp hf; have := t.isLt; omega
  show (cfg11.win 4).cut (grid11.coords t) ((dat11 V c).after 4 t) = _
  rw [after11_4]
  funext j
  obtain ⟨c', d, rfl⟩ : ∃ (c' : Fin 4096) (d : Fin 64), j = ix2 c' d := ⟨j 0, j 1, eq_ix2 j⟩
  rw [View.read_apply]
  show k1_pay1 (F := Ideal) (accAt11 V c t.val t.isLt).2 (accAt11 V c t.val t.isLt).1 (ix2 c' d)
    = Cert.RefSide.layerI (F := Ideal) (R11 V c) (u11 V c) (((cfg11.win 4).blk t).view.emb (ix2 c' d))
  rw [emb11_4 t c' d, Cert.RefSide.layerI_apply]
  obtain ⟨n, hn⟩ := t
  obtain rfl : n = 7 := h7
  refine final1o (R11 V c) (u11 V c) _ _ (fun c' d => ?_) (fun c' => ?_) c' d
  · exact ((accAt11_apply V c 7 hn c' d).1).trans (acc_last _ _)
  · exact ((accAt11_apply V c 7 hn c' (0 : Fin 64)).2).trans (acc_last _ _)

/-- The item result after the launch is the item layer. -/
theorem val11_i (c : Dev nD) :
    (dat11 (F := Ideal) V c).arrAt 4 cfg11.N = Cert.RefSide.layerI (F := Ideal) (V c (Pipeline.arrRef spec11 0)) (V c (Pipeline.arrRef spec11 1)) :=
  (dat11 (F := Ideal) V c).arrAt_eq_of_cover 4 (Cert.RefSide.layerI (F := Ideal) (R11 V c) (u11 V c))
    (flushed11_4_eq V c) cover11_4

end Region11

end Cert.KernelIdeal.Hand

end
-- ==== Proof.KI.Blk12.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb12 (t : Fin cfg12.N) : Fin 8 := ⟨t.val, lt_of_lt_of_eq t.isLt (show cfg12.N = 8 from N_12)⟩

/-- The block indices of the five windows at each row block. -/
theorem idx12_facts : ∀ t : Fin cfg12.N,
    win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = t.val ∧ win12_3.index t (1 : Fin 2) = 0
    ∧ win12_4.index t (0 : Fin 2) = 0 ∧ win12_4.index t (1 : Fin 2) = 0 :=
  (by decide +kernel : ∀ t : Fin grid12.N, _)

section
variable (c : Dev nD)

/-- The matrix's block at row block `t`, at `(p, k)`, is the matrix at row `512 t + p`, column `k`. -/
theorem blk12_0_apply (X : Buf (Elt F) ((c : Thread nD τ).loc (Pipeline.arrRef spec12 0))) (t : Fin cfg12.N) (p : Fin 512) (k : Fin 4096) :
    (((cfg12.win 0).blk t).view.read (Elt F) X : Vec F S512x4096 .f32) (ix2 p k)
      = (X : S4096x4096.Idx → F .f32) (ix2 (blkRow (rb12 t) p) k) := by
  obtain ⟨e00, e01, -⟩ := idx12_facts t
  rw [View.read_apply]
  show X _ = X _
  congr 1
  funext a; apply Fin.ext
  match a with
  | ⟨0, _⟩ => show win12_0.index t (0 : Fin 2) * 512 + 1 * p.val = 512 * t.val + p.val; rw [e00]; omega
  | ⟨1, _⟩ => show win12_0.index t (1 : Fin 2) * 4096 + 1 * k.val = k.val; rw [e01]; omega

/-- The user features' block at row block `t`, at `(p, d)`, is the user features at row `512 t + p`. -/
theorem blk12_1_apply (X : Buf (Elt F) ((c : Thread nD τ).loc (Pipeline.arrRef spec12 1))) (t : Fin cfg12.N) (p : Fin 512) (d : Fin 64) :
    (((cfg12.win 1).blk t).view.read (Elt F) X : Vec F S512x64 .f32) (ix2 p d)
      = (X : S4096x64.Idx → F .f32) (ix2 (blkRow (rb12 t) p) d) := by
  obtain ⟨-, -, e10, e11, -⟩ := idx12_facts t
  rw [View.read_apply]
  show X _ = X _
  congr 1
  funext a; apply Fin.ext
  match a with
  | ⟨0, _⟩ => show win12_1.index t (0 : Fin 2) * 512 + 1 * p.val = 512 * t.val + p.val; rw [e10]; omega
  | ⟨1, _⟩ => show win12_1.index t (1 : Fin 2) * 64 + 1 * d.val = d.val; rw [e11]; omega

/-- The item features' block is the item features, whole, at every row block. -/
theorem blk12_2_apply (X : Buf (Elt F) ((c : Thread nD τ).loc (Pipeline.arrRef spec12 2))) (t : Fin cfg12.N) (k : Fin 4096) (d : Fin 64) :
    (((cfg12.win 2).blk t).view.read (Elt F) X : Vec F S4096x64 .f32) (ix2 k d)
      = (X : S4096x64.Idx → F .f32) (ix2 k d) := by
  obtain ⟨-, -, -, -, e20, e21, -⟩ := idx12_facts t
  rw [View.read_apply]
  show X _ = X _
  congr 1
  funext a; apply Fin.ext
  match a with
  | ⟨0, _⟩ => show win12_2.index t (0 : Fin 2) * 4096 + 1 * k.val = k.val; rw [e20]; omega
  | ⟨1, _⟩ => show win12_2.index t (1 : Fin 2) * 64 + 1 * d.val = d.val; rw [e21]; omega

end

/-- The block of new user rows at row block `t` sits at rows `512 t …` of its array. -/
theorem emb12_3 (t : Fin cfg12.N) (p : Fin 512) (d : Fin 64) :
    (((cfg12.win 3).blk t).view.emb (ix2 p d) : S4096x64.Idx) = ix2 (blkRow (rb12 t) p) d := by
  obtain ⟨-, -, -, -, -, -, e30, e31, -⟩ := idx12_facts t
  funext a; apply Fin.ext
  match a with
  | ⟨0, _⟩ => show win12_3.index t (0 : Fin 2) * 512 + 1 * p.val = 512 * t.val + p.val; rw [e30]; omega
  | ⟨1, _⟩ => show win12_3.index t (1 : Fin 2) * 64 + 1 * d.val = d.val; rw [e31]; omega

/-- The item result's block is its whole array. -/
theorem emb12_4 (t : Fin cfg12.N) (k : Fin 4096) (d : Fin 64) :
    (((cfg12.win 4).blk t).view.emb (ix2 k d) : S4096x64.Idx) = ix2 k d := by
  obtain ⟨-, -, -, -, -, -, -, -, e40, e41⟩ := idx12_facts t
  funext a; apply Fin.ext
  match a with
  | ⟨0, _⟩ => show win12_4.index t (0 : Fin 2) * 4096 + 1 * k.val = k.val; rw [e40]; omega
  | ⟨1, _⟩ => show win12_4.index t (1 : Fin 2) * 64 + 1 * d.val = d.val; rw [e41]; omega

/-- An index of the user result is in row block `t`'s block when each coordinate is in the block's range. -/
theorem mem_blk12_3 (t : Fin cfg12.N) (i : S4096x64.Idx) :
    i ∈ ((cfg12.win 3).blk t).view.set ↔ ∀ a : Fin 2, win12_3.index t a * S512x64.size a ≤ (i a).val ∧ (i a).val < win12_3.index t a * S512x64.size a + S512x64.size a := by
  show i ∈ ((View.whole main_v76_0).slice (win12_3.rect t)).set ↔ _
  rw [View.set_slice_whole, Rect.mem_set_unit]
  exact Iff.rfl

theorem mem_blk12_4 (t : Fin cfg12.N) (i : S4096x64.Idx) :
    i ∈ ((cfg12.win 4).blk t).view.set ↔ ∀ a : Fin 2, win12_4.index t a * S4096x64.size a ≤ (i a).val ∧ (i a).val < win12_4.index t a * S4096x64.size a + S4096x64.size a := by
  show i ∈ ((View.whole main_v76_1).slice (win12_4.rect t)).set ↔ _
  rw [View.set_slice_whole, Rect.mem_set_unit]
  exact Iff.rfl

/-- Every row of the user result is written back by the row block it lies in. -/
theorem cover12_3 (i : S4096x64.Idx) : ∃ t : Fin cfg12.N, (cfg12.win 3).flush t = true ∧ i ∈ ((cfg12.win 3).blk t).view.set := by
  have hi0 : (i 0).val < 4096 := (i 0).isLt
  have hi1 : (i 1).val < 64 := (i 1).isLt
  have hN : cfg12.N = 8 := N_12
  have ht : (i 0).val / 512 < cfg12.N := by omega
  obtain ⟨-, -, -, -, -, -, e30, e31, -⟩ := idx12_facts ⟨(i 0).val / 512, ht⟩
  refine ⟨⟨(i 0).val / 512, ht⟩, flush12_3 _, ?_⟩
  rw [mem_blk12_3]
  intro a
  match a with
  | ⟨0, _⟩ =>
    show win12_3.index ⟨(i 0).val / 512, ht⟩ (0 : Fin 2) * 512 ≤ (i 0).val ∧ (i 0).val < win12_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win12_3.index ⟨(i 0).val / 512, ht⟩ (1 : Fin 2) * 64 ≤ (i 1).val ∧ (i 1).val < win12_3.index ⟨(i 0).val / 512, ht⟩ (1 : Fin 2) * 64 + 64
    rw [e31]; omega

/-- Every entry of the item result is written back by the last row block. -/
theorem cover12_4 (i : S4096x64.Idx) : ∃ t : Fin cfg12.N, (cfg12.win 4).flush t = true ∧ i ∈ ((cfg12.win 4).blk t).view.set := by
  have hi0 : (i 0).val < 4096 := (i 0).isLt
  have hi1 : (i 1).val < 64 := (i 1).isLt
  obtain ⟨-, -, -, -, -, -, -, -, e40, e41⟩ := idx12_facts t12_7
  refine ⟨t12_7, (flush12_4 t12_7).mpr rfl, ?_⟩
  rw [mem_blk12_4]
  intro a
  match a with
  | ⟨0, _⟩ =>
    show win12_4.index t12_7 (0 : Fin 2) * 4096 ≤ (i 0).val ∧ (i 0).val < win12_4.index t12_7 (0 : Fin 2) * 4096 + 4096
    rw [e40]; omega
  | ⟨1, _⟩ =>
    show win12_4.index t12_7 (1 : Fin 2) * 64 ≤ (i 1).val ∧ (i 1).val < win12_4.index t12_7 (1 : Fin 2) * 64 + 64
    rw [e41]; omega

end Cert.KernelIdeal.Hand

end
-- ==== Proof.KI.Val12.lean ====
import proofs.«103934_j28484223107660_1_alg».proof.Proof.KI.Reg12
import proofs.«103934_j28484223107660_1_alg».proof.Proof.KI.Step
import proofs.«103934_j28484223107660_1_alg».proof.Proof.KI.Blk12
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region12

variable (V : (c : Dev nD) → (b : Ref sig .tc) → Buf (Elt Ideal) ((c : Thread nD τ).loc b))

/-- The interaction matrix, the user features and the item features as the launch finds them. -/
abbrev R12 (c : Dev nD) : FVec Ideal S4096x4096 .f32 := V c (Pipeline.arrRef spec12 0)
abbrev u12 (c : Dev nD) : FVec Ideal S4096x64 .f32 := V c (Pipeline.arrRef spec12 1)
abbrev it12 (c : Dev nD) : FVec Ideal S4096x64 .f32 := V c (Pipeline.arrRef spec12 2)

/-- The blocks the body reads at row block `t` are the arrays' rows `512 t …`, and the item features whole. -/
theorem iblk12_0_apply (c : Dev nD) (t : Fin cfg12.N) (p : Fin 512) (k : Fin 4096) :
    (iblk12 V c 0 t : Vec Ideal S512x4096 .f32) (ix2 p k) = R12 V c (ix2 (blkRow (rb12 t) p) k) :=
  blk12_0_apply c (V c (Pipeline.arrRef spec12 0)) t p k
theorem iblk12_1_apply (c : Dev nD) (t : Fin cfg12.N) (p : Fin 512) (d : Fin 64) :
    (iblk12 V c 1 t : Vec Ideal S512x64 .f32) (ix2 p d) = u12 V c (ix2 (blkRow (rb12 t) p) d) :=
  blk12_1_apply c (V c (Pipeline.arrRef spec12 1)) t p d
theorem iblk12_2_apply (c : Dev nD) (t : Fin cfg12.N) (k : Fin 4096) (d : Fin 64) :
    (iblk12 V c 2 t : Vec Ideal S4096x64 .f32) (ix2 k d) = it12 V c (ix2 k d) :=
  blk12_2_apply c (V c (Pipeline.arrRef spec12 2)) t k d

/-! ## The user result -/

/-- What row block `t` writes back of the user result is its block of the user layer. -/
theorem flushed12_3_eq (c : Dev nD) (t : Fin cfg12.N) :
    (dat12 (F := Ideal) V c).flushed 3 t
      = ((cfg12.win 3).blk t).view.read (Elt Ideal) (Cert.RefSide.layerU (F := Ideal) (R12 V c) (it12 V c)) := by
  show (cfg12.win 3).cut (grid12.coords t) ((dat12 V c).after 3 t) = _
  rw [after12_3]
  funext j
  obtain ⟨p, d, rfl⟩ : ∃ (p : Fin 512) (d : Fin 64), j = ix2 p d := ⟨j 0, j 1, eq_ix2 j⟩
  rw [View.read_apply]
  show k0_pay5 (F := Ideal) (iblk12 V c 0 t) (iblk12 V c 2 t) (ix2 p d)
    = Cert.RefSide.layerU (F := Ideal) (R12 V c) (it12 V c) (((cfg12.win 3).blk t).view.emb (ix2 p d))
  rw [emb12_3 t p d, Cert.RefSide.layerU_apply]
  exact rows5 (R12 V c) (it12 V c) (rb12 t) _ _ (iblk12_0_apply V c t) (iblk12_2_apply V c t) p d

/-- The user result after the launch is the user layer. -/
theorem val12_u (c : Dev nD) :
    (dat12 (F := Ideal) V c).arrAt 3 cfg12.N = Cert.RefSide.layerU (F := Ideal) (V c (Pipeline.arrRef spec12 0)) (V c (Pipeline.arrRef spec12 2)) :=
  (dat12 (F := Ideal) V c).arrAt_eq_of_cover 3 (Cert.RefSide.layerU (F := Ideal) (R12 V c) (it12 V c))
    (fun t _ => flushed12_3_eq V c t) cover12_3

/-! ## The item result -/

/-- After row block `n` the two accumulators hold the running totals of the whole sums' terms. -/
theorem accAt12_apply (c : Dev nD) : ∀ (n : ℕ) (hn : n < cfg12.N) (c' : Fin 4096) (d : Fin 64),
    (accAt12 (F := Ideal) V c n hn).1 (ix2 c' d) = acc (wTerm (R12 V c) (u12 V c) c' d) n (lt_of_lt_of_eq hn (show cfg12.N = 8 from N_12))
    ∧ (accAt12 (F := Ideal) V c n hn).2 (ix2 (0 : Fin 1) c') = acc (dTerm (R12 V c) c') n (lt_of_lt_of_eq hn (show cfg12.N = 8 from N_12))
  | 0, hn, c', d => by
    constructor
    · show k0_pay6 (F := Ideal) (iblk12 V c 0 ⟨0, hn⟩) (iblk12 V c 1 ⟨0, hn⟩) (k0_pay2 (F := Ideal)) (ix2 c' d) = _
      rw [step6 (R12 V c) (u12 V c) (rb12 ⟨0, hn⟩) _ _ (iblk12_0_apply V c ⟨0, hn⟩) (iblk12_1_apply V c ⟨0, hn⟩), pay2_apply]
      rfl
    · show k0_pay7 (F := Ideal) (iblk12 V c 0 ⟨0, hn⟩) (k0_pay3 (F := Ideal)) (ix2 (0 : Fin 1) c') = _
      rw [step7 (R12 V c) (rb12 ⟨0, hn⟩) _ (iblk12_0_apply V c ⟨0, hn⟩), pay3_apply]
      rfl
  | n + 1, hn, c', d => by
    constructor
    · show k0_pay6 (F := Ideal) (iblk12 V c 0 ⟨n + 1, hn⟩) (iblk12 V c 1 ⟨n + 1, hn⟩) (accAt12 V c n (Nat.lt_of_succ_lt hn)).1 (ix2 c' d) = _
      rw [step6 (R12 V c) (u12 V c) (rb12 ⟨n + 1, hn⟩) _ _ (iblk12_0_apply V c ⟨n + 1, hn⟩) (iblk12_1_apply V c ⟨n + 1, hn⟩),
        (accAt12_apply c n (Nat.lt_of_succ_lt hn) c' d).1]
      rfl
    · show k0_pay7 (F := Ideal) (iblk12 V c 0 ⟨n + 1, hn⟩) (accAt12 V c n (Nat.lt_of_succ_lt hn)).2 (ix2 (0 : Fin 1) c') = _
      rw [step7 (R12 V c) (rb12 ⟨n + 1, hn⟩) _ (iblk12_0_apply V c ⟨n + 1, hn⟩),
        (accAt12_apply c n (Nat.lt_of_succ_lt hn) c' d).2]
      rfl

/-- What the last row block writes back of the item result is the item layer. -/
theorem flushed12_4_eq (c : Dev nD) (t : Fin cfg12.N) (hf : (cfg12.win 4).flush t = true) :
    (dat12 (F := Ideal) V c).flushed 4 t
      = ((cfg12.win 4).blk t).view.read (Elt Ideal) (Cert.RefSide.layerI (F := Ideal) (R12 V c) (u12 V c)) := by
  have hN : cfg12.N = 8 := N_12
  have h7 : t.val = 7 := by have := (flush12_4 t).mp hf; have := t.isLt; omega
  show (cfg12.win 4).cut (grid12.coords t) ((dat12 V c).after 4 t) = _
  rw [after12_4]
  funext j
  obtain ⟨c', d, rfl⟩ : ∃ (c' : Fin 4096) (d : Fin 64), j = ix2 c' d := ⟨j 0, j 1, eq_ix2 j⟩
  rw [View.read_apply]
  show k0_pay1 (F := Ideal) (accAt12 V c t.val t.isLt).2 (accAt12 V c t.val t.isLt).1 (ix2 c' d)
    = Cert.RefSide.layerI (F := Ideal) (R12 V c) (u12 V c) (((cfg12.win 4).blk t).view.emb (ix2 c' d))
  rw [emb12_4 t c' d, Cert.RefSide.layerI_apply]
  obtain ⟨n, hn⟩ := t
  obtain rfl : n = 7 := h7
  refine final1 (R12 V c) (u12 V c) _ _ (fun c' d => ?_) (fun c' => ?_) c' d
  · exact ((accAt12_apply V c 7 hn c' d).1).trans (acc_last _ _)
  · exact ((accAt12_apply V c 7 hn c' (0 : Fin 64)).2).trans (acc_last _ _)

/-- The item result after the launch is the item layer. -/
theorem val12_i (c : Dev nD) :
    (dat12 (F := Ideal) V c).arrAt 4 cfg12.N = Cert.RefSide.layerI (F := Ideal) (V c (Pipeline.arrRef spec12 0)) (V c (Pipeline.arrRef spec12 1)) :=
  (dat12 (F := Ideal) V c).arrAt_eq_of_cover 4 (Cert.RefSide.layerI (F := Ideal) (R12 V c) (u12 V c))
    (flushed12_4_eq V c) cover12_4

end Region12

end Cert.KernelIdeal.Hand

end
-- ==== Proof.KI.Blk13.lean ====
import proofs.«103934_j28484223107660_1_alg».proof.Proof.KI.Common
import proofs.«103934_j28484223107660_1_alg».proof.Proof.KI.Accum
import Idealize.ShloMosaic.Lib.ValueIdx
import Idealize.ShloMosaic.Lib.Pipeline.Value

/-! Where the windows of one propagation layer's launch sit in their arrays: at row block `t` the matrix's
    and the user features' blocks, and the block of new user rows, are rows `512 t …` of their arrays; the item
    features and the item result are read and written whole. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

/-- A row block of the launch as one of the eight blocks of 512 rows. -/
def rb13 (t : Fin cfg13.N) : Fin 8 := ⟨t.val, lt_of_lt_of_eq t.isLt (show cfg13.N = 8 from N_13)⟩

/-- The block indices of the five windows at each row block. -/
theorem idx13_facts : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0
    ∧ win13_4.index t (0 : Fin 2) = 0 ∧ win13_4.index t (1 : Fin 2) = 0 :=
  (by decide +kernel : ∀ t : Fin grid13.N, _)

section
variable (c : Dev nD)

/-- The matrix's block at row block `t`, at `(p, k)`, is the matrix at row `512 t + p`, column `k`. -/
theorem blk13_0_apply (X : Buf (Elt F) ((c : Thread nD τ).loc (Pipeline.arrRef spec13 0))) (t : Fin cfg13.N) (p : Fin 512) (k : Fin 4096) :
    (((cfg13.win 0).blk t).view.read (Elt F) X : Vec F S512x4096 .f32) (ix2 p k)
      = (X : S4096x4096.Idx → F .f32) (ix2 (blkRow (rb13 t) p) k) := by
  obtain ⟨e00, e01, -⟩ := idx13_facts t
  rw [View.read_apply]
  show X _ = X _
  congr 1
  funext a; apply Fin.ext
  match a with
  | ⟨0, _⟩ => show win13_0.index t (0 : Fin 2) * 512 + 1 * p.val = 512 * t.val + p.val; rw [e00]; omega
  | ⟨1, _⟩ => show win13_0.index t (1 : Fin 2) * 4096 + 1 * k.val = k.val; rw [e01]; omega

/-- The user features' block at row block `t`, at `(p, d)`, is the user features at row `512 t + p`. -/
theorem blk13_1_apply (X : Buf (Elt F) ((c : Thread nD τ).loc (Pipeline.arrRef spec13 1))) (t : Fin cfg13.N) (p : Fin 512) (d : Fin 64) :
    (((cfg13.win 1).blk t).view.read (Elt F) X : Vec F S512x64 .f32) (ix2 p d)
      = (X : S4096x64.Idx → F .f32) (ix2 (blkRow (rb13 t) p) d) := by
  obtain ⟨-, -, e10, e11, -⟩ := idx13_facts t
  rw [View.read_apply]
  show X _ = X _
  congr 1
  funext a; apply Fin.ext
  match a with
  | ⟨0, _⟩ => show win13_1.index t (0 : Fin 2) * 512 + 1 * p.val = 512 * t.val + p.val; rw [e10]; omega
  | ⟨1, _⟩ => show win13_1.index t (1 : Fin 2) * 64 + 1 * d.val = d.val; rw [e11]; omega

/-- The item features' block is the item features, whole, at every row block. -/
theorem blk13_2_apply (X : Buf (Elt F) ((c : Thread nD τ).loc (Pipeline.arrRef spec13 2))) (t : Fin cfg13.N) (k : Fin 4096) (d : Fin 64) :
    (((cfg13.win 2).blk t).view.read (Elt F) X : Vec F S4096x64 .f32) (ix2 k d)
      = (X : S4096x64.Idx → F .f32) (ix2 k d) := by
  obtain ⟨-, -, -, -, e20, e21, -⟩ := idx13_facts t
  rw [View.read_apply]
  show X _ = X _
  congr 1
  funext a; apply Fin.ext
  match a with
  | ⟨0, _⟩ => show win13_2.index t (0 : Fin 2) * 4096 + 1 * k.val = k.val; rw [e20]; omega
  | ⟨1, _⟩ => show win13_2.index t (1 : Fin 2) * 64 + 1 * d.val = d.val; rw [e21]; omega

end

/-- The block of new user rows at row block `t` sits at rows `512 t …` of its array. -/
theorem emb13_3 (t : Fin cfg13.N) (p : Fin 512) (d : Fin 64) :
    (((cfg13.win 3).blk t).view.emb (ix2 p d) : S4096x64.Idx) = ix2 (blkRow (rb13 t) p) d := by
  obtain ⟨-, -, -, -, -, -, e30, e31, -⟩ := idx13_facts t
  funext a; apply Fin.ext
  match a with
  | ⟨0, _⟩ => show win13_3.index t (0 : Fin 2) * 512 + 1 * p.val = 512 * t.val + p.val; rw [e30]; omega
  | ⟨1, _⟩ => show win13_3.index t (1 : Fin 2) * 64 + 1 * d.val = d.val; rw [e31]; omega

/-- The item result's block is its whole array. -/
theorem emb13_4 (t : Fin cfg13.N) (k : Fin 4096) (d : Fin 64) :
    (((cfg13.win 4).blk t).view.emb (ix2 k d) : S4096x64.Idx) = ix2 k d := by
  obtain ⟨-, -, -, -, -, -, -, -, e40, e41⟩ := idx13_facts t
  funext a; apply Fin.ext
  match a with
  | ⟨0, _⟩ => show win13_4.index t (0 : Fin 2) * 4096 + 1 * k.val = k.val; rw [e40]; omega
  | ⟨1, _⟩ => show win13_4.index t (1 : Fin 2) * 64 + 1 * d.val = d.val; rw [e41]; omega

/-- An index of the user result is in row block `t`'s block when each coordinate is in the block's range. -/
theorem mem_blk13_3 (t : Fin cfg13.N) (i : S4096x64.Idx) :
    i ∈ ((cfg13.win 3).blk t).view.set ↔ ∀ a : Fin 2, win13_3.index t a * S512x64.size a ≤ (i a).val ∧ (i a).val < win13_3.index t a * S512x64.size a + S512x64.size a := by
  show i ∈ ((View.whole main_v79_0).slice (win13_3.rect t)).set ↔ _
  rw [View.set_slice_whole, Rect.mem_set_unit]
  exact Iff.rfl

theorem mem_blk13_4 (t : Fin cfg13.N) (i : S4096x64.Idx) :
    i ∈ ((cfg13.win 4).blk t).view.set ↔ ∀ a : Fin 2, win13_4.index t a * S4096x64.size a ≤ (i a).val ∧ (i a).val < win13_4.index t a * S4096x64.size a + S4096x64.size a := by
  show i ∈ ((View.whole main_v79_1).slice (win13_4.rect t)).set ↔ _
  rw [View.set_slice_whole, Rect.mem_set_unit]
  exact Iff.rfl

/-- Every row of the user result is written back by the row block it lies in. -/
theorem cover13_3 (i : S4096x64.Idx) : ∃ t : Fin cfg13.N, (cfg13.win 3).flush t = true ∧ i ∈ ((cfg13.win 3).blk t).view.set := by
  have hi0 : (i 0).val < 4096 := (i 0).isLt
  have hi1 : (i 1).val < 64 := (i 1).isLt
  have hN : cfg13.N = 8 := N_13
  have ht : (i 0).val / 512 < cfg13.N := by omega
  obtain ⟨-, -, -, -, -, -, e30, e31, -⟩ := idx13_facts ⟨(i 0).val / 512, ht⟩
  refine ⟨⟨(i 0).val / 512, ht⟩, flush13_3 _, ?_⟩
  rw [mem_blk13_3]
  intro a
  match a with
  | ⟨0, _⟩ =>
    show win13_3.index ⟨(i 0).val / 512, ht⟩ (0 : Fin 2) * 512 ≤ (i 0).val ∧ (i 0).val < win13_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win13_3.index ⟨(i 0).val / 512, ht⟩ (1 : Fin 2) * 64 ≤ (i 1).val ∧ (i 1).val < win13_3.index ⟨(i 0).val / 512, ht⟩ (1 : Fin 2) * 64 + 64
    rw [e31]; omega

/-- Every entry of the item result is written back by the last row block. -/
theorem cover13_4 (i : S4096x64.Idx) : ∃ t : Fin cfg13.N, (cfg13.win 4).flush t = true ∧ i ∈ ((cfg13.win 4).blk t).view.set := by
  have hi0 : (i 0).val < 4096 := (i 0).isLt
  have hi1 : (i 1).val < 64 := (i 1).isLt
  obtain ⟨-, -, -, -, -, -, -, -, e40, e41⟩ := idx13_facts t13_7
  refine ⟨t13_7, (flush13_4 t13_7).mpr rfl, ?_⟩
  rw [mem_blk13_4]
  intro a
  match a with
  | ⟨0, _⟩ =>
    show win13_4.index t13_7 (0 : Fin 2) * 4096 ≤ (i 0).val ∧ (i 0).val < win13_4.index t13_7 (0 : Fin 2) * 4096 + 4096
    rw [e40]; omega
  | ⟨1, _⟩ =>
    show win13_4.index t13_7 (1 : Fin 2) * 64 ≤ (i 1).val ∧ (i 1).val < win13_4.index t13_7 (1 : Fin 2) * 64 + 64
    rw [e41]; omega

end Cert.KernelIdeal.Hand

end
-- ==== Proof.KI.Val13.lean ====
import proofs.«103934_j28484223107660_1_alg».proof.Proof.KI.Reg13
import proofs.«103934_j28484223107660_1_alg».proof.Proof.KI.Step
import proofs.«103934_j28484223107660_1_alg».proof.Proof.KI.Blk13
import proofs.«103934_j28484223107660_1_alg».proof.Proof.Ref.Layers

/-! What one propagation layer's launch leaves in its two result arrays, over the extended reals: the user
    result is the reference's user layer of the matrix and the item features, the item result the reference's item
    layer of the matrix and the user features, as the launch finds them. -/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

section Region13

variable (V : (c : Dev nD) → (b : Ref sig .tc) → Buf (Elt Ideal) ((c : Thread nD τ).loc b))

/-- The interaction matrix, the user features and the item features as the launch finds them. -/
abbrev R13 (c : Dev nD) : FVec Ideal S4096x4096 .f32 := V c (Pipeline.arrRef spec13 0)
abbrev u13 (c : Dev nD) : FVec Ideal S4096x64 .f32 := V c (Pipeline.arrRef spec13 1)
abbrev it13 (c : Dev nD) : FVec Ideal S4096x64 .f32 := V c (Pipeline.arrRef spec13 2)

/-- The blocks the body reads at row block `t` are the arrays' rows `512 t …`, and the item features whole. -/
theorem iblk13_0_apply (c : Dev nD) (t : Fin cfg13.N) (p : Fin 512) (k : Fin 4096) :
    (iblk13 V c 0 t : Vec Ideal S512x4096 .f32) (ix2 p k) = R13 V c (ix2 (blkRow (rb13 t) p) k) :=
  blk13_0_apply c (V c (Pipeline.arrRef spec13 0)) t p k
theorem iblk13_1_apply (c : Dev nD) (t : Fin cfg13.N) (p : Fin 512) (d : Fin 64) :
    (iblk13 V c 1 t : Vec Ideal S512x64 .f32) (ix2 p d) = u13 V c (ix2 (blkRow (rb13 t) p) d) :=
  blk13_1_apply c (V c (Pipeline.arrRef spec13 1)) t p d
theorem iblk13_2_apply (c : Dev nD) (t : Fin cfg13.N) (k : Fin 4096) (d : Fin 64) :
    (iblk13 V c 2 t : Vec Ideal S4096x64 .f32) (ix2 k d) = it13 V c (ix2 k d) :=
  blk13_2_apply c (V c (Pipeline.arrRef spec13 2)) t k d

/-! ## The user result -/

/-- What row block `t` writes back of the user result is its block of the user layer. -/
theorem flushed13_3_eq (c : Dev nD) (t : Fin cfg13.N) :
    (dat13 (F := Ideal) V c).flushed 3 t
      = ((cfg13.win 3).blk t).view.read (Elt Ideal) (Cert.RefSide.layerU (F := Ideal) (R13 V c) (it13 V c)) := by
  show (cfg13.win 3).cut (grid13.coords t) ((dat13 V c).after 3 t) = _
  rw [after13_3]
  funext j
  obtain ⟨p, d, rfl⟩ : ∃ (p : Fin 512) (d : Fin 64), j = ix2 p d := ⟨j 0, j 1, eq_ix2 j⟩
  rw [View.read_apply]
  show k1_pay5 (F := Ideal) (iblk13 V c 0 t) (iblk13 V c 2 t) (ix2 p d)
    = Cert.RefSide.layerU (F := Ideal) (R13 V c) (it13 V c) (((cfg13.win 3).blk t).view.emb (ix2 p d))
  rw [emb13_3 t p d, Cert.RefSide.layerU_apply]
  exact rows5o (R13 V c) (it13 V c) (rb13 t) _ _ (iblk13_0_apply V c t) (iblk13_2_apply V c t) p d

/-- The user result after the launch is the user layer. -/
theorem val13_u (c : Dev nD) :
    (dat13 (F := Ideal) V c).arrAt 3 cfg13.N = Cert.RefSide.layerU (F := Ideal) (V c (Pipeline.arrRef spec13 0)) (V c (Pipeline.arrRef spec13 2)) :=
  (dat13 (F := Ideal) V c).arrAt_eq_of_cover 3 (Cert.RefSide.layerU (F := Ideal) (R13 V c) (it13 V c))
    (fun t _ => flushed13_3_eq V c t) cover13_3

/-! ## The item result -/

/-- After row block `n` the two accumulators hold the running totals of the whole sums' terms. -/
theorem accAt13_apply (c : Dev nD) : ∀ (n : ℕ) (hn : n < cfg13.N) (c' : Fin 4096) (d : Fin 64),
    (accAt13 (F := Ideal) V c n hn).1 (ix2 c' d) = acc (wTerm (R13 V c) (u13 V c) c' d) n (lt_of_lt_of_eq hn (show cfg13.N = 8 from N_13))
    ∧ (accAt13 (F := Ideal) V c n hn).2 (ix2 (0 : Fin 1) c') = acc (dTerm (R13 V c) c') n (lt_of_lt_of_eq hn (show cfg13.N = 8 from N_13))
  | 0, hn, c', d => by
    constructor
    · show k1_pay6 (F := Ideal) (iblk13 V c 0 ⟨0, hn⟩) (iblk13 V c 1 ⟨0, hn⟩) (k1_pay2 (F := Ideal)) (ix2 c' d) = _
      rw [step6o (R13 V c) (u13 V c) (rb13 ⟨0, hn⟩) _ _ (iblk13_0_apply V c ⟨0, hn⟩) (iblk13_1_apply V c ⟨0, hn⟩), pay2o_apply]
      rfl
    · show k1_pay7 (F := Ideal) (iblk13 V c 0 ⟨0, hn⟩) (k1_pay3 (F := Ideal)) (ix2 (0 : Fin 1) c') = _
      rw [step7o (R13 V c) (rb13 ⟨0, hn⟩) _ (iblk13_0_apply V c ⟨0, hn⟩), pay3o_apply]
      rfl
  | n + 1, hn, c', d => by
    constructor
    · show k1_pay6 (F := Ideal) (iblk13 V c 0 ⟨n + 1, hn⟩) (iblk13 V c 1 ⟨n + 1, hn⟩) (accAt13 V c n (Nat.lt_of_succ_lt hn)).1 (ix2 c' d) = _
      rw [step6o (R13 V c) (u13 V c) (rb13 ⟨n + 1, hn⟩) _ _ (iblk13_0_apply V c ⟨n + 1, hn⟩) (iblk13_1_apply V c ⟨n + 1, hn⟩),
        (accAt13_apply c n (Nat.lt_of_succ_lt hn) c' d).1]
      rfl
    · show k1_pay7 (F := Ideal) (iblk13 V c 0 ⟨n + 1, hn⟩) (accAt13 V c n (Nat.lt_of_succ_lt hn)).2 (ix2 (0 : Fin 1) c') = _
      rw [step7o (R13 V c) (rb13 ⟨n + 1, hn⟩) _ (iblk13_0_apply V c ⟨n + 1, hn⟩),
        (accAt13_apply c n (Nat.lt_of_succ_lt hn) c' d).2]
      rfl

/-- What the last row block writes back of the item result is the item layer. -/
theorem flushed13_4_eq (c : Dev nD) (t : Fin cfg13.N) (hf : (cfg13.win 4).flush t = true) :
    (dat13 (F := Ideal) V c).flushed 4 t
      = ((cfg13.win 4).blk t).view.read (Elt Ideal) (Cert.RefSide.layerI (F := Ideal) (R13 V c) (u13 V c)) := by
  have hN : cfg13.N = 8 := N_13
  have h7 : t.val = 7 := by have := (flush13_4 t).mp hf; have := t.isLt; omega
  show (cfg13.win 4).cut (grid13.coords t) ((dat13 V c).after 4 t) = _
  rw [after13_4]
  funext j
  obtain ⟨c', d, rfl⟩ : ∃ (c' : Fin 4096) (d : Fin 64), j = ix2 c' d := ⟨j 0, j 1, eq_ix2 j⟩
  rw [View.read_apply]
  show k1_pay1 (F := Ideal) (accAt13 V c t.val t.isLt).2 (accAt13 V c t.val t.isLt).1 (ix2 c' d)
    = Cert.RefSide.layerI (F := Ideal) (R13 V c) (u13 V c) (((cfg13.win 4).blk t).view.emb (ix2 c' d))
  rw [emb13_4 t c' d, Cert.RefSide.layerI_apply]
  obtain ⟨n, hn⟩ := t
  obtain rfl : n = 7 := h7
  refine final1o (R13 V c) (u13 V c) _ _ (fun c' d => ?_) (fun c' => ?_) c' d
  · exact ((accAt13_apply V c 7 hn c' d).1).trans (acc_last _ _)
  · exact ((accAt13_apply V c 7 hn c' (0 : Fin 64)).2).trans (acc_last _ _)

/-- The item result after the launch is the item layer. -/
theorem val13_i (c : Dev nD) :
    (dat13 (F := Ideal) V c).arrAt 4 cfg13.N = Cert.RefSide.layerI (F := Ideal) (V c (Pipeline.arrRef spec13 0)) (V c (Pipeline.arrRef spec13 1)) :=
  (dat13 (F := Ideal) V c).arrAt_eq_of_cover 4 (Cert.RefSide.layerI (F := Ideal) (R13 V c) (u13 V c))
    (flushed13_4_eq V c) cover13_4

end Region13

end Cert.KernelIdeal.Hand

end
-- ==== Proof.KI.Tail.lean ====
import proofs.«103934_j28484223107660_1_alg».proof.Proof.Gen.KernelIdeal.Regions
import Idealize.ShloMosaic.Lib.StableHlo.Run

/-! The host lines between and after the fourteen regions, array by array: for each interaction matrix the two
    layers a pair of regions leaves are averaged (zero plus the first plus the second, over two), three of the user
    means get an addend, and the fourteen matrices are stacked along a new leading axis. -/

set_option maxRecDepth 8192

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

/-- The mean of two layers as the host lines take it: zero plus the first plus the second, over two. -/
def kmean2 (a b : FVec F S4096x64 .f32) : FVec F S4096x64 .f32 :=
  Host.divf (addf (addf (broadcastInDim S4096x64 ![] bcast_S_S4096x64 (constant S_ .f32 0x00000000#32)) a) b) (broadcastInDim S4096x64 ![] bcast_S_S4096x64 (constant S_ .f32 0x40000000#32))

/-- Fourteen matrices stacked along a new leading axis: four, four, three and three, then the four groups. -/
def kstack14 (x0 x1 x2 x3 x4 x5 x6 x7 x8 x9 x10 x11 x12 x13 : FVec F S4096x64 .f32) : FVec F S14x4096x64 .f32 :=
  concatenate S14x4096x64 0 [⟨S4x4096x64, (concatenate S4x4096x64 0 [⟨S1x4096x64, (broadcastInDim S1x4096x64 ![1, 2] bcast_S4096x64_S1x4096x64_1_2 x0)⟩, ⟨S1x4096x64, (broadcastInDim S1x4096x64 ![1, 2] bcast_S4096x64_S1x4096x64_1_2 x1)⟩, ⟨S1x4096x64, (broadcastInDim S1x4096x64 ![1, 2] bcast_S4096x64_S1x4096x64_1_2 x2)⟩, ⟨S1x4096x64, (broadcastInDim S1x4096x64 ![1, 2] bcast_S4096x64_S1x4096x64_1_2 x3)⟩] concatenates_S1x4096x64_S1x4096x64_S1x4096x64_S1x4096x64_S4x4096x64_d0)⟩, ⟨S4x4096x64, (concatenate S4x4096x64 0 [⟨S1x4096x64, (broadcastInDim S1x4096x64 ![1, 2] bcast_S4096x64_S1x4096x64_1_2 x4)⟩, ⟨S1x4096x64, (broadcastInDim S1x4096x64 ![1, 2] bcast_S4096x64_S1x4096x64_1_2 x5)⟩, ⟨S1x4096x64, (broadcastInDim S1x4096x64 ![1, 2] bcast_S4096x64_S1x4096x64_1_2 x6)⟩, ⟨S1x4096x64, (broadcastInDim S1x4096x64 ![1, 2] bcast_S4096x64_S1x4096x64_1_2 x7)⟩] concatenates_S1x4096x64_S1x4096x64_S1x4096x64_S1x4096x64_S4x4096x64_d0)⟩, ⟨S3x4096x64, (concatenate S3x4096x64 0 [⟨S1x4096x64, (broadcastInDim S1x4096x64 ![1, 2] bcast_S4096x64_S1x4096x64_1_2 x8)⟩, ⟨S1x4096x64, (broadcastInDim S1x4096x64 ![1, 2] bcast_S4096x64_S1x4096x64_1_2 x9)⟩, ⟨S1x4096x64, (broadcastInDim S1x4096x64 ![1, 2] bcast_S4096x64_S1x4096x64_1_2 x10)⟩] concatenates_S1x4096x64_S1x4096x64_S1x4096x64_S3x4096x64_d0)⟩, ⟨S3x4096x64, (concatenate S3x4096x64 0 [⟨S1x4096x64, (broadcastInDim S1x4096x64 ![1, 2] bcast_S4096x64_S1x4096x64_1_2 x11)⟩, ⟨S1x4096x64, (broadcastInDim S1x4096x64 ![1, 2] bcast_S4096x64_S1x4096x64_1_2 x12)⟩, ⟨S1x4096x64, (broadcastInDim S1x4096x64 ![1, 2] bcast_S4096x64_S1x4096x64_1_2 x13)⟩] concatenates_S1x4096x64_S1x4096x64_S1x4096x64_S3x4096x64_d0)⟩] concatenates_S4x4096x64_S4x4096x64_S3x4096x64_S3x4096x64_S14x4096x64_d0

/-- A concatenation of three operands writes its function of the three operands' contents, each at its own reference. -/
theorem nary3_result {Val : EltTy → Type} {x a b y : Ref sig .tc}
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The contents after a literal line of operations, operation by operation. -/
macro "host_results" : tactic =>
  `(tactic| (simp only [after_cons, after_nil]
             repeat (first
               | rw [nullary_result] | rw [unary_result] | rw [binary_result]
               | rw [nary4_result] | rw [nary3_result]
               | (rw [nullary_result_ne]; rotate_left; decide)
               | (rw [unary_result_ne]; rotate_left; decide)
               | (rw [binary_result_ne]; rotate_left; decide)
               | (rw [nary_result_ne]; rotate_left; decide))))

variable (m : (ℓ : Loc nD τ sig) → Buf (Elt F) ℓ) (outs : Outs (F := F))

/-! ### Matrix 0 -/

theorem V2_at_main_v2_0 (c : Dev nD) : V2 m outs c main_v2_0 = outs 2 main_v2_0 c := by
  show Function.update (Function.update _ _ _) _ _ _ = _
  rw [Function.update_of_ne (StableHlo.devRef_ne_of_ne (by decide)), Function.update_self]
theorem V2_at_main_v2_1 (c : Dev nD) : V2 m outs c main_v2_1 = outs 2 main_v2_1 c := by
  show Function.update _ _ _ _ = _
  rw [Function.update_self]

theorem V4_at_main_v5_0 (c : Dev nD) : V4 m outs c main_v5_0 = outs 4 main_v5_0 c := by
  show Function.update (Function.update _ _ _) _ _ _ = _
  rw [Function.update_of_ne (StableHlo.devRef_ne_of_ne (by decide)), Function.update_self]
theorem V4_at_main_v5_1 (c : Dev nD) : V4 m outs c main_v5_1 = outs 4 main_v5_1 c := by
  show Function.update _ _ _ _ = _
  rw [Function.update_self]

theorem zero_0_u (c : Dev nD) : V1 m c main_v0 = (broadcastInDim S4096x64 ![] bcast_S_S4096x64 (constant S_ .f32 0x00000000#32)) := by
  show StableHlo.after hostOps0 _ (Proc.devRef .tc main_v0) = _
  host_results
theorem first_0_u (c : Dev nD) : V3 m outs c main_v3 = addf (broadcastInDim S4096x64 ![] bcast_S_S4096x64 (constant S_ .f32 0x00000000#32)) (outs 2 main_v2_0 c) := by
  show StableHlo.after hostOps1 _ (Proc.devRef .tc main_v3) = _
  host_results
  rw [V2_at_main_v2_0, V2_of m outs c main_v0 (by decide), zero_0_u]
theorem mean_0_u (c : Dev nD) : V5 m outs c main_v9 = kmean2 (outs 2 main_v2_0 c) (outs 4 main_v5_0 c) := by
  show StableHlo.after hostOps2 _ (Proc.devRef .tc main_v9) = _
  host_results
  rw [V4_at_main_v5_0, V4_of m outs c main_v3 (by decide), first_0_u]
  rfl

theorem zero_0_i (c : Dev nD) : V1 m c main_v1 = (broadcastInDim S4096x64 ![] bcast_S_S4096x64 (constant S_ .f32 0x00000000#32)) := by
  show StableHlo.after hostOps0 _ (Proc.devRef .tc main_v1) = _
  host_results
theorem first_0_i (c : Dev nD) : V3 m outs c main_v4 = addf (broadcastInDim S4096x64 ![] bcast_S_S4096x64 (constant S_ .f32 0x00000000#32)) (outs 2 main_v2_1 c) := by
  show StableHlo.after hostOps1 _ (Proc.devRef .tc main_v4) = _
  host_results
  rw [V2_at_main_v2_1, V2_of m outs c main_v1 (by decide), zero_0_i]
theorem mean_0_i (c : Dev nD) : V5 m outs c main_v11 = kmean2 (outs 2 main_v2_1 c) (outs 4 main_v5_1 c) := by
  show StableHlo.after hostOps2 _ (Proc.devRef .tc main_v11) = _
  host_results
  rw [V4_at_main_v5_1, V4_of m outs c main_v4 (by decide), first_0_i]
  rfl

/-! ### Matrix 1 -/

theorem V6_at_main_v14_0 (c : Dev nD) : V6 m outs c main_v14_0 = outs 6 main_v14_0 c := by
  show Function.update (Function.update _ _ _) _ _ _ = _
  rw [Function.update_of_ne (StableHlo.devRef_ne_of_ne (by decide)), Function.update_self]
theorem V6_at_main_v14_1 (c : Dev nD) : V6 m outs c main_v14_1 = outs 6 main_v14_1 c := by
  show Function.update _ _ _ _ = _
  rw [Function.update_self]

theorem V8_at_main_v17_0 (c : Dev nD) : V8 m outs c main_v17_0 = outs 8 main_v17_0 c := by
  show Function.update (Function.update _ _ _) _ _ _ = _
  rw [Function.update_of_ne (StableHlo.devRef_ne_of_ne (by decide)), Function.update_self]
theorem V8_at_main_v17_1 (c : Dev nD) : V8 m outs c main_v17_1 = outs 8 main_v17_1 c := by
  show Function.update _ _ _ _ = _
  rw [Function.update_self]

theorem zero_1_u (c : Dev nD) : V5 m outs c main_v12 = (broadcastInDim S4096x64 ![] bcast_S_S4096x64 (constant S_ .f32 0x00000000#32)) := by
  show StableHlo.after hostOps2 _ (Proc.devRef .tc main_v12) = _
  host_results
theorem first_1_u (c : Dev nD) : V7 m outs c main_v15 = addf (broadcastInDim S4096x64 ![] bcast_S_S4096x64 (constant S_ .f32 0x00000000#32)) (outs 6 main_v14_0 c) := by
  show StableHlo.after hostOps3 _ (Proc.devRef .tc main_v15) = _
  host_results
  rw [V6_at_main_v14_0, V6_of m outs c main_v12 (by decide), zero_1_u]
theorem mean_1_u (c : Dev nD) : V9 m outs c main_v21 = kmean2 (outs 6 main_v14_0 c) (outs 8 main_v17_0 c) := by
  show StableHlo.after hostOps4 _ (Proc.devRef .tc main_v21) = _
  host_results
  rw [V8_at_main_v17_0, V8_of m outs c main_v15 (by decide), first_1_u]
  rfl

theorem zero_1_i (c : Dev nD) : V5 m outs c main_v13 = (broadcastInDim S4096x64 ![] bcast_S_S4096x64 (constant S_ .f32 0x00000000#32)) := by
  show StableHlo.after hostOps2 _ (Proc.devRef .tc main_v13) = _
  host_results
theorem first_1_i (c : Dev nD) : V7 m outs c main_v16 = addf (broadcastInDim S4096x64 ![] bcast_S_S4096x64 (constant S_ .f32 0x00000000#32)) (outs 6 main_v14_1 c) := by
  show StableHlo.after hostOps3 _ (Proc.devRef .tc main_v16) = _
  host_results
  rw [V6_at_main_v14_1, V6_of m outs c main_v13 (by decide), zero_1_i]
theorem mean_1_i (c : Dev nD) : V9 m outs c main_v23 = kmean2 (outs 6 main_v14_1 c) (outs 8 main_v17_1 c) := by
  show StableHlo.after hostOps4 _ (Proc.devRef .tc main_v23) = _
  host_results
  rw [V8_at_main_v17_1, V8_of m outs c main_v16 (by decide), first_1_i]
  rfl

/-! ### Matrix 2 -/

theorem V10_at_main_v26_0 (c : Dev nD) : V10 m outs c main_v26_0 = outs 10 main_v26_0 c := by
  show Function.update (Function.update _ _ _) _ _ _ = _
  rw [Function.update_of_ne (StableHlo.devRef_ne_of_ne (by decide)), Function.update_self]
theorem V10_at_main_v26_1 (c : Dev nD) : V10 m outs c main_v26_1 = outs 10 main_v26_1 c := by
  show Function.update _ _ _ _ = _
  rw [Function.update_self]

theorem V12_at_main_v29_0 (c : Dev nD) : V12 m outs c main_v29_0 = outs 12 main_v29_0 c := by
  show Function.update (Function.update _ _ _) _ _ _ = _
  rw [Function.update_of_ne (StableHlo.devRef_ne_of_ne (by decide)), Function.update_self]
theorem V12_at_main_v29_1 (c : Dev nD) : V12 m outs c main_v29_1 = outs 12 main_v29_1 c := by
  show Function.update _ _ _ _ = _
  rw [Function.update_self]

theorem zero_2_u (c : Dev nD) : V9 m outs c main_v24 = (broadcastInDim S4096x64 ![] bcast_S_S4096x64 (constant S_ .f32 0x00000000#32)) := by
  show StableHlo.after hostOps4 _ (Proc.devRef .tc main_v24) = _
  host_results
theorem first_2_u (c : Dev nD) : V11 m outs c main_v27 = addf (broadcastInDim S4096x64 ![] bcast_S_S4096x64 (constant S_ .f32 0x00000000#32)) (outs 10 main_v26_0 c) := by
  show StableHlo.after hostOps5 _ (Proc.devRef .tc main_v27) = _
  host_results
  rw [V10_at_main_v26_0, V10_of m outs c main_v24 (by decide), zero_2_u]
theorem mean_2_u (c : Dev nD) : V13 m outs c main_v33 = kmean2 (outs 10 main_v26_0 c) (outs 12 main_v29_0 c) := by
  show StableHlo.after hostOps6 _ (Proc.devRef .tc main_v33) = _
  host_results
  rw [V12_at_main_v29_0, V12_of m outs c main_v27 (by decide), first_2_u]
  rfl

theorem zero_2_i (c : Dev nD) : V9 m outs c main_v25 = (broadcastInDim S4096x64 ![] bcast_S_S4096x64 (constant S_ .f32 0x00000000#32)) := by
  show StableHlo.after hostOps4 _ (Proc.devRef .tc main_v25) = _
  host_results
theorem first_2_i (c : Dev nD) : V11 m outs c main_v28 = addf (broadcastInDim S4096x64 ![] bcast_S_S4096x64 (constant S_ .f32 0x00000000#32)) (outs 10 main_v26_1 c) := by
  show StableHlo.after hostOps5 _ (Proc.devRef .tc main_v28) = _
  host_results
  rw [V10_at_main_v26_1, V10_of m outs c main_v25 (by decide), zero_2_i]
theorem mean_2_i (c : Dev nD) : V13 m outs c main_v35 = kmean2 (outs 10 main_v26_1 c) (outs 12 main_v29_1 c) := by
  show StableHlo.after hostOps6 _ (Proc.devRef .tc main_v35) = _
  host_results
  rw [V12_at_main_v29_1, V12_of m outs c main_v28 (by decide), first_2_i]
  rfl

/-! ### Matrix 3 -/

theorem V14_at_main_v38_0 (c : Dev nD) : V14 m outs c main_v38_0 = outs 14 main_v38_0 c := by
  show Function.update (Function.update _ _ _) _ _ _ = _
  rw [Function.update_of_ne (StableHlo.devRef_ne_of_ne (by decide)), Function.update_self]
theorem V14_at_main_v38_1 (c : Dev nD) : V14 m outs c main_v38_1 = outs 14 main_v38_1 c := by
  show Function.update _ _ _ _ = _
  rw [Function.update_self]

theorem V16_at_main_v41_0 (c : Dev nD) : V16 m outs c main_v41_0 = outs 16 main_v41_0 c := by
  show Function.update (Function.update _ _ _) _ _ _ = _
  rw [Function.update_of_ne (StableHlo.devRef_ne_of_ne (by decide)), Function.update_self]
theorem V16_at_main_v41_1 (c : Dev nD) : V16 m outs c main_v41_1 = outs 16 main_v41_1 c := by
  show Function.update _ _ _ _ = _
  rw [Function.update_self]

theorem zero_3_u (c : Dev nD) : V13 m outs c main_v36 = (broadcastInDim S4096x64 ![] bcast_S_S4096x64 (constant S_ .f32 0x00000000#32)) := by
  show StableHlo.after hostOps6 _ (Proc.devRef .tc main_v36) = _
  host_results
theorem first_3_u (c : Dev nD) : V15 m outs c main_v39 = addf (broadcastInDim S4096x64 ![] bcast_S_S4096x64 (constant S_ .f32 0x00000000#32)) (outs 14 main_v38_0 c) := by
  show StableHlo.after hostOps7 _ (Proc.devRef .tc main_v39) = _
  host_results
  rw [V14_at_main_v38_0, V14_of m outs c main_v36 (by decide), zero_3_u]
theorem mean_3_u (c : Dev nD) : V17 m outs c main_v45 = kmean2 (outs 14 main_v38_0 c) (outs 16 main_v41_0 c) := by
  show StableHlo.after hostOps8 _ (Proc.devRef .tc main_v45) = _
  host_results
  rw [V16_at_main_v41_0, V16_of m outs c main_v39 (by decide), first_3_u]
  rfl

theorem zero_3_i (c : Dev nD) : V13 m outs c main_v37 = (broadcastInDim S4096x64 ![] bcast_S_S4096x64 (constant S_ .f32 0x00000000#32)) := by
  show StableHlo.after hostOps6 _ (Proc.devRef .tc main_v37) = _
  host_results
theorem first_3_i (c : Dev nD) : V15 m outs c main_v40 = addf (broadcastInDim S4096x64 ![] bcast_S_S4096x64 (constant S_ .f32 0x00000000#32)) (outs 14 main_v38_1 c) := by
  show StableHlo.after hostOps7 _ (Proc.devRef .tc main_v40) = _
  host_results
  rw [V14_at_main_v38_1, V14_of m outs c main_v37 (by decide), zero_3_i]
theorem mean_3_i (c : Dev nD) : V17 m outs c main_v47 = kmean2 (outs 14 main_v38_1 c) (outs 16 main_v41_1 c) := by
  show StableHlo.after hostOps8 _ (Proc.devRef .tc main_v47) = _
  host_results
  rw [V16_at_main_v41_1, V16_of m outs c main_v40 (by decide), first_3_i]
  rfl

/-! ### Matrix 4 -/

theorem V18_at_main_v50_0 (c : Dev nD) : V18 m outs c main_v50_0 = outs 18 main_v50_0 c := by
  show Function.update (Function.update _ _ _) _ _ _ = _
  rw [Function.update_of_ne (StableHlo.devRef_ne_of_ne (by decide)), Function.update_self]
theorem V18_at_main_v50_1 (c : Dev nD) : V18 m outs c main_v50_1 = outs 18 main_v50_1 c := by
  show Function.update _ _ _ _ = _
  rw [Function.update_self]

theorem V20_at_main_v53_0 (c : Dev nD) : V20 m outs c main_v53_0 = outs 20 main_v53_0 c := by
  show Function.update (Function.update _ _ _) _ _ _ = _
  rw [Function.update_of_ne (StableHlo.devRef_ne_of_ne (by decide)), Function.update_self]
theorem V20_at_main_v53_1 (c : Dev nD) : V20 m outs c main_v53_1 = outs 20 main_v53_1 c := by
  show Function.update _ _ _ _ = _
  rw [Function.update_self]

theorem zero_4_u (c : Dev nD) : V17 m outs c main_v48 = (broadcastInDim S4096x64 ![] bcast_S_S4096x64 (constant S_ .f32 0x00000000#32)) := by
  show StableHlo.after hostOps8 _ (Proc.devRef .tc main_v48) = _
  host_results
theorem first_4_u (c : Dev nD) : V19 m outs c main_v51 = addf (broadcastInDim S4096x64 ![] bcast_S_S4096x64 (constant S_ .f32 0x00000000#32)) (outs 18 main_v50_0 c) := by
  show StableHlo.after hostOps9 _ (Proc.devRef .tc main_v51) = _
  host_results
  rw [V18_at_main_v50_0, V18_of m outs c main_v48 (by decide), zero_4_u]
theorem mean_4_u (c : Dev nD) : V21 m outs c main_v57 = kmean2 (outs 18 main_v50_0 c) (outs 20 main_v53_0 c) := by
  show StableHlo.after hostOps10 _ (Proc.devRef .tc main_v57) = _
  host_results
  rw [V20_at_main_v53_0, V20_of m outs c main_v51 (by decide), first_4_u]
  rfl

theorem zero_4_i (c : Dev nD) : V17 m outs c main_v49 = (broadcastInDim S4096x64 ![] bcast_S_S4096x64 (constant S_ .f32 0x00000000#32)) := by
  show StableHlo.after hostOps8 _ (Proc.devRef .tc main_v49) = _
  host_results
theorem first_4_i (c : Dev nD) : V19 m outs c main_v52 = addf (broadcastInDim S4096x64 ![] bcast_S_S4096x64 (constant S_ .f32 0x00000000#32)) (outs 18 main_v50_1 c) := by
  show StableHlo.after hostOps9 _ (Proc.devRef .tc main_v52) = _
  host_results
  rw [V18_at_main_v50_1, V18_of m outs c main_v49 (by decide), zero_4_i]
theorem mean_4_i (c : Dev nD) : V21 m outs c main_v59 = kmean2 (outs 18 main_v50_1 c) (outs 20 main_v53_1 c) := by
  show StableHlo.after hostOps10 _ (Proc.devRef .tc main_v59) = _
  host_results
  rw [V20_at_main_v53_1, V20_of m outs c main_v52 (by decide), first_4_i]
  rfl

/-! ### Matrix 5 -/

theorem V22_at_main_v63_0 (c : Dev nD) : V22 m outs c main_v63_0 = outs 22 main_v63_0 c := by
  show Function.update (Function.update _ _ _) _ _ _ = _
  rw [Function.update_of_ne (StableHlo.devRef_ne_of_ne (by decide)), Function.update_self]
theorem V22_at_main_v63_1 (c : Dev nD) : V22 m outs c main_v63_1 = outs 22 main_v63_1 c := by
  show Function.update _ _ _ _ = _
  rw [Function.update_self]

theorem V24_at_main_v66_0 (c : Dev nD) : V24 m outs c main_v66_0 = outs 24 main_v66_0 c := by
  show Function.update (Function.update _ _ _) _ _ _ = _
  rw [Function.update_of_ne (StableHlo.devRef_ne_of_ne (by decide)), Function.update_self]
theorem V24_at_main_v66_1 (c : Dev nD) : V24 m outs c main_v66_1 = outs 24 main_v66_1 c := by
  show Function.update _ _ _ _ = _
  rw [Function.update_self]

theorem zero_5_u (c : Dev nD) : V21 m outs c main_v61 = (broadcastInDim S4096x64 ![] bcast_S_S4096x64 (constant S_ .f32 0x00000000#32)) := by
  show StableHlo.after hostOps10 _ (Proc.devRef .tc main_v61) = _
  host_results
theorem first_5_u (c : Dev nD) : V23 m outs c main_v64 = addf (broadcastInDim S4096x64 ![] bcast_S_S4096x64 (constant S_ .f32 0x00000000#32)) (outs 22 main_v63_0 c) := by
  show StableHlo.after hostOps11 _ (Proc.devRef .tc main_v64) = _
  host_results
  rw [V22_at_main_v63_0, V22_of m outs c main_v61 (by decide), zero_5_u]
theorem mean_5_u (c : Dev nD) : V25 m outs c main_v70 = kmean2 (outs 22 main_v63_0 c) (outs 24 main_v66_0 c) := by
  show StableHlo.after hostOps12 _ (Proc.devRef .tc main_v70) = _
  host_results
  rw [V24_at_main_v66_0, V24_of m outs c main_v64 (by decide), first_5_u]
  rfl

theorem zero_5_i (c : Dev nD) : V21 m outs c main_v62 = (broadcastInDim S4096x64 ![] bcast_S_S4096x64 (constant S_ .f32 0x00000000#32)) := by
  show StableHlo.after hostOps10 _ (Proc.devRef .tc main_v62) = _
  host_results
theorem first_5_i (c : Dev nD) : V23 m outs c main_v65 = addf (broadcastInDim S4096x64 ![] bcast_S_S4096x64 (constant S_ .f32 0x00000000#32)) (outs 22 main_v63_1 c) := by
  show StableHlo.after hostOps11 _ (Proc.devRef .tc main_v65) = _
  host_results
  rw [V22_at_main_v63_1, V22_of m outs c main_v62 (by decide), zero_5_i]
theorem mean_5_i (c : Dev nD) : V25 m outs c main_v72 = kmean2 (outs 22 main_v63_1 c) (outs 24 main_v66_1 c) := by
  show StableHlo.after hostOps12 _ (Proc.devRef .tc main_v72) = _
  host_results
  rw [V24_at_main_v66_1, V24_of m outs c main_v65 (by decide), first_5_i]
  rfl

/-! ### Matrix 6 -/

theorem V26_at_main_v76_0 (c : Dev nD) : V26 m outs c main_v76_0 = outs 26 main_v76_0 c := by
  show Function.update (Function.update _ _ _) _ _ _ = _
  rw [Function.update_of_ne (StableHlo.devRef_ne_of_ne (by decide)), Function.update_self]
theorem V26_at_main_v76_1 (c : Dev nD) : V26 m outs c main_v76_1 = outs 26 main_v76_1 c := by
  show Function.update _ _ _ _ = _
  rw [Function.update_self]

theorem V28_at_main_v79_0 (c : Dev nD) : V28 m outs c main_v79_0 = outs 28 main_v79_0 c := by
  show Function.update (Function.update _ _ _) _ _ _ = _
  rw [Function.update_of_ne (StableHlo.devRef_ne_of_ne (by decide)), Function.update_self]
theorem V28_at_main_v79_1 (c : Dev nD) : V28 m outs c main_v79_1 = outs 28 main_v79_1 c := by
  show Function.update _ _ _ _ = _
  rw [Function.update_self]

theorem zero_6_u (c : Dev nD) : V25 m outs c main_v74 = (broadcastInDim S4096x64 ![] bcast_S_S4096x64 (constant S_ .f32 0x00000000#32)) := by
  show StableHlo.after hostOps12 _ (Proc.devRef .tc main_v74) = _
  host_results
theorem first_6_u (c : Dev nD) : V27 m outs c main_v77 = addf (broadcastInDim S4096x64 ![] bcast_S_S4096x64 (constant S_ .f32 0x00000000#32)) (outs 26 main_v76_0 c) := by
  show StableHlo.after hostOps13 _ (Proc.devRef .tc main_v77) = _
  host_results
  rw [V26_at_main_v76_0, V26_of m outs c main_v74 (by decide), zero_6_u]

theorem zero_6_i (c : Dev nD) : V25 m outs c main_v75 = (broadcastInDim S4096x64 ![] bcast_S_S4096x64 (constant S_ .f32 0x00000000#32)) := by
  show StableHlo.after hostOps12 _ (Proc.devRef .tc main_v75) = _
  host_results
theorem first_6_i (c : Dev nD) : V27 m outs c main_v78 = addf (broadcastInDim S4096x64 ![] bcast_S_S4096x64 (constant S_ .f32 0x00000000#32)) (outs 26 main_v76_1 c) := by
  show StableHlo.after hostOps13 _ (Proc.devRef .tc main_v78) = _
  host_results
  rw [V26_at_main_v76_1, V26_of m outs c main_v75 (by decide), zero_6_i]

/-! ### The addends, the means carried to the last stretch -/

theorem main_arg9_at20 (c : Dev nD) : V20 m outs c main_arg9 = m ((c : Thread nD τ).loc main_arg9) :=
  (V20_of m outs c main_arg9 (by decide)).trans <| (V19_of m outs c main_arg9 (by decide)).trans <| (V18_of m outs c main_arg9 (by decide)).trans <| (V17_of m outs c main_arg9 (by decide)).trans <| (V16_of m outs c main_arg9 (by decide)).trans <| (V15_of m outs c main_arg9 (by decide)).trans <| (V14_of m outs c main_arg9 (by decide)).trans <| (V13_of m outs c main_arg9 (by decide)).trans <| (V12_of m outs c main_arg9 (by decide)).trans <| (V11_of m outs c main_arg9 (by decide)).trans <| (V10_of m outs c main_arg9 (by decide)).trans <| (V9_of m outs c main_arg9 (by decide)).trans <| (V8_of m outs c main_arg9 (by decide)).trans <| (V7_of m outs c main_arg9 (by decide)).trans <| (V6_of m outs c main_arg9 (by decide)).trans <| (V5_of m outs c main_arg9 (by decide)).trans <| (V4_of m outs c main_arg9 (by decide)).trans <| (V3_of m outs c main_arg9 (by decide)).trans <| (V2_of m outs c main_arg9 (by decide)).trans <| (V1_of m c main_arg9 (by decide))
theorem plus_4 (c : Dev nD) : V21 m outs c main_v60 = addf (kmean2 (outs 18 main_v50_0 c) (outs 20 main_v53_0 c)) (m ((c : Thread nD τ).loc main_arg9)) := by
  show StableHlo.after hostOps10 _ (Proc.devRef .tc main_v60) = _
  host_results
  rw [V20_at_main_v53_0, V20_of m outs c main_v51 (by decide), first_4_u, main_arg9_at20]
  rfl

theorem main_arg10_at24 (c : Dev nD) : V24 m outs c main_arg10 = m ((c : Thread nD τ).loc main_arg10) :=
  (V24_of m outs c main_arg10 (by decide)).trans <| (V23_of m outs c main_arg10 (by decide)).trans <| (V22_of m outs c main_arg10 (by decide)).trans <| (V21_of m outs c main_arg10 (by decide)).trans <| (V20_of m outs c main_arg10 (by decide)).trans <| (V19_of m outs c main_arg10 (by decide)).trans <| (V18_of m outs c main_arg10 (by decide)).trans <| (V17_of m outs c main_arg10 (by decide)).trans <| (V16_of m outs c main_arg10 (by decide)).trans <| (V15_of m outs c main_arg10 (by decide)).trans <| (V14_of m outs c main_arg10 (by decide)).trans <| (V13_of m outs c main_arg10 (by decide)).trans <| (V12_of m outs c main_arg10 (by decide)).trans <| (V11_of m outs c main_arg10 (by decide)).trans <| (V10_of m outs c main_arg10 (by decide)).trans <| (V9_of m outs c main_arg10 (by decide)).trans <| (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide))
theorem plus_5 (c : Dev nD) : V25 m outs c main_v73 = addf (kmean2 (outs 22 main_v63_0 c) (outs 24 main_v66_0 c)) (m ((c : Thread nD τ).loc main_arg10)) := by
  show StableHlo.after hostOps12 _ (Proc.devRef .tc main_v73) = _
  host_results
  rw [V24_at_main_v66_0, V24_of m outs c main_v64 (by decide), first_5_u, main_arg10_at24]
  rfl
theorem at28_mean_0_u (c : Dev nD) : V28 m outs c main_v9 = kmean2 (outs 2 main_v2_0 c) (outs 4 main_v5_0 c) :=
  ((V28_of m outs c main_v9 (by decide)).trans <| (V27_of m outs c main_v9 (by decide)).trans <| (V26_of m outs c main_v9 (by decide)).trans <| (V25_of m outs c main_v9 (by decide)).trans <| (V24_of m outs c main_v9 (by decide)).trans <| (V23_of m outs c main_v9 (by decide)).trans <| (V22_of m outs c main_v9 (by decide)).trans <| (V21_of m outs c main_v9 (by decide)).trans <| (V20_of m outs c main_v9 (by decide)).trans <| (V19_of m outs c main_v9 (by decide)).trans <| (V18_of m outs c main_v9 (by decide)).trans <| (V17_of m outs c main_v9 (by decide)).trans <| (V16_of m outs c main_v9 (by decide)).trans <| (V15_of m outs c main_v9 (by decide)).trans <| (V14_of m outs c main_v9 (by decide)).trans <| (V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide))).trans (mean_0_u m outs c)
theorem at28_mean_0_i (c : Dev nD) : V28 m outs c main_v11 = kmean2 (outs 2 main_v2_1 c) (outs 4 main_v5_1 c) :=
  ((V28_of m outs c main_v11 (by decide)).trans <| (V27_of m outs c main_v11 (by decide)).trans <| (V26_of m outs c main_v11 (by decide)).trans <| (V25_of m outs c main_v11 (by decide)).trans <| (V24_of m outs c main_v11 (by decide)).trans <| (V23_of m outs c main_v11 (by decide)).trans <| (V22_of m outs c main_v11 (by decide)).trans <| (V21_of m outs c main_v11 (by decide)).trans <| (V20_of m outs c main_v11 (by decide)).trans <| (V19_of m outs c main_v11 (by decide)).trans <| (V18_of m outs c main_v11 (by decide)).trans <| (V17_of m outs c main_v11 (by decide)).trans <| (V16_of m outs c main_v11 (by decide)).trans <| (V15_of m outs c main_v11 (by decide)).trans <| (V14_of m outs c main_v11 (by decide)).trans <| (V13_of m outs c main_v11 (by decide)).trans <| (V12_of m outs c main_v11 (by decide)).trans <| (V11_of m outs c main_v11 (by decide)).trans <| (V10_of m outs c main_v11 (by decide)).trans <| (V9_of m outs c main_v11 (by decide)).trans <| (V8_of m outs c main_v11 (by decide)).trans <| (V7_of m outs c main_v11 (by decide)).trans <| (V6_of m outs c main_v11 (by decide))).trans (mean_0_i m outs c)
theorem at28_mean_1_u (c : Dev nD) : V28 m outs c main_v21 = kmean2 (outs 6 main_v14_0 c) (outs 8 main_v17_0 c) :=
  ((V28_of m outs c main_v21 (by decide)).trans <| (V27_of m outs c main_v21 (by decide)).trans <| (V26_of m outs c main_v21 (by decide)).trans <| (V25_of m outs c main_v21 (by decide)).trans <| (V24_of m outs c main_v21 (by decide)).trans <| (V23_of m outs c main_v21 (by decide)).trans <| (V22_of m outs c main_v21 (by decide)).trans <| (V21_of m outs c main_v21 (by decide)).trans <| (V20_of m outs c main_v21 (by decide)).trans <| (V19_of m outs c main_v21 (by decide)).trans <| (V18_of m outs c main_v21 (by decide)).trans <| (V17_of m outs c main_v21 (by decide)).trans <| (V16_of m outs c main_v21 (by decide)).trans <| (V15_of m outs c main_v21 (by decide)).trans <| (V14_of m outs c main_v21 (by decide)).trans <| (V13_of m outs c main_v21 (by decide)).trans <| (V12_of m outs c main_v21 (by decide)).trans <| (V11_of m outs c main_v21 (by decide)).trans <| (V10_of m outs c main_v21 (by decide))).trans (mean_1_u m outs c)
theorem at28_mean_1_i (c : Dev nD) : V28 m outs c main_v23 = kmean2 (outs 6 main_v14_1 c) (outs 8 main_v17_1 c) :=
  ((V28_of m outs c main_v23 (by decide)).trans <| (V27_of m outs c main_v23 (by decide)).trans <| (V26_of m outs c main_v23 (by decide)).trans <| (V25_of m outs c main_v23 (by decide)).trans <| (V24_of m outs c main_v23 (by decide)).trans <| (V23_of m outs c main_v23 (by decide)).trans <| (V22_of m outs c main_v23 (by decide)).trans <| (V21_of m outs c main_v23 (by decide)).trans <| (V20_of m outs c main_v23 (by decide)).trans <| (V19_of m outs c main_v23 (by decide)).trans <| (V18_of m outs c main_v23 (by decide)).trans <| (V17_of m outs c main_v23 (by decide)).trans <| (V16_of m outs c main_v23 (by decide)).trans <| (V15_of m outs c main_v23 (by decide)).trans <| (V14_of m outs c main_v23 (by decide)).trans <| (V13_of m outs c main_v23 (by decide)).trans <| (V12_of m outs c main_v23 (by decide)).trans <| (V11_of m outs c main_v23 (by decide)).trans <| (V10_of m outs c main_v23 (by decide))).trans (mean_1_i m outs c)
theorem at28_mean_2_u (c : Dev nD) : V28 m outs c main_v33 = kmean2 (outs 10 main_v26_0 c) (outs 12 main_v29_0 c) :=
  ((V28_of m outs c main_v33 (by decide)).trans <| (V27_of m outs c main_v33 (by decide)).trans <| (V26_of m outs c main_v33 (by decide)).trans <| (V25_of m outs c main_v33 (by decide)).trans <| (V24_of m outs c main_v33 (by decide)).trans <| (V23_of m outs c main_v33 (by decide)).trans <| (V22_of m outs c main_v33 (by decide)).trans <| (V21_of m outs c main_v33 (by decide)).trans <| (V20_of m outs c main_v33 (by decide)).trans <| (V19_of m outs c main_v33 (by decide)).trans <| (V18_of m outs c main_v33 (by decide)).trans <| (V17_of m outs c main_v33 (by decide)).trans <| (V16_of m outs c main_v33 (by decide)).trans <| (V15_of m outs c main_v33 (by decide)).trans <| (V14_of m outs c main_v33 (by decide))).trans (mean_2_u m outs c)
theorem at28_mean_2_i (c : Dev nD) : V28 m outs c main_v35 = kmean2 (outs 10 main_v26_1 c) (outs 12 main_v29_1 c) :=
  ((V28_of m outs c main_v35 (by decide)).trans <| (V27_of m outs c main_v35 (by decide)).trans <| (V26_of m outs c main_v35 (by decide)).trans <| (V25_of m outs c main_v35 (by decide)).trans <| (V24_of m outs c main_v35 (by decide)).trans <| (V23_of m outs c main_v35 (by decide)).trans <| (V22_of m outs c main_v35 (by decide)).trans <| (V21_of m outs c main_v35 (by decide)).trans <| (V20_of m outs c main_v35 (by decide)).trans <| (V19_of m outs c main_v35 (by decide)).trans <| (V18_of m outs c main_v35 (by decide)).trans <| (V17_of m outs c main_v35 (by decide)).trans <| (V16_of m outs c main_v35 (by decide)).trans <| (V15_of m outs c main_v35 (by decide)).trans <| (V14_of m outs c main_v35 (by decide))).trans (mean_2_i m outs c)
theorem at28_mean_3_u (c : Dev nD) : V28 m outs c main_v45 = kmean2 (outs 14 main_v38_0 c) (outs 16 main_v41_0 c) :=
  ((V28_of m outs c main_v45 (by decide)).trans <| (V27_of m outs c main_v45 (by decide)).trans <| (V26_of m outs c main_v45 (by decide)).trans <| (V25_of m outs c main_v45 (by decide)).trans <| (V24_of m outs c main_v45 (by decide)).trans <| (V23_of m outs c main_v45 (by decide)).trans <| (V22_of m outs c main_v45 (by decide)).trans <| (V21_of m outs c main_v45 (by decide)).trans <| (V20_of m outs c main_v45 (by decide)).trans <| (V19_of m outs c main_v45 (by decide)).trans <| (V18_of m outs c main_v45 (by decide))).trans (mean_3_u m outs c)
theorem at28_mean_3_i (c : Dev nD) : V28 m outs c main_v47 = kmean2 (outs 14 main_v38_1 c) (outs 16 main_v41_1 c) :=
  ((V28_of m outs c main_v47 (by decide)).trans <| (V27_of m outs c main_v47 (by decide)).trans <| (V26_of m outs c main_v47 (by decide)).trans <| (V25_of m outs c main_v47 (by decide)).trans <| (V24_of m outs c main_v47 (by decide)).trans <| (V23_of m outs c main_v47 (by decide)).trans <| (V22_of m outs c main_v47 (by decide)).trans <| (V21_of m outs c main_v47 (by decide)).trans <| (V20_of m outs c main_v47 (by decide)).trans <| (V19_of m outs c main_v47 (by decide)).trans <| (V18_of m outs c main_v47 (by decide))).trans (mean_3_i m outs c)
theorem at28_mean_4_u (c : Dev nD) : V28 m outs c main_v57 = kmean2 (outs 18 main_v50_0 c) (outs 20 main_v53_0 c) :=
  ((V28_of m outs c main_v57 (by decide)).trans <| (V27_of m outs c main_v57 (by decide)).trans <| (V26_of m outs c main_v57 (by decide)).trans <| (V25_of m outs c main_v57 (by decide)).trans <| (V24_of m outs c main_v57 (by decide)).trans <| (V23_of m outs c main_v57 (by decide)).trans <| (V22_of m outs c main_v57 (by decide))).trans (mean_4_u m outs c)
theorem at28_mean_4_i (c : Dev nD) : V28 m outs c main_v59 = kmean2 (outs 18 main_v50_1 c) (outs 20 main_v53_1 c) :=
  ((V28_of m outs c main_v59 (by decide)).trans <| (V27_of m outs c main_v59 (by decide)).trans <| (V26_of m outs c main_v59 (by decide)).trans <| (V25_of m outs c main_v59 (by decide)).trans <| (V24_of m outs c main_v59 (by decide)).trans <| (V23_of m outs c main_v59 (by decide)).trans <| (V22_of m outs c main_v59 (by decide))).trans (mean_4_i m outs c)
theorem at28_plus_4 (c : Dev nD) : V28 m outs c main_v60 = addf (kmean2 (outs 18 main_v50_0 c) (outs 20 main_v53_0 c)) (m ((c : Thread nD τ).loc main_arg9)) :=
  ((V28_of m outs c main_v60 (by decide)).trans <| (V27_of m outs c main_v60 (by decide)).trans <| (V26_of m outs c main_v60 (by decide)).trans <| (V25_of m outs c main_v60 (by decide)).trans <| (V24_of m outs c main_v60 (by decide)).trans <| (V23_of m outs c main_v60 (by decide)).trans <| (V22_of m outs c main_v60 (by decide))).trans (plus_4 m outs c)
theorem at28_mean_5_u (c : Dev nD) : V28 m outs c main_v70 = kmean2 (outs 22 main_v63_0 c) (outs 24 main_v66_0 c) :=
  ((V28_of m outs c main_v70 (by decide)).trans <| (V27_of m outs c main_v70 (by decide)).trans <| (V26_of m outs c main_v70 (by decide))).trans (mean_5_u m outs c)
theorem at28_mean_5_i (c : Dev nD) : V28 m outs c main_v72 = kmean2 (outs 22 main_v63_1 c) (outs 24 main_v66_1 c) :=
  ((V28_of m outs c main_v72 (by decide)).trans <| (V27_of m outs c main_v72 (by decide)).trans <| (V26_of m outs c main_v72 (by decide))).trans (mean_5_i m outs c)
theorem at28_plus_5 (c : Dev nD) : V28 m outs c main_v73 = addf (kmean2 (outs 22 main_v63_0 c) (outs 24 main_v66_0 c)) (m ((c : Thread nD τ).loc main_arg10)) :=
  ((V28_of m outs c main_v73 (by decide)).trans <| (V27_of m outs c main_v73 (by decide)).trans <| (V26_of m outs c main_v73 (by decide))).trans (plus_5 m outs c)
theorem at28_first_6_u (c : Dev nD) : V28 m outs c main_v77 = addf (broadcastInDim S4096x64 ![] bcast_S_S4096x64 (constant S_ .f32 0x00000000#32)) (outs 26 main_v76_0 c) :=
  ((V28_of m outs c main_v77 (by decide))).trans (first_6_u m outs c)
theorem at28_first_6_i (c : Dev nD) : V28 m outs c main_v78 = addf (broadcastInDim S4096x64 ![] bcast_S_S4096x64 (constant S_ .f32 0x00000000#32)) (outs 26 main_v76_1 c) :=
  ((V28_of m outs c main_v78 (by decide))).trans (first_6_i m outs c)
theorem main_arg11_at28 (c : Dev nD) : V28 m outs c main_arg11 = m ((c : Thread nD τ).loc main_arg11) :=
  (V28_of m outs c main_arg11 (by decide)).trans <| (V27_of m outs c main_arg11 (by decide)).trans <| (V26_of m outs c main_arg11 (by decide)).trans <| (V25_of m outs c main_arg11 (by decide)).trans <| (V24_of m outs c main_arg11 (by decide)).trans <| (V23_of m outs c main_arg11 (by decide)).trans <| (V22_of m outs c main_arg11 (by decide)).trans <| (V21_of m outs c main_arg11 (by decide)).trans <| (V20_of m outs c main_arg11 (by decide)).trans <| (V19_of m outs c main_arg11 (by decide)).trans <| (V18_of m outs c main_arg11 (by decide)).trans <| (V17_of m outs c main_arg11 (by decide)).trans <| (V16_of m outs c main_arg11 (by decide)).trans <| (V15_of m outs c main_arg11 (by decide)).trans <| (V14_of m outs c main_arg11 (by decide)).trans <| (V13_of m outs c main_arg11 (by decide)).trans <| (V12_of m outs c main_arg11 (by decide)).trans <| (V11_of m outs c main_arg11 (by decide)).trans <| (V10_of m outs c main_arg11 (by decide)).trans <| (V9_of m outs c main_arg11 (by decide)).trans <| (V8_of m outs c main_arg11 (by decide)).trans <| (V7_of m outs c main_arg11 (by decide)).trans <| (V6_of m outs c main_arg11 (by decide)).trans <| (V5_of m outs c main_arg11 (by decide)).trans <| (V4_of m outs c main_arg11 (by decide)).trans <| (V3_of m outs c main_arg11 (by decide)).trans <| (V2_of m outs c main_arg11 (by decide)).trans <| (V1_of m c main_arg11 (by decide))

/-! ### The last stretch, in three parts -/

/-- A matrix as a one-plane stack. -/
def lift1 (x : FVec F S4096x64 .f32) : FVec F S1x4096x64 .f32 := broadcastInDim S1x4096x64 ![1, 2] bcast_S4096x64_S1x4096x64_1_2 x
/-- Four planes stacked. -/
def cat4 (a b c d : FVec F S1x4096x64 .f32) : FVec F S4x4096x64 .f32 :=
  concatenate S4x4096x64 0 [⟨S1x4096x64, a⟩, ⟨S1x4096x64, b⟩, ⟨S1x4096x64, c⟩, ⟨S1x4096x64, d⟩] concatenates_S1x4096x64_S1x4096x64_S1x4096x64_S1x4096x64_S4x4096x64_d0
/-- Three planes stacked. -/
def cat3 (a b c : FVec F S1x4096x64 .f32) : FVec F S3x4096x64 .f32 :=
  concatenate S3x4096x64 0 [⟨S1x4096x64, a⟩, ⟨S1x4096x64, b⟩, ⟨S1x4096x64, c⟩] concatenates_S1x4096x64_S1x4096x64_S1x4096x64_S3x4096x64_d0
/-- The four groups stacked. -/
def cat14 (a b : FVec F S4x4096x64 .f32) (c d : FVec F S3x4096x64 .f32) : FVec F S14x4096x64 .f32 :=
  concatenate S14x4096x64 0 [⟨S4x4096x64, a⟩, ⟨S4x4096x64, b⟩, ⟨S3x4096x64, c⟩, ⟨S3x4096x64, d⟩] concatenates_S4x4096x64_S4x4096x64_S3x4096x64_S3x4096x64_S14x4096x64_d0

theorem kstack14_eq (x0 x1 x2 x3 x4 x5 x6 x7 x8 x9 x10 x11 x12 x13 : FVec F S4096x64 .f32) : kstack14 x0 x1 x2 x3 x4 x5 x6 x7 x8 x9 x10 x11 x12 x13 =
    cat14 (cat4 (lift1 x0) (lift1 x1) (lift1 x2) (lift1 x3)) (cat4 (lift1 x4) (lift1 x5) (lift1 x6) (lift1 x7))
      (cat3 (lift1 x8) (lift1 x9) (lift1 x10)) (cat3 (lift1 x11) (lift1 x12) (lift1 x13)) := rfl

/-- The last stretch's first nine lines: the last matrix's means. -/
abbrev tailA : List (HloOp τ sig (Elt F)) :=
  [ StableHlo.binary main_v77 main_v79_0 main_v80 (addf : (⟨S4096x64, .f32⟩ : BufTy).Contents (Elt F) → (⟨S4096x64, .f32⟩ : BufTy).Contents (Elt F) → (⟨S4096x64, .f32⟩ : BufTy).Contents (Elt F)),
    StableHlo.binary main_v78 main_v79_1 main_v81 (addf : (⟨S4096x64, .f32⟩ : BufTy).Contents (Elt F) → (⟨S4096x64, .f32⟩ : BufTy).Contents (Elt F) → (⟨S4096x64, .f32⟩ : BufTy).Contents (Elt F)),
    StableHlo.nullary main_cst_25 (constant S_ .f32 0x40000000#32),
    StableHlo.unary main_cst_25 main_v82 (broadcastInDim S4096x64 ![] bcast_S_S4096x64 : (⟨S_, .f32⟩ : BufTy).Contents (Elt F) → (⟨S4096x64, .f32⟩ : BufTy).Contents (Elt F)),
    StableHlo.binary main_v80 main_v82 main_v83 (Host.divf : (⟨S4096x64, .f32⟩ : BufTy).Contents (Elt F) → (⟨S4096x64, .f32⟩ : BufTy).Contents (Elt F) → (⟨S4096x64, .f32⟩ : BufTy).Contents (Elt F)),
    StableHlo.nullary main_cst_26 (constant S_ .f32 0x40000000#32),
    StableHlo.unary main_cst_26 main_v84 (broadcastInDim S4096x64 ![] bcast_S_S4096x64 : (⟨S_, .f32⟩ : BufTy).Contents (Elt F) → (⟨S4096x64, .f32⟩ : BufTy).Contents (Elt F)),
    StableHlo.binary main_v81 main_v84 main_v85 (Host.divf : (⟨S4096x64, .f32⟩ : BufTy).Contents (Elt F) → (⟨S4096x64, .f32⟩ : BufTy).Contents (Elt F) → (⟨S4096x64, .f32⟩ : BufTy).Contents (Elt F)),
    StableHlo.binary main_v83 main_arg11 main_v86 (addf : (⟨S4096x64, .f32⟩ : BufTy).Contents (Elt F) → (⟨S4096x64, .f32⟩ : BufTy).Contents (Elt F) → (⟨S4096x64, .f32⟩ : BufTy).Contents (Elt F)) ]
/-- Its next eighteen lines: the fourteen one-plane stacks and the four groups. -/
abbrev tailB : List (HloOp τ sig (Elt F)) :=
  [ StableHlo.unary main_v9 main_v87 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v21 main_v88 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v33 main_v89 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v45 main_v90 (broadcastInDim S1x4096x64 ![1, 2] bcast_S4096x64_S1x4096x64_1_2 : (⟨S4096x64, .f32⟩ : BufTy).Contents (Elt F) → (⟨S1x4096x64, .f32⟩ : BufTy).Contents (Elt F)),
    StableHlo.nary ![main_v87, main_v88, main_v89, main_v90] main_v91 (fun u => concatenate S4x4096x64 0 [⟨S1x4096x64, u 0⟩, ⟨S1x4096x64, u 1⟩, ⟨S1x4096x64, u 2⟩, ⟨S1x4096x64, u 3⟩] concatenates_S1x4096x64_S1x4096x64_S1x4096x64_S1x4096x64_S4x4096x64_d0),
    StableHlo.unary main_v11 main_v92 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v23 main_v93 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v35 main_v94 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v47 main_v95 (broadcastInDim S1x4096x64 ![1, 2] bcast_S4096x64_S1x4096x64_1_2 : (⟨S4096x64, .f32⟩ : BufTy).Contents (Elt F) → (⟨S1x4096x64, .f32⟩ : BufTy).Contents (Elt F)),
    StableHlo.nary ![main_v92, main_v93, main_v94, main_v95] main_v96 (fun u => concatenate S4x4096x64 0 [⟨S1x4096x64, u 0⟩, ⟨S1x4096x64, u 1⟩, ⟨S1x4096x64, u 2⟩, ⟨S1x4096x64, u 3⟩] concatenates_S1x4096x64_S1x4096x64_S1x4096x64_S1x4096x64_S4x4096x64_d0),
    StableHlo.unary main_v60 main_v97 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v73 main_v98 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v86 main_v99 (broadcastInDim S1x4096x64 ![1, 2] bcast_S4096x64_S1x4096x64_1_2 : (⟨S4096x64, .f32⟩ : BufTy).Contents (Elt F) → (⟨S1x4096x64, .f32⟩ : BufTy).Contents (Elt F)),
    StableHlo.nary ![main_v97, main_v98, main_v99] main_v100 (fun u => concatenate S3x4096x64 0 [⟨S1x4096x64, u 0⟩, ⟨S1x4096x64, u 1⟩, ⟨S1x4096x64, u 2⟩] concatenates_S1x4096x64_S1x4096x64_S1x4096x64_S3x4096x64_d0),
    StableHlo.unary main_v59 main_v101 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v72 main_v102 (broadcastInDim S1x4096x64 ![1, 2] bcast_S4096x64_S1x4096x64_1_2 : (⟨S4096x64, .f32⟩ : BufTy).Contents (Elt F) → (⟨S1x4096x64, .f32⟩ : BufTy).Contents (Elt F)),
    StableHlo.unary main_v85 main_v103 (broadcastInDim S1x4096x64 ![1, 2] bcast_S4096x64_S1x4096x64_1_2 : (⟨S4096x64, .f32⟩ : BufTy).Contents (Elt F) → (⟨S1x4096x64, .f32⟩ : BufTy).Contents (Elt F)),
    StableHlo.nary ![main_v101, main_v102, main_v103] main_v104 (fun u => concatenate S3x4096x64 0 [⟨S1x4096x64, u 0⟩, ⟨S1x4096x64, u 1⟩, ⟨S1x4096x64, u 2⟩] concatenates_S1x4096x64_S1x4096x64_S1x4096x64_S3x4096x64_d0) ]
/-- Its last line: the four groups stacked. -/
abbrev tailC : List (HloOp τ sig (Elt F)) :=
  [ StableHlo.nary ![main_v91, main_v96, main_v100, main_v104] main_v105 (fun u => concatenate S14x4096x64 0 [⟨S4x4096x64, u 0⟩, ⟨S4x4096x64, u 1⟩, ⟨S3x4096x64, u 2⟩, ⟨S3x4096x64, u 3⟩] concatenates_S4x4096x64_S4x4096x64_S3x4096x64_S3x4096x64_S14x4096x64_d0) ]

theorem hostOps14_split : (hostOps14 : List (HloOp τ sig (Elt F))) = tailA ++ (tailB ++ tailC) := rfl

variable (G : Valuation τ sig (Elt F))

set_option maxHeartbeats 2000000 in
theorem tailC_v105 : StableHlo.after tailC G (Proc.devRef .tc main_v105) = cat14 (G main_v91) (G main_v96) (G main_v100) (G main_v104) := by
  host_results
  rfl
set_option maxHeartbeats 2000000 in
theorem tailB_main_v91 : StableHlo.after tailB G (Proc.devRef .tc main_v91) = cat4 (lift1 (G main_v9)) (lift1 (G main_v21)) (lift1 (G main_v33)) (lift1 (G main_v45)) := by
  host_results
  rfl
set_option maxHeartbeats 2000000 in
theorem tailB_main_v96 : StableHlo.after tailB G (Proc.devRef .tc main_v96) = cat4 (lift1 (G main_v11)) (lift1 (G main_v23)) (lift1 (G main_v35)) (lift1 (G main_v47)) := by
  host_results
  rfl
set_option maxHeartbeats 2000000 in
theorem tailB_main_v100 : StableHlo.after tailB G (Proc.devRef .tc main_v100) = cat3 (lift1 (G main_v60)) (lift1 (G main_v73)) (lift1 (G main_v86)) := by
  host_results
  rfl
set_option maxHeartbeats 2000000 in
theorem tailB_main_v104 : StableHlo.after tailB G (Proc.devRef .tc main_v104) = cat3 (lift1 (G main_v59)) (lift1 (G main_v72)) (lift1 (G main_v85)) := by
  host_results
  rfl
set_option maxHeartbeats 2000000 in
theorem tailA_main_v9 : StableHlo.after tailA G (Proc.devRef .tc main_v9) = G main_v9 := by
  host_results
set_option maxHeartbeats 2000000 in
theorem tailA_main_v21 : StableHlo.after tailA G (Proc.devRef .tc main_v21) = G main_v21 := by
  host_results
set_option maxHeartbeats 2000000 in
theorem tailA_main_v33 : StableHlo.after tailA G (Proc.devRef .tc main_v33) = G main_v33 := by
  host_results
set_option maxHeartbeats 2000000 in
theorem tailA_main_v45 : StableHlo.after tailA G (Proc.devRef .tc main_v45) = G main_v45 := by
  host_results
set_option maxHeartbeats 2000000 in
theorem tailA_main_v11 : StableHlo.after tailA G (Proc.devRef .tc main_v11) = G main_v11 := by
  host_results
set_option maxHeartbeats 2000000 in
theorem tailA_main_v23 : StableHlo.after tailA G (Proc.devRef .tc main_v23) = G main_v23 := by
  host_results
set_option maxHeartbeats 2000000 in
theorem tailA_main_v35 : StableHlo.after tailA G (Proc.devRef .tc main_v35) = G main_v35 := by
  host_results
set_option maxHeartbeats 2000000 in
theorem tailA_main_v47 : StableHlo.after tailA G (Proc.devRef .tc main_v47) = G main_v47 := by
  host_results
set_option maxHeartbeats 2000000 in
theorem tailA_main_v60 : StableHlo.after tailA G (Proc.devRef .tc main_v60) = G main_v60 := by
  host_results
set_option maxHeartbeats 2000000 in
theorem tailA_main_v73 : StableHlo.after tailA G (Proc.devRef .tc main_v73) = G main_v73 := by
  host_results
set_option maxHeartbeats 2000000 in
theorem tailA_main_v59 : StableHlo.after tailA G (Proc.devRef .tc main_v59) = G main_v59 := by
  host_results
set_option maxHeartbeats 2000000 in
theorem tailA_main_v72 : StableHlo.after tailA G (Proc.devRef .tc main_v72) = G main_v72 := by
  host_results
set_option maxHeartbeats 2000000 in
theorem tailA_main_v86 : StableHlo.after tailA G (Proc.devRef .tc main_v86) = addf (Host.divf (addf (G main_v77) (G main_v79_0)) (broadcastInDim S4096x64 ![] bcast_S_S4096x64 (constant S_ .f32 0x40000000#32))) (G main_arg11) := by
  host_results
set_option maxHeartbeats 2000000 in
theorem tailA_main_v85 : StableHlo.after tailA G (Proc.devRef .tc main_v85) = Host.divf (addf (G main_v78) (G main_v79_1)) (broadcastInDim S4096x64 ![] bcast_S_S4096x64 (constant S_ .f32 0x40000000#32)) := by
  host_results

set_option maxHeartbeats 2000000 in
/-- The result buffer after the last stretch, over the contents before it. -/
theorem tail_raw (c : Dev nD) : V29 m outs c main_v105 = kstack14
      (V28 m outs c main_v9)
      (V28 m outs c main_v21)
      (V28 m outs c main_v33)
      (V28 m outs c main_v45)
      (V28 m outs c main_v11)
      (V28 m outs c main_v23)
      (V28 m outs c main_v35)
      (V28 m outs c main_v47)
      (V28 m outs c main_v60)
      (V28 m outs c main_v73)
      (addf (Host.divf (addf (V28 m outs c main_v77) (V28 m outs c main_v79_0)) (broadcastInDim S4096x64 ![] bcast_S_S4096x64 (constant S_ .f32 0x40000000#32))) (V28 m outs c main_arg11))
      (V28 m outs c main_v59)
      (V28 m outs c main_v72)
      (Host.divf (addf (V28 m outs c main_v78) (V28 m outs c main_v79_1)) (broadcastInDim S4096x64 ![] bcast_S_S4096x64 (constant S_ .f32 0x40000000#32))) := by
  show StableHlo.after hostOps14 _ (Proc.devRef .tc main_v105) = _
  rw [hostOps14_split, StableHlo.after_append, StableHlo.after_append, tailC_v105, tailB_main_v91, tailB_main_v96, tailB_main_v100, tailB_main_v104, tailA_main_v9, tailA_main_v21, tailA_main_v33, tailA_main_v45, tailA_main_v11, tailA_main_v23, tailA_main_v35, tailA_main_v47, tailA_main_v60, tailA_main_v73, tailA_main_v59, tailA_main_v72, tailA_main_v86, tailA_main_v85]
  rfl

set_option maxHeartbeats 2000000 in
/-- The kernel's result: the stack of the fourteen means of what the regions leave, the three addends on the
    user means of the last three matrices. -/
theorem tail_eq (c : Dev nD) : V29 m outs c main_v105 = kstack14
      (kmean2 (outs 2 main_v2_0 c) (outs 4 main_v5_0 c))
      (kmean2 (outs 6 main_v14_0 c) (outs 8 main_v17_0 c))
      (kmean2 (outs 10 main_v26_0 c) (outs 12 main_v29_0 c))
      (kmean2 (outs 14 main_v38_0 c) (outs 16 main_v41_0 c))
      (kmean2 (outs 2 main_v2_1 c) (outs 4 main_v5_1 c))
      (kmean2 (outs 6 main_v14_1 c) (outs 8 main_v17_1 c))
      (kmean2 (outs 10 main_v26_1 c) (outs 12 main_v29_1 c))
      (kmean2 (outs 14 main_v38_1 c) (outs 16 main_v41_1 c))
      (addf (kmean2 (outs 18 main_v50_0 c) (outs 20 main_v53_0 c)) (m ((c : Thread nD τ).loc main_arg9)))
      (addf (kmean2 (outs 22 main_v63_0 c) (outs 24 main_v66_0 c)) (m ((c : Thread nD τ).loc main_arg10)))
      (addf (kmean2 (outs 26 main_v76_0 c) (outs 28 main_v79_0 c)) (m ((c : Thread nD τ).loc main_arg11)))
      (kmean2 (outs 18 main_v50_1 c) (outs 20 main_v53_1 c))
      (kmean2 (outs 22 main_v63_1 c) (outs 24 main_v66_1 c))
      (kmean2 (outs 26 main_v76_1 c) (outs 28 main_v79_1 c)) := by
  rw [tail_raw, at28_mean_0_u, at28_mean_0_i, at28_mean_1_u, at28_mean_1_i, at28_mean_2_u, at28_mean_2_i, at28_mean_3_u, at28_mean_3_i, at28_plus_4, at28_plus_5, at28_mean_4_i, at28_mean_5_i, at28_first_6_u, at28_first_6_i, V28_at_main_v79_0, V28_at_main_v79_1, main_arg11_at28]
  rfl

end Cert.KernelIdeal.Hand

end
-- ==== Proof.Ref.Result.lean ====
import proofs.«103934_j28484223107660_1_alg».proof.Proof.Gen.ReferenceIdeal.Run
import proofs.«103934_j28484223107660_1_alg».proof.Proof.Ref.Layers

/-! The reference's result as a stack of fourteen matrices: for each interaction matrix the mean of two
    propagation layers of the user features and of the item features. -/

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- Fourteen matrices stacked along a new leading axis: four, four, three and three, then the four groups. -/
def stack14 (x0 x1 x2 x3 x4 x5 x6 x7 x8 x9 x10 x11 x12 x13 : FVec F S4096x64 .f32) : FVec F S14x4096x64 .f32 :=
  concatenate S14x4096x64 0 [⟨S4x4096x64, (concatenate S4x4096x64 0 [⟨S1x4096x64, (broadcastInDim S1x4096x64 ![1, 2] bcast_S4096x64_S1x4096x64_1_2 x0)⟩, ⟨S1x4096x64, (broadcastInDim S1x4096x64 ![1, 2] bcast_S4096x64_S1x4096x64_1_2 x1)⟩, ⟨S1x4096x64, (broadcastInDim S1x4096x64 ![1, 2] bcast_S4096x64_S1x4096x64_1_2 x2)⟩, ⟨S1x4096x64, (broadcastInDim S1x4096x64 ![1, 2] bcast_S4096x64_S1x4096x64_1_2 x3)⟩] concatenates_S1x4096x64_S1x4096x64_S1x4096x64_S1x4096x64_S4x4096x64_d0)⟩, ⟨S4x4096x64, (concatenate S4x4096x64 0 [⟨S1x4096x64, (broadcastInDim S1x4096x64 ![1, 2] bcast_S4096x64_S1x4096x64_1_2 x4)⟩, ⟨S1x4096x64, (broadcastInDim S1x4096x64 ![1, 2] bcast_S4096x64_S1x4096x64_1_2 x5)⟩, ⟨S1x4096x64, (broadcastInDim S1x4096x64 ![1, 2] bcast_S4096x64_S1x4096x64_1_2 x6)⟩, ⟨S1x4096x64, (broadcastInDim S1x4096x64 ![1, 2] bcast_S4096x64_S1x4096x64_1_2 x7)⟩] concatenates_S1x4096x64_S1x4096x64_S1x4096x64_S1x4096x64_S4x4096x64_d0)⟩, ⟨S3x4096x64, (concatenate S3x4096x64 0 [⟨S1x4096x64, (broadcastInDim S1x4096x64 ![1, 2] bcast_S4096x64_S1x4096x64_1_2 x8)⟩, ⟨S1x4096x64, (broadcastInDim S1x4096x64 ![1, 2] bcast_S4096x64_S1x4096x64_1_2 x9)⟩, ⟨S1x4096x64, (broadcastInDim S1x4096x64 ![1, 2] bcast_S4096x64_S1x4096x64_1_2 x10)⟩] concatenates_S1x4096x64_S1x4096x64_S1x4096x64_S3x4096x64_d0)⟩, ⟨S3x4096x64, (concatenate S3x4096x64 0 [⟨S1x4096x64, (broadcastInDim S1x4096x64 ![1, 2] bcast_S4096x64_S1x4096x64_1_2 x11)⟩, ⟨S1x4096x64, (broadcastInDim S1x4096x64 ![1, 2] bcast_S4096x64_S1x4096x64_1_2 x12)⟩, ⟨S1x4096x64, (broadcastInDim S1x4096x64 ![1, 2] bcast_S4096x64_S1x4096x64_1_2 x13)⟩] concatenates_S1x4096x64_S1x4096x64_S1x4096x64_S3x4096x64_d0)⟩] concatenates_S4x4096x64_S4x4096x64_S3x4096x64_S3x4096x64_S14x4096x64_d0

/-- The mean of the first and the second user layer for the matrix `R`, from user features `u` and item features `it`:
    the second user layer reads the first item layer. -/
def userMean (R : FVec F S4096x4096 .f32) (u it : FVec F S4096x64 .f32) : FVec F S4096x64 .f32 :=
  mean2 (layerU R it) (layerU R (layerI R u))

/-- The mean of the first and the second item layer for the matrix `R`: the second item layer reads the first user layer. -/
def itemMean (R : FVec F S4096x4096 .f32) (u it : FVec F S4096x64 .f32) : FVec F S4096x64 .f32 :=
  mean2 (layerI R u) (layerI R (layerU R it))

set_option maxRecDepth 8192 in
/-- The reference's result is the stack, in this order: the user means of the first four matrices, their item means,
    the user means of the last three matrices each plus its own addend, and their item means. -/
theorem res_out0_eq (V0 : Valuation τ sig (Elt F)) :
    Cert.ReferenceIdeal.Value.res_out0 (F := F) V0 = stack14
      (userMean (V0 (Proc.devRef .tc main_arg2)) (V0 (Proc.devRef .tc main_arg0)) (V0 (Proc.devRef .tc main_arg1)))
      (userMean (V0 (Proc.devRef .tc main_arg3)) (V0 (Proc.devRef .tc main_arg0)) (V0 (Proc.devRef .tc main_arg1)))
      (userMean (V0 (Proc.devRef .tc main_arg4)) (V0 (Proc.devRef .tc main_arg0)) (V0 (Proc.devRef .tc main_arg1)))
      (userMean (V0 (Proc.devRef .tc main_arg5)) (V0 (Proc.devRef .tc main_arg0)) (V0 (Proc.devRef .tc main_arg1)))
      (itemMean (V0 (Proc.devRef .tc main_arg2)) (V0 (Proc.devRef .tc main_arg0)) (V0 (Proc.devRef .tc main_arg1)))
      (itemMean (V0 (Proc.devRef .tc main_arg3)) (V0 (Proc.devRef .tc main_arg0)) (V0 (Proc.devRef .tc main_arg1)))
      (itemMean (V0 (Proc.devRef .tc main_arg4)) (V0 (Proc.devRef .tc main_arg0)) (V0 (Proc.devRef .tc main_arg1)))
      (itemMean (V0 (Proc.devRef .tc main_arg5)) (V0 (Proc.devRef .tc main_arg0)) (V0 (Proc.devRef .tc main_arg1)))
      (addf (userMean (V0 (Proc.devRef .tc main_arg6)) (V0 (Proc.devRef .tc main_arg0)) (V0 (Proc.devRef .tc main_arg1))) (V0 (Proc.devRef .tc main_arg9)))
      (addf (userMean (V0 (Proc.devRef .tc main_arg7)) (V0 (Proc.devRef .tc main_arg0)) (V0 (Proc.devRef .tc main_arg1))) (V0 (Proc.devRef .tc main_arg10)))
      (addf (userMean (V0 (Proc.devRef .tc main_arg8)) (V0 (Proc.devRef .tc main_arg0)) (V0 (Proc.devRef .tc main_arg1))) (V0 (Proc.devRef .tc main_arg11)))
      (itemMean (V0 (Proc.devRef .tc main_arg6)) (V0 (Proc.devRef .tc main_arg0)) (V0 (Proc.devRef .tc main_arg1)))
      (itemMean (V0 (Proc.devRef .tc main_arg7)) (V0 (Proc.devRef .tc main_arg0)) (V0 (Proc.devRef .tc main_arg1)))
      (itemMean (V0 (Proc.devRef .tc main_arg8)) (V0 (Proc.devRef .tc main_arg0)) (V0 (Proc.devRef .tc main_arg1))) := by
  rfl

end Cert.RefSide

end
-- ==== Proof.KI.TailRef.lean ====
import proofs.«103934_j28484223107660_1_alg».proof.Proof.KI.Tail
import proofs.«103934_j28484223107660_1_alg».proof.Proof.Ref.Result

/-! The host lines' mean and stack are the reference's: the same terms over the same shapes. -/

noncomputable section

namespace Cert.KernelIdeal.Hand

open Idealize.ShloMosaic

variable {F : FTy → Type} [FloatOps F]

theorem kmean2_eq_ref (a b : FVec F Cert.KernelIdeal.S4096x64 .f32) : kmean2 a b = Cert.RefSide.mean2 a b := rfl

set_option maxRecDepth 8192 in
theorem kstack_eq_ref (x0 x1 x2 x3 x4 x5 x6 x7 x8 x9 x10 x11 x12 x13 : FVec F Cert.KernelIdeal.S4096x64 .f32) :
    kstack14 x0 x1 x2 x3 x4 x5 x6 x7 x8 x9 x10 x11 x12 x13 = Cert.RefSide.stack14 x0 x1 x2 x3 x4 x5 x6 x7 x8 x9 x10 x11 x12 x13 := rfl

end Cert.KernelIdeal.Hand

end
-- ==== Proof.KI.ValueChain.lean ====
import proofs.«103934_j28484223107660_1_alg».proof.Proof.KI.Seg0
import proofs.«103934_j28484223107660_1_alg».proof.Proof.KI.Seg1
import proofs.«103934_j28484223107660_1_alg».proof.Proof.KI.Seg2
import proofs.«103934_j28484223107660_1_alg».proof.Proof.KI.Seg3
import proofs.«103934_j28484223107660_1_alg».proof.Proof.KI.Seg4
import proofs.«103934_j28484223107660_1_alg».proof.Proof.KI.Seg5
import proofs.«103934_j28484223107660_1_alg».proof.Proof.KI.Seg6
import proofs.«103934_j28484223107660_1_alg».proof.Proof.KI.Seg7
import proofs.«103934_j28484223107660_1_alg».proof.Proof.KI.Seg8
import proofs.«103934_j28484223107660_1_alg».proof.Proof.KI.Seg9
import proofs.«103934_j28484223107660_1_alg».proof.Proof.KI.Seg10
import proofs.«103934_j28484223107660_1_alg».proof.Proof.KI.Seg11
import proofs.«103934_j28484223107660_1_alg».proof.Proof.KI.Seg12
import proofs.«103934_j28484223107660_1_alg».proof.Proof.KI.Seg13
import proofs.«103934_j28484223107660_1_alg».proof.Proof.KI.Val0
import proofs.«103934_j28484223107660_1_alg».proof.Proof.KI.Val1
import proofs.«103934_j28484223107660_1_alg».proof.Proof.KI.Val2
import proofs.«103934_j28484223107660_1_alg».proof.Proof.KI.Val3
import proofs.«103934_j28484223107660_1_alg».proof.Proof.KI.Val4
import proofs.«103934_j28484223107660_1_alg».proof.Proof.KI.Val5
import proofs.«103934_j28484223107660_1_alg».proof.Proof.KI.Val6
import proofs.«103934_j28484223107660_1_alg».proof.Proof.KI.Val7
import proofs.«103934_j28484223107660_1_alg».proof.Proof.KI.Val8
import proofs.«103934_j28484223107660_1_alg».proof.Proof.KI.Val9
import proofs.«103934_j28484223107660_1_alg».proof.Proof.KI.Val10
import proofs.«103934_j28484223107660_1_alg».proof.Proof.KI.Val11
import proofs.«103934_j28484223107660_1_alg».proof.Proof.KI.Val12
import proofs.«103934_j28484223107660_1_alg».proof.Proof.KI.Val13
import proofs.«103934_j28484223107660_1_alg».proof.Proof.KI.Tail
import proofs.«103934_j28484223107660_1_alg».proof.Proof.KI.TailRef
import proofs.«103934_j28484223107660_1_alg».proof.Proof.Ref.Result

/-! The kernel's values along the program, over the extended reals: each interaction matrix is propagated twice — the
    first pair of launches reads the launch's user and item features, the second pair reads the first pair's results —
    so the four result arrays of matrix `R` are the user and item layers of the features and the user and item layers
    of those layers; the program's result is the stack of the fourteen means. -/

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ)

/-! ## The host lines between the launches leave the other buffers alone -/

theorem Win0_of (c : Dev nD) (r : Ref sig .tc) (h : r ∉ hostOps0_W) : W1 m c r = m ((c : Thread nD τ).loc r) :=
  StableHlo.after_of_writes_sub hostOps0 _ hostOps0_writes h
theorem Win1_of (c : Dev nD) (r : Ref sig .tc) (h : r ∉ hostOps1_W) : W3 m c r = W2 m c r :=
  StableHlo.after_of_writes_sub hostOps1 _ hostOps1_writes h
theorem Win2_of (c : Dev nD) (r : Ref sig .tc) (h : r ∉ hostOps2_W) : W5 m c r = W4 m c r :=
  StableHlo.after_of_writes_sub hostOps2 _ hostOps2_writes h
theorem Win3_of (c : Dev nD) (r : Ref sig .tc) (h : r ∉ hostOps3_W) : W7 m c r = W6 m c r :=
  StableHlo.after_of_writes_sub hostOps3 _ hostOps3_writes h
theorem Win4_of (c : Dev nD) (r : Ref sig .tc) (h : r ∉ hostOps4_W) : W9 m c r = W8 m c r :=
  StableHlo.after_of_writes_sub hostOps4 _ hostOps4_writes h
theorem Win5_of (c : Dev nD) (r : Ref sig .tc) (h : r ∉ hostOps5_W) : W11 m c r = W10 m c r :=
  StableHlo.after_of_writes_sub hostOps5 _ hostOps5_writes h
theorem Win6_of (c : Dev nD) (r : Ref sig .tc) (h : r ∉ hostOps6_W) : W13 m c r = W12 m c r :=
  StableHlo.after_of_writes_sub hostOps6 _ hostOps6_writes h
theorem Win7_of (c : Dev nD) (r : Ref sig .tc) (h : r ∉ hostOps7_W) : W15 m c r = W14 m c r :=
  StableHlo.after_of_writes_sub hostOps7 _ hostOps7_writes h
theorem Win8_of (c : Dev nD) (r : Ref sig .tc) (h : r ∉ hostOps8_W) : W17 m c r = W16 m c r :=
  StableHlo.after_of_writes_sub hostOps8 _ hostOps8_writes h
theorem Win9_of (c : Dev nD) (r : Ref sig .tc) (h : r ∉ hostOps9_W) : W19 m c r = W18 m c r :=
  StableHlo.after_of_writes_sub hostOps9 _ hostOps9_writes h
theorem Win10_of (c : Dev nD) (r : Ref sig .tc) (h : r ∉ hostOps10_W) : W21 m c r = W20 m c r :=
  StableHlo.after_of_writes_sub hostOps10 _ hostOps10_writes h
theorem Win11_of (c : Dev nD) (r : Ref sig .tc) (h : r ∉ hostOps11_W) : W23 m c r = W22 m c r :=
  StableHlo.after_of_writes_sub hostOps11 _ hostOps11_writes h
theorem Win12_of (c : Dev nD) (r : Ref sig .tc) (h : r ∉ hostOps12_W) : W25 m c r = W24 m c r :=
  StableHlo.after_of_writes_sub hostOps12 _ hostOps12_writes h
theorem Win13_of (c : Dev nD) (r : Ref sig .tc) (h : r ∉ hostOps13_W) : W27 m c r = W26 m c r :=
  StableHlo.after_of_writes_sub hostOps13 _ hostOps13_writes h

/-! ## The launch's arguments reach every launch as they were -/

theorem Warg0_main_arg0 (c : Dev nD) : W1 m c main_arg0 = m ((c : Thread nD τ).loc main_arg0) :=
  Win0_of m c main_arg0 (by decide)
theorem Warg1_main_arg0 (c : Dev nD) : W3 m c main_arg0 = m ((c : Thread nD τ).loc main_arg0) :=
  (Win1_of m c main_arg0 (by decide)).trans ((Wout0_of m c main_arg0 (by decide) (by decide)).trans (Warg0_main_arg0 m c))
theorem Warg2_main_arg0 (c : Dev nD) : W5 m c main_arg0 = m ((c : Thread nD τ).loc main_arg0) :=
  (Win2_of m c main_arg0 (by decide)).trans ((Wout1_of m c main_arg0 (by decide) (by decide)).trans (Warg1_main_arg0 m c))
theorem Warg3_main_arg0 (c : Dev nD) : W7 m c main_arg0 = m ((c : Thread nD τ).loc main_arg0) :=
  (Win3_of m c main_arg0 (by decide)).trans ((Wout2_of m c main_arg0 (by decide) (by decide)).trans (Warg2_main_arg0 m c))
theorem Warg4_main_arg0 (c : Dev nD) : W9 m c main_arg0 = m ((c : Thread nD τ).loc main_arg0) :=
  (Win4_of m c main_arg0 (by decide)).trans ((Wout3_of m c main_arg0 (by decide) (by decide)).trans (Warg3_main_arg0 m c))
theorem Warg5_main_arg0 (c : Dev nD) : W11 m c main_arg0 = m ((c : Thread nD τ).loc main_arg0) :=
  (Win5_of m c main_arg0 (by decide)).trans ((Wout4_of m c main_arg0 (by decide) (by decide)).trans (Warg4_main_arg0 m c))
theorem Warg6_main_arg0 (c : Dev nD) : W13 m c main_arg0 = m ((c : Thread nD τ).loc main_arg0) :=
  (Win6_of m c main_arg0 (by decide)).trans ((Wout5_of m c main_arg0 (by decide) (by decide)).trans (Warg5_main_arg0 m c))
theorem Warg7_main_arg0 (c : Dev nD) : W15 m c main_arg0 = m ((c : Thread nD τ).loc main_arg0) :=
  (Win7_of m c main_arg0 (by decide)).trans ((Wout6_of m c main_arg0 (by decide) (by decide)).trans (Warg6_main_arg0 m c))
theorem Warg8_main_arg0 (c : Dev nD) : W17 m c main_arg0 = m ((c : Thread nD τ).loc main_arg0) :=
  (Win8_of m c main_arg0 (by decide)).trans ((Wout7_of m c main_arg0 (by decide) (by decide)).trans (Warg7_main_arg0 m c))
theorem Warg9_main_arg0 (c : Dev nD) : W19 m c main_arg0 = m ((c : Thread nD τ).loc main_arg0) :=
  (Win9_of m c main_arg0 (by decide)).trans ((Wout8_of m c main_arg0 (by decide) (by decide)).trans (Warg8_main_arg0 m c))
theorem Warg10_main_arg0 (c : Dev nD) : W21 m c main_arg0 = m ((c : Thread nD τ).loc main_arg0) :=
  (Win10_of m c main_arg0 (by decide)).trans ((Wout9_of m c main_arg0 (by decide) (by decide)).trans (Warg9_main_arg0 m c))
theorem Warg11_main_arg0 (c : Dev nD) : W23 m c main_arg0 = m ((c : Thread nD τ).loc main_arg0) :=
  (Win11_of m c main_arg0 (by decide)).trans ((Wout10_of m c main_arg0 (by decide) (by decide)).trans (Warg10_main_arg0 m c))
theorem Warg12_main_arg0 (c : Dev nD) : W25 m c main_arg0 = m ((c : Thread nD τ).loc main_arg0) :=
  (Win12_of m c main_arg0 (by decide)).trans ((Wout11_of m c main_arg0 (by decide) (by decide)).trans (Warg11_main_arg0 m c))
theorem Warg13_main_arg0 (c : Dev nD) : W27 m c main_arg0 = m ((c : Thread nD τ).loc main_arg0) :=
  (Win13_of m c main_arg0 (by decide)).trans ((Wout12_of m c main_arg0 (by decide) (by decide)).trans (Warg12_main_arg0 m c))
theorem Warg0_main_arg1 (c : Dev nD) : W1 m c main_arg1 = m ((c : Thread nD τ).loc main_arg1) :=
  Win0_of m c main_arg1 (by decide)
theorem Warg1_main_arg1 (c : Dev nD) : W3 m c main_arg1 = m ((c : Thread nD τ).loc main_arg1) :=
  (Win1_of m c main_arg1 (by decide)).trans ((Wout0_of m c main_arg1 (by decide) (by decide)).trans (Warg0_main_arg1 m c))
theorem Warg2_main_arg1 (c : Dev nD) : W5 m c main_arg1 = m ((c : Thread nD τ).loc main_arg1) :=
  (Win2_of m c main_arg1 (by decide)).trans ((Wout1_of m c main_arg1 (by decide) (by decide)).trans (Warg1_main_arg1 m c))
theorem Warg3_main_arg1 (c : Dev nD) : W7 m c main_arg1 = m ((c : Thread nD τ).loc main_arg1) :=
  (Win3_of m c main_arg1 (by decide)).trans ((Wout2_of m c main_arg1 (by decide) (by decide)).trans (Warg2_main_arg1 m c))
theorem Warg4_main_arg1 (c : Dev nD) : W9 m c main_arg1 = m ((c : Thread nD τ).loc main_arg1) :=
  (Win4_of m c main_arg1 (by decide)).trans ((Wout3_of m c main_arg1 (by decide) (by decide)).trans (Warg3_main_arg1 m c))
theorem Warg5_main_arg1 (c : Dev nD) : W11 m c main_arg1 = m ((c : Thread nD τ).loc main_arg1) :=
  (Win5_of m c main_arg1 (by decide)).trans ((Wout4_of m c main_arg1 (by decide) (by decide)).trans (Warg4_main_arg1 m c))
theorem Warg6_main_arg1 (c : Dev nD) : W13 m c main_arg1 = m ((c : Thread nD τ).loc main_arg1) :=
  (Win6_of m c main_arg1 (by decide)).trans ((Wout5_of m c main_arg1 (by decide) (by decide)).trans (Warg5_main_arg1 m c))
theorem Warg7_main_arg1 (c : Dev nD) : W15 m c main_arg1 = m ((c : Thread nD τ).loc main_arg1) :=
  (Win7_of m c main_arg1 (by decide)).trans ((Wout6_of m c main_arg1 (by decide) (by decide)).trans (Warg6_main_arg1 m c))
theorem Warg8_main_arg1 (c : Dev nD) : W17 m c main_arg1 = m ((c : Thread nD τ).loc main_arg1) :=
  (Win8_of m c main_arg1 (by decide)).trans ((Wout7_of m c main_arg1 (by decide) (by decide)).trans (Warg7_main_arg1 m c))
theorem Warg9_main_arg1 (c : Dev nD) : W19 m c main_arg1 = m ((c : Thread nD τ).loc main_arg1) :=
  (Win9_of m c main_arg1 (by decide)).trans ((Wout8_of m c main_arg1 (by decide) (by decide)).trans (Warg8_main_arg1 m c))
theorem Warg10_main_arg1 (c : Dev nD) : W21 m c main_arg1 = m ((c : Thread nD τ).loc main_arg1) :=
  (Win10_of m c main_arg1 (by decide)).trans ((Wout9_of m c main_arg1 (by decide) (by decide)).trans (Warg9_main_arg1 m c))
theorem Warg11_main_arg1 (c : Dev nD) : W23 m c main_arg1 = m ((c : Thread nD τ).loc main_arg1) :=
  (Win11_of m c main_arg1 (by decide)).trans ((Wout10_of m c main_arg1 (by decide) (by decide)).trans (Warg10_main_arg1 m c))
theorem Warg12_main_arg1 (c : Dev nD) : W25 m c main_arg1 = m ((c : Thread nD τ).loc main_arg1) :=
  (Win12_of m c main_arg1 (by decide)).trans ((Wout11_of m c main_arg1 (by decide) (by decide)).trans (Warg11_main_arg1 m c))
theorem Warg13_main_arg1 (c : Dev nD) : W27 m c main_arg1 = m ((c : Thread nD τ).loc main_arg1) :=
  (Win13_of m c main_arg1 (by decide)).trans ((Wout12_of m c main_arg1 (by decide) (by decide)).trans (Warg12_main_arg1 m c))
theorem Warg0_main_arg2 (c : Dev nD) : W1 m c main_arg2 = m ((c : Thread nD τ).loc main_arg2) :=
  Win0_of m c main_arg2 (by decide)
theorem Warg1_main_arg2 (c : Dev nD) : W3 m c main_arg2 = m ((c : Thread nD τ).loc main_arg2) :=
  (Win1_of m c main_arg2 (by decide)).trans ((Wout0_of m c main_arg2 (by decide) (by decide)).trans (Warg0_main_arg2 m c))
theorem Warg0_main_arg3 (c : Dev nD) : W1 m c main_arg3 = m ((c : Thread nD τ).loc main_arg3) :=
  Win0_of m c main_arg3 (by decide)
theorem Warg1_main_arg3 (c : Dev nD) : W3 m c main_arg3 = m ((c : Thread nD τ).loc main_arg3) :=
  (Win1_of m c main_arg3 (by decide)).trans ((Wout0_of m c main_arg3 (by decide) (by decide)).trans (Warg0_main_arg3 m c))
theorem Warg2_main_arg3 (c : Dev nD) : W5 m c main_arg3 = m ((c : Thread nD τ).loc main_arg3) :=
  (Win2_of m c main_arg3 (by decide)).trans ((Wout1_of m c main_arg3 (by decide) (by decide)).trans (Warg1_main_arg3 m c))
theorem Warg3_main_arg3 (c : Dev nD) : W7 m c main_arg3 = m ((c : Thread nD τ).loc main_arg3) :=
  (Win3_of m c main_arg3 (by decide)).trans ((Wout2_of m c main_arg3 (by decide) (by decide)).trans (Warg2_main_arg3 m c))
theorem Warg0_main_arg4 (c : Dev nD) : W1 m c main_arg4 = m ((c : Thread nD τ).loc main_arg4) :=
  Win0_of m c main_arg4 (by decide)
theorem Warg1_main_arg4 (c : Dev nD) : W3 m c main_arg4 = m ((c : Thread nD τ).loc main_arg4) :=
  (Win1_of m c main_arg4 (by decide)).trans ((Wout0_of m c main_arg4 (by decide) (by decide)).trans (Warg0_main_arg4 m c))
theorem Warg2_main_arg4 (c : Dev nD) : W5 m c main_arg4 = m ((c : Thread nD τ).loc main_arg4) :=
  (Win2_of m c main_arg4 (by decide)).trans ((Wout1_of m c main_arg4 (by decide) (by decide)).trans (Warg1_main_arg4 m c))
theorem Warg3_main_arg4 (c : Dev nD) : W7 m c main_arg4 = m ((c : Thread nD τ).loc main_arg4) :=
  (Win3_of m c main_arg4 (by decide)).trans ((Wout2_of m c main_arg4 (by decide) (by decide)).trans (Warg2_main_arg4 m c))
theorem Warg4_main_arg4 (c : Dev nD) : W9 m c main_arg4 = m ((c : Thread nD τ).loc main_arg4) :=
  (Win4_of m c main_arg4 (by decide)).trans ((Wout3_of m c main_arg4 (by decide) (by decide)).trans (Warg3_main_arg4 m c))
theorem Warg5_main_arg4 (c : Dev nD) : W11 m c main_arg4 = m ((c : Thread nD τ).loc main_arg4) :=
  (Win5_of m c main_arg4 (by decide)).trans ((Wout4_of m c main_arg4 (by decide) (by decide)).trans (Warg4_main_arg4 m c))
theorem Warg0_main_arg5 (c : Dev nD) : W1 m c main_arg5 = m ((c : Thread nD τ).loc main_arg5) :=
  Win0_of m c main_arg5 (by decide)
theorem Warg1_main_arg5 (c : Dev nD) : W3 m c main_arg5 = m ((c : Thread nD τ).loc main_arg5) :=
  (Win1_of m c main_arg5 (by decide)).trans ((Wout0_of m c main_arg5 (by decide) (by decide)).trans (Warg0_main_arg5 m c))
theorem Warg2_main_arg5 (c : Dev nD) : W5 m c main_arg5 = m ((c : Thread nD τ).loc main_arg5) :=
  (Win2_of m c main_arg5 (by decide)).trans ((Wout1_of m c main_arg5 (by decide) (by decide)).trans (Warg1_main_arg5 m c))
theorem Warg3_main_arg5 (c : Dev nD) : W7 m c main_arg5 = m ((c : Thread nD τ).loc main_arg5) :=
  (Win3_of m c main_arg5 (by decide)).trans ((Wout2_of m c main_arg5 (by decide) (by decide)).trans (Warg2_main_arg5 m c))
theorem Warg4_main_arg5 (c : Dev nD) : W9 m c main_arg5 = m ((c : Thread nD τ).loc main_arg5) :=
  (Win4_of m c main_arg5 (by decide)).trans ((Wout3_of m c main_arg5 (by decide) (by decide)).trans (Warg3_main_arg5 m c))
theorem Warg5_main_arg5 (c : Dev nD) : W11 m c main_arg5 = m ((c : Thread nD τ).loc main_arg5) :=
  (Win5_of m c main_arg5 (by decide)).trans ((Wout4_of m c main_arg5 (by decide) (by decide)).trans (Warg4_main_arg5 m c))
theorem Warg6_main_arg5 (c : Dev nD) : W13 m c main_arg5 = m ((c : Thread nD τ).loc main_arg5) :=
  (Win6_of m c main_arg5 (by decide)).trans ((Wout5_of m c main_arg5 (by decide) (by decide)).trans (Warg5_main_arg5 m c))
theorem Warg7_main_arg5 (c : Dev nD) : W15 m c main_arg5 = m ((c : Thread nD τ).loc main_arg5) :=
  (Win7_of m c main_arg5 (by decide)).trans ((Wout6_of m c main_arg5 (by decide) (by decide)).trans (Warg6_main_arg5 m c))
theorem Warg0_main_arg6 (c : Dev nD) : W1 m c main_arg6 = m ((c : Thread nD τ).loc main_arg6) :=
  Win0_of m c main_arg6 (by decide)
theorem Warg1_main_arg6 (c : Dev nD) : W3 m c main_arg6 = m ((c : Thread nD τ).loc main_arg6) :=
  (Win1_of m c main_arg6 (by decide)).trans ((Wout0_of m c main_arg6 (by decide) (by decide)).trans (Warg0_main_arg6 m c))
theorem Warg2_main_arg6 (c : Dev nD) : W5 m c main_arg6 = m ((c : Thread nD τ).loc main_arg6) :=
  (Win2_of m c main_arg6 (by decide)).trans ((Wout1_of m c main_arg6 (by decide) (by decide)).trans (Warg1_main_arg6 m c))
theorem Warg3_main_arg6 (c : Dev nD) : W7 m c main_arg6 = m ((c : Thread nD τ).loc main_arg6) :=
  (Win3_of m c main_arg6 (by decide)).trans ((Wout2_of m c main_arg6 (by decide) (by decide)).trans (Warg2_main_arg6 m c))
theorem Warg4_main_arg6 (c : Dev nD) : W9 m c main_arg6 = m ((c : Thread nD τ).loc main_arg6) :=
  (Win4_of m c main_arg6 (by decide)).trans ((Wout3_of m c main_arg6 (by decide) (by decide)).trans (Warg3_main_arg6 m c))
theorem Warg5_main_arg6 (c : Dev nD) : W11 m c main_arg6 = m ((c : Thread nD τ).loc main_arg6) :=
  (Win5_of m c main_arg6 (by decide)).trans ((Wout4_of m c main_arg6 (by decide) (by decide)).trans (Warg4_main_arg6 m c))
theorem Warg6_main_arg6 (c : Dev nD) : W13 m c main_arg6 = m ((c : Thread nD τ).loc main_arg6) :=
  (Win6_of m c main_arg6 (by decide)).trans ((Wout5_of m c main_arg6 (by decide) (by decide)).trans (Warg5_main_arg6 m c))
theorem Warg7_main_arg6 (c : Dev nD) : W15 m c main_arg6 = m ((c : Thread nD τ).loc main_arg6) :=
  (Win7_of m c main_arg6 (by decide)).trans ((Wout6_of m c main_arg6 (by decide) (by decide)).trans (Warg6_main_arg6 m c))
theorem Warg8_main_arg6 (c : Dev nD) : W17 m c main_arg6 = m ((c : Thread nD τ).loc main_arg6) :=
  (Win8_of m c main_arg6 (by decide)).trans ((Wout7_of m c main_arg6 (by decide) (by decide)).trans (Warg7_main_arg6 m c))
theorem Warg9_main_arg6 (c : Dev nD) : W19 m c main_arg6 = m ((c : Thread nD τ).loc main_arg6) :=
  (Win9_of m c main_arg6 (by decide)).trans ((Wout8_of m c main_arg6 (by decide) (by decide)).trans (Warg8_main_arg6 m c))
theorem Warg0_main_arg7 (c : Dev nD) : W1 m c main_arg7 = m ((c : Thread nD τ).loc main_arg7) :=
  Win0_of m c main_arg7 (by decide)
theorem Warg1_main_arg7 (c : Dev nD) : W3 m c main_arg7 = m ((c : Thread nD τ).loc main_arg7) :=
  (Win1_of m c main_arg7 (by decide)).trans ((Wout0_of m c main_arg7 (by decide) (by decide)).trans (Warg0_main_arg7 m c))
theorem Warg2_main_arg7 (c : Dev nD) : W5 m c main_arg7 = m ((c : Thread nD τ).loc main_arg7) :=
  (Win2_of m c main_arg7 (by decide)).trans ((Wout1_of m c main_arg7 (by decide) (by decide)).trans (Warg1_main_arg7 m c))
theorem Warg3_main_arg7 (c : Dev nD) : W7 m c main_arg7 = m ((c : Thread nD τ).loc main_arg7) :=
  (Win3_of m c main_arg7 (by decide)).trans ((Wout2_of m c main_arg7 (by decide) (by decide)).trans (Warg2_main_arg7 m c))
theorem Warg4_main_arg7 (c : Dev nD) : W9 m c main_arg7 = m ((c : Thread nD τ).loc main_arg7) :=
  (Win4_of m c main_arg7 (by decide)).trans ((Wout3_of m c main_arg7 (by decide) (by decide)).trans (Warg3_main_arg7 m c))
theorem Warg5_main_arg7 (c : Dev nD) : W11 m c main_arg7 = m ((c : Thread nD τ).loc main_arg7) :=
  (Win5_of m c main_arg7 (by decide)).trans ((Wout4_of m c main_arg7 (by decide) (by decide)).trans (Warg4_main_arg7 m c))
theorem Warg6_main_arg7 (c : Dev nD) : W13 m c main_arg7 = m ((c : Thread nD τ).loc main_arg7) :=
  (Win6_of m c main_arg7 (by decide)).trans ((Wout5_of m c main_arg7 (by decide) (by decide)).trans (Warg5_main_arg7 m c))
theorem Warg7_main_arg7 (c : Dev nD) : W15 m c main_arg7 = m ((c : Thread nD τ).loc main_arg7) :=
  (Win7_of m c main_arg7 (by decide)).trans ((Wout6_of m c main_arg7 (by decide) (by decide)).trans (Warg6_main_arg7 m c))
theorem Warg8_main_arg7 (c : Dev nD) : W17 m c main_arg7 = m ((c : Thread nD τ).loc main_arg7) :=
  (Win8_of m c main_arg7 (by decide)).trans ((Wout7_of m c main_arg7 (by decide) (by decide)).trans (Warg7_main_arg7 m c))
theorem Warg9_main_arg7 (c : Dev nD) : W19 m c main_arg7 = m ((c : Thread nD τ).loc main_arg7) :=
  (Win9_of m c main_arg7 (by decide)).trans ((Wout8_of m c main_arg7 (by decide) (by decide)).trans (Warg8_main_arg7 m c))
theorem Warg10_main_arg7 (c : Dev nD) : W21 m c main_arg7 = m ((c : Thread nD τ).loc main_arg7) :=
  (Win10_of m c main_arg7 (by decide)).trans ((Wout9_of m c main_arg7 (by decide) (by decide)).trans (Warg9_main_arg7 m c))
theorem Warg11_main_arg7 (c : Dev nD) : W23 m c main_arg7 = m ((c : Thread nD τ).loc main_arg7) :=
  (Win11_of m c main_arg7 (by decide)).trans ((Wout10_of m c main_arg7 (by decide) (by decide)).trans (Warg10_main_arg7 m c))
theorem Warg0_main_arg8 (c : Dev nD) : W1 m c main_arg8 = m ((c : Thread nD τ).loc main_arg8) :=
  Win0_of m c main_arg8 (by decide)
theorem Warg1_main_arg8 (c : Dev nD) : W3 m c main_arg8 = m ((c : Thread nD τ).loc main_arg8) :=
  (Win1_of m c main_arg8 (by decide)).trans ((Wout0_of m c main_arg8 (by decide) (by decide)).trans (Warg0_main_arg8 m c))
theorem Warg2_main_arg8 (c : Dev nD) : W5 m c main_arg8 = m ((c : Thread nD τ).loc main_arg8) :=
  (Win2_of m c main_arg8 (by decide)).trans ((Wout1_of m c main_arg8 (by decide) (by decide)).trans (Warg1_main_arg8 m c))
theorem Warg3_main_arg8 (c : Dev nD) : W7 m c main_arg8 = m ((c : Thread nD τ).loc main_arg8) :=
  (Win3_of m c main_arg8 (by decide)).trans ((Wout2_of m c main_arg8 (by decide) (by decide)).trans (Warg2_main_arg8 m c))
theorem Warg4_main_arg8 (c : Dev nD) : W9 m c main_arg8 = m ((c : Thread nD τ).loc main_arg8) :=
  (Win4_of m c main_arg8 (by decide)).trans ((Wout3_of m c main_arg8 (by decide) (by decide)).trans (Warg3_main_arg8 m c))
theorem Warg5_main_arg8 (c : Dev nD) : W11 m c main_arg8 = m ((c : Thread nD τ).loc main_arg8) :=
  (Win5_of m c main_arg8 (by decide)).trans ((Wout4_of m c main_arg8 (by decide) (by decide)).trans (Warg4_main_arg8 m c))
theorem Warg6_main_arg8 (c : Dev nD) : W13 m c main_arg8 = m ((c : Thread nD τ).loc main_arg8) :=
  (Win6_of m c main_arg8 (by decide)).trans ((Wout5_of m c main_arg8 (by decide) (by decide)).trans (Warg5_main_arg8 m c))
theorem Warg7_main_arg8 (c : Dev nD) : W15 m c main_arg8 = m ((c : Thread nD τ).loc main_arg8) :=
  (Win7_of m c main_arg8 (by decide)).trans ((Wout6_of m c main_arg8 (by decide) (by decide)).trans (Warg6_main_arg8 m c))
theorem Warg8_main_arg8 (c : Dev nD) : W17 m c main_arg8 = m ((c : Thread nD τ).loc main_arg8) :=
  (Win8_of m c main_arg8 (by decide)).trans ((Wout7_of m c main_arg8 (by decide) (by decide)).trans (Warg7_main_arg8 m c))
theorem Warg9_main_arg8 (c : Dev nD) : W19 m c main_arg8 = m ((c : Thread nD τ).loc main_arg8) :=
  (Win9_of m c main_arg8 (by decide)).trans ((Wout8_of m c main_arg8 (by decide) (by decide)).trans (Warg8_main_arg8 m c))
theorem Warg10_main_arg8 (c : Dev nD) : W21 m c main_arg8 = m ((c : Thread nD τ).loc main_arg8) :=
  (Win10_of m c main_arg8 (by decide)).trans ((Wout9_of m c main_arg8 (by decide) (by decide)).trans (Warg9_main_arg8 m c))
theorem Warg11_main_arg8 (c : Dev nD) : W23 m c main_arg8 = m ((c : Thread nD τ).loc main_arg8) :=
  (Win11_of m c main_arg8 (by decide)).trans ((Wout10_of m c main_arg8 (by decide) (by decide)).trans (Warg10_main_arg8 m c))
theorem Warg12_main_arg8 (c : Dev nD) : W25 m c main_arg8 = m ((c : Thread nD τ).loc main_arg8) :=
  (Win12_of m c main_arg8 (by decide)).trans ((Wout11_of m c main_arg8 (by decide) (by decide)).trans (Warg11_main_arg8 m c))
theorem Warg13_main_arg8 (c : Dev nD) : W27 m c main_arg8 = m ((c : Thread nD τ).loc main_arg8) :=
  (Win13_of m c main_arg8 (by decide)).trans ((Wout12_of m c main_arg8 (by decide) (by decide)).trans (Warg12_main_arg8 m c))

/-! ## The four result arrays of each matrix -/

/-- Matrix 0: the first user layer, -/
theorem E1u_0 (c : Dev nD) : outsAll m 2 main_v2_0 c = Cert.RefSide.layerU (F := Ideal) (m ((c : Thread nD τ).loc main_arg2)) (m ((c : Thread nD τ).loc main_arg1)) :=
  (outsAt0_0 m c).trans ((val0_u (Vin0 m) c).trans
    (congrArg₂ (Cert.RefSide.layerU (F := Ideal)) (Warg0_main_arg2 m c) (Warg0_main_arg1 m c)))
/-- the first item layer; -/
theorem E1i_0 (c : Dev nD) : outsAll m 2 main_v2_1 c = Cert.RefSide.layerI (F := Ideal) (m ((c : Thread nD τ).loc main_arg2)) (m ((c : Thread nD τ).loc main_arg0)) :=
  (outsAt0_1 m c).trans ((val0_i (Vin0 m) c).trans
    (congrArg₂ (Cert.RefSide.layerI (F := Ideal)) (Warg0_main_arg2 m c) (Warg0_main_arg0 m c)))
/-- the second launch finds them in its user and item windows, -/
theorem Wres0_0 (c : Dev nD) : W3 m c main_v2_0 = Cert.RefSide.layerU (F := Ideal) (m ((c : Thread nD τ).loc main_arg2)) (m ((c : Thread nD τ).loc main_arg1)) :=
  (Win1_of m c main_v2_0 (by decide)).trans ((Wout0_0 m c).trans (E1u_0 m c))
theorem Wres0_1 (c : Dev nD) : W3 m c main_v2_1 = Cert.RefSide.layerI (F := Ideal) (m ((c : Thread nD τ).loc main_arg2)) (m ((c : Thread nD τ).loc main_arg0)) :=
  (Win1_of m c main_v2_1 (by decide)).trans ((Wout0_1 m c).trans (E1i_0 m c))
/-- so the second user layer reads the first item layer, -/
theorem E2u_0 (c : Dev nD) : outsAll m 4 main_v5_0 c = Cert.RefSide.layerU (F := Ideal) (m ((c : Thread nD τ).loc main_arg2)) (Cert.RefSide.layerI (F := Ideal) (m ((c : Thread nD τ).loc main_arg2)) (m ((c : Thread nD τ).loc main_arg0))) :=
  (outsAt1_0 m c).trans ((val1_u (Vin1 m) c).trans
    (congrArg₂ (Cert.RefSide.layerU (F := Ideal)) (Warg1_main_arg2 m c) (Wres0_1 m c)))
/-- and the second item layer the first user layer. -/
theorem E2i_0 (c : Dev nD) : outsAll m 4 main_v5_1 c = Cert.RefSide.layerI (F := Ideal) (m ((c : Thread nD τ).loc main_arg2)) (Cert.RefSide.layerU (F := Ideal) (m ((c : Thread nD τ).loc main_arg2)) (m ((c : Thread nD τ).loc main_arg1))) :=
  (outsAt1_1 m c).trans ((val1_i (Vin1 m) c).trans
    (congrArg₂ (Cert.RefSide.layerI (F := Ideal)) (Warg1_main_arg2 m c) (Wres0_0 m c)))

/-- Matrix 1: the first user layer, -/
theorem E1u_1 (c : Dev nD) : outsAll m 6 main_v14_0 c = Cert.RefSide.layerU (F := Ideal) (m ((c : Thread nD τ).loc main_arg3)) (m ((c : Thread nD τ).loc main_arg1)) :=
  (outsAt2_0 m c).trans ((val2_u (Vin2 m) c).trans
    (congrArg₂ (Cert.RefSide.layerU (F := Ideal)) (Warg2_main_arg3 m c) (Warg2_main_arg1 m c)))
/-- the first item layer; -/
theorem E1i_1 (c : Dev nD) : outsAll m 6 main_v14_1 c = Cert.RefSide.layerI (F := Ideal) (m ((c : Thread nD τ).loc main_arg3)) (m ((c : Thread nD τ).loc main_arg0)) :=
  (outsAt2_1 m c).trans ((val2_i (Vin2 m) c).trans
    (congrArg₂ (Cert.RefSide.layerI (F := Ideal)) (Warg2_main_arg3 m c) (Warg2_main_arg0 m c)))
/-- the second launch finds them in its user and item windows, -/
theorem Wres2_0 (c : Dev nD) : W7 m c main_v14_0 = Cert.RefSide.layerU (F := Ideal) (m ((c : Thread nD τ).loc main_arg3)) (m ((c : Thread nD τ).loc main_arg1)) :=
  (Win3_of m c main_v14_0 (by decide)).trans ((Wout2_0 m c).trans (E1u_1 m c))
theorem Wres2_1 (c : Dev nD) : W7 m c main_v14_1 = Cert.RefSide.layerI (F := Ideal) (m ((c : Thread nD τ).loc main_arg3)) (m ((c : Thread nD τ).loc main_arg0)) :=
  (Win3_of m c main_v14_1 (by decide)).trans ((Wout2_1 m c).trans (E1i_1 m c))
/-- so the second user layer reads the first item layer, -/
theorem E2u_1 (c : Dev nD) : outsAll m 8 main_v17_0 c = Cert.RefSide.layerU (F := Ideal) (m ((c : Thread nD τ).loc main_arg3)) (Cert.RefSide.layerI (F := Ideal) (m ((c : Thread nD τ).loc main_arg3)) (m ((c : Thread nD τ).loc main_arg0))) :=
  (outsAt3_0 m c).trans ((val3_u (Vin3 m) c).trans
    (congrArg₂ (Cert.RefSide.layerU (F := Ideal)) (Warg3_main_arg3 m c) (Wres2_1 m c)))
/-- and the second item layer the first user layer. -/
theorem E2i_1 (c : Dev nD) : outsAll m 8 main_v17_1 c = Cert.RefSide.layerI (F := Ideal) (m ((c : Thread nD τ).loc main_arg3)) (Cert.RefSide.layerU (F := Ideal) (m ((c : Thread nD τ).loc main_arg3)) (m ((c : Thread nD τ).loc main_arg1))) :=
  (outsAt3_1 m c).trans ((val3_i (Vin3 m) c).trans
    (congrArg₂ (Cert.RefSide.layerI (F := Ideal)) (Warg3_main_arg3 m c) (Wres2_0 m c)))

/-- Matrix 2: the first user layer, -/
theorem E1u_2 (c : Dev nD) : outsAll m 10 main_v26_0 c = Cert.RefSide.layerU (F := Ideal) (m ((c : Thread nD τ).loc main_arg4)) (m ((c : Thread nD τ).loc main_arg1)) :=
  (outsAt4_0 m c).trans ((val4_u (Vin4 m) c).trans
    (congrArg₂ (Cert.RefSide.layerU (F := Ideal)) (Warg4_main_arg4 m c) (Warg4_main_arg1 m c)))
/-- the first item layer; -/
theorem E1i_2 (c : Dev nD) : outsAll m 10 main_v26_1 c = Cert.RefSide.layerI (F := Ideal) (m ((c : Thread nD τ).loc main_arg4)) (m ((c : Thread nD τ).loc main_arg0)) :=
  (outsAt4_1 m c).trans ((val4_i (Vin4 m) c).trans
    (congrArg₂ (Cert.RefSide.layerI (F := Ideal)) (Warg4_main_arg4 m c) (Warg4_main_arg0 m c)))
/-- the second launch finds them in its user and item windows, -/
theorem Wres4_0 (c : Dev nD) : W11 m c main_v26_0 = Cert.RefSide.layerU (F := Ideal) (m ((c : Thread nD τ).loc main_arg4)) (m ((c : Thread nD τ).loc main_arg1)) :=
  (Win5_of m c main_v26_0 (by decide)).trans ((Wout4_0 m c).trans (E1u_2 m c))
theorem Wres4_1 (c : Dev nD) : W11 m c main_v26_1 = Cert.RefSide.layerI (F := Ideal) (m ((c : Thread nD τ).loc main_arg4)) (m ((c : Thread nD τ).loc main_arg0)) :=
  (Win5_of m c main_v26_1 (by decide)).trans ((Wout4_1 m c).trans (E1i_2 m c))
/-- so the second user layer reads the first item layer, -/
theorem E2u_2 (c : Dev nD) : outsAll m 12 main_v29_0 c = Cert.RefSide.layerU (F := Ideal) (m ((c : Thread nD τ).loc main_arg4)) (Cert.RefSide.layerI (F := Ideal) (m ((c : Thread nD τ).loc main_arg4)) (m ((c : Thread nD τ).loc main_arg0))) :=
  (outsAt5_0 m c).trans ((val5_u (Vin5 m) c).trans
    (congrArg₂ (Cert.RefSide.layerU (F := Ideal)) (Warg5_main_arg4 m c) (Wres4_1 m c)))
/-- and the second item layer the first user layer. -/
theorem E2i_2 (c : Dev nD) : outsAll m 12 main_v29_1 c = Cert.RefSide.layerI (F := Ideal) (m ((c : Thread nD τ).loc main_arg4)) (Cert.RefSide.layerU (F := Ideal) (m ((c : Thread nD τ).loc main_arg4)) (m ((c : Thread nD τ).loc main_arg1))) :=
  (outsAt5_1 m c).trans ((val5_i (Vin5 m) c).trans
    (congrArg₂ (Cert.RefSide.layerI (F := Ideal)) (Warg5_main_arg4 m c) (Wres4_0 m c)))

/-- Matrix 3: the first user layer, -/
theorem E1u_3 (c : Dev nD) : outsAll m 14 main_v38_0 c = Cert.RefSide.layerU (F := Ideal) (m ((c : Thread nD τ).loc main_arg5)) (m ((c : Thread nD τ).loc main_arg1)) :=
  (outsAt6_0 m c).trans ((val6_u (Vin6 m) c).trans
    (congrArg₂ (Cert.RefSide.layerU (F := Ideal)) (Warg6_main_arg5 m c) (Warg6_main_arg1 m c)))
/-- the first item layer; -/
theorem E1i_3 (c : Dev nD) : outsAll m 14 main_v38_1 c = Cert.RefSide.layerI (F := Ideal) (m ((c : Thread nD τ).loc main_arg5)) (m ((c : Thread nD τ).loc main_arg0)) :=
  (outsAt6_1 m c).trans ((val6_i (Vin6 m) c).trans
    (congrArg₂ (Cert.RefSide.layerI (F := Ideal)) (Warg6_main_arg5 m c) (Warg6_main_arg0 m c)))
/-- the second launch finds them in its user and item windows, -/
theorem Wres6_0 (c : Dev nD) : W15 m c main_v38_0 = Cert.RefSide.layerU (F := Ideal) (m ((c : Thread nD τ).loc main_arg5)) (m ((c : Thread nD τ).loc main_arg1)) :=
  (Win7_of m c main_v38_0 (by decide)).trans ((Wout6_0 m c).trans (E1u_3 m c))
theorem Wres6_1 (c : Dev nD) : W15 m c main_v38_1 = Cert.RefSide.layerI (F := Ideal) (m ((c : Thread nD τ).loc main_arg5)) (m ((c : Thread nD τ).loc main_arg0)) :=
  (Win7_of m c main_v38_1 (by decide)).trans ((Wout6_1 m c).trans (E1i_3 m c))
/-- so the second user layer reads the first item layer, -/
theorem E2u_3 (c : Dev nD) : outsAll m 16 main_v41_0 c = Cert.RefSide.layerU (F := Ideal) (m ((c : Thread nD τ).loc main_arg5)) (Cert.RefSide.layerI (F := Ideal) (m ((c : Thread nD τ).loc main_arg5)) (m ((c : Thread nD τ).loc main_arg0))) :=
  (outsAt7_0 m c).trans ((val7_u (Vin7 m) c).trans
    (congrArg₂ (Cert.RefSide.layerU (F := Ideal)) (Warg7_main_arg5 m c) (Wres6_1 m c)))
/-- and the second item layer the first user layer. -/
theorem E2i_3 (c : Dev nD) : outsAll m 16 main_v41_1 c = Cert.RefSide.layerI (F := Ideal) (m ((c : Thread nD τ).loc main_arg5)) (Cert.RefSide.layerU (F := Ideal) (m ((c : Thread nD τ).loc main_arg5)) (m ((c : Thread nD τ).loc main_arg1))) :=
  (outsAt7_1 m c).trans ((val7_i (Vin7 m) c).trans
    (congrArg₂ (Cert.RefSide.layerI (F := Ideal)) (Warg7_main_arg5 m c) (Wres6_0 m c)))

/-- Matrix 4: the first user layer, -/
theorem E1u_4 (c : Dev nD) : outsAll m 18 main_v50_0 c = Cert.RefSide.layerU (F := Ideal) (m ((c : Thread nD τ).loc main_arg6)) (m ((c : Thread nD τ).loc main_arg1)) :=
  (outsAt8_0 m c).trans ((val8_u (Vin8 m) c).trans
    (congrArg₂ (Cert.RefSide.layerU (F := Ideal)) (Warg8_main_arg6 m c) (Warg8_main_arg1 m c)))
/-- the first item layer; -/
theorem E1i_4 (c : Dev nD) : outsAll m 18 main_v50_1 c = Cert.RefSide.layerI (F := Ideal) (m ((c : Thread nD τ).loc main_arg6)) (m ((c : Thread nD τ).loc main_arg0)) :=
  (outsAt8_1 m c).trans ((val8_i (Vin8 m) c).trans
    (congrArg₂ (Cert.RefSide.layerI (F := Ideal)) (Warg8_main_arg6 m c) (Warg8_main_arg0 m c)))
/-- the second launch finds them in its user and item windows, -/
theorem Wres8_0 (c : Dev nD) : W19 m c main_v50_0 = Cert.RefSide.layerU (F := Ideal) (m ((c : Thread nD τ).loc main_arg6)) (m ((c : Thread nD τ).loc main_arg1)) :=
  (Win9_of m c main_v50_0 (by decide)).trans ((Wout8_0 m c).trans (E1u_4 m c))
theorem Wres8_1 (c : Dev nD) : W19 m c main_v50_1 = Cert.RefSide.layerI (F := Ideal) (m ((c : Thread nD τ).loc main_arg6)) (m ((c : Thread nD τ).loc main_arg0)) :=
  (Win9_of m c main_v50_1 (by decide)).trans ((Wout8_1 m c).trans (E1i_4 m c))
/-- so the second user layer reads the first item layer, -/
theorem E2u_4 (c : Dev nD) : outsAll m 20 main_v53_0 c = Cert.RefSide.layerU (F := Ideal) (m ((c : Thread nD τ).loc main_arg6)) (Cert.RefSide.layerI (F := Ideal) (m ((c : Thread nD τ).loc main_arg6)) (m ((c : Thread nD τ).loc main_arg0))) :=
  (outsAt9_0 m c).trans ((val9_u (Vin9 m) c).trans
    (congrArg₂ (Cert.RefSide.layerU (F := Ideal)) (Warg9_main_arg6 m c) (Wres8_1 m c)))
/-- and the second item layer the first user layer. -/
theorem E2i_4 (c : Dev nD) : outsAll m 20 main_v53_1 c = Cert.RefSide.layerI (F := Ideal) (m ((c : Thread nD τ).loc main_arg6)) (Cert.RefSide.layerU (F := Ideal) (m ((c : Thread nD τ).loc main_arg6)) (m ((c : Thread nD τ).loc main_arg1))) :=
  (outsAt9_1 m c).trans ((val9_i (Vin9 m) c).trans
    (congrArg₂ (Cert.RefSide.layerI (F := Ideal)) (Warg9_main_arg6 m c) (Wres8_0 m c)))

/-- Matrix 5: the first user layer, -/
theorem E1u_5 (c : Dev nD) : outsAll m 22 main_v63_0 c = Cert.RefSide.layerU (F := Ideal) (m ((c : Thread nD τ).loc main_arg7)) (m ((c : Thread nD τ).loc main_arg1)) :=
  (outsAt10_0 m c).trans ((val10_u (Vin10 m) c).trans
    (congrArg₂ (Cert.RefSide.layerU (F := Ideal)) (Warg10_main_arg7 m c) (Warg10_main_arg1 m c)))
/-- the first item layer; -/
theorem E1i_5 (c : Dev nD) : outsAll m 22 main_v63_1 c = Cert.RefSide.layerI (F := Ideal) (m ((c : Thread nD τ).loc main_arg7)) (m ((c : Thread nD τ).loc main_arg0)) :=
  (outsAt10_1 m c).trans ((val10_i (Vin10 m) c).trans
    (congrArg₂ (Cert.RefSide.layerI (F := Ideal)) (Warg10_main_arg7 m c) (Warg10_main_arg0 m c)))
/-- the second launch finds them in its user and item windows, -/
theorem Wres10_0 (c : Dev nD) : W23 m c main_v63_0 = Cert.RefSide.layerU (F := Ideal) (m ((c : Thread nD τ).loc main_arg7)) (m ((c : Thread nD τ).loc main_arg1)) :=
  (Win11_of m c main_v63_0 (by decide)).trans ((Wout10_0 m c).trans (E1u_5 m c))
theorem Wres10_1 (c : Dev nD) : W23 m c main_v63_1 = Cert.RefSide.layerI (F := Ideal) (m ((c : Thread nD τ).loc main_arg7)) (m ((c : Thread nD τ).loc main_arg0)) :=
  (Win11_of m c main_v63_1 (by decide)).trans ((Wout10_1 m c).trans (E1i_5 m c))
/-- so the second user layer reads the first item layer, -/
theorem E2u_5 (c : Dev nD) : outsAll m 24 main_v66_0 c = Cert.RefSide.layerU (F := Ideal) (m ((c : Thread nD τ).loc main_arg7)) (Cert.RefSide.layerI (F := Ideal) (m ((c : Thread nD τ).loc main_arg7)) (m ((c : Thread nD τ).loc main_arg0))) :=
  (outsAt11_0 m c).trans ((val11_u (Vin11 m) c).trans
    (congrArg₂ (Cert.RefSide.layerU (F := Ideal)) (Warg11_main_arg7 m c) (Wres10_1 m c)))
/-- and the second item layer the first user layer. -/
theorem E2i_5 (c : Dev nD) : outsAll m 24 main_v66_1 c = Cert.RefSide.layerI (F := Ideal) (m ((c : Thread nD τ).loc main_arg7)) (Cert.RefSide.layerU (F := Ideal) (m ((c : Thread nD τ).loc main_arg7)) (m ((c : Thread nD τ).loc main_arg1))) :=
  (outsAt11_1 m c).trans ((val11_i (Vin11 m) c).trans
    (congrArg₂ (Cert.RefSide.layerI (F := Ideal)) (Warg11_main_arg7 m c) (Wres10_0 m c)))

/-- Matrix 6: the first user layer, -/
theorem E1u_6 (c : Dev nD) : outsAll m 26 main_v76_0 c = Cert.RefSide.layerU (F := Ideal) (m ((c : Thread nD τ).loc main_arg8)) (m ((c : Thread nD τ).loc main_arg1)) :=
  (outsAt12_0 m c).trans ((val12_u (Vin12 m) c).trans
    (congrArg₂ (Cert.RefSide.layerU (F := Ideal)) (Warg12_main_arg8 m c) (Warg12_main_arg1 m c)))
/-- the first item layer; -/
theorem E1i_6 (c : Dev nD) : outsAll m 26 main_v76_1 c = Cert.RefSide.layerI (F := Ideal) (m ((c : Thread nD τ).loc main_arg8)) (m ((c : Thread nD τ).loc main_arg0)) :=
  (outsAt12_1 m c).trans ((val12_i (Vin12 m) c).trans
    (congrArg₂ (Cert.RefSide.layerI (F := Ideal)) (Warg12_main_arg8 m c) (Warg12_main_arg0 m c)))
/-- the second launch finds them in its user and item windows, -/
theorem Wres12_0 (c : Dev nD) : W27 m c main_v76_0 = Cert.RefSide.layerU (F := Ideal) (m ((c : Thread nD τ).loc main_arg8)) (m ((c : Thread nD τ).loc main_arg1)) :=
  (Win13_of m c main_v76_0 (by decide)).trans ((Wout12_0 m c).trans (E1u_6 m c))
theorem Wres12_1 (c : Dev nD) : W27 m c main_v76_1 = Cert.RefSide.layerI (F := Ideal) (m ((c : Thread nD τ).loc main_arg8)) (m ((c : Thread nD τ).loc main_arg0)) :=
  (Win13_of m c main_v76_1 (by decide)).trans ((Wout12_1 m c).trans (E1i_6 m c))
/-- so the second user layer reads the first item layer, -/
theorem E2u_6 (c : Dev nD) : outsAll m 28 main_v79_0 c = Cert.RefSide.layerU (F := Ideal) (m ((c : Thread nD τ).loc main_arg8)) (Cert.RefSide.layerI (F := Ideal) (m ((c : Thread nD τ).loc main_arg8)) (m ((c : Thread nD τ).loc main_arg0))) :=
  (outsAt13_0 m c).trans ((val13_u (Vin13 m) c).trans
    (congrArg₂ (Cert.RefSide.layerU (F := Ideal)) (Warg13_main_arg8 m c) (Wres12_1 m c)))
/-- and the second item layer the first user layer. -/
theorem E2i_6 (c : Dev nD) : outsAll m 28 main_v79_1 c = Cert.RefSide.layerI (F := Ideal) (m ((c : Thread nD τ).loc main_arg8)) (Cert.RefSide.layerU (F := Ideal) (m ((c : Thread nD τ).loc main_arg8)) (m ((c : Thread nD τ).loc main_arg1))) :=
  (outsAt13_1 m c).trans ((val13_i (Vin13 m) c).trans
    (congrArg₂ (Cert.RefSide.layerI (F := Ideal)) (Warg13_main_arg8 m c) (Wres12_0 m c)))

/-! ## The program's result -/

/-- The kernel's result is the stack of the fourteen means: the user means of the first four matrices, their item means,
    the user means of the last three matrices each plus its addend, and their item means. -/
theorem kernel_result (c : Dev nD) : V29 m (outsAll m) c main_v105 = Cert.RefSide.stack14 (F := Ideal)
      (Cert.RefSide.userMean (F := Ideal) (m ((c : Thread nD τ).loc main_arg2)) (m ((c : Thread nD τ).loc main_arg0)) (m ((c : Thread nD τ).loc main_arg1)))
      (Cert.RefSide.userMean (F := Ideal) (m ((c : Thread nD τ).loc main_arg3)) (m ((c : Thread nD τ).loc main_arg0)) (m ((c : Thread nD τ).loc main_arg1)))
      (Cert.RefSide.userMean (F := Ideal) (m ((c : Thread nD τ).loc main_arg4)) (m ((c : Thread nD τ).loc main_arg0)) (m ((c : Thread nD τ).loc main_arg1)))
      (Cert.RefSide.userMean (F := Ideal) (m ((c : Thread nD τ).loc main_arg5)) (m ((c : Thread nD τ).loc main_arg0)) (m ((c : Thread nD τ).loc main_arg1)))
      (Cert.RefSide.itemMean (F := Ideal) (m ((c : Thread nD τ).loc main_arg2)) (m ((c : Thread nD τ).loc main_arg0)) (m ((c : Thread nD τ).loc main_arg1)))
      (Cert.RefSide.itemMean (F := Ideal) (m ((c : Thread nD τ).loc main_arg3)) (m ((c : Thread nD τ).loc main_arg0)) (m ((c : Thread nD τ).loc main_arg1)))
      (Cert.RefSide.itemMean (F := Ideal) (m ((c : Thread nD τ).loc main_arg4)) (m ((c : Thread nD τ).loc main_arg0)) (m ((c : Thread nD τ).loc main_arg1)))
      (Cert.RefSide.itemMean (F := Ideal) (m ((c : Thread nD τ).loc main_arg5)) (m ((c : Thread nD τ).loc main_arg0)) (m ((c : Thread nD τ).loc main_arg1)))
      (addf (Cert.RefSide.userMean (F := Ideal) (m ((c : Thread nD τ).loc main_arg6)) (m ((c : Thread nD τ).loc main_arg0)) (m ((c : Thread nD τ).loc main_arg1))) (m ((c : Thread nD τ).loc main_arg9)))
      (addf (Cert.RefSide.userMean (F := Ideal) (m ((c : Thread nD τ).loc main_arg7)) (m ((c : Thread nD τ).loc main_arg0)) (m ((c : Thread nD τ).loc main_arg1))) (m ((c : Thread nD τ).loc main_arg10)))
      (addf (Cert.RefSide.userMean (F := Ideal) (m ((c : Thread nD τ).loc main_arg8)) (m ((c : Thread nD τ).loc main_arg0)) (m ((c : Thread nD τ).loc main_arg1))) (m ((c : Thread nD τ).loc main_arg11)))
      (Cert.RefSide.itemMean (F := Ideal) (m ((c : Thread nD τ).loc main_arg6)) (m ((c : Thread nD τ).loc main_arg0)) (m ((c : Thread nD τ).loc main_arg1)))
      (Cert.RefSide.itemMean (F := Ideal) (m ((c : Thread nD τ).loc main_arg7)) (m ((c : Thread nD τ).loc main_arg0)) (m ((c : Thread nD τ).loc main_arg1)))
      (Cert.RefSide.itemMean (F := Ideal) (m ((c : Thread nD τ).loc main_arg8)) (m ((c : Thread nD τ).loc main_arg0)) (m ((c : Thread nD τ).loc main_arg1))) := by
  refine (tail_eq m (outsAll m) c).trans ?_
  rw [E1u_0 m c, E2u_0 m c, E1i_0 m c, E2i_0 m c, E1u_1 m c, E2u_1 m c, E1i_1 m c, E2i_1 m c, E1u_2 m c, E2u_2 m c, E1i_2 m c, E2i_2 m c, E1u_3 m c, E2u_3 m c, E1i_3 m c, E2i_3 m c, E1u_4 m c, E2u_4 m c, E1i_4 m c, E2i_4 m c, E1u_5 m c, E2u_5 m c, E1i_5 m c, E2i_5 m c, E1u_6 m c, E2u_6 m c, E1i_6 m c, E2i_6 m c]
  rw [kstack_eq_ref]
  simp only [kmean2_eq_ref]
  unfold Cert.RefSide.userMean Cert.RefSide.itemMean
  rfl

end Cert.KernelIdeal.Hand

end
-- ==== Proof.Claims.lean ====
import proofs.«103934_j28484223107660_1_alg».proof.Defs
import proofs.«103934_j28484223107660_1_alg».proof.Proof.Gen.Kernel
import proofs.«103934_j28484223107660_1_alg».proof.Proof.Gen.Kernel.Skeleton
import proofs.«103934_j28484223107660_1_alg».proof.Proof.Gen.Kernel.Launch
import proofs.«103934_j28484223107660_1_alg».proof.Proof.Gen.Kernel.Regions
import proofs.«103934_j28484223107660_1_alg».proof.Proof.Gen.Kernel.Points
import proofs.«103934_j28484223107660_1_alg».proof.Proof.Gen.KernelIdeal
import proofs.«103934_j28484223107660_1_alg».proof.Proof.Gen.KernelIdeal.Skeleton
import proofs.«103934_j28484223107660_1_alg».proof.Proof.Gen.KernelIdeal.Launch
import proofs.«103934_j28484223107660_1_alg».proof.Proof.Gen.KernelIdeal.Regions
import proofs.«103934_j28484223107660_1_alg».proof.Proof.Gen.KernelIdeal.Points
import proofs.«103934_j28484223107660_1_alg».proof.Proof.Gen.ReferenceIdeal
import proofs.«103934_j28484223107660_1_alg».proof.Proof.Gen.ReferenceIdeal.Run
import proofs.«103934_j28484223107660_1_alg».proof.Proof.Gen.Pre_finite_inputs
import proofs.«103934_j28484223107660_1_alg».proof.Proof.KI.Frame
import proofs.«103934_j28484223107660_1_alg».proof.Proof.K.Frame
import proofs.«103934_j28484223107660_1_alg».proof.Proof.KI.ValueChain
import proofs.«103934_j28484223107660_1_alg».proof.Proof.Ref.Result
import Idealize.ShloMosaic.Adequacy
import Idealize.ShloMosaic.Init

/-! The five claims. The two programs' results are one value: for each interaction matrix the mean of two propagation
    layers of the user features and of the item features, stacked; the kernel's regions compute each layer's sums
    row block by row block, and a sum over the row blocks in turn is the sum over all rows, addition of extended
    reals being associative and commutative. -/

noncomputable section

namespace Cert.Proof.Claims

open Idealize.ShloMosaic Idealize.SL.Sem

/-- The common result on a device: the reference's stack over the kernel's argument arrays. -/
def common (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v105) :=
  Cert.RefSide.stack14 (F := Ideal)
    (Cert.RefSide.userMean (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.userMean (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.userMean (m ((c.tc : Thread Cert.KernelIdeal.nD Cert.KernelIdeal.τ).loc Cert.KernelIdeal.main_arg4)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.userMean (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.itemMean (m ((c.tc : Thread Cert.KernelIdeal.nD Cert.KernelIdeal.τ).loc Cert.KernelIdeal.main_arg2)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.itemMean (m ((c.tc : Thread Cert.KernelIdeal.nD Cert.KernelIdeal.τ).loc Cert.KernelIdeal.main_arg3)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.itemMean (m ((c.tc : Thread Cert.KernelIdeal.nD Cert.KernelIdeal.τ).loc Cert.KernelIdeal.main_arg4)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.itemMean (m ((c.tc : Thread Cert.KernelIdeal.nD Cert.KernelIdeal.τ).loc Cert.KernelIdeal.main_arg5)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (addf (Cert.RefSide.userMean (m ((c.tc : Thread Cert.KernelIdeal.nD Cert.KernelIdeal.τ).loc Cert.KernelIdeal.main_arg6)) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg9)))
    (addf (Cert.RefSide.userMean (m ((c.tc : Thread Cert.KernelIdeal.nD Cert.KernelIdeal.τ).loc Cert.KernelIdeal.main_arg7)) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg10)))
    (addf (Cert.RefSide.userMean (m ((c.tc : Thread Cert.KernelIdeal.nD Cert.KernelIdeal.τ).loc Cert.KernelIdeal.main_arg8)) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg11)))
    (Cert.RefSide.itemMean (m ((c.tc : Thread Cert.KernelIdeal.nD Cert.KernelIdeal.τ).loc Cert.KernelIdeal.main_arg6)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.itemMean (m ((c.tc : Thread Cert.KernelIdeal.nD Cert.KernelIdeal.τ).loc Cert.KernelIdeal.main_arg7)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
    (Cert.RefSide.itemMean (m ((c.tc : Thread Cert.KernelIdeal.nD Cert.KernelIdeal.τ).loc Cert.KernelIdeal.main_arg8)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))

theorem frame_k : Cert.frame_Kernel := fun m ρ _ => Cert.Kernel.Hand.frameAll (F := Bits) m ρ
theorem frame_ki : Cert.frame_KernelIdeal := fun m ρ _ => Cert.KernelIdeal.Hand.frameAll (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxRecDepth 8192 in
/-- Both programs end at the common result: the kernel's by the regions' values and the host lines between them, the
    reference's by its run read as the same stack, the arguments agreeing. -/
theorem algebraic : Cert.algebraic_KernelIdeal_ReferenceIdeal := by
  intro m ρ m' ρ' _ hagree
  refine ⟨common m, ?_, ?_⟩
  · exact (θ_run Cert.KernelIdeal.defs _ _).mono (fun _ h c => ⟨(h c).1.trans (Cert.KernelIdeal.Hand.kernel_result m c), (h c).2⟩)
      (Cert.KernelIdeal.Hand.runAll (F := Ideal) m ρ)
  · refine (θ_run Cert.ReferenceIdeal.defs _ _).mono (fun _ h c => ⟨(h c).1.trans ?_, (h c).2⟩)
      (Cert.ReferenceIdeal.Value.run (F := Ideal) m' ρ')
    refine (Cert.RefSide.res_out0_eq (F := Ideal) (StableHlo.launchContents m' c)).trans ?_
    obtain ⟨h0, h1, h2, h3, h4, h5, h6, h7, h8, h9, h10, h11⟩ := hagree c
    have e0 : StableHlo.launchContents m' c (Proc.devRef .tc Cert.ReferenceIdeal.main_arg0) = m ((c.tc : Thread Cert.KernelIdeal.nD Cert.KernelIdeal.τ).loc Cert.KernelIdeal.main_arg0) := h0
    have e1 : StableHlo.launchContents m' c (Proc.devRef .tc Cert.ReferenceIdeal.main_arg1) = m ((c.tc : Thread Cert.KernelIdeal.nD Cert.KernelIdeal.τ).loc Cert.KernelIdeal.main_arg1) := h1
    have e2 : StableHlo.launchContents m' c (Proc.devRef .tc Cert.ReferenceIdeal.main_arg2) = m ((c.tc : Thread Cert.KernelIdeal.nD Cert.KernelIdeal.τ).loc Cert.KernelIdeal.main_arg2) := h2
    have e3 : StableHlo.launchContents m' c (Proc.devRef .tc Cert.ReferenceIdeal.main_arg3) = m ((c.tc : Thread Cert.KernelIdeal.nD Cert.KernelIdeal.τ).loc Cert.KernelIdeal.main_arg3) := h3
    have e4 : StableHlo.launchContents m' c (Proc.devRef .tc Cert.ReferenceIdeal.main_arg4) = m ((c.tc : Thread Cert.KernelIdeal.nD Cert.KernelIdeal.τ).loc Cert.KernelIdeal.main_arg4) := h4
    have e5 : StableHlo.launchContents m' c (Proc.devRef .tc Cert.ReferenceIdeal.main_arg5) = m ((c.tc : Thread Cert.KernelIdeal.nD Cert.KernelIdeal.τ).loc Cert.KernelIdeal.main_arg5) := h5
    have e6 : StableHlo.launchContents m' c (Proc.devRef .tc Cert.ReferenceIdeal.main_arg6) = m ((c.tc : Thread Cert.KernelIdeal.nD Cert.KernelIdeal.τ).loc Cert.KernelIdeal.main_arg6) := h6
    have e7 : StableHlo.launchContents m' c (Proc.devRef .tc Cert.ReferenceIdeal.main_arg7) = m ((c.tc : Thread Cert.KernelIdeal.nD Cert.KernelIdeal.τ).loc Cert.KernelIdeal.main_arg7) := h7
    have e8 : StableHlo.launchContents m' c (Proc.devRef .tc Cert.ReferenceIdeal.main_arg8) = m ((c.tc : Thread Cert.KernelIdeal.nD Cert.KernelIdeal.τ).loc Cert.KernelIdeal.main_arg8) := h8
    have e9 : StableHlo.launchContents m' c (Proc.devRef .tc Cert.ReferenceIdeal.main_arg9) = m ((c.tc : Thread Cert.KernelIdeal.nD Cert.KernelIdeal.τ).loc Cert.KernelIdeal.main_arg9) := h9
    have e10 : StableHlo.launchContents m' c (Proc.devRef .tc Cert.ReferenceIdeal.main_arg10) = m ((c.tc : Thread Cert.KernelIdeal.nD Cert.KernelIdeal.τ).loc Cert.KernelIdeal.main_arg10) := h10
    have e11 : StableHlo.launchContents m' c (Proc.devRef .tc Cert.ReferenceIdeal.main_arg11) = m ((c.tc : Thread Cert.KernelIdeal.nD Cert.KernelIdeal.τ).loc Cert.KernelIdeal.main_arg11) := h11
    rw [e0, e1, e2, e3, e4, e5, e6, e7, e8, e9, e10, e11]
    rfl

end Cert.Proof.Claims

end
-- ==== Proof.lean ====
/- The proof of `Cert.Claim` (proofs.«103934_j28484223107660_1_alg».proof.Defs).
   For an interaction matrix R (4096 users by 4096 items), user features and item features (4096 by 64 each), one
   propagation layer gives every user the R-weighted sum of the item features divided by the user's degree (the row
   sum of R plus a small constant) and every item the R-weighted sum of the user features divided by the item's degree
   (the column sum of R plus the same constant). For each of seven matrices the result holds the mean of the first and
   the second layer of the users and of the items (zero plus the first plus the second, over two), three of the user
   means plus an addend, the fourteen arrays stacked.
   The kernel reads R in eight blocks of 512 rows. A block holds the whole rows of its users, so their sums and degrees
   are complete within the block; an item's sum and degree gather one partial sum over 512 users from each block. The
   sum of the eight partial sums in turn is the sum over all 4096 users because addition of extended reals is
   associative and commutative; no entry need be finite, and neither distributivity nor cancellation is used. The
   quotients and the means are then the same operations on equal operands, entry by entry. -/
import proofs.«103934_j28484223107660_1_alg».proof.Defs
import proofs.«103934_j28484223107660_1_alg».proof.Proof.Gen.Kernel
import proofs.«103934_j28484223107660_1_alg».proof.Proof.Gen.Kernel.Skeleton
import proofs.«103934_j28484223107660_1_alg».proof.Proof.Gen.Kernel.Launch
import proofs.«103934_j28484223107660_1_alg».proof.Proof.Gen.Kernel.Regions
import proofs.«103934_j28484223107660_1_alg».proof.Proof.Gen.Kernel.Points
import proofs.«103934_j28484223107660_1_alg».proof.Proof.Gen.KernelIdeal
import proofs.«103934_j28484223107660_1_alg».proof.Proof.Gen.KernelIdeal.Skeleton
import proofs.«103934_j28484223107660_1_alg».proof.Proof.Gen.KernelIdeal.Launch
import proofs.«103934_j28484223107660_1_alg».proof.Proof.Gen.KernelIdeal.Regions
import proofs.«103934_j28484223107660_1_alg».proof.Proof.Gen.KernelIdeal.Points
import proofs.«103934_j28484223107660_1_alg».proof.Proof.Gen.ReferenceIdeal
import proofs.«103934_j28484223107660_1_alg».proof.Proof.Gen.ReferenceIdeal.Run
import proofs.«103934_j28484223107660_1_alg».proof.Proof.Gen.Pre_finite_inputs
import proofs.«103934_j28484223107660_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, Claims.frame_k, Claims.frame_ki, Claims.frame_ri, Claims.preserves, Claims.algebraic⟩

end Cert.Proof

end
